-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v251)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v251) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v363) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S4x128x128 : Shape := ⟨3, ![4, 128, 128]⟩
abbrev S4x128 : Shape := ⟨2, ![4, 128]⟩
abbrev S5x128x10 : Shape := ⟨3, ![5, 128, 10]⟩
abbrev S5x10 : Shape := ⟨2, ![5, 10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S5x128x10 : S_.BroadcastsInDim S5x128x10 (![] : Fin 0 → Fin S5x128x10.rank)
  reducesTo_S5x128x10_S_d0_1_2 : S5x128x10.ReducesTo [0, 1, 2] S_
  bcast_S_S5x10 : S_.BroadcastsInDim S5x10 (![] : Fin 0 → Fin S5x10.rank)
  reducesTo_S5x10_S_d0_1 : S5x10.ReducesTo [0, 1] S_

variable [Facts]

def fn_part3 {F : FTy → Type} [FloatOps F] (main_v48 : IVec S_ 1) (main_v49 : FVec F S5x10 .f32) (main_v50 : FVec F S5x10 .f32) : IVec S_ 1 :=
  let main_v51 : IVec S5x10 1 := cmpf .olt main_v49 main_v50
  let main_c_19 : IVec S_ 1 := constantI S_ 1 1#1
  let main_v52 : IVec S_ 1 := (fun x v => Host.reduce IntOp.andi x v reducesTo_S5x10_S_d0_1 h_S_) main_v51 main_c_19
  let main_v53 : IVec S_ 1 := andi main_v48 main_v52
  main_v53

def fn_part2 {F : FTy → Type} [FloatOps F] (main_arg9 : FVec F S4x128 .f32) (main_arg10 : FVec F S4x128 .f32) (main_arg11 : FVec F S5x128x10 .f32) (main_arg12 : FVec F S5x10 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S5x128x10 .f32 := Host.absf main_arg11
  let main_cst_16 : FVec F S_ .f32 := constant S_ .f32 0x7F800000#32
  let main_v45 : FVec F S5x128x10 .f32 := broadcastInDim S5x128x10 ![] bcast_S_S5x128x10 main_cst_16
  let main_v46 : IVec S5x128x10 1 := cmpf .olt main_v44 main_v45
  let main_c_17 : IVec S_ 1 := constantI S_ 1 1#1
  let main_v47 : IVec S_ 1 := (fun x v => Host.reduce IntOp.andi x v reducesTo_S5x128x10_S_d0_1_2 h_S_) main_v46 main_c_17
  let main_v48 : IVec S_ 1 := andi main_v43 main_v47
  let main_v49 : FVec F S5x10 .f32 := Host.absf main_arg12
  let main_cst_18 : FVec F S_ .f32 := constant S_ .f32 0x7F800000#32
  let main_v50 : FVec F S5x10 .f32 := broadcastInDim S5x10 ![] bcast_S_S5x10 main_cst_18
  fn_part3 (F := F) main_v48 main_v49 main_v50

def fn_part1 {F : FTy → Type} [FloatOps F] (main_arg6 : FVec F S4x128 .f32) (main_arg7 : FVec F S4x128x128 .f32) (main_arg8 : FVec F S4x128 .f32) (main_arg9 : FVec F S4x128 .f32) (main_arg10 : FVec F S4x128 .f32) (main_arg11 : FVec F S5x128x10 .f32) (main_arg12 : FVec F S5x10 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x600000 32) (main_arg2 : IVec S100000 32) (main_arg3 : FVec F S4x128x128 .f32) (main_arg4 : FVec F S4x128 .f32) (main_arg5 : FVec F S4x128 .f32) (main_arg6 : FVec F S4x128 .f32) (main_arg7 : FVec F S4x128x128 .f32) (main_arg8 : FVec F S4x128 .f32) (main_arg9 : FVec F S4x128 .f32) (main_arg10 : FVec F S4x128 .f32) (main_arg11 : FVec F S5x128x10 .f32) (main_arg12 : FVec F S5x10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S4x128x128 : Shape := ⟨3, ![4, 128, 128]⟩
abbrev S4x128 : Shape := ⟨2, ![4, 128]⟩
abbrev S5x128x10 : Shape := ⟨3, ![5, 128, 10]⟩
abbrev S5x10 : Shape := ⟨2, ![5, 10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x128 : Shape := ⟨2, ![512, 128]⟩
abbrev S100000x1 : Shape := ⟨2, ![100000, 1]⟩
abbrev S1x128x10 : Shape := ⟨3, ![1, 128, 10]⟩
abbrev S128x10 : Shape := ⟨2, ![128, 10]⟩
abbrev S512x10 : Shape := ⟨2, ![512, 10]⟩
abbrev S1x10 : Shape := ⟨2, ![1, 10]⟩
abbrev S10 : Shape := ⟨1, ![10]⟩
abbrev S512 : Shape := ⟨1, ![512]⟩
abbrev S512x1 : Shape := ⟨2, ![512, 1]⟩

abbrev nBuf : Space → Nat
  | .hbm => 328
  | .vmem => 120
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S4x128, .f32⟩
  | 10 => ⟨S4x128, .f32⟩
  | 11 => ⟨S5x128x10, .f32⟩
  | 12 => ⟨S5x10, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S100000x128, .f32⟩
  | 28 => ⟨S600000x1, .i32⟩
  | 29 => ⟨S100000x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S100000x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S128, .f32⟩
  | 48 => ⟨S1x128, .f32⟩
  | 49 => ⟨S128, .f32⟩
  | 50 => ⟨S1x128x128, .f32⟩
  | 51 => ⟨S128x128, .f32⟩
  | 52 => ⟨S1x128, .f32⟩
  | 53 => ⟨S128, .f32⟩
  | 54 => ⟨S1x128, .f32⟩
  | 55 => ⟨S1x128, .f32⟩
  | 56 => ⟨S1x128, .f32⟩
  | 57 => ⟨S100000x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S1x128, .f32⟩
  | 74 => ⟨S100000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000x128, .f32⟩
  | 84 => ⟨S_, .f32⟩
  | 85 => ⟨S100000x128, .f32⟩
  | 86 => ⟨S600000x1, .i32⟩
  | 87 => ⟨S100000x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S100000x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S1x128, .f32⟩
  | 114 => ⟨S1x128, .f32⟩
  | 115 => ⟨S100000x128, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S100000x128, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x128, .f32⟩
  | 14 => ⟨S_, .f32⟩
  | 15 => ⟨S100000x128, .f32⟩
  | 16 => ⟨S600000x1, .i32⟩
  | 17 => ⟨S100000x128, .f32⟩
  | 18 => ⟨S1x128x128, .f32⟩
  | 19 => ⟨S128x128, .f32⟩
  | 20 => ⟨S1x128, .f32⟩
  | 21 => ⟨S128, .f32⟩
  | 22 => ⟨S1x128, .f32⟩
  | 23 => ⟨S100000x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S1x128, .f32⟩
  | 45 => ⟨S100000x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S1x128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S1x128, .f32⟩
  | 62 => ⟨S100000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S100000x128, .f32⟩
  | 74 => ⟨S600000x1, .i32⟩
  | 75 => ⟨S100000x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S100000x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S128, .f32⟩
  | 94 => ⟨S1x128, .f32⟩
  | 95 => ⟨S128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S1x128, .f32⟩
  | 102 => ⟨S1x128, .f32⟩
  | 103 => ⟨S100000x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S1x128, .f32⟩
  | 120 => ⟨S100000x128, .f32⟩
  | 121 => ⟨S_, .f32⟩
  | 122 => ⟨S512x128, .f32⟩
  | 123 => ⟨S100000x1, .i32⟩
  | 124 => ⟨S512x128, .f32⟩
  | 125 => ⟨S1x128x10, .f32⟩
  | 126 => ⟨S128x10, .f32⟩
  | 127 => ⟨S512x10, .f32⟩
  | _ => ⟨S100000x128, .f32⟩

abbrev hbmTy0_2 (i : Nat) : BufTy := match i % 128 with
  | 0 => ⟨S1x10, .f32⟩
  | 1 => ⟨S10, .f32⟩
  | 2 => ⟨S1x10, .f32⟩
  | 3 => ⟨S512x10, .f32⟩
  | 4 => ⟨S512x10, .f32⟩
  | 5 => ⟨S_, .f32⟩
  | 6 => ⟨S512x128, .f32⟩
  | 7 => ⟨S100000x1, .i32⟩
  | 8 => ⟨S512x128, .f32⟩
  | 9 => ⟨S1x128x10, .f32⟩
  | 10 => ⟨S128x10, .f32⟩
  | 11 => ⟨S512x10, .f32⟩
  | 12 => ⟨S1x10, .f32⟩
  | 13 => ⟨S10, .f32⟩
  | 14 => ⟨S1x10, .f32⟩
  | 15 => ⟨S512x10, .f32⟩
  | 16 => ⟨S512x10, .f32⟩
  | 17 => ⟨S512x10, .f32⟩
  | 18 => ⟨S_, .f32⟩
  | 19 => ⟨S512x128, .f32⟩
  | 20 => ⟨S100000x1, .i32⟩
  | 21 => ⟨S512x128, .f32⟩
  | 22 => ⟨S1x128x10, .f32⟩
  | 23 => ⟨S128x10, .f32⟩
  | 24 => ⟨S512x10, .f32⟩
  | 25 => ⟨S1x10, .f32⟩
  | 26 => ⟨S10, .f32⟩
  | 27 => ⟨S1x10, .f32⟩
  | 28 => ⟨S512x10, .f32⟩
  | 29 => ⟨S512x10, .f32⟩
  | 30 => ⟨S512x10, .f32⟩
  | 31 => ⟨S_, .f32⟩
  | 32 => ⟨S512x128, .f32⟩
  | 33 => ⟨S100000x1, .i32⟩
  | 34 => ⟨S512x128, .f32⟩
  | 35 => ⟨S1x128x10, .f32⟩
  | 36 => ⟨S128x10, .f32⟩
  | 37 => ⟨S512x10, .f32⟩
  | 38 => ⟨S1x10, .f32⟩
  | 39 => ⟨S10, .f32⟩
  | 40 => ⟨S1x10, .f32⟩
  | 41 => ⟨S512x10, .f32⟩
  | 42 => ⟨S512x10, .f32⟩
  | 43 => ⟨S512x10, .f32⟩
  | 44 => ⟨S_, .f32⟩
  | 45 => ⟨S512x128, .f32⟩
  | 46 => ⟨S100000x1, .i32⟩
  | 47 => ⟨S512x128, .f32⟩
  | 48 => ⟨S1x128x10, .f32⟩
  | 49 => ⟨S128x10, .f32⟩
  | 50 => ⟨S512x10, .f32⟩
  | 51 => ⟨S1x10, .f32⟩
  | 52 => ⟨S10, .f32⟩
  | 53 => ⟨S1x10, .f32⟩
  | 54 => ⟨S512x10, .f32⟩
  | 55 => ⟨S512x10, .f32⟩
  | 56 => ⟨S512x10, .f32⟩
  | 57 => ⟨S_, .f32⟩
  | 58 => ⟨S512, .f32⟩
  | 59 => ⟨S_, .f32⟩
  | 60 => ⟨S512, .f32⟩
  | 61 => ⟨S512, .f32⟩
  | 62 => ⟨S512x1, .f32⟩
  | 63 => ⟨S512x10, .f32⟩
  | 64 => ⟨S512x10, .f32⟩
  | 65 => ⟨S512x10, .f32⟩
  | 66 => ⟨S_, .f32⟩
  | 67 => ⟨S512, .f32⟩
  | 68 => ⟨S512x1, .f32⟩
  | 69 => ⟨S512x1, .f32⟩
  | 70 => ⟨S512x10, .f32⟩
  | 71 => ⟨S512x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S1x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S128x128, .f32⟩
  | .local _ .vmem, ⟨95, _⟩ => ⟨S1x128, .f32⟩
  | .local _ .vmem, ⟨96, _⟩ => ⟨S5000x128, .f32⟩
  | .local _ .vmem, ⟨97, _⟩ => ⟨S5000x128, .f32⟩
  | .local _ .vmem, ⟨98, _⟩ => ⟨S1x128, .f32⟩
  | .local _ .vmem, ⟨99, _⟩ => ⟨S1x128, .f32⟩
  | .local _ .vmem, ⟨100, _⟩ => ⟨S5000x128, .f32⟩
  | .local _ .vmem, ⟨101, _⟩ => ⟨S5000x128, .f32⟩
  | .local _ .vmem, ⟨102, _⟩ => ⟨S1x128, .f32⟩
  | .local _ .vmem, ⟨103, _⟩ => ⟨S1x128, .f32⟩
  | .local _ .vmem, ⟨104, _⟩ => ⟨S1x128, .f32⟩
  | .local _ .vmem, ⟨105, _⟩ => ⟨S1x128, .f32⟩
  | .local _ .vmem, ⟨106, _⟩ => ⟨S128x128, .f32⟩
  | .local _ .vmem, ⟨107, _⟩ => ⟨S1x128, .f32⟩
  | .local _ .vmem, ⟨108, _⟩ => ⟨S5000x128, .f32⟩
  | .local _ .vmem, ⟨109, _⟩ => ⟨S5000x128, .f32⟩
  | .local _ .vmem, ⟨110, _⟩ => ⟨S1x128, .f32⟩
  | .local _ .vmem, ⟨111, _⟩ => ⟨S1x128, .f32⟩
  | .local _ .vmem, ⟨112, _⟩ => ⟨S5000x128, .f32⟩
  | .local _ .vmem, ⟨113, _⟩ => ⟨S5000x128, .f32⟩
  | .local _ .vmem, ⟨114, _⟩ => ⟨S1x128, .f32⟩
  | .local _ .vmem, ⟨115, _⟩ => ⟨S1x128, .f32⟩
  | .local _ .vmem, ⟨116, _⟩ => ⟨S1x128, .f32⟩
  | .local _ .vmem, ⟨117, _⟩ => ⟨S1x128, .f32⟩
  | .local _ .vmem, ⟨118, _⟩ => ⟨S5000x128, .f32⟩
  | .local _ .vmem, ⟨119, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_v52 : Ref sig .tc := ⟨.hbm, 77, rfl⟩
abbrev main_c_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66_0 : Ref sig .tc := ⟨.hbm, 93, rfl⟩
abbrev main_v66_1 : Ref sig .tc := ⟨.hbm, 94, rfl⟩
abbrev main_v66_2 : Ref sig .tc := ⟨.hbm, 95, rfl⟩
abbrev main_cst_8 : Ref sig .tc := ⟨.hbm, 96, rfl⟩
abbrev main_v67 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84_0 : Ref sig .tc := ⟨.hbm, 115, rfl⟩
abbrev main_v84_1 : Ref sig .tc := ⟨.hbm, 116, rfl⟩
abbrev main_v84_2 : Ref sig .tc := ⟨.hbm, 117, rfl⟩
abbrev main_cst_10 : Ref sig .tc := ⟨.hbm, 118, rfl⟩
abbrev main_v85 : Ref sig .tc := ⟨.hbm, 119, rfl⟩
abbrev main_v86 : Ref sig .tc := ⟨.hbm, 120, rfl⟩
abbrev main_cst_11 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_12 : Ref sig .tc := ⟨.hbm, 133, rfl⟩
abbrev main_v98 : Ref sig .tc := ⟨.hbm, 134, rfl⟩
abbrev main_v99 : Ref sig .tc := ⟨.hbm, 135, rfl⟩
abbrev main_c_13 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_14 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113_0 : Ref sig .tc := ⟨.hbm, 151, rfl⟩
abbrev main_v113_1 : Ref sig .tc := ⟨.hbm, 152, rfl⟩
abbrev main_v113_2 : Ref sig .tc := ⟨.hbm, 153, rfl⟩
abbrev main_cst_15 : Ref sig .tc := ⟨.hbm, 154, rfl⟩
abbrev main_v114 : Ref sig .tc := ⟨.hbm, 155, rfl⟩
abbrev main_v115 : Ref sig .tc := ⟨.hbm, 156, rfl⟩
abbrev main_cst_16 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131_0 : Ref sig .tc := ⟨.hbm, 173, rfl⟩
abbrev main_v131_1 : Ref sig .tc := ⟨.hbm, 174, rfl⟩
abbrev main_v131_2 : Ref sig .tc := ⟨.hbm, 175, rfl⟩
abbrev main_cst_17 : Ref sig .tc := ⟨.hbm, 176, rfl⟩
abbrev main_v132 : Ref sig .tc := ⟨.hbm, 177, rfl⟩
abbrev main_v133 : Ref sig .tc := ⟨.hbm, 178, rfl⟩
abbrev main_cst_18 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_19 : Ref sig .tc := ⟨.hbm, 191, rfl⟩
abbrev main_v145 : Ref sig .tc := ⟨.hbm, 192, rfl⟩
abbrev main_v146 : Ref sig .tc := ⟨.hbm, 193, rfl⟩
abbrev main_c_20 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_21 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160_0 : Ref sig .tc := ⟨.hbm, 209, rfl⟩
abbrev main_v160_1 : Ref sig .tc := ⟨.hbm, 210, rfl⟩
abbrev main_v160_2 : Ref sig .tc := ⟨.hbm, 211, rfl⟩
abbrev main_cst_22 : Ref sig .tc := ⟨.hbm, 212, rfl⟩
abbrev main_v161 : Ref sig .tc := ⟨.hbm, 213, rfl⟩
abbrev main_v162 : Ref sig .tc := ⟨.hbm, 214, rfl⟩
abbrev main_cst_23 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178_0 : Ref sig .tc := ⟨.hbm, 231, rfl⟩
abbrev main_v178_1 : Ref sig .tc := ⟨.hbm, 232, rfl⟩
abbrev main_v178_2 : Ref sig .tc := ⟨.hbm, 233, rfl⟩
abbrev main_cst_24 : Ref sig .tc := ⟨.hbm, 234, rfl⟩
abbrev main_v179 : Ref sig .tc := ⟨.hbm, 235, rfl⟩
abbrev main_v180 : Ref sig .tc := ⟨.hbm, 236, rfl⟩
abbrev main_cst_25 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_cst_26 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_cst_27 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_28 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_cst_29 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_cst_30 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_call0_cst : Ref sig .tc := ⟨.hbm, 313, rfl⟩
abbrev main_call0_v0 : Ref sig .tc := ⟨.hbm, 314, rfl⟩
abbrev main_call0_cst_0 : Ref sig .tc := ⟨.hbm, 315, rfl⟩
abbrev main_call0_v1 : Ref sig .tc := ⟨.hbm, 316, rfl⟩
abbrev main_call0_v2 : Ref sig .tc := ⟨.hbm, 317, rfl⟩
abbrev main_call0_v3 : Ref sig .tc := ⟨.hbm, 318, rfl⟩
abbrev main_call0_v4 : Ref sig .tc := ⟨.hbm, 319, rfl⟩
abbrev main_call0_v5 : Ref sig .tc := ⟨.hbm, 320, rfl⟩
abbrev main_call0_v6 : Ref sig .tc := ⟨.hbm, 321, rfl⟩
abbrev main_call0_cst_1 : Ref sig .tc := ⟨.hbm, 322, rfl⟩
abbrev main_call0_v7 : Ref sig .tc := ⟨.hbm, 323, rfl⟩
abbrev main_call0_v8 : Ref sig .tc := ⟨.hbm, 324, rfl⟩
abbrev main_call0_v9 : Ref sig .tc := ⟨.hbm, 325, rfl⟩
abbrev main_call0_v10 : Ref sig .tc := ⟨.hbm, 326, rfl⟩
abbrev main_v251 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg6_0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc4_stg8_0 : Ref sig .tc := ⟨.vmem, 50, rfl⟩
abbrev cc4_stg9_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg6_0 : Ref sig .tc := ⟨.vmem, 77, rfl⟩
abbrev cc7_stg7_0 : Ref sig .tc := ⟨.vmem, 78, rfl⟩
abbrev cc7_stg7_1 : Ref sig .tc := ⟨.vmem, 79, rfl⟩
abbrev cc7_stg8_0 : Ref sig .tc := ⟨.vmem, 80, rfl⟩
abbrev cc7_stg9_0 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg2_0 : Ref sig .tc := ⟨.vmem, 85, rfl⟩
abbrev cc8_stg3_0 : Ref sig .tc := ⟨.vmem, 86, rfl⟩
abbrev cc8_stg4_0 : Ref sig .tc := ⟨.vmem, 87, rfl⟩
abbrev cc8_stg5_0 : Ref sig .tc := ⟨.vmem, 88, rfl⟩
abbrev cc8_stg5_1 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg1_1 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg4_0 : Ref sig .tc := ⟨.vmem, 96, rfl⟩
abbrev cc9_stg4_1 : Ref sig .tc := ⟨.vmem, 97, rfl⟩
abbrev cc9_stg5_0 : Ref sig .tc := ⟨.vmem, 98, rfl⟩
abbrev cc9_stg6_0 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg2_0 : Ref sig .tc := ⟨.vmem, 103, rfl⟩
abbrev cc10_stg3_0 : Ref sig .tc := ⟨.vmem, 104, rfl⟩
abbrev cc10_stg4_0 : Ref sig .tc := ⟨.vmem, 105, rfl⟩
abbrev cc10_stg5_0 : Ref sig .tc := ⟨.vmem, 106, rfl⟩
abbrev cc10_stg6_0 : Ref sig .tc := ⟨.vmem, 107, rfl⟩
abbrev cc10_stg7_0 : Ref sig .tc := ⟨.vmem, 108, rfl⟩
abbrev cc10_stg7_1 : Ref sig .tc := ⟨.vmem, 109, rfl⟩
abbrev cc10_stg8_0 : Ref sig .tc := ⟨.vmem, 110, rfl⟩
abbrev cc10_stg9_0 : Ref sig .tc := ⟨.vmem, 111, rfl⟩
abbrev cc11_stg0_0 : Ref sig .tc := ⟨.vmem, 112, rfl⟩
abbrev cc11_stg0_1 : Ref sig .tc := ⟨.vmem, 113, rfl⟩
abbrev cc11_stg1_0 : Ref sig .tc := ⟨.vmem, 114, rfl⟩
abbrev cc11_stg2_0 : Ref sig .tc := ⟨.vmem, 115, rfl⟩
abbrev cc11_stg3_0 : Ref sig .tc := ⟨.vmem, 116, rfl⟩
abbrev cc11_stg4_0 : Ref sig .tc := ⟨.vmem, 117, rfl⟩
abbrev cc11_stg5_0 : Ref sig .tc := ⟨.vmem, 118, rfl⟩
abbrev cc11_stg5_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem6_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc4_sem8_0 : DmaSem sig := 50
abbrev cc4_sem9_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem6_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem7_1 : DmaSem sig := 79
abbrev cc7_sem8_0 : DmaSem sig := 80
abbrev cc7_sem9_0 : DmaSem sig := 81
abbrev cc8_sem0_0 : DmaSem sig := 82
abbrev cc8_sem0_1 : DmaSem sig := 83
abbrev cc8_sem1_0 : DmaSem sig := 84
abbrev cc8_sem2_0 : DmaSem sig := 85
abbrev cc8_sem3_0 : DmaSem sig := 86
abbrev cc8_sem4_0 : DmaSem sig := 87
abbrev cc8_sem5_0 : DmaSem sig := 88
abbrev cc8_sem5_1 : DmaSem sig := 89
abbrev cc9_sem0_0 : DmaSem sig := 90
abbrev cc9_sem0_1 : DmaSem sig := 91
abbrev cc9_sem1_0 : DmaSem sig := 92
abbrev cc9_sem1_1 : DmaSem sig := 93
abbrev cc9_sem2_0 : DmaSem sig := 94
abbrev cc9_sem3_0 : DmaSem sig := 95
abbrev cc9_sem4_0 : DmaSem sig := 96
abbrev cc9_sem4_1 : DmaSem sig := 97
abbrev cc9_sem5_0 : DmaSem sig := 98
abbrev cc9_sem6_0 : DmaSem sig := 99
abbrev cc10_sem0_0 : DmaSem sig := 100
abbrev cc10_sem0_1 : DmaSem sig := 101
abbrev cc10_sem1_0 : DmaSem sig := 102
abbrev cc10_sem2_0 : DmaSem sig := 103
abbrev cc10_sem3_0 : DmaSem sig := 104
abbrev cc10_sem4_0 : DmaSem sig := 105
abbrev cc10_sem5_0 : DmaSem sig := 106
abbrev cc10_sem6_0 : DmaSem sig := 107
abbrev cc10_sem7_0 : DmaSem sig := 108
abbrev cc10_sem7_1 : DmaSem sig := 109
abbrev cc10_sem8_0 : DmaSem sig := 110
abbrev cc10_sem9_0 : DmaSem sig := 111
abbrev cc11_sem0_0 : DmaSem sig := 112
abbrev cc11_sem0_1 : DmaSem sig := 113
abbrev cc11_sem1_0 : DmaSem sig := 114
abbrev cc11_sem2_0 : DmaSem sig := 115
abbrev cc11_sem3_0 : DmaSem sig := 116
abbrev cc11_sem4_0 : DmaSem sig := 117
abbrev cc11_sem5_0 : DmaSem sig := 118
abbrev cc11_sem5_1 : DmaSem sig := 119

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  slices_S5x128x10_S1x128x10_0_0_0 : S5x128x10.Slices ![0, 0, 0] S1x128x10
  shapeCasts_S1x128x10_S128x10 : S1x128x10.ShapeCasts S128x10
  slices_S5x10_S1x10_0_0 : S5x10.Slices ![0, 0] S1x10
  shapeCasts_S1x10_S10 : S1x10.ShapeCasts S10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  slices_S5x128x10_S1x128x10_1_0_0 : S5x128x10.Slices ![1, 0, 0] S1x128x10
  slices_S5x10_S1x10_1_0 : S5x10.Slices ![1, 0] S1x10
  slices_S5x128x10_S1x128x10_2_0_0 : S5x128x10.Slices ![2, 0, 0] S1x128x10
  slices_S5x10_S1x10_2_0 : S5x10.Slices ![2, 0] S1x10
  slices_S5x128x10_S1x128x10_3_0_0 : S5x128x10.Slices ![3, 0, 0] S1x128x10
  slices_S5x10_S1x10_3_0 : S5x10.Slices ![3, 0] S1x10
  slices_S5x128x10_S1x128x10_4_0_0 : S5x128x10.Slices ![4, 0, 0] S1x128x10
  slices_S5x10_S1x10_4_0 : S5x10.Slices ![4, 0] S1x10
  reducesTo_S512x10_S512_d1 : S512x10.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S100000x128.size a
  hwx7_7 : ∀ i : grid7.Coords, EltTy.bits .f32 = 32 ∨ (Rect.block (s := S100000x128) S5000x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S100000x128.size a
  hwx9_4 : ∀ i : grid9.Coords, EltTy.bits .f32 = 32 ∨ (Rect.block (s := S100000x128) S5000x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x128.size a ≤ S100000x128.size a
  hwx10_7 : ∀ i : grid10.Coords, EltTy.bits .f32 = 32 ∨ (Rect.block (s := S100000x128) S5000x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x128.size a ≤ S1x128.size a
  hwx10_9 : ∀ i : grid10.Coords, EltTy.bits .f32 = 32 ∨ (Rect.block (s := S1x128) S1x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S100000x128.size a
  hwx11_5 : ∀ i : grid11.Coords, EltTy.bits .f32 = 32 ∨ (Rect.block (s := S100000x128) S5000x128.size (cc11_transform_5 i) (hinb11_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v37_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v66_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v84_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v84_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v84_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v107) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v109) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v113_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v113_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v113_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v113_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v119) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v128) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v129) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v125) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v130) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v131_0) S5000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v131_1) S1x128.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v131_2) S1x128.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v131_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v137) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v142) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v143) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v144) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v144) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v154) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v156) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v159) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v160_0) S5000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v160_1) S1x128.size cc9_transform_5 reads9_5 true true 1 stage9_5 sem9_5
    hrank9 hreads9_5 hinb9_5 nbuf9_5 (Memref.isWhole_whole _) hwx9_5 hstage9_5

abbrev win9_6 : Pipeline.Window sig grid9 :=
  Pipeline.Window.ofSpec (Memref.whole main_v160_2) S1x128.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v160_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v162) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v166) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v175) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v176) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v172) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v177) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v178_0) S5000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v178_1) S1x128.size cc10_transform_8 reads10_8 true true 1 stage10_8 sem10_8
    hrank10 hreads10_8 hinb10_8 nbuf10_8 (Memref.isWhole_whole _) hwx10_8 hstage10_8

abbrev win10_9 : Pipeline.Window sig grid10 :=
  Pipeline.Window.ofSpec (Memref.whole main_v178_2) S1x128.size cc10_transform_9 reads10_9 true true 1 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v178_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v180) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v184) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v189) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v190) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v191) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S4x128x128 : Shape := ⟨3, ![4, 128, 128]⟩
abbrev S4x128 : Shape := ⟨2, ![4, 128]⟩
abbrev S5x128x10 : Shape := ⟨3, ![5, 128, 10]⟩
abbrev S5x10 : Shape := ⟨2, ![5, 10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S100000x1 : Shape := ⟨2, ![100000, 1]⟩
abbrev S1x128x10 : Shape := ⟨3, ![1, 128, 10]⟩
abbrev S128x10 : Shape := ⟨2, ![128, 10]⟩
abbrev S512x10 : Shape := ⟨2, ![512, 10]⟩
abbrev S1x10 : Shape := ⟨2, ![1, 10]⟩
abbrev S10 : Shape := ⟨1, ![10]⟩
abbrev S512 : Shape := ⟨1, ![512]⟩
abbrev S512x1 : Shape := ⟨2, ![512, 1]⟩

abbrev nBuf : Space → Nat
  | .hbm => 624
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S4x128, .f32⟩
  | 10 => ⟨S4x128, .f32⟩
  | 11 => ⟨S5x128x10, .f32⟩
  | 12 => ⟨S5x10, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S100000x128, .f32⟩
  | 28 => ⟨S600000x1, .i32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1x128x128, .f32⟩
  | 91 => ⟨S128x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S128, .f32⟩
  | 104 => ⟨S_, .f32⟩
  | 105 => ⟨S128, .f32⟩
  | 106 => ⟨S128, .f32⟩
  | 107 => ⟨S_, .i32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S100000x128, .f32⟩
  | 115 => ⟨S100000x128, .f32⟩
  | 116 => ⟨S100000x128, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S128, .f32⟩
  | 124 => ⟨S_, .f32⟩
  | 125 => ⟨S_, .i1⟩
  | 126 => ⟨S_, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S_, .f32⟩
  | 6 => ⟨S128, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .f32⟩
  | 31 => ⟨S100000x128, .f32⟩
  | 32 => ⟨S600000x1, .i32⟩
  | 33 => ⟨S100000x128, .f32⟩
  | 34 => ⟨S100000x128, .f32⟩
  | 35 => ⟨S1x128x128, .f32⟩
  | 36 => ⟨S128x128, .f32⟩
  | 37 => ⟨S100000x128, .f32⟩
  | 38 => ⟨S1x128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S128, .f32⟩
  | 45 => ⟨S1x128, .f32⟩
  | 46 => ⟨S128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S1x128x128, .f32⟩
  | 95 => ⟨S128x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S100000x128, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .f32⟩
  | 35 => ⟨S100000x128, .f32⟩
  | 36 => ⟨S600000x1, .i32⟩
  | 37 => ⟨S100000x128, .f32⟩
  | 38 => ⟨S100000x128, .f32⟩
  | 39 => ⟨S1x128x128, .f32⟩
  | 40 => ⟨S128x128, .f32⟩
  | 41 => ⟨S100000x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S128, .f32⟩
  | 49 => ⟨S1x128, .f32⟩
  | 50 => ⟨S128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S1x128x128, .f32⟩
  | 99 => ⟨S128x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S128, .f32⟩
  | 108 => ⟨S1x128, .f32⟩
  | 109 => ⟨S128, .f32⟩
  | 110 => ⟨S_, .f32⟩
  | 111 => ⟨S128, .f32⟩
  | 112 => ⟨S_, .f32⟩
  | 113 => ⟨S128, .f32⟩
  | 114 => ⟨S128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S100000x128, .f32⟩
  | 123 => ⟨S100000x128, .f32⟩
  | 124 => ⟨S100000x128, .f32⟩
  | 125 => ⟨S_, .f32⟩
  | 126 => ⟨S_, .f32⟩
  | 127 => ⟨S_, .f32⟩
  | _ => ⟨S100000x128, .f32⟩

abbrev hbmTy0_3 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S_, .i1⟩
  | 6 => ⟨S_, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S_, .f32⟩
  | 39 => ⟨S100000x128, .f32⟩
  | 40 => ⟨S600000x1, .i32⟩
  | 41 => ⟨S100000x128, .f32⟩
  | 42 => ⟨S100000x128, .f32⟩
  | 43 => ⟨S1x128x128, .f32⟩
  | 44 => ⟨S128x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S128, .f32⟩
  | 55 => ⟨S_, .f32⟩
  | 56 => ⟨S128, .f32⟩
  | 57 => ⟨S_, .f32⟩
  | 58 => ⟨S128, .f32⟩
  | 59 => ⟨S128, .f32⟩
  | 60 => ⟨S_, .i32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S100000x128, .f32⟩
  | 68 => ⟨S100000x128, .f32⟩
  | 69 => ⟨S100000x128, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S128, .f32⟩
  | 77 => ⟨S_, .f32⟩
  | 78 => ⟨S_, .i1⟩
  | 79 => ⟨S_, .f32⟩
  | 80 => ⟨S_, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S1x128x128, .f32⟩
  | 103 => ⟨S128x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S128, .f32⟩
  | 112 => ⟨S1x128, .f32⟩
  | 113 => ⟨S128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S100000x128, .f32⟩
  | 127 => ⟨S100000x128, .f32⟩
  | _ => ⟨S100000x128, .f32⟩

abbrev hbmTy0_4 (i : Nat) : BufTy := match i % 128 with
  | 0 => ⟨S100000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S100000x128, .f32⟩
  | 16 => ⟨S100000x128, .f32⟩
  | 17 => ⟨S_, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .f32⟩
  | 34 => ⟨S512x128, .f32⟩
  | 35 => ⟨S100000x1, .i32⟩
  | 36 => ⟨S512x128, .f32⟩
  | 37 => ⟨S1x128x10, .f32⟩
  | 38 => ⟨S128x10, .f32⟩
  | 39 => ⟨S512x10, .f32⟩
  | 40 => ⟨S1x10, .f32⟩
  | 41 => ⟨S10, .f32⟩
  | 42 => ⟨S1x10, .f32⟩
  | 43 => ⟨S512x10, .f32⟩
  | 44 => ⟨S512x10, .f32⟩
  | 45 => ⟨S_, .f32⟩
  | 46 => ⟨S512x128, .f32⟩
  | 47 => ⟨S100000x1, .i32⟩
  | 48 => ⟨S512x128, .f32⟩
  | 49 => ⟨S1x128x10, .f32⟩
  | 50 => ⟨S128x10, .f32⟩
  | 51 => ⟨S512x10, .f32⟩
  | 52 => ⟨S1x10, .f32⟩
  | 53 => ⟨S10, .f32⟩
  | 54 => ⟨S1x10, .f32⟩
  | 55 => ⟨S512x10, .f32⟩
  | 56 => ⟨S512x10, .f32⟩
  | 57 => ⟨S512x10, .f32⟩
  | 58 => ⟨S_, .f32⟩
  | 59 => ⟨S512x128, .f32⟩
  | 60 => ⟨S100000x1, .i32⟩
  | 61 => ⟨S512x128, .f32⟩
  | 62 => ⟨S1x128x10, .f32⟩
  | 63 => ⟨S128x10, .f32⟩
  | 64 => ⟨S512x10, .f32⟩
  | 65 => ⟨S1x10, .f32⟩
  | 66 => ⟨S10, .f32⟩
  | 67 => ⟨S1x10, .f32⟩
  | 68 => ⟨S512x10, .f32⟩
  | 69 => ⟨S512x10, .f32⟩
  | 70 => ⟨S512x10, .f32⟩
  | 71 => ⟨S_, .f32⟩
  | 72 => ⟨S512x128, .f32⟩
  | 73 => ⟨S100000x1, .i32⟩
  | 74 => ⟨S512x128, .f32⟩
  | 75 => ⟨S1x128x10, .f32⟩
  | 76 => ⟨S128x10, .f32⟩
  | 77 => ⟨S512x10, .f32⟩
  | 78 => ⟨S1x10, .f32⟩
  | 79 => ⟨S10, .f32⟩
  | 80 => ⟨S1x10, .f32⟩
  | 81 => ⟨S512x10, .f32⟩
  | 82 => ⟨S512x10, .f32⟩
  | 83 => ⟨S512x10, .f32⟩
  | 84 => ⟨S_, .f32⟩
  | 85 => ⟨S512x128, .f32⟩
  | 86 => ⟨S100000x1, .i32⟩
  | 87 => ⟨S512x128, .f32⟩
  | 88 => ⟨S1x128x10, .f32⟩
  | 89 => ⟨S128x10, .f32⟩
  | 90 => ⟨S512x10, .f32⟩
  | 91 => ⟨S1x10, .f32⟩
  | 92 => ⟨S10, .f32⟩
  | 93 => ⟨S1x10, .f32⟩
  | 94 => ⟨S512x10, .f32⟩
  | 95 => ⟨S512x10, .f32⟩
  | 96 => ⟨S512x10, .f32⟩
  | 97 => ⟨S_, .f32⟩
  | 98 => ⟨S512, .f32⟩
  | 99 => ⟨S_, .f32⟩
  | 100 => ⟨S512, .f32⟩
  | 101 => ⟨S512, .f32⟩
  | 102 => ⟨S512x1, .f32⟩
  | 103 => ⟨S512x10, .f32⟩
  | 104 => ⟨S512x10, .f32⟩
  | 105 => ⟨S512x10, .f32⟩
  | 106 => ⟨S_, .f32⟩
  | 107 => ⟨S512, .f32⟩
  | 108 => ⟨S512x1, .f32⟩
  | 109 => ⟨S512x1, .f32⟩
  | 110 => ⟨S512x10, .f32⟩
  | 111 => ⟨S512x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_5 : Ref sig .tc := ⟨.hbm, 102, rfl⟩
abbrev main_v59 : Ref sig .tc := ⟨.hbm, 103, rfl⟩
abbrev main_cst_6 : Ref sig .tc := ⟨.hbm, 104, rfl⟩
abbrev main_v60 : Ref sig .tc := ⟨.hbm, 105, rfl⟩
abbrev main_v61 : Ref sig .tc := ⟨.hbm, 106, rfl⟩
abbrev main_c_7 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_cst_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_cst_2 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_cst_3 : Ref sig .tc := ⟨.hbm, 124, rfl⟩
abbrev main_call2_v12 : Ref sig .tc := ⟨.hbm, 125, rfl⟩
abbrev main_call2_cst_4 : Ref sig .tc := ⟨.hbm, 126, rfl⟩
abbrev main_call2_call0_v0 : Ref sig .tc := ⟨.hbm, 127, rfl⟩
abbrev main_call2_call0_v1 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_8 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_call3_cst : Ref sig .tc := ⟨.hbm, 146, rfl⟩
abbrev main_call3_v0 : Ref sig .tc := ⟨.hbm, 147, rfl⟩
abbrev main_v78 : Ref sig .tc := ⟨.hbm, 148, rfl⟩
abbrev main_c_9 : Ref sig .tc := ⟨.hbm, 149, rfl⟩
abbrev main_v79 : Ref sig .tc := ⟨.hbm, 150, rfl⟩
abbrev main_v80 : Ref sig .tc := ⟨.hbm, 151, rfl⟩
abbrev main_c_10 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_11 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_cst_12 : Ref sig .tc := ⟨.hbm, 175, rfl⟩
abbrev main_v102 : Ref sig .tc := ⟨.hbm, 176, rfl⟩
abbrev main_cst_13 : Ref sig .tc := ⟨.hbm, 177, rfl⟩
abbrev main_v103 : Ref sig .tc := ⟨.hbm, 178, rfl⟩
abbrev main_v104 : Ref sig .tc := ⟨.hbm, 179, rfl⟩
abbrev main_c_14 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_v6 : Ref sig .tc := ⟨.hbm, 189, rfl⟩
abbrev main_call4_v7 : Ref sig .tc := ⟨.hbm, 190, rfl⟩
abbrev main_call4_cst_1 : Ref sig .tc := ⟨.hbm, 191, rfl⟩
abbrev main_call4_v8 : Ref sig .tc := ⟨.hbm, 192, rfl⟩
abbrev main_call4_cst_2 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_cst_3 : Ref sig .tc := ⟨.hbm, 197, rfl⟩
abbrev main_call4_v12 : Ref sig .tc := ⟨.hbm, 198, rfl⟩
abbrev main_call4_cst_4 : Ref sig .tc := ⟨.hbm, 199, rfl⟩
abbrev main_call4_call0_v0 : Ref sig .tc := ⟨.hbm, 200, rfl⟩
abbrev main_call4_call0_v1 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_cst_15 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_call5_cst : Ref sig .tc := ⟨.hbm, 219, rfl⟩
abbrev main_call5_v0 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_cst_16 : Ref sig .tc := ⟨.hbm, 234, rfl⟩
abbrev main_v134 : Ref sig .tc := ⟨.hbm, 235, rfl⟩
abbrev main_cst_17 : Ref sig .tc := ⟨.hbm, 236, rfl⟩
abbrev main_v135 : Ref sig .tc := ⟨.hbm, 237, rfl⟩
abbrev main_v136 : Ref sig .tc := ⟨.hbm, 238, rfl⟩
abbrev main_c_18 : Ref sig .tc := ⟨.hbm, 239, rfl⟩
abbrev main_call6_cst : Ref sig .tc := ⟨.hbm, 240, rfl⟩
abbrev main_call6_v0 : Ref sig .tc := ⟨.hbm, 241, rfl⟩
abbrev main_call6_v1 : Ref sig .tc := ⟨.hbm, 242, rfl⟩
abbrev main_call6_cst_0 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_call6_v5 : Ref sig .tc := ⟨.hbm, 247, rfl⟩
abbrev main_call6_v6 : Ref sig .tc := ⟨.hbm, 248, rfl⟩
abbrev main_call6_v7 : Ref sig .tc := ⟨.hbm, 249, rfl⟩
abbrev main_call6_cst_1 : Ref sig .tc := ⟨.hbm, 250, rfl⟩
abbrev main_call6_v8 : Ref sig .tc := ⟨.hbm, 251, rfl⟩
abbrev main_call6_cst_2 : Ref sig .tc := ⟨.hbm, 252, rfl⟩
abbrev main_call6_v9 : Ref sig .tc := ⟨.hbm, 253, rfl⟩
abbrev main_call6_v10 : Ref sig .tc := ⟨.hbm, 254, rfl⟩
abbrev main_call6_v11 : Ref sig .tc := ⟨.hbm, 255, rfl⟩
abbrev main_call6_cst_3 : Ref sig .tc := ⟨.hbm, 256, rfl⟩
abbrev main_call6_v12 : Ref sig .tc := ⟨.hbm, 257, rfl⟩
abbrev main_call6_cst_4 : Ref sig .tc := ⟨.hbm, 258, rfl⟩
abbrev main_call6_call0_v0 : Ref sig .tc := ⟨.hbm, 259, rfl⟩
abbrev main_call6_call0_v1 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_cst_19 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_call7_cst : Ref sig .tc := ⟨.hbm, 278, rfl⟩
abbrev main_call7_v0 : Ref sig .tc := ⟨.hbm, 279, rfl⟩
abbrev main_v153 : Ref sig .tc := ⟨.hbm, 280, rfl⟩
abbrev main_c_20 : Ref sig .tc := ⟨.hbm, 281, rfl⟩
abbrev main_v154 : Ref sig .tc := ⟨.hbm, 282, rfl⟩
abbrev main_v155 : Ref sig .tc := ⟨.hbm, 283, rfl⟩
abbrev main_c_21 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_v160 : Ref sig .tc := ⟨.hbm, 289, rfl⟩
abbrev main_cst_22 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_cst_23 : Ref sig .tc := ⟨.hbm, 307, rfl⟩
abbrev main_v177 : Ref sig .tc := ⟨.hbm, 308, rfl⟩
abbrev main_cst_24 : Ref sig .tc := ⟨.hbm, 309, rfl⟩
abbrev main_v178 : Ref sig .tc := ⟨.hbm, 310, rfl⟩
abbrev main_v179 : Ref sig .tc := ⟨.hbm, 311, rfl⟩
abbrev main_c_25 : Ref sig .tc := ⟨.hbm, 312, rfl⟩
abbrev main_call8_cst : Ref sig .tc := ⟨.hbm, 313, rfl⟩
abbrev main_call8_v0 : Ref sig .tc := ⟨.hbm, 314, rfl⟩
abbrev main_call8_v1 : Ref sig .tc := ⟨.hbm, 315, rfl⟩
abbrev main_call8_cst_0 : Ref sig .tc := ⟨.hbm, 316, rfl⟩
abbrev main_call8_v2 : Ref sig .tc := ⟨.hbm, 317, rfl⟩
abbrev main_call8_v3 : Ref sig .tc := ⟨.hbm, 318, rfl⟩
abbrev main_call8_v4 : Ref sig .tc := ⟨.hbm, 319, rfl⟩
abbrev main_call8_v5 : Ref sig .tc := ⟨.hbm, 320, rfl⟩
abbrev main_call8_v6 : Ref sig .tc := ⟨.hbm, 321, rfl⟩
abbrev main_call8_v7 : Ref sig .tc := ⟨.hbm, 322, rfl⟩
abbrev main_call8_cst_1 : Ref sig .tc := ⟨.hbm, 323, rfl⟩
abbrev main_call8_v8 : Ref sig .tc := ⟨.hbm, 324, rfl⟩
abbrev main_call8_cst_2 : Ref sig .tc := ⟨.hbm, 325, rfl⟩
abbrev main_call8_v9 : Ref sig .tc := ⟨.hbm, 326, rfl⟩
abbrev main_call8_v10 : Ref sig .tc := ⟨.hbm, 327, rfl⟩
abbrev main_call8_v11 : Ref sig .tc := ⟨.hbm, 328, rfl⟩
abbrev main_call8_cst_3 : Ref sig .tc := ⟨.hbm, 329, rfl⟩
abbrev main_call8_v12 : Ref sig .tc := ⟨.hbm, 330, rfl⟩
abbrev main_call8_cst_4 : Ref sig .tc := ⟨.hbm, 331, rfl⟩
abbrev main_call8_call0_v0 : Ref sig .tc := ⟨.hbm, 332, rfl⟩
abbrev main_call8_call0_v1 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_cst_26 : Ref sig .tc := ⟨.hbm, 338, rfl⟩
abbrev main_v184 : Ref sig .tc := ⟨.hbm, 339, rfl⟩
abbrev main_v185 : Ref sig .tc := ⟨.hbm, 340, rfl⟩
abbrev main_v186 : Ref sig .tc := ⟨.hbm, 341, rfl⟩
abbrev main_v187 : Ref sig .tc := ⟨.hbm, 342, rfl⟩
abbrev main_v188 : Ref sig .tc := ⟨.hbm, 343, rfl⟩
abbrev main_v189 : Ref sig .tc := ⟨.hbm, 344, rfl⟩
abbrev main_v190 : Ref sig .tc := ⟨.hbm, 345, rfl⟩
abbrev main_v191 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_v195 : Ref sig .tc := ⟨.hbm, 350, rfl⟩
abbrev main_call9_cst : Ref sig .tc := ⟨.hbm, 351, rfl⟩
abbrev main_call9_v0 : Ref sig .tc := ⟨.hbm, 352, rfl⟩
abbrev main_v196 : Ref sig .tc := ⟨.hbm, 353, rfl⟩
abbrev main_v197 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_v201 : Ref sig .tc := ⟨.hbm, 358, rfl⟩
abbrev main_v202 : Ref sig .tc := ⟨.hbm, 359, rfl⟩
abbrev main_v203 : Ref sig .tc := ⟨.hbm, 360, rfl⟩
abbrev main_v204 : Ref sig .tc := ⟨.hbm, 361, rfl⟩
abbrev main_v205 : Ref sig .tc := ⟨.hbm, 362, rfl⟩
abbrev main_v206 : Ref sig .tc := ⟨.hbm, 363, rfl⟩
abbrev main_v207 : Ref sig .tc := ⟨.hbm, 364, rfl⟩
abbrev main_v208 : Ref sig .tc := ⟨.hbm, 365, rfl⟩
abbrev main_cst_27 : Ref sig .tc := ⟨.hbm, 366, rfl⟩
abbrev main_v209 : Ref sig .tc := ⟨.hbm, 367, rfl⟩
abbrev main_cst_28 : Ref sig .tc := ⟨.hbm, 368, rfl⟩
abbrev main_v210 : Ref sig .tc := ⟨.hbm, 369, rfl⟩
abbrev main_v211 : Ref sig .tc := ⟨.hbm, 370, rfl⟩
abbrev main_c_29 : Ref sig .tc := ⟨.hbm, 371, rfl⟩
abbrev main_call10_cst : Ref sig .tc := ⟨.hbm, 372, rfl⟩
abbrev main_call10_v0 : Ref sig .tc := ⟨.hbm, 373, rfl⟩
abbrev main_call10_v1 : Ref sig .tc := ⟨.hbm, 374, rfl⟩
abbrev main_call10_cst_0 : Ref sig .tc := ⟨.hbm, 375, rfl⟩
abbrev main_call10_v2 : Ref sig .tc := ⟨.hbm, 376, rfl⟩
abbrev main_call10_v3 : Ref sig .tc := ⟨.hbm, 377, rfl⟩
abbrev main_call10_v4 : Ref sig .tc := ⟨.hbm, 378, rfl⟩
abbrev main_call10_v5 : Ref sig .tc := ⟨.hbm, 379, rfl⟩
abbrev main_call10_v6 : Ref sig .tc := ⟨.hbm, 380, rfl⟩
abbrev main_call10_v7 : Ref sig .tc := ⟨.hbm, 381, rfl⟩
abbrev main_call10_cst_1 : Ref sig .tc := ⟨.hbm, 382, rfl⟩
abbrev main_call10_v8 : Ref sig .tc := ⟨.hbm, 383, rfl⟩
abbrev main_call10_cst_2 : Ref sig .tc := ⟨.hbm, 384, rfl⟩
abbrev main_call10_v9 : Ref sig .tc := ⟨.hbm, 385, rfl⟩
abbrev main_call10_v10 : Ref sig .tc := ⟨.hbm, 386, rfl⟩
abbrev main_call10_v11 : Ref sig .tc := ⟨.hbm, 387, rfl⟩
abbrev main_call10_cst_3 : Ref sig .tc := ⟨.hbm, 388, rfl⟩
abbrev main_call10_v12 : Ref sig .tc := ⟨.hbm, 389, rfl⟩
abbrev main_call10_cst_4 : Ref sig .tc := ⟨.hbm, 390, rfl⟩
abbrev main_call10_call0_v0 : Ref sig .tc := ⟨.hbm, 391, rfl⟩
abbrev main_call10_call0_v1 : Ref sig .tc := ⟨.hbm, 392, rfl⟩
abbrev main_v212 : Ref sig .tc := ⟨.hbm, 393, rfl⟩
abbrev main_v213 : Ref sig .tc := ⟨.hbm, 394, rfl⟩
abbrev main_v214 : Ref sig .tc := ⟨.hbm, 395, rfl⟩
abbrev main_v215 : Ref sig .tc := ⟨.hbm, 396, rfl⟩
abbrev main_cst_30 : Ref sig .tc := ⟨.hbm, 397, rfl⟩
abbrev main_v216 : Ref sig .tc := ⟨.hbm, 398, rfl⟩
abbrev main_v217 : Ref sig .tc := ⟨.hbm, 399, rfl⟩
abbrev main_v218 : Ref sig .tc := ⟨.hbm, 400, rfl⟩
abbrev main_v219 : Ref sig .tc := ⟨.hbm, 401, rfl⟩
abbrev main_v220 : Ref sig .tc := ⟨.hbm, 402, rfl⟩
abbrev main_v221 : Ref sig .tc := ⟨.hbm, 403, rfl⟩
abbrev main_v222 : Ref sig .tc := ⟨.hbm, 404, rfl⟩
abbrev main_v223 : Ref sig .tc := ⟨.hbm, 405, rfl⟩
abbrev main_v224 : Ref sig .tc := ⟨.hbm, 406, rfl⟩
abbrev main_v225 : Ref sig .tc := ⟨.hbm, 407, rfl⟩
abbrev main_v226 : Ref sig .tc := ⟨.hbm, 408, rfl⟩
abbrev main_v227 : Ref sig .tc := ⟨.hbm, 409, rfl⟩
abbrev main_call11_cst : Ref sig .tc := ⟨.hbm, 410, rfl⟩
abbrev main_call11_v0 : Ref sig .tc := ⟨.hbm, 411, rfl⟩
abbrev main_v228 : Ref sig .tc := ⟨.hbm, 412, rfl⟩
abbrev main_c_31 : Ref sig .tc := ⟨.hbm, 413, rfl⟩
abbrev main_v229 : Ref sig .tc := ⟨.hbm, 414, rfl⟩
abbrev main_v230 : Ref sig .tc := ⟨.hbm, 415, rfl⟩
abbrev main_c_32 : Ref sig .tc := ⟨.hbm, 416, rfl⟩
abbrev main_v231 : Ref sig .tc := ⟨.hbm, 417, rfl⟩
abbrev main_v232 : Ref sig .tc := ⟨.hbm, 418, rfl⟩
abbrev main_v233 : Ref sig .tc := ⟨.hbm, 419, rfl⟩
abbrev main_v234 : Ref sig .tc := ⟨.hbm, 420, rfl⟩
abbrev main_v235 : Ref sig .tc := ⟨.hbm, 421, rfl⟩
abbrev main_cst_33 : Ref sig .tc := ⟨.hbm, 422, rfl⟩
abbrev main_v236 : Ref sig .tc := ⟨.hbm, 423, rfl⟩
abbrev main_v237 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_v243 : Ref sig .tc := ⟨.hbm, 430, rfl⟩
abbrev main_v244 : Ref sig .tc := ⟨.hbm, 431, rfl⟩
abbrev main_v245 : Ref sig .tc := ⟨.hbm, 432, rfl⟩
abbrev main_v246 : Ref sig .tc := ⟨.hbm, 433, rfl⟩
abbrev main_v247 : Ref sig .tc := ⟨.hbm, 434, rfl⟩
abbrev main_v248 : Ref sig .tc := ⟨.hbm, 435, rfl⟩
abbrev main_v249 : Ref sig .tc := ⟨.hbm, 436, rfl⟩
abbrev main_v250 : Ref sig .tc := ⟨.hbm, 437, rfl⟩
abbrev main_v251 : Ref sig .tc := ⟨.hbm, 438, rfl⟩
abbrev main_cst_34 : Ref sig .tc := ⟨.hbm, 439, rfl⟩
abbrev main_v252 : Ref sig .tc := ⟨.hbm, 440, rfl⟩
abbrev main_cst_35 : Ref sig .tc := ⟨.hbm, 441, rfl⟩
abbrev main_v253 : Ref sig .tc := ⟨.hbm, 442, rfl⟩
abbrev main_v254 : Ref sig .tc := ⟨.hbm, 443, rfl⟩
abbrev main_c_36 : Ref sig .tc := ⟨.hbm, 444, rfl⟩
abbrev main_call12_cst : Ref sig .tc := ⟨.hbm, 445, rfl⟩
abbrev main_call12_v0 : Ref sig .tc := ⟨.hbm, 446, rfl⟩
abbrev main_call12_v1 : Ref sig .tc := ⟨.hbm, 447, rfl⟩
abbrev main_call12_cst_0 : Ref sig .tc := ⟨.hbm, 448, rfl⟩
abbrev main_call12_v2 : Ref sig .tc := ⟨.hbm, 449, rfl⟩
abbrev main_call12_v3 : Ref sig .tc := ⟨.hbm, 450, rfl⟩
abbrev main_call12_v4 : Ref sig .tc := ⟨.hbm, 451, rfl⟩
abbrev main_call12_v5 : Ref sig .tc := ⟨.hbm, 452, rfl⟩
abbrev main_call12_v6 : Ref sig .tc := ⟨.hbm, 453, rfl⟩
abbrev main_call12_v7 : Ref sig .tc := ⟨.hbm, 454, rfl⟩
abbrev main_call12_cst_1 : Ref sig .tc := ⟨.hbm, 455, rfl⟩
abbrev main_call12_v8 : Ref sig .tc := ⟨.hbm, 456, rfl⟩
abbrev main_call12_cst_2 : Ref sig .tc := ⟨.hbm, 457, rfl⟩
abbrev main_call12_v9 : Ref sig .tc := ⟨.hbm, 458, rfl⟩
abbrev main_call12_v10 : Ref sig .tc := ⟨.hbm, 459, rfl⟩
abbrev main_call12_v11 : Ref sig .tc := ⟨.hbm, 460, rfl⟩
abbrev main_call12_cst_3 : Ref sig .tc := ⟨.hbm, 461, rfl⟩
abbrev main_call12_v12 : Ref sig .tc := ⟨.hbm, 462, rfl⟩
abbrev main_call12_cst_4 : Ref sig .tc := ⟨.hbm, 463, rfl⟩
abbrev main_call12_call0_v0 : Ref sig .tc := ⟨.hbm, 464, rfl⟩
abbrev main_call12_call0_v1 : Ref sig .tc := ⟨.hbm, 465, rfl⟩
abbrev main_v255 : Ref sig .tc := ⟨.hbm, 466, rfl⟩
abbrev main_v256 : Ref sig .tc := ⟨.hbm, 467, rfl⟩
abbrev main_v257 : Ref sig .tc := ⟨.hbm, 468, rfl⟩
abbrev main_v258 : Ref sig .tc := ⟨.hbm, 469, rfl⟩
abbrev main_cst_37 : Ref sig .tc := ⟨.hbm, 470, rfl⟩
abbrev main_v259 : Ref sig .tc := ⟨.hbm, 471, rfl⟩
abbrev main_v260 : Ref sig .tc := ⟨.hbm, 472, rfl⟩
abbrev main_v261 : Ref sig .tc := ⟨.hbm, 473, rfl⟩
abbrev main_v262 : Ref sig .tc := ⟨.hbm, 474, rfl⟩
abbrev main_v263 : Ref sig .tc := ⟨.hbm, 475, rfl⟩
abbrev main_v264 : Ref sig .tc := ⟨.hbm, 476, rfl⟩
abbrev main_v265 : Ref sig .tc := ⟨.hbm, 477, rfl⟩
abbrev main_v266 : Ref sig .tc := ⟨.hbm, 478, rfl⟩
abbrev main_v267 : Ref sig .tc := ⟨.hbm, 479, rfl⟩
abbrev main_v268 : Ref sig .tc := ⟨.hbm, 480, rfl⟩
abbrev main_v269 : Ref sig .tc := ⟨.hbm, 481, rfl⟩
abbrev main_v270 : Ref sig .tc := ⟨.hbm, 482, rfl⟩
abbrev main_call13_cst : Ref sig .tc := ⟨.hbm, 483, rfl⟩
abbrev main_call13_v0 : Ref sig .tc := ⟨.hbm, 484, rfl⟩
abbrev main_v271 : Ref sig .tc := ⟨.hbm, 485, rfl⟩
abbrev main_v272 : Ref sig .tc := ⟨.hbm, 486, rfl⟩
abbrev main_v273 : Ref sig .tc := ⟨.hbm, 487, rfl⟩
abbrev main_v274 : Ref sig .tc := ⟨.hbm, 488, rfl⟩
abbrev main_v275 : Ref sig .tc := ⟨.hbm, 489, rfl⟩
abbrev main_v276 : Ref sig .tc := ⟨.hbm, 490, rfl⟩
abbrev main_v277 : Ref sig .tc := ⟨.hbm, 491, rfl⟩
abbrev main_v278 : Ref sig .tc := ⟨.hbm, 492, rfl⟩
abbrev main_v279 : Ref sig .tc := ⟨.hbm, 493, rfl⟩
abbrev main_v280 : Ref sig .tc := ⟨.hbm, 494, rfl⟩
abbrev main_v281 : Ref sig .tc := ⟨.hbm, 495, rfl⟩
abbrev main_v282 : Ref sig .tc := ⟨.hbm, 496, rfl⟩
abbrev main_v283 : Ref sig .tc := ⟨.hbm, 497, rfl⟩
abbrev main_cst_38 : Ref sig .tc := ⟨.hbm, 498, rfl⟩
abbrev main_v284 : Ref sig .tc := ⟨.hbm, 499, rfl⟩
abbrev main_cst_39 : Ref sig .tc := ⟨.hbm, 500, rfl⟩
abbrev main_v285 : Ref sig .tc := ⟨.hbm, 501, rfl⟩
abbrev main_v286 : Ref sig .tc := ⟨.hbm, 502, rfl⟩
abbrev main_c_40 : Ref sig .tc := ⟨.hbm, 503, rfl⟩
abbrev main_call14_cst : Ref sig .tc := ⟨.hbm, 504, rfl⟩
abbrev main_call14_v0 : Ref sig .tc := ⟨.hbm, 505, rfl⟩
abbrev main_call14_v1 : Ref sig .tc := ⟨.hbm, 506, rfl⟩
abbrev main_call14_cst_0 : Ref sig .tc := ⟨.hbm, 507, rfl⟩
abbrev main_call14_v2 : Ref sig .tc := ⟨.hbm, 508, rfl⟩
abbrev main_call14_v3 : Ref sig .tc := ⟨.hbm, 509, rfl⟩
abbrev main_call14_v4 : Ref sig .tc := ⟨.hbm, 510, rfl⟩
abbrev main_call14_v5 : Ref sig .tc := ⟨.hbm, 511, rfl⟩
abbrev main_call14_v6 : Ref sig .tc := ⟨.hbm, 512, rfl⟩
abbrev main_call14_v7 : Ref sig .tc := ⟨.hbm, 513, rfl⟩
abbrev main_call14_cst_1 : Ref sig .tc := ⟨.hbm, 514, rfl⟩
abbrev main_call14_v8 : Ref sig .tc := ⟨.hbm, 515, rfl⟩
abbrev main_call14_cst_2 : Ref sig .tc := ⟨.hbm, 516, rfl⟩
abbrev main_call14_v9 : Ref sig .tc := ⟨.hbm, 517, rfl⟩
abbrev main_call14_v10 : Ref sig .tc := ⟨.hbm, 518, rfl⟩
abbrev main_call14_v11 : Ref sig .tc := ⟨.hbm, 519, rfl⟩
abbrev main_call14_cst_3 : Ref sig .tc := ⟨.hbm, 520, rfl⟩
abbrev main_call14_v12 : Ref sig .tc := ⟨.hbm, 521, rfl⟩
abbrev main_call14_cst_4 : Ref sig .tc := ⟨.hbm, 522, rfl⟩
abbrev main_call14_call0_v0 : Ref sig .tc := ⟨.hbm, 523, rfl⟩
abbrev main_call14_call0_v1 : Ref sig .tc := ⟨.hbm, 524, rfl⟩
abbrev main_v287 : Ref sig .tc := ⟨.hbm, 525, rfl⟩
abbrev main_v288 : Ref sig .tc := ⟨.hbm, 526, rfl⟩
abbrev main_v289 : Ref sig .tc := ⟨.hbm, 527, rfl⟩
abbrev main_v290 : Ref sig .tc := ⟨.hbm, 528, rfl⟩
abbrev main_cst_41 : Ref sig .tc := ⟨.hbm, 529, rfl⟩
abbrev main_v291 : Ref sig .tc := ⟨.hbm, 530, rfl⟩
abbrev main_v292 : Ref sig .tc := ⟨.hbm, 531, rfl⟩
abbrev main_v293 : Ref sig .tc := ⟨.hbm, 532, rfl⟩
abbrev main_v294 : Ref sig .tc := ⟨.hbm, 533, rfl⟩
abbrev main_v295 : Ref sig .tc := ⟨.hbm, 534, rfl⟩
abbrev main_v296 : Ref sig .tc := ⟨.hbm, 535, rfl⟩
abbrev main_v297 : Ref sig .tc := ⟨.hbm, 536, rfl⟩
abbrev main_v298 : Ref sig .tc := ⟨.hbm, 537, rfl⟩
abbrev main_v299 : Ref sig .tc := ⟨.hbm, 538, rfl⟩
abbrev main_v300 : Ref sig .tc := ⟨.hbm, 539, rfl⟩
abbrev main_v301 : Ref sig .tc := ⟨.hbm, 540, rfl⟩
abbrev main_v302 : Ref sig .tc := ⟨.hbm, 541, rfl⟩
abbrev main_call15_cst : Ref sig .tc := ⟨.hbm, 542, rfl⟩
abbrev main_call15_v0 : Ref sig .tc := ⟨.hbm, 543, rfl⟩
abbrev main_v303 : Ref sig .tc := ⟨.hbm, 544, rfl⟩
abbrev main_cst_42 : Ref sig .tc := ⟨.hbm, 545, rfl⟩
abbrev main_v304 : Ref sig .tc := ⟨.hbm, 546, rfl⟩
abbrev main_v305 : Ref sig .tc := ⟨.hbm, 547, rfl⟩
abbrev main_v306 : Ref sig .tc := ⟨.hbm, 548, rfl⟩
abbrev main_v307 : Ref sig .tc := ⟨.hbm, 549, rfl⟩
abbrev main_v308 : Ref sig .tc := ⟨.hbm, 550, rfl⟩
abbrev main_v309 : Ref sig .tc := ⟨.hbm, 551, rfl⟩
abbrev main_v310 : Ref sig .tc := ⟨.hbm, 552, rfl⟩
abbrev main_v311 : Ref sig .tc := ⟨.hbm, 553, rfl⟩
abbrev main_v312 : Ref sig .tc := ⟨.hbm, 554, rfl⟩
abbrev main_v313 : Ref sig .tc := ⟨.hbm, 555, rfl⟩
abbrev main_v314 : Ref sig .tc := ⟨.hbm, 556, rfl⟩
abbrev main_cst_43 : Ref sig .tc := ⟨.hbm, 557, rfl⟩
abbrev main_v315 : Ref sig .tc := ⟨.hbm, 558, rfl⟩
abbrev main_v316 : Ref sig .tc := ⟨.hbm, 559, rfl⟩
abbrev main_v317 : Ref sig .tc := ⟨.hbm, 560, rfl⟩
abbrev main_v318 : Ref sig .tc := ⟨.hbm, 561, rfl⟩
abbrev main_v319 : Ref sig .tc := ⟨.hbm, 562, rfl⟩
abbrev main_v320 : Ref sig .tc := ⟨.hbm, 563, rfl⟩
abbrev main_v321 : Ref sig .tc := ⟨.hbm, 564, rfl⟩
abbrev main_v322 : Ref sig .tc := ⟨.hbm, 565, rfl⟩
abbrev main_v323 : Ref sig .tc := ⟨.hbm, 566, rfl⟩
abbrev main_v324 : Ref sig .tc := ⟨.hbm, 567, rfl⟩
abbrev main_v325 : Ref sig .tc := ⟨.hbm, 568, rfl⟩
abbrev main_v326 : Ref sig .tc := ⟨.hbm, 569, rfl⟩
abbrev main_cst_44 : Ref sig .tc := ⟨.hbm, 570, rfl⟩
abbrev main_v327 : Ref sig .tc := ⟨.hbm, 571, rfl⟩
abbrev main_v328 : Ref sig .tc := ⟨.hbm, 572, rfl⟩
abbrev main_v329 : Ref sig .tc := ⟨.hbm, 573, rfl⟩
abbrev main_v330 : Ref sig .tc := ⟨.hbm, 574, rfl⟩
abbrev main_v331 : Ref sig .tc := ⟨.hbm, 575, rfl⟩
abbrev main_v332 : Ref sig .tc := ⟨.hbm, 576, rfl⟩
abbrev main_v333 : Ref sig .tc := ⟨.hbm, 577, rfl⟩
abbrev main_v334 : Ref sig .tc := ⟨.hbm, 578, rfl⟩
abbrev main_v335 : Ref sig .tc := ⟨.hbm, 579, rfl⟩
abbrev main_v336 : Ref sig .tc := ⟨.hbm, 580, rfl⟩
abbrev main_v337 : Ref sig .tc := ⟨.hbm, 581, rfl⟩
abbrev main_v338 : Ref sig .tc := ⟨.hbm, 582, rfl⟩
abbrev main_cst_45 : Ref sig .tc := ⟨.hbm, 583, rfl⟩
abbrev main_v339 : Ref sig .tc := ⟨.hbm, 584, rfl⟩
abbrev main_v340 : Ref sig .tc := ⟨.hbm, 585, rfl⟩
abbrev main_v341 : Ref sig .tc := ⟨.hbm, 586, rfl⟩
abbrev main_v342 : Ref sig .tc := ⟨.hbm, 587, rfl⟩
abbrev main_v343 : Ref sig .tc := ⟨.hbm, 588, rfl⟩
abbrev main_v344 : Ref sig .tc := ⟨.hbm, 589, rfl⟩
abbrev main_v345 : Ref sig .tc := ⟨.hbm, 590, rfl⟩
abbrev main_v346 : Ref sig .tc := ⟨.hbm, 591, rfl⟩
abbrev main_v347 : Ref sig .tc := ⟨.hbm, 592, rfl⟩
abbrev main_v348 : Ref sig .tc := ⟨.hbm, 593, rfl⟩
abbrev main_v349 : Ref sig .tc := ⟨.hbm, 594, rfl⟩
abbrev main_v350 : Ref sig .tc := ⟨.hbm, 595, rfl⟩
abbrev main_cst_46 : Ref sig .tc := ⟨.hbm, 596, rfl⟩
abbrev main_v351 : Ref sig .tc := ⟨.hbm, 597, rfl⟩
abbrev main_v352 : Ref sig .tc := ⟨.hbm, 598, rfl⟩
abbrev main_v353 : Ref sig .tc := ⟨.hbm, 599, rfl⟩
abbrev main_v354 : Ref sig .tc := ⟨.hbm, 600, rfl⟩
abbrev main_v355 : Ref sig .tc := ⟨.hbm, 601, rfl⟩
abbrev main_v356 : Ref sig .tc := ⟨.hbm, 602, rfl⟩
abbrev main_v357 : Ref sig .tc := ⟨.hbm, 603, rfl⟩
abbrev main_v358 : Ref sig .tc := ⟨.hbm, 604, rfl⟩
abbrev main_v359 : Ref sig .tc := ⟨.hbm, 605, rfl⟩
abbrev main_v360 : Ref sig .tc := ⟨.hbm, 606, rfl⟩
abbrev main_v361 : Ref sig .tc := ⟨.hbm, 607, rfl⟩
abbrev main_v362 : Ref sig .tc := ⟨.hbm, 608, rfl⟩
abbrev main_call16_cst : Ref sig .tc := ⟨.hbm, 609, rfl⟩
abbrev main_call16_v0 : Ref sig .tc := ⟨.hbm, 610, rfl⟩
abbrev main_call16_cst_0 : Ref sig .tc := ⟨.hbm, 611, rfl⟩
abbrev main_call16_v1 : Ref sig .tc := ⟨.hbm, 612, rfl⟩
abbrev main_call16_v2 : Ref sig .tc := ⟨.hbm, 613, rfl⟩
abbrev main_call16_v3 : Ref sig .tc := ⟨.hbm, 614, rfl⟩
abbrev main_call16_v4 : Ref sig .tc := ⟨.hbm, 615, rfl⟩
abbrev main_call16_v5 : Ref sig .tc := ⟨.hbm, 616, rfl⟩
abbrev main_call16_v6 : Ref sig .tc := ⟨.hbm, 617, rfl⟩
abbrev main_call16_cst_1 : Ref sig .tc := ⟨.hbm, 618, rfl⟩
abbrev main_call16_v7 : Ref sig .tc := ⟨.hbm, 619, rfl⟩
abbrev main_call16_v8 : Ref sig .tc := ⟨.hbm, 620, rfl⟩
abbrev main_call16_v9 : Ref sig .tc := ⟨.hbm, 621, rfl⟩
abbrev main_call16_v10 : Ref sig .tc := ⟨.hbm, 622, rfl⟩
abbrev main_v363 : Ref sig .tc := ⟨.hbm, 623, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  slices_S5x128x10_S1x128x10_0_0_0 : S5x128x10.Slices ![0, 0, 0] S1x128x10
  shapeCasts_S1x128x10_S128x10 : S1x128x10.ShapeCasts S128x10
  slices_S5x10_S1x10_0_0 : S5x10.Slices ![0, 0] S1x10
  shapeCasts_S1x10_S10 : S1x10.ShapeCasts S10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  slices_S5x128x10_S1x128x10_1_0_0 : S5x128x10.Slices ![1, 0, 0] S1x128x10
  slices_S5x10_S1x10_1_0 : S5x10.Slices ![1, 0] S1x10
  slices_S5x128x10_S1x128x10_2_0_0 : S5x128x10.Slices ![2, 0, 0] S1x128x10
  slices_S5x10_S1x10_2_0 : S5x10.Slices ![2, 0] S1x10
  slices_S5x128x10_S1x128x10_3_0_0 : S5x128x10.Slices ![3, 0, 0] S1x128x10
  slices_S5x10_S1x10_3_0 : S5x10.Slices ![3, 0] S1x10
  slices_S5x128x10_S1x128x10_4_0_0 : S5x128x10.Slices ![4, 0, 0] S1x128x10
  slices_S5x10_S1x10_4_0 : S5x10.Slices ![4, 0] S1x10
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel program's run, with its result named.

  Every weakly fair execution of the program from a memory with zero counters terminates without a fault; at the
  end the result array holds what the fold of the program through its segments leaves there — the host
  stretches applied one after the other, each region's output arrays at what its write-backs leave — and the
  thirteen argument arrays are as launched.  The argument is the frame's: the launch over the segments, the
  last thread state read against the final memory; here the result's buffer is read as well.
-/
import proofs.«120577_j28003186770423_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run: the result array at the fold's last contents, the arguments unchanged. -/
theorem run_result : θ_run defs (onTc (τ := τ) (main (F := F))) ⟨m, fun _ => 0, ρ⟩ (fun r => ∀ c : Dev nD,
      r.2.mem ((c.tc : Thread nD τ).loc main_v251) = W26 m ρ c (Proc.devRef .tc main_v251)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v251 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c)⟩)

end Cert.KernelIdeal.Run

end
-- ==== Proof.RefLine.lean ====
/- Straight lines of host operations whose k-th operation writes the buffer of index n + k.

   In such a line every buffer is written by at most one operation and by none after it. Hence a buffer of smaller
   index is untouched by the line, the contents after a concatenation are the folds composed, and the buffer an
   operation writes holds at the END of the line that operation's function of what its operand buffers hold at the
   end: the equations a straight-line program satisfies, read at its final state. -/
import proofs.«120577_j28003186770423_1_alg».proof.ReferenceIdeal
import proofs.«120577_j28003186770423_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Lines of operations -/

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A property of every operation of two lines holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- A reference of index below thirteen (an argument) is not the one buffer an operation writes when that
    buffer's index is thirteen or more (a value of the program). -/
theorem nw {r y : Ref sig .tc} (hr : r.idx.val < 13) (hy : 13 ≤ y.idx.val) :
    (Proc.devRef .tc r : DevRef τ sig) ∉ ({(Proc.devRef .tc y : DevRef τ sig)} : Finset (DevRef τ sig)) := by
  intro h
  have e : r = y := Proc.devRef_injective _ (Finset.mem_singleton.1 h)
  rw [e] at hr
  exact absurd hr (Nat.not_lt.2 hy)

/-! ## Each buffer is written once

The operations are numbered in the order of the line and the k-th of them writes exactly the buffer of index
13 + k. So a buffer is written by one operation and by none after it, and what an operation's result buffer holds
at the end is the operation's function of what its operand buffers hold AT THE END. -/

/-- The i-th operation of the list writes only buffers of index n + i. -/
def WrFrom : Nat → List (HloOp τ sig (Elt F)) → Prop
  | _, [] => True
  | n, op :: l => (∀ r : Ref sig .tc, (Proc.devRef .tc r : DevRef τ sig) ∈ op.writes → r.idx.val = n) ∧ WrFrom (n + 1) l

theorem wrFrom_cons {n : Nat} {op : HloOp τ sig (Elt F)} {l : List (HloOp τ sig (Elt F))} :
    WrFrom n (op :: l)
      ↔ (∀ r : Ref sig .tc, (Proc.devRef .tc r : DevRef τ sig) ∈ op.writes → r.idx.val = n) ∧ WrFrom (n + 1) l := Iff.rfl

/-- An operation whose one written buffer has index n writes only buffers of index n. -/
theorem w1 {y : Ref sig .tc} {n : Nat} (hy : y.idx.val = n) :
    ∀ r : Ref sig .tc, (Proc.devRef .tc r : DevRef τ sig) ∈ ({(Proc.devRef .tc y : DevRef τ sig)} : Finset (DevRef τ sig)) →
      r.idx.val = n := fun r h => by
  rw [Proc.devRef_injective _ (Finset.mem_singleton.1 h)]; exact hy

/-- A buffer of index below the list's first is untouched by the list. -/
theorem WrFrom.after_lt : ∀ {l : List (HloOp τ sig (Elt F))} {n : Nat}, WrFrom n l → ∀ {r : Ref sig .tc}, r.idx.val < n →
    ∀ X : Valuation τ sig (Elt F), after l X (Proc.devRef .tc r) = X (Proc.devRef .tc r)
  | [], _, _, _, _, _ => rfl
  | op :: l, n, h, r, hr, X => by
    rw [after_cons, WrFrom.after_lt (wrFrom_cons.1 h).2 (Nat.lt_succ_of_lt hr),
      op.result_of_not_mem X fun hm => absurd ((wrFrom_cons.1 h).1 r hm) (Nat.ne_of_lt hr)]

/-- What the k-th operation writes holds, after the whole list, that operation's value from the contents after
    the first k operations: the later ones write buffers of larger index. -/
theorem WrFrom.read : ∀ {l : List (HloOp τ sig (Elt F))} {n : Nat}, WrFrom n l → ∀ {k : Nat} {op : HloOp τ sig (Elt F)},
    l[k]? = some op → ∀ (X : Valuation τ sig (Elt F)) (y : Ref sig .tc), (Proc.devRef .tc y : DevRef τ sig) ∈ op.writes →
    after l X (Proc.devRef .tc y) = op.result (after (l.take k) X) (Proc.devRef .tc y)
  | [], _, _, _, _, hk, _, _, _ => by simp at hk
  | o :: l, n, h, 0, op, hk, X, y, hy => by
    have e : o = op := by simpa using hk
    subst e
    rw [after_cons, List.take_zero, after_nil]
    exact WrFrom.after_lt (wrFrom_cons.1 h).2 (by rw [(wrFrom_cons.1 h).1 y hy]; exact Nat.lt_succ_self n) _
  | o :: l, n, h, k + 1, op, hk, X, y, hy => by
    have hk' : l[k]? = some op := by simpa using hk
    rw [after_cons, List.take_succ_cons, after_cons]
    exact WrFrom.read (wrFrom_cons.1 h).2 hk' (o.result X) y hy

/-- Its index. -/
theorem WrFrom.idx : ∀ {l : List (HloOp τ sig (Elt F))} {n : Nat}, WrFrom n l → ∀ {k : Nat} {op : HloOp τ sig (Elt F)},
    l[k]? = some op → ∀ (y : Ref sig .tc), (Proc.devRef .tc y : DevRef τ sig) ∈ op.writes → y.idx.val = n + k
  | [], _, _, _, _, hk, _, _ => by simp at hk
  | o :: l, n, h, 0, op, hk, y, hy => by
    have e : o = op := by simpa using hk
    subst e
    exact (wrFrom_cons.1 h).1 y hy
  | o :: l, n, h, k + 1, op, hk, y, hy => by
    have hk' : l[k]? = some op := by simpa using hk
    rw [WrFrom.idx (wrFrom_cons.1 h).2 hk' y hy]; omega

/-- A buffer of index below n + k holds after the first k operations what it holds after all. -/
theorem WrFrom.stable : ∀ {l : List (HloOp τ sig (Elt F))} {n : Nat}, WrFrom n l → ∀ (k : Nat) {a : Ref sig .tc}, a.idx.val < n + k →
    ∀ X : Valuation τ sig (Elt F), after (l.take k) X (Proc.devRef .tc a) = after l X (Proc.devRef .tc a)
  | [], _, _, _, _, _, _ => by rw [List.take_nil]
  | o :: l, n, h, 0, a, ha, X => by
    rw [List.take_zero, after_nil]; exact (WrFrom.after_lt h (by omega) X).symm
  | o :: l, n, h, k + 1, a, ha, X => by
    rw [List.take_succ_cons, after_cons, after_cons]
    exact WrFrom.stable (wrFrom_cons.1 h).2 k (by omega) (o.result X)

theorem getElem?_lt {l : List (HloOp τ sig (Elt F))} {k : Nat} {op : HloOp τ sig (Elt F)} (hk : l[k]? = some op) : k < l.length := by
  by_contra h
  rw [List.getElem?_eq_none (Nat.le_of_not_lt h)] at hk
  exact absurd hk (by simp)

/-- A piece P of a line L whose operations write the indices from lo up to hi, run from what the earlier pieces
    leave (W): a buffer of index below hi holds at the end of L what it holds after P. -/
structure Piece (L P : List (HloOp τ sig (Elt F))) (lo hi : Nat)
    (W : Valuation τ sig (Elt F) → Valuation τ sig (Elt F)) : Prop where
  wr : WrFrom lo P
  len : lo + P.length = hi
  lift : ∀ (r : Ref sig .tc), r.idx.val < hi → ∀ V : Valuation τ sig (Elt F),
    after L V (Proc.devRef .tc r) = after P (W V) (Proc.devRef .tc r)

namespace Piece

variable {L P : List (HloOp τ sig (Elt F))} {lo hi : Nat} {W : Valuation τ sig (Elt F) → Valuation τ sig (Elt F)}

/-- An operand of the k-th operation, written before it: what the operation reads is what the buffer holds at the end. -/
theorem operand (pc : Piece L P lo hi W) {k : Nat} (hk : k < P.length) {a : Ref sig .tc} (ha : a.idx.val < lo + k)
    (V : Valuation τ sig (Elt F)) :
    after (P.take k) (W V) (Proc.devRef .tc a) = after L V (Proc.devRef .tc a) :=
  (pc.wr.stable k ha _).trans (pc.lift a (by have := pc.len; omega) V).symm

/-- The k-th operation's result buffer holds at the end the operation's value. -/
theorem result (pc : Piece L P lo hi W) {k : Nat} {op : HloOp τ sig (Elt F)} (hk : P[k]? = some op) {y : Ref sig .tc}
    (hy : (Proc.devRef .tc y : DevRef τ sig) ∈ op.writes) (V : Valuation τ sig (Elt F)) :
    after L V (Proc.devRef .tc y) = op.result (after (P.take k) (W V)) (Proc.devRef .tc y) := by
  have hkl := getElem?_lt hk
  have hyk := pc.wr.idx hk y hy
  rw [pc.lift y (by have := pc.len; omega) V]
  exact pc.wr.read hk _ y hy

theorem nullary (pc : Piece L P lo hi W) {k : Nat} {y : Ref sig .tc} {v : y.ty.Contents (Elt F)} {hy'}
    (hk : P[k]? = some (StableHlo.nullary y v hy')) (V : Valuation τ sig (Elt F)) :
    after L V (Proc.devRef .tc y) = v :=
  (pc.result hk (Finset.mem_singleton_self _) V).trans (nullary_result ..)

/- For the operations that read operands the value is stated through a function g of the whole contents, equal to
   the operation's own function of the operand buffers for EVERY contents Z (where an operation of a callee carries
   its buffers' types along, g is the same function with those identities dropped); the equation is then read at
   the contents the line ends with. -/

theorem unary (pc : Piece L P lo hi W) {k : Nat} {x y : Ref sig .tc} {f : x.ty.Contents (Elt F) → y.ty.Contents (Elt F)} {hx' hy'}
    (hk : P[k]? = some (StableHlo.unary x y f hx' hy')) (hx : x.idx.val < lo + k)
    (g : Valuation τ sig (Elt F) → y.ty.Contents (Elt F))
    (hg : ∀ Z : Valuation τ sig (Elt F), f (Z (Proc.devRef .tc x)) = g Z) (V : Valuation τ sig (Elt F)) :
    after L V (Proc.devRef .tc y) = g (after L V) :=
  ((pc.result hk (Finset.mem_singleton_self _) V).trans
    ((unary_result ..).trans (congrArg f (pc.operand (getElem?_lt hk) hx V)))).trans (hg _)

theorem binary (pc : Piece L P lo hi W) {k : Nat} {a b y : Ref sig .tc}
    {f : a.ty.Contents (Elt F) → b.ty.Contents (Elt F) → y.ty.Contents (Elt F)} {ha' hb' hy'}
    (hk : P[k]? = some (StableHlo.binary a b y f ha' hb' hy')) (ha : a.idx.val < lo + k) (hb : b.idx.val < lo + k)
    (g : Valuation τ sig (Elt F) → y.ty.Contents (Elt F))
    (hg : ∀ Z : Valuation τ sig (Elt F), f (Z (Proc.devRef .tc a)) (Z (Proc.devRef .tc b)) = g Z)
    (V : Valuation τ sig (Elt F)) :
    after L V (Proc.devRef .tc y) = g (after L V) :=
  ((pc.result hk (Finset.mem_singleton_self _) V).trans
    ((binary_result ..).trans
      (congrArg₂ f (pc.operand (getElem?_lt hk) ha V) (pc.operand (getElem?_lt hk) hb V)))).trans (hg _)

theorem ternary (pc : Piece L P lo hi W) {k : Nat} {c a b y : Ref sig .tc}
    {f : c.ty.Contents (Elt F) → a.ty.Contents (Elt F) → b.ty.Contents (Elt F) → y.ty.Contents (Elt F)} {hc' ha' hb' hy'}
    (hk : P[k]? = some (StableHlo.ternary c a b y f hc' ha' hb' hy')) (hc : c.idx.val < lo + k) (ha : a.idx.val < lo + k)
    (hb : b.idx.val < lo + k) (g : Valuation τ sig (Elt F) → y.ty.Contents (Elt F))
    (hg : ∀ Z : Valuation τ sig (Elt F), f (Z (Proc.devRef .tc c)) (Z (Proc.devRef .tc a)) (Z (Proc.devRef .tc b)) = g Z)
    (V : Valuation τ sig (Elt F)) :
    after L V (Proc.devRef .tc y) = g (after L V) :=
  ((pc.result hk (Finset.mem_singleton_self _) V).trans
    ((ternary_result ..).trans
      (by rw [pc.operand (getElem?_lt hk) hc V, pc.operand (getElem?_lt hk) ha V, pc.operand (getElem?_lt hk) hb V]))).trans (hg _)

theorem reshape (pc : Piece L P lo hi W) {k : Nat} {x y : Ref sig .tc} {he : x.ty.elt = y.ty.elt}
    {hn : x.ty.shape.ShapeCasts y.ty.shape} {hx' hy'}
    (hk : P[k]? = some (StableHlo.reshape x y he hn hx' hy')) (hx : x.idx.val < lo + k)
    (g : Valuation τ sig (Elt F) → y.ty.Contents (Elt F))
    (hg : ∀ Z : Valuation τ sig (Elt F), (fun i => he ▸ shapeCast y.ty.shape (Z (Proc.devRef .tc x)) hn i) = g Z)
    (V : Valuation τ sig (Elt F)) :
    after L V (Proc.devRef .tc y) = g (after L V) :=
  ((pc.result hk (Finset.mem_singleton_self _) V).trans
    ((reshape_result ..).trans
      (congrArg (fun z : x.ty.Contents (Elt F) => fun i => he ▸ shapeCast y.ty.shape z hn i)
        (pc.operand (getElem?_lt hk) hx V)))).trans (hg _)

end Piece

end Cert.ReferenceIdeal.HandRun

end
-- ==== Proof.RefOps.lean ====
/- The reference program as a straight line of 611 array operations in seven consecutive pieces: the 414 statements of @main,
   with each of its seventeen calls (eight of the variance function, which itself calls the three-operation masked
   select; eight of the rectifier; one of the log-softmax) replaced by the callee's own operations over that call's
   buffers. Beside each piece, one row per operation: the buffers it touches are TensorCore buffers, it determines
   what it writes, it writes no argument, and the k-th operation of the whole line writes the buffer of index 13 + k. -/
import proofs.«120577_j28003186770423_1_alg».proof.Proof.RefLine

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main as 83 operations, the callees' operations in place of the calls. -/
abbrev opsP0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v18 ((extractStridedSlice S1x128 ![0, 0] · slices_S4x128_S1x128_0_0) : (⟨S4x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)),
    StableHlo.unary main_arg5 main_v23 ((extractStridedSlice S1x128 ![0, 0] · slices_S4x128_S1x128_0_0) : (⟨S4x128, .f32⟩ : BufTy).Contents (Elt F) → (⟨S1x128, .f32⟩ : BufTy).Contents (Elt F)),
    StableHlo.reshape main_v23 main_v24 rfl shapeCasts_S1x128_S128,
    StableHlo.unary main_arg6 main_v25 ((extractStridedSlice S1x128 ![0, 0] · slices_S4x128_S1x128_0_0) : (⟨S4x128, .f32⟩ : BufTy).Contents (Elt F) → (⟨S1x128, .f32⟩ : BufTy).Contents (Elt F)),
    StableHlo.reshape main_v25 main_v26 rfl shapeCasts_S1x128_S128,
    StableHlo.nullary main_cst_1 (constant S_ .f32 0x00000000#32),
    StableHlo.binary main_v22 main_cst_1 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v22 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v22 : StableHlo.TRef sig ⟨S100000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v22 main_v32 main_v33 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_v24 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (mulf : (⟨S100000x128, .f32⟩ : BufTy).Contents (Elt F) → (⟨S100000x128, .f32⟩ : BufTy).Contents (Elt F) → (⟨S100000x128, .f32⟩ : BufTy).Contents (Elt F)),
    StableHlo.unary main_v26 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v45 : StableHlo.TRef sig ⟨S100000x128, .f32⟩) main_call1.v0 main_call1.v1 maximumf,
    StableHlo.unary main_arg7 main_v47 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v47 main_v48 rfl shapeCasts_S1x128x128_S128x128,
    StableHlo.binary main_v46 main_v48 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v50 ((extractStridedSlice S1x128 ![0, 0] · slices_S4x128_S1x128_0_0) : (⟨S4x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)) ]

theorem opsP0_sub : (opsP0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub ..⟩

theorem opsP0_fresh : (opsP0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem opsP0_unwritten {r : Ref sig .tc} (hr : r.idx.val < 13) :
    (opsP0 : List (HloOp τ sig (Elt F))).Forall fun op => (Proc.devRef .tc r : DevRef τ sig) ∉ op.writes :=
  ⟨nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide)⟩

theorem wrP0 : WrFrom 13 (opsP0 : List (HloOp τ sig (Elt F))) :=
  ⟨w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide),
    trivial⟩

/-- Statements 61 … 120 of @main as 83 operations, the callees' operations in place of the calls. -/
abbrev opsP1 : List (HloOp τ sig (Elt F)) :=
  [ StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v53 main_v54 (addf : (⟨S100000x128, .f32⟩ : BufTy).Contents (Elt F) → (⟨S100000x128, .f32⟩ : BufTy).Contents (Elt F) → (⟨S100000x128, .f32⟩ : BufTy).Contents (Elt F)),
    StableHlo.unary main_arg9 main_v55 ((extractStridedSlice S1x128 ![0, 0] · slices_S4x128_S1x128_0_0) : (⟨S4x128, .f32⟩ : BufTy).Contents (Elt F) → (⟨S1x128, .f32⟩ : BufTy).Contents (Elt F)),
    StableHlo.reshape main_v55 main_v56 rfl shapeCasts_S1x128_S128,
    StableHlo.unary main_arg10 main_v57 ((extractStridedSlice S1x128 ![0, 0] · slices_S4x128_S1x128_0_0) : (⟨S4x128, .f32⟩ : BufTy).Contents (Elt F) → (⟨S1x128, .f32⟩ : BufTy).Contents (Elt F)),
    StableHlo.reshape main_v57 main_v58 rfl shapeCasts_S1x128_S128,
    StableHlo.nullary main_cst_5 (constant S_ .f32 0x00000000#32),
    StableHlo.binary main_v54 main_cst_5 main_v59 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v60 (broadcastInDim S128 ![] bcast_S_S128 : (⟨S_, .f32⟩ : BufTy).Contents (Elt F) → (⟨S128, .f32⟩ : BufTy).Contents (Elt F)),
    StableHlo.binary main_v59 main_v60 main_v61 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v54 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v54 : StableHlo.TRef sig ⟨S100000x128, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v61 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v64 main_v65 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v66 (broadcastInDim S128 ![] bcast_S_S128 : (⟨S_, .f32⟩ : BufTy).Contents (Elt F) → (⟨S128, .f32⟩ : BufTy).Contents (Elt F)),
    StableHlo.binary main_v62 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.rsqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v70 main_v71 (mulf : (⟨S100000x128, .f32⟩ : BufTy).Contents (Elt F) → (⟨S100000x128, .f32⟩ : BufTy).Contents (Elt F) → (⟨S100000x128, .f32⟩ : BufTy).Contents (Elt F)),
    StableHlo.unary main_v56 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (mulf : (⟨S100000x128, .f32⟩ : BufTy).Contents (Elt F) → (⟨S100000x128, .f32⟩ : BufTy).Contents (Elt F) → (⟨S100000x128, .f32⟩ : BufTy).Contents (Elt F)),
    StableHlo.unary main_v58 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v76 main_v77 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v77 : StableHlo.TRef sig ⟨S100000x128, .f32⟩) main_call3.v0 main_call3.v1 maximumf,
    StableHlo.nullary main_c_9 (constantI S_ 32 0#32),
    StableHlo.unary main_c_9 main_v79 (broadcastInDim S600000 ![] bcast_S_S600000 : (⟨S_, .i32⟩ : BufTy).Contents (Elt F) → (⟨S600000, .i32⟩ : BufTy).Contents (Elt F)),
    StableHlo.binary main_v1 main_v79 main_v80 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 100000#32),
    StableHlo.unary main_c_10 main_v81 (broadcastInDim S600000 ![] bcast_S_S600000 : (⟨S_, .i32⟩ : BufTy).Contents (Elt F) → (⟨S600000, .i32⟩ : BufTy).Contents (Elt F)),
    StableHlo.binary main_v1 main_v81 main_v82 (addi : (⟨S600000, .i32⟩ : BufTy).Contents (Elt F) → (⟨S600000, .i32⟩ : BufTy).Contents (Elt F) → (⟨S600000, .i32⟩ : BufTy).Contents (Elt F)),
    StableHlo.ternary main_v80 main_v82 main_v1 main_v83 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v83 main_v84 (broadcastInDim S600000x1 ![0] bcast_S600000_S600000x1_0 : (⟨S600000, .i32⟩ : BufTy).Contents (Elt F) → (⟨S600000x1, .i32⟩ : BufTy).Contents (Elt F)),
    StableHlo.binary main_v78 main_v84 main_v85 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_11 (constant S_ .f32 0x00000000#32),
    StableHlo.unary main_cst_11 main_v86 (broadcastInDim S100000x128 ![] bcast_S_S100000x128 : (⟨S_, .f32⟩ : BufTy).Contents (Elt F) → (⟨S100000x128, .f32⟩ : BufTy).Contents (Elt F)),
    StableHlo.unary main_v3 main_v87 (broadcastInDim S600000x1 ![0] bcast_S600000_S600000x1_0 : (⟨S600000, .i32⟩ : BufTy).Contents (Elt F) → (⟨S600000x1, .i32⟩ : BufTy).Contents (Elt F)),
    StableHlo.ternary main_v86 main_v87 main_v85 main_v88 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v78 main_v88 main_v89 (addf : (⟨S100000x128, .f32⟩ : BufTy).Contents (Elt F) → (⟨S100000x128, .f32⟩ : BufTy).Contents (Elt F) → (⟨S100000x128, .f32⟩ : BufTy).Contents (Elt F)),
    StableHlo.unary main_arg3 main_v90 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v90 main_v91 rfl shapeCasts_S1x128x128_S128x128,
    StableHlo.binary main_v89 main_v91 main_v92 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v93 ((extractStridedSlice S1x128 ![1, 0] · slices_S4x128_S1x128_1_0) : (⟨S4x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v96 main_v97 (addf : (⟨S100000x128, .f32⟩ : BufTy).Contents (Elt F) → (⟨S100000x128, .f32⟩ : BufTy).Contents (Elt F) → (⟨S100000x128, .f32⟩ : BufTy).Contents (Elt F)),
    StableHlo.unary main_arg5 main_v98 ((extractStridedSlice S1x128 ![1, 0] · slices_S4x128_S1x128_1_0) : (⟨S4x128, .f32⟩ : BufTy).Contents (Elt F) → (⟨S1x128, .f32⟩ : BufTy).Contents (Elt F)),
    StableHlo.reshape main_v98 main_v99 rfl shapeCasts_S1x128_S128,
    StableHlo.unary main_arg6 main_v100 ((extractStridedSlice S1x128 ![1, 0] · slices_S4x128_S1x128_1_0) : (⟨S4x128, .f32⟩ : BufTy).Contents (Elt F) → (⟨S1x128, .f32⟩ : BufTy).Contents (Elt F)),
    StableHlo.reshape main_v100 main_v101 rfl shapeCasts_S1x128_S128,
    StableHlo.nullary main_cst_12 (constant S_ .f32 0x00000000#32),
    StableHlo.binary main_v97 main_cst_12 main_v102 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v103 (broadcastInDim S128 ![] bcast_S_S128 : (⟨S_, .f32⟩ : BufTy).Contents (Elt F) → (⟨S128, .f32⟩ : BufTy).Contents (Elt F)) ]

theorem opsP1_sub : (opsP1 : List (HloOp τ sig (Elt F))).Forall fun op => op.bufs ⊆ tcRefs τ sig :=
  ⟨unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub ..⟩

theorem opsP1_fresh : (opsP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem opsP1_unwritten {r : Ref sig .tc} (hr : r.idx.val < 13) :
    (opsP1 : List (HloOp τ sig (Elt F))).Forall fun op => (Proc.devRef .tc r : DevRef τ sig) ∉ op.writes :=
  ⟨nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide)⟩

theorem wrP1 : WrFrom 96 (opsP1 : List (HloOp τ sig (Elt F))) :=
  ⟨w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide),
    trivial⟩

/-- Statements 121 … 180 of @main as 106 operations, the callees' operations in place of the calls. -/
abbrev opsP2 : List (HloOp τ sig (Elt F)) :=
  [ StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call4.cst (constant S_ .f32 0x00000000#32),
    StableHlo.TRef.binary (.of main_v97 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v97 : StableHlo.TRef sig ⟨S100000x128, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v107 main_v108 (subf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v109 (broadcastInDim S128 ![] bcast_S_S128 : (⟨S_, .f32⟩ : BufTy).Contents (Elt F) → (⟨S128, .f32⟩ : BufTy).Contents (Elt F)),
    StableHlo.binary main_v105 main_v109 main_v110 (addf : (⟨S128, .f32⟩ : BufTy).Contents (Elt F) → (⟨S128, .f32⟩ : BufTy).Contents (Elt F) → (⟨S128, .f32⟩ : BufTy).Contents (Elt F)),
    StableHlo.unary main_v110 main_v111 (Host.rsqrt : (⟨S128, .f32⟩ : BufTy).Contents (Elt F) → (⟨S128, .f32⟩ : BufTy).Contents (Elt F)),
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v113 main_v114 (mulf : (⟨S100000x128, .f32⟩ : BufTy).Contents (Elt F) → (⟨S100000x128, .f32⟩ : BufTy).Contents (Elt F) → (⟨S100000x128, .f32⟩ : BufTy).Contents (Elt F)),
    StableHlo.unary main_v99 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v116 main_v117 (mulf : (⟨S100000x128, .f32⟩ : BufTy).Contents (Elt F) → (⟨S100000x128, .f32⟩ : BufTy).Contents (Elt F) → (⟨S100000x128, .f32⟩ : BufTy).Contents (Elt F)),
    StableHlo.unary main_v101 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S100000x128 ![0, 1] bcast_S1x128_S100000x128_0_1 : (⟨S1x128, .f32⟩ : BufTy).Contents (Elt F) → (⟨S100000x128, .f32⟩ : BufTy).Contents (Elt F)),
    StableHlo.binary main_v117 main_v119 main_v120 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v120 : StableHlo.TRef sig ⟨S100000x128, .f32⟩) main_call5.v0 main_call5.v1 maximumf,
    StableHlo.unary main_arg7 main_v122 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v122 main_v123 rfl shapeCasts_S1x128x128_S128x128,
    StableHlo.binary main_v121 main_v123 main_v124 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v125 ((extractStridedSlice S1x128 ![1, 0] · slices_S4x128_S1x128_1_0) : (⟨S4x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v128 main_v129 (addf : (⟨S100000x128, .f32⟩ : BufTy).Contents (Elt F) → (⟨S100000x128, .f32⟩ : BufTy).Contents (Elt F) → (⟨S100000x128, .f32⟩ : BufTy).Contents (Elt F)),
    StableHlo.unary main_arg9 main_v130 ((extractStridedSlice S1x128 ![1, 0] · slices_S4x128_S1x128_1_0) : (⟨S4x128, .f32⟩ : BufTy).Contents (Elt F) → (⟨S1x128, .f32⟩ : BufTy).Contents (Elt F)),
    StableHlo.reshape main_v130 main_v131 rfl shapeCasts_S1x128_S128,
    StableHlo.unary main_arg10 main_v132 ((extractStridedSlice S1x128 ![1, 0] · slices_S4x128_S1x128_1_0) : (⟨S4x128, .f32⟩ : BufTy).Contents (Elt F) → (⟨S1x128, .f32⟩ : BufTy).Contents (Elt F)),
    StableHlo.reshape main_v132 main_v133 rfl shapeCasts_S1x128_S128,
    StableHlo.nullary main_cst_16 (constant S_ .f32 0x00000000#32),
    StableHlo.binary main_v129 main_cst_16 main_v134 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v135 (broadcastInDim S128 ![] bcast_S_S128 : (⟨S_, .f32⟩ : BufTy).Contents (Elt F) → (⟨S128, .f32⟩ : BufTy).Contents (Elt F)),
    StableHlo.binary main_v134 main_v135 main_v136 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (.of main_v129 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v129 : StableHlo.TRef sig ⟨S100000x128, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v136 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v129 main_v139 main_v140 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v141 (broadcastInDim S128 ![] bcast_S_S128 : (⟨S_, .f32⟩ : BufTy).Contents (Elt F) → (⟨S128, .f32⟩ : BufTy).Contents (Elt F)),
    StableHlo.binary main_v137 main_v141 main_v142 (addf : (⟨S128, .f32⟩ : BufTy).Contents (Elt F) → (⟨S128, .f32⟩ : BufTy).Contents (Elt F) → (⟨S128, .f32⟩ : BufTy).Contents (Elt F)),
    StableHlo.unary main_v142 main_v143 (Host.rsqrt : (⟨S128, .f32⟩ : BufTy).Contents (Elt F) → (⟨S128, .f32⟩ : BufTy).Contents (Elt F)),
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v140 main_v145 main_v146 (mulf : (⟨S100000x128, .f32⟩ : BufTy).Contents (Elt F) → (⟨S100000x128, .f32⟩ : BufTy).Contents (Elt F) → (⟨S100000x128, .f32⟩ : BufTy).Contents (Elt F)),
    StableHlo.unary main_v131 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v146 main_v148 main_v149 (mulf : (⟨S100000x128, .f32⟩ : BufTy).Contents (Elt F) → (⟨S100000x128, .f32⟩ : BufTy).Contents (Elt F) → (⟨S100000x128, .f32⟩ : BufTy).Contents (Elt F)),
    StableHlo.unary main_v133 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S100000x128 ![0, 1] bcast_S1x128_S100000x128_0_1 : (⟨S1x128, .f32⟩ : BufTy).Contents (Elt F) → (⟨S100000x128, .f32⟩ : BufTy).Contents (Elt F)),
    StableHlo.binary main_v149 main_v151 main_v152 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v152 : StableHlo.TRef sig ⟨S100000x128, .f32⟩) main_call7.v0 main_call7.v1 maximumf,
    StableHlo.nullary main_c_20 (constantI S_ 32 0#32),
    StableHlo.unary main_c_20 main_v154 (broadcastInDim S600000 ![] bcast_S_S600000 : (⟨S_, .i32⟩ : BufTy).Contents (Elt F) → (⟨S600000, .i32⟩ : BufTy).Contents (Elt F)),
    StableHlo.binary main_v1 main_v154 main_v155 (cmpi .slt : (⟨S600000, .i32⟩ : BufTy).Contents (Elt F) → (⟨S600000, .i32⟩ : BufTy).Contents (Elt F) → (⟨S600000, .i1⟩ : BufTy).Contents (Elt F)),
    StableHlo.nullary main_c_21 (constantI S_ 32 100000#32) ]

theorem opsP2_sub : (opsP2 : List (HloOp τ sig (Elt F))).Forall fun op => op.bufs ⊆ tcRefs τ sig :=
  ⟨binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub ..⟩

theorem opsP2_fresh : (opsP2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

theorem opsP2_unwritten {r : Ref sig .tc} (hr : r.idx.val < 13) :
    (opsP2 : List (HloOp τ sig (Elt F))).Forall fun op => (Proc.devRef .tc r : DevRef τ sig) ∉ op.writes :=
  ⟨nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide)⟩

theorem wrP2 : WrFrom 179 (opsP2 : List (HloOp τ sig (Elt F))) :=
  ⟨w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide),
    trivial⟩

/-- Statements 181 … 240 of @main as 83 operations, the callees' operations in place of the calls. -/
abbrev opsP3 : List (HloOp τ sig (Elt F)) :=
  [ StableHlo.unary main_c_21 main_v156 (broadcastInDim S600000 ![] bcast_S_S600000 : (⟨S_, .i32⟩ : BufTy).Contents (Elt F) → (⟨S600000, .i32⟩ : BufTy).Contents (Elt F)),
    StableHlo.binary main_v1 main_v156 main_v157 (addi : (⟨S600000, .i32⟩ : BufTy).Contents (Elt F) → (⟨S600000, .i32⟩ : BufTy).Contents (Elt F) → (⟨S600000, .i32⟩ : BufTy).Contents (Elt F)),
    StableHlo.ternary main_v155 main_v157 main_v1 main_v158 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v158 main_v159 (broadcastInDim S600000x1 ![0] bcast_S600000_S600000x1_0 : (⟨S600000, .i32⟩ : BufTy).Contents (Elt F) → (⟨S600000x1, .i32⟩ : BufTy).Contents (Elt F)),
    StableHlo.binary main_v153 main_v159 main_v160 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_22 (constant S_ .f32 0x00000000#32),
    StableHlo.unary main_cst_22 main_v161 (broadcastInDim S100000x128 ![] bcast_S_S100000x128 : (⟨S_, .f32⟩ : BufTy).Contents (Elt F) → (⟨S100000x128, .f32⟩ : BufTy).Contents (Elt F)),
    StableHlo.unary main_v3 main_v162 (broadcastInDim S600000x1 ![0] bcast_S600000_S600000x1_0 : (⟨S600000, .i32⟩ : BufTy).Contents (Elt F) → (⟨S600000x1, .i32⟩ : BufTy).Contents (Elt F)),
    StableHlo.ternary main_v161 main_v162 main_v160 main_v163 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v153 main_v163 main_v164 (addf : (⟨S100000x128, .f32⟩ : BufTy).Contents (Elt F) → (⟨S100000x128, .f32⟩ : BufTy).Contents (Elt F) → (⟨S100000x128, .f32⟩ : BufTy).Contents (Elt F)),
    StableHlo.unary main_arg3 main_v165 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v165 main_v166 rfl shapeCasts_S1x128x128_S128x128,
    StableHlo.binary main_v164 main_v166 main_v167 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v168 ((extractStridedSlice S1x128 ![2, 0] · slices_S4x128_S1x128_2_0) : (⟨S4x128, .f32⟩ : BufTy).Contents (Elt F) → (⟨S1x128, .f32⟩ : BufTy).Contents (Elt F)),
    StableHlo.reshape main_v168 main_v169 rfl shapeCasts_S1x128_S128,
    StableHlo.unary main_v169 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v171 main_v172 (addf : (⟨S100000x128, .f32⟩ : BufTy).Contents (Elt F) → (⟨S100000x128, .f32⟩ : BufTy).Contents (Elt F) → (⟨S100000x128, .f32⟩ : BufTy).Contents (Elt F)),
    StableHlo.unary main_arg5 main_v173 ((extractStridedSlice S1x128 ![2, 0] · slices_S4x128_S1x128_2_0) : (⟨S4x128, .f32⟩ : BufTy).Contents (Elt F) → (⟨S1x128, .f32⟩ : BufTy).Contents (Elt F)),
    StableHlo.reshape main_v173 main_v174 rfl shapeCasts_S1x128_S128,
    StableHlo.unary main_arg6 main_v175 ((extractStridedSlice S1x128 ![2, 0] · slices_S4x128_S1x128_2_0) : (⟨S4x128, .f32⟩ : BufTy).Contents (Elt F) → (⟨S1x128, .f32⟩ : BufTy).Contents (Elt F)),
    StableHlo.reshape main_v175 main_v176 rfl shapeCasts_S1x128_S128,
    StableHlo.nullary main_cst_23 (constant S_ .f32 0x00000000#32),
    StableHlo.binary main_v172 main_cst_23 main_v177 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32),
    StableHlo.unary main_cst_24 main_v178 (broadcastInDim S128 ![] bcast_S_S128 : (⟨S_, .f32⟩ : BufTy).Contents (Elt F) → (⟨S128, .f32⟩ : BufTy).Contents (Elt F)),
    StableHlo.binary main_v177 main_v178 main_v179 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call8.cst (constant S_ .f32 0x00000000#32),
    StableHlo.TRef.binary (.of main_v172 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v172 : StableHlo.TRef sig ⟨S100000x128, .f32⟩) main_call8.v4 main_call8.v5 subf,
    StableHlo.TRef.binary main_call8.v5 main_call8.v5 main_call8.v6 mulf,
    StableHlo.TRef.unary (.of main_c_25 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v179 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S100000x128 ![0, 1] bcast_S1x128_S100000x128_0_1 : (⟨S1x128, .f32⟩ : BufTy).Contents (Elt F) → (⟨S100000x128, .f32⟩ : BufTy).Contents (Elt F)),
    StableHlo.binary main_v172 main_v182 main_v183 (subf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v184 (broadcastInDim S128 ![] bcast_S_S128 : (⟨S_, .f32⟩ : BufTy).Contents (Elt F) → (⟨S128, .f32⟩ : BufTy).Contents (Elt F)),
    StableHlo.binary main_v180 main_v184 main_v185 (addf : (⟨S128, .f32⟩ : BufTy).Contents (Elt F) → (⟨S128, .f32⟩ : BufTy).Contents (Elt F) → (⟨S128, .f32⟩ : BufTy).Contents (Elt F)),
    StableHlo.unary main_v185 main_v186 (Host.rsqrt : (⟨S128, .f32⟩ : BufTy).Contents (Elt F) → (⟨S128, .f32⟩ : BufTy).Contents (Elt F)),
    StableHlo.unary main_v186 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S100000x128 ![0, 1] bcast_S1x128_S100000x128_0_1 : (⟨S1x128, .f32⟩ : BufTy).Contents (Elt F) → (⟨S100000x128, .f32⟩ : BufTy).Contents (Elt F)),
    StableHlo.binary main_v183 main_v188 main_v189 (mulf : (⟨S100000x128, .f32⟩ : BufTy).Contents (Elt F) → (⟨S100000x128, .f32⟩ : BufTy).Contents (Elt F) → (⟨S100000x128, .f32⟩ : BufTy).Contents (Elt F)),
    StableHlo.unary main_v174 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v191 main_v192 (mulf : (⟨S100000x128, .f32⟩ : BufTy).Contents (Elt F) → (⟨S100000x128, .f32⟩ : BufTy).Contents (Elt F) → (⟨S100000x128, .f32⟩ : BufTy).Contents (Elt F)),
    StableHlo.unary main_v176 main_v193 (broadcastInDim S1x128 ![1] bcast_S128_S1x128_1 : (⟨S128, .f32⟩ : BufTy).Contents (Elt F) → (⟨S1x128, .f32⟩ : BufTy).Contents (Elt F)),
    StableHlo.unary main_v193 main_v194 (broadcastInDim S100000x128 ![0, 1] bcast_S1x128_S100000x128_0_1 : (⟨S1x128, .f32⟩ : BufTy).Contents (Elt F) → (⟨S100000x128, .f32⟩ : BufTy).Contents (Elt F)),
    StableHlo.binary main_v192 main_v194 main_v195 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v195 : StableHlo.TRef sig ⟨S100000x128, .f32⟩) main_call9.v0 main_call9.v1 maximumf,
    StableHlo.unary main_arg7 main_v197 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v197 main_v198 rfl shapeCasts_S1x128x128_S128x128,
    StableHlo.binary main_v196 main_v198 main_v199 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v200 ((extractStridedSlice S1x128 ![2, 0] · slices_S4x128_S1x128_2_0) : (⟨S4x128, .f32⟩ : BufTy).Contents (Elt F) → (⟨S1x128, .f32⟩ : BufTy).Contents (Elt F)),
    StableHlo.reshape main_v200 main_v201 rfl shapeCasts_S1x128_S128,
    StableHlo.unary main_v201 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S100000x128 ![0, 1] bcast_S1x128_S100000x128_0_1 : (⟨S1x128, .f32⟩ : BufTy).Contents (Elt F) → (⟨S100000x128, .f32⟩ : BufTy).Contents (Elt F)),
    StableHlo.binary main_v199 main_v203 main_v204 (addf : (⟨S100000x128, .f32⟩ : BufTy).Contents (Elt F) → (⟨S100000x128, .f32⟩ : BufTy).Contents (Elt F) → (⟨S100000x128, .f32⟩ : BufTy).Contents (Elt F)),
    StableHlo.unary main_arg9 main_v205 ((extractStridedSlice S1x128 ![2, 0] · slices_S4x128_S1x128_2_0) : (⟨S4x128, .f32⟩ : BufTy).Contents (Elt F) → (⟨S1x128, .f32⟩ : BufTy).Contents (Elt F)),
    StableHlo.reshape main_v205 main_v206 rfl shapeCasts_S1x128_S128,
    StableHlo.unary main_arg10 main_v207 ((extractStridedSlice S1x128 ![2, 0] · slices_S4x128_S1x128_2_0) : (⟨S4x128, .f32⟩ : BufTy).Contents (Elt F) → (⟨S1x128, .f32⟩ : BufTy).Contents (Elt F)),
    StableHlo.reshape main_v207 main_v208 rfl shapeCasts_S1x128_S128,
    StableHlo.nullary main_cst_27 (constant S_ .f32 0x00000000#32),
    StableHlo.binary main_v204 main_cst_27 main_v209 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) ]

theorem opsP3_sub : (opsP3 : List (HloOp τ sig (Elt F))).Forall fun op => op.bufs ⊆ tcRefs τ sig :=
  ⟨unary_bufs_sub .., binary_bufs_sub .., ternary_bufs_sub .., unary_bufs_sub .., binary_bufs_sub .., nullary_bufs_sub ..,
    unary_bufs_sub .., unary_bufs_sub .., ternary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., reshape_bufs_sub .., nullary_bufs_sub .., binary_bufs_sub ..⟩

theorem opsP3_fresh : (opsP3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem opsP3_unwritten {r : Ref sig .tc} (hr : r.idx.val < 13) :
    (opsP3 : List (HloOp τ sig (Elt F))).Forall fun op => (Proc.devRef .tc r : DevRef τ sig) ∉ op.writes :=
  ⟨nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide)⟩

theorem wrP3 : WrFrom 285 (opsP3 : List (HloOp τ sig (Elt F))) :=
  ⟨w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide),
    trivial⟩

/-- Statements 241 … 300 of @main as 104 operations, the callees' operations in place of the calls. -/
abbrev opsP4 : List (HloOp τ sig (Elt F)) :=
  [ StableHlo.nullary main_cst_28 (constant S_ .f32 0x47C35000#32),
    StableHlo.unary main_cst_28 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call10.cst (constant S_ .f32 0x00000000#32),
    StableHlo.TRef.binary (.of main_v204 : StableHlo.TRef sig ⟨S100000x128, .f32⟩) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (.of main_v204 : StableHlo.TRef sig ⟨S100000x128, .f32⟩) main_call10.v4 main_call10.v5 subf,
    StableHlo.TRef.binary main_call10.v5 main_call10.v5 main_call10.v6 mulf,
    StableHlo.TRef.unary (.of main_c_29 : StableHlo.TRef sig ⟨S_, .i32⟩) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S100000x128 ![0, 1] bcast_S1x128_S100000x128_0_1 : (⟨S1x128, .f32⟩ : BufTy).Contents (Elt F) → (⟨S100000x128, .f32⟩ : BufTy).Contents (Elt F)),
    StableHlo.binary main_v204 main_v214 main_v215 (subf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x3727C5AC#32),
    StableHlo.unary main_cst_30 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S100000x128 ![0, 1] bcast_S1x128_S100000x128_0_1 : (⟨S1x128, .f32⟩ : BufTy).Contents (Elt F) → (⟨S100000x128, .f32⟩ : BufTy).Contents (Elt F)),
    StableHlo.binary main_v215 main_v220 main_v221 (mulf : (⟨S100000x128, .f32⟩ : BufTy).Contents (Elt F) → (⟨S100000x128, .f32⟩ : BufTy).Contents (Elt F) → (⟨S100000x128, .f32⟩ : BufTy).Contents (Elt F)),
    StableHlo.unary main_v206 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S100000x128 ![0, 1] bcast_S1x128_S100000x128_0_1 : (⟨S1x128, .f32⟩ : BufTy).Contents (Elt F) → (⟨S100000x128, .f32⟩ : BufTy).Contents (Elt F)),
    StableHlo.binary main_v221 main_v223 main_v224 (mulf : (⟨S100000x128, .f32⟩ : BufTy).Contents (Elt F) → (⟨S100000x128, .f32⟩ : BufTy).Contents (Elt F) → (⟨S100000x128, .f32⟩ : BufTy).Contents (Elt F)),
    StableHlo.unary main_v208 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S100000x128 ![0, 1] bcast_S1x128_S100000x128_0_1 : (⟨S1x128, .f32⟩ : BufTy).Contents (Elt F) → (⟨S100000x128, .f32⟩ : BufTy).Contents (Elt F)),
    StableHlo.binary main_v224 main_v226 main_v227 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (.of main_v227 : StableHlo.TRef sig ⟨S100000x128, .f32⟩) main_call11.v0 main_call11.v1 maximumf,
    StableHlo.nullary main_c_31 (constantI S_ 32 0#32),
    StableHlo.unary main_c_31 main_v229 (broadcastInDim S600000 ![] bcast_S_S600000 : (⟨S_, .i32⟩ : BufTy).Contents (Elt F) → (⟨S600000, .i32⟩ : BufTy).Contents (Elt F)),
    StableHlo.binary main_v1 main_v229 main_v230 (cmpi .slt : (⟨S600000, .i32⟩ : BufTy).Contents (Elt F) → (⟨S600000, .i32⟩ : BufTy).Contents (Elt F) → (⟨S600000, .i1⟩ : BufTy).Contents (Elt F)),
    StableHlo.nullary main_c_32 (constantI S_ 32 100000#32),
    StableHlo.unary main_c_32 main_v231 (broadcastInDim S600000 ![] bcast_S_S600000 : (⟨S_, .i32⟩ : BufTy).Contents (Elt F) → (⟨S600000, .i32⟩ : BufTy).Contents (Elt F)),
    StableHlo.binary main_v1 main_v231 main_v232 (addi : (⟨S600000, .i32⟩ : BufTy).Contents (Elt F) → (⟨S600000, .i32⟩ : BufTy).Contents (Elt F) → (⟨S600000, .i32⟩ : BufTy).Contents (Elt F)),
    StableHlo.ternary main_v230 main_v232 main_v1 main_v233 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v233 main_v234 (broadcastInDim S600000x1 ![0] bcast_S600000_S600000x1_0 : (⟨S600000, .i32⟩ : BufTy).Contents (Elt F) → (⟨S600000x1, .i32⟩ : BufTy).Contents (Elt F)),
    StableHlo.binary main_v228 main_v234 main_v235 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_33 (constant S_ .f32 0x00000000#32),
    StableHlo.unary main_cst_33 main_v236 (broadcastInDim S100000x128 ![] bcast_S_S100000x128 : (⟨S_, .f32⟩ : BufTy).Contents (Elt F) → (⟨S100000x128, .f32⟩ : BufTy).Contents (Elt F)),
    StableHlo.unary main_v3 main_v237 (broadcastInDim S600000x1 ![0] bcast_S600000_S600000x1_0 : (⟨S600000, .i32⟩ : BufTy).Contents (Elt F) → (⟨S600000x1, .i32⟩ : BufTy).Contents (Elt F)),
    StableHlo.ternary main_v236 main_v237 main_v235 main_v238 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v228 main_v238 main_v239 (addf : (⟨S100000x128, .f32⟩ : BufTy).Contents (Elt F) → (⟨S100000x128, .f32⟩ : BufTy).Contents (Elt F) → (⟨S100000x128, .f32⟩ : BufTy).Contents (Elt F)),
    StableHlo.unary main_arg3 main_v240 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v240 main_v241 rfl shapeCasts_S1x128x128_S128x128,
    StableHlo.binary main_v239 main_v241 main_v242 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v243 ((extractStridedSlice S1x128 ![3, 0] · slices_S4x128_S1x128_3_0) : (⟨S4x128, .f32⟩ : BufTy).Contents (Elt F) → (⟨S1x128, .f32⟩ : BufTy).Contents (Elt F)),
    StableHlo.reshape main_v243 main_v244 rfl shapeCasts_S1x128_S128,
    StableHlo.unary main_v244 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S100000x128 ![0, 1] bcast_S1x128_S100000x128_0_1 : (⟨S1x128, .f32⟩ : BufTy).Contents (Elt F) → (⟨S100000x128, .f32⟩ : BufTy).Contents (Elt F)),
    StableHlo.binary main_v242 main_v246 main_v247 (addf : (⟨S100000x128, .f32⟩ : BufTy).Contents (Elt F) → (⟨S100000x128, .f32⟩ : BufTy).Contents (Elt F) → (⟨S100000x128, .f32⟩ : BufTy).Contents (Elt F)),
    StableHlo.unary main_arg5 main_v248 ((extractStridedSlice S1x128 ![3, 0] · slices_S4x128_S1x128_3_0) : (⟨S4x128, .f32⟩ : BufTy).Contents (Elt F) → (⟨S1x128, .f32⟩ : BufTy).Contents (Elt F)),
    StableHlo.reshape main_v248 main_v249 rfl shapeCasts_S1x128_S128,
    StableHlo.unary main_arg6 main_v250 ((extractStridedSlice S1x128 ![3, 0] · slices_S4x128_S1x128_3_0) : (⟨S4x128, .f32⟩ : BufTy).Contents (Elt F) → (⟨S1x128, .f32⟩ : BufTy).Contents (Elt F)),
    StableHlo.reshape main_v250 main_v251 rfl shapeCasts_S1x128_S128,
    StableHlo.nullary main_cst_34 (constant S_ .f32 0x00000000#32),
    StableHlo.binary main_v247 main_cst_34 main_v252 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_35 (constant S_ .f32 0x47C35000#32),
    StableHlo.unary main_cst_35 main_v253 (broadcastInDim S128 ![] bcast_S_S128 : (⟨S_, .f32⟩ : BufTy).Contents (Elt F) → (⟨S128, .f32⟩ : BufTy).Contents (Elt F)),
    StableHlo.binary main_v252 main_v253 main_v254 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call12.cst (constant S_ .f32 0x00000000#32),
    StableHlo.TRef.binary (.of main_v247 : StableHlo.TRef sig ⟨S100000x128, .f32⟩) main_call12.cst main_call12.v0 (fun x v => Host.reduceAdd x v reducesTo_S100000x128_S128_d0 h_S_),
    StableHlo.TRef.unary main_call12.v0 main_call12.v1 (broadcastInDim S1x128 ![1] bcast_S128_S1x128_1),
    StableHlo.TRef.nullary main_call12.cst_0 (constant S_ .f32 0x47C35000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S100000x128 ![0, 1] bcast_S1x128_S100000x128_0_1),
    StableHlo.TRef.binary (.of main_v247 : StableHlo.TRef sig ⟨S100000x128, .f32⟩) main_call12.v4 main_call12.v5 subf,
    StableHlo.TRef.binary main_call12.v5 main_call12.v5 main_call12.v6 mulf,
    StableHlo.TRef.unary (.of main_c_36 : StableHlo.TRef sig ⟨S_, .i32⟩) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v254 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S100000x128 ![0, 1] bcast_S1x128_S100000x128_0_1 : (⟨S1x128, .f32⟩ : BufTy).Contents (Elt F) → (⟨S100000x128, .f32⟩ : BufTy).Contents (Elt F)),
    StableHlo.binary main_v247 main_v257 main_v258 (subf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3727C5AC#32),
    StableHlo.unary main_cst_37 main_v259 (broadcastInDim S128 ![] bcast_S_S128 : (⟨S_, .f32⟩ : BufTy).Contents (Elt F) → (⟨S128, .f32⟩ : BufTy).Contents (Elt F)) ]

theorem opsP4_sub : (opsP4 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub ..⟩

theorem opsP4_fresh : (opsP4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem opsP4_unwritten {r : Ref sig .tc} (hr : r.idx.val < 13) :
    (opsP4 : List (HloOp τ sig (Elt F))).Forall fun op => (Proc.devRef .tc r : DevRef τ sig) ∉ op.writes :=
  ⟨nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide)⟩

theorem wrP4 : WrFrom 368 (opsP4 : List (HloOp τ sig (Elt F))) :=
  ⟨w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    trivial⟩

/-- Statements 301 … 360 of @main as 85 operations, the callees' operations in place of the calls. -/
abbrev opsP5 : List (HloOp τ sig (Elt F)) :=
  [ StableHlo.binary main_v255 main_v259 main_v260 (addf : (⟨S128, .f32⟩ : BufTy).Contents (Elt F) → (⟨S128, .f32⟩ : BufTy).Contents (Elt F) → (⟨S128, .f32⟩ : BufTy).Contents (Elt F)),
    StableHlo.unary main_v260 main_v261 (Host.rsqrt : (⟨S128, .f32⟩ : BufTy).Contents (Elt F) → (⟨S128, .f32⟩ : BufTy).Contents (Elt F)),
    StableHlo.unary main_v261 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S100000x128 ![0, 1] bcast_S1x128_S100000x128_0_1 : (⟨S1x128, .f32⟩ : BufTy).Contents (Elt F) → (⟨S100000x128, .f32⟩ : BufTy).Contents (Elt F)),
    StableHlo.binary main_v258 main_v263 main_v264 (mulf : (⟨S100000x128, .f32⟩ : BufTy).Contents (Elt F) → (⟨S100000x128, .f32⟩ : BufTy).Contents (Elt F) → (⟨S100000x128, .f32⟩ : BufTy).Contents (Elt F)),
    StableHlo.unary main_v249 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S100000x128 ![0, 1] bcast_S1x128_S100000x128_0_1 : (⟨S1x128, .f32⟩ : BufTy).Contents (Elt F) → (⟨S100000x128, .f32⟩ : BufTy).Contents (Elt F)),
    StableHlo.binary main_v264 main_v266 main_v267 (mulf : (⟨S100000x128, .f32⟩ : BufTy).Contents (Elt F) → (⟨S100000x128, .f32⟩ : BufTy).Contents (Elt F) → (⟨S100000x128, .f32⟩ : BufTy).Contents (Elt F)),
    StableHlo.unary main_v251 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S100000x128 ![0, 1] bcast_S1x128_S100000x128_0_1 : (⟨S1x128, .f32⟩ : BufTy).Contents (Elt F) → (⟨S100000x128, .f32⟩ : BufTy).Contents (Elt F)),
    StableHlo.binary main_v267 main_v269 main_v270 (addf : (⟨S100000x128, .f32⟩ : BufTy).Contents (Elt F) → (⟨S100000x128, .f32⟩ : BufTy).Contents (Elt F) → (⟨S100000x128, .f32⟩ : BufTy).Contents (Elt F)),
    StableHlo.TRef.nullary main_call13.cst (constant S_ .f32 0x00000000#32),
    StableHlo.TRef.unary main_call13.cst main_call13.v0 (broadcastInDim S100000x128 ![] bcast_S_S100000x128),
    StableHlo.TRef.binary (.of main_v270 : StableHlo.TRef sig ⟨S100000x128, .f32⟩) main_call13.v0 main_call13.v1 maximumf,
    StableHlo.unary main_arg7 main_v272 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v272 main_v273 rfl shapeCasts_S1x128x128_S128x128,
    StableHlo.binary main_v271 main_v273 main_v274 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v275 ((extractStridedSlice S1x128 ![3, 0] · slices_S4x128_S1x128_3_0) : (⟨S4x128, .f32⟩ : BufTy).Contents (Elt F) → (⟨S1x128, .f32⟩ : BufTy).Contents (Elt F)),
    StableHlo.reshape main_v275 main_v276 rfl shapeCasts_S1x128_S128,
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S100000x128 ![0, 1] bcast_S1x128_S100000x128_0_1 : (⟨S1x128, .f32⟩ : BufTy).Contents (Elt F) → (⟨S100000x128, .f32⟩ : BufTy).Contents (Elt F)),
    StableHlo.binary main_v274 main_v278 main_v279 (addf : (⟨S100000x128, .f32⟩ : BufTy).Contents (Elt F) → (⟨S100000x128, .f32⟩ : BufTy).Contents (Elt F) → (⟨S100000x128, .f32⟩ : BufTy).Contents (Elt F)),
    StableHlo.unary main_arg9 main_v280 ((extractStridedSlice S1x128 ![3, 0] · slices_S4x128_S1x128_3_0) : (⟨S4x128, .f32⟩ : BufTy).Contents (Elt F) → (⟨S1x128, .f32⟩ : BufTy).Contents (Elt F)),
    StableHlo.reshape main_v280 main_v281 rfl shapeCasts_S1x128_S128,
    StableHlo.unary main_arg10 main_v282 ((extractStridedSlice S1x128 ![3, 0] · slices_S4x128_S1x128_3_0) : (⟨S4x128, .f32⟩ : BufTy).Contents (Elt F) → (⟨S1x128, .f32⟩ : BufTy).Contents (Elt F)),
    StableHlo.reshape main_v282 main_v283 rfl shapeCasts_S1x128_S128,
    StableHlo.nullary main_cst_38 (constant S_ .f32 0x00000000#32),
    StableHlo.binary main_v279 main_cst_38 main_v284 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_39 (constant S_ .f32 0x47C35000#32),
    StableHlo.unary main_cst_39 main_v285 (broadcastInDim S128 ![] bcast_S_S128 : (⟨S_, .f32⟩ : BufTy).Contents (Elt F) → (⟨S128, .f32⟩ : BufTy).Contents (Elt F)),
    StableHlo.binary main_v284 main_v285 main_v286 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call14.cst (constant S_ .f32 0x00000000#32),
    StableHlo.TRef.binary (.of main_v279 : StableHlo.TRef sig ⟨S100000x128, .f32⟩) main_call14.cst main_call14.v0 (fun x v => Host.reduceAdd x v reducesTo_S100000x128_S128_d0 h_S_),
    StableHlo.TRef.unary main_call14.v0 main_call14.v1 (broadcastInDim S1x128 ![1] bcast_S128_S1x128_1),
    StableHlo.TRef.nullary main_call14.cst_0 (constant S_ .f32 0x47C35000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S100000x128 ![0, 1] bcast_S1x128_S100000x128_0_1),
    StableHlo.TRef.binary (.of main_v279 : StableHlo.TRef sig ⟨S100000x128, .f32⟩) main_call14.v4 main_call14.v5 subf,
    StableHlo.TRef.binary main_call14.v5 main_call14.v5 main_call14.v6 mulf,
    StableHlo.TRef.unary (.of main_c_40 : StableHlo.TRef sig ⟨S_, .i32⟩) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v286 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S100000x128 ![0, 1] bcast_S1x128_S100000x128_0_1 : (⟨S1x128, .f32⟩ : BufTy).Contents (Elt F) → (⟨S100000x128, .f32⟩ : BufTy).Contents (Elt F)),
    StableHlo.binary main_v279 main_v289 main_v290 (subf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x3727C5AC#32),
    StableHlo.unary main_cst_41 main_v291 (broadcastInDim S128 ![] bcast_S_S128 : (⟨S_, .f32⟩ : BufTy).Contents (Elt F) → (⟨S128, .f32⟩ : BufTy).Contents (Elt F)),
    StableHlo.binary main_v287 main_v291 main_v292 (addf : (⟨S128, .f32⟩ : BufTy).Contents (Elt F) → (⟨S128, .f32⟩ : BufTy).Contents (Elt F) → (⟨S128, .f32⟩ : BufTy).Contents (Elt F)),
    StableHlo.unary main_v292 main_v293 (Host.rsqrt : (⟨S128, .f32⟩ : BufTy).Contents (Elt F) → (⟨S128, .f32⟩ : BufTy).Contents (Elt F)),
    StableHlo.unary main_v293 main_v294 (broadcastInDim S1x128 ![1] bcast_S128_S1x128_1 : (⟨S128, .f32⟩ : BufTy).Contents (Elt F) → (⟨S1x128, .f32⟩ : BufTy).Contents (Elt F)),
    StableHlo.unary main_v294 main_v295 (broadcastInDim S100000x128 ![0, 1] bcast_S1x128_S100000x128_0_1 : (⟨S1x128, .f32⟩ : BufTy).Contents (Elt F) → (⟨S100000x128, .f32⟩ : BufTy).Contents (Elt F)),
    StableHlo.binary main_v290 main_v295 main_v296 (mulf : (⟨S100000x128, .f32⟩ : BufTy).Contents (Elt F) → (⟨S100000x128, .f32⟩ : BufTy).Contents (Elt F) → (⟨S100000x128, .f32⟩ : BufTy).Contents (Elt F)),
    StableHlo.unary main_v281 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S100000x128 ![0, 1] bcast_S1x128_S100000x128_0_1 : (⟨S1x128, .f32⟩ : BufTy).Contents (Elt F) → (⟨S100000x128, .f32⟩ : BufTy).Contents (Elt F)),
    StableHlo.binary main_v296 main_v298 main_v299 (mulf : (⟨S100000x128, .f32⟩ : BufTy).Contents (Elt F) → (⟨S100000x128, .f32⟩ : BufTy).Contents (Elt F) → (⟨S100000x128, .f32⟩ : BufTy).Contents (Elt F)),
    StableHlo.unary main_v283 main_v300 (broadcastInDim S1x128 ![1] bcast_S128_S1x128_1 : (⟨S128, .f32⟩ : BufTy).Contents (Elt F) → (⟨S1x128, .f32⟩ : BufTy).Contents (Elt F)),
    StableHlo.unary main_v300 main_v301 (broadcastInDim S100000x128 ![0, 1] bcast_S1x128_S100000x128_0_1 : (⟨S1x128, .f32⟩ : BufTy).Contents (Elt F) → (⟨S100000x128, .f32⟩ : BufTy).Contents (Elt F)),
    StableHlo.binary main_v299 main_v301 main_v302 (addf : (⟨S100000x128, .f32⟩ : BufTy).Contents (Elt F) → (⟨S100000x128, .f32⟩ : BufTy).Contents (Elt F) → (⟨S100000x128, .f32⟩ : BufTy).Contents (Elt F)),
    StableHlo.TRef.nullary main_call15.cst (constant S_ .f32 0x00000000#32),
    StableHlo.TRef.unary main_call15.cst main_call15.v0 (broadcastInDim S100000x128 ![] bcast_S_S100000x128),
    StableHlo.TRef.binary (.of main_v302 : StableHlo.TRef sig ⟨S100000x128, .f32⟩) main_call15.v0 main_call15.v1 maximumf,
    StableHlo.nullary main_cst_42 (constant S_ .f32 0x00000000#32),
    StableHlo.unary main_cst_42 main_v304 (broadcastInDim S512x128 ![] bcast_S_S512x128 : (⟨S_, .f32⟩ : BufTy).Contents (Elt F) → (⟨S512x128, .f32⟩ : BufTy).Contents (Elt F)),
    StableHlo.unary main_arg2 main_v305 (broadcastInDim S100000x1 ![0] bcast_S100000_S100000x1_0 : (⟨S100000, .i32⟩ : BufTy).Contents (Elt F) → (⟨S100000x1, .i32⟩ : BufTy).Contents (Elt F)),
    StableHlo.ternary main_v304 main_v305 main_arg0 main_v306 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_arg11 main_v307 ((extractStridedSlice S1x128x10 ![0, 0, 0] · slices_S5x128x10_S1x128x10_0_0_0) : (⟨S5x128x10, .f32⟩ : BufTy).Contents (Elt F) → (⟨S1x128x10, .f32⟩ : BufTy).Contents (Elt F)),
    StableHlo.reshape main_v307 main_v308 rfl shapeCasts_S1x128x10_S128x10,
    StableHlo.binary main_v306 main_v308 main_v309 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg12 main_v310 ((extractStridedSlice S1x10 ![0, 0] · slices_S5x10_S1x10_0_0) : (⟨S5x10, .f32⟩ : BufTy).Contents (Elt F) → (⟨S1x10, .f32⟩ : BufTy).Contents (Elt F)),
    StableHlo.reshape main_v310 main_v311 rfl shapeCasts_S1x10_S10,
    StableHlo.unary main_v311 main_v312 (broadcastInDim S1x10 ![1] bcast_S10_S1x10_1 : (⟨S10, .f32⟩ : BufTy).Contents (Elt F) → (⟨S1x10, .f32⟩ : BufTy).Contents (Elt F)),
    StableHlo.unary main_v312 main_v313 (broadcastInDim S512x10 ![0, 1] bcast_S1x10_S512x10_0_1 : (⟨S1x10, .f32⟩ : BufTy).Contents (Elt F) → (⟨S512x10, .f32⟩ : BufTy).Contents (Elt F)),
    StableHlo.binary main_v309 main_v313 main_v314 (addf : (⟨S512x10, .f32⟩ : BufTy).Contents (Elt F) → (⟨S512x10, .f32⟩ : BufTy).Contents (Elt F) → (⟨S512x10, .f32⟩ : BufTy).Contents (Elt F)) ]

theorem opsP5_sub : (opsP5 : List (HloOp τ sig (Elt F))).Forall fun op => op.bufs ⊆ tcRefs τ sig :=
  ⟨binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub ..,
    binary_bufs_sub ..⟩

theorem opsP5_fresh : (opsP5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

theorem opsP5_unwritten {r : Ref sig .tc} (hr : r.idx.val < 13) :
    (opsP5 : List (HloOp τ sig (Elt F))).Forall fun op => (Proc.devRef .tc r : DevRef τ sig) ∉ op.writes :=
  ⟨nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide)⟩

theorem wrP5 : WrFrom 472 (opsP5 : List (HloOp τ sig (Elt F))) :=
  ⟨w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide),
    trivial⟩

/-- Statements 361 … 414 of @main as 67 operations, the callees' operations in place of the calls. -/
abbrev opsP6 : List (HloOp τ sig (Elt F)) :=
  [ StableHlo.nullary main_cst_43 (constant S_ .f32 0x00000000#32),
    StableHlo.unary main_cst_43 main_v315 (broadcastInDim S512x128 ![] bcast_S_S512x128 : (⟨S_, .f32⟩ : BufTy).Contents (Elt F) → (⟨S512x128, .f32⟩ : BufTy).Contents (Elt F)),
    StableHlo.unary main_arg2 main_v316 (broadcastInDim S100000x1 ![0] bcast_S100000_S100000x1_0 : (⟨S100000, .i32⟩ : BufTy).Contents (Elt F) → (⟨S100000x1, .i32⟩ : BufTy).Contents (Elt F)),
    StableHlo.ternary main_v315 main_v316 main_v78 main_v317 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_arg11 main_v318 ((extractStridedSlice S1x128x10 ![1, 0, 0] · slices_S5x128x10_S1x128x10_1_0_0) : (⟨S5x128x10, .f32⟩ : BufTy).Contents (Elt F) → (⟨S1x128x10, .f32⟩ : BufTy).Contents (Elt F)),
    StableHlo.reshape main_v318 main_v319 rfl shapeCasts_S1x128x10_S128x10,
    StableHlo.binary main_v317 main_v319 main_v320 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg12 main_v321 ((extractStridedSlice S1x10 ![1, 0] · slices_S5x10_S1x10_1_0) : (⟨S5x10, .f32⟩ : BufTy).Contents (Elt F) → (⟨S1x10, .f32⟩ : BufTy).Contents (Elt F)),
    StableHlo.reshape main_v321 main_v322 rfl shapeCasts_S1x10_S10,
    StableHlo.unary main_v322 main_v323 (broadcastInDim S1x10 ![1] bcast_S10_S1x10_1 : (⟨S10, .f32⟩ : BufTy).Contents (Elt F) → (⟨S1x10, .f32⟩ : BufTy).Contents (Elt F)),
    StableHlo.unary main_v323 main_v324 (broadcastInDim S512x10 ![0, 1] bcast_S1x10_S512x10_0_1 : (⟨S1x10, .f32⟩ : BufTy).Contents (Elt F) → (⟨S512x10, .f32⟩ : BufTy).Contents (Elt F)),
    StableHlo.binary main_v320 main_v324 main_v325 (addf : (⟨S512x10, .f32⟩ : BufTy).Contents (Elt F) → (⟨S512x10, .f32⟩ : BufTy).Contents (Elt F) → (⟨S512x10, .f32⟩ : BufTy).Contents (Elt F)),
    StableHlo.binary main_v314 main_v325 main_v326 (addf : (⟨S512x10, .f32⟩ : BufTy).Contents (Elt F) → (⟨S512x10, .f32⟩ : BufTy).Contents (Elt F) → (⟨S512x10, .f32⟩ : BufTy).Contents (Elt F)),
    StableHlo.nullary main_cst_44 (constant S_ .f32 0x00000000#32),
    StableHlo.unary main_cst_44 main_v327 (broadcastInDim S512x128 ![] bcast_S_S512x128 : (⟨S_, .f32⟩ : BufTy).Contents (Elt F) → (⟨S512x128, .f32⟩ : BufTy).Contents (Elt F)),
    StableHlo.unary main_arg2 main_v328 (broadcastInDim S100000x1 ![0] bcast_S100000_S100000x1_0 : (⟨S100000, .i32⟩ : BufTy).Contents (Elt F) → (⟨S100000x1, .i32⟩ : BufTy).Contents (Elt F)),
    StableHlo.ternary main_v327 main_v328 main_v153 main_v329 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_arg11 main_v330 ((extractStridedSlice S1x128x10 ![2, 0, 0] · slices_S5x128x10_S1x128x10_2_0_0) : (⟨S5x128x10, .f32⟩ : BufTy).Contents (Elt F) → (⟨S1x128x10, .f32⟩ : BufTy).Contents (Elt F)),
    StableHlo.reshape main_v330 main_v331 rfl shapeCasts_S1x128x10_S128x10,
    StableHlo.binary main_v329 main_v331 main_v332 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg12 main_v333 ((extractStridedSlice S1x10 ![2, 0] · slices_S5x10_S1x10_2_0) : (⟨S5x10, .f32⟩ : BufTy).Contents (Elt F) → (⟨S1x10, .f32⟩ : BufTy).Contents (Elt F)),
    StableHlo.reshape main_v333 main_v334 rfl shapeCasts_S1x10_S10,
    StableHlo.unary main_v334 main_v335 (broadcastInDim S1x10 ![1] bcast_S10_S1x10_1 : (⟨S10, .f32⟩ : BufTy).Contents (Elt F) → (⟨S1x10, .f32⟩ : BufTy).Contents (Elt F)),
    StableHlo.unary main_v335 main_v336 (broadcastInDim S512x10 ![0, 1] bcast_S1x10_S512x10_0_1 : (⟨S1x10, .f32⟩ : BufTy).Contents (Elt F) → (⟨S512x10, .f32⟩ : BufTy).Contents (Elt F)),
    StableHlo.binary main_v332 main_v336 main_v337 (addf : (⟨S512x10, .f32⟩ : BufTy).Contents (Elt F) → (⟨S512x10, .f32⟩ : BufTy).Contents (Elt F) → (⟨S512x10, .f32⟩ : BufTy).Contents (Elt F)),
    StableHlo.binary main_v326 main_v337 main_v338 (addf : (⟨S512x10, .f32⟩ : BufTy).Contents (Elt F) → (⟨S512x10, .f32⟩ : BufTy).Contents (Elt F) → (⟨S512x10, .f32⟩ : BufTy).Contents (Elt F)),
    StableHlo.nullary main_cst_45 (constant S_ .f32 0x00000000#32),
    StableHlo.unary main_cst_45 main_v339 (broadcastInDim S512x128 ![] bcast_S_S512x128 : (⟨S_, .f32⟩ : BufTy).Contents (Elt F) → (⟨S512x128, .f32⟩ : BufTy).Contents (Elt F)),
    StableHlo.unary main_arg2 main_v340 (broadcastInDim S100000x1 ![0] bcast_S100000_S100000x1_0 : (⟨S100000, .i32⟩ : BufTy).Contents (Elt F) → (⟨S100000x1, .i32⟩ : BufTy).Contents (Elt F)),
    StableHlo.ternary main_v339 main_v340 main_v228 main_v341 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_arg11 main_v342 ((extractStridedSlice S1x128x10 ![3, 0, 0] · slices_S5x128x10_S1x128x10_3_0_0) : (⟨S5x128x10, .f32⟩ : BufTy).Contents (Elt F) → (⟨S1x128x10, .f32⟩ : BufTy).Contents (Elt F)),
    StableHlo.reshape main_v342 main_v343 rfl shapeCasts_S1x128x10_S128x10,
    StableHlo.binary main_v341 main_v343 main_v344 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg12 main_v345 ((extractStridedSlice S1x10 ![3, 0] · slices_S5x10_S1x10_3_0) : (⟨S5x10, .f32⟩ : BufTy).Contents (Elt F) → (⟨S1x10, .f32⟩ : BufTy).Contents (Elt F)),
    StableHlo.reshape main_v345 main_v346 rfl shapeCasts_S1x10_S10,
    StableHlo.unary main_v346 main_v347 (broadcastInDim S1x10 ![1] bcast_S10_S1x10_1 : (⟨S10, .f32⟩ : BufTy).Contents (Elt F) → (⟨S1x10, .f32⟩ : BufTy).Contents (Elt F)),
    StableHlo.unary main_v347 main_v348 (broadcastInDim S512x10 ![0, 1] bcast_S1x10_S512x10_0_1 : (⟨S1x10, .f32⟩ : BufTy).Contents (Elt F) → (⟨S512x10, .f32⟩ : BufTy).Contents (Elt F)),
    StableHlo.binary main_v344 main_v348 main_v349 (addf : (⟨S512x10, .f32⟩ : BufTy).Contents (Elt F) → (⟨S512x10, .f32⟩ : BufTy).Contents (Elt F) → (⟨S512x10, .f32⟩ : BufTy).Contents (Elt F)),
    StableHlo.binary main_v338 main_v349 main_v350 (addf : (⟨S512x10, .f32⟩ : BufTy).Contents (Elt F) → (⟨S512x10, .f32⟩ : BufTy).Contents (Elt F) → (⟨S512x10, .f32⟩ : BufTy).Contents (Elt F)),
    StableHlo.nullary main_cst_46 (constant S_ .f32 0x00000000#32),
    StableHlo.unary main_cst_46 main_v351 (broadcastInDim S512x128 ![] bcast_S_S512x128 : (⟨S_, .f32⟩ : BufTy).Contents (Elt F) → (⟨S512x128, .f32⟩ : BufTy).Contents (Elt F)),
    StableHlo.unary main_arg2 main_v352 (broadcastInDim S100000x1 ![0] bcast_S100000_S100000x1_0 : (⟨S100000, .i32⟩ : BufTy).Contents (Elt F) → (⟨S100000x1, .i32⟩ : BufTy).Contents (Elt F)),
    StableHlo.ternary main_v351 main_v352 main_v303 main_v353 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_arg11 main_v354 ((extractStridedSlice S1x128x10 ![4, 0, 0] · slices_S5x128x10_S1x128x10_4_0_0) : (⟨S5x128x10, .f32⟩ : BufTy).Contents (Elt F) → (⟨S1x128x10, .f32⟩ : BufTy).Contents (Elt F)),
    StableHlo.reshape main_v354 main_v355 rfl shapeCasts_S1x128x10_S128x10,
    StableHlo.binary main_v353 main_v355 main_v356 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg12 main_v357 ((extractStridedSlice S1x10 ![4, 0] · slices_S5x10_S1x10_4_0) : (⟨S5x10, .f32⟩ : BufTy).Contents (Elt F) → (⟨S1x10, .f32⟩ : BufTy).Contents (Elt F)),
    StableHlo.reshape main_v357 main_v358 rfl shapeCasts_S1x10_S10,
    StableHlo.unary main_v358 main_v359 (broadcastInDim S1x10 ![1] bcast_S10_S1x10_1 : (⟨S10, .f32⟩ : BufTy).Contents (Elt F) → (⟨S1x10, .f32⟩ : BufTy).Contents (Elt F)),
    StableHlo.unary main_v359 main_v360 (broadcastInDim S512x10 ![0, 1] bcast_S1x10_S512x10_0_1 : (⟨S1x10, .f32⟩ : BufTy).Contents (Elt F) → (⟨S512x10, .f32⟩ : BufTy).Contents (Elt F)),
    StableHlo.binary main_v356 main_v360 main_v361 (addf : (⟨S512x10, .f32⟩ : BufTy).Contents (Elt F) → (⟨S512x10, .f32⟩ : BufTy).Contents (Elt F) → (⟨S512x10, .f32⟩ : BufTy).Contents (Elt F)),
    StableHlo.binary main_v350 main_v361 main_v362 (addf : (⟨S512x10, .f32⟩ : BufTy).Contents (Elt F) → (⟨S512x10, .f32⟩ : BufTy).Contents (Elt F) → (⟨S512x10, .f32⟩ : BufTy).Contents (Elt F)),
    StableHlo.TRef.nullary main_call16.cst (constant S_ .f32 0xFF800000#32),
    StableHlo.TRef.binary (.of main_v362 : StableHlo.TRef sig ⟨S512x10, .f32⟩) main_call16.cst main_call16.v0 (fun x v => Host.reduce FloatOps.maximumf x v reducesTo_S512x10_S512_d1 h_S_),
    StableHlo.TRef.nullary main_call16.cst_0 (constant S_ .f32 0xFF800000#32),
    StableHlo.TRef.unary main_call16.cst_0 main_call16.v1 (broadcastInDim S512 ![] bcast_S_S512),
    StableHlo.TRef.binary main_call16.v1 main_call16.v0 main_call16.v2 maximumf,
    StableHlo.TRef.unary main_call16.v2 main_call16.v3 (broadcastInDim S512x1 ![0] bcast_S512_S512x1_0),
    StableHlo.TRef.unary main_call16.v3 main_call16.v4 (broadcastInDim S512x10 ![0, 1] bcast_S512x1_S512x10_0_1),
    StableHlo.TRef.binary (.of main_v362 : StableHlo.TRef sig ⟨S512x10, .f32⟩) main_call16.v4 main_call16.v5 subf,
    StableHlo.TRef.unary main_call16.v5 main_call16.v6 Host.exp,
    StableHlo.TRef.nullary main_call16.cst_1 (constant S_ .f32 0x00000000#32),
    StableHlo.TRef.binary main_call16.v6 main_call16.cst_1 main_call16.v7 (fun x v => Host.reduceAdd x v reducesTo_S512x10_S512_d1 h_S_),
    StableHlo.TRef.unary main_call16.v7 main_call16.v8 (broadcastInDim S512x1 ![0] bcast_S512_S512x1_0),
    StableHlo.TRef.unary main_call16.v8 main_call16.v9 Host.log,
    StableHlo.TRef.unary main_call16.v9 main_call16.v10 (broadcastInDim S512x10 ![0, 1] bcast_S512x1_S512x10_0_1),
    StableHlo.TRef.binary main_call16.v5 main_call16.v10 main_call16.v11 subf ]

theorem opsP6_sub : (opsP6 : List (HloOp τ sig (Elt F))).Forall fun op => op.bufs ⊆ tcRefs τ sig :=
  ⟨nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub ..,
    binary_bufs_sub .., binary_bufs_sub .., nullary_bufs_sub .., unary_bufs_sub .., unary_bufs_sub .., ternary_bufs_sub ..,
    unary_bufs_sub .., reshape_bufs_sub .., binary_bufs_sub .., unary_bufs_sub .., reshape_bufs_sub .., unary_bufs_sub ..,
    unary_bufs_sub .., binary_bufs_sub .., binary_bufs_sub .., nullary_bufs_sub .., unary_bufs_sub .., unary_bufs_sub ..,
    ternary_bufs_sub .., unary_bufs_sub .., reshape_bufs_sub .., binary_bufs_sub .., unary_bufs_sub .., reshape_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub ..⟩

theorem opsP6_fresh : (opsP6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

theorem opsP6_unwritten {r : Ref sig .tc} (hr : r.idx.val < 13) :
    (opsP6 : List (HloOp τ sig (Elt F))).Forall fun op => (Proc.devRef .tc r : DevRef τ sig) ∉ op.writes :=
  ⟨nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide), nw hr (by decide), nw hr (by decide), nw hr (by decide), nw hr (by decide), nw hr (by decide),
    nw hr (by decide), nw hr (by decide), nw hr (by decide)⟩

theorem wrP6 : WrFrom 557 (opsP6 : List (HloOp τ sig (Elt F))) :=
  ⟨w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide), w1 (by decide), w1 (by decide), w1 (by decide), w1 (by decide), w1 (by decide),
    w1 (by decide), w1 (by decide), w1 (by decide),
    trivial⟩

end Cert.ReferenceIdeal.HandRun

end
-- ==== Proof.RefRun.lean ====
/- The reference program's run.

   @main is the straight line of 611 operations of the operation-list module, cut into seven consecutive pieces. Every
   weakly fair execution ends with each buffer at the fold of the operations over the launch contents; the thirteen
   arguments are written by no operation and so keep their contents. The line is then read at its end: A V b is
   what buffer b holds after the whole line run from contents V, and each of the seven pieces is presented with the
   range of buffer indices it writes, from which every operation's equation at the end of the line follows. -/
import proofs.«120577_j28003186770423_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The whole line: the seven pieces in order. -/
abbrev ops : List (HloOp τ sig (Elt F)) :=
  opsP0 ++ (opsP1 ++ (opsP2 ++ (opsP3 ++ (opsP4 ++ (opsP5 ++ opsP6)))))

/-- The whole line's fold is the seven pieces' folds composed, first piece innermost. -/
theorem after_ops (V : Valuation τ sig (Elt F)) :
    after (ops (F := F)) V
      = after opsP6 (after opsP5 (after opsP4 (after opsP3 (after opsP2 (after opsP1 (after opsP0 V)))))) := by
  simp only [ops, after_append]

/-! ## The program is the line

Each piece of @main is its list of operations run in order: the callees' definitions unfolded at their calls and
sequencing reassociated, the two sides are the same chain of steps. -/

set_option maxRecDepth 8192 in
theorem part0_eq (c : Dev nD) : main_part0 (F := F) c = seq opsP0 := by
  simp only [main_part0, fn_var.body, fn_where.body, fn_relu.body, fn_log_softmax.body, seq, bind_assoc, pure_bind]
  rfl

set_option maxRecDepth 8192 in
theorem part1_eq (c : Dev nD) : main_part1 (F := F) c = seq opsP1 := by
  simp only [main_part1, fn_var.body, fn_where.body, fn_relu.body, fn_log_softmax.body, seq, bind_assoc, pure_bind]
  rfl

set_option maxRecDepth 8192 in
theorem part2_eq (c : Dev nD) : main_part2 (F := F) c = seq opsP2 := by
  simp only [main_part2, fn_var.body, fn_where.body, fn_relu.body, fn_log_softmax.body, seq, bind_assoc, pure_bind]
  rfl

set_option maxRecDepth 8192 in
theorem part3_eq (c : Dev nD) : main_part3 (F := F) c = seq opsP3 := by
  simp only [main_part3, fn_var.body, fn_where.body, fn_relu.body, fn_log_softmax.body, seq, bind_assoc, pure_bind]
  rfl

set_option maxRecDepth 8192 in
theorem part4_eq (c : Dev nD) : main_part4 (F := F) c = seq opsP4 := by
  simp only [main_part4, fn_var.body, fn_where.body, fn_relu.body, fn_log_softmax.body, seq, bind_assoc, pure_bind]
  rfl

set_option maxRecDepth 8192 in
theorem part5_eq (c : Dev nD) : main_part5 (F := F) c = seq opsP5 := by
  simp only [main_part5, fn_var.body, fn_where.body, fn_relu.body, fn_log_softmax.body, seq, bind_assoc, pure_bind]
  rfl

-- the last piece ends in a call, and the rewriting alone brings the two sides together
set_option maxRecDepth 8192 in
theorem part6_eq (c : Dev nD) : main_part6 (F := F) c = seq opsP6 := by
  simp only [main_part6, fn_var.body, fn_where.body, fn_relu.body, fn_log_softmax.body, seq, bind_assoc, pure_bind]

/-- @main runs its seven pieces in order, and a concatenation runs as its parts one after the other. -/
theorem main_eq (c : Dev nD) : main (F := F) c = seq ops := by
  simp only [ops, seq_append]
  rw [← part0_eq c, ← part1_eq c, ← part2_eq c, ← part3_eq c, ← part4_eq c, ← part5_eq c, ← part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  forall_append opsP0_sub (forall_append opsP1_sub (forall_append opsP2_sub (forall_append opsP3_sub
    (forall_append opsP4_sub (forall_append opsP5_sub opsP6_sub)))))

/-- Every operation determines what it writes. -/
theorem ops_fresh : (ops : List (HloOp τ sig (Elt F))).Forall fun op => op.fresh = ∅ :=
  forall_append opsP0_fresh (forall_append opsP1_fresh (forall_append opsP2_fresh (forall_append opsP3_fresh
    (forall_append opsP4_fresh (forall_append opsP5_fresh opsP6_fresh)))))

/-- No operation writes a buffer of index below thirteen. -/
theorem ops_unwritten {r : Ref sig .tc} (hr : r.idx.val < 13) :
    (ops : List (HloOp τ sig (Elt F))).Forall fun op => (Proc.devRef .tc r : DevRef τ sig) ∉ op.writes :=
  forall_append (opsP0_unwritten hr) (forall_append (opsP1_unwritten hr) (forall_append (opsP2_unwritten hr)
    (forall_append (opsP3_unwritten hr) (forall_append (opsP4_unwritten hr) (forall_append (opsP5_unwritten hr)
      (opsP6_unwritten hr))))))

/-- So such a buffer holds after the line what it held before. -/
theorem after_ops_arg {r : Ref sig .tc} (hr : r.idx.val < 13) (V : Valuation τ sig (Elt F)) :
    after (ops (F := F)) V (Proc.devRef .tc r) = V (Proc.devRef .tc r) :=
  after_of_forall_not_mem ops V (List.forall_iff_forall_mem.1 (ops_unwritten hr))

/-- On every device, for any float values, from any memory with zero counters: every weakly fair execution of
    @main terminates with the result buffer at the operations' fold over the launch contents and the thirteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v363) = after ops (launchContents m c) (Proc.devRef .tc main_v363)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v363,
      (h c main_arg0).trans (after_ops_arg (by decide) _),
      (h c main_arg1).trans (after_ops_arg (by decide) _),
      (h c main_arg2).trans (after_ops_arg (by decide) _),
      (h c main_arg3).trans (after_ops_arg (by decide) _),
      (h c main_arg4).trans (after_ops_arg (by decide) _),
      (h c main_arg5).trans (after_ops_arg (by decide) _),
      (h c main_arg6).trans (after_ops_arg (by decide) _),
      (h c main_arg7).trans (after_ops_arg (by decide) _),
      (h c main_arg8).trans (after_ops_arg (by decide) _),
      (h c main_arg9).trans (after_ops_arg (by decide) _),
      (h c main_arg10).trans (after_ops_arg (by decide) _),
      (h c main_arg11).trans (after_ops_arg (by decide) _),
      (h c main_arg12).trans (after_ops_arg (by decide) _)⟩)
    (run_seq scopedRefs_eq scopedSems_eq defs main (fun _ => ops) main_eq (fun _ => ops_sub) m ρ
      (fun _ => List.forall_iff_forall_mem.1 ops_fresh))

/-! ## Reading the line at its end -/

/-- What buffer b holds after the whole line run from contents V. -/
abbrev A (V : Valuation τ sig (Elt F)) (b : Ref sig .tc) := after (ops (F := F)) V (Proc.devRef .tc b)

/-! The thirteen arguments hold at the end what they held at the start. -/
theorem A_arg0 (V : Valuation τ sig (Elt F)) : A V main_arg0 = V (Proc.devRef .tc main_arg0) := after_ops_arg (by decide) V
theorem A_arg1 (V : Valuation τ sig (Elt F)) : A V main_arg1 = V (Proc.devRef .tc main_arg1) := after_ops_arg (by decide) V
theorem A_arg2 (V : Valuation τ sig (Elt F)) : A V main_arg2 = V (Proc.devRef .tc main_arg2) := after_ops_arg (by decide) V
theorem A_arg3 (V : Valuation τ sig (Elt F)) : A V main_arg3 = V (Proc.devRef .tc main_arg3) := after_ops_arg (by decide) V
theorem A_arg4 (V : Valuation τ sig (Elt F)) : A V main_arg4 = V (Proc.devRef .tc main_arg4) := after_ops_arg (by decide) V
theorem A_arg5 (V : Valuation τ sig (Elt F)) : A V main_arg5 = V (Proc.devRef .tc main_arg5) := after_ops_arg (by decide) V
theorem A_arg6 (V : Valuation τ sig (Elt F)) : A V main_arg6 = V (Proc.devRef .tc main_arg6) := after_ops_arg (by decide) V
theorem A_arg7 (V : Valuation τ sig (Elt F)) : A V main_arg7 = V (Proc.devRef .tc main_arg7) := after_ops_arg (by decide) V
theorem A_arg8 (V : Valuation τ sig (Elt F)) : A V main_arg8 = V (Proc.devRef .tc main_arg8) := after_ops_arg (by decide) V
theorem A_arg9 (V : Valuation τ sig (Elt F)) : A V main_arg9 = V (Proc.devRef .tc main_arg9) := after_ops_arg (by decide) V
theorem A_arg10 (V : Valuation τ sig (Elt F)) : A V main_arg10 = V (Proc.devRef .tc main_arg10) := after_ops_arg (by decide) V
theorem A_arg11 (V : Valuation τ sig (Elt F)) : A V main_arg11 = V (Proc.devRef .tc main_arg11) := after_ops_arg (by decide) V
theorem A_arg12 (V : Valuation τ sig (Elt F)) : A V main_arg12 = V (Proc.devRef .tc main_arg12) := after_ops_arg (by decide) V

/-! The seven pieces write the index ranges 13-96, 96-179, 179-285, 285-368, 368-472, 472-557, 557-624; a buffer
    below a piece's end is untouched by every later piece, whose indices all lie above it. -/

theorem pc0 : Piece (ops (F := F)) opsP0 13 96 (fun V => V) where
  wr := wrP0
  len := rfl
  lift r hr V := by
    rw [after_ops, wrP6.after_lt (Nat.lt_of_lt_of_le hr (by decide)), wrP5.after_lt (Nat.lt_of_lt_of_le hr (by decide)),
      wrP4.after_lt (Nat.lt_of_lt_of_le hr (by decide)), wrP3.after_lt (Nat.lt_of_lt_of_le hr (by decide)),
      wrP2.after_lt (Nat.lt_of_lt_of_le hr (by decide)), wrP1.after_lt (Nat.lt_of_lt_of_le hr (by decide))]

theorem pc1 : Piece (ops (F := F)) opsP1 96 179 (fun V => after opsP0 V) where
  wr := wrP1
  len := rfl
  lift r hr V := by
    rw [after_ops, wrP6.after_lt (Nat.lt_of_lt_of_le hr (by decide)), wrP5.after_lt (Nat.lt_of_lt_of_le hr (by decide)),
      wrP4.after_lt (Nat.lt_of_lt_of_le hr (by decide)), wrP3.after_lt (Nat.lt_of_lt_of_le hr (by decide)),
      wrP2.after_lt (Nat.lt_of_lt_of_le hr (by decide))]

theorem pc2 : Piece (ops (F := F)) opsP2 179 285 (fun V => after opsP1 (after opsP0 V)) where
  wr := wrP2
  len := rfl
  lift r hr V := by
    rw [after_ops, wrP6.after_lt (Nat.lt_of_lt_of_le hr (by decide)), wrP5.after_lt (Nat.lt_of_lt_of_le hr (by decide)),
      wrP4.after_lt (Nat.lt_of_lt_of_le hr (by decide)), wrP3.after_lt (Nat.lt_of_lt_of_le hr (by decide))]

theorem pc3 : Piece (ops (F := F)) opsP3 285 368 (fun V => after opsP2 (after opsP1 (after opsP0 V))) where
  wr := wrP3
  len := rfl
  lift r hr V := by
    rw [after_ops, wrP6.after_lt (Nat.lt_of_lt_of_le hr (by decide)), wrP5.after_lt (Nat.lt_of_lt_of_le hr (by decide)),
      wrP4.after_lt (Nat.lt_of_lt_of_le hr (by decide))]

theorem pc4 : Piece (ops (F := F)) opsP4 368 472 (fun V => after opsP3 (after opsP2 (after opsP1 (after opsP0 V)))) where
  wr := wrP4
  len := rfl
  lift r hr V := by
    rw [after_ops, wrP6.after_lt (Nat.lt_of_lt_of_le hr (by decide)), wrP5.after_lt (Nat.lt_of_lt_of_le hr (by decide))]

theorem pc5 : Piece (ops (F := F)) opsP5 472 557
    (fun V => after opsP4 (after opsP3 (after opsP2 (after opsP1 (after opsP0 V))))) where
  wr := wrP5
  len := rfl
  lift r hr V := by
    rw [after_ops, wrP6.after_lt (Nat.lt_of_lt_of_le hr (by decide))]

theorem pc6 : Piece (ops (F := F)) opsP6 557 624
    (fun V => after opsP5 (after opsP4 (after opsP3 (after opsP2 (after opsP1 (after opsP0 V)))))) where
  wr := wrP6
  len := rfl
  lift r hr V := by
    rw [after_ops]

end Cert.ReferenceIdeal.HandRun

end
-- ==== Proof.LibCurry.lean ====
/-
  Arrays of rank one and two as functions of their coordinates, and back.

  An [a, b] array is a function of one index; `cur2` reads it as a function of the two coordinates and `unc2`
  builds the array from such a function.  The two are inverse to each other.  `cur1` is the same for an [a]
  array, and `row` reads the single row of a [1, a] array as a function of the column.
-/
import Idealize.ShloMosaic.PureOps.Ideal
import Idealize.ShloMosaic.Lib.ValueIdx

noncomputable section

namespace Cert.Lib

open Idealize.ShloMosaic Idealize.ShloMosaic.ValueIdx

/-- An [a, b] array as a function of its two coordinates. -/
def cur2 {a b : Nat} (f : FVec Ideal ⟨2, ![a, b]⟩ .f32) (r : Fin a) (k : Fin b) : EReal := f (ix2 r k)

/-- The [a, b] array of a function of two coordinates. -/
def unc2 {a b : Nat} (g : Fin a → Fin b → EReal) : FVec Ideal ⟨2, ![a, b]⟩ .f32 := fun i => g (i 0) (i 1)

/-- An [a] array as a function of its coordinate. -/
def cur1 {a : Nat} (f : FVec Ideal ⟨1, ![a]⟩ .f32) (j : Fin a) : EReal := f (ix1 j)

/-- The one row of a [1, a] array as a function of the column. -/
def row {a : Nat} (f : FVec Ideal ⟨2, ![1, a]⟩ .f32) (j : Fin a) : EReal := f (ix2 0 j)

theorem cur2_unc2 {a b : Nat} (g : Fin a → Fin b → EReal) : cur2 (unc2 g) = g := rfl

theorem unc2_cur2 {a b : Nat} (f : FVec Ideal ⟨2, ![a, b]⟩ .f32) : unc2 (cur2 f) = f := by
  funext i
  exact (congrArg f (eq_ix2 i)).symm

/-- Two [a, b] arrays with the same entries are equal. -/
theorem ext2 {a b : Nat} {f g : FVec Ideal ⟨2, ![a, b]⟩ .f32} (h : cur2 f = cur2 g) : f = g := by
  rw [← unc2_cur2 f, ← unc2_cur2 g, h]

end Cert.Lib

end
-- ==== Proof.LibRealValued.lean ====
/-
  Extended reals that are real numbers, and the exact float operations that keep them so.

  At the exact instance a float is an extended real.  The algebraic laws that join two arrangements of one
  computation (distributing a product over a sum, cancelling) hold for real numbers and fail at the
  infinities, so a proof that uses one must first know that the values it is applied to are real.  This file
  names that property and shows it is kept by the sum, the difference, the product, the larger of two values,
  a finite sum, the quotient by a nonzero real, and the reciprocal square root of a positive real.
-/
import Idealize.ShloMosaic.PureOps.Ideal

open Idealize.ShloMosaic

namespace Cert.Lib

/-- The extended real `x` is a real number (neither infinity). -/
def IsReal (x : EReal) : Prop := ∃ r : ℝ, x = (r : EReal)

namespace IsReal

theorem coe (r : ℝ) : IsReal (r : EReal) := ⟨r, rfl⟩

theorem zero : IsReal (0 : EReal) := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

/-- The larger of two reals is one of them. -/
theorem max {x y : EReal} (hx : IsReal x) (hy : IsReal y) : IsReal (max x y) := by
  rcases le_total x y with h | h
  · rw [max_eq_right h]; exact hy
  · rw [max_eq_left h]; exact hx

theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- The exact quotient by a nonzero real is the product with its reciprocal, hence real. -/
theorem div_coe {x : EReal} (hx : IsReal x) {y : ℝ} (hy : y ≠ 0) : IsReal (Ideal.div x (y : EReal)) := by
  rw [Ideal.div_coe hy]; exact hx.mul (coe _)

/-- The reciprocal square root of a positive real is real. -/
theorem rsqrt_of_pos {r : ℝ} (hr : 0 < r) : IsReal (Ideal.rsqrt (r : EReal)) := by
  rw [Ideal.rsqrt_coe, if_neg (not_lt.mpr hr.le), if_neg hr.ne']; exact ⟨_, rfl⟩

end IsReal

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the coercion of a real family. -/
theorem exists_real_family {ι : Type*} {x : ι → EReal} (h : ∀ i, IsReal (x i)) : ∃ r : ι → ℝ, x = fun i => (r i : EReal) := by
  choose r hr using h
  exact ⟨r, funext hr⟩

end Cert.Lib
-- ==== Proof.LibVariance.lean ====
/-
  The variance of a finite family, computed in one pass and in two, at the exact instance.

  One program accumulates the sum `S` and the sum of squares `Q` of a column in a single sweep and forms
  `Q / n - (S / n) · (S / n)`; another first forms the mean `μ = S / n` and then sums the squared deviations,
  `(∑ (x - μ) · (x - μ)) / n`.  Over the real numbers the two are equal — expand the square:
  `∑ (x - μ)² = Q - 2 μ S + n μ²`, and `μ S = n μ²` — and the common value is nonnegative.  Over the extended
  reals the expansion needs every `x` to be real (a product does not distribute over a sum at the
  infinities), which is what the hypothesis asks.
-/
import proofs.«120577_j28003186770423_1_alg».proof.Proof.LibRealValued

open Idealize.ShloMosaic

namespace Cert.Lib

variable {ι : Type*} [Fintype ι]

/-- The real identity: the mean of the squared deviations is the mean of the squares less the squared mean,
    for a family indexed by a type of `n` elements. -/
theorem real_var_two_pass (r : ι → ℝ) {n : ℝ} (hn : n ≠ 0) (hcard : (Fintype.card ι : ℝ) = n) :
    (∑ i, (r i - (∑ j, r j) * (1 / n)) * (r i - (∑ j, r j) * (1 / n))) * (1 / n)
      = (∑ i, r i * r i) * (1 / n) - (∑ j, r j) * (1 / n) * ((∑ j, r j) * (1 / n)) := by
  set S := ∑ j, r j with hS
  set μ := S * (1 / n) with hμ
  have hexp : ∀ i, (r i - μ) * (r i - μ) = r i * r i - 2 * μ * r i + μ * μ := fun i => by ring
  have hsum : ∑ i, (r i - μ) * (r i - μ) = ∑ i, r i * r i - 2 * μ * S + n * (μ * μ) := by
    simp only [hexp, Finset.sum_add_distrib, Finset.sum_sub_distrib, ← Finset.mul_sum, Finset.sum_const,
      Finset.card_univ, nsmul_eq_mul, hcard, ← hS]
    ring
  rw [hsum, hμ]
  field_simp
  ring

/-- The two-pass variance of a real family is a nonnegative real. -/
theorem real_var_nonneg (r : ι → ℝ) {n : ℝ} (hn : 0 < n) :
    0 ≤ (∑ i, (r i - (∑ j, r j) * (1 / n)) * (r i - (∑ j, r j) * (1 / n))) * (1 / n) :=
  mul_nonneg (Finset.sum_nonneg fun i _ => mul_self_nonneg _) (by positivity)

/-- At the exact instance: for a family of real values indexed by a type of `n` elements, the sum of the
    squared deviations from `S / n`, divided by `n`, is `Q / n - (S / n) · (S / n)`; and the common value is a
    nonnegative real `v`. -/
theorem var_two_pass_eq_one_pass (x : ι → EReal) (hx : ∀ i, IsReal (x i)) {n : ℝ} (hn : 0 < n)
    (hcard : (Fintype.card ι : ℝ) = n) :
    ∃ v : ℝ, 0 ≤ v
      ∧ Ideal.div (∑ i, (x i - Ideal.div (∑ j, x j) (n : EReal)) * (x i - Ideal.div (∑ j, x j) (n : EReal))) (n : EReal) = (v : EReal)
      ∧ Ideal.div (∑ i, x i * x i) (n : EReal) - Ideal.div (∑ j, x j) (n : EReal) * Ideal.div (∑ j, x j) (n : EReal) = (v : EReal) := by
  obtain ⟨r, rfl⟩ := exists_real_family hx
  have hn' : n ≠ 0 := hn.ne'
  refine ⟨_, real_var_nonneg r hn, ?_, ?_⟩
  · simp only [Ideal.div_coe hn', ← coe_finset_sum, ← EReal.coe_mul, ← EReal.coe_sub]
  · simp only [Ideal.div_coe hn', ← coe_finset_sum, ← EReal.coe_mul, ← EReal.coe_sub]
    exact congrArg _ (real_var_two_pass r hn' hcard).symm

end Cert.Lib
-- ==== Proof.GinMath.lean ====
/-
  The arithmetic of one batch-normalized layer, free of any program.

  A layer's activations form a matrix `Z` of 100000 rows and 128 columns.  Batch normalization needs, per
  column, the mean `S / n` and the variance, `n = 100000`.  One program accumulates `S = ∑ z` and `Q = ∑ z·z` and
  takes `Q / n - (S / n)·(S / n)`; the other takes the mean of the squared deviations from `S / n`.  For a column
  of real numbers these agree and the variance is a nonnegative real, so with a positive `ε` the reciprocal
  square root of `variance + ε` is a real number and the normalized, scaled, shifted and rectified entry is
  real again.  A linear map of real entries with real weights is real.  These facts carry finiteness from one
  layer to the next.
-/
import proofs.«120577_j28003186770423_1_alg».proof.Proof.LibRealValued
import proofs.«120577_j28003186770423_1_alg».proof.Proof.LibVariance
import Idealize.ShloMosaic.PureOps.Ideal.Laws

noncomputable section

namespace Cert.Gin

open Cert.Lib Idealize.ShloMosaic

/-! ## The three literal words -/

/-- The word of `100000.0` denotes the real number 100000. -/
theorem ofBits_n : Ideal.ofBits .f32 0x47C35000#32 = ((100000 : ℝ) : EReal) := by
  simp [Ideal.ofBits, Ideal.ieee, -EReal.coe_mul]; norm_num

/-- The word nearest to `1e-5` denotes the positive dyadic rational 2748779 / 2^38. -/
theorem ofBits_eps : Ideal.ofBits .f32 0x3727C5AC#32 = ((2748779 / 274877906944 : ℝ) : EReal) := by
  simp [Ideal.ofBits, Ideal.ieee, -EReal.coe_mul]; norm_num

theorem eps_pos : (0 : ℝ) < 2748779 / 274877906944 := by norm_num

theorem n_pos : (0 : ℝ) < 100000 := by norm_num

theorem card_rows : (Fintype.card (Fin 100000) : ℝ) = 100000 := by simp

/-! ## One column's statistics -/

/-- For a column of real values: the mean is real; the variance computed from the sum of squares and the
    variance computed from the squared deviations are one nonnegative real. -/
theorem column_stats (z : Fin 100000 → EReal) (hz : ∀ r, IsReal (z r)) :
    ∃ μ v : ℝ, 0 ≤ v
      ∧ Ideal.div (∑ r, z r) (Ideal.ofBits .f32 0x47C35000#32) = (μ : EReal)
      ∧ Ideal.div (∑ r, z r * z r) (Ideal.ofBits .f32 0x47C35000#32)
          - Ideal.div (∑ r, z r) (Ideal.ofBits .f32 0x47C35000#32) * Ideal.div (∑ r, z r) (Ideal.ofBits .f32 0x47C35000#32) = (v : EReal)
      ∧ Ideal.div (∑ r, (z r - Ideal.div (∑ r', z r') (Ideal.ofBits .f32 0x47C35000#32))
            * (z r - Ideal.div (∑ r', z r') (Ideal.ofBits .f32 0x47C35000#32))) (Ideal.ofBits .f32 0x47C35000#32) = (v : EReal) := by
  rw [ofBits_n]
  obtain ⟨v, hv, h2, h1⟩ := var_two_pass_eq_one_pass z hz n_pos card_rows
  obtain ⟨μ, hμ⟩ := (IsReal.sum Finset.univ z fun r _ => hz r).div_coe n_pos.ne'
  exact ⟨μ, v, hv, hμ, h1, h2⟩

/-! ## Normalization and the linear map keep real values real -/

/-- A normalized, scaled, shifted and rectified entry is real when its ingredients are and the variance is a
    nonnegative real. -/
theorem bn_relu_real {z μ g b : EReal} (hz : IsReal z) (hμ : IsReal μ) (hg : IsReal g) (hb : IsReal b) {v : ℝ} (hv : 0 ≤ v) :
    IsReal (max ((((z - μ) * Ideal.rsqrt ((v : EReal) + Ideal.ofBits .f32 0x3727C5AC#32)) * g) + b) (Ideal.ofBits .f32 0x00000000#32)) := by
  rw [ofBits_eps, Ideal.ofBits_zero_f32, ← EReal.coe_add]
  exact ((((hz.sub hμ).mul (IsReal.rsqrt_of_pos (by linarith [eps_pos]))).mul hg).add hb).max IsReal.zero

/-- An entry of a linear map with real inputs, weights and bias is real. -/
theorem linear_real {K : ℕ} (x w : Fin K → EReal) (b : EReal) (hx : ∀ k, IsReal (x k)) (hw : ∀ k, IsReal (w k)) (hb : IsReal b) :
    IsReal ((∑ k, x k * w k) + b) :=
  (IsReal.sum Finset.univ _ fun k _ => (hx k).mul (hw k)).add hb

/-! ## A whole layer, in the two arrangements -/

section Layer

/-- A linear map with bias, entry `(r, j)`. -/
def lin (x : Fin 100000 → Fin 128 → EReal) (w : Fin 128 → Fin 128 → EReal) (b : Fin 128 → EReal) (r : Fin 100000) (j : Fin 128) : EReal :=
  (∑ k, x r k * w k j) + b j

/-- Column mean from the accumulated column sum. -/
def meanK (z : Fin 100000 → Fin 128 → EReal) (j : Fin 128) : EReal :=
  Ideal.div (∑ r, z r j) (Ideal.ofBits .f32 0x47C35000#32)

/-- Column variance from the accumulated sums of the entries and of their squares. -/
def varK (z : Fin 100000 → Fin 128 → EReal) (j : Fin 128) : EReal :=
  Ideal.div (∑ r, z r j * z r j) (Ideal.ofBits .f32 0x47C35000#32) - meanK z j * meanK z j

/-- Column mean as a reduction from a zero initial value. -/
def meanR (z : Fin 100000 → Fin 128 → EReal) (j : Fin 128) : EReal :=
  Ideal.div (Ideal.ofBits .f32 0x00000000#32 + ∑ r, z r j) (Ideal.ofBits .f32 0x47C35000#32)

/-- Column variance as the mean of the squared deviations, a reduction from a zero initial value. -/
def varR (z : Fin 100000 → Fin 128 → EReal) (j : Fin 128) : EReal :=
  Ideal.div (Ideal.ofBits .f32 0x00000000#32 + ∑ r, (z r j - meanR z j) * (z r j - meanR z j)) (Ideal.ofBits .f32 0x47C35000#32)

/-- Normalize by a mean and a variance, scale, shift, rectify: entry `(r, j)`. -/
def norm (z : Fin 100000 → Fin 128 → EReal) (μ v g c : Fin 128 → EReal) (r : Fin 100000) (j : Fin 128) : EReal :=
  max ((((z r j - μ j) * Ideal.rsqrt (v j + Ideal.ofBits .f32 0x3727C5AC#32)) * g j) + c j) (Ideal.ofBits .f32 0x00000000#32)

theorem meanR_eq_meanK (z : Fin 100000 → Fin 128 → EReal) : meanR z = meanK z := by
  funext j; unfold meanR meanK; rw [Ideal.ofBits_zero_f32, zero_add]

/-- For real entries the two variances agree, and mean and variance are reals, the variance nonnegative. -/
theorem stats (z : Fin 100000 → Fin 128 → EReal) (hz : ∀ r j, IsReal (z r j)) (j : Fin 128) :
    varR z j = varK z j ∧ ∃ μ v : ℝ, 0 ≤ v ∧ meanK z j = (μ : EReal) ∧ varK z j = (v : EReal) := by
  obtain ⟨μ, v, hv, hμ, hK, hR⟩ := column_stats (fun r => z r j) (fun r => hz r j)
  refine ⟨?_, μ, v, hv, hμ, hK⟩
  unfold varR; rw [meanR_eq_meanK, Ideal.ofBits_zero_f32, zero_add]
  exact hR.trans hK.symm

theorem lin_real {x : Fin 100000 → Fin 128 → EReal} {w : Fin 128 → Fin 128 → EReal} {b : Fin 128 → EReal}
    (hx : ∀ r k, IsReal (x r k)) (hw : ∀ k j, IsReal (w k j)) (hb : ∀ j, IsReal (b j)) (r : Fin 100000) (j : Fin 128) :
    IsReal (lin x w b r j) :=
  linear_real (fun k => x r k) (fun k => w k j) (b j) (hx r) (fun k => hw k j) (hb j)

/-- Normalization by the statistics of real entries gives real entries, and the two arrangements agree. -/
theorem norm_stats {z : Fin 100000 → Fin 128 → EReal} {g c : Fin 128 → EReal} (hz : ∀ r j, IsReal (z r j))
    (hg : ∀ j, IsReal (g j)) (hc : ∀ j, IsReal (c j)) :
    norm z (meanR z) (varR z) g c = norm z (meanK z) (varK z) g c ∧ ∀ r j, IsReal (norm z (meanK z) (varK z) g c r j) := by
  refine ⟨?_, fun r j => ?_⟩
  · funext r j
    unfold norm
    rw [meanR_eq_meanK, (stats z hz j).1]
  · obtain ⟨_, μ, v, hv, hμ, hvK⟩ := stats z hz j
    unfold norm
    rw [hμ, hvK]
    exact bn_relu_real (hz r j) (IsReal.coe μ) (hg j) (hc j) hv

/-- One layer with the statistics taken from the accumulated sums. -/
def layerK (x : Fin 100000 → Fin 128 → EReal) (w1 : Fin 128 → Fin 128 → EReal) (b1 g1 c1 : Fin 128 → EReal)
    (w2 : Fin 128 → Fin 128 → EReal) (b2 g2 c2 : Fin 128 → EReal) : Fin 100000 → Fin 128 → EReal :=
  norm (lin (norm (lin x w1 b1) (meanK (lin x w1 b1)) (varK (lin x w1 b1)) g1 c1) w2 b2)
    (meanK (lin (norm (lin x w1 b1) (meanK (lin x w1 b1)) (varK (lin x w1 b1)) g1 c1) w2 b2))
    (varK (lin (norm (lin x w1 b1) (meanK (lin x w1 b1)) (varK (lin x w1 b1)) g1 c1) w2 b2)) g2 c2

/-- One layer with the statistics taken as reductions of deviations. -/
def layerR (x : Fin 100000 → Fin 128 → EReal) (w1 : Fin 128 → Fin 128 → EReal) (b1 g1 c1 : Fin 128 → EReal)
    (w2 : Fin 128 → Fin 128 → EReal) (b2 g2 c2 : Fin 128 → EReal) : Fin 100000 → Fin 128 → EReal :=
  norm (lin (norm (lin x w1 b1) (meanR (lin x w1 b1)) (varR (lin x w1 b1)) g1 c1) w2 b2)
    (meanR (lin (norm (lin x w1 b1) (meanR (lin x w1 b1)) (varR (lin x w1 b1)) g1 c1) w2 b2))
    (varR (lin (norm (lin x w1 b1) (meanR (lin x w1 b1)) (varR (lin x w1 b1)) g1 c1) w2 b2)) g2 c2

/-- With real inputs, weights and parameters the two arrangements of a layer agree and the output is real. -/
theorem layer_eq {x : Fin 100000 → Fin 128 → EReal} {w1 : Fin 128 → Fin 128 → EReal} {b1 g1 c1 : Fin 128 → EReal}
    {w2 : Fin 128 → Fin 128 → EReal} {b2 g2 c2 : Fin 128 → EReal}
    (hx : ∀ r k, IsReal (x r k)) (hw1 : ∀ k j, IsReal (w1 k j)) (hb1 : ∀ j, IsReal (b1 j)) (hg1 : ∀ j, IsReal (g1 j)) (hc1 : ∀ j, IsReal (c1 j))
    (hw2 : ∀ k j, IsReal (w2 k j)) (hb2 : ∀ j, IsReal (b2 j)) (hg2 : ∀ j, IsReal (g2 j)) (hc2 : ∀ j, IsReal (c2 j)) :
    layerR x w1 b1 g1 c1 w2 b2 g2 c2 = layerK x w1 b1 g1 c1 w2 b2 g2 c2 ∧ ∀ r j, IsReal (layerK x w1 b1 g1 c1 w2 b2 g2 c2 r j) := by
  have hz1 := lin_real hx hw1 hb1
  obtain ⟨e1, ha⟩ := norm_stats (g := g1) (c := c1) hz1 hg1 hc1
  have hz2 := lin_real ha hw2 hb2
  obtain ⟨e2, ho⟩ := norm_stats (g := g2) (c := c2) hz2 hg2 hc2
  refine ⟨?_, ho⟩
  unfold layerR layerK
  rw [e1, e2]

end Layer

end Cert.Gin

end
-- ==== Proof.GinNet.lean ====
/-
  One layer of the network as a step on the node features, in the two arrangements.

  A step takes the node features `H`, adds to each node's row the sum of its in-neighbours' rows (`agg`, any map of
  arrays that keeps real arrays real), and applies the layer with its eight parameter arrays.  With real
  features and real parameters the two arrangements of the step agree and produce real features; so they
  agree along any number of steps.
-/
import proofs.«120577_j28003186770423_1_alg».proof.Proof.GinMath
import proofs.«120577_j28003186770423_1_alg».proof.Proof.LibCurry

noncomputable section

namespace Cert.Gin

open Cert.Lib Idealize.ShloMosaic

/-- The eight parameter arrays of a layer. -/
structure Params where
  w1 : Fin 128 → Fin 128 → EReal
  b1 : Fin 128 → EReal
  g1 : Fin 128 → EReal
  c1 : Fin 128 → EReal
  w2 : Fin 128 → Fin 128 → EReal
  b2 : Fin 128 → EReal
  g2 : Fin 128 → EReal
  c2 : Fin 128 → EReal

/-- All entries of the parameters are real numbers. -/
structure Params.IsReal (P : Params) : Prop where
  w1 : ∀ k j, Cert.Lib.IsReal (P.w1 k j)
  b1 : ∀ j, Cert.Lib.IsReal (P.b1 j)
  g1 : ∀ j, Cert.Lib.IsReal (P.g1 j)
  c1 : ∀ j, Cert.Lib.IsReal (P.c1 j)
  w2 : ∀ k j, Cert.Lib.IsReal (P.w2 k j)
  b2 : ∀ j, Cert.Lib.IsReal (P.b2 j)
  g2 : ∀ j, Cert.Lib.IsReal (P.g2 j)
  c2 : ∀ j, Cert.Lib.IsReal (P.c2 j)

/-- The layer's input: the features plus the neighbourhood sums. -/
def withAgg (agg : FVec Ideal ⟨2, ![100000, 128]⟩ .f32 → FVec Ideal ⟨2, ![100000, 128]⟩ .f32)
    (H : Fin 100000 → Fin 128 → EReal) (r : Fin 100000) (k : Fin 128) : EReal :=
  H r k + cur2 (agg (unc2 H)) r k

/-- A step with the statistics taken from the accumulated sums. -/
def stepK (agg : FVec Ideal ⟨2, ![100000, 128]⟩ .f32 → FVec Ideal ⟨2, ![100000, 128]⟩ .f32) (P : Params)
    (H : Fin 100000 → Fin 128 → EReal) : Fin 100000 → Fin 128 → EReal :=
  layerK (withAgg agg H) P.w1 P.b1 P.g1 P.c1 P.w2 P.b2 P.g2 P.c2

/-- A step with the statistics taken as reductions of deviations. -/
def stepR (agg : FVec Ideal ⟨2, ![100000, 128]⟩ .f32 → FVec Ideal ⟨2, ![100000, 128]⟩ .f32) (P : Params)
    (H : Fin 100000 → Fin 128 → EReal) : Fin 100000 → Fin 128 → EReal :=
  layerR (withAgg agg H) P.w1 P.b1 P.g1 P.c1 P.w2 P.b2 P.g2 P.c2

/-- With real features and parameters, and neighbourhood sums that keep real arrays real, the two arrangements of a
    step agree and the new features are real. -/
theorem step_eq {agg : FVec Ideal ⟨2, ![100000, 128]⟩ .f32 → FVec Ideal ⟨2, ![100000, 128]⟩ .f32}
    (hagg : ∀ h, (∀ a, Cert.Lib.IsReal (h a)) → ∀ r k, Cert.Lib.IsReal (cur2 (agg h) r k))
    {P : Params} (hP : P.IsReal) {H : Fin 100000 → Fin 128 → EReal} (hH : ∀ r k, Cert.Lib.IsReal (H r k)) :
    stepR agg P H = stepK agg P H ∧ ∀ r k, Cert.Lib.IsReal (stepK agg P H r k) := by
  have hx : ∀ r k, Cert.Lib.IsReal (withAgg agg H r k) := fun r k =>
    (hH r k).add (hagg (unc2 H) (fun a => hH (a 0) (a 1)) r k)
  exact layer_eq hx hP.w1 hP.b1 hP.g1 hP.c1 hP.w2 hP.b2 hP.g2 hP.c2

end Cert.Gin

end
-- ==== Proof.KDefs.lean ====
/-
  The host-side building blocks of a layer, as functions of arrays.

  `srcOf` and `dstOf` are the two rows of the edge list; `aggOf h src dst` adds, into each node's row, the rows of
  `h` at the sources of the edges that end at that node (a source index below zero is first moved up by the
  number of nodes); `matOf` and `vecOf` are layer `i`'s slice of a stack of matrices or of vectors.
-/
import proofs.«120577_j28003186770423_1_alg».proof.Proof.Gen.KernelIdeal
import proofs.«120577_j28003186770423_1_alg».proof.Proof.LibCurry
import proofs.«120577_j28003186770423_1_alg».proof.Proof.GinNet

noncomputable section

namespace Cert.KernelIdeal.K

open Idealize.ShloMosaic Cert.KernelIdeal Cert.KernelIdeal.Gen

/-- The sources of the edges: row 0 of the edge list. -/
def srcOf (e : IVec S2x600000 32) : IVec S600000 32 :=
  shapeCast S600000 (extractStridedSlice S1x600000 ![0, 0] e slices_S2x600000_S1x600000_0_0) shapeCasts_S1x600000_S600000

/-- The targets of the edges: row 1 of the edge list. -/
def dstOf (e : IVec S2x600000 32) : IVec S600000 32 :=
  shapeCast S600000 (extractStridedSlice S1x600000 ![1, 0] e slices_S2x600000_S1x600000_1_0) shapeCasts_S1x600000_S600000

/-- The neighbourhood sums: from a zero array, add row `src e` of `h` into row `dst e`, over all edges `e`. -/
def aggOf (h : FVec Ideal S100000x128 .f32) (src dst : IVec S600000 32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- Layer `i`'s matrix of a stack of four [128,128] matrices. -/
def mat (i : Nat) (x : FVec Ideal S4x128x128 .f32) (h : S4x128x128.Slices ![i, 0, 0] S1x128x128) : FVec Ideal S128x128 .f32 :=
  shapeCast S128x128 (extractStridedSlice S1x128x128 ![i, 0, 0] x h) shapeCasts_S1x128x128_S128x128

/-- Layer `i`'s vector of a stack of four vectors of length 128. -/
def vec (i : Nat) (x : FVec Ideal S4x128 .f32) (h : S4x128.Slices ![i, 0] S1x128) : FVec Ideal S128 .f32 :=
  shapeCast S128 (extractStridedSlice S1x128 ![i, 0] x h) shapeCasts_S1x128_S128

/-- The neighbourhood sums along the edge list `e`, as a map of arrays. -/
def aggK (e : IVec S2x600000 32) (h : FVec Ideal S100000x128 .f32) : FVec Ideal S100000x128 .f32 := aggOf h (srcOf e) (dstOf e)

/-- Layer `i`'s eight parameter arrays, cut from the stacks. -/
def paramsK (i : Nat) (h3 : S4x128x128.Slices ![i, 0, 0] S1x128x128) (h2 : S4x128.Slices ![i, 0] S1x128)
    (x3 : FVec Ideal S4x128x128 .f32) (x4 x5 x6 : FVec Ideal S4x128 .f32) (x7 : FVec Ideal S4x128x128 .f32) (x8 x9 x10 : FVec Ideal S4x128 .f32) : Cert.Gin.Params where
  w1 := Cert.Lib.cur2 (mat i x3 h3)
  b1 := Cert.Lib.cur1 (vec i x4 h2)
  g1 := Cert.Lib.cur1 (vec i x5 h2)
  c1 := Cert.Lib.cur1 (vec i x6 h2)
  w2 := Cert.Lib.cur2 (mat i x7 h3)
  b2 := Cert.Lib.cur1 (vec i x8 h2)
  g2 := Cert.Lib.cur1 (vec i x9 h2)
  c2 := Cert.Lib.cur1 (vec i x10 h2)

end Cert.KernelIdeal.K

end
-- ==== Proof.KHost0.lean ====
/-
  Layer 0's host-side quantities, read from the three stretches of host operations around its regions, for any
  contents `X` of the buffers when a stretch is entered: the neighbourhood sums, the layer's slices of the weight and
  parameter stacks (a vector of length 128 laid out as one row), and the column means and variances formed from the
  accumulated column sums. A stretch leaves every buffer it does not write as it found it.
-/
import proofs.«120577_j28003186770423_1_alg».proof.Proof.Gen.KernelIdeal.Launch
import proofs.«120577_j28003186770423_1_alg».proof.Proof.KDefs
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KHost0

open Idealize.ShloMosaic Idealize.ShloMosaic.ValueIdx Idealize.ShloMosaic.StableHlo Cert.KernelIdeal Cert.KernelIdeal.Gen Cert.KernelIdeal.K Cert.Lib

/-- A stretch of host operations leaves a buffer none of them writes as it was. -/
local macro "keep_host " h:ident : tactic => `(tactic| (
  refine StableHlo.after_of_forall_not_mem _ _ (List.forall_iff_forall_mem.mp ?_)
  simp only [$h:ident, List.Forall, StableHlo.nullary_writes, StableHlo.unary_writes, StableHlo.binary_writes, StableHlo.ternary_writes,
    StableHlo.quaternary_writes, StableHlo.reshape_writes, Finset.mem_singleton]
  repeat' apply And.intro
  all_goals exact StableHlo.devRef_ne_of_ne (by decide)))

variable (X : Valuation τ sig (Elt Ideal))

/-! ## Before the first region -/

set_option maxHeartbeats 1000000 in
/-- The neighbourhood sums of the layer's input. -/
theorem A_agg : (after (hostOps0 (F := Ideal)) X (Proc.devRef .tc main_v13) : FVec Ideal S100000x128 .f32)
    = aggOf (X (Proc.devRef .tc main_arg0)) (srcOf (X (Proc.devRef .tc main_arg1))) (dstOf (X (Proc.devRef .tc main_arg1))) := by
  after_results_simp <;> rfl

/-- The edge sources and targets, computed once. -/
theorem A_src : (after (hostOps0 (F := Ideal)) X (Proc.devRef .tc main_v1) : IVec S600000 32) = srcOf (X (Proc.devRef .tc main_arg1)) := by
  after_results_simp <;> rfl

theorem A_dst : (after (hostOps0 (F := Ideal)) X (Proc.devRef .tc main_v3) : IVec S600000 32) = dstOf (X (Proc.devRef .tc main_arg1)) := by
  after_results_simp <;> rfl

/-- The first linear map's weights. -/
theorem A_w1 : (after (hostOps0 (F := Ideal)) X (Proc.devRef .tc main_v15) : FVec Ideal S128x128 .f32) = mat 0 (X (Proc.devRef .tc main_arg3)) slices_S4x128x128_S1x128x128_0_0_0 := by
  after_results_simp <;> rfl

/-- The first linear map's bias, as one row. -/
theorem A_b1 : row (a := 128) (after (hostOps0 (F := Ideal)) X (Proc.devRef .tc main_v18)) = cur1 (vec 0 (X (Proc.devRef .tc main_arg4)) slices_S4x128_S1x128_0_0) := by
  have e : (after (hostOps0 (F := Ideal)) X (Proc.devRef .tc main_v18) : FVec Ideal S1x128 .f32)
      = shapeCast S1x128 (vec 0 (X (Proc.devRef .tc main_arg4)) slices_S4x128_S1x128_0_0) shapeCasts_S128_S1x128 := by
    after_results_simp <;> rfl
  funext j
  unfold row cur1
  rw [e]
  exact shapeCast_a_1a_apply _ _ _ _

theorem A_keep_arg0 : after (hostOps0 (F := Ideal)) X (Proc.devRef .tc main_arg0) = X (Proc.devRef .tc main_arg0) := by keep_host hostOps0
theorem A_keep_arg1 : after (hostOps0 (F := Ideal)) X (Proc.devRef .tc main_arg1) = X (Proc.devRef .tc main_arg1) := by keep_host hostOps0
theorem A_keep_arg2 : after (hostOps0 (F := Ideal)) X (Proc.devRef .tc main_arg2) = X (Proc.devRef .tc main_arg2) := by keep_host hostOps0
theorem A_keep_arg3 : after (hostOps0 (F := Ideal)) X (Proc.devRef .tc main_arg3) = X (Proc.devRef .tc main_arg3) := by keep_host hostOps0
theorem A_keep_arg4 : after (hostOps0 (F := Ideal)) X (Proc.devRef .tc main_arg4) = X (Proc.devRef .tc main_arg4) := by keep_host hostOps0
theorem A_keep_arg5 : after (hostOps0 (F := Ideal)) X (Proc.devRef .tc main_arg5) = X (Proc.devRef .tc main_arg5) := by keep_host hostOps0
theorem A_keep_arg6 : after (hostOps0 (F := Ideal)) X (Proc.devRef .tc main_arg6) = X (Proc.devRef .tc main_arg6) := by keep_host hostOps0
theorem A_keep_arg7 : after (hostOps0 (F := Ideal)) X (Proc.devRef .tc main_arg7) = X (Proc.devRef .tc main_arg7) := by keep_host hostOps0
theorem A_keep_arg8 : after (hostOps0 (F := Ideal)) X (Proc.devRef .tc main_arg8) = X (Proc.devRef .tc main_arg8) := by keep_host hostOps0
theorem A_keep_arg9 : after (hostOps0 (F := Ideal)) X (Proc.devRef .tc main_arg9) = X (Proc.devRef .tc main_arg9) := by keep_host hostOps0
theorem A_keep_arg10 : after (hostOps0 (F := Ideal)) X (Proc.devRef .tc main_arg10) = X (Proc.devRef .tc main_arg10) := by keep_host hostOps0
theorem A_keep_arg11 : after (hostOps0 (F := Ideal)) X (Proc.devRef .tc main_arg11) = X (Proc.devRef .tc main_arg11) := by keep_host hostOps0
theorem A_keep_arg12 : after (hostOps0 (F := Ideal)) X (Proc.devRef .tc main_arg12) = X (Proc.devRef .tc main_arg12) := by keep_host hostOps0

/-! ## Between the first and the second region -/

/-- The first column means: the accumulated column sums divided by the number of rows. -/
theorem B_mean : row (a := 128) (after (hostOps1 (F := Ideal)) X (Proc.devRef .tc main_v21)) = fun j => Ideal.div (row (a := 128) (X (Proc.devRef .tc main_v19_1)) j) (Ideal.ofBits .f32 0x47C35000#32) := by
  have e : (after (hostOps1 (F := Ideal)) X (Proc.devRef .tc main_v21) : FVec Ideal S1x128 .f32) = Host.divf (F := Ideal) (X (Proc.devRef .tc main_v19_1)) (broadcastInDim S1x128 ![] bcast_S_S1x128 (constant (F := Ideal) S_ .f32 0x47C35000#32)) := by
    after_results_simp <;> rfl
  funext j
  unfold row
  rw [e]
  rfl

/-- The first column variances: the accumulated sums of squares divided by the number of rows, less the squared means. -/
theorem B_var : row (a := 128) (after (hostOps1 (F := Ideal)) X (Proc.devRef .tc main_v25)) = fun j => Ideal.div (row (a := 128) (X (Proc.devRef .tc main_v19_2)) j) (Ideal.ofBits .f32 0x47C35000#32) - Ideal.div (row (a := 128) (X (Proc.devRef .tc main_v19_1)) j) (Ideal.ofBits .f32 0x47C35000#32) * Ideal.div (row (a := 128) (X (Proc.devRef .tc main_v19_1)) j) (Ideal.ofBits .f32 0x47C35000#32) := by
  have e : (after (hostOps1 (F := Ideal)) X (Proc.devRef .tc main_v25) : FVec Ideal S1x128 .f32)
      = subf (Host.divf (F := Ideal) (X (Proc.devRef .tc main_v19_2)) (broadcastInDim S1x128 ![] bcast_S_S1x128 (constant (F := Ideal) S_ .f32 0x47C35000#32))) (mulf (Host.divf (F := Ideal) (X (Proc.devRef .tc main_v19_1)) (broadcastInDim S1x128 ![] bcast_S_S1x128 (constant (F := Ideal) S_ .f32 0x47C35000#32))) (Host.divf (F := Ideal) (X (Proc.devRef .tc main_v19_1)) (broadcastInDim S1x128 ![] bcast_S_S1x128 (constant (F := Ideal) S_ .f32 0x47C35000#32)))) := by
    after_results_simp <;> rfl
  funext j
  unfold row
  rw [e]
  rfl

/-- The first normalization's scale, as one row. -/
theorem B_g1 : row (a := 128) (after (hostOps1 (F := Ideal)) X (Proc.devRef .tc main_v34)) = cur1 (vec 0 (X (Proc.devRef .tc main_arg5)) slices_S4x128_S1x128_0_0) := by
  have e : (after (hostOps1 (F := Ideal)) X (Proc.devRef .tc main_v34) : FVec Ideal S1x128 .f32)
      = shapeCast S1x128 (vec 0 (X (Proc.devRef .tc main_arg5)) slices_S4x128_S1x128_0_0) shapeCasts_S128_S1x128 := by
    after_results_simp <;> rfl
  funext j
  unfold row cur1
  rw [e]
  exact shapeCast_a_1a_apply _ _ _ _

/-- The first normalization's shift, as one row. -/
theorem B_c1 : row (a := 128) (after (hostOps1 (F := Ideal)) X (Proc.devRef .tc main_v35)) = cur1 (vec 0 (X (Proc.devRef .tc main_arg6)) slices_S4x128_S1x128_0_0) := by
  have e : (after (hostOps1 (F := Ideal)) X (Proc.devRef .tc main_v35) : FVec Ideal S1x128 .f32)
      = shapeCast S1x128 (vec 0 (X (Proc.devRef .tc main_arg6)) slices_S4x128_S1x128_0_0) shapeCasts_S128_S1x128 := by
    after_results_simp <;> rfl
  funext j
  unfold row cur1
  rw [e]
  exact shapeCast_a_1a_apply _ _ _ _

/-- The second linear map's weights. -/
theorem B_w2 : (after (hostOps1 (F := Ideal)) X (Proc.devRef .tc main_v31) : FVec Ideal S128x128 .f32) = mat 0 (X (Proc.devRef .tc main_arg7)) slices_S4x128x128_S1x128x128_0_0_0 := by
  after_results_simp <;> rfl

/-- The second linear map's bias, as one row. -/
theorem B_b2 : row (a := 128) (after (hostOps1 (F := Ideal)) X (Proc.devRef .tc main_v36)) = cur1 (vec 0 (X (Proc.devRef .tc main_arg8)) slices_S4x128_S1x128_0_0) := by
  have e : (after (hostOps1 (F := Ideal)) X (Proc.devRef .tc main_v36) : FVec Ideal S1x128 .f32)
      = shapeCast S1x128 (vec 0 (X (Proc.devRef .tc main_arg8)) slices_S4x128_S1x128_0_0) shapeCasts_S128_S1x128 := by
    after_results_simp <;> rfl
  funext j
  unfold row cur1
  rw [e]
  exact shapeCast_a_1a_apply _ _ _ _

theorem B_keep_v19_0 : after (hostOps1 (F := Ideal)) X (Proc.devRef .tc main_v19_0) = X (Proc.devRef .tc main_v19_0) := by keep_host hostOps1
theorem B_keep_arg0 : after (hostOps1 (F := Ideal)) X (Proc.devRef .tc main_arg0) = X (Proc.devRef .tc main_arg0) := by keep_host hostOps1
theorem B_keep_arg1 : after (hostOps1 (F := Ideal)) X (Proc.devRef .tc main_arg1) = X (Proc.devRef .tc main_arg1) := by keep_host hostOps1
theorem B_keep_arg2 : after (hostOps1 (F := Ideal)) X (Proc.devRef .tc main_arg2) = X (Proc.devRef .tc main_arg2) := by keep_host hostOps1
theorem B_keep_arg3 : after (hostOps1 (F := Ideal)) X (Proc.devRef .tc main_arg3) = X (Proc.devRef .tc main_arg3) := by keep_host hostOps1
theorem B_keep_arg4 : after (hostOps1 (F := Ideal)) X (Proc.devRef .tc main_arg4) = X (Proc.devRef .tc main_arg4) := by keep_host hostOps1
theorem B_keep_arg5 : after (hostOps1 (F := Ideal)) X (Proc.devRef .tc main_arg5) = X (Proc.devRef .tc main_arg5) := by keep_host hostOps1
theorem B_keep_arg6 : after (hostOps1 (F := Ideal)) X (Proc.devRef .tc main_arg6) = X (Proc.devRef .tc main_arg6) := by keep_host hostOps1
theorem B_keep_arg7 : after (hostOps1 (F := Ideal)) X (Proc.devRef .tc main_arg7) = X (Proc.devRef .tc main_arg7) := by keep_host hostOps1
theorem B_keep_arg8 : after (hostOps1 (F := Ideal)) X (Proc.devRef .tc main_arg8) = X (Proc.devRef .tc main_arg8) := by keep_host hostOps1
theorem B_keep_arg9 : after (hostOps1 (F := Ideal)) X (Proc.devRef .tc main_arg9) = X (Proc.devRef .tc main_arg9) := by keep_host hostOps1
theorem B_keep_arg10 : after (hostOps1 (F := Ideal)) X (Proc.devRef .tc main_arg10) = X (Proc.devRef .tc main_arg10) := by keep_host hostOps1
theorem B_keep_arg11 : after (hostOps1 (F := Ideal)) X (Proc.devRef .tc main_arg11) = X (Proc.devRef .tc main_arg11) := by keep_host hostOps1
theorem B_keep_arg12 : after (hostOps1 (F := Ideal)) X (Proc.devRef .tc main_arg12) = X (Proc.devRef .tc main_arg12) := by keep_host hostOps1
theorem B_keep_v1 : after (hostOps1 (F := Ideal)) X (Proc.devRef .tc main_v1) = X (Proc.devRef .tc main_v1) := by keep_host hostOps1
theorem B_keep_v3 : after (hostOps1 (F := Ideal)) X (Proc.devRef .tc main_v3) = X (Proc.devRef .tc main_v3) := by keep_host hostOps1

/-! ## Between the second and the third region -/

/-- The second column means: the accumulated column sums divided by the number of rows. -/
theorem C_mean : row (a := 128) (after (hostOps2 (F := Ideal)) X (Proc.devRef .tc main_v39)) = fun j => Ideal.div (row (a := 128) (X (Proc.devRef .tc main_v37_1)) j) (Ideal.ofBits .f32 0x47C35000#32) := by
  have e : (after (hostOps2 (F := Ideal)) X (Proc.devRef .tc main_v39) : FVec Ideal S1x128 .f32) = Host.divf (F := Ideal) (X (Proc.devRef .tc main_v37_1)) (broadcastInDim S1x128 ![] bcast_S_S1x128 (constant (F := Ideal) S_ .f32 0x47C35000#32)) := by
    after_results_simp <;> rfl
  funext j
  unfold row
  rw [e]
  rfl

/-- The second column variances: the accumulated sums of squares divided by the number of rows, less the squared means. -/
theorem C_var : row (a := 128) (after (hostOps2 (F := Ideal)) X (Proc.devRef .tc main_v43)) = fun j => Ideal.div (row (a := 128) (X (Proc.devRef .tc main_v37_2)) j) (Ideal.ofBits .f32 0x47C35000#32) - Ideal.div (row (a := 128) (X (Proc.devRef .tc main_v37_1)) j) (Ideal.ofBits .f32 0x47C35000#32) * Ideal.div (row (a := 128) (X (Proc.devRef .tc main_v37_1)) j) (Ideal.ofBits .f32 0x47C35000#32) := by
  have e : (after (hostOps2 (F := Ideal)) X (Proc.devRef .tc main_v43) : FVec Ideal S1x128 .f32)
      = subf (Host.divf (F := Ideal) (X (Proc.devRef .tc main_v37_2)) (broadcastInDim S1x128 ![] bcast_S_S1x128 (constant (F := Ideal) S_ .f32 0x47C35000#32))) (mulf (Host.divf (F := Ideal) (X (Proc.devRef .tc main_v37_1)) (broadcastInDim S1x128 ![] bcast_S_S1x128 (constant (F := Ideal) S_ .f32 0x47C35000#32))) (Host.divf (F := Ideal) (X (Proc.devRef .tc main_v37_1)) (broadcastInDim S1x128 ![] bcast_S_S1x128 (constant (F := Ideal) S_ .f32 0x47C35000#32)))) := by
    after_results_simp <;> rfl
  funext j
  unfold row
  rw [e]
  rfl

/-- The second normalization's scale, as one row. -/
theorem C_g2 : row (a := 128) (after (hostOps2 (F := Ideal)) X (Proc.devRef .tc main_v48)) = cur1 (vec 0 (X (Proc.devRef .tc main_arg9)) slices_S4x128_S1x128_0_0) := by
  have e : (after (hostOps2 (F := Ideal)) X (Proc.devRef .tc main_v48) : FVec Ideal S1x128 .f32)
      = shapeCast S1x128 (vec 0 (X (Proc.devRef .tc main_arg9)) slices_S4x128_S1x128_0_0) shapeCasts_S128_S1x128 := by
    after_results_simp <;> rfl
  funext j
  unfold row cur1
  rw [e]
  exact shapeCast_a_1a_apply _ _ _ _

/-- The second normalization's shift, as one row. -/
theorem C_c2 : row (a := 128) (after (hostOps2 (F := Ideal)) X (Proc.devRef .tc main_v49)) = cur1 (vec 0 (X (Proc.devRef .tc main_arg10)) slices_S4x128_S1x128_0_0) := by
  have e : (after (hostOps2 (F := Ideal)) X (Proc.devRef .tc main_v49) : FVec Ideal S1x128 .f32)
      = shapeCast S1x128 (vec 0 (X (Proc.devRef .tc main_arg10)) slices_S4x128_S1x128_0_0) shapeCasts_S128_S1x128 := by
    after_results_simp <;> rfl
  funext j
  unfold row cur1
  rw [e]
  exact shapeCast_a_1a_apply _ _ _ _

theorem C_keep_v37_0 : after (hostOps2 (F := Ideal)) X (Proc.devRef .tc main_v37_0) = X (Proc.devRef .tc main_v37_0) := by keep_host hostOps2
theorem C_keep_arg0 : after (hostOps2 (F := Ideal)) X (Proc.devRef .tc main_arg0) = X (Proc.devRef .tc main_arg0) := by keep_host hostOps2
theorem C_keep_arg1 : after (hostOps2 (F := Ideal)) X (Proc.devRef .tc main_arg1) = X (Proc.devRef .tc main_arg1) := by keep_host hostOps2
theorem C_keep_arg2 : after (hostOps2 (F := Ideal)) X (Proc.devRef .tc main_arg2) = X (Proc.devRef .tc main_arg2) := by keep_host hostOps2
theorem C_keep_arg3 : after (hostOps2 (F := Ideal)) X (Proc.devRef .tc main_arg3) = X (Proc.devRef .tc main_arg3) := by keep_host hostOps2
theorem C_keep_arg4 : after (hostOps2 (F := Ideal)) X (Proc.devRef .tc main_arg4) = X (Proc.devRef .tc main_arg4) := by keep_host hostOps2
theorem C_keep_arg5 : after (hostOps2 (F := Ideal)) X (Proc.devRef .tc main_arg5) = X (Proc.devRef .tc main_arg5) := by keep_host hostOps2
theorem C_keep_arg6 : after (hostOps2 (F := Ideal)) X (Proc.devRef .tc main_arg6) = X (Proc.devRef .tc main_arg6) := by keep_host hostOps2
theorem C_keep_arg7 : after (hostOps2 (F := Ideal)) X (Proc.devRef .tc main_arg7) = X (Proc.devRef .tc main_arg7) := by keep_host hostOps2
theorem C_keep_arg8 : after (hostOps2 (F := Ideal)) X (Proc.devRef .tc main_arg8) = X (Proc.devRef .tc main_arg8) := by keep_host hostOps2
theorem C_keep_arg9 : after (hostOps2 (F := Ideal)) X (Proc.devRef .tc main_arg9) = X (Proc.devRef .tc main_arg9) := by keep_host hostOps2
theorem C_keep_arg10 : after (hostOps2 (F := Ideal)) X (Proc.devRef .tc main_arg10) = X (Proc.devRef .tc main_arg10) := by keep_host hostOps2
theorem C_keep_arg11 : after (hostOps2 (F := Ideal)) X (Proc.devRef .tc main_arg11) = X (Proc.devRef .tc main_arg11) := by keep_host hostOps2
theorem C_keep_arg12 : after (hostOps2 (F := Ideal)) X (Proc.devRef .tc main_arg12) = X (Proc.devRef .tc main_arg12) := by keep_host hostOps2
theorem C_keep_v1 : after (hostOps2 (F := Ideal)) X (Proc.devRef .tc main_v1) = X (Proc.devRef .tc main_v1) := by keep_host hostOps2
theorem C_keep_v3 : after (hostOps2 (F := Ideal)) X (Proc.devRef .tc main_v3) = X (Proc.devRef .tc main_v3) := by keep_host hostOps2

end Cert.KernelIdeal.KHost0

end
-- ==== Proof.KCore0.lean ====
/-
  Layer 0 as one function of what its buffers hold when it is entered.

  `Y0` is the contents before the layer's first stretch of host operations; `Y2`, `Y4`, `Y6` are the contents after its
  three regions, each described by what the region is known to compute from the contents it was entered with
  (the first linear map with its column sums, the normalization followed by the second linear map with its column
  sums, the last normalization) and by the buffers it leaves alone. Reading the host stretches in between, the
  layer's output is the layer function of its input, the neighbourhood sums and the layer's slices of the weights.
-/
import proofs.«120577_j28003186770423_1_alg».proof.Proof.KHost0
import proofs.«120577_j28003186770423_1_alg».proof.Proof.GinMath

noncomputable section

namespace Cert.KernelIdeal.KCore0

open Idealize.ShloMosaic Idealize.ShloMosaic.ValueIdx Idealize.ShloMosaic.StableHlo Cert.KernelIdeal Cert.KernelIdeal.Gen Cert.KernelIdeal.K Cert.Lib Cert.Gin

variable (Y0 Y2 Y4 Y6 : Valuation τ sig (Elt Ideal))

/-- The layer's output is the layer function of its input with the neighbourhood sums added, the layer's weights and parameters. -/
theorem out_eq
    (hz1 : cur2 (a := 100000) (b := 128) (Y2 (Proc.devRef .tc main_v19_0)) = lin (fun r k => cur2 (a := 100000) (b := 128) (after (hostOps0 (F := Ideal)) Y0 (Proc.devRef .tc main_arg0)) r k + cur2 (a := 100000) (b := 128) (after (hostOps0 (F := Ideal)) Y0 (Proc.devRef .tc main_v13)) r k) (cur2 (a := 128) (b := 128) (after (hostOps0 (F := Ideal)) Y0 (Proc.devRef .tc main_v15))) (row (a := 128) (after (hostOps0 (F := Ideal)) Y0 (Proc.devRef .tc main_v18))))
    (hs1 : row (a := 128) (Y2 (Proc.devRef .tc main_v19_1)) = fun j => ∑ r, cur2 (a := 100000) (b := 128) (Y2 (Proc.devRef .tc main_v19_0)) r j)
    (hq1 : row (a := 128) (Y2 (Proc.devRef .tc main_v19_2)) = fun j => ∑ r, cur2 (a := 100000) (b := 128) (Y2 (Proc.devRef .tc main_v19_0)) r j * cur2 (a := 100000) (b := 128) (Y2 (Proc.devRef .tc main_v19_0)) r j)
    (k2_5 : Y2 (Proc.devRef .tc main_arg5) = (after (hostOps0 (F := Ideal)) Y0 (Proc.devRef .tc main_arg5)))
    (k2_6 : Y2 (Proc.devRef .tc main_arg6) = (after (hostOps0 (F := Ideal)) Y0 (Proc.devRef .tc main_arg6)))
    (k2_7 : Y2 (Proc.devRef .tc main_arg7) = (after (hostOps0 (F := Ideal)) Y0 (Proc.devRef .tc main_arg7)))
    (k2_8 : Y2 (Proc.devRef .tc main_arg8) = (after (hostOps0 (F := Ideal)) Y0 (Proc.devRef .tc main_arg8)))
    (k2_9 : Y2 (Proc.devRef .tc main_arg9) = (after (hostOps0 (F := Ideal)) Y0 (Proc.devRef .tc main_arg9)))
    (k2_10 : Y2 (Proc.devRef .tc main_arg10) = (after (hostOps0 (F := Ideal)) Y0 (Proc.devRef .tc main_arg10)))
    (hz2 : cur2 (a := 100000) (b := 128) (Y4 (Proc.devRef .tc main_v37_0)) = lin (norm (cur2 (a := 100000) (b := 128) (after (hostOps1 (F := Ideal)) Y2 (Proc.devRef .tc main_v19_0))) (row (a := 128) (after (hostOps1 (F := Ideal)) Y2 (Proc.devRef .tc main_v21))) (row (a := 128) (after (hostOps1 (F := Ideal)) Y2 (Proc.devRef .tc main_v25))) (row (a := 128) (after (hostOps1 (F := Ideal)) Y2 (Proc.devRef .tc main_v34))) (row (a := 128) (after (hostOps1 (F := Ideal)) Y2 (Proc.devRef .tc main_v35)))) (cur2 (a := 128) (b := 128) (after (hostOps1 (F := Ideal)) Y2 (Proc.devRef .tc main_v31))) (row (a := 128) (after (hostOps1 (F := Ideal)) Y2 (Proc.devRef .tc main_v36))))
    (hs2 : row (a := 128) (Y4 (Proc.devRef .tc main_v37_1)) = fun j => ∑ r, cur2 (a := 100000) (b := 128) (Y4 (Proc.devRef .tc main_v37_0)) r j)
    (hq2 : row (a := 128) (Y4 (Proc.devRef .tc main_v37_2)) = fun j => ∑ r, cur2 (a := 100000) (b := 128) (Y4 (Proc.devRef .tc main_v37_0)) r j * cur2 (a := 100000) (b := 128) (Y4 (Proc.devRef .tc main_v37_0)) r j)
    (k4_9 : Y4 (Proc.devRef .tc main_arg9) = (after (hostOps1 (F := Ideal)) Y2 (Proc.devRef .tc main_arg9)))
    (k4_10 : Y4 (Proc.devRef .tc main_arg10) = (after (hostOps1 (F := Ideal)) Y2 (Proc.devRef .tc main_arg10)))
    (hout : cur2 (a := 100000) (b := 128) (Y6 (Proc.devRef .tc main_v50)) = norm (cur2 (a := 100000) (b := 128) (after (hostOps2 (F := Ideal)) Y4 (Proc.devRef .tc main_v37_0))) (row (a := 128) (after (hostOps2 (F := Ideal)) Y4 (Proc.devRef .tc main_v39))) (row (a := 128) (after (hostOps2 (F := Ideal)) Y4 (Proc.devRef .tc main_v43))) (row (a := 128) (after (hostOps2 (F := Ideal)) Y4 (Proc.devRef .tc main_v48))) (row (a := 128) (after (hostOps2 (F := Ideal)) Y4 (Proc.devRef .tc main_v49)))) :
    cur2 (a := 100000) (b := 128) (Y6 (Proc.devRef .tc main_v50))
      = layerK (fun r k => cur2 (a := 100000) (b := 128) (Y0 (Proc.devRef .tc main_arg0)) r k + cur2 (aggOf (Y0 (Proc.devRef .tc main_arg0)) (srcOf (Y0 (Proc.devRef .tc main_arg1))) (dstOf (Y0 (Proc.devRef .tc main_arg1)))) r k)
          (cur2 (mat 0 (Y0 (Proc.devRef .tc main_arg3)) slices_S4x128x128_S1x128x128_0_0_0)) (cur1 (vec 0 (Y0 (Proc.devRef .tc main_arg4)) slices_S4x128_S1x128_0_0)) (cur1 (vec 0 (Y0 (Proc.devRef .tc main_arg5)) slices_S4x128_S1x128_0_0)) (cur1 (vec 0 (Y0 (Proc.devRef .tc main_arg6)) slices_S4x128_S1x128_0_0))
          (cur2 (mat 0 (Y0 (Proc.devRef .tc main_arg7)) slices_S4x128x128_S1x128x128_0_0_0)) (cur1 (vec 0 (Y0 (Proc.devRef .tc main_arg8)) slices_S4x128_S1x128_0_0)) (cur1 (vec 0 (Y0 (Proc.devRef .tc main_arg9)) slices_S4x128_S1x128_0_0)) (cur1 (vec 0 (Y0 (Proc.devRef .tc main_arg10)) slices_S4x128_S1x128_0_0)) := by
  -- the first linear map
  rw [KHost0.A_keep_arg0 Y0, KHost0.A_agg Y0, KHost0.A_w1 Y0, KHost0.A_b1 Y0] at hz1
  -- its column statistics, and the first normalization's parameters
  have hm1 := KHost0.B_mean Y2
  have hv1 := KHost0.B_var Y2
  rw [hs1] at hm1 hv1
  rw [hq1] at hv1
  have hg1 := KHost0.B_g1 Y2
  have hc1 := KHost0.B_c1 Y2
  have hw2 := KHost0.B_w2 Y2
  have hb2 := KHost0.B_b2 Y2
  rw [k2_5, KHost0.A_keep_arg5 Y0] at hg1
  rw [k2_6, KHost0.A_keep_arg6 Y0] at hc1
  rw [k2_7, KHost0.A_keep_arg7 Y0] at hw2
  rw [k2_8, KHost0.A_keep_arg8 Y0] at hb2
  rw [KHost0.B_keep_v19_0 Y2, hm1, hv1, hg1, hc1, hw2, hb2, hz1] at hz2
  -- the second linear map's column statistics, and the last normalization's parameters
  have hm2 := KHost0.C_mean Y4
  have hv2 := KHost0.C_var Y4
  rw [hs2] at hm2 hv2
  rw [hq2] at hv2
  have hg2 := KHost0.C_g2 Y4
  have hc2 := KHost0.C_c2 Y4
  rw [k4_9, KHost0.B_keep_arg9 Y2, k2_9, KHost0.A_keep_arg9 Y0] at hg2
  rw [k4_10, KHost0.B_keep_arg10 Y2, k2_10, KHost0.A_keep_arg10 Y0] at hc2
  rw [KHost0.C_keep_v37_0 Y4, hm2, hv2, hg2, hc2, hz2] at hout
  exact hout

end Cert.KernelIdeal.KCore0

end
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.RegionFirstLinear0.lean ====
/-
  The first linear map of layer 0 on the whole node array, and its two column statistics.

  The region walks twenty blocks of 5000 consecutive rows.  On a block it adds the node features and the
  aggregated neighbour features entry by entry, multiplies the sum by the 128 by 128 weight matrix (a plain
  sum over the 128 inner positions), adds the bias row to every row, and stores the result; it also adds, into two
  rows of 128 running totals that start at zero on the first block, the sum down the block's rows of the
  result and of its square.  Read over the extended reals, where addition is commutative and associative with
  neutral zero, the three arrays after the region hold: entry (r, j) of the linear map; the sum over all
  100000 rows of column j; the sum over all rows of the square of column j.  No finiteness is needed.
-/
import proofs.«120577_j28003186770423_1_alg».proof.Proof.Gen.KernelIdeal.Frame
import proofs.«120577_j28003186770423_1_alg».proof.Proof.LibPlainDot
import proofs.«120577_j28003186770423_1_alg».proof.Proof.LibColumnSum
import proofs.«120577_j28003186770423_1_alg».proof.Proof.LibBlockSum
import proofs.«120577_j28003186770423_1_alg».proof.Proof.LibCurry
import proofs.«120577_j28003186770423_1_alg».proof.Proof.GinMath
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.FirstLinear0

open Cert.KernelIdeal Cert.KernelIdeal.Gen

open Cert.Lib Cert.Gin

/-- The node features when the region is entered. -/
abbrev hIn (V : (c : Dev nD) → (b : Ref sig .tc) → Buf (Elt Ideal) ((c : Thread nD τ).loc b)) (c : Dev nD) : S100000x128.Idx → EReal := V c (Pipeline.arrRef spec0 0)
/-- The aggregated neighbour features when the region is entered. -/
abbrev aggIn (V : (c : Dev nD) → (b : Ref sig .tc) → Buf (Elt Ideal) ((c : Thread nD τ).loc b)) (c : Dev nD) : S100000x128.Idx → EReal := V c (Pipeline.arrRef spec0 1)
/-- The weight matrix when the region is entered. -/
abbrev wIn (V : (c : Dev nD) → (b : Ref sig .tc) → Buf (Elt Ideal) ((c : Thread nD τ).loc b)) (c : Dev nD) : S128x128.Idx → EReal := V c (Pipeline.arrRef spec0 2)
/-- The bias row when the region is entered. -/
abbrev bIn (V : (c : Dev nD) → (b : Ref sig .tc) → Buf (Elt Ideal) ((c : Thread nD τ).loc b)) (c : Dev nD) : S1x128.Idx → EReal := V c (Pipeline.arrRef spec0 3)

/-- entry (r, j) of the layer's first linear map -/
def Z (V : (c : Dev nD) → (b : Ref sig .tc) → Buf (Elt Ideal) ((c : Thread nD τ).loc b)) (c : Dev nD) (r : Fin 100000) (j : Fin 128) : EReal :=
  (∑ k : Fin 128, (hIn V c (ix2 r k) + aggIn V c (ix2 r k)) * wIn V c (ix2 k j)) + bIn V c (ix2 0 j)

/-- The result array after the region. -/
abbrev zOut (V : (c : Dev nD) → (b : Ref sig .tc) → Buf (Elt Ideal) ((c : Thread nD τ).loc b)) (c : Dev nD) : S100000x128.Idx → EReal := (dat0 V c).arrAt 4 cfg0.N
/-- The array of column totals after the region. -/
abbrev sOut (V : (c : Dev nD) → (b : Ref sig .tc) → Buf (Elt Ideal) ((c : Thread nD τ).loc b)) (c : Dev nD) : S1x128.Idx → EReal := (dat0 V c).arrAt 5 cfg0.N
/-- The array of column totals of squares after the region. -/
abbrev qOut (V : (c : Dev nD) → (b : Ref sig .tc) → Buf (Elt Ideal) ((c : Thread nD τ).loc b)) (c : Dev nD) : S1x128.Idx → EReal := (dat0 V c).arrAt 6 cfg0.N

/-! ## The block's arithmetic at an entry -/

/-- The block's linear map at row p, column q: the inner sum over the 128 positions, plus the bias. -/
theorem lin_apply (x0 x1 : Vec Ideal S5000x128 .f32) (x2 : Vec Ideal S128x128 .f32) (x3 : Vec Ideal S1x128 .f32) (p : Fin 5000) (q : Fin 128) :
    k0_pay3 x0 x1 x2 x3 (ix2 p q)
      = (∑ k : Fin 128, (x0 (ix2 p k) + x1 (ix2 p k)) * x2 (ix2 k q)) + x3 (ix2 0 q) := by
  unfold k0_pay3
  refine (addf_apply _ _ _).trans ?_
  refine congrArg₂ (· + ·) ?_ ?_
  · refine (Cert.PlainDot.matmul_apply dot_S5000x128_S128x128_S5000x128_1_0_0_1_n_n ⟨rfl, rfl, rfl, rfl, rfl, rfl⟩ none _ _ p q).trans ?_
    refine Finset.sum_congr rfl fun k _ => ?_
    simp only [truncf_apply, addf_apply, shapeCast_self]
  · refine (broadcastTo_1b_ab_apply _ _ p q).trans ?_
    rw [shapeCast_self]

/-- The running column total after a block: what it held, plus the block's column sum of the linear map. -/
theorem colsum_apply (x0 x1 : Vec Ideal S5000x128 .f32) (x2 : Vec Ideal S128x128 .f32) (x3 : Vec Ideal S1x128 .f32) (xo : Vec Ideal S1x128 .f32) (q : Fin 128) :
    k0_pay4 x0 x1 x2 x3 xo (ix2 0 q) = xo (ix2 0 q) + ∑ p : Fin 5000, k0_pay3 x0 x1 x2 x3 (ix2 p q) := by
  unfold k0_pay4
  refine (addf_apply _ _ _).trans ?_
  refine congrArg₂ (· + ·) ?_ ?_
  · rw [shapeCast_self]
  · refine (shapeCast_a_1a_apply _ _ 0 q).trans ?_
    exact Cert.Lib.column_sum (k0_pay3 x0 x1 x2 x3) reduces_S5000x128_S128 (.inl rfl) rfl q

/-- The running total of squares after a block: what it held, plus the block's column sum of the squared linear map. -/
theorem colsq_apply (x0 x1 : Vec Ideal S5000x128 .f32) (x2 : Vec Ideal S128x128 .f32) (x3 : Vec Ideal S1x128 .f32) (xo : Vec Ideal S1x128 .f32) (q : Fin 128) :
    k0_pay5 x0 x1 x2 x3 xo (ix2 0 q)
      = xo (ix2 0 q) + ∑ p : Fin 5000, k0_pay3 x0 x1 x2 x3 (ix2 p q) * k0_pay3 x0 x1 x2 x3 (ix2 p q) := by
  unfold k0_pay5
  refine (addf_apply _ _ _).trans ?_
  refine congrArg₂ (· + ·) ?_ ?_
  · rw [shapeCast_self]
  · refine (shapeCast_a_1a_apply _ _ 0 q).trans ?_
    refine (Cert.Lib.column_sum (mulf (k0_pay3 x0 x1 x2 x3) (k0_pay3 x0 x1 x2 x3)) reduces_S5000x128_S128 (.inl rfl) rfl q).trans ?_
    rfl

/-- The two rows of totals start at zero. -/
theorem zero_row_s (q : Fin 128) : (k0_pay1 (F := Ideal)) (ix2 0 q) = 0 := Ideal.ofBits_zero_f32
theorem zero_row_q (q : Fin 128) : (k0_pay2 (F := Ideal)) (ix2 0 q) = 0 := Ideal.ofBits_zero_f32

theorem hz : (![0, 0] : Fin 2 → Nat) = fun _ => 0 := funext fun a => by fin_cases a <;> rfl

/-! ## What one grid point leaves in the three output blocks -/

/-- On the first block the result block is the linear map of the four input blocks. -/
theorem first_z (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec Ideal S5000x128 .f32) (x2 : Vec Ideal S128x128 .f32) (x3 : Vec Ideal S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  try sl_unfold_words
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S1x128) hz]

/-- On the first block the row of totals is zeroed and then receives the block's column sums. -/
theorem first_s (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec Ideal S5000x128 .f32) (x2 : Vec Ideal S128x128 .f32) (x3 : Vec Ideal S1x128 .f32) :
    out0_A_5 c i a1 h1 a2 h2 a3 h3 a4 h4 a5 h5 a6 h6 a7 h7 hc x0 x1 x2 x3 = k0_pay4 x0 x1 x2 x3 (k0_pay1 (F := Ideal)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  try sl_unfold_words
  rw [View.canon_cons_unit_zero (S := S1x128) hz]
  simp only [View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- On the first block the row of square totals is zeroed and then receives the block's column sums of squares. -/
theorem first_q (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec Ideal S5000x128 .f32) (x2 : Vec Ideal S128x128 .f32) (x3 : Vec Ideal S1x128 .f32) :
    out0_A_6 c i a1 h1 a2 h2 a3 h3 a4 h4 a5 h5 a6 h6 a7 h7 hc x0 x1 x2 x3 = k0_pay5 x0 x1 x2 x3 (k0_pay2 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  try sl_unfold_words
  rw [View.canon_cons_unit_zero (S := S1x128) hz]
  simp only [View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- On a later block the result block is again the linear map of the four input blocks. -/
theorem later_z (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec Ideal S5000x128 .f32) (x2 : Vec Ideal S128x128 .f32) (x3 : Vec Ideal S1x128 .f32) (xo5 xo6 : Vec Ideal S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- On a later block the row of totals keeps what it held and receives the block's column sums. -/
theorem later_s (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec Ideal S5000x128 .f32) (x2 : Vec Ideal S128x128 .f32) (x3 : Vec Ideal S1x128 .f32) (xo5 xo6 : Vec Ideal S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- On a later block the row of square totals keeps what it held and receives the block's column sums of squares. -/
theorem later_q (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec Ideal S5000x128 .f32) (x2 : Vec Ideal S128x128 .f32) (x3 : Vec Ideal S1x128 .f32) (xo5 xo6 : Vec Ideal S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- The three output blocks after the first grid point. -/
theorem outs_first (V : (c : Dev nD) → (b : Ref sig .tc) → Buf (Elt Ideal) ((c : Thread nD τ).loc b)) (c : Dev nD) (t : Fin cfg0.N) (h0 : t.val % 20 = 0) :
    outsAt0 V c t.val t.isLt
      = (k0_pay3 (iblk0 V c 0 t) (iblk0 V c 1 t) (iblk0 V c 2 t) (iblk0 V c 3 t), k0_pay4 (iblk0 V c 0 t) (iblk0 V c 1 t) (iblk0 V c 2 t) (iblk0 V c 3 t) (k0_pay1 (F := Ideal)), k0_pay5 (iblk0 V c 0 t) (iblk0 V c 1 t) (iblk0 V c 2 t) (iblk0 V c 3 t) (k0_pay2 (F := Ideal))) :=
  (outsAt0_A V c t h0).trans (congrArg₂ Prod.mk
    (first_z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
    (congrArg₂ Prod.mk
      (first_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
      (first_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))))

/-- The three output blocks after a later grid point, over what the point before left in the two rows of totals. -/
theorem outs_later (V : (c : Dev nD) → (b : Ref sig .tc) → Buf (Elt Ideal) ((c : Thread nD τ).loc b)) (c : Dev nD) (t : Fin cfg0.N) (h0 : ¬t.val % 20 = 0) :
    outsAt0 V c t.val t.isLt
      = (k0_pay3 (iblk0 V c 0 t) (iblk0 V c 1 t) (iblk0 V c 2 t) (iblk0 V c 3 t),
         k0_pay4 (iblk0 V c 0 t) (iblk0 V c 1 t) (iblk0 V c 2 t) (iblk0 V c 3 t) (outsAt0 V c (t.val - 1) (Nat.lt_of_le_of_lt (Nat.sub_le _ _) t.isLt)).2.1,
         k0_pay5 (iblk0 V c 0 t) (iblk0 V c 1 t) (iblk0 V c 2 t) (iblk0 V c 3 t) (outsAt0 V c (t.val - 1) (Nat.lt_of_le_of_lt (Nat.sub_le _ _) t.isLt)).2.2) :=
  (outsAt0_B V c t h0).trans (congrArg₂ Prod.mk
    (later_z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) _ _)
    (congrArg₂ Prod.mk
      (later_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) _ _)
      (later_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) _ _)))

/-! ## The input blocks as rows of the arrays -/

/-- Where each window's block sits at grid point t: the three row-blocked windows at block t, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, k) of the node-feature block at point t is row 5000 t + p of the array. -/
theorem blk0_apply (V : (c : Dev nD) → (b : Ref sig .tc) → Buf (Elt Ideal) ((c : Thread nD τ).loc b)) (c : Dev nD) (t : Fin cfg0.N) (p : Fin 5000) (k : Fin 128) (hr : 5000 * t.val + p.val < 100000) :
    (iblk0 V c 0 t : Vec Ideal S5000x128 .f32) (ix2 p k) = hIn V c (ix2 ⟨5000 * t.val + p.val, hr⟩ k) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Entry (p, k) of the aggregated-feature block at point t is row 5000 t + p of the array. -/
theorem blk1_apply (V : (c : Dev nD) → (b : Ref sig .tc) → Buf (Elt Ideal) ((c : Thread nD τ).loc b)) (c : Dev nD) (t : Fin cfg0.N) (p : Fin 5000) (k : Fin 128) (hr : 5000 * t.val + p.val < 100000) :
    (iblk0 V c 1 t : Vec Ideal S5000x128 .f32) (ix2 p k) = aggIn V c (ix2 ⟨5000 * t.val + p.val, hr⟩ k) := by
  obtain ⟨-, -, e0, e1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The weight window is the whole weight matrix at every point. -/
theorem blk2_apply (V : (c : Dev nD) → (b : Ref sig .tc) → Buf (Elt Ideal) ((c : Thread nD τ).loc b)) (c : Dev nD) (t : Fin cfg0.N) (k q : Fin 128) :
    (iblk0 V c 2 t : Vec Ideal S128x128 .f32) (ix2 k q) = wIn V c (ix2 k q) := by
  obtain ⟨-, -, -, -, e0, e1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias window is the whole bias row at every point. -/
theorem blk3_apply (V : (c : Dev nD) → (b : Ref sig .tc) → Buf (Elt Ideal) ((c : Thread nD τ).loc b)) (c : Dev nD) (t : Fin cfg0.N) (q : Fin 128) :
    (iblk0 V c 3 t : Vec Ideal S1x128 .f32) (ix2 0 q) = bIn V c (ix2 0 q) := by
  obtain ⟨-, -, -, -, -, -, e0, e1, -⟩ := idx_facts t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

/-- The linear map along the natural numbers: row n while n is a row, zero past the last row. -/
def Zn (V : (c : Dev nD) → (b : Ref sig .tc) → Buf (Elt Ideal) ((c : Thread nD τ).loc b)) (c : Dev nD) (q : Fin 128) (n : ℕ) : EReal :=
  if h : n < 100000 then Z V c ⟨n, h⟩ q else 0

/-- Entry (p, q) of the block computed at point t is the linear map at row 5000 t + p. -/
theorem lin_eq (V : (c : Dev nD) → (b : Ref sig .tc) → Buf (Elt Ideal) ((c : Thread nD τ).loc b)) (c : Dev nD) (t : Fin cfg0.N) (p : Fin 5000) (q : Fin 128) :
    k0_pay3 (iblk0 V c 0 t) (iblk0 V c 1 t) (iblk0 V c 2 t) (iblk0 V c 3 t) (ix2 p q) = Zn V c q (5000 * t.val + p.val) := by
  have hN : t.val < 20 := lt_of_lt_of_eq t.isLt (show cfg0.N = 20 from N_0)
  have hr : 5000 * t.val + p.val < 100000 := by have := p.isLt; omega
  unfold Zn
  rw [dif_pos hr]
  refine (lin_apply (iblk0 V c 0 t) (iblk0 V c 1 t) (iblk0 V c 2 t) (iblk0 V c 3 t) p q).trans ?_
  unfold Z
  exact congrArg₂ (· + ·)
    (Finset.sum_congr rfl fun k _ => congrArg₂ (· * ·)
      (congrArg₂ (· + ·) (blk0_apply V c t p k hr) (blk1_apply V c t p k hr)) (blk2_apply V c t k q))
    (blk3_apply V c t q)

/-! ## The three output blocks after every grid point -/

/-- After point n the result block is the linear map of the point's input blocks, and the two rows of totals hold
    the sums, over the rows of blocks 0 to n, of the linear map and of its square. -/
theorem outs_inv (V : (c : Dev nD) → (b : Ref sig .tc) → Buf (Elt Ideal) ((c : Thread nD τ).loc b)) (c : Dev nD) : ∀ (n : ℕ) (h : n < cfg0.N),
    (outsAt0 V c n h).1 = k0_pay3 (iblk0 V c 0 ⟨n, h⟩) (iblk0 V c 1 ⟨n, h⟩) (iblk0 V c 2 ⟨n, h⟩) (iblk0 V c 3 ⟨n, h⟩)
    ∧ (∀ q : Fin 128, ((outsAt0 V c n h).2.1 : Vec Ideal S1x128 .f32) (ix2 0 q)
        = 0 + ∑ s ∈ Finset.range (n + 1), ∑ p : Fin 5000, Zn V c q (5000 * s + p.val))
    ∧ (∀ q : Fin 128, ((outsAt0 V c n h).2.2 : Vec Ideal S1x128 .f32) (ix2 0 q)
        = 0 + ∑ s ∈ Finset.range (n + 1), ∑ p : Fin 5000, Zn V c q (5000 * s + p.val) * Zn V c q (5000 * s + p.val))
  | 0, h => by
    have e := outs_first V c ⟨0, h⟩ rfl
    refine ⟨congrArg Prod.fst e, fun q => ?_, fun q => ?_⟩
    · refine (congrFun (congrArg (fun o => o.2.1) e) (ix2 0 q)).trans ?_
      refine (colsum_apply (iblk0 V c 0 ⟨0, h⟩) (iblk0 V c 1 ⟨0, h⟩) (iblk0 V c 2 ⟨0, h⟩) (iblk0 V c 3 ⟨0, h⟩) _ q).trans ?_
      rw [Finset.sum_range_one]
      exact congrArg₂ (· + ·) (zero_row_s q) (Finset.sum_congr rfl fun p _ => lin_eq V c ⟨0, h⟩ p q)
    · refine (congrFun (congrArg (fun o => o.2.2) e) (ix2 0 q)).trans ?_
      refine (colsq_apply (iblk0 V c 0 ⟨0, h⟩) (iblk0 V c 1 ⟨0, h⟩) (iblk0 V c 2 ⟨0, h⟩) (iblk0 V c 3 ⟨0, h⟩) _ q).trans ?_
      rw [Finset.sum_range_one]
      exact congrArg₂ (· + ·) (zero_row_q q) (Finset.sum_congr rfl fun p _ => by rw [lin_eq V c ⟨0, h⟩ p q])
  | n + 1, h => by
    have hN : cfg0.N = 20 := N_0
    have hB : ¬(⟨n + 1, h⟩ : Fin cfg0.N).val % 20 = 0 := by dsimp only; omega
    obtain ⟨-, ih5, ih6⟩ := outs_inv V c n (Nat.lt_of_succ_lt h)
    have e := outs_later V c ⟨n + 1, h⟩ hB
    refine ⟨congrArg Prod.fst e, fun q => ?_, fun q => ?_⟩
    · refine (congrFun (congrArg (fun o => o.2.1) e) (ix2 0 q)).trans ?_
      refine (colsum_apply (iblk0 V c 0 ⟨n + 1, h⟩) (iblk0 V c 1 ⟨n + 1, h⟩) (iblk0 V c 2 ⟨n + 1, h⟩) (iblk0 V c 3 ⟨n + 1, h⟩) _ q).trans ?_
      rw [Finset.sum_range_succ _ (n + 1), ← add_assoc]
      exact congrArg₂ (· + ·) (ih5 q) (Finset.sum_congr rfl fun p _ => lin_eq V c ⟨n + 1, h⟩ p q)
    · refine (congrFun (congrArg (fun o => o.2.2) e) (ix2 0 q)).trans ?_
      refine (colsq_apply (iblk0 V c 0 ⟨n + 1, h⟩) (iblk0 V c 1 ⟨n + 1, h⟩) (iblk0 V c 2 ⟨n + 1, h⟩) (iblk0 V c 3 ⟨n + 1, h⟩) _ q).trans ?_
      rw [Finset.sum_range_succ _ (n + 1), ← add_assoc]
      exact congrArg₂ (· + ·) (ih6 q) (Finset.sum_congr rfl fun p _ => by rw [lin_eq V c ⟨n + 1, h⟩ p q])

/-! ## The result array: every point writes its block of the linear map back -/

/-- The linear map as one array of 100000 rows. -/
def G4 (V : (c : Dev nD) → (b : Ref sig .tc) → Buf (Elt Ideal) ((c : Thread nD τ).loc b)) (c : Dev nD) : Buf (Elt Ideal) ((c : Thread nD τ).loc main_v19_0) :=
  fun (i : S100000x128.Idx) => Z V c (i 0) (i 1)

/-- What point t writes back is rows 5000 t to 5000 t + 4999 of the linear map. -/
theorem flushed4 (V : (c : Dev nD) → (b : Ref sig .tc) → Buf (Elt Ideal) ((c : Thread nD τ).loc b)) (c : Dev nD) (t : Fin cfg0.N) :
    (dat0 V c).flushed 4 t = ((cfg0.win 4).blk t).view.read (Elt Ideal) (G4 V c) := by
  have hN : t.val < 20 := lt_of_lt_of_eq t.isLt (show cfg0.N = 20 from N_0)
  obtain ⟨-, -, -, -, -, -, -, -, e0, e1⟩ := idx_facts t
  show (cfg0.win 4).cut (grid0.coords t) ((dat0 V c).after 4 t) = _
  rw [after0_4, (outs_inv V c t.val t.isLt).1]
  funext y
  obtain ⟨p, q, rfl⟩ : ∃ (p : Fin 5000) (q : Fin 128), y = ix2 p q := ⟨y 0, y 1, eq_ix2 y⟩
  have hr : 5000 * t.val + p.val < 100000 := by have := p.isLt; omega
  rw [View.read_apply]
  refine (lin_eq V c t p q).trans ?_
  unfold Zn
  rw [dif_pos hr]
  show Z V c ⟨5000 * t.val + p.val, hr⟩ q = Z V c _ _
  refine congrArg₂ (Z V c) (Fin.ext ?_) (Fin.ext ?_)
  · show 5000 * t.val + p.val = win0_4.index t (0 : Fin 2) * 5000 + 1 * p.val
    rw [e0]; omega
  · show q.val = win0_4.index t (1 : Fin 2) * 128 + 1 * q.val
    rw [e1]; omega

/-- A row index lies in point t's block exactly when each coordinate lies in the block's range. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v19_0).slice (win0_4.rect t)).set ↔ _
  rw [View.set_slice_whole, Rect.mem_set_unit]
  exact Iff.rfl

/-- The twenty blocks cover the array (row r is in block r / 5000), so the array ends holding the linear map. -/
theorem final4 (V : (c : Dev nD) → (b : Ref sig .tc) → Buf (Elt Ideal) ((c : Thread nD τ).loc b)) (c : Dev nD) : (dat0 V c).arrAt 4 cfg0.N = G4 V c :=
  (dat0 V c).arrAt_eq_of_cover 4 (G4 V c) (fun t _ => flushed4 V c t) fun i => by
    have hi0 : (i 0 : Nat) < 100000 := (i 0).isLt
    have hi1 : (i 1 : Nat) < 128 := (i 1).isLt
    have hlt : (i 0 : Nat) / 5000 < cfg0.N := by rw [show cfg0.N = 20 from N_0]; omega
    refine ⟨⟨(i 0 : Nat) / 5000, hlt⟩, flush0_4 _, ?_⟩
    obtain ⟨-, -, -, -, -, -, -, -, e0, e1⟩ := idx_facts ⟨(i 0 : Nat) / 5000, hlt⟩
    rw [mem_blk4]
    intro a
    match a with
    | ⟨0, _⟩ =>
      show win0_4.index ⟨(i 0 : Nat) / 5000, hlt⟩ (0 : Fin 2) * 5000 ≤ (i 0 : Nat) ∧ (i 0 : Nat) < win0_4.index ⟨(i 0 : Nat) / 5000, hlt⟩ (0 : Fin 2) * 5000 + 5000
      rw [e0]; dsimp only; omega
    | ⟨1, _⟩ =>
      show win0_4.index ⟨(i 0 : Nat) / 5000, hlt⟩ (1 : Fin 2) * 128 ≤ (i 1 : Nat) ∧ (i 1 : Nat) < win0_4.index ⟨(i 0 : Nat) / 5000, hlt⟩ (1 : Fin 2) * 128 + 128
      rw [e1]; omega

/-! ## The two rows of totals: written back once, after the last point -/

theorem last_lt : 19 < cfg0.N := by rw [show cfg0.N = 20 from N_0]; decide

/-- The last grid point. -/
abbrev tLast : Fin cfg0.N := ⟨19, last_lt⟩

/-- The row of column totals after the last point. -/
def R5 (V : (c : Dev nD) → (b : Ref sig .tc) → Buf (Elt Ideal) ((c : Thread nD τ).loc b)) (c : Dev nD) : Buf (Elt Ideal) ((c : Thread nD τ).loc main_v19_1) := (outsAt0 V c 19 last_lt).2.1

/-- The row of totals of squares after the last point. -/
def R6 (V : (c : Dev nD) → (b : Ref sig .tc) → Buf (Elt Ideal) ((c : Thread nD τ).loc b)) (c : Dev nD) : Buf (Elt Ideal) ((c : Thread nD τ).loc main_v19_2) := (outsAt0 V c 19 last_lt).2.2

/-- The one write-back of the row of totals, at the last point, writes the whole row. -/
theorem flushed5 (V : (c : Dev nD) → (b : Ref sig .tc) → Buf (Elt Ideal) ((c : Thread nD τ).loc b)) (c : Dev nD) (t : Fin cfg0.N) (hf : (cfg0.win 5).flush t = true) :
    (dat0 V c).flushed 5 t = ((cfg0.win 5).blk t).view.read (Elt Ideal) (R5 V c) := by
  have hN : cfg0.N = 20 := N_0
  have h19 : t.val = 19 := by have := (flush0_5 t).mp hf; have := t.isLt; omega
  obtain rfl : t = tLast := Fin.ext h19
  show (cfg0.win 5).cut (grid0.coords tLast) ((dat0 V c).after 5 tLast) = _
  rw [after0_5]
  have hz' : (fun a => win0_5.index tLast a * main_v19_1.ty.shape.size a) = fun _ => 0 := funext fun a => by fin_cases a <;> decide +kernel
  exact (Memref.read_access_unit_zero (Elt Ideal) main_v19_1 hz' (fun a => by rw [congrFun hz' a]; simp) (R5 V c)).symm

/-- The one write-back of the row of square totals, at the last point, writes the whole row. -/
theorem flushed6 (V : (c : Dev nD) → (b : Ref sig .tc) → Buf (Elt Ideal) ((c : Thread nD τ).loc b)) (c : Dev nD) (t : Fin cfg0.N) (hf : (cfg0.win 6).flush t = true) :
    (dat0 V c).flushed 6 t = ((cfg0.win 6).blk t).view.read (Elt Ideal) (R6 V c) := by
  have hN : cfg0.N = 20 := N_0
  have h19 : t.val = 19 := by have := (flush0_6 t).mp hf; have := t.isLt; omega
  obtain rfl : t = tLast := Fin.ext h19
  show (cfg0.win 6).cut (grid0.coords tLast) ((dat0 V c).after 6 tLast) = _
  rw [after0_6]
  have hz' : (fun a => win0_6.index tLast a * main_v19_2.ty.shape.size a) = fun _ => 0 := funext fun a => by fin_cases a <;> decide +kernel
  exact (Memref.read_access_unit_zero (Elt Ideal) main_v19_2 hz' (fun a => by rw [congrFun hz' a]; simp) (R6 V c)).symm

/-- The last point's block is the whole row, so the array ends holding the row of totals. -/
theorem final5 (V : (c : Dev nD) → (b : Ref sig .tc) → Buf (Elt Ideal) ((c : Thread nD τ).loc b)) (c : Dev nD) : (dat0 V c).arrAt 5 cfg0.N = R5 V c :=
  (dat0 V c).arrAt_eq_of_cover 5 (R5 V c) (flushed5 V c) fun i =>
    ⟨tLast, (flush0_5 tLast).mpr rfl, by
      show i ∈ ((View.whole main_v19_1).slice (win0_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 128 from by decide +kernel]; omega⟩

/-- Likewise the array of square totals ends holding the row of totals of squares. -/
theorem final6 (V : (c : Dev nD) → (b : Ref sig .tc) → Buf (Elt Ideal) ((c : Thread nD τ).loc b)) (c : Dev nD) : (dat0 V c).arrAt 6 cfg0.N = R6 V c :=
  (dat0 V c).arrAt_eq_of_cover 6 (R6 V c) (flushed6 V c) fun i =>
    ⟨tLast, (flush0_6 tLast).mpr rfl, by
      show i ∈ ((View.whole main_v19_2).slice (win0_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 128 from by decide +kernel]; omega⟩

/-! ## The three arrays after the region -/

/-- The result array holds the linear map. -/
theorem final_z (V : (c : Dev nD) → (b : Ref sig .tc) → Buf (Elt Ideal) ((c : Thread nD τ).loc b)) (c : Dev nD) (r : Fin 100000) (j : Fin 128) : zOut V c (ix2 r j) = Z V c r j :=
  congrFun (final4 V c) (ix2 r j)

/-- The array of column totals holds, at column j, the sum of the linear map over all rows. -/
theorem final_s (V : (c : Dev nD) → (b : Ref sig .tc) → Buf (Elt Ideal) ((c : Thread nD τ).loc b)) (c : Dev nD) (j : Fin 128) : sOut V c (ix2 0 j) = ∑ r : Fin 100000, Z V c r j :=
  (congrFun (final5 V c) (ix2 0 j)).trans (((outs_inv V c 19 last_lt).2.1 j).trans
    (Cert.BlockSum.sum_20x5000 (fun r => Z V c r j) (Zn V c j) fun n => dif_pos n.isLt))

/-- The array of totals of squares holds, at column j, the sum of the squared linear map over all rows. -/
theorem final_q (V : (c : Dev nD) → (b : Ref sig .tc) → Buf (Elt Ideal) ((c : Thread nD τ).loc b)) (c : Dev nD) (j : Fin 128) : qOut V c (ix2 0 j) = ∑ r : Fin 100000, Z V c r j * Z V c r j :=
  (congrFun (final6 V c) (ix2 0 j)).trans (((outs_inv V c 19 last_lt).2.2 j).trans
    (Cert.BlockSum.sum_20x5000 (fun r => Z V c r j * Z V c r j) (fun n => Zn V c j n * Zn V c j n)
      fun n => by show Zn V c j n.val * Zn V c j n.val = _; unfold Zn; rw [dif_pos n.isLt]))

/-- The region's contract: the result array is the linear map of the sum of the two feature arrays, and the two
    rows of totals are its column sums and the column sums of its squares. -/
theorem contract (V : (c : Dev nD) → (b : Ref sig .tc) → Buf (Elt Ideal) ((c : Thread nD τ).loc b)) (c : Dev nD) :
    cur2 (a := 100000) (b := 128) ((dat0 V c).arrAt 4 cfg0.N) = lin (fun r k => cur2 (a := 100000) (b := 128) (V c (Pipeline.arrRef spec0 0)) r k + cur2 (a := 100000) (b := 128) (V c (Pipeline.arrRef spec0 1)) r k) (cur2 (a := 128) (b := 128) (V c (Pipeline.arrRef spec0 2))) (row (a := 128) (V c (Pipeline.arrRef spec0 3)))
    ∧ row (a := 128) ((dat0 V c).arrAt 5 cfg0.N) = (fun j => ∑ r, cur2 (a := 100000) (b := 128) ((dat0 V c).arrAt 4 cfg0.N) r j)
    ∧ row (a := 128) ((dat0 V c).arrAt 6 cfg0.N) = (fun j => ∑ r, cur2 (a := 100000) (b := 128) ((dat0 V c).arrAt 4 cfg0.N) r j * cur2 (a := 100000) (b := 128) ((dat0 V c).arrAt 4 cfg0.N) r j) := by
  have hz : ∀ (r : Fin 100000) (j : Fin 128), cur2 (a := 100000) (b := 128) ((dat0 V c).arrAt 4 cfg0.N) r j = Z V c r j :=
    fun r j => by unfold Cert.Lib.cur2; exact final_z V c r j
  have hs : ∀ j : Fin 128, row (a := 128) ((dat0 V c).arrAt 5 cfg0.N) j = ∑ r : Fin 100000, Z V c r j :=
    fun j => by unfold Cert.Lib.row; exact final_s V c j
  have hq : ∀ j : Fin 128, row (a := 128) ((dat0 V c).arrAt 6 cfg0.N) j = ∑ r : Fin 100000, Z V c r j * Z V c r j :=
    fun j => by unfold Cert.Lib.row; exact final_q V c j
  refine ⟨funext fun r => funext fun j => (hz r j).trans rfl, funext fun j => ?_, funext fun j => ?_⟩
  · exact (hs j).trans (Finset.sum_congr rfl fun r _ => (hz r j).symm)
  · exact (hq j).trans (Finset.sum_congr rfl fun r _ => by rw [hz r j])

end Cert.KernelIdeal.FirstLinear0

end
-- ==== Proof.RegionBnReluLinear1.lean ====
import proofs.«120577_j28003186770423_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«120577_j28003186770423_1_alg».proof.Proof.LibPlainDot
import proofs.«120577_j28003186770423_1_alg».proof.Proof.LibColumnSum
import proofs.«120577_j28003186770423_1_alg».proof.Proof.LibBlockSum
import proofs.«120577_j28003186770423_1_alg».proof.Proof.LibCurry
import proofs.«120577_j28003186770423_1_alg».proof.Proof.GinMath

/-!
# The second linear map of a layer, with its column sums

A [100000, 128] array z is normalised column by column (subtract the column's mean, scale by the inverse square root of
its variance plus a small constant, multiply by a gain, add an offset), rectified, multiplied by a [128, 128] matrix and
shifted by a row vector.  The rows are processed in twenty blocks of five thousand.  Besides the product itself the
region leaves, for every column, the sum of the product's entries over all hundred thousand rows and the sum of their
squares: two one-row accumulators are set to zero at the first block and each block adds its own column sums to them.

This file reads the three results at an entry: the product entry (r, j) depends on row r of z alone; the two row vectors
are sums over all rows, the twenty partial sums regrouped into one by commutativity and associativity of addition.
-/

set_option maxRecDepth 16384

noncomputable section

namespace Cert.KernelIdeal.BnReluLinear1

open Idealize.ShloMosaic Idealize.ShloMosaic.TcCoe Idealize.ShloMosaic.ValueIdx Idealize.SL.Sem Cert.KernelIdeal Cert.KernelIdeal.Gen
open Idealize.ShloMosaic.Pipeline (Dat)

/-! The seven input arrays as the region finds them, each as a function of its index into the extended reals. -/

/-- the [100000, 128] array z the region normalises -/
abbrev zIn (V : (c : Dev nD) → (b : Ref sig .tc) → Buf (Elt Ideal) ((c : Thread nD τ).loc b)) (c : Dev nD) : S100000x128.Idx → EReal := V c (Pipeline.arrRef spec1 0)
/-- the row of column means -/
abbrev meanIn (V : (c : Dev nD) → (b : Ref sig .tc) → Buf (Elt Ideal) ((c : Thread nD τ).loc b)) (c : Dev nD) : S1x128.Idx → EReal := V c (Pipeline.arrRef spec1 1)
/-- the row of column variances -/
abbrev varIn (V : (c : Dev nD) → (b : Ref sig .tc) → Buf (Elt Ideal) ((c : Thread nD τ).loc b)) (c : Dev nD) : S1x128.Idx → EReal := V c (Pipeline.arrRef spec1 2)
/-- the row of gains -/
abbrev gainIn (V : (c : Dev nD) → (b : Ref sig .tc) → Buf (Elt Ideal) ((c : Thread nD τ).loc b)) (c : Dev nD) : S1x128.Idx → EReal := V c (Pipeline.arrRef spec1 3)
/-- the row of offsets -/
abbrev biasIn (V : (c : Dev nD) → (b : Ref sig .tc) → Buf (Elt Ideal) ((c : Thread nD τ).loc b)) (c : Dev nD) : S1x128.Idx → EReal := V c (Pipeline.arrRef spec1 4)
/-- the [128, 128] matrix -/
abbrev wIn (V : (c : Dev nD) → (b : Ref sig .tc) → Buf (Elt Ideal) ((c : Thread nD τ).loc b)) (c : Dev nD) : S128x128.Idx → EReal := V c (Pipeline.arrRef spec1 5)
/-- the row added after the product -/
abbrev shiftIn (V : (c : Dev nD) → (b : Ref sig .tc) → Buf (Elt Ideal) ((c : Thread nD τ).loc b)) (c : Dev nD) : S1x128.Idx → EReal := V c (Pipeline.arrRef spec1 6)

/-- entry (r, k) of the normalized, rectified activations -/
def Act (V : (c : Dev nD) → (b : Ref sig .tc) → Buf (Elt Ideal) ((c : Thread nD τ).loc b)) (c : Dev nD) (r : Fin 100000) (k : Fin 128) : EReal :=
  max (((zIn V c (ix2 r k) - meanIn V c (ix2 0 k))
         * Ideal.rsqrt (varIn V c (ix2 0 k) + Ideal.ofBits .f32 0x3727C5AC#32))
        * gainIn V c (ix2 0 k)
       + biasIn V c (ix2 0 k)) (Ideal.ofBits .f32 0x00000000#32)

/-- entry (r, j) of the layer's second linear map -/
def Z (V : (c : Dev nD) → (b : Ref sig .tc) → Buf (Elt Ideal) ((c : Thread nD τ).loc b)) (c : Dev nD) (r : Fin 100000) (j : Fin 128) : EReal :=
  (∑ k : Fin 128, Act V c r k * wIn V c (ix2 k j)) + shiftIn V c (ix2 0 j)

/-! ## The body's arithmetic at an entry -/

/-- one activation from an entry of z and its column's mean, variance, gain and offset -/
def actOf (z mean var g b : EReal) : EReal :=
  max ((((z - mean) * Ideal.rsqrt (var + Ideal.ofBits .f32 0x3727C5AC#32)) * g) + b) (Ideal.ofBits .f32 0x00000000#32)

/-- the product's dimension numbers: the left operand's columns against the right operand's rows, no batch axis -/
theorem plain : Cert.PlainDot.IsPlain (M := 5000) (K := 128) (N := 128) dot_S5000x128_S128x128_S5000x128_1_0_0_1_n_n :=
  ⟨rfl, rfl, rfl, rfl, rfl, rfl⟩

/-- Entry (p, q) of a block of the product: the sum over k of the activation (p, k) times the matrix entry (k, q), plus
    the shift at q.  The activation at (p, k) uses row p of the block of z and column k of the four parameter rows. -/
theorem pay5_apply (x0 : Vec Ideal S5000x128 .f32) (xvar xmean xg xb : Vec Ideal S1x128 .f32) (xw : Vec Ideal S128x128 .f32)
    (xc : Vec Ideal S1x128 .f32) (p : Fin 5000) (q : Fin 128) :
    k1_pay5 (F := Ideal) x0 xvar xmean xg xb xw xc (ix2 p q)
      = (∑ k : Fin 128, actOf (x0 (ix2 p k)) (xmean (ix2 0 k)) (xvar (ix2 0 k)) (xg (ix2 0 k)) (xb (ix2 0 k)) * xw (ix2 k q)) + xc (ix2 0 q) := by
  unfold k1_pay5
  simp only [shapeCast_self]
  refine (congrArg₂ (· + ·) (Cert.PlainDot.matmul_apply _ plain none _ _ p q) (broadcastTo_1b_ab_apply _ _ p q)).trans ?_
  refine congrArg (· + xc (ix2 0 q)) (Finset.sum_congr rfl fun k _ => ?_)
  refine congrArg (· * xw (ix2 k q)) ?_
  simp only [truncf_apply, maximumf_apply, addf_apply, mulf_apply, subf_apply, broadcast_apply, broadcastTo_1b_ab_apply]
  rfl

/-- the running column sums after a block: what they held plus the block's column sums -/
theorem pay1_apply (v34 : FVec Ideal S5000x128 .f32) (v36 : Vec Ideal S1x128 .f32) (j : Fin 128) :
    k1_pay1 (F := Ideal) v34 v36 (ix2 0 j) = v36 (ix2 0 j) + ∑ r : Fin 5000, v34 (ix2 r j) := by
  unfold k1_pay1
  simp only [shapeCast_self]
  refine congrArg (v36 (ix2 0 j) + ·) ?_
  refine (shapeCast_a_1a_apply _ _ 0 j).trans ?_
  exact Cert.Lib.column_sum v34 _ _ _ j

/-- the running column sums of squares after a block -/
theorem pay2_apply (v34 : FVec Ideal S5000x128 .f32) (v42 : Vec Ideal S1x128 .f32) (j : Fin 128) :
    k1_pay2 (F := Ideal) v34 v42 (ix2 0 j) = v42 (ix2 0 j) + ∑ r : Fin 5000, v34 (ix2 r j) * v34 (ix2 r j) := by
  unfold k1_pay2
  simp only [shapeCast_self]
  refine congrArg (v42 (ix2 0 j) + ·) ?_
  refine (shapeCast_a_1a_apply _ _ 0 j).trans ?_
  exact Cert.Lib.column_sum (mulf v34 v34) _ _ _ j

/-- the first block starts both accumulators from zero -/
theorem pay3_apply (j : Fin 128) : k1_pay3 (F := Ideal) (ix2 0 j) = 0 := by
  unfold k1_pay3
  exact Ideal.ofBits_zero_f32

theorem pay4_apply (j : Fin 128) : k1_pay4 (F := Ideal) (ix2 0 j) = 0 := by
  unfold k1_pay4
  exact Ideal.ofBits_zero_f32

/-! ## What each of the two control cases leaves in the three output blocks -/

section Cases

variable {F : FTy → Type} [FloatOps F]

theorem hz : (![0, 0] : Fin 2 → Nat) = fun _ => 0 := funext fun a => by fin_cases a <;> rfl

/-- first block: the product block -/
theorem outA7 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond1_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out1_A_7 c i arg1 harg1 arg2 harg2 arg3 harg3 arg4 harg4 arg5 harg5 arg6 harg6 arg7 harg7 arg8 harg8 arg9 harg9 arg10 harg10 hc0 x0 x1 x2 x3 x4 x5 x6 = k1_pay5 x0 x2 x1 x3 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- first block: the column sums start from the zero row -/
theorem outA8 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond1_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out1_A_8 c i arg1 harg1 arg2 harg2 arg3 harg3 arg4 harg4 arg5 harg5 arg6 harg6 arg7 harg7 arg8 harg8 arg9 harg9 arg10 harg10 hc0 x0 x1 x2 x3 x4 x5 x6 = k1_pay1 (k1_pay5 x0 x2 x1 x3 x4 x5 x6) (k1_pay3 (F := F)) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- first block: the column sums of squares start from the zero row -/
theorem outA9 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond1_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out1_A_9 c i arg1 harg1 arg2 harg2 arg3 harg3 arg4 harg4 arg5 harg5 arg6 harg6 arg7 harg7 arg8 harg8 arg9 harg9 arg10 harg10 hc0 x0 x1 x2 x3 x4 x5 x6 = k1_pay2 (k1_pay5 x0 x2 x1 x3 x4 x5 x6) (k1_pay4 (F := F)) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- later block: the product block -/
theorem outB7 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out1_B_7 c i arg1 harg1 arg2 harg2 arg3 harg3 arg4 harg4 arg5 harg5 arg6 harg6 arg7 harg7 arg8 harg8 arg9 harg9 arg10 harg10 hc0 x0 x1 x2 x3 x4 x5 x6 xo8 xo9 = k1_pay5 x0 x2 x1 x3 x4 x5 x6 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

/-- later block: the column sums carried from the block before, plus this block's -/
theorem outB8 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out1_B_8 c i arg1 harg1 arg2 harg2 arg3 harg3 arg4 harg4 arg5 harg5 arg6 harg6 arg7 harg7 arg8 harg8 arg9 harg9 arg10 harg10 hc0 x0 x1 x2 x3 x4 x5 x6 xo8 xo9 = k1_pay1 (k1_pay5 x0 x2 x1 x3 x4 x5 x6) xo8 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

/-- later block: the column sums of squares carried from the block before, plus this block's -/
theorem outB9 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out1_B_9 c i arg1 harg1 arg2 harg2 arg3 harg3 arg4 harg4 arg5 harg5 arg6 harg6 arg7 harg7 arg8 harg8 arg9 harg9 arg10 harg10 hc0 x0 x1 x2 x3 x4 x5 x6 xo8 xo9 = k1_pay2 (k1_pay5 x0 x2 x1 x3 x4 x5 x6) xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

end Cases

/-! ## The blocks the body reads, as entries of the arrays -/

variable (V : (c : Dev nD) → (b : Ref sig .tc) → Buf (Elt Ideal) ((c : Thread nD τ).loc b))

/-! Block indices, decided once over the twenty grid points: the two row-blocked windows (the input z and the product)
    are at block t of the rows at point t; every other window stays at its one block. -/

theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = 0 ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = t.val ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = 0 ∧ win1_9.index t (1 : Fin 2) = 0 :=
  (by decide +kernel : ∀ t : Fin grid1.N, _)

/-- entry (p, k) of block t of z is entry (5000 t + p, k) of z -/
theorem iblk_z (c : Dev nD) (t : Fin cfg1.N) (p : Fin 5000) (k : Fin 128) (hb : 5000 * t.val + p.val < 100000) :
    (iblk1 V c 0 t : Vec Ideal S5000x128 .f32) (ix2 p k)
      = zIn V c (ix2 ⟨5000 * t.val + p.val, hb⟩ k) := by
  obtain ⟨e0, e1⟩ := idx_0 t
  show zIn V c (((cfg1.win 0).blk t).view.emb (ix2 p k)) = _
  refine congrArg (zIn V c) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- window 1 (the column means) is one row, the same at every grid point -/
theorem iblk_row1 (c : Dev nD) (t : Fin cfg1.N) (k : Fin 128) :
    (iblk1 V c 1 t : Vec Ideal S1x128 .f32) (ix2 0 k) = meanIn V c (ix2 0 k) := by
  obtain ⟨e0, e1⟩ := idx_1 t
  show meanIn V c (((cfg1.win 1).blk t).view.emb (ix2 0 k)) = _
  refine congrArg (meanIn V c) (funext fun a => Fin.ext ?_)
  match a with
  | ⟨0, _⟩ => show win1_1.index t (0 : Fin 2) * 1 + 1 * 0 = 0; rw [e0]
  | ⟨1, _⟩ => show win1_1.index t (1 : Fin 2) * 128 + 1 * k.val = k.val; rw [e1]; omega

/-- window 2 (the column variances) is one row, the same at every grid point -/
theorem iblk_row2 (c : Dev nD) (t : Fin cfg1.N) (k : Fin 128) :
    (iblk1 V c 2 t : Vec Ideal S1x128 .f32) (ix2 0 k) = varIn V c (ix2 0 k) := by
  obtain ⟨e0, e1⟩ := idx_2 t
  show varIn V c (((cfg1.win 2).blk t).view.emb (ix2 0 k)) = _
  refine congrArg (varIn V c) (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- window 3 (the gains) is one row, the same at every grid point -/
theorem iblk_row3 (c : Dev nD) (t : Fin cfg1.N) (k : Fin 128) :
    (iblk1 V c 3 t : Vec Ideal S1x128 .f32) (ix2 0 k) = gainIn V c (ix2 0 k) := by
  obtain ⟨e0, e1⟩ := idx_3 t
  show gainIn V c (((cfg1.win 3).blk t).view.emb (ix2 0 k)) = _
  refine congrArg (gainIn V c) (funext fun a => Fin.ext ?_)
  match a with
  | ⟨0, _⟩ => show win1_3.index t (0 : Fin 2) * 1 + 1 * 0 = 0; rw [e0]
  | ⟨1, _⟩ => show win1_3.index t (1 : Fin 2) * 128 + 1 * k.val = k.val; rw [e1]; omega

/-- window 4 (the offsets) is one row, the same at every grid point -/
theorem iblk_row4 (c : Dev nD) (t : Fin cfg1.N) (k : Fin 128) :
    (iblk1 V c 4 t : Vec Ideal S1x128 .f32) (ix2 0 k) = biasIn V c (ix2 0 k) := by
  obtain ⟨e0, e1⟩ := idx_4 t
  show biasIn V c (((cfg1.win 4).blk t).view.emb (ix2 0 k)) = _
  refine congrArg (biasIn V c) (funext fun a => Fin.ext ?_)
  match a with
  | ⟨0, _⟩ => show win1_4.index t (0 : Fin 2) * 1 + 1 * 0 = 0; rw [e0]
  | ⟨1, _⟩ => show win1_4.index t (1 : Fin 2) * 128 + 1 * k.val = k.val; rw [e1]; omega

/-- window 6 (the shift) is one row, the same at every grid point -/
theorem iblk_row6 (c : Dev nD) (t : Fin cfg1.N) (k : Fin 128) :
    (iblk1 V c 6 t : Vec Ideal S1x128 .f32) (ix2 0 k) = shiftIn V c (ix2 0 k) := by
  obtain ⟨e0, e1⟩ := idx_6 t
  show shiftIn V c (((cfg1.win 6).blk t).view.emb (ix2 0 k)) = _
  refine congrArg (shiftIn V c) (funext fun a => Fin.ext ?_)
  match a with
  | ⟨0, _⟩ => show win1_6.index t (0 : Fin 2) * 1 + 1 * 0 = 0; rw [e0]
  | ⟨1, _⟩ => show win1_6.index t (1 : Fin 2) * 128 + 1 * k.val = k.val; rw [e1]; omega

/-- window 5 is the whole [128, 128] matrix at every grid point -/
theorem iblk_w (c : Dev nD) (t : Fin cfg1.N) (k q : Fin 128) :
    (iblk1 V c 5 t : Vec Ideal S128x128 .f32) (ix2 k q) = wIn V c (ix2 k q) := by
  obtain ⟨e0, e1⟩ := idx_5 t
  show wIn V c (((cfg1.win 5).blk t).view.emb (ix2 k q)) = _
  refine congrArg (wIn V c) (funext fun a => Fin.ext ?_)
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-! ## The product block of a grid point, and the running sums -/

/-- the product block the body computes at point t -/
noncomputable def blockZ (c : Dev nD) (t : Fin cfg1.N) : Vec Ideal S5000x128 .f32 :=
  k1_pay5 (F := Ideal) (iblk1 V c 0 t) (iblk1 V c 2 t) (iblk1 V c 1 t) (iblk1 V c 3 t) (iblk1 V c 4 t) (iblk1 V c 5 t) (iblk1 V c 6 t)

/-- the product's entry (n, j) for a row number n, zero past the last row (never used there) -/
noncomputable def Zn (c : Dev nD) (n : ℕ) (j : Fin 128) : EReal := if h : n < 100000 then Z V c ⟨n, h⟩ j else 0

theorem Zn_val (c : Dev nD) (n : Fin 100000) (j : Fin 128) : Zn V c n.val j = Z V c n j := dif_pos n.isLt

/-- entry (p, q) of the product block at point t is the product's entry (5000 t + p, q) -/
theorem blockZ_apply (c : Dev nD) (t : Fin cfg1.N) (p : Fin 5000) (q : Fin 128) :
    blockZ V c t (ix2 p q) = Zn V c (5000 * t.val + p.val) q := by
  have hN : t.val < 20 := lt_of_lt_of_eq t.isLt (show cfg1.N = 20 from N_1)
  have hb : 5000 * t.val + p.val < 100000 := by have := p.isLt; omega
  unfold Zn
  rw [dif_pos hb]
  unfold blockZ Z
  refine (pay5_apply (iblk1 V c 0 t) (iblk1 V c 2 t) (iblk1 V c 1 t) (iblk1 V c 3 t) (iblk1 V c 4 t) (iblk1 V c 5 t) (iblk1 V c 6 t) p q).trans ?_
  refine congrArg₂ (· + ·) (Finset.sum_congr rfl fun k _ => congrArg₂ (· * ·) ?_ (iblk_w V c t k q)) (iblk_row6 V c t q)
  show actOf _ _ _ _ _ = Act V c ⟨5000 * t.val + p.val, hb⟩ k
  rw [iblk_z V c t p k hb, iblk_row1 V c t k, iblk_row2 V c t k, iblk_row3 V c t k, iblk_row4 V c t k]
  rfl

/-- column j of block s of the product, summed over the block's rows -/
noncomputable def colS (c : Dev nD) (s : ℕ) (j : Fin 128) : EReal := ∑ r : Fin 5000, Zn V c (5000 * s + r.val) j

/-- the same for the squares -/
noncomputable def colQ (c : Dev nD) (s : ℕ) (j : Fin 128) : EReal :=
  ∑ r : Fin 5000, Zn V c (5000 * s + r.val) j * Zn V c (5000 * s + r.val) j

/-- After point n the first output block is the product block of point n, and the two accumulators hold, from zero, the
    column sums (and sums of squares) of blocks 0 to n: by induction on the point, the first point resetting and every
    later point adding to what the point before left. -/
theorem outs_eq (c : Dev nD) : ∀ (n : ℕ) (h : n < cfg1.N),
    (outsAt1 V c n h).1 = blockZ V c ⟨n, h⟩
    ∧ (∀ j : Fin 128, ((outsAt1 V c n h).2.1 : S1x128.Idx → EReal) (ix2 0 j) = 0 + ∑ s ∈ Finset.range (n + 1), colS V c s j)
    ∧ (∀ j : Fin 128, ((outsAt1 V c n h).2.2 : S1x128.Idx → EReal) (ix2 0 j) = 0 + ∑ s ∈ Finset.range (n + 1), colQ V c s j)
  | 0, h => by
    have e := outsAt1_A V c (⟨0, h⟩ : Fin cfg1.N) rfl
    rw [outA7 (F := Ideal) c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) (ms1_6 (⟨0, h⟩ : Fin cfg1.N)) (hs1_6 (⟨0, h⟩ : Fin cfg1.N)) (ms1_7 (⟨0, h⟩ : Fin cfg1.N)) (hs1_7 (⟨0, h⟩ : Fin cfg1.N)) (ms1_8 (⟨0, h⟩ : Fin cfg1.N)) (hs1_8 (⟨0, h⟩ : Fin cfg1.N)) (ms1_9 (⟨0, h⟩ : Fin cfg1.N)) (hs1_9 (⟨0, h⟩ : Fin cfg1.N)) ((hcond1_0 (⟨0, h⟩ : Fin cfg1.N)).mpr rfl) (iblk1 V c 0 (⟨0, h⟩ : Fin cfg1.N)) (iblk1 V c 1 (⟨0, h⟩ : Fin cfg1.N)) (iblk1 V c 2 (⟨0, h⟩ : Fin cfg1.N)) (iblk1 V c 3 (⟨0, h⟩ : Fin cfg1.N)) (iblk1 V c 4 (⟨0, h⟩ : Fin cfg1.N)) (iblk1 V c 5 (⟨0, h⟩ : Fin cfg1.N)) (iblk1 V c 6 (⟨0, h⟩ : Fin cfg1.N)), outA8 (F := Ideal) c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) (ms1_6 (⟨0, h⟩ : Fin cfg1.N)) (hs1_6 (⟨0, h⟩ : Fin cfg1.N)) (ms1_7 (⟨0, h⟩ : Fin cfg1.N)) (hs1_7 (⟨0, h⟩ : Fin cfg1.N)) (ms1_8 (⟨0, h⟩ : Fin cfg1.N)) (hs1_8 (⟨0, h⟩ : Fin cfg1.N)) (ms1_9 (⟨0, h⟩ : Fin cfg1.N)) (hs1_9 (⟨0, h⟩ : Fin cfg1.N)) ((hcond1_0 (⟨0, h⟩ : Fin cfg1.N)).mpr rfl) (iblk1 V c 0 (⟨0, h⟩ : Fin cfg1.N)) (iblk1 V c 1 (⟨0, h⟩ : Fin cfg1.N)) (iblk1 V c 2 (⟨0, h⟩ : Fin cfg1.N)) (iblk1 V c 3 (⟨0, h⟩ : Fin cfg1.N)) (iblk1 V c 4 (⟨0, h⟩ : Fin cfg1.N)) (iblk1 V c 5 (⟨0, h⟩ : Fin cfg1.N)) (iblk1 V c 6 (⟨0, h⟩ : Fin cfg1.N)), outA9 (F := Ideal) c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) (ms1_6 (⟨0, h⟩ : Fin cfg1.N)) (hs1_6 (⟨0, h⟩ : Fin cfg1.N)) (ms1_7 (⟨0, h⟩ : Fin cfg1.N)) (hs1_7 (⟨0, h⟩ : Fin cfg1.N)) (ms1_8 (⟨0, h⟩ : Fin cfg1.N)) (hs1_8 (⟨0, h⟩ : Fin cfg1.N)) (ms1_9 (⟨0, h⟩ : Fin cfg1.N)) (hs1_9 (⟨0, h⟩ : Fin cfg1.N)) ((hcond1_0 (⟨0, h⟩ : Fin cfg1.N)).mpr rfl) (iblk1 V c 0 (⟨0, h⟩ : Fin cfg1.N)) (iblk1 V c 1 (⟨0, h⟩ : Fin cfg1.N)) (iblk1 V c 2 (⟨0, h⟩ : Fin cfg1.N)) (iblk1 V c 3 (⟨0, h⟩ : Fin cfg1.N)) (iblk1 V c 4 (⟨0, h⟩ : Fin cfg1.N)) (iblk1 V c 5 (⟨0, h⟩ : Fin cfg1.N)) (iblk1 V c 6 (⟨0, h⟩ : Fin cfg1.N))] at e
    have e7 : (outsAt1 V c 0 h).1 = blockZ V c (⟨0, h⟩ : Fin cfg1.N) := congrArg Prod.fst e
    have e8 : (outsAt1 V c 0 h).2.1 = k1_pay1 (F := Ideal) (blockZ V c (⟨0, h⟩ : Fin cfg1.N)) (k1_pay3 (F := Ideal)) := congrArg (fun p => p.2.1) e
    have e9 : (outsAt1 V c 0 h).2.2 = k1_pay2 (F := Ideal) (blockZ V c (⟨0, h⟩ : Fin cfg1.N)) (k1_pay4 (F := Ideal)) := congrArg (fun p => p.2.2) e
    refine ⟨e7, fun j => ?_, fun j => ?_⟩
    · refine (congrFun e8 (ix2 0 j)).trans ?_
      refine (pay1_apply _ _ j).trans ?_
      rw [pay3_apply, Finset.sum_range_one]
      exact congrArg (0 + ·) (Finset.sum_congr rfl fun r _ => blockZ_apply V c (⟨0, h⟩ : Fin cfg1.N) r j)
    · refine (congrFun e9 (ix2 0 j)).trans ?_
      refine (pay2_apply _ _ j).trans ?_
      rw [pay4_apply, Finset.sum_range_one]
      exact congrArg (0 + ·) (Finset.sum_congr rfl fun r _ =>
        congrArg₂ (· * ·) (blockZ_apply V c (⟨0, h⟩ : Fin cfg1.N) r j) (blockZ_apply V c (⟨0, h⟩ : Fin cfg1.N) r j))
  | n + 1, h => by
    have hN : cfg1.N = 20 := N_1
    have hB : ¬(⟨n + 1, h⟩ : Fin cfg1.N).val % 20 = 0 := by dsimp only; omega
    obtain ⟨-, ih8, ih9⟩ := outs_eq c n (Nat.lt_of_succ_lt h)
    have e := outsAt1_B V c (⟨n + 1, h⟩ : Fin cfg1.N) hB
    rw [outB7 (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (ms1_7 (⟨n + 1, h⟩ : Fin cfg1.N)) (hs1_7 (⟨n + 1, h⟩ : Fin cfg1.N)) (ms1_8 (⟨n + 1, h⟩ : Fin cfg1.N)) (hs1_8 (⟨n + 1, h⟩ : Fin cfg1.N)) (ms1_9 (⟨n + 1, h⟩ : Fin cfg1.N)) (hs1_9 (⟨n + 1, h⟩ : Fin cfg1.N)) (fun hcnd => hB ((hcond1_0 (⟨n + 1, h⟩ : Fin cfg1.N)).mp hcnd)) (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (iblk1 V c 4 (⟨n + 1, h⟩ : Fin cfg1.N)) (iblk1 V c 5 (⟨n + 1, h⟩ : Fin cfg1.N)) (iblk1 V c 6 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2, outB8 (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (ms1_7 (⟨n + 1, h⟩ : Fin cfg1.N)) (hs1_7 (⟨n + 1, h⟩ : Fin cfg1.N)) (ms1_8 (⟨n + 1, h⟩ : Fin cfg1.N)) (hs1_8 (⟨n + 1, h⟩ : Fin cfg1.N)) (ms1_9 (⟨n + 1, h⟩ : Fin cfg1.N)) (hs1_9 (⟨n + 1, h⟩ : Fin cfg1.N)) (fun hcnd => hB ((hcond1_0 (⟨n + 1, h⟩ : Fin cfg1.N)).mp hcnd)) (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (iblk1 V c 4 (⟨n + 1, h⟩ : Fin cfg1.N)) (iblk1 V c 5 (⟨n + 1, h⟩ : Fin cfg1.N)) (iblk1 V c 6 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2, outB9 (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (ms1_7 (⟨n + 1, h⟩ : Fin cfg1.N)) (hs1_7 (⟨n + 1, h⟩ : Fin cfg1.N)) (ms1_8 (⟨n + 1, h⟩ : Fin cfg1.N)) (hs1_8 (⟨n + 1, h⟩ : Fin cfg1.N)) (ms1_9 (⟨n + 1, h⟩ : Fin cfg1.N)) (hs1_9 (⟨n + 1, h⟩ : Fin cfg1.N)) (fun hcnd => hB ((hcond1_0 (⟨n + 1, h⟩ : Fin cfg1.N)).mp hcnd)) (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (iblk1 V c 4 (⟨n + 1, h⟩ : Fin cfg1.N)) (iblk1 V c 5 (⟨n + 1, h⟩ : Fin cfg1.N)) (iblk1 V c 6 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2] at e
    have e7 : (outsAt1 V c (n + 1) h).1 = blockZ V c (⟨n + 1, h⟩ : Fin cfg1.N) := congrArg Prod.fst e
    have e8 : (outsAt1 V c (n + 1) h).2.1
        = k1_pay1 (F := Ideal) (blockZ V c (⟨n + 1, h⟩ : Fin cfg1.N)) (outsAt1 V c n (Nat.lt_of_succ_lt h)).2.1 := congrArg (fun p => p.2.1) e
    have e9 : (outsAt1 V c (n + 1) h).2.2
        = k1_pay2 (F := Ideal) (blockZ V c (⟨n + 1, h⟩ : Fin cfg1.N)) (outsAt1 V c n (Nat.lt_of_succ_lt h)).2.2 := congrArg (fun p => p.2.2) e
    refine ⟨e7, fun j => ?_, fun j => ?_⟩
    · refine (congrFun e8 (ix2 0 j)).trans ?_
      refine (pay1_apply _ _ j).trans ?_
      refine (congrArg₂ (· + ·) (ih8 j) (Finset.sum_congr rfl fun r _ => blockZ_apply V c (⟨n + 1, h⟩ : Fin cfg1.N) r j)).trans ?_
      exact (add_assoc _ _ _).trans (congrArg (0 + ·) (Finset.sum_range_succ (fun s => colS V c s j) (n + 1)).symm)
    · refine (congrFun e9 (ix2 0 j)).trans ?_
      refine (pay2_apply _ _ j).trans ?_
      refine (congrArg₂ (· + ·) (ih9 j) (Finset.sum_congr rfl fun r _ =>
        congrArg₂ (· * ·) (blockZ_apply V c (⟨n + 1, h⟩ : Fin cfg1.N) r j) (blockZ_apply V c (⟨n + 1, h⟩ : Fin cfg1.N) r j))).trans ?_
      exact (add_assoc _ _ _).trans (congrArg (0 + ·) (Finset.sum_range_succ (fun s => colQ V c s j) (n + 1)).symm)

/-! ## The three arrays after the region -/

/-- the product as one array -/
noncomputable def Gz (c : Dev nD) : S100000x128.Idx → EReal := fun i => Z V c (i 0) (i 1)

/-- every point writes back its product block: block t of the product array -/
theorem flushed7_eq (c : Dev nD) (t : Fin cfg1.N) :
    (dat1 V c).flushed 7 t = ((cfg1.win 7).blk t).view.read (Elt Ideal) (Gz V c) := by
  have hN : t.val < 20 := lt_of_lt_of_eq t.isLt (show cfg1.N = 20 from N_1)
  obtain ⟨e0, e1⟩ := idx_7 t
  show (cfg1.win 7).cut (grid1.coords t) ((dat1 V c).after 7 t) = _
  rw [after1_7, (outs_eq V c t.val t.isLt).1]
  funext y
  have h0 : (y 0).val < 5000 := (y 0).isLt
  have h1 : (y 1).val < 128 := (y 1).isLt
  have hb : 5000 * t.val + (y 0).val < 100000 := by omega
  have hx : (cfg1.win 7).xinj (grid1.coords t) y = ix2 (⟨(y 0).val, h0⟩ : Fin 5000) (⟨(y 1).val, h1⟩ : Fin 128) :=
    funext fun a => by
      match a with
      | ⟨0, _⟩ => rfl
      | ⟨1, _⟩ => rfl
  have hemb : ((cfg1.win 7).blk t).view.emb y = ix2 (⟨5000 * t.val + (y 0).val, hb⟩ : Fin 100000) (⟨(y 1).val, h1⟩ : Fin 128) :=
    funext fun a => Fin.ext (by
      match a with
      | ⟨0, _⟩ => show win1_7.index t (0 : Fin 2) * 5000 + 1 * (y 0).val = 5000 * t.val + (y 0).val; rw [e0]; omega
      | ⟨1, _⟩ => show win1_7.index t (1 : Fin 2) * 128 + 1 * (y 1).val = (y 1).val; rw [e1]; omega)
  show blockZ V c t ((cfg1.win 7).xinj (grid1.coords t) y) = Gz V c (((cfg1.win 7).blk t).view.emb y)
  rw [hx, hemb, blockZ_apply]
  exact dif_pos hb

/-- every row of the product array lies in the block of the point numbered by the row divided by five thousand -/
theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1⟩ := idx_7 t
  refine ⟨t, flush1_7 t, ?_⟩
  show i ∈ ((View.whole main_v37_0).slice (win1_7.rect t)).set
  rw [View.set_slice_whole, Rect.mem_set_unit]
  intro a
  match a with
  | ⟨0, _⟩ =>
    show win1_7.index t (0 : Fin 2) * 5000 ≤ (i 0).val ∧ (i 0).val < win1_7.index t (0 : Fin 2) * 5000 + 5000
    rw [e0]; show (i 0).val / 5000 * 5000 ≤ (i 0).val ∧ (i 0).val < (i 0).val / 5000 * 5000 + 5000; omega
  | ⟨1, _⟩ =>
    show win1_7.index t (1 : Fin 2) * 128 ≤ (i 1).val ∧ (i 1).val < win1_7.index t (1 : Fin 2) * 128 + 128
    rw [e1]; omega

/-- the product array after the region -/
theorem final7 (c : Dev nD) : (dat1 V c).arrAt 7 cfg1.N = Gz V c :=
  (dat1 V c).arrAt_eq_of_cover 7 (Gz V c) (fun t _ => flushed7_eq V c t) cover7

/-- the last grid point, the only one that writes the two accumulators back -/
abbrev tLast : Fin cfg1.N := ⟨19, by rw [show cfg1.N = 20 from N_1]; decide⟩

/-- the sum of column j of the product over all hundred thousand rows -/
noncomputable def totS (c : Dev nD) (j : Fin 128) : EReal := ∑ r : Fin 100000, Z V c r j

/-- the sum of the squares of column j of the product over all rows -/
noncomputable def totQ (c : Dev nD) (j : Fin 128) : EReal := ∑ r : Fin 100000, Z V c r j * Z V c r j

theorem totS_eq (c : Dev nD) (j : Fin 128) : totS V c j = ∑ r : Fin 100000, Z V c r j := rfl

theorem totQ_eq (c : Dev nD) (j : Fin 128) : totQ V c j = ∑ r : Fin 100000, Z V c r j * Z V c r j := rfl

/-- the twenty partial column sums, from zero, are the column sum over all rows -/
theorem sumS (c : Dev nD) (j : Fin 128) : 0 + ∑ s ∈ Finset.range (19 + 1), colS V c s j = totS V c j :=
  Cert.BlockSum.sum_20x5000 (fun r => Z V c r j) (fun n => Zn V c n j) (fun n => Zn_val V c n j)

theorem sumQ (c : Dev nD) (j : Fin 128) : 0 + ∑ s ∈ Finset.range (19 + 1), colQ V c s j = totQ V c j :=
  Cert.BlockSum.sum_20x5000 (fun r => Z V c r j * Z V c r j) (fun n => Zn V c n j * Zn V c n j)
    (fun n => congrArg₂ (· * ·) (Zn_val V c n j) (Zn_val V c n j))

-- From here on the two totals are names: a comparison that opened them would enumerate the hundred thousand rows.
attribute [local irreducible] totS totQ

/-- the column sums as one row -/
noncomputable def Gs (c : Dev nD) : S1x128.Idx → EReal := fun i => totS V c (i 1)

/-- the column sums of the squares as one row -/
noncomputable def Gq (c : Dev nD) : S1x128.Idx → EReal := fun i => totQ V c (i 1)

/-- the one write-back of the column sums, at the last point -/
theorem flushed8_eq (c : Dev nD) (t : Fin cfg1.N) (hf : (cfg1.win 8).flush t = true) :
    (dat1 V c).flushed 8 t = ((cfg1.win 8).blk t).view.read (Elt Ideal) (Gs V c) := by
  have hN : cfg1.N = 20 := N_1
  have h19 : t.val = 19 := by have := (flush1_8 t).mp hf; have := t.isLt; omega
  obtain ⟨e0, e1⟩ := idx_8 t
  show (cfg1.win 8).cut (grid1.coords t) ((dat1 V c).after 8 t) = _
  rw [after1_8]
  funext y
  have h0 : (y 0).val < 1 := (y 0).isLt
  have h1 : (y 1).val < 128 := (y 1).isLt
  have hx : (cfg1.win 8).xinj (grid1.coords t) y = ix2 (0 : Fin 1) (⟨(y 1).val, h1⟩ : Fin 128) :=
    funext fun a => Fin.ext (by
      match a with
      | ⟨0, _⟩ => show (y 0).val = 0; omega
      | ⟨1, _⟩ => rfl)
  have hemb : ((cfg1.win 8).blk t).view.emb y = ix2 (0 : Fin 1) (⟨(y 1).val, h1⟩ : Fin 128) :=
    funext fun a => Fin.ext (by
      match a with
      | ⟨0, _⟩ => show win1_8.index t (0 : Fin 2) * 1 + 1 * (y 0).val = 0; rw [e0]; omega
      | ⟨1, _⟩ => show win1_8.index t (1 : Fin 2) * 128 + 1 * (y 1).val = (y 1).val; rw [e1]; omega)
  show ((outsAt1 V c t.val t.isLt).2.1 : S1x128.Idx → EReal) ((cfg1.win 8).xinj (grid1.coords t) y)
    = Gs V c (((cfg1.win 8).blk t).view.emb y)
  rw [hx, hemb, (outs_eq V c t.val t.isLt).2.1 ⟨(y 1).val, h1⟩, h19]
  exact sumS V c ⟨(y 1).val, h1⟩

theorem flushed9_eq (c : Dev nD) (t : Fin cfg1.N) (hf : (cfg1.win 9).flush t = true) :
    (dat1 V c).flushed 9 t = ((cfg1.win 9).blk t).view.read (Elt Ideal) (Gq V c) := by
  have hN : cfg1.N = 20 := N_1
  have h19 : t.val = 19 := by have := (flush1_9 t).mp hf; have := t.isLt; omega
  obtain ⟨e0, e1⟩ := idx_9 t
  show (cfg1.win 9).cut (grid1.coords t) ((dat1 V c).after 9 t) = _
  rw [after1_9]
  funext y
  have h0 : (y 0).val < 1 := (y 0).isLt
  have h1 : (y 1).val < 128 := (y 1).isLt
  have hx : (cfg1.win 9).xinj (grid1.coords t) y = ix2 (0 : Fin 1) (⟨(y 1).val, h1⟩ : Fin 128) :=
    funext fun a => Fin.ext (by
      match a with
      | ⟨0, _⟩ => show (y 0).val = 0; omega
      | ⟨1, _⟩ => rfl)
  have hemb : ((cfg1.win 9).blk t).view.emb y = ix2 (0 : Fin 1) (⟨(y 1).val, h1⟩ : Fin 128) :=
    funext fun a => Fin.ext (by
      match a with
      | ⟨0, _⟩ => show win1_9.index t (0 : Fin 2) * 1 + 1 * (y 0).val = 0; rw [e0]; omega
      | ⟨1, _⟩ => show win1_9.index t (1 : Fin 2) * 128 + 1 * (y 1).val = (y 1).val; rw [e1]; omega)
  show ((outsAt1 V c t.val t.isLt).2.2 : S1x128.Idx → EReal) ((cfg1.win 9).xinj (grid1.coords t) y)
    = Gq V c (((cfg1.win 9).blk t).view.emb y)
  rw [hx, hemb, (outs_eq V c t.val t.isLt).2.2 ⟨(y 1).val, h1⟩, h19]
  exact sumQ V c ⟨(y 1).val, h1⟩

/-- the one block of each accumulator is its whole one-row array -/
theorem cover8 (i : S1x128.Idx) : ∃ t : Fin cfg1.N, (cfg1.win 8).flush t = true ∧ i ∈ ((cfg1.win 8).blk t).view.set := by
  have hi0 : (i 0).val < 1 := (i 0).isLt
  have hi1 : (i 1).val < 128 := (i 1).isLt
  obtain ⟨e0, e1⟩ := idx_8 tLast
  refine ⟨tLast, (flush1_8 tLast).mpr rfl, ?_⟩
  show i ∈ ((View.whole main_v37_1).slice (win1_8.rect tLast)).set
  rw [View.set_slice_whole, Rect.mem_set_unit]
  intro a
  match a with
  | ⟨0, _⟩ =>
    show win1_8.index tLast (0 : Fin 2) * 1 ≤ (i 0).val ∧ (i 0).val < win1_8.index tLast (0 : Fin 2) * 1 + 1
    rw [e0]; omega
  | ⟨1, _⟩ =>
    show win1_8.index tLast (1 : Fin 2) * 128 ≤ (i 1).val ∧ (i 1).val < win1_8.index tLast (1 : Fin 2) * 128 + 128
    rw [e1]; omega

theorem cover9 (i : S1x128.Idx) : ∃ t : Fin cfg1.N, (cfg1.win 9).flush t = true ∧ i ∈ ((cfg1.win 9).blk t).view.set := by
  have hi0 : (i 0).val < 1 := (i 0).isLt
  have hi1 : (i 1).val < 128 := (i 1).isLt
  obtain ⟨e0, e1⟩ := idx_9 tLast
  refine ⟨tLast, (flush1_9 tLast).mpr rfl, ?_⟩
  show i ∈ ((View.whole main_v37_2).slice (win1_9.rect tLast)).set
  rw [View.set_slice_whole, Rect.mem_set_unit]
  intro a
  match a with
  | ⟨0, _⟩ =>
    show win1_9.index tLast (0 : Fin 2) * 1 ≤ (i 0).val ∧ (i 0).val < win1_9.index tLast (0 : Fin 2) * 1 + 1
    rw [e0]; omega
  | ⟨1, _⟩ =>
    show win1_9.index tLast (1 : Fin 2) * 128 ≤ (i 1).val ∧ (i 1).val < win1_9.index tLast (1 : Fin 2) * 128 + 128
    rw [e1]; omega

theorem final8 (c : Dev nD) : (dat1 V c).arrAt 8 cfg1.N = Gs V c :=
  (dat1 V c).arrAt_eq_of_cover 8 (Gs V c) (flushed8_eq V c) cover8

theorem final9 (c : Dev nD) : (dat1 V c).arrAt 9 cfg1.N = Gq V c :=
  (dat1 V c).arrAt_eq_of_cover 9 (Gq V c) (flushed9_eq V c) cover9

/-! ## The three results at an entry -/

theorem final_z (c : Dev nD) (r : Fin 100000) (j : Fin 128) :
    ((dat1 V c).arrAt 7 cfg1.N : S100000x128.Idx → EReal) (ix2 r j) = Z V c r j :=
  congrFun (final7 V c) (ix2 r j)

theorem final_s (c : Dev nD) (j : Fin 128) :
    ((dat1 V c).arrAt 8 cfg1.N : S1x128.Idx → EReal) (ix2 0 j) = ∑ r : Fin 100000, Z V c r j :=
  (congrFun (final8 V c) (ix2 0 j)).trans (totS_eq V c j)

theorem final_q (c : Dev nD) (j : Fin 128) :
    ((dat1 V c).arrAt 9 cfg1.N : S1x128.Idx → EReal) (ix2 0 j) = ∑ r : Fin 100000, Z V c r j * Z V c r j :=
  (congrFun (final9 V c) (ix2 0 j)).trans (totQ_eq V c j)

/-! ## The region's results as functions of their coordinates -/

/-- the product's entries read by their two coordinates -/
theorem prod_entry (c : Dev nD) (r : Fin 100000) (j : Fin 128) : Cert.Lib.cur2 (a := 100000) (b := 128) ((dat1 V c).arrAt 7 cfg1.N) r j = Z V c r j :=
  final_z V c r j

/-- the product is the linear map, with its shift, of the normalised and rectified z -/
theorem contract_z (c : Dev nD) :
    Cert.Lib.cur2 (a := 100000) (b := 128) ((dat1 V c).arrAt 7 cfg1.N)
      = Cert.Gin.lin (Cert.Gin.norm (Cert.Lib.cur2 (a := 100000) (b := 128) (V c (Pipeline.arrRef spec1 0)))
          (Cert.Lib.row (a := 128) (V c (Pipeline.arrRef spec1 1))) (Cert.Lib.row (a := 128) (V c (Pipeline.arrRef spec1 2)))
          (Cert.Lib.row (a := 128) (V c (Pipeline.arrRef spec1 3))) (Cert.Lib.row (a := 128) (V c (Pipeline.arrRef spec1 4))))
        (Cert.Lib.cur2 (a := 128) (b := 128) (V c (Pipeline.arrRef spec1 5))) (Cert.Lib.row (a := 128) (V c (Pipeline.arrRef spec1 6))) := by
  funext r j
  exact (prod_entry V c r j).trans rfl

/-- the first row is the sum over all rows of the product's columns -/
theorem contract_s (c : Dev nD) :
    Cert.Lib.row (a := 128) ((dat1 V c).arrAt 8 cfg1.N)
      = (fun j => ∑ r, Cert.Lib.cur2 (a := 100000) (b := 128) ((dat1 V c).arrAt 7 cfg1.N) r j) := by
  funext j
  have h8 : Cert.Lib.row (a := 128) ((dat1 V c).arrAt 8 cfg1.N) j = totS V c j := congrFun (final8 V c) (ix2 0 j)
  refine h8.trans ((totS_eq V c j).trans ?_)
  exact Finset.sum_congr rfl fun r _ => (prod_entry V c r j).symm

/-- the second row is the sum over all rows of the squares of the product's columns -/
theorem contract_q (c : Dev nD) :
    Cert.Lib.row (a := 128) ((dat1 V c).arrAt 9 cfg1.N)
      = (fun j => ∑ r, Cert.Lib.cur2 (a := 100000) (b := 128) ((dat1 V c).arrAt 7 cfg1.N) r j
          * Cert.Lib.cur2 (a := 100000) (b := 128) ((dat1 V c).arrAt 7 cfg1.N) r j) := by
  funext j
  have h9 : Cert.Lib.row (a := 128) ((dat1 V c).arrAt 9 cfg1.N) j = totQ V c j := congrFun (final9 V c) (ix2 0 j)
  refine h9.trans ((totQ_eq V c j).trans ?_)
  exact Finset.sum_congr rfl fun r _ => (congrArg₂ (· * ·) (prod_entry V c r j) (prod_entry V c r j)).symm

/-- The product is the linear map, with its shift, of the normalised and rectified z; the two rows are the sums over all
    rows of the product's columns and of their squares. -/
theorem contract (c : Dev nD) :
    Cert.Lib.cur2 (a := 100000) (b := 128) ((dat1 V c).arrAt 7 cfg1.N)
      = Cert.Gin.lin (Cert.Gin.norm (Cert.Lib.cur2 (a := 100000) (b := 128) (V c (Pipeline.arrRef spec1 0)))
          (Cert.Lib.row (a := 128) (V c (Pipeline.arrRef spec1 1))) (Cert.Lib.row (a := 128) (V c (Pipeline.arrRef spec1 2)))
          (Cert.Lib.row (a := 128) (V c (Pipeline.arrRef spec1 3))) (Cert.Lib.row (a := 128) (V c (Pipeline.arrRef spec1 4))))
        (Cert.Lib.cur2 (a := 128) (b := 128) (V c (Pipeline.arrRef spec1 5))) (Cert.Lib.row (a := 128) (V c (Pipeline.arrRef spec1 6)))
    ∧ Cert.Lib.row (a := 128) ((dat1 V c).arrAt 8 cfg1.N)
      = (fun j => ∑ r, Cert.Lib.cur2 (a := 100000) (b := 128) ((dat1 V c).arrAt 7 cfg1.N) r j)
    ∧ Cert.Lib.row (a := 128) ((dat1 V c).arrAt 9 cfg1.N)
      = (fun j => ∑ r, Cert.Lib.cur2 (a := 100000) (b := 128) ((dat1 V c).arrAt 7 cfg1.N) r j
          * Cert.Lib.cur2 (a := 100000) (b := 128) ((dat1 V c).arrAt 7 cfg1.N) r j) :=
  ⟨contract_z V c, contract_s V c, contract_q V c⟩

end Cert.KernelIdeal.BnReluLinear1
-- ==== Proof.RegionBnRelu2.lean ====
import proofs.«120577_j28003186770423_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120577_j28003186770423_1_alg».proof.Proof.LibCurry
import proofs.«120577_j28003186770423_1_alg».proof.Proof.GinMath

/-! Batch normalisation followed by a rectifier, one block of 5000 rows at a time.

The output array has 100000 rows and 128 columns. Grid point t handles rows 5000 t .. 5000 t + 4999: it reads that
block of the big input and the four row vectors (one row, 128 columns, the same at every point), and stores
max ((((x - mean) * rsqrt (var + eps)) * gamma) + beta, 0) entry by entry, each row vector read at the entry's column.
Since every point writes back the restriction of ONE function of the five input arrays to its block, and the twenty
blocks cover all rows, the output array ends as that function: entry (r, j) depends on entry (r, j) of the big input
and on column j of the four row vectors, and on nothing else. -/

noncomputable section

namespace Cert.KernelIdeal.BnRelu2

open Idealize.ShloMosaic Idealize.ShloMosaic.ValueIdx Idealize.SL.Sem Cert.KernelIdeal Cert.KernelIdeal.Gen
open Idealize.ShloMosaic.TcCoe
open Idealize.ShloMosaic.Pipeline (Dat)

/-- Row r, column j of the big array, minus column j of the first row vector, times the reciprocal square root of
    (column j of the second row vector plus the small constant), times column j of the third, plus column j of the
    fourth, and the larger of that and zero. -/
def bnRelu (A0 : S100000x128.Idx → EReal) (A1 A2 A3 A4 : S1x128.Idx → EReal) (r : Fin 100000) (j : Fin 128) : EReal :=
  max ((((A0 (ix2 r j) - A1 (ix2 0 j)) * Ideal.rsqrt (A2 (ix2 0 j) + Ideal.ofBits .f32 0x3727C5AC#32)) * A3 (ix2 0 j)) + A4 (ix2 0 j))
    (Ideal.ofBits .f32 0x00000000#32)

/-- The same function of a whole index: its two coordinates taken apart. -/
def bnReluArr (A0 : S100000x128.Idx → EReal) (A1 A2 A3 A4 : S1x128.Idx → EReal) : S100000x128.Idx → EReal :=
  fun i => bnRelu A0 A1 A2 A3 A4 ⟨(i 0).val, idx2_lt0 i⟩ ⟨(i 1).val, idx2_lt1 i⟩

/-- At an index whose coordinates are (r, j) the whole-index form is the coordinate form. -/
theorem bnReluArr_at (A0 : S100000x128.Idx → EReal) (A1 A2 A3 A4 : S1x128.Idx → EReal) (i : S100000x128.Idx)
    (r : Fin 100000) (j : Fin 128) (h0 : (i 0).val = r.val) (h1 : (i 1).val = j.val) :
    bnReluArr A0 A1 A2 A3 A4 i = bnRelu A0 A1 A2 A3 A4 r j := by
  unfold bnReluArr
  have e0 : (⟨(i 0).val, idx2_lt0 i⟩ : Fin 100000) = r := Fin.ext h0
  have e1 : (⟨(i 1).val, idx2_lt1 i⟩ : Fin 128) = j := Fin.ext h1
  rw [e0, e1]

theorem hz : (![0, 0] : Fin 2 → Nat) = fun _ => 0 := funext fun a => by fin_cases a <;> rfl

/-- What the body stores, at row p and column q of a block: the five loaded blocks combined entry by entry, the
    row vectors read at their one row. -/
theorem pay_apply (x0 : Vec Ideal S5000x128 .f32) (x2 x1 x3 x4 : Vec Ideal S1x128 .f32) (p : Fin 5000) (q : Fin 128) :
    k2_pay1 x0 x2 x1 x3 x4 (ix2 p q)
      = max ((((x0 (ix2 p q) - x1 (ix2 0 q)) * Ideal.rsqrt (x2 (ix2 0 q) + Ideal.ofBits .f32 0x3727C5AC#32)) * x3 (ix2 0 q)) + x4 (ix2 0 q))
          (Ideal.ofBits .f32 0x00000000#32) := by
  unfold k2_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The index maps over the twenty grid points: the two big windows sit at block (t, 0) at point t, the four row
    vectors at block (0, 0) throughout. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := lt_of_lt_of_eq t.isLt N_2

variable (V : (c : Dev nD) → (b : Ref sig .tc) → Buf (Elt Ideal) ((c : Thread nD τ).loc b))

/-- Block t of the big input window, at row p and column q, is the array at row 5000 t + p and column q. -/
theorem iblk_big (c : Dev nD) (t : Fin cfg2.N) (p : Fin 5000) (q : Fin 128) (r : Fin 100000) (hr : r.val = 5000 * t.val + p.val) :
    (iblk2 V c 0 t : Vec Ideal S5000x128 .f32) (ix2 p q) = (V c (Pipeline.arrRef spec2 0) : S100000x128.Idx → EReal) (ix2 r q) := by
  obtain ⟨e0, e1, -⟩ := idx_facts t
  unfold iblk2
  rw [View.read_apply]
  show (V c (Pipeline.arrRef spec2 0) : S100000x128.Idx → EReal) _ = _
  refine congrArg _ ?_
  funext a; apply Fin.ext
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- The single block of a row-vector window, at its one row and column q, is the array at that row and column. -/
theorem iblk_row1 (c : Dev nD) (t : Fin cfg2.N) (q : Fin 128) :
    (iblk2 V c 1 t : Vec Ideal S1x128 .f32) (ix2 0 q) = (V c (Pipeline.arrRef spec2 1) : S1x128.Idx → EReal) (ix2 0 q) := by
  obtain ⟨-, -, e0, e1, -⟩ := idx_facts t
  unfold iblk2
  rw [View.read_apply]
  show (V c (Pipeline.arrRef spec2 1) : S1x128.Idx → EReal) _ = _
  refine congrArg _ ?_
  funext a; apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

theorem iblk_row2 (c : Dev nD) (t : Fin cfg2.N) (q : Fin 128) :
    (iblk2 V c 2 t : Vec Ideal S1x128 .f32) (ix2 0 q) = (V c (Pipeline.arrRef spec2 2) : S1x128.Idx → EReal) (ix2 0 q) := by
  obtain ⟨-, -, -, -, e0, e1, -⟩ := idx_facts t
  unfold iblk2
  rw [View.read_apply]
  show (V c (Pipeline.arrRef spec2 2) : S1x128.Idx → EReal) _ = _
  refine congrArg _ ?_
  funext a; apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

theorem iblk_row3 (c : Dev nD) (t : Fin cfg2.N) (q : Fin 128) :
    (iblk2 V c 3 t : Vec Ideal S1x128 .f32) (ix2 0 q) = (V c (Pipeline.arrRef spec2 3) : S1x128.Idx → EReal) (ix2 0 q) := by
  obtain ⟨-, -, -, -, -, -, e0, e1, -⟩ := idx_facts t
  unfold iblk2
  rw [View.read_apply]
  show (V c (Pipeline.arrRef spec2 3) : S1x128.Idx → EReal) _ = _
  refine congrArg _ ?_
  funext a; apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

theorem iblk_row4 (c : Dev nD) (t : Fin cfg2.N) (q : Fin 128) :
    (iblk2 V c 4 t : Vec Ideal S1x128 .f32) (ix2 0 q) = (V c (Pipeline.arrRef spec2 4) : S1x128.Idx → EReal) (ix2 0 q) := by
  obtain ⟨-, -, -, -, -, -, -, -, e0, e1, -⟩ := idx_facts t
  unfold iblk2
  rw [View.read_apply]
  show (V c (Pipeline.arrRef spec2 4) : S1x128.Idx → EReal) _ = _
  refine congrArg _ ?_
  funext a; apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- The whole-array function the output ends holding: the entrywise formula of the five arrays as the region finds them. -/
abbrev result (c : Dev nD) : S100000x128.Idx → EReal :=
  bnReluArr (V c (Pipeline.arrRef spec2 0)) (V c (Pipeline.arrRef spec2 1)) (V c (Pipeline.arrRef spec2 2))
    (V c (Pipeline.arrRef spec2 3)) (V c (Pipeline.arrRef spec2 4))

/-- What point t writes back is block t of that function: rows 5000 t .. 5000 t + 4999, every column. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨-, -, -, -, -, -, -, -, -, -, e0, e1⟩ := idx_facts t
  have ht := point_lt t
  funext y
  obtain ⟨p, q, rfl⟩ : ∃ (p : Fin 5000) (q : Fin 128), y = ix2 p q := ⟨y 0, y 1, eq_ix2 y⟩
  have hr : 5000 * t.val + p.val < 100000 := by have := p.isLt; omega
  rw [View.read_apply]
  show k2_pay1 (iblk2 V c 0 t) (iblk2 V c 2 t) (iblk2 V c 1 t) (iblk2 V c 3 t) (iblk2 V c 4 t) (ix2 p q)
    = result V c (((cfg2.win 5).blk t).view.emb (ix2 p q))
  rw [pay_apply, iblk_big V c t p q ⟨5000 * t.val + p.val, hr⟩ rfl, iblk_row1, iblk_row2, iblk_row3, iblk_row4]
  refine (bnReluArr_at _ _ _ _ _ _ ⟨5000 * t.val + p.val, hr⟩ q ?_ ?_).symm
  · show win2_5.index t (0 : Fin 2) * 5000 + 1 * p.val = 5000 * t.val + p.val; rw [e0]; omega
  · show win2_5.index t (1 : Fin 2) * 128 + 1 * q.val = q.val; rw [e1]; omega

/-- Every index of the output array lies in the block of the point its row divided by 5000 names. -/
theorem covered (i : S100000x128.Idx) :
    ∃ t : Fin cfg2.N, (cfg2.win 5).flush t = true ∧ i ∈ ((cfg2.win 5).blk t).view.set := by
  have h0 : (i 0).val < 100000 := idx2_lt0 i
  have h1 : (i 1).val < 128 := idx2_lt1 i
  have hN : (i 0).val / 5000 < cfg2.N := lt_of_lt_of_eq (by omega : (i 0).val / 5000 < 20) N_2.symm
  obtain ⟨-, -, -, -, -, -, -, -, -, -, e0, e1⟩ := idx_facts ⟨(i 0).val / 5000, hN⟩
  refine ⟨⟨(i 0).val / 5000, hN⟩, flush2_5 _, ?_⟩
  show i ∈ ((View.whole main_v50).slice (win2_5.rect ⟨(i 0).val / 5000, hN⟩)).set
  rw [View.set_slice_whole, Rect.mem_set_unit]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    rw [e1]; omega

/-- After the region the output array holds the entrywise formula of the five input arrays: every point writes back
    its block of one whole-array function, and the twenty blocks cover the array. -/
theorem final_arr (c : Dev nD) : (dat2 V c).arrAt 5 cfg2.N = result V c :=
  (dat2 V c).arrAt_eq_of_cover 5 (result V c) (fun t _ => flushed_eq V c t) (fun i => covered i)

/-- The same, index by index, in terms of the coordinate form of the formula. -/
theorem final (c : Dev nD) (r : Fin 100000) (j : Fin 128) :
    ((dat2 V c).arrAt 5 cfg2.N : S100000x128.Idx → EReal) (ix2 r j)
      = bnRelu (V c (Pipeline.arrRef spec2 0)) (V c (Pipeline.arrRef spec2 1)) (V c (Pipeline.arrRef spec2 2))
          (V c (Pipeline.arrRef spec2 3)) (V c (Pipeline.arrRef spec2 4)) r j := by
  rw [final_arr V c]
  exact bnReluArr_at _ _ _ _ _ (ix2 r j) r j rfl rfl

/-- The same with the five input arrays named: whatever functions the region finds in its five input arrays, the
    output entry (r, j) is the formula of their entries. -/
theorem final_of (c : Dev nD) (A0 : S100000x128.Idx → EReal) (A1 A2 A3 A4 : S1x128.Idx → EReal)
    (h0 : (V c (Pipeline.arrRef spec2 0) : S100000x128.Idx → EReal) = A0)
    (h1 : (V c (Pipeline.arrRef spec2 1) : S1x128.Idx → EReal) = A1)
    (h2 : (V c (Pipeline.arrRef spec2 2) : S1x128.Idx → EReal) = A2)
    (h3 : (V c (Pipeline.arrRef spec2 3) : S1x128.Idx → EReal) = A3)
    (h4 : (V c (Pipeline.arrRef spec2 4) : S1x128.Idx → EReal) = A4)
    (r : Fin 100000) (j : Fin 128) :
    ((dat2 V c).arrAt 5 cfg2.N : S100000x128.Idx → EReal) (ix2 r j)
      = max ((((A0 (ix2 r j) - A1 (ix2 0 j)) * Ideal.rsqrt (A2 (ix2 0 j) + Ideal.ofBits .f32 0x3727C5AC#32)) * A3 (ix2 0 j)) + A4 (ix2 0 j))
          (Ideal.ofBits .f32 0x00000000#32) := by
  subst h0 h1 h2 h3 h4
  exact final V c r j

/-- The same as an equation between functions of the two coordinates: the output, read by row and column, is the
    normalisation of the big input by the four row vectors read by column. -/
theorem contract (c : Dev nD) :
    Cert.Lib.cur2 (a := 100000) (b := 128) ((dat2 V c).arrAt 5 cfg2.N)
      = Cert.Gin.norm (Cert.Lib.cur2 (a := 100000) (b := 128) (V c (Pipeline.arrRef spec2 0)))
          (Cert.Lib.row (a := 128) (V c (Pipeline.arrRef spec2 1))) (Cert.Lib.row (a := 128) (V c (Pipeline.arrRef spec2 2)))
          (Cert.Lib.row (a := 128) (V c (Pipeline.arrRef spec2 3))) (Cert.Lib.row (a := 128) (V c (Pipeline.arrRef spec2 4))) := by
  funext r j
  exact final V c r j

end Cert.KernelIdeal.BnRelu2

end
-- ==== Proof.KLayer0.lean ====
/-
  Layer 0 of the idealized kernel program, read off the run's fold.

  The buffer contents at the seven boundaries of the layer (before its first stretch of host operations, after each
  stretch, after each of its three regions) are the run's. A region leaves in its output arrays what its value
  theorem says and every other buffer as entered; so the layer's output array is the layer function of the contents
  at the layer's entry, and the argument arrays and the arrays later layers read come out as they went in.
-/
import proofs.«120577_j28003186770423_1_alg».proof.Proof.Gen.KernelIdeal.Frame
import proofs.«120577_j28003186770423_1_alg».proof.Proof.KCore0
import proofs.«120577_j28003186770423_1_alg».proof.Proof.RegionFirstLinear0
import proofs.«120577_j28003186770423_1_alg».proof.Proof.RegionBnReluLinear1
import proofs.«120577_j28003186770423_1_alg».proof.Proof.RegionBnRelu2

set_option maxRecDepth 16384

noncomputable section

namespace Cert.KernelIdeal.KLayer0

open Idealize.ShloMosaic Idealize.ShloMosaic.TcCoe Idealize.ShloMosaic.ValueIdx Idealize.ShloMosaic.StableHlo Idealize.SL.Sem
open Cert.KernelIdeal Cert.KernelIdeal.Gen Cert.KernelIdeal.K Cert.Lib Cert.Gin

variable (m : (ℓ : Loc nD τ sig) → Buf (Elt Ideal) ℓ) (ρ : Dev nD → PrngReg) (c : Dev nD)

set_option maxHeartbeats 4000000 in
/-- The layer's output array as the layer function of the contents at the layer's entry. -/
theorem out_eq :
    cur2 (a := 100000) (b := 128) (W6 m ρ c (Proc.devRef .tc main_v50))
      = layerK (fun r k => cur2 (a := 100000) (b := 128) (W0 m ρ c (Proc.devRef .tc main_arg0)) r k + cur2 (aggOf (W0 m ρ c (Proc.devRef .tc main_arg0)) (srcOf (W0 m ρ c (Proc.devRef .tc main_arg1))) (dstOf (W0 m ρ c (Proc.devRef .tc main_arg1)))) r k)
          (cur2 (mat 0 (W0 m ρ c (Proc.devRef .tc main_arg3)) slices_S4x128x128_S1x128x128_0_0_0)) (cur1 (vec 0 (W0 m ρ c (Proc.devRef .tc main_arg4)) slices_S4x128_S1x128_0_0)) (cur1 (vec 0 (W0 m ρ c (Proc.devRef .tc main_arg5)) slices_S4x128_S1x128_0_0)) (cur1 (vec 0 (W0 m ρ c (Proc.devRef .tc main_arg6)) slices_S4x128_S1x128_0_0))
          (cur2 (mat 0 (W0 m ρ c (Proc.devRef .tc main_arg7)) slices_S4x128x128_S1x128x128_0_0_0)) (cur1 (vec 0 (W0 m ρ c (Proc.devRef .tc main_arg8)) slices_S4x128_S1x128_0_0)) (cur1 (vec 0 (W0 m ρ c (Proc.devRef .tc main_arg9)) slices_S4x128_S1x128_0_0)) (cur1 (vec 0 (W0 m ρ c (Proc.devRef .tc main_arg10)) slices_S4x128_S1x128_0_0)) := by
  -- the first region's three output arrays
  have e4 : W2 m ρ c (Proc.devRef .tc main_v19_0) = (dat0 (V1 (F := Ideal) m ρ) c).arrAt 4 cfg0.N := W2_arr m ρ c 4
  have e5 : W2 m ρ c (Proc.devRef .tc main_v19_1) = (dat0 (V1 (F := Ideal) m ρ) c).arrAt 5 cfg0.N := W2_arr m ρ c 5
  have e6 : W2 m ρ c (Proc.devRef .tc main_v19_2) = (dat0 (V1 (F := Ideal) m ρ) c).arrAt 6 cfg0.N := W2_arr m ρ c 6
  obtain ⟨a1, a2, a3⟩ := FirstLinear0.contract (V1 (F := Ideal) m ρ) c
  rw [← e4] at a1 a2 a3
  rw [← e5] at a2
  rw [← e6] at a3
  -- the second region's
  have f7 : W4 m ρ c (Proc.devRef .tc main_v37_0) = (dat1 (V3 (F := Ideal) m ρ) c).arrAt 7 cfg1.N := W4_arr m ρ c 7
  have f8 : W4 m ρ c (Proc.devRef .tc main_v37_1) = (dat1 (V3 (F := Ideal) m ρ) c).arrAt 8 cfg1.N := W4_arr m ρ c 8
  have f9 : W4 m ρ c (Proc.devRef .tc main_v37_2) = (dat1 (V3 (F := Ideal) m ρ) c).arrAt 9 cfg1.N := W4_arr m ρ c 9
  obtain ⟨b1, b2, b3⟩ := BnReluLinear1.contract (V3 (F := Ideal) m ρ) c
  rw [← f7] at b1 b2 b3
  rw [← f8] at b2
  rw [← f9] at b3
  -- the third region's
  have g5 : W6 m ρ c (Proc.devRef .tc main_v50) = (dat2 (V5 (F := Ideal) m ρ) c).arrAt 5 cfg2.N := W6_arr m ρ c 5
  have c1 := BnRelu2.contract (V5 (F := Ideal) m ρ) c
  rw [← g5] at c1
  exact KCore0.out_eq (W0 m ρ c) (W2 m ρ c) (W4 m ρ c) (W6 m ρ c) a1 a2 a3
    (W2_of_ne m ρ c main_arg5 (by decide))
    (W2_of_ne m ρ c main_arg6 (by decide))
    (W2_of_ne m ρ c main_arg7 (by decide))
    (W2_of_ne m ρ c main_arg8 (by decide))
    (W2_of_ne m ρ c main_arg9 (by decide))
    (W2_of_ne m ρ c main_arg10 (by decide))
    b1 b2 b3
    (W4_of_ne m ρ c main_arg9 (by decide))
    (W4_of_ne m ρ c main_arg10 (by decide))
    c1

/-! ## What the layer leaves alone -/

theorem keep_arg0 : W6 m ρ c (Proc.devRef .tc main_arg0) = W0 m ρ c (Proc.devRef .tc main_arg0) :=
  (W6_of_ne m ρ c main_arg0 (by decide)).trans ((KHost0.C_keep_arg0 (W4 m ρ c)).trans ((W4_of_ne m ρ c main_arg0 (by decide)).trans
    ((KHost0.B_keep_arg0 (W2 m ρ c)).trans (((W2_arr m ρ c 0).trans (((dat0 (V1 (F := Ideal) m ρ) c).arrAt_in 0 rfl _).trans (A_eq0 (V1 (F := Ideal) m ρ) c 0))).trans (KHost0.A_keep_arg0 (W0 m ρ c))))))
theorem keep_arg1 : W6 m ρ c (Proc.devRef .tc main_arg1) = W0 m ρ c (Proc.devRef .tc main_arg1) :=
  (W6_of_ne m ρ c main_arg1 (by decide)).trans ((KHost0.C_keep_arg1 (W4 m ρ c)).trans ((W4_of_ne m ρ c main_arg1 (by decide)).trans
    ((KHost0.B_keep_arg1 (W2 m ρ c)).trans ((W2_of_ne m ρ c main_arg1 (by decide)).trans (KHost0.A_keep_arg1 (W0 m ρ c))))))
theorem keep_arg2 : W6 m ρ c (Proc.devRef .tc main_arg2) = W0 m ρ c (Proc.devRef .tc main_arg2) :=
  (W6_of_ne m ρ c main_arg2 (by decide)).trans ((KHost0.C_keep_arg2 (W4 m ρ c)).trans ((W4_of_ne m ρ c main_arg2 (by decide)).trans
    ((KHost0.B_keep_arg2 (W2 m ρ c)).trans ((W2_of_ne m ρ c main_arg2 (by decide)).trans (KHost0.A_keep_arg2 (W0 m ρ c))))))
theorem keep_arg3 : W6 m ρ c (Proc.devRef .tc main_arg3) = W0 m ρ c (Proc.devRef .tc main_arg3) :=
  (W6_of_ne m ρ c main_arg3 (by decide)).trans ((KHost0.C_keep_arg3 (W4 m ρ c)).trans ((W4_of_ne m ρ c main_arg3 (by decide)).trans
    ((KHost0.B_keep_arg3 (W2 m ρ c)).trans ((W2_of_ne m ρ c main_arg3 (by decide)).trans (KHost0.A_keep_arg3 (W0 m ρ c))))))
theorem keep_arg4 : W6 m ρ c (Proc.devRef .tc main_arg4) = W0 m ρ c (Proc.devRef .tc main_arg4) :=
  (W6_of_ne m ρ c main_arg4 (by decide)).trans ((KHost0.C_keep_arg4 (W4 m ρ c)).trans ((W4_of_ne m ρ c main_arg4 (by decide)).trans
    ((KHost0.B_keep_arg4 (W2 m ρ c)).trans ((W2_of_ne m ρ c main_arg4 (by decide)).trans (KHost0.A_keep_arg4 (W0 m ρ c))))))
theorem keep_arg5 : W6 m ρ c (Proc.devRef .tc main_arg5) = W0 m ρ c (Proc.devRef .tc main_arg5) :=
  (W6_of_ne m ρ c main_arg5 (by decide)).trans ((KHost0.C_keep_arg5 (W4 m ρ c)).trans ((W4_of_ne m ρ c main_arg5 (by decide)).trans
    ((KHost0.B_keep_arg5 (W2 m ρ c)).trans ((W2_of_ne m ρ c main_arg5 (by decide)).trans (KHost0.A_keep_arg5 (W0 m ρ c))))))
theorem keep_arg6 : W6 m ρ c (Proc.devRef .tc main_arg6) = W0 m ρ c (Proc.devRef .tc main_arg6) :=
  (W6_of_ne m ρ c main_arg6 (by decide)).trans ((KHost0.C_keep_arg6 (W4 m ρ c)).trans ((W4_of_ne m ρ c main_arg6 (by decide)).trans
    ((KHost0.B_keep_arg6 (W2 m ρ c)).trans ((W2_of_ne m ρ c main_arg6 (by decide)).trans (KHost0.A_keep_arg6 (W0 m ρ c))))))
theorem keep_arg7 : W6 m ρ c (Proc.devRef .tc main_arg7) = W0 m ρ c (Proc.devRef .tc main_arg7) :=
  (W6_of_ne m ρ c main_arg7 (by decide)).trans ((KHost0.C_keep_arg7 (W4 m ρ c)).trans ((W4_of_ne m ρ c main_arg7 (by decide)).trans
    ((KHost0.B_keep_arg7 (W2 m ρ c)).trans ((W2_of_ne m ρ c main_arg7 (by decide)).trans (KHost0.A_keep_arg7 (W0 m ρ c))))))
theorem keep_arg8 : W6 m ρ c (Proc.devRef .tc main_arg8) = W0 m ρ c (Proc.devRef .tc main_arg8) :=
  (W6_of_ne m ρ c main_arg8 (by decide)).trans ((KHost0.C_keep_arg8 (W4 m ρ c)).trans ((W4_of_ne m ρ c main_arg8 (by decide)).trans
    ((KHost0.B_keep_arg8 (W2 m ρ c)).trans ((W2_of_ne m ρ c main_arg8 (by decide)).trans (KHost0.A_keep_arg8 (W0 m ρ c))))))
theorem keep_arg9 : W6 m ρ c (Proc.devRef .tc main_arg9) = W0 m ρ c (Proc.devRef .tc main_arg9) :=
  (W6_of_ne m ρ c main_arg9 (by decide)).trans ((KHost0.C_keep_arg9 (W4 m ρ c)).trans ((W4_of_ne m ρ c main_arg9 (by decide)).trans
    ((KHost0.B_keep_arg9 (W2 m ρ c)).trans ((W2_of_ne m ρ c main_arg9 (by decide)).trans (KHost0.A_keep_arg9 (W0 m ρ c))))))
theorem keep_arg10 : W6 m ρ c (Proc.devRef .tc main_arg10) = W0 m ρ c (Proc.devRef .tc main_arg10) :=
  (W6_of_ne m ρ c main_arg10 (by decide)).trans ((KHost0.C_keep_arg10 (W4 m ρ c)).trans ((W4_of_ne m ρ c main_arg10 (by decide)).trans
    ((KHost0.B_keep_arg10 (W2 m ρ c)).trans ((W2_of_ne m ρ c main_arg10 (by decide)).trans (KHost0.A_keep_arg10 (W0 m ρ c))))))
theorem keep_arg11 : W6 m ρ c (Proc.devRef .tc main_arg11) = W0 m ρ c (Proc.devRef .tc main_arg11) :=
  (W6_of_ne m ρ c main_arg11 (by decide)).trans ((KHost0.C_keep_arg11 (W4 m ρ c)).trans ((W4_of_ne m ρ c main_arg11 (by decide)).trans
    ((KHost0.B_keep_arg11 (W2 m ρ c)).trans ((W2_of_ne m ρ c main_arg11 (by decide)).trans (KHost0.A_keep_arg11 (W0 m ρ c))))))
theorem keep_arg12 : W6 m ρ c (Proc.devRef .tc main_arg12) = W0 m ρ c (Proc.devRef .tc main_arg12) :=
  (W6_of_ne m ρ c main_arg12 (by decide)).trans ((KHost0.C_keep_arg12 (W4 m ρ c)).trans ((W4_of_ne m ρ c main_arg12 (by decide)).trans
    ((KHost0.B_keep_arg12 (W2 m ρ c)).trans ((W2_of_ne m ρ c main_arg12 (by decide)).trans (KHost0.A_keep_arg12 (W0 m ρ c))))))
/-- The edge sources, computed in the first stretch, stay for the later layers. -/
theorem made_v1 : (W6 m ρ c (Proc.devRef .tc main_v1) : IVec S600000 32) = srcOf (W0 m ρ c (Proc.devRef .tc main_arg1)) :=
  (W6_of_ne m ρ c main_v1 (by decide)).trans ((KHost0.C_keep_v1 (W4 m ρ c)).trans ((W4_of_ne m ρ c main_v1 (by decide)).trans
    ((KHost0.B_keep_v1 (W2 m ρ c)).trans ((W2_of_ne m ρ c main_v1 (by decide)).trans (KHost0.A_src (W0 m ρ c))))))
/-- The edge targets, computed in the first stretch, stay for the later layers. -/
theorem made_v3 : (W6 m ρ c (Proc.devRef .tc main_v3) : IVec S600000 32) = dstOf (W0 m ρ c (Proc.devRef .tc main_arg1)) :=
  (W6_of_ne m ρ c main_v3 (by decide)).trans ((KHost0.C_keep_v3 (W4 m ρ c)).trans ((W4_of_ne m ρ c main_v3 (by decide)).trans
    ((KHost0.B_keep_v3 (W2 m ρ c)).trans ((W2_of_ne m ρ c main_v3 (by decide)).trans (KHost0.A_dst (W0 m ρ c))))))

end Cert.KernelIdeal.KLayer0

end
-- ==== Proof.KHost1.lean ====
/-
  Layer 1's host-side quantities, read from the three stretches of host operations around its regions, for any
  contents `X` of the buffers when a stretch is entered: the neighbourhood sums, the layer's slices of the weight and
  parameter stacks (a vector of length 128 laid out as one row), and the column means and variances formed from the
  accumulated column sums. A stretch leaves every buffer it does not write as it found it.
-/
import proofs.«120577_j28003186770423_1_alg».proof.Proof.Gen.KernelIdeal.Launch
import proofs.«120577_j28003186770423_1_alg».proof.Proof.KDefs
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KHost1

open Idealize.ShloMosaic Idealize.ShloMosaic.ValueIdx Idealize.ShloMosaic.StableHlo Cert.KernelIdeal Cert.KernelIdeal.Gen Cert.KernelIdeal.K Cert.Lib

/-- A stretch of host operations leaves a buffer none of them writes as it was. -/
local macro "keep_host " h:ident : tactic => `(tactic| (
  refine StableHlo.after_of_forall_not_mem _ _ (List.forall_iff_forall_mem.mp ?_)
  simp only [$h:ident, List.Forall, StableHlo.nullary_writes, StableHlo.unary_writes, StableHlo.binary_writes, StableHlo.ternary_writes,
    StableHlo.quaternary_writes, StableHlo.reshape_writes, Finset.mem_singleton]
  repeat' apply And.intro
  all_goals exact StableHlo.devRef_ne_of_ne (by decide)))

variable (X : Valuation τ sig (Elt Ideal))

/-! ## Before the first region -/

set_option maxHeartbeats 1000000 in
/-- The neighbourhood sums of the layer's input. -/
theorem A_agg : (after (hostOps3 (F := Ideal)) X (Proc.devRef .tc main_v60) : FVec Ideal S100000x128 .f32)
    = aggOf (X (Proc.devRef .tc main_v50)) (X (Proc.devRef .tc main_v1)) (X (Proc.devRef .tc main_v3)) := by
  after_results_simp <;> rfl

/-- The first linear map's weights. -/
theorem A_w1 : (after (hostOps3 (F := Ideal)) X (Proc.devRef .tc main_v62) : FVec Ideal S128x128 .f32) = mat 1 (X (Proc.devRef .tc main_arg3)) slices_S4x128x128_S1x128x128_1_0_0 := by
  after_results_simp <;> rfl

/-- The first linear map's bias, as one row. -/
theorem A_b1 : row (a := 128) (after (hostOps3 (F := Ideal)) X (Proc.devRef .tc main_v65)) = cur1 (vec 1 (X (Proc.devRef .tc main_arg4)) slices_S4x128_S1x128_1_0) := by
  have e : (after (hostOps3 (F := Ideal)) X (Proc.devRef .tc main_v65) : FVec Ideal S1x128 .f32)
      = shapeCast S1x128 (vec 1 (X (Proc.devRef .tc main_arg4)) slices_S4x128_S1x128_1_0) shapeCasts_S128_S1x128 := by
    after_results_simp <;> rfl
  funext j
  unfold row cur1
  rw [e]
  exact shapeCast_a_1a_apply _ _ _ _

theorem A_keep_v50 : after (hostOps3 (F := Ideal)) X (Proc.devRef .tc main_v50) = X (Proc.devRef .tc main_v50) := by keep_host hostOps3
theorem A_keep_arg0 : after (hostOps3 (F := Ideal)) X (Proc.devRef .tc main_arg0) = X (Proc.devRef .tc main_arg0) := by keep_host hostOps3
theorem A_keep_arg1 : after (hostOps3 (F := Ideal)) X (Proc.devRef .tc main_arg1) = X (Proc.devRef .tc main_arg1) := by keep_host hostOps3
theorem A_keep_arg2 : after (hostOps3 (F := Ideal)) X (Proc.devRef .tc main_arg2) = X (Proc.devRef .tc main_arg2) := by keep_host hostOps3
theorem A_keep_arg3 : after (hostOps3 (F := Ideal)) X (Proc.devRef .tc main_arg3) = X (Proc.devRef .tc main_arg3) := by keep_host hostOps3
theorem A_keep_arg4 : after (hostOps3 (F := Ideal)) X (Proc.devRef .tc main_arg4) = X (Proc.devRef .tc main_arg4) := by keep_host hostOps3
theorem A_keep_arg5 : after (hostOps3 (F := Ideal)) X (Proc.devRef .tc main_arg5) = X (Proc.devRef .tc main_arg5) := by keep_host hostOps3
theorem A_keep_arg6 : after (hostOps3 (F := Ideal)) X (Proc.devRef .tc main_arg6) = X (Proc.devRef .tc main_arg6) := by keep_host hostOps3
theorem A_keep_arg7 : after (hostOps3 (F := Ideal)) X (Proc.devRef .tc main_arg7) = X (Proc.devRef .tc main_arg7) := by keep_host hostOps3
theorem A_keep_arg8 : after (hostOps3 (F := Ideal)) X (Proc.devRef .tc main_arg8) = X (Proc.devRef .tc main_arg8) := by keep_host hostOps3
theorem A_keep_arg9 : after (hostOps3 (F := Ideal)) X (Proc.devRef .tc main_arg9) = X (Proc.devRef .tc main_arg9) := by keep_host hostOps3
theorem A_keep_arg10 : after (hostOps3 (F := Ideal)) X (Proc.devRef .tc main_arg10) = X (Proc.devRef .tc main_arg10) := by keep_host hostOps3
theorem A_keep_arg11 : after (hostOps3 (F := Ideal)) X (Proc.devRef .tc main_arg11) = X (Proc.devRef .tc main_arg11) := by keep_host hostOps3
theorem A_keep_arg12 : after (hostOps3 (F := Ideal)) X (Proc.devRef .tc main_arg12) = X (Proc.devRef .tc main_arg12) := by keep_host hostOps3
theorem A_keep_v1 : after (hostOps3 (F := Ideal)) X (Proc.devRef .tc main_v1) = X (Proc.devRef .tc main_v1) := by keep_host hostOps3
theorem A_keep_v3 : after (hostOps3 (F := Ideal)) X (Proc.devRef .tc main_v3) = X (Proc.devRef .tc main_v3) := by keep_host hostOps3

/-! ## Between the first and the second region -/

/-- The first column means: the accumulated column sums divided by the number of rows. -/
theorem B_mean : row (a := 128) (after (hostOps4 (F := Ideal)) X (Proc.devRef .tc main_v68)) = fun j => Ideal.div (row (a := 128) (X (Proc.devRef .tc main_v66_1)) j) (Ideal.ofBits .f32 0x47C35000#32) := by
  have e : (after (hostOps4 (F := Ideal)) X (Proc.devRef .tc main_v68) : FVec Ideal S1x128 .f32) = Host.divf (F := Ideal) (X (Proc.devRef .tc main_v66_1)) (broadcastInDim S1x128 ![] bcast_S_S1x128 (constant (F := Ideal) S_ .f32 0x47C35000#32)) := by
    after_results_simp <;> rfl
  funext j
  unfold row
  rw [e]
  rfl

/-- The first column variances: the accumulated sums of squares divided by the number of rows, less the squared means. -/
theorem B_var : row (a := 128) (after (hostOps4 (F := Ideal)) X (Proc.devRef .tc main_v72)) = fun j => Ideal.div (row (a := 128) (X (Proc.devRef .tc main_v66_2)) j) (Ideal.ofBits .f32 0x47C35000#32) - Ideal.div (row (a := 128) (X (Proc.devRef .tc main_v66_1)) j) (Ideal.ofBits .f32 0x47C35000#32) * Ideal.div (row (a := 128) (X (Proc.devRef .tc main_v66_1)) j) (Ideal.ofBits .f32 0x47C35000#32) := by
  have e : (after (hostOps4 (F := Ideal)) X (Proc.devRef .tc main_v72) : FVec Ideal S1x128 .f32)
      = subf (Host.divf (F := Ideal) (X (Proc.devRef .tc main_v66_2)) (broadcastInDim S1x128 ![] bcast_S_S1x128 (constant (F := Ideal) S_ .f32 0x47C35000#32))) (mulf (Host.divf (F := Ideal) (X (Proc.devRef .tc main_v66_1)) (broadcastInDim S1x128 ![] bcast_S_S1x128 (constant (F := Ideal) S_ .f32 0x47C35000#32))) (Host.divf (F := Ideal) (X (Proc.devRef .tc main_v66_1)) (broadcastInDim S1x128 ![] bcast_S_S1x128 (constant (F := Ideal) S_ .f32 0x47C35000#32)))) := by
    after_results_simp <;> rfl
  funext j
  unfold row
  rw [e]
  rfl

/-- The first normalization's scale, as one row. -/
theorem B_g1 : row (a := 128) (after (hostOps4 (F := Ideal)) X (Proc.devRef .tc main_v81)) = cur1 (vec 1 (X (Proc.devRef .tc main_arg5)) slices_S4x128_S1x128_1_0) := by
  have e : (after (hostOps4 (F := Ideal)) X (Proc.devRef .tc main_v81) : FVec Ideal S1x128 .f32)
      = shapeCast S1x128 (vec 1 (X (Proc.devRef .tc main_arg5)) slices_S4x128_S1x128_1_0) shapeCasts_S128_S1x128 := by
    after_results_simp <;> rfl
  funext j
  unfold row cur1
  rw [e]
  exact shapeCast_a_1a_apply _ _ _ _

/-- The first normalization's shift, as one row. -/
theorem B_c1 : row (a := 128) (after (hostOps4 (F := Ideal)) X (Proc.devRef .tc main_v82)) = cur1 (vec 1 (X (Proc.devRef .tc main_arg6)) slices_S4x128_S1x128_1_0) := by
  have e : (after (hostOps4 (F := Ideal)) X (Proc.devRef .tc main_v82) : FVec Ideal S1x128 .f32)
      = shapeCast S1x128 (vec 1 (X (Proc.devRef .tc main_arg6)) slices_S4x128_S1x128_1_0) shapeCasts_S128_S1x128 := by
    after_results_simp <;> rfl
  funext j
  unfold row cur1
  rw [e]
  exact shapeCast_a_1a_apply _ _ _ _

/-- The second linear map's weights. -/
theorem B_w2 : (after (hostOps4 (F := Ideal)) X (Proc.devRef .tc main_v78) : FVec Ideal S128x128 .f32) = mat 1 (X (Proc.devRef .tc main_arg7)) slices_S4x128x128_S1x128x128_1_0_0 := by
  after_results_simp <;> rfl

/-- The second linear map's bias, as one row. -/
theorem B_b2 : row (a := 128) (after (hostOps4 (F := Ideal)) X (Proc.devRef .tc main_v83)) = cur1 (vec 1 (X (Proc.devRef .tc main_arg8)) slices_S4x128_S1x128_1_0) := by
  have e : (after (hostOps4 (F := Ideal)) X (Proc.devRef .tc main_v83) : FVec Ideal S1x128 .f32)
      = shapeCast S1x128 (vec 1 (X (Proc.devRef .tc main_arg8)) slices_S4x128_S1x128_1_0) shapeCasts_S128_S1x128 := by
    after_results_simp <;> rfl
  funext j
  unfold row cur1
  rw [e]
  exact shapeCast_a_1a_apply _ _ _ _

theorem B_keep_v66_0 : after (hostOps4 (F := Ideal)) X (Proc.devRef .tc main_v66_0) = X (Proc.devRef .tc main_v66_0) := by keep_host hostOps4
theorem B_keep_arg0 : after (hostOps4 (F := Ideal)) X (Proc.devRef .tc main_arg0) = X (Proc.devRef .tc main_arg0) := by keep_host hostOps4
theorem B_keep_arg1 : after (hostOps4 (F := Ideal)) X (Proc.devRef .tc main_arg1) = X (Proc.devRef .tc main_arg1) := by keep_host hostOps4
theorem B_keep_arg2 : after (hostOps4 (F := Ideal)) X (Proc.devRef .tc main_arg2) = X (Proc.devRef .tc main_arg2) := by keep_host hostOps4
theorem B_keep_arg3 : after (hostOps4 (F := Ideal)) X (Proc.devRef .tc main_arg3) = X (Proc.devRef .tc main_arg3) := by keep_host hostOps4
theorem B_keep_arg4 : after (hostOps4 (F := Ideal)) X (Proc.devRef .tc main_arg4) = X (Proc.devRef .tc main_arg4) := by keep_host hostOps4
theorem B_keep_arg5 : after (hostOps4 (F := Ideal)) X (Proc.devRef .tc main_arg5) = X (Proc.devRef .tc main_arg5) := by keep_host hostOps4
theorem B_keep_arg6 : after (hostOps4 (F := Ideal)) X (Proc.devRef .tc main_arg6) = X (Proc.devRef .tc main_arg6) := by keep_host hostOps4
theorem B_keep_arg7 : after (hostOps4 (F := Ideal)) X (Proc.devRef .tc main_arg7) = X (Proc.devRef .tc main_arg7) := by keep_host hostOps4
theorem B_keep_arg8 : after (hostOps4 (F := Ideal)) X (Proc.devRef .tc main_arg8) = X (Proc.devRef .tc main_arg8) := by keep_host hostOps4
theorem B_keep_arg9 : after (hostOps4 (F := Ideal)) X (Proc.devRef .tc main_arg9) = X (Proc.devRef .tc main_arg9) := by keep_host hostOps4
theorem B_keep_arg10 : after (hostOps4 (F := Ideal)) X (Proc.devRef .tc main_arg10) = X (Proc.devRef .tc main_arg10) := by keep_host hostOps4
theorem B_keep_arg11 : after (hostOps4 (F := Ideal)) X (Proc.devRef .tc main_arg11) = X (Proc.devRef .tc main_arg11) := by keep_host hostOps4
theorem B_keep_arg12 : after (hostOps4 (F := Ideal)) X (Proc.devRef .tc main_arg12) = X (Proc.devRef .tc main_arg12) := by keep_host hostOps4
theorem B_keep_v1 : after (hostOps4 (F := Ideal)) X (Proc.devRef .tc main_v1) = X (Proc.devRef .tc main_v1) := by keep_host hostOps4
theorem B_keep_v3 : after (hostOps4 (F := Ideal)) X (Proc.devRef .tc main_v3) = X (Proc.devRef .tc main_v3) := by keep_host hostOps4
theorem B_keep_v50 : after (hostOps4 (F := Ideal)) X (Proc.devRef .tc main_v50) = X (Proc.devRef .tc main_v50) := by keep_host hostOps4

/-! ## Between the second and the third region -/

/-- The second column means: the accumulated column sums divided by the number of rows. -/
theorem C_mean : row (a := 128) (after (hostOps5 (F := Ideal)) X (Proc.devRef .tc main_v86)) = fun j => Ideal.div (row (a := 128) (X (Proc.devRef .tc main_v84_1)) j) (Ideal.ofBits .f32 0x47C35000#32) := by
  have e : (after (hostOps5 (F := Ideal)) X (Proc.devRef .tc main_v86) : FVec Ideal S1x128 .f32) = Host.divf (F := Ideal) (X (Proc.devRef .tc main_v84_1)) (broadcastInDim S1x128 ![] bcast_S_S1x128 (constant (F := Ideal) S_ .f32 0x47C35000#32)) := by
    after_results_simp <;> rfl
  funext j
  unfold row
  rw [e]
  rfl

/-- The second column variances: the accumulated sums of squares divided by the number of rows, less the squared means. -/
theorem C_var : row (a := 128) (after (hostOps5 (F := Ideal)) X (Proc.devRef .tc main_v90)) = fun j => Ideal.div (row (a := 128) (X (Proc.devRef .tc main_v84_2)) j) (Ideal.ofBits .f32 0x47C35000#32) - Ideal.div (row (a := 128) (X (Proc.devRef .tc main_v84_1)) j) (Ideal.ofBits .f32 0x47C35000#32) * Ideal.div (row (a := 128) (X (Proc.devRef .tc main_v84_1)) j) (Ideal.ofBits .f32 0x47C35000#32) := by
  have e : (after (hostOps5 (F := Ideal)) X (Proc.devRef .tc main_v90) : FVec Ideal S1x128 .f32)
      = subf (Host.divf (F := Ideal) (X (Proc.devRef .tc main_v84_2)) (broadcastInDim S1x128 ![] bcast_S_S1x128 (constant (F := Ideal) S_ .f32 0x47C35000#32))) (mulf (Host.divf (F := Ideal) (X (Proc.devRef .tc main_v84_1)) (broadcastInDim S1x128 ![] bcast_S_S1x128 (constant (F := Ideal) S_ .f32 0x47C35000#32))) (Host.divf (F := Ideal) (X (Proc.devRef .tc main_v84_1)) (broadcastInDim S1x128 ![] bcast_S_S1x128 (constant (F := Ideal) S_ .f32 0x47C35000#32)))) := by
    after_results_simp <;> rfl
  funext j
  unfold row
  rw [e]
  rfl

/-- The second normalization's scale, as one row. -/
theorem C_g2 : row (a := 128) (after (hostOps5 (F := Ideal)) X (Proc.devRef .tc main_v95)) = cur1 (vec 1 (X (Proc.devRef .tc main_arg9)) slices_S4x128_S1x128_1_0) := by
  have e : (after (hostOps5 (F := Ideal)) X (Proc.devRef .tc main_v95) : FVec Ideal S1x128 .f32)
      = shapeCast S1x128 (vec 1 (X (Proc.devRef .tc main_arg9)) slices_S4x128_S1x128_1_0) shapeCasts_S128_S1x128 := by
    after_results_simp <;> rfl
  funext j
  unfold row cur1
  rw [e]
  exact shapeCast_a_1a_apply _ _ _ _

/-- The second normalization's shift, as one row. -/
theorem C_c2 : row (a := 128) (after (hostOps5 (F := Ideal)) X (Proc.devRef .tc main_v96)) = cur1 (vec 1 (X (Proc.devRef .tc main_arg10)) slices_S4x128_S1x128_1_0) := by
  have e : (after (hostOps5 (F := Ideal)) X (Proc.devRef .tc main_v96) : FVec Ideal S1x128 .f32)
      = shapeCast S1x128 (vec 1 (X (Proc.devRef .tc main_arg10)) slices_S4x128_S1x128_1_0) shapeCasts_S128_S1x128 := by
    after_results_simp <;> rfl
  funext j
  unfold row cur1
  rw [e]
  exact shapeCast_a_1a_apply _ _ _ _

theorem C_keep_v84_0 : after (hostOps5 (F := Ideal)) X (Proc.devRef .tc main_v84_0) = X (Proc.devRef .tc main_v84_0) := by keep_host hostOps5
theorem C_keep_arg0 : after (hostOps5 (F := Ideal)) X (Proc.devRef .tc main_arg0) = X (Proc.devRef .tc main_arg0) := by keep_host hostOps5
theorem C_keep_arg1 : after (hostOps5 (F := Ideal)) X (Proc.devRef .tc main_arg1) = X (Proc.devRef .tc main_arg1) := by keep_host hostOps5
theorem C_keep_arg2 : after (hostOps5 (F := Ideal)) X (Proc.devRef .tc main_arg2) = X (Proc.devRef .tc main_arg2) := by keep_host hostOps5
theorem C_keep_arg3 : after (hostOps5 (F := Ideal)) X (Proc.devRef .tc main_arg3) = X (Proc.devRef .tc main_arg3) := by keep_host hostOps5
theorem C_keep_arg4 : after (hostOps5 (F := Ideal)) X (Proc.devRef .tc main_arg4) = X (Proc.devRef .tc main_arg4) := by keep_host hostOps5
theorem C_keep_arg5 : after (hostOps5 (F := Ideal)) X (Proc.devRef .tc main_arg5) = X (Proc.devRef .tc main_arg5) := by keep_host hostOps5
theorem C_keep_arg6 : after (hostOps5 (F := Ideal)) X (Proc.devRef .tc main_arg6) = X (Proc.devRef .tc main_arg6) := by keep_host hostOps5
theorem C_keep_arg7 : after (hostOps5 (F := Ideal)) X (Proc.devRef .tc main_arg7) = X (Proc.devRef .tc main_arg7) := by keep_host hostOps5
theorem C_keep_arg8 : after (hostOps5 (F := Ideal)) X (Proc.devRef .tc main_arg8) = X (Proc.devRef .tc main_arg8) := by keep_host hostOps5
theorem C_keep_arg9 : after (hostOps5 (F := Ideal)) X (Proc.devRef .tc main_arg9) = X (Proc.devRef .tc main_arg9) := by keep_host hostOps5
theorem C_keep_arg10 : after (hostOps5 (F := Ideal)) X (Proc.devRef .tc main_arg10) = X (Proc.devRef .tc main_arg10) := by keep_host hostOps5
theorem C_keep_arg11 : after (hostOps5 (F := Ideal)) X (Proc.devRef .tc main_arg11) = X (Proc.devRef .tc main_arg11) := by keep_host hostOps5
theorem C_keep_arg12 : after (hostOps5 (F := Ideal)) X (Proc.devRef .tc main_arg12) = X (Proc.devRef .tc main_arg12) := by keep_host hostOps5
theorem C_keep_v1 : after (hostOps5 (F := Ideal)) X (Proc.devRef .tc main_v1) = X (Proc.devRef .tc main_v1) := by keep_host hostOps5
theorem C_keep_v3 : after (hostOps5 (F := Ideal)) X (Proc.devRef .tc main_v3) = X (Proc.devRef .tc main_v3) := by keep_host hostOps5
theorem C_keep_v50 : after (hostOps5 (F := Ideal)) X (Proc.devRef .tc main_v50) = X (Proc.devRef .tc main_v50) := by keep_host hostOps5

end Cert.KernelIdeal.KHost1

end
-- ==== Proof.KCore1.lean ====
/-
  Layer 1 as one function of what its buffers hold when it is entered.

  `Y0` is the contents before the layer's first stretch of host operations; `Y2`, `Y4`, `Y6` are the contents after its
  three regions, each described by what the region is known to compute from the contents it was entered with
  (the first linear map with its column sums, the normalization followed by the second linear map with its column
  sums, the last normalization) and by the buffers it leaves alone. Reading the host stretches in between, the
  layer's output is the layer function of its input, the neighbourhood sums and the layer's slices of the weights.
-/
import proofs.«120577_j28003186770423_1_alg».proof.Proof.KHost1
import proofs.«120577_j28003186770423_1_alg».proof.Proof.GinMath

noncomputable section

namespace Cert.KernelIdeal.KCore1

open Idealize.ShloMosaic Idealize.ShloMosaic.ValueIdx Idealize.ShloMosaic.StableHlo Cert.KernelIdeal Cert.KernelIdeal.Gen Cert.KernelIdeal.K Cert.Lib Cert.Gin

variable (Y0 Y2 Y4 Y6 : Valuation τ sig (Elt Ideal))

/-- The layer's output is the layer function of its input with the neighbourhood sums added, the layer's weights and parameters. -/
theorem out_eq
    (hz1 : cur2 (a := 100000) (b := 128) (Y2 (Proc.devRef .tc main_v66_0)) = lin (fun r k => cur2 (a := 100000) (b := 128) (after (hostOps3 (F := Ideal)) Y0 (Proc.devRef .tc main_v50)) r k + cur2 (a := 100000) (b := 128) (after (hostOps3 (F := Ideal)) Y0 (Proc.devRef .tc main_v60)) r k) (cur2 (a := 128) (b := 128) (after (hostOps3 (F := Ideal)) Y0 (Proc.devRef .tc main_v62))) (row (a := 128) (after (hostOps3 (F := Ideal)) Y0 (Proc.devRef .tc main_v65))))
    (hs1 : row (a := 128) (Y2 (Proc.devRef .tc main_v66_1)) = fun j => ∑ r, cur2 (a := 100000) (b := 128) (Y2 (Proc.devRef .tc main_v66_0)) r j)
    (hq1 : row (a := 128) (Y2 (Proc.devRef .tc main_v66_2)) = fun j => ∑ r, cur2 (a := 100000) (b := 128) (Y2 (Proc.devRef .tc main_v66_0)) r j * cur2 (a := 100000) (b := 128) (Y2 (Proc.devRef .tc main_v66_0)) r j)
    (k2_5 : Y2 (Proc.devRef .tc main_arg5) = (after (hostOps3 (F := Ideal)) Y0 (Proc.devRef .tc main_arg5)))
    (k2_6 : Y2 (Proc.devRef .tc main_arg6) = (after (hostOps3 (F := Ideal)) Y0 (Proc.devRef .tc main_arg6)))
    (k2_7 : Y2 (Proc.devRef .tc main_arg7) = (after (hostOps3 (F := Ideal)) Y0 (Proc.devRef .tc main_arg7)))
    (k2_8 : Y2 (Proc.devRef .tc main_arg8) = (after (hostOps3 (F := Ideal)) Y0 (Proc.devRef .tc main_arg8)))
    (k2_9 : Y2 (Proc.devRef .tc main_arg9) = (after (hostOps3 (F := Ideal)) Y0 (Proc.devRef .tc main_arg9)))
    (k2_10 : Y2 (Proc.devRef .tc main_arg10) = (after (hostOps3 (F := Ideal)) Y0 (Proc.devRef .tc main_arg10)))
    (hz2 : cur2 (a := 100000) (b := 128) (Y4 (Proc.devRef .tc main_v84_0)) = lin (norm (cur2 (a := 100000) (b := 128) (after (hostOps4 (F := Ideal)) Y2 (Proc.devRef .tc main_v66_0))) (row (a := 128) (after (hostOps4 (F := Ideal)) Y2 (Proc.devRef .tc main_v68))) (row (a := 128) (after (hostOps4 (F := Ideal)) Y2 (Proc.devRef .tc main_v72))) (row (a := 128) (after (hostOps4 (F := Ideal)) Y2 (Proc.devRef .tc main_v81))) (row (a := 128) (after (hostOps4 (F := Ideal)) Y2 (Proc.devRef .tc main_v82)))) (cur2 (a := 128) (b := 128) (after (hostOps4 (F := Ideal)) Y2 (Proc.devRef .tc main_v78))) (row (a := 128) (after (hostOps4 (F := Ideal)) Y2 (Proc.devRef .tc main_v83))))
    (hs2 : row (a := 128) (Y4 (Proc.devRef .tc main_v84_1)) = fun j => ∑ r, cur2 (a := 100000) (b := 128) (Y4 (Proc.devRef .tc main_v84_0)) r j)
    (hq2 : row (a := 128) (Y4 (Proc.devRef .tc main_v84_2)) = fun j => ∑ r, cur2 (a := 100000) (b := 128) (Y4 (Proc.devRef .tc main_v84_0)) r j * cur2 (a := 100000) (b := 128) (Y4 (Proc.devRef .tc main_v84_0)) r j)
    (k4_9 : Y4 (Proc.devRef .tc main_arg9) = (after (hostOps4 (F := Ideal)) Y2 (Proc.devRef .tc main_arg9)))
    (k4_10 : Y4 (Proc.devRef .tc main_arg10) = (after (hostOps4 (F := Ideal)) Y2 (Proc.devRef .tc main_arg10)))
    (hout : cur2 (a := 100000) (b := 128) (Y6 (Proc.devRef .tc main_v97)) = norm (cur2 (a := 100000) (b := 128) (after (hostOps5 (F := Ideal)) Y4 (Proc.devRef .tc main_v84_0))) (row (a := 128) (after (hostOps5 (F := Ideal)) Y4 (Proc.devRef .tc main_v86))) (row (a := 128) (after (hostOps5 (F := Ideal)) Y4 (Proc.devRef .tc main_v90))) (row (a := 128) (after (hostOps5 (F := Ideal)) Y4 (Proc.devRef .tc main_v95))) (row (a := 128) (after (hostOps5 (F := Ideal)) Y4 (Proc.devRef .tc main_v96)))) :
    cur2 (a := 100000) (b := 128) (Y6 (Proc.devRef .tc main_v97))
      = layerK (fun r k => cur2 (a := 100000) (b := 128) (Y0 (Proc.devRef .tc main_v50)) r k + cur2 (aggOf (Y0 (Proc.devRef .tc main_v50)) (Y0 (Proc.devRef .tc main_v1)) (Y0 (Proc.devRef .tc main_v3))) r k)
          (cur2 (mat 1 (Y0 (Proc.devRef .tc main_arg3)) slices_S4x128x128_S1x128x128_1_0_0)) (cur1 (vec 1 (Y0 (Proc.devRef .tc main_arg4)) slices_S4x128_S1x128_1_0)) (cur1 (vec 1 (Y0 (Proc.devRef .tc main_arg5)) slices_S4x128_S1x128_1_0)) (cur1 (vec 1 (Y0 (Proc.devRef .tc main_arg6)) slices_S4x128_S1x128_1_0))
          (cur2 (mat 1 (Y0 (Proc.devRef .tc main_arg7)) slices_S4x128x128_S1x128x128_1_0_0)) (cur1 (vec 1 (Y0 (Proc.devRef .tc main_arg8)) slices_S4x128_S1x128_1_0)) (cur1 (vec 1 (Y0 (Proc.devRef .tc main_arg9)) slices_S4x128_S1x128_1_0)) (cur1 (vec 1 (Y0 (Proc.devRef .tc main_arg10)) slices_S4x128_S1x128_1_0)) := by
  -- the first linear map
  rw [KHost1.A_keep_v50 Y0, KHost1.A_agg Y0, KHost1.A_w1 Y0, KHost1.A_b1 Y0] at hz1
  -- its column statistics, and the first normalization's parameters
  have hm1 := KHost1.B_mean Y2
  have hv1 := KHost1.B_var Y2
  rw [hs1] at hm1 hv1
  rw [hq1] at hv1
  have hg1 := KHost1.B_g1 Y2
  have hc1 := KHost1.B_c1 Y2
  have hw2 := KHost1.B_w2 Y2
  have hb2 := KHost1.B_b2 Y2
  rw [k2_5, KHost1.A_keep_arg5 Y0] at hg1
  rw [k2_6, KHost1.A_keep_arg6 Y0] at hc1
  rw [k2_7, KHost1.A_keep_arg7 Y0] at hw2
  rw [k2_8, KHost1.A_keep_arg8 Y0] at hb2
  rw [KHost1.B_keep_v66_0 Y2, hm1, hv1, hg1, hc1, hw2, hb2, hz1] at hz2
  -- the second linear map's column statistics, and the last normalization's parameters
  have hm2 := KHost1.C_mean Y4
  have hv2 := KHost1.C_var Y4
  rw [hs2] at hm2 hv2
  rw [hq2] at hv2
  have hg2 := KHost1.C_g2 Y4
  have hc2 := KHost1.C_c2 Y4
  rw [k4_9, KHost1.B_keep_arg9 Y2, k2_9, KHost1.A_keep_arg9 Y0] at hg2
  rw [k4_10, KHost1.B_keep_arg10 Y2, k2_10, KHost1.A_keep_arg10 Y0] at hc2
  rw [KHost1.C_keep_v84_0 Y4, hm2, hv2, hg2, hc2, hz2] at hout
  exact hout

end Cert.KernelIdeal.KCore1

end
-- ==== Proof.RegionFirstLinear3.lean ====
/-
  The first linear map of layer 1 on the whole node array, and its two column statistics.

  The region walks twenty blocks of 5000 consecutive rows.  On a block it adds the node features and the
  aggregated neighbour features entry by entry, multiplies the sum by the 128 by 128 weight matrix (a plain
  sum over the 128 inner positions), adds the bias row to every row, and stores the result; it also adds, into two
  rows of 128 running totals that start at zero on the first block, the sum down the block's rows of the
  result and of its square.  Read over the extended reals, where addition is commutative and associative with
  neutral zero, the three arrays after the region hold: entry (r, j) of the linear map; the sum over all
  100000 rows of column j; the sum over all rows of the square of column j.  No finiteness is needed.
-/
import proofs.«120577_j28003186770423_1_alg».proof.Proof.Gen.KernelIdeal.Frame
import proofs.«120577_j28003186770423_1_alg».proof.Proof.LibPlainDot
import proofs.«120577_j28003186770423_1_alg».proof.Proof.LibColumnSum
import proofs.«120577_j28003186770423_1_alg».proof.Proof.LibBlockSum
import proofs.«120577_j28003186770423_1_alg».proof.Proof.LibCurry
import proofs.«120577_j28003186770423_1_alg».proof.Proof.GinMath
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.FirstLinear3

open Cert.KernelIdeal Cert.KernelIdeal.Gen

open Cert.Lib Cert.Gin

/-- The node features when the region is entered. -/
abbrev hIn (V : (c : Dev nD) → (b : Ref sig .tc) → Buf (Elt Ideal) ((c : Thread nD τ).loc b)) (c : Dev nD) : S100000x128.Idx → EReal := V c (Pipeline.arrRef spec3 0)
/-- The aggregated neighbour features when the region is entered. -/
abbrev aggIn (V : (c : Dev nD) → (b : Ref sig .tc) → Buf (Elt Ideal) ((c : Thread nD τ).loc b)) (c : Dev nD) : S100000x128.Idx → EReal := V c (Pipeline.arrRef spec3 1)
/-- The weight matrix when the region is entered. -/
abbrev wIn (V : (c : Dev nD) → (b : Ref sig .tc) → Buf (Elt Ideal) ((c : Thread nD τ).loc b)) (c : Dev nD) : S128x128.Idx → EReal := V c (Pipeline.arrRef spec3 2)
/-- The bias row when the region is entered. -/
abbrev bIn (V : (c : Dev nD) → (b : Ref sig .tc) → Buf (Elt Ideal) ((c : Thread nD τ).loc b)) (c : Dev nD) : S1x128.Idx → EReal := V c (Pipeline.arrRef spec3 3)

/-- entry (r, j) of the layer's first linear map -/
def Z (V : (c : Dev nD) → (b : Ref sig .tc) → Buf (Elt Ideal) ((c : Thread nD τ).loc b)) (c : Dev nD) (r : Fin 100000) (j : Fin 128) : EReal :=
  (∑ k : Fin 128, (hIn V c (ix2 r k) + aggIn V c (ix2 r k)) * wIn V c (ix2 k j)) + bIn V c (ix2 0 j)

/-- The result array after the region. -/
abbrev zOut (V : (c : Dev nD) → (b : Ref sig .tc) → Buf (Elt Ideal) ((c : Thread nD τ).loc b)) (c : Dev nD) : S100000x128.Idx → EReal := (dat3 V c).arrAt 4 cfg3.N
/-- The array of column totals after the region. -/
abbrev sOut (V : (c : Dev nD) → (b : Ref sig .tc) → Buf (Elt Ideal) ((c : Thread nD τ).loc b)) (c : Dev nD) : S1x128.Idx → EReal := (dat3 V c).arrAt 5 cfg3.N
/-- The array of column totals of squares after the region. -/
abbrev qOut (V : (c : Dev nD) → (b : Ref sig .tc) → Buf (Elt Ideal) ((c : Thread nD τ).loc b)) (c : Dev nD) : S1x128.Idx → EReal := (dat3 V c).arrAt 6 cfg3.N

/-! ## The block's arithmetic at an entry -/

/-- The block's linear map at row p, column q: the inner sum over the 128 positions, plus the bias. -/
theorem lin_apply (x0 x1 : Vec Ideal S5000x128 .f32) (x2 : Vec Ideal S128x128 .f32) (x3 : Vec Ideal S1x128 .f32) (p : Fin 5000) (q : Fin 128) :
    k3_pay3 x0 x1 x2 x3 (ix2 p q)
      = (∑ k : Fin 128, (x0 (ix2 p k) + x1 (ix2 p k)) * x2 (ix2 k q)) + x3 (ix2 0 q) := by
  unfold k3_pay3
  refine (addf_apply _ _ _).trans ?_
  refine congrArg₂ (· + ·) ?_ ?_
  · refine (Cert.PlainDot.matmul_apply dot_S5000x128_S128x128_S5000x128_1_0_0_1_n_n ⟨rfl, rfl, rfl, rfl, rfl, rfl⟩ none _ _ p q).trans ?_
    refine Finset.sum_congr rfl fun k _ => ?_
    simp only [truncf_apply, addf_apply, shapeCast_self]
  · refine (broadcastTo_1b_ab_apply _ _ p q).trans ?_
    rw [shapeCast_self]

/-- The running column total after a block: what it held, plus the block's column sum of the linear map. -/
theorem colsum_apply (x0 x1 : Vec Ideal S5000x128 .f32) (x2 : Vec Ideal S128x128 .f32) (x3 : Vec Ideal S1x128 .f32) (xo : Vec Ideal S1x128 .f32) (q : Fin 128) :
    k3_pay4 x0 x1 x2 x3 xo (ix2 0 q) = xo (ix2 0 q) + ∑ p : Fin 5000, k3_pay3 x0 x1 x2 x3 (ix2 p q) := by
  unfold k3_pay4
  refine (addf_apply _ _ _).trans ?_
  refine congrArg₂ (· + ·) ?_ ?_
  · rw [shapeCast_self]
  · refine (shapeCast_a_1a_apply _ _ 0 q).trans ?_
    exact Cert.Lib.column_sum (k3_pay3 x0 x1 x2 x3) reduces_S5000x128_S128 (.inl rfl) rfl q

/-- The running total of squares after a block: what it held, plus the block's column sum of the squared linear map. -/
theorem colsq_apply (x0 x1 : Vec Ideal S5000x128 .f32) (x2 : Vec Ideal S128x128 .f32) (x3 : Vec Ideal S1x128 .f32) (xo : Vec Ideal S1x128 .f32) (q : Fin 128) :
    k3_pay5 x0 x1 x2 x3 xo (ix2 0 q)
      = xo (ix2 0 q) + ∑ p : Fin 5000, k3_pay3 x0 x1 x2 x3 (ix2 p q) * k3_pay3 x0 x1 x2 x3 (ix2 p q) := by
  unfold k3_pay5
  refine (addf_apply _ _ _).trans ?_
  refine congrArg₂ (· + ·) ?_ ?_
  · rw [shapeCast_self]
  · refine (shapeCast_a_1a_apply _ _ 0 q).trans ?_
    refine (Cert.Lib.column_sum (mulf (k3_pay3 x0 x1 x2 x3) (k3_pay3 x0 x1 x2 x3)) reduces_S5000x128_S128 (.inl rfl) rfl q).trans ?_
    rfl

/-- The two rows of totals start at zero. -/
theorem zero_row_s (q : Fin 128) : (k3_pay1 (F := Ideal)) (ix2 0 q) = 0 := Ideal.ofBits_zero_f32
theorem zero_row_q (q : Fin 128) : (k3_pay2 (F := Ideal)) (ix2 0 q) = 0 := Ideal.ofBits_zero_f32

theorem hz : (![0, 0] : Fin 2 → Nat) = fun _ => 0 := funext fun a => by fin_cases a <;> rfl

/-! ## What one grid point leaves in the three output blocks -/

/-- On the first block the result block is the linear map of the four input blocks. -/
theorem first_z (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond3_0 i) (x0 x1 : Vec Ideal S5000x128 .f32) (x2 : Vec Ideal S128x128 .f32) (x3 : Vec Ideal S1x128 .f32) :
    out3_A_4 c i a1 h1 a2 h2 a3 h3 a4 h4 a5 h5 a6 h6 a7 h7 hc x0 x1 x2 x3 = k3_pay3 x0 x1 x2 x3 := by
  unfold out3_A_4
  rw [View.read_writes_eq_canon _ _ _ (cover3_A_4 c i a1 h1 a2 h2 a3 h3 a4 h4 a5 h5 a6 h6 a7 h7 hc x0 x1 x2 x3)]
  unfold kernelRun3_A
  dsimp only
  try sl_unfold_words
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S1x128) hz]

/-- On the first block the row of totals is zeroed and then receives the block's column sums. -/
theorem first_s (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond3_0 i) (x0 x1 : Vec Ideal S5000x128 .f32) (x2 : Vec Ideal S128x128 .f32) (x3 : Vec Ideal S1x128 .f32) :
    out3_A_5 c i a1 h1 a2 h2 a3 h3 a4 h4 a5 h5 a6 h6 a7 h7 hc x0 x1 x2 x3 = k3_pay4 x0 x1 x2 x3 (k3_pay1 (F := Ideal)) := by
  unfold out3_A_5
  rw [View.read_writes_eq_canon _ _ _ (cover3_A_5 c i a1 h1 a2 h2 a3 h3 a4 h4 a5 h5 a6 h6 a7 h7 hc x0 x1 x2 x3)]
  unfold kernelRun3_A
  dsimp only
  try sl_unfold_words
  rw [View.canon_cons_unit_zero (S := S1x128) hz]
  simp only [View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- On the first block the row of square totals is zeroed and then receives the block's column sums of squares. -/
theorem first_q (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond3_0 i) (x0 x1 : Vec Ideal S5000x128 .f32) (x2 : Vec Ideal S128x128 .f32) (x3 : Vec Ideal S1x128 .f32) :
    out3_A_6 c i a1 h1 a2 h2 a3 h3 a4 h4 a5 h5 a6 h6 a7 h7 hc x0 x1 x2 x3 = k3_pay5 x0 x1 x2 x3 (k3_pay2 (F := Ideal)) := by
  unfold out3_A_6
  rw [View.read_writes_eq_canon _ _ _ (cover3_A_6 c i a1 h1 a2 h2 a3 h3 a4 h4 a5 h5 a6 h6 a7 h7 hc x0 x1 x2 x3)]
  unfold kernelRun3_A
  dsimp only
  try sl_unfold_words
  rw [View.canon_cons_unit_zero (S := S1x128) hz]
  simp only [View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- On a later block the result block is again the linear map of the four input blocks. -/
theorem later_z (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond3_0 i) (x0 x1 : Vec Ideal S5000x128 .f32) (x2 : Vec Ideal S128x128 .f32) (x3 : Vec Ideal S1x128 .f32) (xo5 xo6 : Vec Ideal S1x128 .f32) :
    out3_B_4 c i a1 h1 a2 h2 a3 h3 a4 h4 a5 h5 a6 h6 a7 h7 hc x0 x1 x2 x3 xo5 xo6 = k3_pay3 x0 x1 x2 x3 := by
  unfold out3_B_4
  rw [View.read_writes_eq_canon _ _ _ (cover3_B_4 c i a1 h1 a2 h2 a3 h3 a4 h4 a5 h5 a6 h6 a7 h7 hc x0 x1 x2 x3 xo5 xo6)]
  unfold kernelRun3_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- On a later block the row of totals keeps what it held and receives the block's column sums. -/
theorem later_s (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond3_0 i) (x0 x1 : Vec Ideal S5000x128 .f32) (x2 : Vec Ideal S128x128 .f32) (x3 : Vec Ideal S1x128 .f32) (xo5 xo6 : Vec Ideal S1x128 .f32) :
    out3_B_5 c i a1 h1 a2 h2 a3 h3 a4 h4 a5 h5 a6 h6 a7 h7 hc x0 x1 x2 x3 xo5 xo6 = k3_pay4 x0 x1 x2 x3 xo5 := by
  unfold out3_B_5
  rw [View.read_writes_eq_canon _ _ _ (cover3_B_5 c i a1 h1 a2 h2 a3 h3 a4 h4 a5 h5 a6 h6 a7 h7 hc x0 x1 x2 x3 xo5 xo6)]
  unfold kernelRun3_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- On a later block the row of square totals keeps what it held and receives the block's column sums of squares. -/
theorem later_q (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond3_0 i) (x0 x1 : Vec Ideal S5000x128 .f32) (x2 : Vec Ideal S128x128 .f32) (x3 : Vec Ideal S1x128 .f32) (xo5 xo6 : Vec Ideal S1x128 .f32) :
    out3_B_6 c i a1 h1 a2 h2 a3 h3 a4 h4 a5 h5 a6 h6 a7 h7 hc x0 x1 x2 x3 xo5 xo6 = k3_pay5 x0 x1 x2 x3 xo6 := by
  unfold out3_B_6
  rw [View.read_writes_eq_canon _ _ _ (cover3_B_6 c i a1 h1 a2 h2 a3 h3 a4 h4 a5 h5 a6 h6 a7 h7 hc x0 x1 x2 x3 xo5 xo6)]
  unfold kernelRun3_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- The three output blocks after the first grid point. -/
theorem outs_first (V : (c : Dev nD) → (b : Ref sig .tc) → Buf (Elt Ideal) ((c : Thread nD τ).loc b)) (c : Dev nD) (t : Fin cfg3.N) (h0 : t.val % 20 = 0) :
    outsAt3 V c t.val t.isLt
      = (k3_pay3 (iblk3 V c 0 t) (iblk3 V c 1 t) (iblk3 V c 2 t) (iblk3 V c 3 t), k3_pay4 (iblk3 V c 0 t) (iblk3 V c 1 t) (iblk3 V c 2 t) (iblk3 V c 3 t) (k3_pay1 (F := Ideal)), k3_pay5 (iblk3 V c 0 t) (iblk3 V c 1 t) (iblk3 V c 2 t) (iblk3 V c 3 t) (k3_pay2 (F := Ideal))) :=
  (outsAt3_A V c t h0).trans (congrArg₂ Prod.mk
    (first_z c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t))
    (congrArg₂ Prod.mk
      (first_s c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t))
      (first_q c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t))))

/-- The three output blocks after a later grid point, over what the point before left in the two rows of totals. -/
theorem outs_later (V : (c : Dev nD) → (b : Ref sig .tc) → Buf (Elt Ideal) ((c : Thread nD τ).loc b)) (c : Dev nD) (t : Fin cfg3.N) (h0 : ¬t.val % 20 = 0) :
    outsAt3 V c t.val t.isLt
      = (k3_pay3 (iblk3 V c 0 t) (iblk3 V c 1 t) (iblk3 V c 2 t) (iblk3 V c 3 t),
         k3_pay4 (iblk3 V c 0 t) (iblk3 V c 1 t) (iblk3 V c 2 t) (iblk3 V c 3 t) (outsAt3 V c (t.val - 1) (Nat.lt_of_le_of_lt (Nat.sub_le _ _) t.isLt)).2.1,
         k3_pay5 (iblk3 V c 0 t) (iblk3 V c 1 t) (iblk3 V c 2 t) (iblk3 V c 3 t) (outsAt3 V c (t.val - 1) (Nat.lt_of_le_of_lt (Nat.sub_le _ _) t.isLt)).2.2) :=
  (outsAt3_B V c t h0).trans (congrArg₂ Prod.mk
    (later_z c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) _ _)
    (congrArg₂ Prod.mk
      (later_s c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) _ _)
      (later_q c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) _ _)))

/-! ## The input blocks as rows of the arrays -/

/-- Where each window's block sits at grid point t: the three row-blocked windows at block t, the others at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, k) of the node-feature block at point t is row 5000 t + p of the array. -/
theorem blk0_apply (V : (c : Dev nD) → (b : Ref sig .tc) → Buf (Elt Ideal) ((c : Thread nD τ).loc b)) (c : Dev nD) (t : Fin cfg3.N) (p : Fin 5000) (k : Fin 128) (hr : 5000 * t.val + p.val < 100000) :
    (iblk3 V c 0 t : Vec Ideal S5000x128 .f32) (ix2 p k) = hIn V c (ix2 ⟨5000 * t.val + p.val, hr⟩ k) := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 128 + 1 * k.val = k.val; rw [e1]; omega

/-- Entry (p, k) of the aggregated-feature block at point t is row 5000 t + p of the array. -/
theorem blk1_apply (V : (c : Dev nD) → (b : Ref sig .tc) → Buf (Elt Ideal) ((c : Thread nD τ).loc b)) (c : Dev nD) (t : Fin cfg3.N) (p : Fin 5000) (k : Fin 128) (hr : 5000 * t.val + p.val < 100000) :
    (iblk3 V c 1 t : Vec Ideal S5000x128 .f32) (ix2 p k) = aggIn V c (ix2 ⟨5000 * t.val + p.val, hr⟩ k) := by
  obtain ⟨-, -, e0, e1, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * p.val = 5000 * t.val + p.val; rw [e0]; omega
  | ⟨1, _⟩ => show win3_1.index t (1 : Fin 2) * 128 + 1 * k.val = k.val; rw [e1]; omega

/-- The weight window is the whole weight matrix at every point. -/
theorem blk2_apply (V : (c : Dev nD) → (b : Ref sig .tc) → Buf (Elt Ideal) ((c : Thread nD τ).loc b)) (c : Dev nD) (t : Fin cfg3.N) (k q : Fin 128) :
    (iblk3 V c 2 t : Vec Ideal S128x128 .f32) (ix2 k q) = wIn V c (ix2 k q) := by
  obtain ⟨-, -, -, -, e0, e1, -⟩ := idx_facts t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- The bias window is the whole bias row at every point. -/
theorem blk3_apply (V : (c : Dev nD) → (b : Ref sig .tc) → Buf (Elt Ideal) ((c : Thread nD τ).loc b)) (c : Dev nD) (t : Fin cfg3.N) (q : Fin 128) :
    (iblk3 V c 3 t : Vec Ideal S1x128 .f32) (ix2 0 q) = bIn V c (ix2 0 q) := by
  obtain ⟨-, -, -, -, -, -, e0, e1, -⟩ := idx_facts t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- The linear map along the natural numbers: row n while n is a row, zero past the last row. -/
def Zn (V : (c : Dev nD) → (b : Ref sig .tc) → Buf (Elt Ideal) ((c : Thread nD τ).loc b)) (c : Dev nD) (q : Fin 128) (n : ℕ) : EReal :=
  if h : n < 100000 then Z V c ⟨n, h⟩ q else 0

/-- Entry (p, q) of the block computed at point t is the linear map at row 5000 t + p. -/
theorem lin_eq (V : (c : Dev nD) → (b : Ref sig .tc) → Buf (Elt Ideal) ((c : Thread nD τ).loc b)) (c : Dev nD) (t : Fin cfg3.N) (p : Fin 5000) (q : Fin 128) :
    k3_pay3 (iblk3 V c 0 t) (iblk3 V c 1 t) (iblk3 V c 2 t) (iblk3 V c 3 t) (ix2 p q) = Zn V c q (5000 * t.val + p.val) := by
  have hN : t.val < 20 := lt_of_lt_of_eq t.isLt (show cfg3.N = 20 from N_3)
  have hr : 5000 * t.val + p.val < 100000 := by have := p.isLt; omega
  unfold Zn
  rw [dif_pos hr]
  refine (lin_apply (iblk3 V c 0 t) (iblk3 V c 1 t) (iblk3 V c 2 t) (iblk3 V c 3 t) p q).trans ?_
  unfold Z
  exact congrArg₂ (· + ·)
    (Finset.sum_congr rfl fun k _ => congrArg₂ (· * ·)
      (congrArg₂ (· + ·) (blk0_apply V c t p k hr) (blk1_apply V c t p k hr)) (blk2_apply V c t k q))
    (blk3_apply V c t q)

/-! ## The three output blocks after every grid point -/

/-- After point n the result block is the linear map of the point's input blocks, and the two rows of totals hold
    the sums, over the rows of blocks 0 to n, of the linear map and of its square. -/
theorem outs_inv (V : (c : Dev nD) → (b : Ref sig .tc) → Buf (Elt Ideal) ((c : Thread nD τ).loc b)) (c : Dev nD) : ∀ (n : ℕ) (h : n < cfg3.N),
    (outsAt3 V c n h).1 = k3_pay3 (iblk3 V c 0 ⟨n, h⟩) (iblk3 V c 1 ⟨n, h⟩) (iblk3 V c 2 ⟨n, h⟩) (iblk3 V c 3 ⟨n, h⟩)
    ∧ (∀ q : Fin 128, ((outsAt3 V c n h).2.1 : Vec Ideal S1x128 .f32) (ix2 0 q)
        = 0 + ∑ s ∈ Finset.range (n + 1), ∑ p : Fin 5000, Zn V c q (5000 * s + p.val))
    ∧ (∀ q : Fin 128, ((outsAt3 V c n h).2.2 : Vec Ideal S1x128 .f32) (ix2 0 q)
        = 0 + ∑ s ∈ Finset.range (n + 1), ∑ p : Fin 5000, Zn V c q (5000 * s + p.val) * Zn V c q (5000 * s + p.val))
  | 0, h => by
    have e := outs_first V c ⟨0, h⟩ rfl
    refine ⟨congrArg Prod.fst e, fun q => ?_, fun q => ?_⟩
    · refine (congrFun (congrArg (fun o => o.2.1) e) (ix2 0 q)).trans ?_
      refine (colsum_apply (iblk3 V c 0 ⟨0, h⟩) (iblk3 V c 1 ⟨0, h⟩) (iblk3 V c 2 ⟨0, h⟩) (iblk3 V c 3 ⟨0, h⟩) _ q).trans ?_
      rw [Finset.sum_range_one]
      exact congrArg₂ (· + ·) (zero_row_s q) (Finset.sum_congr rfl fun p _ => lin_eq V c ⟨0, h⟩ p q)
    · refine (congrFun (congrArg (fun o => o.2.2) e) (ix2 0 q)).trans ?_
      refine (colsq_apply (iblk3 V c 0 ⟨0, h⟩) (iblk3 V c 1 ⟨0, h⟩) (iblk3 V c 2 ⟨0, h⟩) (iblk3 V c 3 ⟨0, h⟩) _ q).trans ?_
      rw [Finset.sum_range_one]
      exact congrArg₂ (· + ·) (zero_row_q q) (Finset.sum_congr rfl fun p _ => by rw [lin_eq V c ⟨0, h⟩ p q])
  | n + 1, h => by
    have hN : cfg3.N = 20 := N_3
    have hB : ¬(⟨n + 1, h⟩ : Fin cfg3.N).val % 20 = 0 := by dsimp only; omega
    obtain ⟨-, ih5, ih6⟩ := outs_inv V c n (Nat.lt_of_succ_lt h)
    have e := outs_later V c ⟨n + 1, h⟩ hB
    refine ⟨congrArg Prod.fst e, fun q => ?_, fun q => ?_⟩
    · refine (congrFun (congrArg (fun o => o.2.1) e) (ix2 0 q)).trans ?_
      refine (colsum_apply (iblk3 V c 0 ⟨n + 1, h⟩) (iblk3 V c 1 ⟨n + 1, h⟩) (iblk3 V c 2 ⟨n + 1, h⟩) (iblk3 V c 3 ⟨n + 1, h⟩) _ q).trans ?_
      rw [Finset.sum_range_succ _ (n + 1), ← add_assoc]
      exact congrArg₂ (· + ·) (ih5 q) (Finset.sum_congr rfl fun p _ => lin_eq V c ⟨n + 1, h⟩ p q)
    · refine (congrFun (congrArg (fun o => o.2.2) e) (ix2 0 q)).trans ?_
      refine (colsq_apply (iblk3 V c 0 ⟨n + 1, h⟩) (iblk3 V c 1 ⟨n + 1, h⟩) (iblk3 V c 2 ⟨n + 1, h⟩) (iblk3 V c 3 ⟨n + 1, h⟩) _ q).trans ?_
      rw [Finset.sum_range_succ _ (n + 1), ← add_assoc]
      exact congrArg₂ (· + ·) (ih6 q) (Finset.sum_congr rfl fun p _ => by rw [lin_eq V c ⟨n + 1, h⟩ p q])

/-! ## The result array: every point writes its block of the linear map back -/

/-- The linear map as one array of 100000 rows. -/
def G4 (V : (c : Dev nD) → (b : Ref sig .tc) → Buf (Elt Ideal) ((c : Thread nD τ).loc b)) (c : Dev nD) : Buf (Elt Ideal) ((c : Thread nD τ).loc main_v66_0) :=
  fun (i : S100000x128.Idx) => Z V c (i 0) (i 1)

/-- What point t writes back is rows 5000 t to 5000 t + 4999 of the linear map. -/
theorem flushed4 (V : (c : Dev nD) → (b : Ref sig .tc) → Buf (Elt Ideal) ((c : Thread nD τ).loc b)) (c : Dev nD) (t : Fin cfg3.N) :
    (dat3 V c).flushed 4 t = ((cfg3.win 4).blk t).view.read (Elt Ideal) (G4 V c) := by
  have hN : t.val < 20 := lt_of_lt_of_eq t.isLt (show cfg3.N = 20 from N_3)
  obtain ⟨-, -, -, -, -, -, -, -, e0, e1⟩ := idx_facts t
  show (cfg3.win 4).cut (grid3.coords t) ((dat3 V c).after 4 t) = _
  rw [after3_4, (outs_inv V c t.val t.isLt).1]
  funext y
  obtain ⟨p, q, rfl⟩ : ∃ (p : Fin 5000) (q : Fin 128), y = ix2 p q := ⟨y 0, y 1, eq_ix2 y⟩
  have hr : 5000 * t.val + p.val < 100000 := by have := p.isLt; omega
  rw [View.read_apply]
  refine (lin_eq V c t p q).trans ?_
  unfold Zn
  rw [dif_pos hr]
  show Z V c ⟨5000 * t.val + p.val, hr⟩ q = Z V c _ _
  refine congrArg₂ (Z V c) (Fin.ext ?_) (Fin.ext ?_)
  · show 5000 * t.val + p.val = win3_4.index t (0 : Fin 2) * 5000 + 1 * p.val
    rw [e0]; omega
  · show q.val = win3_4.index t (1 : Fin 2) * 128 + 1 * q.val
    rw [e1]; omega

/-- A row index lies in point t's block exactly when each coordinate lies in the block's range. -/
theorem mem_blk4 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v66_0).slice (win3_4.rect t)).set ↔ _
  rw [View.set_slice_whole, Rect.mem_set_unit]
  exact Iff.rfl

/-- The twenty blocks cover the array (row r is in block r / 5000), so the array ends holding the linear map. -/
theorem final4 (V : (c : Dev nD) → (b : Ref sig .tc) → Buf (Elt Ideal) ((c : Thread nD τ).loc b)) (c : Dev nD) : (dat3 V c).arrAt 4 cfg3.N = G4 V c :=
  (dat3 V c).arrAt_eq_of_cover 4 (G4 V c) (fun t _ => flushed4 V c t) fun i => by
    have hi0 : (i 0 : Nat) < 100000 := (i 0).isLt
    have hi1 : (i 1 : Nat) < 128 := (i 1).isLt
    have hlt : (i 0 : Nat) / 5000 < cfg3.N := by rw [show cfg3.N = 20 from N_3]; omega
    refine ⟨⟨(i 0 : Nat) / 5000, hlt⟩, flush3_4 _, ?_⟩
    obtain ⟨-, -, -, -, -, -, -, -, e0, e1⟩ := idx_facts ⟨(i 0 : Nat) / 5000, hlt⟩
    rw [mem_blk4]
    intro a
    match a with
    | ⟨0, _⟩ =>
      show win3_4.index ⟨(i 0 : Nat) / 5000, hlt⟩ (0 : Fin 2) * 5000 ≤ (i 0 : Nat) ∧ (i 0 : Nat) < win3_4.index ⟨(i 0 : Nat) / 5000, hlt⟩ (0 : Fin 2) * 5000 + 5000
      rw [e0]; dsimp only; omega
    | ⟨1, _⟩ =>
      show win3_4.index ⟨(i 0 : Nat) / 5000, hlt⟩ (1 : Fin 2) * 128 ≤ (i 1 : Nat) ∧ (i 1 : Nat) < win3_4.index ⟨(i 0 : Nat) / 5000, hlt⟩ (1 : Fin 2) * 128 + 128
      rw [e1]; omega

/-! ## The two rows of totals: written back once, after the last point -/

theorem last_lt : 19 < cfg3.N := by rw [show cfg3.N = 20 from N_3]; decide

/-- The last grid point. -/
abbrev tLast : Fin cfg3.N := ⟨19, last_lt⟩

/-- The row of column totals after the last point. -/
def R5 (V : (c : Dev nD) → (b : Ref sig .tc) → Buf (Elt Ideal) ((c : Thread nD τ).loc b)) (c : Dev nD) : Buf (Elt Ideal) ((c : Thread nD τ).loc main_v66_1) := (outsAt3 V c 19 last_lt).2.1

/-- The row of totals of squares after the last point. -/
def R6 (V : (c : Dev nD) → (b : Ref sig .tc) → Buf (Elt Ideal) ((c : Thread nD τ).loc b)) (c : Dev nD) : Buf (Elt Ideal) ((c : Thread nD τ).loc main_v66_2) := (outsAt3 V c 19 last_lt).2.2

/-- The one write-back of the row of totals, at the last point, writes the whole row. -/
theorem flushed5 (V : (c : Dev nD) → (b : Ref sig .tc) → Buf (Elt Ideal) ((c : Thread nD τ).loc b)) (c : Dev nD) (t : Fin cfg3.N) (hf : (cfg3.win 5).flush t = true) :
    (dat3 V c).flushed 5 t = ((cfg3.win 5).blk t).view.read (Elt Ideal) (R5 V c) := by
  have hN : cfg3.N = 20 := N_3
  have h19 : t.val = 19 := by have := (flush3_5 t).mp hf; have := t.isLt; omega
  obtain rfl : t = tLast := Fin.ext h19
  show (cfg3.win 5).cut (grid3.coords tLast) ((dat3 V c).after 5 tLast) = _
  rw [after3_5]
  have hz' : (fun a => win3_5.index tLast a * main_v66_1.ty.shape.size a) = fun _ => 0 := funext fun a => by fin_cases a <;> decide +kernel
  exact (Memref.read_access_unit_zero (Elt Ideal) main_v66_1 hz' (fun a => by rw [congrFun hz' a]; simp) (R5 V c)).symm

/-- The one write-back of the row of square totals, at the last point, writes the whole row. -/
theorem flushed6 (V : (c : Dev nD) → (b : Ref sig .tc) → Buf (Elt Ideal) ((c : Thread nD τ).loc b)) (c : Dev nD) (t : Fin cfg3.N) (hf : (cfg3.win 6).flush t = true) :
    (dat3 V c).flushed 6 t = ((cfg3.win 6).blk t).view.read (Elt Ideal) (R6 V c) := by
  have hN : cfg3.N = 20 := N_3
  have h19 : t.val = 19 := by have := (flush3_6 t).mp hf; have := t.isLt; omega
  obtain rfl : t = tLast := Fin.ext h19
  show (cfg3.win 6).cut (grid3.coords tLast) ((dat3 V c).after 6 tLast) = _
  rw [after3_6]
  have hz' : (fun a => win3_6.index tLast a * main_v66_2.ty.shape.size a) = fun _ => 0 := funext fun a => by fin_cases a <;> decide +kernel
  exact (Memref.read_access_unit_zero (Elt Ideal) main_v66_2 hz' (fun a => by rw [congrFun hz' a]; simp) (R6 V c)).symm

/-- The last point's block is the whole row, so the array ends holding the row of totals. -/
theorem final5 (V : (c : Dev nD) → (b : Ref sig .tc) → Buf (Elt Ideal) ((c : Thread nD τ).loc b)) (c : Dev nD) : (dat3 V c).arrAt 5 cfg3.N = R5 V c :=
  (dat3 V c).arrAt_eq_of_cover 5 (R5 V c) (flushed5 V c) fun i =>
    ⟨tLast, (flush3_5 tLast).mpr rfl, by
      show i ∈ ((View.whole main_v66_1).slice (win3_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win3_5.index tLast 0 * win3_5.size 0 ≤ (i 0 : Nat) ∧ (i 0 : Nat) < win3_5.index tLast 0 * win3_5.size 0 + win3_5.xsize (grid3.coords tLast) 0
                  rw [show win3_5.index tLast 0 * win3_5.size 0 = 0 from by decide +kernel, show win3_5.xsize (grid3.coords tLast) 0 = 1 from by decide +kernel]; omega
      | ⟨1, _⟩ => show win3_5.index tLast 1 * win3_5.size 1 ≤ (i 1 : Nat) ∧ (i 1 : Nat) < win3_5.index tLast 1 * win3_5.size 1 + win3_5.xsize (grid3.coords tLast) 1
                  rw [show win3_5.index tLast 1 * win3_5.size 1 = 0 from by decide +kernel, show win3_5.xsize (grid3.coords tLast) 1 = 128 from by decide +kernel]; omega⟩

/-- Likewise the array of square totals ends holding the row of totals of squares. -/
theorem final6 (V : (c : Dev nD) → (b : Ref sig .tc) → Buf (Elt Ideal) ((c : Thread nD τ).loc b)) (c : Dev nD) : (dat3 V c).arrAt 6 cfg3.N = R6 V c :=
  (dat3 V c).arrAt_eq_of_cover 6 (R6 V c) (flushed6 V c) fun i =>
    ⟨tLast, (flush3_6 tLast).mpr rfl, by
      show i ∈ ((View.whole main_v66_2).slice (win3_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win3_6.index tLast 0 * win3_6.size 0 ≤ (i 0 : Nat) ∧ (i 0 : Nat) < win3_6.index tLast 0 * win3_6.size 0 + win3_6.xsize (grid3.coords tLast) 0
                  rw [show win3_6.index tLast 0 * win3_6.size 0 = 0 from by decide +kernel, show win3_6.xsize (grid3.coords tLast) 0 = 1 from by decide +kernel]; omega
      | ⟨1, _⟩ => show win3_6.index tLast 1 * win3_6.size 1 ≤ (i 1 : Nat) ∧ (i 1 : Nat) < win3_6.index tLast 1 * win3_6.size 1 + win3_6.xsize (grid3.coords tLast) 1
                  rw [show win3_6.index tLast 1 * win3_6.size 1 = 0 from by decide +kernel, show win3_6.xsize (grid3.coords tLast) 1 = 128 from by decide +kernel]; omega⟩

/-! ## The three arrays after the region -/

/-- The result array holds the linear map. -/
theorem final_z (V : (c : Dev nD) → (b : Ref sig .tc) → Buf (Elt Ideal) ((c : Thread nD τ).loc b)) (c : Dev nD) (r : Fin 100000) (j : Fin 128) : zOut V c (ix2 r j) = Z V c r j :=
  congrFun (final4 V c) (ix2 r j)

/-- The array of column totals holds, at column j, the sum of the linear map over all rows. -/
theorem final_s (V : (c : Dev nD) → (b : Ref sig .tc) → Buf (Elt Ideal) ((c : Thread nD τ).loc b)) (c : Dev nD) (j : Fin 128) : sOut V c (ix2 0 j) = ∑ r : Fin 100000, Z V c r j :=
  (congrFun (final5 V c) (ix2 0 j)).trans (((outs_inv V c 19 last_lt).2.1 j).trans
    (Cert.BlockSum.sum_20x5000 (fun r => Z V c r j) (Zn V c j) fun n => dif_pos n.isLt))

/-- The array of totals of squares holds, at column j, the sum of the squared linear map over all rows. -/
theorem final_q (V : (c : Dev nD) → (b : Ref sig .tc) → Buf (Elt Ideal) ((c : Thread nD τ).loc b)) (c : Dev nD) (j : Fin 128) : qOut V c (ix2 0 j) = ∑ r : Fin 100000, Z V c r j * Z V c r j :=
  (congrFun (final6 V c) (ix2 0 j)).trans (((outs_inv V c 19 last_lt).2.2 j).trans
    (Cert.BlockSum.sum_20x5000 (fun r => Z V c r j * Z V c r j) (fun n => Zn V c j n * Zn V c j n)
      fun n => by show Zn V c j n.val * Zn V c j n.val = _; unfold Zn; rw [dif_pos n.isLt]))

/-- The region's contract: the result array is the linear map of the sum of the two feature arrays, and the two
    rows of totals are its column sums and the column sums of its squares. -/
theorem contract (V : (c : Dev nD) → (b : Ref sig .tc) → Buf (Elt Ideal) ((c : Thread nD τ).loc b)) (c : Dev nD) :
    cur2 (a := 100000) (b := 128) ((dat3 V c).arrAt 4 cfg3.N) = lin (fun r k => cur2 (a := 100000) (b := 128) (V c (Pipeline.arrRef spec3 0)) r k + cur2 (a := 100000) (b := 128) (V c (Pipeline.arrRef spec3 1)) r k) (cur2 (a := 128) (b := 128) (V c (Pipeline.arrRef spec3 2))) (row (a := 128) (V c (Pipeline.arrRef spec3 3)))
    ∧ row (a := 128) ((dat3 V c).arrAt 5 cfg3.N) = (fun j => ∑ r, cur2 (a := 100000) (b := 128) ((dat3 V c).arrAt 4 cfg3.N) r j)
    ∧ row (a := 128) ((dat3 V c).arrAt 6 cfg3.N) = (fun j => ∑ r, cur2 (a := 100000) (b := 128) ((dat3 V c).arrAt 4 cfg3.N) r j * cur2 (a := 100000) (b := 128) ((dat3 V c).arrAt 4 cfg3.N) r j) := by
  have hz : ∀ (r : Fin 100000) (j : Fin 128), cur2 (a := 100000) (b := 128) ((dat3 V c).arrAt 4 cfg3.N) r j = Z V c r j :=
    fun r j => by unfold Cert.Lib.cur2; exact final_z V c r j
  have hs : ∀ j : Fin 128, row (a := 128) ((dat3 V c).arrAt 5 cfg3.N) j = ∑ r : Fin 100000, Z V c r j :=
    fun j => by unfold Cert.Lib.row; exact final_s V c j
  have hq : ∀ j : Fin 128, row (a := 128) ((dat3 V c).arrAt 6 cfg3.N) j = ∑ r : Fin 100000, Z V c r j * Z V c r j :=
    fun j => by unfold Cert.Lib.row; exact final_q V c j
  refine ⟨funext fun r => funext fun j => (hz r j).trans rfl, funext fun j => ?_, funext fun j => ?_⟩
  · exact (hs j).trans (Finset.sum_congr rfl fun r _ => (hz r j).symm)
  · exact (hq j).trans (Finset.sum_congr rfl fun r _ => by rw [hz r j])

end Cert.KernelIdeal.FirstLinear3

end
-- ==== Proof.RegionBnReluLinear4.lean ====
import proofs.«120577_j28003186770423_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«120577_j28003186770423_1_alg».proof.Proof.LibPlainDot
import proofs.«120577_j28003186770423_1_alg».proof.Proof.LibColumnSum
import proofs.«120577_j28003186770423_1_alg».proof.Proof.LibBlockSum
import proofs.«120577_j28003186770423_1_alg».proof.Proof.LibCurry
import proofs.«120577_j28003186770423_1_alg».proof.Proof.GinMath

/-!
# The second linear map of a layer, with its column sums

A [100000, 128] array z is normalised column by column (subtract the column's mean, scale by the inverse square root of
its variance plus a small constant, multiply by a gain, add an offset), rectified, multiplied by a [128, 128] matrix and
shifted by a row vector.  The rows are processed in twenty blocks of five thousand.  Besides the product itself the
region leaves, for every column, the sum of the product's entries over all hundred thousand rows and the sum of their
squares: two one-row accumulators are set to zero at the first block and each block adds its own column sums to them.

This file reads the three results at an entry: the product entry (r, j) depends on row r of z alone; the two row vectors
are sums over all rows, the twenty partial sums regrouped into one by commutativity and associativity of addition.
-/

set_option maxRecDepth 16384

noncomputable section

namespace Cert.KernelIdeal.BnReluLinear4

open Idealize.ShloMosaic Idealize.ShloMosaic.TcCoe Idealize.ShloMosaic.ValueIdx Idealize.SL.Sem Cert.KernelIdeal Cert.KernelIdeal.Gen
open Idealize.ShloMosaic.Pipeline (Dat)

/-! The seven input arrays as the region finds them, each as a function of its index into the extended reals. -/

/-- the [100000, 128] array z the region normalises -/
abbrev zIn (V : (c : Dev nD) → (b : Ref sig .tc) → Buf (Elt Ideal) ((c : Thread nD τ).loc b)) (c : Dev nD) : S100000x128.Idx → EReal := V c (Pipeline.arrRef spec4 0)
/-- the row of column means -/
abbrev meanIn (V : (c : Dev nD) → (b : Ref sig .tc) → Buf (Elt Ideal) ((c : Thread nD τ).loc b)) (c : Dev nD) : S1x128.Idx → EReal := V c (Pipeline.arrRef spec4 1)
/-- the row of column variances -/
abbrev varIn (V : (c : Dev nD) → (b : Ref sig .tc) → Buf (Elt Ideal) ((c : Thread nD τ).loc b)) (c : Dev nD) : S1x128.Idx → EReal := V c (Pipeline.arrRef spec4 2)
/-- the row of gains -/
abbrev gainIn (V : (c : Dev nD) → (b : Ref sig .tc) → Buf (Elt Ideal) ((c : Thread nD τ).loc b)) (c : Dev nD) : S1x128.Idx → EReal := V c (Pipeline.arrRef spec4 3)
/-- the row of offsets -/
abbrev biasIn (V : (c : Dev nD) → (b : Ref sig .tc) → Buf (Elt Ideal) ((c : Thread nD τ).loc b)) (c : Dev nD) : S1x128.Idx → EReal := V c (Pipeline.arrRef spec4 4)
/-- the [128, 128] matrix -/
abbrev wIn (V : (c : Dev nD) → (b : Ref sig .tc) → Buf (Elt Ideal) ((c : Thread nD τ).loc b)) (c : Dev nD) : S128x128.Idx → EReal := V c (Pipeline.arrRef spec4 5)
/-- the row added after the product -/
abbrev shiftIn (V : (c : Dev nD) → (b : Ref sig .tc) → Buf (Elt Ideal) ((c : Thread nD τ).loc b)) (c : Dev nD) : S1x128.Idx → EReal := V c (Pipeline.arrRef spec4 6)

/-- entry (r, k) of the normalized, rectified activations -/
def Act (V : (c : Dev nD) → (b : Ref sig .tc) → Buf (Elt Ideal) ((c : Thread nD τ).loc b)) (c : Dev nD) (r : Fin 100000) (k : Fin 128) : EReal :=
  max (((zIn V c (ix2 r k) - meanIn V c (ix2 0 k))
         * Ideal.rsqrt (varIn V c (ix2 0 k) + Ideal.ofBits .f32 0x3727C5AC#32))
        * gainIn V c (ix2 0 k)
       + biasIn V c (ix2 0 k)) (Ideal.ofBits .f32 0x00000000#32)

/-- entry (r, j) of the layer's second linear map -/
def Z (V : (c : Dev nD) → (b : Ref sig .tc) → Buf (Elt Ideal) ((c : Thread nD τ).loc b)) (c : Dev nD) (r : Fin 100000) (j : Fin 128) : EReal :=
  (∑ k : Fin 128, Act V c r k * wIn V c (ix2 k j)) + shiftIn V c (ix2 0 j)

/-! ## The body's arithmetic at an entry -/

/-- one activation from an entry of z and its column's mean, variance, gain and offset -/
def actOf (z mean var g b : EReal) : EReal :=
  max ((((z - mean) * Ideal.rsqrt (var + Ideal.ofBits .f32 0x3727C5AC#32)) * g) + b) (Ideal.ofBits .f32 0x00000000#32)

/-- the product's dimension numbers: the left operand's columns against the right operand's rows, no batch axis -/
theorem plain : Cert.PlainDot.IsPlain (M := 5000) (K := 128) (N := 128) dot_S5000x128_S128x128_S5000x128_1_0_0_1_n_n :=
  ⟨rfl, rfl, rfl, rfl, rfl, rfl⟩

/-- Entry (p, q) of a block of the product: the sum over k of the activation (p, k) times the matrix entry (k, q), plus
    the shift at q.  The activation at (p, k) uses row p of the block of z and column k of the four parameter rows. -/
theorem pay5_apply (x0 : Vec Ideal S5000x128 .f32) (xvar xmean xg xb : Vec Ideal S1x128 .f32) (xw : Vec Ideal S128x128 .f32)
    (xc : Vec Ideal S1x128 .f32) (p : Fin 5000) (q : Fin 128) :
    k4_pay5 (F := Ideal) x0 xvar xmean xg xb xw xc (ix2 p q)
      = (∑ k : Fin 128, actOf (x0 (ix2 p k)) (xmean (ix2 0 k)) (xvar (ix2 0 k)) (xg (ix2 0 k)) (xb (ix2 0 k)) * xw (ix2 k q)) + xc (ix2 0 q) := by
  unfold k4_pay5
  simp only [shapeCast_self]
  refine (congrArg₂ (· + ·) (Cert.PlainDot.matmul_apply _ plain none _ _ p q) (broadcastTo_1b_ab_apply _ _ p q)).trans ?_
  refine congrArg (· + xc (ix2 0 q)) (Finset.sum_congr rfl fun k _ => ?_)
  refine congrArg (· * xw (ix2 k q)) ?_
  simp only [truncf_apply, maximumf_apply, addf_apply, mulf_apply, subf_apply, broadcast_apply, broadcastTo_1b_ab_apply]
  rfl

/-- the running column sums after a block: what they held plus the block's column sums -/
theorem pay1_apply (v34 : FVec Ideal S5000x128 .f32) (v36 : Vec Ideal S1x128 .f32) (j : Fin 128) :
    k4_pay1 (F := Ideal) v34 v36 (ix2 0 j) = v36 (ix2 0 j) + ∑ r : Fin 5000, v34 (ix2 r j) := by
  unfold k4_pay1
  simp only [shapeCast_self]
  refine congrArg (v36 (ix2 0 j) + ·) ?_
  refine (shapeCast_a_1a_apply _ _ 0 j).trans ?_
  exact Cert.Lib.column_sum v34 _ _ _ j

/-- the running column sums of squares after a block -/
theorem pay2_apply (v34 : FVec Ideal S5000x128 .f32) (v42 : Vec Ideal S1x128 .f32) (j : Fin 128) :
    k4_pay2 (F := Ideal) v34 v42 (ix2 0 j) = v42 (ix2 0 j) + ∑ r : Fin 5000, v34 (ix2 r j) * v34 (ix2 r j) := by
  unfold k4_pay2
  simp only [shapeCast_self]
  refine congrArg (v42 (ix2 0 j) + ·) ?_
  refine (shapeCast_a_1a_apply _ _ 0 j).trans ?_
  exact Cert.Lib.column_sum (mulf v34 v34) _ _ _ j

/-- the first block starts both accumulators from zero -/
theorem pay3_apply (j : Fin 128) : k4_pay3 (F := Ideal) (ix2 0 j) = 0 := by
  unfold k4_pay3
  exact Ideal.ofBits_zero_f32

theorem pay4_apply (j : Fin 128) : k4_pay4 (F := Ideal) (ix2 0 j) = 0 := by
  unfold k4_pay4
  exact Ideal.ofBits_zero_f32

/-! ## What each of the two control cases leaves in the three output blocks -/

section Cases

variable {F : FTy → Type} [FloatOps F]

theorem hz : (![0, 0] : Fin 2 → Nat) = fun _ => 0 := funext fun a => by fin_cases a <;> rfl

/-- first block: the product block -/
theorem outA7 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond4_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out4_A_7 c i arg1 harg1 arg2 harg2 arg3 harg3 arg4 harg4 arg5 harg5 arg6 harg6 arg7 harg7 arg8 harg8 arg9 harg9 arg10 harg10 hc0 x0 x1 x2 x3 x4 x5 x6 = k4_pay5 x0 x2 x1 x3 x4 x5 x6 := by
  unfold out4_A_7
  rw [View.read_writes_eq_canon _ _ _ (cover4_A_7 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- first block: the column sums start from the zero row -/
theorem outA8 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond4_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out4_A_8 c i arg1 harg1 arg2 harg2 arg3 harg3 arg4 harg4 arg5 harg5 arg6 harg6 arg7 harg7 arg8 harg8 arg9 harg9 arg10 harg10 hc0 x0 x1 x2 x3 x4 x5 x6 = k4_pay1 (k4_pay5 x0 x2 x1 x3 x4 x5 x6) (k4_pay3 (F := F)) := by
  unfold out4_A_8
  rw [View.read_writes_eq_canon _ _ _ (cover4_A_8 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- first block: the column sums of squares start from the zero row -/
theorem outA9 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond4_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out4_A_9 c i arg1 harg1 arg2 harg2 arg3 harg3 arg4 harg4 arg5 harg5 arg6 harg6 arg7 harg7 arg8 harg8 arg9 harg9 arg10 harg10 hc0 x0 x1 x2 x3 x4 x5 x6 = k4_pay2 (k4_pay5 x0 x2 x1 x3 x4 x5 x6) (k4_pay4 (F := F)) := by
  unfold out4_A_9
  rw [View.read_writes_eq_canon _ _ _ (cover4_A_9 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- later block: the product block -/
theorem outB7 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out4_B_7 c i arg1 harg1 arg2 harg2 arg3 harg3 arg4 harg4 arg5 harg5 arg6 harg6 arg7 harg7 arg8 harg8 arg9 harg9 arg10 harg10 hc0 x0 x1 x2 x3 x4 x5 x6 xo8 xo9 = k4_pay5 x0 x2 x1 x3 x4 x5 x6 := by
  unfold out4_B_7
  rw [View.read_writes_eq_canon _ _ _ (cover4_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

/-- later block: the column sums carried from the block before, plus this block's -/
theorem outB8 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out4_B_8 c i arg1 harg1 arg2 harg2 arg3 harg3 arg4 harg4 arg5 harg5 arg6 harg6 arg7 harg7 arg8 harg8 arg9 harg9 arg10 harg10 hc0 x0 x1 x2 x3 x4 x5 x6 xo8 xo9 = k4_pay1 (k4_pay5 x0 x2 x1 x3 x4 x5 x6) xo8 := by
  unfold out4_B_8
  rw [View.read_writes_eq_canon _ _ _ (cover4_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

/-- later block: the column sums of squares carried from the block before, plus this block's -/
theorem outB9 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out4_B_9 c i arg1 harg1 arg2 harg2 arg3 harg3 arg4 harg4 arg5 harg5 arg6 harg6 arg7 harg7 arg8 harg8 arg9 harg9 arg10 harg10 hc0 x0 x1 x2 x3 x4 x5 x6 xo8 xo9 = k4_pay2 (k4_pay5 x0 x2 x1 x3 x4 x5 x6) xo9 := by
  unfold out4_B_9
  rw [View.read_writes_eq_canon _ _ _ (cover4_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

end Cases

/-! ## The blocks the body reads, as entries of the arrays -/

variable (V : (c : Dev nD) → (b : Ref sig .tc) → Buf (Elt Ideal) ((c : Thread nD τ).loc b))

/-! Block indices, decided once over the twenty grid points: the two row-blocked windows (the input z and the product)
    are at block t of the rows at point t; every other window stays at its one block. -/

theorem idx_0 : ∀ t : Fin cfg4.N, win4_0.index t (0 : Fin 2) = t.val ∧ win4_0.index t (1 : Fin 2) = 0 :=
  (by decide +kernel : ∀ t : Fin grid4.N, _)
theorem idx_1 : ∀ t : Fin cfg4.N, win4_1.index t (0 : Fin 2) = 0 ∧ win4_1.index t (1 : Fin 2) = 0 :=
  (by decide +kernel : ∀ t : Fin grid4.N, _)
theorem idx_2 : ∀ t : Fin cfg4.N, win4_2.index t (0 : Fin 2) = 0 ∧ win4_2.index t (1 : Fin 2) = 0 :=
  (by decide +kernel : ∀ t : Fin grid4.N, _)
theorem idx_3 : ∀ t : Fin cfg4.N, win4_3.index t (0 : Fin 2) = 0 ∧ win4_3.index t (1 : Fin 2) = 0 :=
  (by decide +kernel : ∀ t : Fin grid4.N, _)
theorem idx_4 : ∀ t : Fin cfg4.N, win4_4.index t (0 : Fin 2) = 0 ∧ win4_4.index t (1 : Fin 2) = 0 :=
  (by decide +kernel : ∀ t : Fin grid4.N, _)
theorem idx_5 : ∀ t : Fin cfg4.N, win4_5.index t (0 : Fin 2) = 0 ∧ win4_5.index t (1 : Fin 2) = 0 :=
  (by decide +kernel : ∀ t : Fin grid4.N, _)
theorem idx_6 : ∀ t : Fin cfg4.N, win4_6.index t (0 : Fin 2) = 0 ∧ win4_6.index t (1 : Fin 2) = 0 :=
  (by decide +kernel : ∀ t : Fin grid4.N, _)
theorem idx_7 : ∀ t : Fin cfg4.N, win4_7.index t (0 : Fin 2) = t.val ∧ win4_7.index t (1 : Fin 2) = 0 :=
  (by decide +kernel : ∀ t : Fin grid4.N, _)
theorem idx_8 : ∀ t : Fin cfg4.N, win4_8.index t (0 : Fin 2) = 0 ∧ win4_8.index t (1 : Fin 2) = 0 :=
  (by decide +kernel : ∀ t : Fin grid4.N, _)
theorem idx_9 : ∀ t : Fin cfg4.N, win4_9.index t (0 : Fin 2) = 0 ∧ win4_9.index t (1 : Fin 2) = 0 :=
  (by decide +kernel : ∀ t : Fin grid4.N, _)

/-- entry (p, k) of block t of z is entry (5000 t + p, k) of z -/
theorem iblk_z (c : Dev nD) (t : Fin cfg4.N) (p : Fin 5000) (k : Fin 128) (hb : 5000 * t.val + p.val < 100000) :
    (iblk4 V c 0 t : Vec Ideal S5000x128 .f32) (ix2 p k)
      = zIn V c (ix2 ⟨5000 * t.val + p.val, hb⟩ k) := by
  obtain ⟨e0, e1⟩ := idx_0 t
  show zIn V c (((cfg4.win 0).blk t).view.emb (ix2 p k)) = _
  refine congrArg (zIn V c) (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 128 + 1 * k.val = k.val; rw [e1]; omega

/-- window 1 (the column means) is one row, the same at every grid point -/
theorem iblk_row1 (c : Dev nD) (t : Fin cfg4.N) (k : Fin 128) :
    (iblk4 V c 1 t : Vec Ideal S1x128 .f32) (ix2 0 k) = meanIn V c (ix2 0 k) := by
  obtain ⟨e0, e1⟩ := idx_1 t
  show meanIn V c (((cfg4.win 1).blk t).view.emb (ix2 0 k)) = _
  refine congrArg (meanIn V c) (funext fun a => Fin.ext ?_)
  match a with
  | ⟨0, _⟩ => show win4_1.index t (0 : Fin 2) * 1 + 1 * 0 = 0; rw [e0]
  | ⟨1, _⟩ => show win4_1.index t (1 : Fin 2) * 128 + 1 * k.val = k.val; rw [e1]; omega

/-- window 2 (the column variances) is one row, the same at every grid point -/
theorem iblk_row2 (c : Dev nD) (t : Fin cfg4.N) (k : Fin 128) :
    (iblk4 V c 2 t : Vec Ideal S1x128 .f32) (ix2 0 k) = varIn V c (ix2 0 k) := by
  obtain ⟨e0, e1⟩ := idx_2 t
  show varIn V c (((cfg4.win 2).blk t).view.emb (ix2 0 k)) = _
  refine congrArg (varIn V c) (funext fun a => Fin.ext ?_)
  match a with
  | ⟨0, _⟩ => show win4_2.index t (0 : Fin 2) * 1 + 1 * 0 = 0; rw [e0]
  | ⟨1, _⟩ => show win4_2.index t (1 : Fin 2) * 128 + 1 * k.val = k.val; rw [e1]; omega

/-- window 3 (the gains) is one row, the same at every grid point -/
theorem iblk_row3 (c : Dev nD) (t : Fin cfg4.N) (k : Fin 128) :
    (iblk4 V c 3 t : Vec Ideal S1x128 .f32) (ix2 0 k) = gainIn V c (ix2 0 k) := by
  obtain ⟨e0, e1⟩ := idx_3 t
  show gainIn V c (((cfg4.win 3).blk t).view.emb (ix2 0 k)) = _
  refine congrArg (gainIn V c) (funext fun a => Fin.ext ?_)
  match a with
  | ⟨0, _⟩ => show win4_3.index t (0 : Fin 2) * 1 + 1 * 0 = 0; rw [e0]
  | ⟨1, _⟩ => show win4_3.index t (1 : Fin 2) * 128 + 1 * k.val = k.val; rw [e1]; omega

/-- window 4 (the offsets) is one row, the same at every grid point -/
theorem iblk_row4 (c : Dev nD) (t : Fin cfg4.N) (k : Fin 128) :
    (iblk4 V c 4 t : Vec Ideal S1x128 .f32) (ix2 0 k) = biasIn V c (ix2 0 k) := by
  obtain ⟨e0, e1⟩ := idx_4 t
  show biasIn V c (((cfg4.win 4).blk t).view.emb (ix2 0 k)) = _
  refine congrArg (biasIn V c) (funext fun a => Fin.ext ?_)
  match a with
  | ⟨0, _⟩ => show win4_4.index t (0 : Fin 2) * 1 + 1 * 0 = 0; rw [e0]
  | ⟨1, _⟩ => show win4_4.index t (1 : Fin 2) * 128 + 1 * k.val = k.val; rw [e1]; omega

/-- window 6 (the shift) is one row, the same at every grid point -/
theorem iblk_row6 (c : Dev nD) (t : Fin cfg4.N) (k : Fin 128) :
    (iblk4 V c 6 t : Vec Ideal S1x128 .f32) (ix2 0 k) = shiftIn V c (ix2 0 k) := by
  obtain ⟨e0, e1⟩ := idx_6 t
  show shiftIn V c (((cfg4.win 6).blk t).view.emb (ix2 0 k)) = _
  refine congrArg (shiftIn V c) (funext fun a => Fin.ext ?_)
  match a with
  | ⟨0, _⟩ => show win4_6.index t (0 : Fin 2) * 1 + 1 * 0 = 0; rw [e0]
  | ⟨1, _⟩ => show win4_6.index t (1 : Fin 2) * 128 + 1 * k.val = k.val; rw [e1]; omega

/-- window 5 is the whole [128, 128] matrix at every grid point -/
theorem iblk_w (c : Dev nD) (t : Fin cfg4.N) (k q : Fin 128) :
    (iblk4 V c 5 t : Vec Ideal S128x128 .f32) (ix2 k q) = wIn V c (ix2 k q) := by
  obtain ⟨e0, e1⟩ := idx_5 t
  show wIn V c (((cfg4.win 5).blk t).view.emb (ix2 k q)) = _
  refine congrArg (wIn V c) (funext fun a => Fin.ext ?_)
  match a with
  | ⟨0, _⟩ => show win4_5.index t (0 : Fin 2) * 128 + 1 * k.val = k.val; rw [e0]; omega
  | ⟨1, _⟩ => show win4_5.index t (1 : Fin 2) * 128 + 1 * q.val = q.val; rw [e1]; omega

/-! ## The product block of a grid point, and the running sums -/

/-- the product block the body computes at point t -/
noncomputable def blockZ (c : Dev nD) (t : Fin cfg4.N) : Vec Ideal S5000x128 .f32 :=
  k4_pay5 (F := Ideal) (iblk4 V c 0 t) (iblk4 V c 2 t) (iblk4 V c 1 t) (iblk4 V c 3 t) (iblk4 V c 4 t) (iblk4 V c 5 t) (iblk4 V c 6 t)

/-- the product's entry (n, j) for a row number n, zero past the last row (never used there) -/
noncomputable def Zn (c : Dev nD) (n : ℕ) (j : Fin 128) : EReal := if h : n < 100000 then Z V c ⟨n, h⟩ j else 0

theorem Zn_val (c : Dev nD) (n : Fin 100000) (j : Fin 128) : Zn V c n.val j = Z V c n j := dif_pos n.isLt

/-- entry (p, q) of the product block at point t is the product's entry (5000 t + p, q) -/
theorem blockZ_apply (c : Dev nD) (t : Fin cfg4.N) (p : Fin 5000) (q : Fin 128) :
    blockZ V c t (ix2 p q) = Zn V c (5000 * t.val + p.val) q := by
  have hN : t.val < 20 := lt_of_lt_of_eq t.isLt (show cfg4.N = 20 from N_4)
  have hb : 5000 * t.val + p.val < 100000 := by have := p.isLt; omega
  unfold Zn
  rw [dif_pos hb]
  unfold blockZ Z
  refine (pay5_apply (iblk4 V c 0 t) (iblk4 V c 2 t) (iblk4 V c 1 t) (iblk4 V c 3 t) (iblk4 V c 4 t) (iblk4 V c 5 t) (iblk4 V c 6 t) p q).trans ?_
  refine congrArg₂ (· + ·) (Finset.sum_congr rfl fun k _ => congrArg₂ (· * ·) ?_ (iblk_w V c t k q)) (iblk_row6 V c t q)
  show actOf _ _ _ _ _ = Act V c ⟨5000 * t.val + p.val, hb⟩ k
  rw [iblk_z V c t p k hb, iblk_row1 V c t k, iblk_row2 V c t k, iblk_row3 V c t k, iblk_row4 V c t k]
  rfl

/-- column j of block s of the product, summed over the block's rows -/
noncomputable def colS (c : Dev nD) (s : ℕ) (j : Fin 128) : EReal := ∑ r : Fin 5000, Zn V c (5000 * s + r.val) j

/-- the same for the squares -/
noncomputable def colQ (c : Dev nD) (s : ℕ) (j : Fin 128) : EReal :=
  ∑ r : Fin 5000, Zn V c (5000 * s + r.val) j * Zn V c (5000 * s + r.val) j

/-- After point n the first output block is the product block of point n, and the two accumulators hold, from zero, the
    column sums (and sums of squares) of blocks 0 to n: by induction on the point, the first point resetting and every
    later point adding to what the point before left. -/
theorem outs_eq (c : Dev nD) : ∀ (n : ℕ) (h : n < cfg4.N),
    (outsAt4 V c n h).1 = blockZ V c ⟨n, h⟩
    ∧ (∀ j : Fin 128, ((outsAt4 V c n h).2.1 : S1x128.Idx → EReal) (ix2 0 j) = 0 + ∑ s ∈ Finset.range (n + 1), colS V c s j)
    ∧ (∀ j : Fin 128, ((outsAt4 V c n h).2.2 : S1x128.Idx → EReal) (ix2 0 j) = 0 + ∑ s ∈ Finset.range (n + 1), colQ V c s j)
  | 0, h => by
    have e := outsAt4_A V c (⟨0, h⟩ : Fin cfg4.N) rfl
    rw [outA7 (F := Ideal) c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) (ms4_7 (⟨0, h⟩ : Fin cfg4.N)) (hs4_7 (⟨0, h⟩ : Fin cfg4.N)) (ms4_8 (⟨0, h⟩ : Fin cfg4.N)) (hs4_8 (⟨0, h⟩ : Fin cfg4.N)) (ms4_9 (⟨0, h⟩ : Fin cfg4.N)) (hs4_9 (⟨0, h⟩ : Fin cfg4.N)) ((hcond4_0 (⟨0, h⟩ : Fin cfg4.N)).mpr rfl) (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N)) (iblk4 V c 5 (⟨0, h⟩ : Fin cfg4.N)) (iblk4 V c 6 (⟨0, h⟩ : Fin cfg4.N)), outA8 (F := Ideal) c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) (ms4_7 (⟨0, h⟩ : Fin cfg4.N)) (hs4_7 (⟨0, h⟩ : Fin cfg4.N)) (ms4_8 (⟨0, h⟩ : Fin cfg4.N)) (hs4_8 (⟨0, h⟩ : Fin cfg4.N)) (ms4_9 (⟨0, h⟩ : Fin cfg4.N)) (hs4_9 (⟨0, h⟩ : Fin cfg4.N)) ((hcond4_0 (⟨0, h⟩ : Fin cfg4.N)).mpr rfl) (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N)) (iblk4 V c 5 (⟨0, h⟩ : Fin cfg4.N)) (iblk4 V c 6 (⟨0, h⟩ : Fin cfg4.N)), outA9 (F := Ideal) c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) (ms4_7 (⟨0, h⟩ : Fin cfg4.N)) (hs4_7 (⟨0, h⟩ : Fin cfg4.N)) (ms4_8 (⟨0, h⟩ : Fin cfg4.N)) (hs4_8 (⟨0, h⟩ : Fin cfg4.N)) (ms4_9 (⟨0, h⟩ : Fin cfg4.N)) (hs4_9 (⟨0, h⟩ : Fin cfg4.N)) ((hcond4_0 (⟨0, h⟩ : Fin cfg4.N)).mpr rfl) (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N)) (iblk4 V c 5 (⟨0, h⟩ : Fin cfg4.N)) (iblk4 V c 6 (⟨0, h⟩ : Fin cfg4.N))] at e
    have e7 : (outsAt4 V c 0 h).1 = blockZ V c (⟨0, h⟩ : Fin cfg4.N) := congrArg Prod.fst e
    have e8 : (outsAt4 V c 0 h).2.1 = k4_pay1 (F := Ideal) (blockZ V c (⟨0, h⟩ : Fin cfg4.N)) (k4_pay3 (F := Ideal)) := congrArg (fun p => p.2.1) e
    have e9 : (outsAt4 V c 0 h).2.2 = k4_pay2 (F := Ideal) (blockZ V c (⟨0, h⟩ : Fin cfg4.N)) (k4_pay4 (F := Ideal)) := congrArg (fun p => p.2.2) e
    refine ⟨e7, fun j => ?_, fun j => ?_⟩
    · refine (congrFun e8 (ix2 0 j)).trans ?_
      refine (pay1_apply _ _ j).trans ?_
      rw [pay3_apply, Finset.sum_range_one]
      exact congrArg (0 + ·) (Finset.sum_congr rfl fun r _ => blockZ_apply V c (⟨0, h⟩ : Fin cfg4.N) r j)
    · refine (congrFun e9 (ix2 0 j)).trans ?_
      refine (pay2_apply _ _ j).trans ?_
      rw [pay4_apply, Finset.sum_range_one]
      exact congrArg (0 + ·) (Finset.sum_congr rfl fun r _ =>
        congrArg₂ (· * ·) (blockZ_apply V c (⟨0, h⟩ : Fin cfg4.N) r j) (blockZ_apply V c (⟨0, h⟩ : Fin cfg4.N) r j))
  | n + 1, h => by
    have hN : cfg4.N = 20 := N_4
    have hB : ¬(⟨n + 1, h⟩ : Fin cfg4.N).val % 20 = 0 := by dsimp only; omega
    obtain ⟨-, ih8, ih9⟩ := outs_eq c n (Nat.lt_of_succ_lt h)
    have e := outsAt4_B V c (⟨n + 1, h⟩ : Fin cfg4.N) hB
    rw [outB7 (F := Ideal) c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) (ms4_7 (⟨n + 1, h⟩ : Fin cfg4.N)) (hs4_7 (⟨n + 1, h⟩ : Fin cfg4.N)) (ms4_8 (⟨n + 1, h⟩ : Fin cfg4.N)) (hs4_8 (⟨n + 1, h⟩ : Fin cfg4.N)) (ms4_9 (⟨n + 1, h⟩ : Fin cfg4.N)) (hs4_9 (⟨n + 1, h⟩ : Fin cfg4.N)) (fun hcnd => hB ((hcond4_0 (⟨n + 1, h⟩ : Fin cfg4.N)).mp hcnd)) (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (iblk4 V c 5 (⟨n + 1, h⟩ : Fin cfg4.N)) (iblk4 V c 6 (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2, outB8 (F := Ideal) c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) (ms4_7 (⟨n + 1, h⟩ : Fin cfg4.N)) (hs4_7 (⟨n + 1, h⟩ : Fin cfg4.N)) (ms4_8 (⟨n + 1, h⟩ : Fin cfg4.N)) (hs4_8 (⟨n + 1, h⟩ : Fin cfg4.N)) (ms4_9 (⟨n + 1, h⟩ : Fin cfg4.N)) (hs4_9 (⟨n + 1, h⟩ : Fin cfg4.N)) (fun hcnd => hB ((hcond4_0 (⟨n + 1, h⟩ : Fin cfg4.N)).mp hcnd)) (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (iblk4 V c 5 (⟨n + 1, h⟩ : Fin cfg4.N)) (iblk4 V c 6 (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2, outB9 (F := Ideal) c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) (ms4_7 (⟨n + 1, h⟩ : Fin cfg4.N)) (hs4_7 (⟨n + 1, h⟩ : Fin cfg4.N)) (ms4_8 (⟨n + 1, h⟩ : Fin cfg4.N)) (hs4_8 (⟨n + 1, h⟩ : Fin cfg4.N)) (ms4_9 (⟨n + 1, h⟩ : Fin cfg4.N)) (hs4_9 (⟨n + 1, h⟩ : Fin cfg4.N)) (fun hcnd => hB ((hcond4_0 (⟨n + 1, h⟩ : Fin cfg4.N)).mp hcnd)) (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (iblk4 V c 5 (⟨n + 1, h⟩ : Fin cfg4.N)) (iblk4 V c 6 (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2] at e
    have e7 : (outsAt4 V c (n + 1) h).1 = blockZ V c (⟨n + 1, h⟩ : Fin cfg4.N) := congrArg Prod.fst e
    have e8 : (outsAt4 V c (n + 1) h).2.1
        = k4_pay1 (F := Ideal) (blockZ V c (⟨n + 1, h⟩ : Fin cfg4.N)) (outsAt4 V c n (Nat.lt_of_succ_lt h)).2.1 := congrArg (fun p => p.2.1) e
    have e9 : (outsAt4 V c (n + 1) h).2.2
        = k4_pay2 (F := Ideal) (blockZ V c (⟨n + 1, h⟩ : Fin cfg4.N)) (outsAt4 V c n (Nat.lt_of_succ_lt h)).2.2 := congrArg (fun p => p.2.2) e
    refine ⟨e7, fun j => ?_, fun j => ?_⟩
    · refine (congrFun e8 (ix2 0 j)).trans ?_
      refine (pay1_apply _ _ j).trans ?_
      refine (congrArg₂ (· + ·) (ih8 j) (Finset.sum_congr rfl fun r _ => blockZ_apply V c (⟨n + 1, h⟩ : Fin cfg4.N) r j)).trans ?_
      exact (add_assoc _ _ _).trans (congrArg (0 + ·) (Finset.sum_range_succ (fun s => colS V c s j) (n + 1)).symm)
    · refine (congrFun e9 (ix2 0 j)).trans ?_
      refine (pay2_apply _ _ j).trans ?_
      refine (congrArg₂ (· + ·) (ih9 j) (Finset.sum_congr rfl fun r _ =>
        congrArg₂ (· * ·) (blockZ_apply V c (⟨n + 1, h⟩ : Fin cfg4.N) r j) (blockZ_apply V c (⟨n + 1, h⟩ : Fin cfg4.N) r j))).trans ?_
      exact (add_assoc _ _ _).trans (congrArg (0 + ·) (Finset.sum_range_succ (fun s => colQ V c s j) (n + 1)).symm)

/-! ## The three arrays after the region -/

/-- the product as one array -/
noncomputable def Gz (c : Dev nD) : S100000x128.Idx → EReal := fun i => Z V c (i 0) (i 1)

/-- every point writes back its product block: block t of the product array -/
theorem flushed7_eq (c : Dev nD) (t : Fin cfg4.N) :
    (dat4 V c).flushed 7 t = ((cfg4.win 7).blk t).view.read (Elt Ideal) (Gz V c) := by
  have hN : t.val < 20 := lt_of_lt_of_eq t.isLt (show cfg4.N = 20 from N_4)
  obtain ⟨e0, e1⟩ := idx_7 t
  show (cfg4.win 7).cut (grid4.coords t) ((dat4 V c).after 7 t) = _
  rw [after4_7, (outs_eq V c t.val t.isLt).1]
  funext y
  have h0 : (y 0).val < 5000 := (y 0).isLt
  have h1 : (y 1).val < 128 := (y 1).isLt
  have hb : 5000 * t.val + (y 0).val < 100000 := by omega
  have hx : (cfg4.win 7).xinj (grid4.coords t) y = ix2 (⟨(y 0).val, h0⟩ : Fin 5000) (⟨(y 1).val, h1⟩ : Fin 128) :=
    funext fun a => by
      match a with
      | ⟨0, _⟩ => rfl
      | ⟨1, _⟩ => rfl
  have hemb : ((cfg4.win 7).blk t).view.emb y = ix2 (⟨5000 * t.val + (y 0).val, hb⟩ : Fin 100000) (⟨(y 1).val, h1⟩ : Fin 128) :=
    funext fun a => Fin.ext (by
      match a with
      | ⟨0, _⟩ => show win4_7.index t (0 : Fin 2) * 5000 + 1 * (y 0).val = 5000 * t.val + (y 0).val; rw [e0]; omega
      | ⟨1, _⟩ => show win4_7.index t (1 : Fin 2) * 128 + 1 * (y 1).val = (y 1).val; rw [e1]; omega)
  show blockZ V c t ((cfg4.win 7).xinj (grid4.coords t) y) = Gz V c (((cfg4.win 7).blk t).view.emb y)
  rw [hx, hemb, blockZ_apply]
  exact dif_pos hb

/-- every row of the product array lies in the block of the point numbered by the row divided by five thousand -/
theorem cover7 (i : S100000x128.Idx) : ∃ t : Fin cfg4.N, (cfg4.win 7).flush t = true ∧ i ∈ ((cfg4.win 7).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨e0, e1⟩ := idx_7 t
  refine ⟨t, flush4_7 t, ?_⟩
  show i ∈ ((View.whole main_v84_0).slice (win4_7.rect t)).set
  rw [View.set_slice_whole, Rect.mem_set_unit]
  intro a
  match a with
  | ⟨0, _⟩ =>
    show win4_7.index t (0 : Fin 2) * 5000 ≤ (i 0).val ∧ (i 0).val < win4_7.index t (0 : Fin 2) * 5000 + 5000
    rw [e0]; show (i 0).val / 5000 * 5000 ≤ (i 0).val ∧ (i 0).val < (i 0).val / 5000 * 5000 + 5000; omega
  | ⟨1, _⟩ =>
    show win4_7.index t (1 : Fin 2) * 128 ≤ (i 1).val ∧ (i 1).val < win4_7.index t (1 : Fin 2) * 128 + 128
    rw [e1]; omega

/-- the product array after the region -/
theorem final7 (c : Dev nD) : (dat4 V c).arrAt 7 cfg4.N = Gz V c :=
  (dat4 V c).arrAt_eq_of_cover 7 (Gz V c) (fun t _ => flushed7_eq V c t) cover7

/-- the last grid point, the only one that writes the two accumulators back -/
abbrev tLast : Fin cfg4.N := ⟨19, by rw [show cfg4.N = 20 from N_4]; decide⟩

/-- the sum of column j of the product over all hundred thousand rows -/
noncomputable def totS (c : Dev nD) (j : Fin 128) : EReal := ∑ r : Fin 100000, Z V c r j

/-- the sum of the squares of column j of the product over all rows -/
noncomputable def totQ (c : Dev nD) (j : Fin 128) : EReal := ∑ r : Fin 100000, Z V c r j * Z V c r j

theorem totS_eq (c : Dev nD) (j : Fin 128) : totS V c j = ∑ r : Fin 100000, Z V c r j := rfl

theorem totQ_eq (c : Dev nD) (j : Fin 128) : totQ V c j = ∑ r : Fin 100000, Z V c r j * Z V c r j := rfl

/-- the twenty partial column sums, from zero, are the column sum over all rows -/
theorem sumS (c : Dev nD) (j : Fin 128) : 0 + ∑ s ∈ Finset.range (19 + 1), colS V c s j = totS V c j :=
  Cert.BlockSum.sum_20x5000 (fun r => Z V c r j) (fun n => Zn V c n j) (fun n => Zn_val V c n j)

theorem sumQ (c : Dev nD) (j : Fin 128) : 0 + ∑ s ∈ Finset.range (19 + 1), colQ V c s j = totQ V c j :=
  Cert.BlockSum.sum_20x5000 (fun r => Z V c r j * Z V c r j) (fun n => Zn V c n j * Zn V c n j)
    (fun n => congrArg₂ (· * ·) (Zn_val V c n j) (Zn_val V c n j))

-- From here on the two totals are names: a comparison that opened them would enumerate the hundred thousand rows.
attribute [local irreducible] totS totQ

/-- the column sums as one row -/
noncomputable def Gs (c : Dev nD) : S1x128.Idx → EReal := fun i => totS V c (i 1)

/-- the column sums of the squares as one row -/
noncomputable def Gq (c : Dev nD) : S1x128.Idx → EReal := fun i => totQ V c (i 1)

/-- the one write-back of the column sums, at the last point -/
theorem flushed8_eq (c : Dev nD) (t : Fin cfg4.N) (hf : (cfg4.win 8).flush t = true) :
    (dat4 V c).flushed 8 t = ((cfg4.win 8).blk t).view.read (Elt Ideal) (Gs V c) := by
  have hN : cfg4.N = 20 := N_4
  have h19 : t.val = 19 := by have := (flush4_8 t).mp hf; have := t.isLt; omega
  obtain ⟨e0, e1⟩ := idx_8 t
  show (cfg4.win 8).cut (grid4.coords t) ((dat4 V c).after 8 t) = _
  rw [after4_8]
  funext y
  have h0 : (y 0).val < 1 := (y 0).isLt
  have h1 : (y 1).val < 128 := (y 1).isLt
  have hx : (cfg4.win 8).xinj (grid4.coords t) y = ix2 (0 : Fin 1) (⟨(y 1).val, h1⟩ : Fin 128) :=
    funext fun a => Fin.ext (by
      match a with
      | ⟨0, _⟩ => show (y 0).val = 0; omega
      | ⟨1, _⟩ => rfl)
  have hemb : ((cfg4.win 8).blk t).view.emb y = ix2 (0 : Fin 1) (⟨(y 1).val, h1⟩ : Fin 128) :=
    funext fun a => Fin.ext (by
      match a with
      | ⟨0, _⟩ => show win4_8.index t (0 : Fin 2) * 1 + 1 * (y 0).val = 0; rw [e0]; omega
      | ⟨1, _⟩ => show win4_8.index t (1 : Fin 2) * 128 + 1 * (y 1).val = (y 1).val; rw [e1]; omega)
  show ((outsAt4 V c t.val t.isLt).2.1 : S1x128.Idx → EReal) ((cfg4.win 8).xinj (grid4.coords t) y)
    = Gs V c (((cfg4.win 8).blk t).view.emb y)
  rw [hx, hemb, (outs_eq V c t.val t.isLt).2.1 ⟨(y 1).val, h1⟩, h19]
  exact sumS V c ⟨(y 1).val, h1⟩

theorem flushed9_eq (c : Dev nD) (t : Fin cfg4.N) (hf : (cfg4.win 9).flush t = true) :
    (dat4 V c).flushed 9 t = ((cfg4.win 9).blk t).view.read (Elt Ideal) (Gq V c) := by
  have hN : cfg4.N = 20 := N_4
  have h19 : t.val = 19 := by have := (flush4_9 t).mp hf; have := t.isLt; omega
  obtain ⟨e0, e1⟩ := idx_9 t
  show (cfg4.win 9).cut (grid4.coords t) ((dat4 V c).after 9 t) = _
  rw [after4_9]
  funext y
  have h0 : (y 0).val < 1 := (y 0).isLt
  have h1 : (y 1).val < 128 := (y 1).isLt
  have hx : (cfg4.win 9).xinj (grid4.coords t) y = ix2 (0 : Fin 1) (⟨(y 1).val, h1⟩ : Fin 128) :=
    funext fun a => Fin.ext (by
      match a with
      | ⟨0, _⟩ => show (y 0).val = 0; omega
      | ⟨1, _⟩ => rfl)
  have hemb : ((cfg4.win 9).blk t).view.emb y = ix2 (0 : Fin 1) (⟨(y 1).val, h1⟩ : Fin 128) :=
    funext fun a => Fin.ext (by
      match a with
      | ⟨0, _⟩ => show win4_9.index t (0 : Fin 2) * 1 + 1 * (y 0).val = 0; rw [e0]; omega
      | ⟨1, _⟩ => show win4_9.index t (1 : Fin 2) * 128 + 1 * (y 1).val = (y 1).val; rw [e1]; omega)
  show ((outsAt4 V c t.val t.isLt).2.2 : S1x128.Idx → EReal) ((cfg4.win 9).xinj (grid4.coords t) y)
    = Gq V c (((cfg4.win 9).blk t).view.emb y)
  rw [hx, hemb, (outs_eq V c t.val t.isLt).2.2 ⟨(y 1).val, h1⟩, h19]
  exact sumQ V c ⟨(y 1).val, h1⟩

/-- the one block of each accumulator is its whole one-row array -/
theorem cover8 (i : S1x128.Idx) : ∃ t : Fin cfg4.N, (cfg4.win 8).flush t = true ∧ i ∈ ((cfg4.win 8).blk t).view.set := by
  have hi0 : (i 0).val < 1 := (i 0).isLt
  have hi1 : (i 1).val < 128 := (i 1).isLt
  obtain ⟨e0, e1⟩ := idx_8 tLast
  refine ⟨tLast, (flush4_8 tLast).mpr rfl, ?_⟩
  show i ∈ ((View.whole main_v84_1).slice (win4_8.rect tLast)).set
  rw [View.set_slice_whole, Rect.mem_set_unit]
  intro a
  match a with
  | ⟨0, _⟩ =>
    show win4_8.index tLast (0 : Fin 2) * 1 ≤ (i 0).val ∧ (i 0).val < win4_8.index tLast (0 : Fin 2) * 1 + 1
    rw [e0]; omega
  | ⟨1, _⟩ =>
    show win4_8.index tLast (1 : Fin 2) * 128 ≤ (i 1).val ∧ (i 1).val < win4_8.index tLast (1 : Fin 2) * 128 + 128
    rw [e1]; omega

theorem cover9 (i : S1x128.Idx) : ∃ t : Fin cfg4.N, (cfg4.win 9).flush t = true ∧ i ∈ ((cfg4.win 9).blk t).view.set := by
  have hi0 : (i 0).val < 1 := (i 0).isLt
  have hi1 : (i 1).val < 128 := (i 1).isLt
  obtain ⟨e0, e1⟩ := idx_9 tLast
  refine ⟨tLast, (flush4_9 tLast).mpr rfl, ?_⟩
  show i ∈ ((View.whole main_v84_2).slice (win4_9.rect tLast)).set
  rw [View.set_slice_whole, Rect.mem_set_unit]
  intro a
  match a with
  | ⟨0, _⟩ =>
    show win4_9.index tLast (0 : Fin 2) * 1 ≤ (i 0).val ∧ (i 0).val < win4_9.index tLast (0 : Fin 2) * 1 + 1
    rw [e0]; omega
  | ⟨1, _⟩ =>
    show win4_9.index tLast (1 : Fin 2) * 128 ≤ (i 1).val ∧ (i 1).val < win4_9.index tLast (1 : Fin 2) * 128 + 128
    rw [e1]; omega

theorem final8 (c : Dev nD) : (dat4 V c).arrAt 8 cfg4.N = Gs V c :=
  (dat4 V c).arrAt_eq_of_cover 8 (Gs V c) (flushed8_eq V c) cover8

theorem final9 (c : Dev nD) : (dat4 V c).arrAt 9 cfg4.N = Gq V c :=
  (dat4 V c).arrAt_eq_of_cover 9 (Gq V c) (flushed9_eq V c) cover9

/-! ## The three results at an entry -/

theorem final_z (c : Dev nD) (r : Fin 100000) (j : Fin 128) :
    ((dat4 V c).arrAt 7 cfg4.N : S100000x128.Idx → EReal) (ix2 r j) = Z V c r j :=
  congrFun (final7 V c) (ix2 r j)

theorem final_s (c : Dev nD) (j : Fin 128) :
    ((dat4 V c).arrAt 8 cfg4.N : S1x128.Idx → EReal) (ix2 0 j) = ∑ r : Fin 100000, Z V c r j :=
  (congrFun (final8 V c) (ix2 0 j)).trans (totS_eq V c j)

theorem final_q (c : Dev nD) (j : Fin 128) :
    ((dat4 V c).arrAt 9 cfg4.N : S1x128.Idx → EReal) (ix2 0 j) = ∑ r : Fin 100000, Z V c r j * Z V c r j :=
  (congrFun (final9 V c) (ix2 0 j)).trans (totQ_eq V c j)

/-! ## The region's results as functions of their coordinates -/

/-- the product's entries read by their two coordinates -/
theorem prod_entry (c : Dev nD) (r : Fin 100000) (j : Fin 128) : Cert.Lib.cur2 (a := 100000) (b := 128) ((dat4 V c).arrAt 7 cfg4.N) r j = Z V c r j :=
  final_z V c r j

/-- the product is the linear map, with its shift, of the normalised and rectified z -/
theorem contract_z (c : Dev nD) :
    Cert.Lib.cur2 (a := 100000) (b := 128) ((dat4 V c).arrAt 7 cfg4.N)
      = Cert.Gin.lin (Cert.Gin.norm (Cert.Lib.cur2 (a := 100000) (b := 128) (V c (Pipeline.arrRef spec4 0)))
          (Cert.Lib.row (a := 128) (V c (Pipeline.arrRef spec4 1))) (Cert.Lib.row (a := 128) (V c (Pipeline.arrRef spec4 2)))
          (Cert.Lib.row (a := 128) (V c (Pipeline.arrRef spec4 3))) (Cert.Lib.row (a := 128) (V c (Pipeline.arrRef spec4 4))))
        (Cert.Lib.cur2 (a := 128) (b := 128) (V c (Pipeline.arrRef spec4 5))) (Cert.Lib.row (a := 128) (V c (Pipeline.arrRef spec4 6))) := by
  funext r j
  exact (prod_entry V c r j).trans rfl

/-- the first row is the sum over all rows of the product's columns -/
theorem contract_s (c : Dev nD) :
    Cert.Lib.row (a := 128) ((dat4 V c).arrAt 8 cfg4.N)
      = (fun j => ∑ r, Cert.Lib.cur2 (a := 100000) (b := 128) ((dat4 V c).arrAt 7 cfg4.N) r j) := by
  funext j
  have h8 : Cert.Lib.row (a := 128) ((dat4 V c).arrAt 8 cfg4.N) j = totS V c j := congrFun (final8 V c) (ix2 0 j)
  refine h8.trans ((totS_eq V c j).trans ?_)
  exact Finset.sum_congr rfl fun r _ => (prod_entry V c r j).symm

/-- the second row is the sum over all rows of the squares of the product's columns -/
theorem contract_q (c : Dev nD) :
    Cert.Lib.row (a := 128) ((dat4 V c).arrAt 9 cfg4.N)
      = (fun j => ∑ r, Cert.Lib.cur2 (a := 100000) (b := 128) ((dat4 V c).arrAt 7 cfg4.N) r j
          * Cert.Lib.cur2 (a := 100000) (b := 128) ((dat4 V c).arrAt 7 cfg4.N) r j) := by
  funext j
  have h9 : Cert.Lib.row (a := 128) ((dat4 V c).arrAt 9 cfg4.N) j = totQ V c j := congrFun (final9 V c) (ix2 0 j)
  refine h9.trans ((totQ_eq V c j).trans ?_)
  exact Finset.sum_congr rfl fun r _ => (congrArg₂ (· * ·) (prod_entry V c r j) (prod_entry V c r j)).symm

/-- The product is the linear map, with its shift, of the normalised and rectified z; the two rows are the sums over all
    rows of the product's columns and of their squares. -/
theorem contract (c : Dev nD) :
    Cert.Lib.cur2 (a := 100000) (b := 128) ((dat4 V c).arrAt 7 cfg4.N)
      = Cert.Gin.lin (Cert.Gin.norm (Cert.Lib.cur2 (a := 100000) (b := 128) (V c (Pipeline.arrRef spec4 0)))
          (Cert.Lib.row (a := 128) (V c (Pipeline.arrRef spec4 1))) (Cert.Lib.row (a := 128) (V c (Pipeline.arrRef spec4 2)))
          (Cert.Lib.row (a := 128) (V c (Pipeline.arrRef spec4 3))) (Cert.Lib.row (a := 128) (V c (Pipeline.arrRef spec4 4))))
        (Cert.Lib.cur2 (a := 128) (b := 128) (V c (Pipeline.arrRef spec4 5))) (Cert.Lib.row (a := 128) (V c (Pipeline.arrRef spec4 6)))
    ∧ Cert.Lib.row (a := 128) ((dat4 V c).arrAt 8 cfg4.N)
      = (fun j => ∑ r, Cert.Lib.cur2 (a := 100000) (b := 128) ((dat4 V c).arrAt 7 cfg4.N) r j)
    ∧ Cert.Lib.row (a := 128) ((dat4 V c).arrAt 9 cfg4.N)
      = (fun j => ∑ r, Cert.Lib.cur2 (a := 100000) (b := 128) ((dat4 V c).arrAt 7 cfg4.N) r j
          * Cert.Lib.cur2 (a := 100000) (b := 128) ((dat4 V c).arrAt 7 cfg4.N) r j) :=
  ⟨contract_z V c, contract_s V c, contract_q V c⟩

end Cert.KernelIdeal.BnReluLinear4
-- ==== Proof.RegionBnRelu5.lean ====
import proofs.«120577_j28003186770423_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120577_j28003186770423_1_alg».proof.Proof.LibCurry
import proofs.«120577_j28003186770423_1_alg».proof.Proof.GinMath

/-! Batch normalisation followed by a rectifier, one block of 5000 rows at a time.

The output array has 100000 rows and 128 columns. Grid point t handles rows 5000 t .. 5000 t + 4999: it reads that
block of the big input and the four row vectors (one row, 128 columns, the same at every point), and stores
max ((((x - mean) * rsqrt (var + eps)) * gamma) + beta, 0) entry by entry, each row vector read at the entry's column.
Since every point writes back the restriction of ONE function of the five input arrays to its block, and the twenty
blocks cover all rows, the output array ends as that function: entry (r, j) depends on entry (r, j) of the big input
and on column j of the four row vectors, and on nothing else. -/

noncomputable section

namespace Cert.KernelIdeal.BnRelu5

open Idealize.ShloMosaic Idealize.ShloMosaic.ValueIdx Idealize.SL.Sem Cert.KernelIdeal Cert.KernelIdeal.Gen
open Idealize.ShloMosaic.TcCoe
open Idealize.ShloMosaic.Pipeline (Dat)

/-- Row r, column j of the big array, minus column j of the first row vector, times the reciprocal square root of
    (column j of the second row vector plus the small constant), times column j of the third, plus column j of the
    fourth, and the larger of that and zero. -/
def bnRelu (A0 : S100000x128.Idx → EReal) (A1 A2 A3 A4 : S1x128.Idx → EReal) (r : Fin 100000) (j : Fin 128) : EReal :=
  max ((((A0 (ix2 r j) - A1 (ix2 0 j)) * Ideal.rsqrt (A2 (ix2 0 j) + Ideal.ofBits .f32 0x3727C5AC#32)) * A3 (ix2 0 j)) + A4 (ix2 0 j))
    (Ideal.ofBits .f32 0x00000000#32)

/-- The same function of a whole index: its two coordinates taken apart. -/
def bnReluArr (A0 : S100000x128.Idx → EReal) (A1 A2 A3 A4 : S1x128.Idx → EReal) : S100000x128.Idx → EReal :=
  fun i => bnRelu A0 A1 A2 A3 A4 ⟨(i 0).val, idx2_lt0 i⟩ ⟨(i 1).val, idx2_lt1 i⟩

/-- At an index whose coordinates are (r, j) the whole-index form is the coordinate form. -/
theorem bnReluArr_at (A0 : S100000x128.Idx → EReal) (A1 A2 A3 A4 : S1x128.Idx → EReal) (i : S100000x128.Idx)
    (r : Fin 100000) (j : Fin 128) (h0 : (i 0).val = r.val) (h1 : (i 1).val = j.val) :
    bnReluArr A0 A1 A2 A3 A4 i = bnRelu A0 A1 A2 A3 A4 r j := by
  unfold bnReluArr
  have e0 : (⟨(i 0).val, idx2_lt0 i⟩ : Fin 100000) = r := Fin.ext h0
  have e1 : (⟨(i 1).val, idx2_lt1 i⟩ : Fin 128) = j := Fin.ext h1
  rw [e0, e1]

theorem hz : (![0, 0] : Fin 2 → Nat) = fun _ => 0 := funext fun a => by fin_cases a <;> rfl

/-- What the body stores, at row p and column q of a block: the five loaded blocks combined entry by entry, the
    row vectors read at their one row. -/
theorem pay_apply (x0 : Vec Ideal S5000x128 .f32) (x2 x1 x3 x4 : Vec Ideal S1x128 .f32) (p : Fin 5000) (q : Fin 128) :
    k5_pay1 x0 x2 x1 x3 x4 (ix2 p q)
      = max ((((x0 (ix2 p q) - x1 (ix2 0 q)) * Ideal.rsqrt (x2 (ix2 0 q) + Ideal.ofBits .f32 0x3727C5AC#32)) * x3 (ix2 0 q)) + x4 (ix2 0 q))
          (Ideal.ofBits .f32 0x00000000#32) := by
  unfold k5_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The index maps over the twenty grid points: the two big windows sit at block (t, 0) at point t, the four row
    vectors at block (0, 0) throughout. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem point_lt (t : Fin cfg5.N) : t.val < 20 := lt_of_lt_of_eq t.isLt N_5

variable (V : (c : Dev nD) → (b : Ref sig .tc) → Buf (Elt Ideal) ((c : Thread nD τ).loc b))

/-- Block t of the big input window, at row p and column q, is the array at row 5000 t + p and column q. -/
theorem iblk_big (c : Dev nD) (t : Fin cfg5.N) (p : Fin 5000) (q : Fin 128) (r : Fin 100000) (hr : r.val = 5000 * t.val + p.val) :
    (iblk5 V c 0 t : Vec Ideal S5000x128 .f32) (ix2 p q) = (V c (Pipeline.arrRef spec5 0) : S100000x128.Idx → EReal) (ix2 r q) := by
  obtain ⟨e0, e1, -⟩ := idx_facts t
  unfold iblk5
  rw [View.read_apply]
  show (V c (Pipeline.arrRef spec5 0) : S100000x128.Idx → EReal) _ = _
  refine congrArg _ ?_
  funext a; apply Fin.ext
  match a with
  | ⟨0, _⟩ => show win5_0.index t (0 : Fin 2) * 5000 + 1 * p.val = r.val; rw [e0, hr]; omega
  | ⟨1, _⟩ => show win5_0.index t (1 : Fin 2) * 128 + 1 * q.val = q.val; rw [e1]; omega

/-- The single block of a row-vector window, at its one row and column q, is the array at that row and column. -/
theorem iblk_row1 (c : Dev nD) (t : Fin cfg5.N) (q : Fin 128) :
    (iblk5 V c 1 t : Vec Ideal S1x128 .f32) (ix2 0 q) = (V c (Pipeline.arrRef spec5 1) : S1x128.Idx → EReal) (ix2 0 q) := by
  obtain ⟨-, -, e0, e1, -⟩ := idx_facts t
  unfold iblk5
  rw [View.read_apply]
  show (V c (Pipeline.arrRef spec5 1) : S1x128.Idx → EReal) _ = _
  refine congrArg _ ?_
  funext a; apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

theorem iblk_row2 (c : Dev nD) (t : Fin cfg5.N) (q : Fin 128) :
    (iblk5 V c 2 t : Vec Ideal S1x128 .f32) (ix2 0 q) = (V c (Pipeline.arrRef spec5 2) : S1x128.Idx → EReal) (ix2 0 q) := by
  obtain ⟨-, -, -, -, e0, e1, -⟩ := idx_facts t
  unfold iblk5
  rw [View.read_apply]
  show (V c (Pipeline.arrRef spec5 2) : S1x128.Idx → EReal) _ = _
  refine congrArg _ ?_
  funext a; apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega

theorem iblk_row3 (c : Dev nD) (t : Fin cfg5.N) (q : Fin 128) :
    (iblk5 V c 3 t : Vec Ideal S1x128 .f32) (ix2 0 q) = (V c (Pipeline.arrRef spec5 3) : S1x128.Idx → EReal) (ix2 0 q) := by
  obtain ⟨-, -, -, -, -, -, e0, e1, -⟩ := idx_facts t
  unfold iblk5
  rw [View.read_apply]
  show (V c (Pipeline.arrRef spec5 3) : S1x128.Idx → EReal) _ = _
  refine congrArg _ ?_
  funext a; apply Fin.ext
  match a with
  | ⟨0, _⟩ => show win5_3.index t (0 : Fin 2) * 1 + 1 * 0 = 0; rw [e0]
  | ⟨1, _⟩ => show win5_3.index t (1 : Fin 2) * 128 + 1 * q.val = q.val; rw [e1]; omega

theorem iblk_row4 (c : Dev nD) (t : Fin cfg5.N) (q : Fin 128) :
    (iblk5 V c 4 t : Vec Ideal S1x128 .f32) (ix2 0 q) = (V c (Pipeline.arrRef spec5 4) : S1x128.Idx → EReal) (ix2 0 q) := by
  obtain ⟨-, -, -, -, -, -, -, -, e0, e1, -⟩ := idx_facts t
  unfold iblk5
  rw [View.read_apply]
  show (V c (Pipeline.arrRef spec5 4) : S1x128.Idx → EReal) _ = _
  refine congrArg _ ?_
  funext a; apply Fin.ext
  match a with
  | ⟨0, _⟩ => show win5_4.index t (0 : Fin 2) * 1 + 1 * 0 = 0; rw [e0]
  | ⟨1, _⟩ => show win5_4.index t (1 : Fin 2) * 128 + 1 * q.val = q.val; rw [e1]; omega

/-- The whole-array function the output ends holding: the entrywise formula of the five arrays as the region finds them. -/
abbrev result (c : Dev nD) : S100000x128.Idx → EReal :=
  bnReluArr (V c (Pipeline.arrRef spec5 0)) (V c (Pipeline.arrRef spec5 1)) (V c (Pipeline.arrRef spec5 2))
    (V c (Pipeline.arrRef spec5 3)) (V c (Pipeline.arrRef spec5 4))

/-- What point t writes back is block t of that function: rows 5000 t .. 5000 t + 4999, every column. -/
theorem flushed_eq (c : Dev nD) (t : Fin cfg5.N) :
    (dat5 V c).flushed 5 t = ((cfg5.win 5).blk t).view.read (Elt Ideal) (result V c) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  obtain ⟨-, -, -, -, -, -, -, -, -, -, e0, e1⟩ := idx_facts t
  have ht := point_lt t
  funext y
  obtain ⟨p, q, rfl⟩ : ∃ (p : Fin 5000) (q : Fin 128), y = ix2 p q := ⟨y 0, y 1, eq_ix2 y⟩
  have hr : 5000 * t.val + p.val < 100000 := by have := p.isLt; omega
  rw [View.read_apply]
  show k5_pay1 (iblk5 V c 0 t) (iblk5 V c 2 t) (iblk5 V c 1 t) (iblk5 V c 3 t) (iblk5 V c 4 t) (ix2 p q)
    = result V c (((cfg5.win 5).blk t).view.emb (ix2 p q))
  rw [pay_apply, iblk_big V c t p q ⟨5000 * t.val + p.val, hr⟩ rfl, iblk_row1, iblk_row2, iblk_row3, iblk_row4]
  refine (bnReluArr_at _ _ _ _ _ _ ⟨5000 * t.val + p.val, hr⟩ q ?_ ?_).symm
  · show win5_5.index t (0 : Fin 2) * 5000 + 1 * p.val = 5000 * t.val + p.val; rw [e0]; omega
  · show win5_5.index t (1 : Fin 2) * 128 + 1 * q.val = q.val; rw [e1]; omega

/-- Every index of the output array lies in the block of the point its row divided by 5000 names. -/
theorem covered (i : S100000x128.Idx) :
    ∃ t : Fin cfg5.N, (cfg5.win 5).flush t = true ∧ i ∈ ((cfg5.win 5).blk t).view.set := by
  have h0 : (i 0).val < 100000 := idx2_lt0 i
  have h1 : (i 1).val < 128 := idx2_lt1 i
  have hN : (i 0).val / 5000 < cfg5.N := lt_of_lt_of_eq (by omega : (i 0).val / 5000 < 20) N_5.symm
  obtain ⟨-, -, -, -, -, -, -, -, -, -, e0, e1⟩ := idx_facts ⟨(i 0).val / 5000, hN⟩
  refine ⟨⟨(i 0).val / 5000, hN⟩, flush5_5 _, ?_⟩
  show i ∈ ((View.whole main_v97).slice (win5_5.rect ⟨(i 0).val / 5000, hN⟩)).set
  rw [View.set_slice_whole, Rect.mem_set_unit]
  intro a
  match a with
  | ⟨0, _⟩ =>
    show win5_5.index ⟨(i 0).val / 5000, hN⟩ (0 : Fin 2) * 5000 ≤ (i 0).val
      ∧ (i 0).val < win5_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, hN⟩ (1 : Fin 2) * 128 ≤ (i 1).val
      ∧ (i 1).val < win5_5.index ⟨(i 0).val / 5000, hN⟩ (1 : Fin 2) * 128 + 128
    rw [e1]; omega

/-- After the region the output array holds the entrywise formula of the five input arrays: every point writes back
    its block of one whole-array function, and the twenty blocks cover the array. -/
theorem final_arr (c : Dev nD) : (dat5 V c).arrAt 5 cfg5.N = result V c :=
  (dat5 V c).arrAt_eq_of_cover 5 (result V c) (fun t _ => flushed_eq V c t) (fun i => covered i)

/-- The same, index by index, in terms of the coordinate form of the formula. -/
theorem final (c : Dev nD) (r : Fin 100000) (j : Fin 128) :
    ((dat5 V c).arrAt 5 cfg5.N : S100000x128.Idx → EReal) (ix2 r j)
      = bnRelu (V c (Pipeline.arrRef spec5 0)) (V c (Pipeline.arrRef spec5 1)) (V c (Pipeline.arrRef spec5 2))
          (V c (Pipeline.arrRef spec5 3)) (V c (Pipeline.arrRef spec5 4)) r j := by
  rw [final_arr V c]
  exact bnReluArr_at _ _ _ _ _ (ix2 r j) r j rfl rfl

/-- The same with the five input arrays named: whatever functions the region finds in its five input arrays, the
    output entry (r, j) is the formula of their entries. -/
theorem final_of (c : Dev nD) (A0 : S100000x128.Idx → EReal) (A1 A2 A3 A4 : S1x128.Idx → EReal)
    (h0 : (V c (Pipeline.arrRef spec5 0) : S100000x128.Idx → EReal) = A0)
    (h1 : (V c (Pipeline.arrRef spec5 1) : S1x128.Idx → EReal) = A1)
    (h2 : (V c (Pipeline.arrRef spec5 2) : S1x128.Idx → EReal) = A2)
    (h3 : (V c (Pipeline.arrRef spec5 3) : S1x128.Idx → EReal) = A3)
    (h4 : (V c (Pipeline.arrRef spec5 4) : S1x128.Idx → EReal) = A4)
    (r : Fin 100000) (j : Fin 128) :
    ((dat5 V c).arrAt 5 cfg5.N : S100000x128.Idx → EReal) (ix2 r j)
      = max ((((A0 (ix2 r j) - A1 (ix2 0 j)) * Ideal.rsqrt (A2 (ix2 0 j) + Ideal.ofBits .f32 0x3727C5AC#32)) * A3 (ix2 0 j)) + A4 (ix2 0 j))
          (Ideal.ofBits .f32 0x00000000#32) := by
  subst h0 h1 h2 h3 h4
  exact final V c r j

/-- The same as an equation between functions of the two coordinates: the output, read by row and column, is the
    normalisation of the big input by the four row vectors read by column. -/
theorem contract (c : Dev nD) :
    Cert.Lib.cur2 (a := 100000) (b := 128) ((dat5 V c).arrAt 5 cfg5.N)
      = Cert.Gin.norm (Cert.Lib.cur2 (a := 100000) (b := 128) (V c (Pipeline.arrRef spec5 0)))
          (Cert.Lib.row (a := 128) (V c (Pipeline.arrRef spec5 1))) (Cert.Lib.row (a := 128) (V c (Pipeline.arrRef spec5 2)))
          (Cert.Lib.row (a := 128) (V c (Pipeline.arrRef spec5 3))) (Cert.Lib.row (a := 128) (V c (Pipeline.arrRef spec5 4))) := by
  funext r j
  exact final V c r j

end Cert.KernelIdeal.BnRelu5

end
-- ==== Proof.KLayer1.lean ====
/-
  Layer 1 of the idealized kernel program, read off the run's fold.

  The buffer contents at the seven boundaries of the layer (before its first stretch of host operations, after each
  stretch, after each of its three regions) are the run's. A region leaves in its output arrays what its value
  theorem says and every other buffer as entered; so the layer's output array is the layer function of the contents
  at the layer's entry, and the argument arrays and the arrays later layers read come out as they went in.
-/
import proofs.«120577_j28003186770423_1_alg».proof.Proof.Gen.KernelIdeal.Frame
import proofs.«120577_j28003186770423_1_alg».proof.Proof.KCore1
import proofs.«120577_j28003186770423_1_alg».proof.Proof.RegionFirstLinear3
import proofs.«120577_j28003186770423_1_alg».proof.Proof.RegionBnReluLinear4
import proofs.«120577_j28003186770423_1_alg».proof.Proof.RegionBnRelu5

set_option maxRecDepth 16384

noncomputable section

namespace Cert.KernelIdeal.KLayer1

open Idealize.ShloMosaic Idealize.ShloMosaic.TcCoe Idealize.ShloMosaic.ValueIdx Idealize.ShloMosaic.StableHlo Idealize.SL.Sem
open Cert.KernelIdeal Cert.KernelIdeal.Gen Cert.KernelIdeal.K Cert.Lib Cert.Gin

variable (m : (ℓ : Loc nD τ sig) → Buf (Elt Ideal) ℓ) (ρ : Dev nD → PrngReg) (c : Dev nD)

set_option maxHeartbeats 4000000 in
/-- The layer's output array as the layer function of the contents at the layer's entry. -/
theorem out_eq :
    cur2 (a := 100000) (b := 128) (W12 m ρ c (Proc.devRef .tc main_v97))
      = layerK (fun r k => cur2 (a := 100000) (b := 128) (W6 m ρ c (Proc.devRef .tc main_v50)) r k + cur2 (aggOf (W6 m ρ c (Proc.devRef .tc main_v50)) (W6 m ρ c (Proc.devRef .tc main_v1)) (W6 m ρ c (Proc.devRef .tc main_v3))) r k)
          (cur2 (mat 1 (W6 m ρ c (Proc.devRef .tc main_arg3)) slices_S4x128x128_S1x128x128_1_0_0)) (cur1 (vec 1 (W6 m ρ c (Proc.devRef .tc main_arg4)) slices_S4x128_S1x128_1_0)) (cur1 (vec 1 (W6 m ρ c (Proc.devRef .tc main_arg5)) slices_S4x128_S1x128_1_0)) (cur1 (vec 1 (W6 m ρ c (Proc.devRef .tc main_arg6)) slices_S4x128_S1x128_1_0))
          (cur2 (mat 1 (W6 m ρ c (Proc.devRef .tc main_arg7)) slices_S4x128x128_S1x128x128_1_0_0)) (cur1 (vec 1 (W6 m ρ c (Proc.devRef .tc main_arg8)) slices_S4x128_S1x128_1_0)) (cur1 (vec 1 (W6 m ρ c (Proc.devRef .tc main_arg9)) slices_S4x128_S1x128_1_0)) (cur1 (vec 1 (W6 m ρ c (Proc.devRef .tc main_arg10)) slices_S4x128_S1x128_1_0)) := by
  -- the first region's three output arrays
  have e4 : W8 m ρ c (Proc.devRef .tc main_v66_0) = (dat3 (V7 (F := Ideal) m ρ) c).arrAt 4 cfg3.N := W8_arr m ρ c 4
  have e5 : W8 m ρ c (Proc.devRef .tc main_v66_1) = (dat3 (V7 (F := Ideal) m ρ) c).arrAt 5 cfg3.N := W8_arr m ρ c 5
  have e6 : W8 m ρ c (Proc.devRef .tc main_v66_2) = (dat3 (V7 (F := Ideal) m ρ) c).arrAt 6 cfg3.N := W8_arr m ρ c 6
  obtain ⟨a1, a2, a3⟩ := FirstLinear3.contract (V7 (F := Ideal) m ρ) c
  rw [← e4] at a1 a2 a3
  rw [← e5] at a2
  rw [← e6] at a3
  -- the second region's
  have f7 : W10 m ρ c (Proc.devRef .tc main_v84_0) = (dat4 (V9 (F := Ideal) m ρ) c).arrAt 7 cfg4.N := W10_arr m ρ c 7
  have f8 : W10 m ρ c (Proc.devRef .tc main_v84_1) = (dat4 (V9 (F := Ideal) m ρ) c).arrAt 8 cfg4.N := W10_arr m ρ c 8
  have f9 : W10 m ρ c (Proc.devRef .tc main_v84_2) = (dat4 (V9 (F := Ideal) m ρ) c).arrAt 9 cfg4.N := W10_arr m ρ c 9
  obtain ⟨b1, b2, b3⟩ := BnReluLinear4.contract (V9 (F := Ideal) m ρ) c
  rw [← f7] at b1 b2 b3
  rw [← f8] at b2
  rw [← f9] at b3
  -- the third region's
  have g5 : W12 m ρ c (Proc.devRef .tc main_v97) = (dat5 (V11 (F := Ideal) m ρ) c).arrAt 5 cfg5.N := W12_arr m ρ c 5
  have c1 := BnRelu5.contract (V11 (F := Ideal) m ρ) c
  rw [← g5] at c1
  exact KCore1.out_eq (W6 m ρ c) (W8 m ρ c) (W10 m ρ c) (W12 m ρ c) a1 a2 a3
    (W8_of_ne m ρ c main_arg5 (by decide))
    (W8_of_ne m ρ c main_arg6 (by decide))
    (W8_of_ne m ρ c main_arg7 (by decide))
    (W8_of_ne m ρ c main_arg8 (by decide))
    (W8_of_ne m ρ c main_arg9 (by decide))
    (W8_of_ne m ρ c main_arg10 (by decide))
    b1 b2 b3
    (W10_of_ne m ρ c main_arg9 (by decide))
    (W10_of_ne m ρ c main_arg10 (by decide))
    c1

/-! ## What the layer leaves alone -/

theorem keep_arg0 : W12 m ρ c (Proc.devRef .tc main_arg0) = W6 m ρ c (Proc.devRef .tc main_arg0) :=
  (W12_of_ne m ρ c main_arg0 (by decide)).trans ((KHost1.C_keep_arg0 (W10 m ρ c)).trans ((W10_of_ne m ρ c main_arg0 (by decide)).trans
    ((KHost1.B_keep_arg0 (W8 m ρ c)).trans ((W8_of_ne m ρ c main_arg0 (by decide)).trans (KHost1.A_keep_arg0 (W6 m ρ c))))))
theorem keep_arg1 : W12 m ρ c (Proc.devRef .tc main_arg1) = W6 m ρ c (Proc.devRef .tc main_arg1) :=
  (W12_of_ne m ρ c main_arg1 (by decide)).trans ((KHost1.C_keep_arg1 (W10 m ρ c)).trans ((W10_of_ne m ρ c main_arg1 (by decide)).trans
    ((KHost1.B_keep_arg1 (W8 m ρ c)).trans ((W8_of_ne m ρ c main_arg1 (by decide)).trans (KHost1.A_keep_arg1 (W6 m ρ c))))))
theorem keep_arg2 : W12 m ρ c (Proc.devRef .tc main_arg2) = W6 m ρ c (Proc.devRef .tc main_arg2) :=
  (W12_of_ne m ρ c main_arg2 (by decide)).trans ((KHost1.C_keep_arg2 (W10 m ρ c)).trans ((W10_of_ne m ρ c main_arg2 (by decide)).trans
    ((KHost1.B_keep_arg2 (W8 m ρ c)).trans ((W8_of_ne m ρ c main_arg2 (by decide)).trans (KHost1.A_keep_arg2 (W6 m ρ c))))))
theorem keep_arg3 : W12 m ρ c (Proc.devRef .tc main_arg3) = W6 m ρ c (Proc.devRef .tc main_arg3) :=
  (W12_of_ne m ρ c main_arg3 (by decide)).trans ((KHost1.C_keep_arg3 (W10 m ρ c)).trans ((W10_of_ne m ρ c main_arg3 (by decide)).trans
    ((KHost1.B_keep_arg3 (W8 m ρ c)).trans ((W8_of_ne m ρ c main_arg3 (by decide)).trans (KHost1.A_keep_arg3 (W6 m ρ c))))))
theorem keep_arg4 : W12 m ρ c (Proc.devRef .tc main_arg4) = W6 m ρ c (Proc.devRef .tc main_arg4) :=
  (W12_of_ne m ρ c main_arg4 (by decide)).trans ((KHost1.C_keep_arg4 (W10 m ρ c)).trans ((W10_of_ne m ρ c main_arg4 (by decide)).trans
    ((KHost1.B_keep_arg4 (W8 m ρ c)).trans ((W8_of_ne m ρ c main_arg4 (by decide)).trans (KHost1.A_keep_arg4 (W6 m ρ c))))))
theorem keep_arg5 : W12 m ρ c (Proc.devRef .tc main_arg5) = W6 m ρ c (Proc.devRef .tc main_arg5) :=
  (W12_of_ne m ρ c main_arg5 (by decide)).trans ((KHost1.C_keep_arg5 (W10 m ρ c)).trans ((W10_of_ne m ρ c main_arg5 (by decide)).trans
    ((KHost1.B_keep_arg5 (W8 m ρ c)).trans ((W8_of_ne m ρ c main_arg5 (by decide)).trans (KHost1.A_keep_arg5 (W6 m ρ c))))))
theorem keep_arg6 : W12 m ρ c (Proc.devRef .tc main_arg6) = W6 m ρ c (Proc.devRef .tc main_arg6) :=
  (W12_of_ne m ρ c main_arg6 (by decide)).trans ((KHost1.C_keep_arg6 (W10 m ρ c)).trans ((W10_of_ne m ρ c main_arg6 (by decide)).trans
    ((KHost1.B_keep_arg6 (W8 m ρ c)).trans ((W8_of_ne m ρ c main_arg6 (by decide)).trans (KHost1.A_keep_arg6 (W6 m ρ c))))))
theorem keep_arg7 : W12 m ρ c (Proc.devRef .tc main_arg7) = W6 m ρ c (Proc.devRef .tc main_arg7) :=
  (W12_of_ne m ρ c main_arg7 (by decide)).trans ((KHost1.C_keep_arg7 (W10 m ρ c)).trans ((W10_of_ne m ρ c main_arg7 (by decide)).trans
    ((KHost1.B_keep_arg7 (W8 m ρ c)).trans ((W8_of_ne m ρ c main_arg7 (by decide)).trans (KHost1.A_keep_arg7 (W6 m ρ c))))))
theorem keep_arg8 : W12 m ρ c (Proc.devRef .tc main_arg8) = W6 m ρ c (Proc.devRef .tc main_arg8) :=
  (W12_of_ne m ρ c main_arg8 (by decide)).trans ((KHost1.C_keep_arg8 (W10 m ρ c)).trans ((W10_of_ne m ρ c main_arg8 (by decide)).trans
    ((KHost1.B_keep_arg8 (W8 m ρ c)).trans ((W8_of_ne m ρ c main_arg8 (by decide)).trans (KHost1.A_keep_arg8 (W6 m ρ c))))))
theorem keep_arg9 : W12 m ρ c (Proc.devRef .tc main_arg9) = W6 m ρ c (Proc.devRef .tc main_arg9) :=
  (W12_of_ne m ρ c main_arg9 (by decide)).trans ((KHost1.C_keep_arg9 (W10 m ρ c)).trans ((W10_of_ne m ρ c main_arg9 (by decide)).trans
    ((KHost1.B_keep_arg9 (W8 m ρ c)).trans ((W8_of_ne m ρ c main_arg9 (by decide)).trans (KHost1.A_keep_arg9 (W6 m ρ c))))))
theorem keep_arg10 : W12 m ρ c (Proc.devRef .tc main_arg10) = W6 m ρ c (Proc.devRef .tc main_arg10) :=
  (W12_of_ne m ρ c main_arg10 (by decide)).trans ((KHost1.C_keep_arg10 (W10 m ρ c)).trans ((W10_of_ne m ρ c main_arg10 (by decide)).trans
    ((KHost1.B_keep_arg10 (W8 m ρ c)).trans ((W8_of_ne m ρ c main_arg10 (by decide)).trans (KHost1.A_keep_arg10 (W6 m ρ c))))))
theorem keep_arg11 : W12 m ρ c (Proc.devRef .tc main_arg11) = W6 m ρ c (Proc.devRef .tc main_arg11) :=
  (W12_of_ne m ρ c main_arg11 (by decide)).trans ((KHost1.C_keep_arg11 (W10 m ρ c)).trans ((W10_of_ne m ρ c main_arg11 (by decide)).trans
    ((KHost1.B_keep_arg11 (W8 m ρ c)).trans ((W8_of_ne m ρ c main_arg11 (by decide)).trans (KHost1.A_keep_arg11 (W6 m ρ c))))))
theorem keep_arg12 : W12 m ρ c (Proc.devRef .tc main_arg12) = W6 m ρ c (Proc.devRef .tc main_arg12) :=
  (W12_of_ne m ρ c main_arg12 (by decide)).trans ((KHost1.C_keep_arg12 (W10 m ρ c)).trans ((W10_of_ne m ρ c main_arg12 (by decide)).trans
    ((KHost1.B_keep_arg12 (W8 m ρ c)).trans ((W8_of_ne m ρ c main_arg12 (by decide)).trans (KHost1.A_keep_arg12 (W6 m ρ c))))))
theorem keep_v1 : W12 m ρ c (Proc.devRef .tc main_v1) = W6 m ρ c (Proc.devRef .tc main_v1) :=
  (W12_of_ne m ρ c main_v1 (by decide)).trans ((KHost1.C_keep_v1 (W10 m ρ c)).trans ((W10_of_ne m ρ c main_v1 (by decide)).trans
    ((KHost1.B_keep_v1 (W8 m ρ c)).trans ((W8_of_ne m ρ c main_v1 (by decide)).trans (KHost1.A_keep_v1 (W6 m ρ c))))))
theorem keep_v3 : W12 m ρ c (Proc.devRef .tc main_v3) = W6 m ρ c (Proc.devRef .tc main_v3) :=
  (W12_of_ne m ρ c main_v3 (by decide)).trans ((KHost1.C_keep_v3 (W10 m ρ c)).trans ((W10_of_ne m ρ c main_v3 (by decide)).trans
    ((KHost1.B_keep_v3 (W8 m ρ c)).trans ((W8_of_ne m ρ c main_v3 (by decide)).trans (KHost1.A_keep_v3 (W6 m ρ c))))))
theorem keep_v50 : W12 m ρ c (Proc.devRef .tc main_v50) = W6 m ρ c (Proc.devRef .tc main_v50) :=
  (W12_of_ne m ρ c main_v50 (by decide)).trans ((KHost1.C_keep_v50 (W10 m ρ c)).trans ((W10_of_ne m ρ c main_v50 (by decide)).trans
    ((KHost1.B_keep_v50 (W8 m ρ c)).trans (((W8_arr m ρ c 0).trans (((dat3 (V7 (F := Ideal) m ρ) c).arrAt_in 0 rfl _).trans (A_eq3 (V7 (F := Ideal) m ρ) c 0))).trans (KHost1.A_keep_v50 (W6 m ρ c))))))

end Cert.KernelIdeal.KLayer1

end
-- ==== Proof.KHost2.lean ====
/-
  Layer 2's host-side quantities, read from the three stretches of host operations around its regions, for any
  contents `X` of the buffers when a stretch is entered: the neighbourhood sums, the layer's slices of the weight and
  parameter stacks (a vector of length 128 laid out as one row), and the column means and variances formed from the
  accumulated column sums. A stretch leaves every buffer it does not write as it found it.
-/
import proofs.«120577_j28003186770423_1_alg».proof.Proof.Gen.KernelIdeal.Launch
import proofs.«120577_j28003186770423_1_alg».proof.Proof.KDefs
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KHost2

open Idealize.ShloMosaic Idealize.ShloMosaic.ValueIdx Idealize.ShloMosaic.StableHlo Cert.KernelIdeal Cert.KernelIdeal.Gen Cert.KernelIdeal.K Cert.Lib

/-- A stretch of host operations leaves a buffer none of them writes as it was. -/
local macro "keep_host " h:ident : tactic => `(tactic| (
  refine StableHlo.after_of_forall_not_mem _ _ (List.forall_iff_forall_mem.mp ?_)
  simp only [$h:ident, List.Forall, StableHlo.nullary_writes, StableHlo.unary_writes, StableHlo.binary_writes, StableHlo.ternary_writes,
    StableHlo.quaternary_writes, StableHlo.reshape_writes, Finset.mem_singleton]
  repeat' apply And.intro
  all_goals exact StableHlo.devRef_ne_of_ne (by decide)))

variable (X : Valuation τ sig (Elt Ideal))

/-! ## Before the first region -/

set_option maxHeartbeats 1000000 in
/-- The neighbourhood sums of the layer's input. -/
theorem A_agg : (after (hostOps6 (F := Ideal)) X (Proc.devRef .tc main_v107) : FVec Ideal S100000x128 .f32)
    = aggOf (X (Proc.devRef .tc main_v97)) (X (Proc.devRef .tc main_v1)) (X (Proc.devRef .tc main_v3)) := by
  after_results_simp <;> rfl

/-- The first linear map's weights. -/
theorem A_w1 : (after (hostOps6 (F := Ideal)) X (Proc.devRef .tc main_v109) : FVec Ideal S128x128 .f32) = mat 2 (X (Proc.devRef .tc main_arg3)) slices_S4x128x128_S1x128x128_2_0_0 := by
  after_results_simp <;> rfl

/-- The first linear map's bias, as one row. -/
theorem A_b1 : row (a := 128) (after (hostOps6 (F := Ideal)) X (Proc.devRef .tc main_v112)) = cur1 (vec 2 (X (Proc.devRef .tc main_arg4)) slices_S4x128_S1x128_2_0) := by
  have e : (after (hostOps6 (F := Ideal)) X (Proc.devRef .tc main_v112) : FVec Ideal S1x128 .f32)
      = shapeCast S1x128 (vec 2 (X (Proc.devRef .tc main_arg4)) slices_S4x128_S1x128_2_0) shapeCasts_S128_S1x128 := by
    after_results_simp <;> rfl
  funext j
  unfold row cur1
  rw [e]
  exact shapeCast_a_1a_apply _ _ _ _

theorem A_keep_v97 : after (hostOps6 (F := Ideal)) X (Proc.devRef .tc main_v97) = X (Proc.devRef .tc main_v97) := by keep_host hostOps6
theorem A_keep_arg0 : after (hostOps6 (F := Ideal)) X (Proc.devRef .tc main_arg0) = X (Proc.devRef .tc main_arg0) := by keep_host hostOps6
theorem A_keep_arg1 : after (hostOps6 (F := Ideal)) X (Proc.devRef .tc main_arg1) = X (Proc.devRef .tc main_arg1) := by keep_host hostOps6
theorem A_keep_arg2 : after (hostOps6 (F := Ideal)) X (Proc.devRef .tc main_arg2) = X (Proc.devRef .tc main_arg2) := by keep_host hostOps6
theorem A_keep_arg3 : after (hostOps6 (F := Ideal)) X (Proc.devRef .tc main_arg3) = X (Proc.devRef .tc main_arg3) := by keep_host hostOps6
theorem A_keep_arg4 : after (hostOps6 (F := Ideal)) X (Proc.devRef .tc main_arg4) = X (Proc.devRef .tc main_arg4) := by keep_host hostOps6
theorem A_keep_arg5 : after (hostOps6 (F := Ideal)) X (Proc.devRef .tc main_arg5) = X (Proc.devRef .tc main_arg5) := by keep_host hostOps6
theorem A_keep_arg6 : after (hostOps6 (F := Ideal)) X (Proc.devRef .tc main_arg6) = X (Proc.devRef .tc main_arg6) := by keep_host hostOps6
theorem A_keep_arg7 : after (hostOps6 (F := Ideal)) X (Proc.devRef .tc main_arg7) = X (Proc.devRef .tc main_arg7) := by keep_host hostOps6
theorem A_keep_arg8 : after (hostOps6 (F := Ideal)) X (Proc.devRef .tc main_arg8) = X (Proc.devRef .tc main_arg8) := by keep_host hostOps6
theorem A_keep_arg9 : after (hostOps6 (F := Ideal)) X (Proc.devRef .tc main_arg9) = X (Proc.devRef .tc main_arg9) := by keep_host hostOps6
theorem A_keep_arg10 : after (hostOps6 (F := Ideal)) X (Proc.devRef .tc main_arg10) = X (Proc.devRef .tc main_arg10) := by keep_host hostOps6
theorem A_keep_arg11 : after (hostOps6 (F := Ideal)) X (Proc.devRef .tc main_arg11) = X (Proc.devRef .tc main_arg11) := by keep_host hostOps6
theorem A_keep_arg12 : after (hostOps6 (F := Ideal)) X (Proc.devRef .tc main_arg12) = X (Proc.devRef .tc main_arg12) := by keep_host hostOps6
theorem A_keep_v1 : after (hostOps6 (F := Ideal)) X (Proc.devRef .tc main_v1) = X (Proc.devRef .tc main_v1) := by keep_host hostOps6
theorem A_keep_v3 : after (hostOps6 (F := Ideal)) X (Proc.devRef .tc main_v3) = X (Proc.devRef .tc main_v3) := by keep_host hostOps6
theorem A_keep_v50 : after (hostOps6 (F := Ideal)) X (Proc.devRef .tc main_v50) = X (Proc.devRef .tc main_v50) := by keep_host hostOps6

/-! ## Between the first and the second region -/

/-- The first column means: the accumulated column sums divided by the number of rows. -/
theorem B_mean : row (a := 128) (after (hostOps7 (F := Ideal)) X (Proc.devRef .tc main_v115)) = fun j => Ideal.div (row (a := 128) (X (Proc.devRef .tc main_v113_1)) j) (Ideal.ofBits .f32 0x47C35000#32) := by
  have e : (after (hostOps7 (F := Ideal)) X (Proc.devRef .tc main_v115) : FVec Ideal S1x128 .f32) = Host.divf (F := Ideal) (X (Proc.devRef .tc main_v113_1)) (broadcastInDim S1x128 ![] bcast_S_S1x128 (constant (F := Ideal) S_ .f32 0x47C35000#32)) := by
    after_results_simp <;> rfl
  funext j
  unfold row
  rw [e]
  rfl

/-- The first column variances: the accumulated sums of squares divided by the number of rows, less the squared means. -/
theorem B_var : row (a := 128) (after (hostOps7 (F := Ideal)) X (Proc.devRef .tc main_v119)) = fun j => Ideal.div (row (a := 128) (X (Proc.devRef .tc main_v113_2)) j) (Ideal.ofBits .f32 0x47C35000#32) - Ideal.div (row (a := 128) (X (Proc.devRef .tc main_v113_1)) j) (Ideal.ofBits .f32 0x47C35000#32) * Ideal.div (row (a := 128) (X (Proc.devRef .tc main_v113_1)) j) (Ideal.ofBits .f32 0x47C35000#32) := by
  have e : (after (hostOps7 (F := Ideal)) X (Proc.devRef .tc main_v119) : FVec Ideal S1x128 .f32)
      = subf (Host.divf (F := Ideal) (X (Proc.devRef .tc main_v113_2)) (broadcastInDim S1x128 ![] bcast_S_S1x128 (constant (F := Ideal) S_ .f32 0x47C35000#32))) (mulf (Host.divf (F := Ideal) (X (Proc.devRef .tc main_v113_1)) (broadcastInDim S1x128 ![] bcast_S_S1x128 (constant (F := Ideal) S_ .f32 0x47C35000#32))) (Host.divf (F := Ideal) (X (Proc.devRef .tc main_v113_1)) (broadcastInDim S1x128 ![] bcast_S_S1x128 (constant (F := Ideal) S_ .f32 0x47C35000#32)))) := by
    after_results_simp <;> rfl
  funext j
  unfold row
  rw [e]
  rfl

/-- The first normalization's scale, as one row. -/
theorem B_g1 : row (a := 128) (after (hostOps7 (F := Ideal)) X (Proc.devRef .tc main_v128)) = cur1 (vec 2 (X (Proc.devRef .tc main_arg5)) slices_S4x128_S1x128_2_0) := by
  have e : (after (hostOps7 (F := Ideal)) X (Proc.devRef .tc main_v128) : FVec Ideal S1x128 .f32)
      = shapeCast S1x128 (vec 2 (X (Proc.devRef .tc main_arg5)) slices_S4x128_S1x128_2_0) shapeCasts_S128_S1x128 := by
    after_results_simp <;> rfl
  funext j
  unfold row cur1
  rw [e]
  exact shapeCast_a_1a_apply _ _ _ _

/-- The first normalization's shift, as one row. -/
theorem B_c1 : row (a := 128) (after (hostOps7 (F := Ideal)) X (Proc.devRef .tc main_v129)) = cur1 (vec 2 (X (Proc.devRef .tc main_arg6)) slices_S4x128_S1x128_2_0) := by
  have e : (after (hostOps7 (F := Ideal)) X (Proc.devRef .tc main_v129) : FVec Ideal S1x128 .f32)
      = shapeCast S1x128 (vec 2 (X (Proc.devRef .tc main_arg6)) slices_S4x128_S1x128_2_0) shapeCasts_S128_S1x128 := by
    after_results_simp <;> rfl
  funext j
  unfold row cur1
  rw [e]
  exact shapeCast_a_1a_apply _ _ _ _

/-- The second linear map's weights. -/
theorem B_w2 : (after (hostOps7 (F := Ideal)) X (Proc.devRef .tc main_v125) : FVec Ideal S128x128 .f32) = mat 2 (X (Proc.devRef .tc main_arg7)) slices_S4x128x128_S1x128x128_2_0_0 := by
  after_results_simp <;> rfl

/-- The second linear map's bias, as one row. -/
theorem B_b2 : row (a := 128) (after (hostOps7 (F := Ideal)) X (Proc.devRef .tc main_v130)) = cur1 (vec 2 (X (Proc.devRef .tc main_arg8)) slices_S4x128_S1x128_2_0) := by
  have e : (after (hostOps7 (F := Ideal)) X (Proc.devRef .tc main_v130) : FVec Ideal S1x128 .f32)
      = shapeCast S1x128 (vec 2 (X (Proc.devRef .tc main_arg8)) slices_S4x128_S1x128_2_0) shapeCasts_S128_S1x128 := by
    after_results_simp <;> rfl
  funext j
  unfold row cur1
  rw [e]
  exact shapeCast_a_1a_apply _ _ _ _

theorem B_keep_v113_0 : after (hostOps7 (F := Ideal)) X (Proc.devRef .tc main_v113_0) = X (Proc.devRef .tc main_v113_0) := by keep_host hostOps7
theorem B_keep_arg0 : after (hostOps7 (F := Ideal)) X (Proc.devRef .tc main_arg0) = X (Proc.devRef .tc main_arg0) := by keep_host hostOps7
theorem B_keep_arg1 : after (hostOps7 (F := Ideal)) X (Proc.devRef .tc main_arg1) = X (Proc.devRef .tc main_arg1) := by keep_host hostOps7
theorem B_keep_arg2 : after (hostOps7 (F := Ideal)) X (Proc.devRef .tc main_arg2) = X (Proc.devRef .tc main_arg2) := by keep_host hostOps7
theorem B_keep_arg3 : after (hostOps7 (F := Ideal)) X (Proc.devRef .tc main_arg3) = X (Proc.devRef .tc main_arg3) := by keep_host hostOps7
theorem B_keep_arg4 : after (hostOps7 (F := Ideal)) X (Proc.devRef .tc main_arg4) = X (Proc.devRef .tc main_arg4) := by keep_host hostOps7
theorem B_keep_arg5 : after (hostOps7 (F := Ideal)) X (Proc.devRef .tc main_arg5) = X (Proc.devRef .tc main_arg5) := by keep_host hostOps7
theorem B_keep_arg6 : after (hostOps7 (F := Ideal)) X (Proc.devRef .tc main_arg6) = X (Proc.devRef .tc main_arg6) := by keep_host hostOps7
theorem B_keep_arg7 : after (hostOps7 (F := Ideal)) X (Proc.devRef .tc main_arg7) = X (Proc.devRef .tc main_arg7) := by keep_host hostOps7
theorem B_keep_arg8 : after (hostOps7 (F := Ideal)) X (Proc.devRef .tc main_arg8) = X (Proc.devRef .tc main_arg8) := by keep_host hostOps7
theorem B_keep_arg9 : after (hostOps7 (F := Ideal)) X (Proc.devRef .tc main_arg9) = X (Proc.devRef .tc main_arg9) := by keep_host hostOps7
theorem B_keep_arg10 : after (hostOps7 (F := Ideal)) X (Proc.devRef .tc main_arg10) = X (Proc.devRef .tc main_arg10) := by keep_host hostOps7
theorem B_keep_arg11 : after (hostOps7 (F := Ideal)) X (Proc.devRef .tc main_arg11) = X (Proc.devRef .tc main_arg11) := by keep_host hostOps7
theorem B_keep_arg12 : after (hostOps7 (F := Ideal)) X (Proc.devRef .tc main_arg12) = X (Proc.devRef .tc main_arg12) := by keep_host hostOps7
theorem B_keep_v1 : after (hostOps7 (F := Ideal)) X (Proc.devRef .tc main_v1) = X (Proc.devRef .tc main_v1) := by keep_host hostOps7
theorem B_keep_v3 : after (hostOps7 (F := Ideal)) X (Proc.devRef .tc main_v3) = X (Proc.devRef .tc main_v3) := by keep_host hostOps7
theorem B_keep_v50 : after (hostOps7 (F := Ideal)) X (Proc.devRef .tc main_v50) = X (Proc.devRef .tc main_v50) := by keep_host hostOps7
theorem B_keep_v97 : after (hostOps7 (F := Ideal)) X (Proc.devRef .tc main_v97) = X (Proc.devRef .tc main_v97) := by keep_host hostOps7

/-! ## Between the second and the third region -/

/-- The second column means: the accumulated column sums divided by the number of rows. -/
theorem C_mean : row (a := 128) (after (hostOps8 (F := Ideal)) X (Proc.devRef .tc main_v133)) = fun j => Ideal.div (row (a := 128) (X (Proc.devRef .tc main_v131_1)) j) (Ideal.ofBits .f32 0x47C35000#32) := by
  have e : (after (hostOps8 (F := Ideal)) X (Proc.devRef .tc main_v133) : FVec Ideal S1x128 .f32) = Host.divf (F := Ideal) (X (Proc.devRef .tc main_v131_1)) (broadcastInDim S1x128 ![] bcast_S_S1x128 (constant (F := Ideal) S_ .f32 0x47C35000#32)) := by
    after_results_simp <;> rfl
  funext j
  unfold row
  rw [e]
  rfl

/-- The second column variances: the accumulated sums of squares divided by the number of rows, less the squared means. -/
theorem C_var : row (a := 128) (after (hostOps8 (F := Ideal)) X (Proc.devRef .tc main_v137)) = fun j => Ideal.div (row (a := 128) (X (Proc.devRef .tc main_v131_2)) j) (Ideal.ofBits .f32 0x47C35000#32) - Ideal.div (row (a := 128) (X (Proc.devRef .tc main_v131_1)) j) (Ideal.ofBits .f32 0x47C35000#32) * Ideal.div (row (a := 128) (X (Proc.devRef .tc main_v131_1)) j) (Ideal.ofBits .f32 0x47C35000#32) := by
  have e : (after (hostOps8 (F := Ideal)) X (Proc.devRef .tc main_v137) : FVec Ideal S1x128 .f32)
      = subf (Host.divf (F := Ideal) (X (Proc.devRef .tc main_v131_2)) (broadcastInDim S1x128 ![] bcast_S_S1x128 (constant (F := Ideal) S_ .f32 0x47C35000#32))) (mulf (Host.divf (F := Ideal) (X (Proc.devRef .tc main_v131_1)) (broadcastInDim S1x128 ![] bcast_S_S1x128 (constant (F := Ideal) S_ .f32 0x47C35000#32))) (Host.divf (F := Ideal) (X (Proc.devRef .tc main_v131_1)) (broadcastInDim S1x128 ![] bcast_S_S1x128 (constant (F := Ideal) S_ .f32 0x47C35000#32)))) := by
    after_results_simp <;> rfl
  funext j
  unfold row
  rw [e]
  rfl

/-- The second normalization's scale, as one row. -/
theorem C_g2 : row (a := 128) (after (hostOps8 (F := Ideal)) X (Proc.devRef .tc main_v142)) = cur1 (vec 2 (X (Proc.devRef .tc main_arg9)) slices_S4x128_S1x128_2_0) := by
  have e : (after (hostOps8 (F := Ideal)) X (Proc.devRef .tc main_v142) : FVec Ideal S1x128 .f32)
      = shapeCast S1x128 (vec 2 (X (Proc.devRef .tc main_arg9)) slices_S4x128_S1x128_2_0) shapeCasts_S128_S1x128 := by
    after_results_simp <;> rfl
  funext j
  unfold row cur1
  rw [e]
  exact shapeCast_a_1a_apply _ _ _ _

/-- The second normalization's shift, as one row. -/
theorem C_c2 : row (a := 128) (after (hostOps8 (F := Ideal)) X (Proc.devRef .tc main_v143)) = cur1 (vec 2 (X (Proc.devRef .tc main_arg10)) slices_S4x128_S1x128_2_0) := by
  have e : (after (hostOps8 (F := Ideal)) X (Proc.devRef .tc main_v143) : FVec Ideal S1x128 .f32)
      = shapeCast S1x128 (vec 2 (X (Proc.devRef .tc main_arg10)) slices_S4x128_S1x128_2_0) shapeCasts_S128_S1x128 := by
    after_results_simp <;> rfl
  funext j
  unfold row cur1
  rw [e]
  exact shapeCast_a_1a_apply _ _ _ _

theorem C_keep_v131_0 : after (hostOps8 (F := Ideal)) X (Proc.devRef .tc main_v131_0) = X (Proc.devRef .tc main_v131_0) := by keep_host hostOps8
theorem C_keep_arg0 : after (hostOps8 (F := Ideal)) X (Proc.devRef .tc main_arg0) = X (Proc.devRef .tc main_arg0) := by keep_host hostOps8
theorem C_keep_arg1 : after (hostOps8 (F := Ideal)) X (Proc.devRef .tc main_arg1) = X (Proc.devRef .tc main_arg1) := by keep_host hostOps8
theorem C_keep_arg2 : after (hostOps8 (F := Ideal)) X (Proc.devRef .tc main_arg2) = X (Proc.devRef .tc main_arg2) := by keep_host hostOps8
theorem C_keep_arg3 : after (hostOps8 (F := Ideal)) X (Proc.devRef .tc main_arg3) = X (Proc.devRef .tc main_arg3) := by keep_host hostOps8
theorem C_keep_arg4 : after (hostOps8 (F := Ideal)) X (Proc.devRef .tc main_arg4) = X (Proc.devRef .tc main_arg4) := by keep_host hostOps8
theorem C_keep_arg5 : after (hostOps8 (F := Ideal)) X (Proc.devRef .tc main_arg5) = X (Proc.devRef .tc main_arg5) := by keep_host hostOps8
theorem C_keep_arg6 : after (hostOps8 (F := Ideal)) X (Proc.devRef .tc main_arg6) = X (Proc.devRef .tc main_arg6) := by keep_host hostOps8
theorem C_keep_arg7 : after (hostOps8 (F := Ideal)) X (Proc.devRef .tc main_arg7) = X (Proc.devRef .tc main_arg7) := by keep_host hostOps8
theorem C_keep_arg8 : after (hostOps8 (F := Ideal)) X (Proc.devRef .tc main_arg8) = X (Proc.devRef .tc main_arg8) := by keep_host hostOps8
theorem C_keep_arg9 : after (hostOps8 (F := Ideal)) X (Proc.devRef .tc main_arg9) = X (Proc.devRef .tc main_arg9) := by keep_host hostOps8
theorem C_keep_arg10 : after (hostOps8 (F := Ideal)) X (Proc.devRef .tc main_arg10) = X (Proc.devRef .tc main_arg10) := by keep_host hostOps8
theorem C_keep_arg11 : after (hostOps8 (F := Ideal)) X (Proc.devRef .tc main_arg11) = X (Proc.devRef .tc main_arg11) := by keep_host hostOps8
theorem C_keep_arg12 : after (hostOps8 (F := Ideal)) X (Proc.devRef .tc main_arg12) = X (Proc.devRef .tc main_arg12) := by keep_host hostOps8
theorem C_keep_v1 : after (hostOps8 (F := Ideal)) X (Proc.devRef .tc main_v1) = X (Proc.devRef .tc main_v1) := by keep_host hostOps8
theorem C_keep_v3 : after (hostOps8 (F := Ideal)) X (Proc.devRef .tc main_v3) = X (Proc.devRef .tc main_v3) := by keep_host hostOps8
theorem C_keep_v50 : after (hostOps8 (F := Ideal)) X (Proc.devRef .tc main_v50) = X (Proc.devRef .tc main_v50) := by keep_host hostOps8
theorem C_keep_v97 : after (hostOps8 (F := Ideal)) X (Proc.devRef .tc main_v97) = X (Proc.devRef .tc main_v97) := by keep_host hostOps8

end Cert.KernelIdeal.KHost2

end
-- ==== Proof.KCore2.lean ====
/-
  Layer 2 as one function of what its buffers hold when it is entered.

  `Y0` is the contents before the layer's first stretch of host operations; `Y2`, `Y4`, `Y6` are the contents after its
  three regions, each described by what the region is known to compute from the contents it was entered with
  (the first linear map with its column sums, the normalization followed by the second linear map with its column
  sums, the last normalization) and by the buffers it leaves alone. Reading the host stretches in between, the
  layer's output is the layer function of its input, the neighbourhood sums and the layer's slices of the weights.
-/
import proofs.«120577_j28003186770423_1_alg».proof.Proof.KHost2
import proofs.«120577_j28003186770423_1_alg».proof.Proof.GinMath

noncomputable section

namespace Cert.KernelIdeal.KCore2

open Idealize.ShloMosaic Idealize.ShloMosaic.ValueIdx Idealize.ShloMosaic.StableHlo Cert.KernelIdeal Cert.KernelIdeal.Gen Cert.KernelIdeal.K Cert.Lib Cert.Gin

variable (Y0 Y2 Y4 Y6 : Valuation τ sig (Elt Ideal))

/-- The layer's output is the layer function of its input with the neighbourhood sums added, the layer's weights and parameters. -/
theorem out_eq
    (hz1 : cur2 (a := 100000) (b := 128) (Y2 (Proc.devRef .tc main_v113_0)) = lin (fun r k => cur2 (a := 100000) (b := 128) (after (hostOps6 (F := Ideal)) Y0 (Proc.devRef .tc main_v97)) r k + cur2 (a := 100000) (b := 128) (after (hostOps6 (F := Ideal)) Y0 (Proc.devRef .tc main_v107)) r k) (cur2 (a := 128) (b := 128) (after (hostOps6 (F := Ideal)) Y0 (Proc.devRef .tc main_v109))) (row (a := 128) (after (hostOps6 (F := Ideal)) Y0 (Proc.devRef .tc main_v112))))
    (hs1 : row (a := 128) (Y2 (Proc.devRef .tc main_v113_1)) = fun j => ∑ r, cur2 (a := 100000) (b := 128) (Y2 (Proc.devRef .tc main_v113_0)) r j)
    (hq1 : row (a := 128) (Y2 (Proc.devRef .tc main_v113_2)) = fun j => ∑ r, cur2 (a := 100000) (b := 128) (Y2 (Proc.devRef .tc main_v113_0)) r j * cur2 (a := 100000) (b := 128) (Y2 (Proc.devRef .tc main_v113_0)) r j)
    (k2_5 : Y2 (Proc.devRef .tc main_arg5) = (after (hostOps6 (F := Ideal)) Y0 (Proc.devRef .tc main_arg5)))
    (k2_6 : Y2 (Proc.devRef .tc main_arg6) = (after (hostOps6 (F := Ideal)) Y0 (Proc.devRef .tc main_arg6)))
    (k2_7 : Y2 (Proc.devRef .tc main_arg7) = (after (hostOps6 (F := Ideal)) Y0 (Proc.devRef .tc main_arg7)))
    (k2_8 : Y2 (Proc.devRef .tc main_arg8) = (after (hostOps6 (F := Ideal)) Y0 (Proc.devRef .tc main_arg8)))
    (k2_9 : Y2 (Proc.devRef .tc main_arg9) = (after (hostOps6 (F := Ideal)) Y0 (Proc.devRef .tc main_arg9)))
    (k2_10 : Y2 (Proc.devRef .tc main_arg10) = (after (hostOps6 (F := Ideal)) Y0 (Proc.devRef .tc main_arg10)))
    (hz2 : cur2 (a := 100000) (b := 128) (Y4 (Proc.devRef .tc main_v131_0)) = lin (norm (cur2 (a := 100000) (b := 128) (after (hostOps7 (F := Ideal)) Y2 (Proc.devRef .tc main_v113_0))) (row (a := 128) (after (hostOps7 (F := Ideal)) Y2 (Proc.devRef .tc main_v115))) (row (a := 128) (after (hostOps7 (F := Ideal)) Y2 (Proc.devRef .tc main_v119))) (row (a := 128) (after (hostOps7 (F := Ideal)) Y2 (Proc.devRef .tc main_v128))) (row (a := 128) (after (hostOps7 (F := Ideal)) Y2 (Proc.devRef .tc main_v129)))) (cur2 (a := 128) (b := 128) (after (hostOps7 (F := Ideal)) Y2 (Proc.devRef .tc main_v125))) (row (a := 128) (after (hostOps7 (F := Ideal)) Y2 (Proc.devRef .tc main_v130))))
    (hs2 : row (a := 128) (Y4 (Proc.devRef .tc main_v131_1)) = fun j => ∑ r, cur2 (a := 100000) (b := 128) (Y4 (Proc.devRef .tc main_v131_0)) r j)
    (hq2 : row (a := 128) (Y4 (Proc.devRef .tc main_v131_2)) = fun j => ∑ r, cur2 (a := 100000) (b := 128) (Y4 (Proc.devRef .tc main_v131_0)) r j * cur2 (a := 100000) (b := 128) (Y4 (Proc.devRef .tc main_v131_0)) r j)
    (k4_9 : Y4 (Proc.devRef .tc main_arg9) = (after (hostOps7 (F := Ideal)) Y2 (Proc.devRef .tc main_arg9)))
    (k4_10 : Y4 (Proc.devRef .tc main_arg10) = (after (hostOps7 (F := Ideal)) Y2 (Proc.devRef .tc main_arg10)))
    (hout : cur2 (a := 100000) (b := 128) (Y6 (Proc.devRef .tc main_v144)) = norm (cur2 (a := 100000) (b := 128) (after (hostOps8 (F := Ideal)) Y4 (Proc.devRef .tc main_v131_0))) (row (a := 128) (after (hostOps8 (F := Ideal)) Y4 (Proc.devRef .tc main_v133))) (row (a := 128) (after (hostOps8 (F := Ideal)) Y4 (Proc.devRef .tc main_v137))) (row (a := 128) (after (hostOps8 (F := Ideal)) Y4 (Proc.devRef .tc main_v142))) (row (a := 128) (after (hostOps8 (F := Ideal)) Y4 (Proc.devRef .tc main_v143)))) :
    cur2 (a := 100000) (b := 128) (Y6 (Proc.devRef .tc main_v144))
      = layerK (fun r k => cur2 (a := 100000) (b := 128) (Y0 (Proc.devRef .tc main_v97)) r k + cur2 (aggOf (Y0 (Proc.devRef .tc main_v97)) (Y0 (Proc.devRef .tc main_v1)) (Y0 (Proc.devRef .tc main_v3))) r k)
          (cur2 (mat 2 (Y0 (Proc.devRef .tc main_arg3)) slices_S4x128x128_S1x128x128_2_0_0)) (cur1 (vec 2 (Y0 (Proc.devRef .tc main_arg4)) slices_S4x128_S1x128_2_0)) (cur1 (vec 2 (Y0 (Proc.devRef .tc main_arg5)) slices_S4x128_S1x128_2_0)) (cur1 (vec 2 (Y0 (Proc.devRef .tc main_arg6)) slices_S4x128_S1x128_2_0))
          (cur2 (mat 2 (Y0 (Proc.devRef .tc main_arg7)) slices_S4x128x128_S1x128x128_2_0_0)) (cur1 (vec 2 (Y0 (Proc.devRef .tc main_arg8)) slices_S4x128_S1x128_2_0)) (cur1 (vec 2 (Y0 (Proc.devRef .tc main_arg9)) slices_S4x128_S1x128_2_0)) (cur1 (vec 2 (Y0 (Proc.devRef .tc main_arg10)) slices_S4x128_S1x128_2_0)) := by
  -- the first linear map
  rw [KHost2.A_keep_v97 Y0, KHost2.A_agg Y0, KHost2.A_w1 Y0, KHost2.A_b1 Y0] at hz1
  -- its column statistics, and the first normalization's parameters
  have hm1 := KHost2.B_mean Y2
  have hv1 := KHost2.B_var Y2
  rw [hs1] at hm1 hv1
  rw [hq1] at hv1
  have hg1 := KHost2.B_g1 Y2
  have hc1 := KHost2.B_c1 Y2
  have hw2 := KHost2.B_w2 Y2
  have hb2 := KHost2.B_b2 Y2
  rw [k2_5, KHost2.A_keep_arg5 Y0] at hg1
  rw [k2_6, KHost2.A_keep_arg6 Y0] at hc1
  rw [k2_7, KHost2.A_keep_arg7 Y0] at hw2
  rw [k2_8, KHost2.A_keep_arg8 Y0] at hb2
  rw [KHost2.B_keep_v113_0 Y2, hm1, hv1, hg1, hc1, hw2, hb2, hz1] at hz2
  -- the second linear map's column statistics, and the last normalization's parameters
  have hm2 := KHost2.C_mean Y4
  have hv2 := KHost2.C_var Y4
  rw [hs2] at hm2 hv2
  rw [hq2] at hv2
  have hg2 := KHost2.C_g2 Y4
  have hc2 := KHost2.C_c2 Y4
  rw [k4_9, KHost2.B_keep_arg9 Y2, k2_9, KHost2.A_keep_arg9 Y0] at hg2
  rw [k4_10, KHost2.B_keep_arg10 Y2, k2_10, KHost2.A_keep_arg10 Y0] at hc2
  rw [KHost2.C_keep_v131_0 Y4, hm2, hv2, hg2, hc2, hz2] at hout
  exact hout

end Cert.KernelIdeal.KCore2

end
-- ==== Proof.RegionFirstLinear6.lean ====
/-
  The first linear map of layer 2 on the whole node array, and its two column statistics.

  The region walks twenty blocks of 5000 consecutive rows.  On a block it adds the node features and the
  aggregated neighbour features entry by entry, multiplies the sum by the 128 by 128 weight matrix (a plain
  sum over the 128 inner positions), adds the bias row to every row, and stores the result; it also adds, into two
  rows of 128 running totals that start at zero on the first block, the sum down the block's rows of the
  result and of its square.  Read over the extended reals, where addition is commutative and associative with
  neutral zero, the three arrays after the region hold: entry (r, j) of the linear map; the sum over all
  100000 rows of column j; the sum over all rows of the square of column j.  No finiteness is needed.
-/
import proofs.«120577_j28003186770423_1_alg».proof.Proof.Gen.KernelIdeal.Frame
import proofs.«120577_j28003186770423_1_alg».proof.Proof.LibPlainDot
import proofs.«120577_j28003186770423_1_alg».proof.Proof.LibColumnSum
import proofs.«120577_j28003186770423_1_alg».proof.Proof.LibBlockSum
import proofs.«120577_j28003186770423_1_alg».proof.Proof.LibCurry
import proofs.«120577_j28003186770423_1_alg».proof.Proof.GinMath
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.FirstLinear6

open Cert.KernelIdeal Cert.KernelIdeal.Gen

open Cert.Lib Cert.Gin

/-- The node features when the region is entered. -/
abbrev hIn (V : (c : Dev nD) → (b : Ref sig .tc) → Buf (Elt Ideal) ((c : Thread nD τ).loc b)) (c : Dev nD) : S100000x128.Idx → EReal := V c (Pipeline.arrRef spec6 0)
/-- The aggregated neighbour features when the region is entered. -/
abbrev aggIn (V : (c : Dev nD) → (b : Ref sig .tc) → Buf (Elt Ideal) ((c : Thread nD τ).loc b)) (c : Dev nD) : S100000x128.Idx → EReal := V c (Pipeline.arrRef spec6 1)
/-- The weight matrix when the region is entered. -/
abbrev wIn (V : (c : Dev nD) → (b : Ref sig .tc) → Buf (Elt Ideal) ((c : Thread nD τ).loc b)) (c : Dev nD) : S128x128.Idx → EReal := V c (Pipeline.arrRef spec6 2)
/-- The bias row when the region is entered. -/
abbrev bIn (V : (c : Dev nD) → (b : Ref sig .tc) → Buf (Elt Ideal) ((c : Thread nD τ).loc b)) (c : Dev nD) : S1x128.Idx → EReal := V c (Pipeline.arrRef spec6 3)

/-- entry (r, j) of the layer's first linear map -/
def Z (V : (c : Dev nD) → (b : Ref sig .tc) → Buf (Elt Ideal) ((c : Thread nD τ).loc b)) (c : Dev nD) (r : Fin 100000) (j : Fin 128) : EReal :=
  (∑ k : Fin 128, (hIn V c (ix2 r k) + aggIn V c (ix2 r k)) * wIn V c (ix2 k j)) + bIn V c (ix2 0 j)

/-- The result array after the region. -/
abbrev zOut (V : (c : Dev nD) → (b : Ref sig .tc) → Buf (Elt Ideal) ((c : Thread nD τ).loc b)) (c : Dev nD) : S100000x128.Idx → EReal := (dat6 V c).arrAt 4 cfg6.N
/-- The array of column totals after the region. -/
abbrev sOut (V : (c : Dev nD) → (b : Ref sig .tc) → Buf (Elt Ideal) ((c : Thread nD τ).loc b)) (c : Dev nD) : S1x128.Idx → EReal := (dat6 V c).arrAt 5 cfg6.N
/-- The array of column totals of squares after the region. -/
abbrev qOut (V : (c : Dev nD) → (b : Ref sig .tc) → Buf (Elt Ideal) ((c : Thread nD τ).loc b)) (c : Dev nD) : S1x128.Idx → EReal := (dat6 V c).arrAt 6 cfg6.N

/-! ## The block's arithmetic at an entry -/

/-- The block's linear map at row p, column q: the inner sum over the 128 positions, plus the bias. -/
theorem lin_apply (x0 x1 : Vec Ideal S5000x128 .f32) (x2 : Vec Ideal S128x128 .f32) (x3 : Vec Ideal S1x128 .f32) (p : Fin 5000) (q : Fin 128) :
    k6_pay3 x0 x1 x2 x3 (ix2 p q)
      = (∑ k : Fin 128, (x0 (ix2 p k) + x1 (ix2 p k)) * x2 (ix2 k q)) + x3 (ix2 0 q) := by
  unfold k6_pay3
  refine (addf_apply _ _ _).trans ?_
  refine congrArg₂ (· + ·) ?_ ?_
  · refine (Cert.PlainDot.matmul_apply dot_S5000x128_S128x128_S5000x128_1_0_0_1_n_n ⟨rfl, rfl, rfl, rfl, rfl, rfl⟩ none _ _ p q).trans ?_
    refine Finset.sum_congr rfl fun k _ => ?_
    simp only [truncf_apply, addf_apply, shapeCast_self]
  · refine (broadcastTo_1b_ab_apply _ _ p q).trans ?_
    rw [shapeCast_self]

/-- The running column total after a block: what it held, plus the block's column sum of the linear map. -/
theorem colsum_apply (x0 x1 : Vec Ideal S5000x128 .f32) (x2 : Vec Ideal S128x128 .f32) (x3 : Vec Ideal S1x128 .f32) (xo : Vec Ideal S1x128 .f32) (q : Fin 128) :
    k6_pay4 x0 x1 x2 x3 xo (ix2 0 q) = xo (ix2 0 q) + ∑ p : Fin 5000, k6_pay3 x0 x1 x2 x3 (ix2 p q) := by
  unfold k6_pay4
  refine (addf_apply _ _ _).trans ?_
  refine congrArg₂ (· + ·) ?_ ?_
  · rw [shapeCast_self]
  · refine (shapeCast_a_1a_apply _ _ 0 q).trans ?_
    exact Cert.Lib.column_sum (k6_pay3 x0 x1 x2 x3) reduces_S5000x128_S128 (.inl rfl) rfl q

/-- The running total of squares after a block: what it held, plus the block's column sum of the squared linear map. -/
theorem colsq_apply (x0 x1 : Vec Ideal S5000x128 .f32) (x2 : Vec Ideal S128x128 .f32) (x3 : Vec Ideal S1x128 .f32) (xo : Vec Ideal S1x128 .f32) (q : Fin 128) :
    k6_pay5 x0 x1 x2 x3 xo (ix2 0 q)
      = xo (ix2 0 q) + ∑ p : Fin 5000, k6_pay3 x0 x1 x2 x3 (ix2 p q) * k6_pay3 x0 x1 x2 x3 (ix2 p q) := by
  unfold k6_pay5
  refine (addf_apply _ _ _).trans ?_
  refine congrArg₂ (· + ·) ?_ ?_
  · rw [shapeCast_self]
  · refine (shapeCast_a_1a_apply _ _ 0 q).trans ?_
    refine (Cert.Lib.column_sum (mulf (k6_pay3 x0 x1 x2 x3) (k6_pay3 x0 x1 x2 x3)) reduces_S5000x128_S128 (.inl rfl) rfl q).trans ?_
    rfl

/-- The two rows of totals start at zero. -/
theorem zero_row_s (q : Fin 128) : (k6_pay1 (F := Ideal)) (ix2 0 q) = 0 := Ideal.ofBits_zero_f32
theorem zero_row_q (q : Fin 128) : (k6_pay2 (F := Ideal)) (ix2 0 q) = 0 := Ideal.ofBits_zero_f32

theorem hz : (![0, 0] : Fin 2 → Nat) = fun _ => 0 := funext fun a => by fin_cases a <;> rfl

/-! ## What one grid point leaves in the three output blocks -/

/-- On the first block the result block is the linear map of the four input blocks. -/
theorem first_z (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec Ideal S5000x128 .f32) (x2 : Vec Ideal S128x128 .f32) (x3 : Vec Ideal S1x128 .f32) :
    out6_A_4 c i a1 h1 a2 h2 a3 h3 a4 h4 a5 h5 a6 h6 a7 h7 hc x0 x1 x2 x3 = k6_pay3 x0 x1 x2 x3 := by
  unfold out6_A_4
  rw [View.read_writes_eq_canon _ _ _ (cover6_A_4 c i a1 h1 a2 h2 a3 h3 a4 h4 a5 h5 a6 h6 a7 h7 hc x0 x1 x2 x3)]
  unfold kernelRun6_A
  dsimp only
  try sl_unfold_words
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S1x128) hz]

/-- On the first block the row of totals is zeroed and then receives the block's column sums. -/
theorem first_s (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec Ideal S5000x128 .f32) (x2 : Vec Ideal S128x128 .f32) (x3 : Vec Ideal S1x128 .f32) :
    out6_A_5 c i a1 h1 a2 h2 a3 h3 a4 h4 a5 h5 a6 h6 a7 h7 hc x0 x1 x2 x3 = k6_pay4 x0 x1 x2 x3 (k6_pay1 (F := Ideal)) := by
  unfold out6_A_5
  rw [View.read_writes_eq_canon _ _ _ (cover6_A_5 c i a1 h1 a2 h2 a3 h3 a4 h4 a5 h5 a6 h6 a7 h7 hc x0 x1 x2 x3)]
  unfold kernelRun6_A
  dsimp only
  try sl_unfold_words
  rw [View.canon_cons_unit_zero (S := S1x128) hz]
  simp only [View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- On the first block the row of square totals is zeroed and then receives the block's column sums of squares. -/
theorem first_q (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond6_0 i) (x0 x1 : Vec Ideal S5000x128 .f32) (x2 : Vec Ideal S128x128 .f32) (x3 : Vec Ideal S1x128 .f32) :
    out6_A_6 c i a1 h1 a2 h2 a3 h3 a4 h4 a5 h5 a6 h6 a7 h7 hc x0 x1 x2 x3 = k6_pay5 x0 x1 x2 x3 (k6_pay2 (F := Ideal)) := by
  unfold out6_A_6
  rw [View.read_writes_eq_canon _ _ _ (cover6_A_6 c i a1 h1 a2 h2 a3 h3 a4 h4 a5 h5 a6 h6 a7 h7 hc x0 x1 x2 x3)]
  unfold kernelRun6_A
  dsimp only
  try sl_unfold_words
  rw [View.canon_cons_unit_zero (S := S1x128) hz]
  simp only [View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- On a later block the result block is again the linear map of the four input blocks. -/
theorem later_z (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec Ideal S5000x128 .f32) (x2 : Vec Ideal S128x128 .f32) (x3 : Vec Ideal S1x128 .f32) (xo5 xo6 : Vec Ideal S1x128 .f32) :
    out6_B_4 c i a1 h1 a2 h2 a3 h3 a4 h4 a5 h5 a6 h6 a7 h7 hc x0 x1 x2 x3 xo5 xo6 = k6_pay3 x0 x1 x2 x3 := by
  unfold out6_B_4
  rw [View.read_writes_eq_canon _ _ _ (cover6_B_4 c i a1 h1 a2 h2 a3 h3 a4 h4 a5 h5 a6 h6 a7 h7 hc x0 x1 x2 x3 xo5 xo6)]
  unfold kernelRun6_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- On a later block the row of totals keeps what it held and receives the block's column sums. -/
theorem later_s (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec Ideal S5000x128 .f32) (x2 : Vec Ideal S128x128 .f32) (x3 : Vec Ideal S1x128 .f32) (xo5 xo6 : Vec Ideal S1x128 .f32) :
    out6_B_5 c i a1 h1 a2 h2 a3 h3 a4 h4 a5 h5 a6 h6 a7 h7 hc x0 x1 x2 x3 xo5 xo6 = k6_pay4 x0 x1 x2 x3 xo5 := by
  unfold out6_B_5
  rw [View.read_writes_eq_canon _ _ _ (cover6_B_5 c i a1 h1 a2 h2 a3 h3 a4 h4 a5 h5 a6 h6 a7 h7 hc x0 x1 x2 x3 xo5 xo6)]
  unfold kernelRun6_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- On a later block the row of square totals keeps what it held and receives the block's column sums of squares. -/
theorem later_q (c : Dev nD) (i : grid6.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond6_0 i) (x0 x1 : Vec Ideal S5000x128 .f32) (x2 : Vec Ideal S128x128 .f32) (x3 : Vec Ideal S1x128 .f32) (xo5 xo6 : Vec Ideal S1x128 .f32) :
    out6_B_6 c i a1 h1 a2 h2 a3 h3 a4 h4 a5 h5 a6 h6 a7 h7 hc x0 x1 x2 x3 xo5 xo6 = k6_pay5 x0 x1 x2 x3 xo6 := by
  unfold out6_B_6
  rw [View.read_writes_eq_canon _ _ _ (cover6_B_6 c i a1 h1 a2 h2 a3 h3 a4 h4 a5 h5 a6 h6 a7 h7 hc x0 x1 x2 x3 xo5 xo6)]
  unfold kernelRun6_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- The three output blocks after the first grid point. -/
theorem outs_first (V : (c : Dev nD) → (b : Ref sig .tc) → Buf (Elt Ideal) ((c : Thread nD τ).loc b)) (c : Dev nD) (t : Fin cfg6.N) (h0 : t.val % 20 = 0) :
    outsAt6 V c t.val t.isLt
      = (k6_pay3 (iblk6 V c 0 t) (iblk6 V c 1 t) (iblk6 V c 2 t) (iblk6 V c 3 t), k6_pay4 (iblk6 V c 0 t) (iblk6 V c 1 t) (iblk6 V c 2 t) (iblk6 V c 3 t) (k6_pay1 (F := Ideal)), k6_pay5 (iblk6 V c 0 t) (iblk6 V c 1 t) (iblk6 V c 2 t) (iblk6 V c 3 t) (k6_pay2 (F := Ideal))) :=
  (outsAt6_A V c t h0).trans (congrArg₂ Prod.mk
    (first_z c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t))
    (congrArg₂ Prod.mk
      (first_s c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t))
      (first_q c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) ((hcond6_0 t).mpr h0) (iblk6 V c 0 t) (iblk6 V c 1 t) (iblk6 V c 2 t) (iblk6 V c 3 t))))

/-- The three output blocks after a later grid point, over what the point before left in the two rows of totals. -/
theorem outs_later (V : (c : Dev nD) → (b : Ref sig .tc) → Buf (Elt Ideal) ((c : Thread nD τ).loc b)) (c : Dev nD) (t : Fin cfg6.N) (h0 : ¬t.val % 20 = 0) :
    outsAt6 V c t.val t.isLt
      = (k6_pay3 (iblk6 V c 0 t) (iblk6 V c 1 t) (iblk6 V c 2 t) (iblk6 V c 3 t),
         k6_pay4 (iblk6 V c 0 t) (iblk6 V c 1 t) (iblk6 V c 2 t) (iblk6 V c 3 t) (outsAt6 V c (t.val - 1) (Nat.lt_of_le_of_lt (Nat.sub_le _ _) t.isLt)).2.1,
         k6_pay5 (iblk6 V c 0 t) (iblk6 V c 1 t) (iblk6 V c 2 t) (iblk6 V c 3 t) (outsAt6 V c (t.val - 1) (Nat.lt_of_le_of_lt (Nat.sub_le _ _) t.isLt)).2.2) :=
  (outsAt6_B V c t h0).trans (congrArg₂ Prod.mk
    (later_z c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) _ _)
    (congrArg₂ Prod.mk
      (later_s c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) _ _)
      (later_q c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (fun h => h0 ((hcond6_0 t).mp h)) (iblk6 V c 0 t) (iblk6 V c 1 t) (iblk6 V c 2 t) (iblk6 V c 3 t) _ _)))

/-! ## The input blocks as rows of the arrays -/

/-- Where each window's block sits at grid point t: the three row-blocked windows at block t, the others at the origin. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Entry (p, k) of the node-feature block at point t is row 5000 t + p of the array. -/
theorem blk0_apply (V : (c : Dev nD) → (b : Ref sig .tc) → Buf (Elt Ideal) ((c : Thread nD τ).loc b)) (c : Dev nD) (t : Fin cfg6.N) (p : Fin 5000) (k : Fin 128) (hr : 5000 * t.val + p.val < 100000) :
    (iblk6 V c 0 t : Vec Ideal S5000x128 .f32) (ix2 p k) = hIn V c (ix2 ⟨5000 * t.val + p.val, hr⟩ k) := by
  obtain ⟨e0, e1, -⟩ := idx_facts t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * p.val = 5000 * t.val + p.val; rw [e0]; omega
  | ⟨1, _⟩ => show win6_0.index t (1 : Fin 2) * 128 + 1 * k.val = k.val; rw [e1]; omega

/-- Entry (p, k) of the aggregated-feature block at point t is row 5000 t + p of the array. -/
theorem blk1_apply (V : (c : Dev nD) → (b : Ref sig .tc) → Buf (Elt Ideal) ((c : Thread nD τ).loc b)) (c : Dev nD) (t : Fin cfg6.N) (p : Fin 5000) (k : Fin 128) (hr : 5000 * t.val + p.val < 100000) :
    (iblk6 V c 1 t : Vec Ideal S5000x128 .f32) (ix2 p k) = aggIn V c (ix2 ⟨5000 * t.val + p.val, hr⟩ k) := by
  obtain ⟨-, -, e0, e1, -⟩ := idx_facts t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 5000 + 1 * p.val = 5000 * t.val + p.val; rw [e0]; omega
  | ⟨1, _⟩ => show win6_1.index t (1 : Fin 2) * 128 + 1 * k.val = k.val; rw [e1]; omega

/-- The weight window is the whole weight matrix at every point. -/
theorem blk2_apply (V : (c : Dev nD) → (b : Ref sig .tc) → Buf (Elt Ideal) ((c : Thread nD τ).loc b)) (c : Dev nD) (t : Fin cfg6.N) (k q : Fin 128) :
    (iblk6 V c 2 t : Vec Ideal S128x128 .f32) (ix2 k q) = wIn V c (ix2 k q) := by
  obtain ⟨-, -, -, -, e0, e1, -⟩ := idx_facts t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 128 + 1 * k.val = k.val; rw [e0]; omega
  | ⟨1, _⟩ => show win6_2.index t (1 : Fin 2) * 128 + 1 * q.val = q.val; rw [e1]; omega

/-- The bias window is the whole bias row at every point. -/
theorem blk3_apply (V : (c : Dev nD) → (b : Ref sig .tc) → Buf (Elt Ideal) ((c : Thread nD τ).loc b)) (c : Dev nD) (t : Fin cfg6.N) (q : Fin 128) :
    (iblk6 V c 3 t : Vec Ideal S1x128 .f32) (ix2 0 q) = bIn V c (ix2 0 q) := by
  obtain ⟨-, -, -, -, -, -, e0, e1, -⟩ := idx_facts t
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 1 + 1 * 0 = 0; rw [e0]
  | ⟨1, _⟩ => show win6_3.index t (1 : Fin 2) * 128 + 1 * q.val = q.val; rw [e1]; omega

/-- The linear map along the natural numbers: row n while n is a row, zero past the last row. -/
def Zn (V : (c : Dev nD) → (b : Ref sig .tc) → Buf (Elt Ideal) ((c : Thread nD τ).loc b)) (c : Dev nD) (q : Fin 128) (n : ℕ) : EReal :=
  if h : n < 100000 then Z V c ⟨n, h⟩ q else 0

/-- Entry (p, q) of the block computed at point t is the linear map at row 5000 t + p. -/
theorem lin_eq (V : (c : Dev nD) → (b : Ref sig .tc) → Buf (Elt Ideal) ((c : Thread nD τ).loc b)) (c : Dev nD) (t : Fin cfg6.N) (p : Fin 5000) (q : Fin 128) :
    k6_pay3 (iblk6 V c 0 t) (iblk6 V c 1 t) (iblk6 V c 2 t) (iblk6 V c 3 t) (ix2 p q) = Zn V c q (5000 * t.val + p.val) := by
  have hN : t.val < 20 := lt_of_lt_of_eq t.isLt (show cfg6.N = 20 from N_6)
  have hr : 5000 * t.val + p.val < 100000 := by have := p.isLt; omega
  unfold Zn
  rw [dif_pos hr]
  refine (lin_apply (iblk6 V c 0 t) (iblk6 V c 1 t) (iblk6 V c 2 t) (iblk6 V c 3 t) p q).trans ?_
  unfold Z
  exact congrArg₂ (· + ·)
    (Finset.sum_congr rfl fun k _ => congrArg₂ (· * ·)
      (congrArg₂ (· + ·) (blk0_apply V c t p k hr) (blk1_apply V c t p k hr)) (blk2_apply V c t k q))
    (blk3_apply V c t q)

/-! ## The three output blocks after every grid point -/

/-- After point n the result block is the linear map of the point's input blocks, and the two rows of totals hold
    the sums, over the rows of blocks 0 to n, of the linear map and of its square. -/
theorem outs_inv (V : (c : Dev nD) → (b : Ref sig .tc) → Buf (Elt Ideal) ((c : Thread nD τ).loc b)) (c : Dev nD) : ∀ (n : ℕ) (h : n < cfg6.N),
    (outsAt6 V c n h).1 = k6_pay3 (iblk6 V c 0 ⟨n, h⟩) (iblk6 V c 1 ⟨n, h⟩) (iblk6 V c 2 ⟨n, h⟩) (iblk6 V c 3 ⟨n, h⟩)
    ∧ (∀ q : Fin 128, ((outsAt6 V c n h).2.1 : Vec Ideal S1x128 .f32) (ix2 0 q)
        = 0 + ∑ s ∈ Finset.range (n + 1), ∑ p : Fin 5000, Zn V c q (5000 * s + p.val))
    ∧ (∀ q : Fin 128, ((outsAt6 V c n h).2.2 : Vec Ideal S1x128 .f32) (ix2 0 q)
        = 0 + ∑ s ∈ Finset.range (n + 1), ∑ p : Fin 5000, Zn V c q (5000 * s + p.val) * Zn V c q (5000 * s + p.val))
  | 0, h => by
    have e := outs_first V c ⟨0, h⟩ rfl
    refine ⟨congrArg Prod.fst e, fun q => ?_, fun q => ?_⟩
    · refine (congrFun (congrArg (fun o => o.2.1) e) (ix2 0 q)).trans ?_
      refine (colsum_apply (iblk6 V c 0 ⟨0, h⟩) (iblk6 V c 1 ⟨0, h⟩) (iblk6 V c 2 ⟨0, h⟩) (iblk6 V c 3 ⟨0, h⟩) _ q).trans ?_
      rw [Finset.sum_range_one]
      exact congrArg₂ (· + ·) (zero_row_s q) (Finset.sum_congr rfl fun p _ => lin_eq V c ⟨0, h⟩ p q)
    · refine (congrFun (congrArg (fun o => o.2.2) e) (ix2 0 q)).trans ?_
      refine (colsq_apply (iblk6 V c 0 ⟨0, h⟩) (iblk6 V c 1 ⟨0, h⟩) (iblk6 V c 2 ⟨0, h⟩) (iblk6 V c 3 ⟨0, h⟩) _ q).trans ?_
      rw [Finset.sum_range_one]
      exact congrArg₂ (· + ·) (zero_row_q q) (Finset.sum_congr rfl fun p _ => by rw [lin_eq V c ⟨0, h⟩ p q])
  | n + 1, h => by
    have hN : cfg6.N = 20 := N_6
    have hB : ¬(⟨n + 1, h⟩ : Fin cfg6.N).val % 20 = 0 := by dsimp only; omega
    obtain ⟨-, ih5, ih6⟩ := outs_inv V c n (Nat.lt_of_succ_lt h)
    have e := outs_later V c ⟨n + 1, h⟩ hB
    refine ⟨congrArg Prod.fst e, fun q => ?_, fun q => ?_⟩
    · refine (congrFun (congrArg (fun o => o.2.1) e) (ix2 0 q)).trans ?_
      refine (colsum_apply (iblk6 V c 0 ⟨n + 1, h⟩) (iblk6 V c 1 ⟨n + 1, h⟩) (iblk6 V c 2 ⟨n + 1, h⟩) (iblk6 V c 3 ⟨n + 1, h⟩) _ q).trans ?_
      rw [Finset.sum_range_succ _ (n + 1), ← add_assoc]
      exact congrArg₂ (· + ·) (ih5 q) (Finset.sum_congr rfl fun p _ => lin_eq V c ⟨n + 1, h⟩ p q)
    · refine (congrFun (congrArg (fun o => o.2.2) e) (ix2 0 q)).trans ?_
      refine (colsq_apply (iblk6 V c 0 ⟨n + 1, h⟩) (iblk6 V c 1 ⟨n + 1, h⟩) (iblk6 V c 2 ⟨n + 1, h⟩) (iblk6 V c 3 ⟨n + 1, h⟩) _ q).trans ?_
      rw [Finset.sum_range_succ _ (n + 1), ← add_assoc]
      exact congrArg₂ (· + ·) (ih6 q) (Finset.sum_congr rfl fun p _ => by rw [lin_eq V c ⟨n + 1, h⟩ p q])

/-! ## The result array: every point writes its block of the linear map back -/

/-- The linear map as one array of 100000 rows. -/
def G4 (V : (c : Dev nD) → (b : Ref sig .tc) → Buf (Elt Ideal) ((c : Thread nD τ).loc b)) (c : Dev nD) : Buf (Elt Ideal) ((c : Thread nD τ).loc main_v113_0) :=
  fun (i : S100000x128.Idx) => Z V c (i 0) (i 1)

/-- What point t writes back is rows 5000 t to 5000 t + 4999 of the linear map. -/
theorem flushed4 (V : (c : Dev nD) → (b : Ref sig .tc) → Buf (Elt Ideal) ((c : Thread nD τ).loc b)) (c : Dev nD) (t : Fin cfg6.N) :
    (dat6 V c).flushed 4 t = ((cfg6.win 4).blk t).view.read (Elt Ideal) (G4 V c) := by
  have hN : t.val < 20 := lt_of_lt_of_eq t.isLt (show cfg6.N = 20 from N_6)
  obtain ⟨-, -, -, -, -, -, -, -, e0, e1⟩ := idx_facts t
  show (cfg6.win 4).cut (grid6.coords t) ((dat6 V c).after 4 t) = _
  rw [after6_4, (outs_inv V c t.val t.isLt).1]
  funext y
  obtain ⟨p, q, rfl⟩ : ∃ (p : Fin 5000) (q : Fin 128), y = ix2 p q := ⟨y 0, y 1, eq_ix2 y⟩
  have hr : 5000 * t.val + p.val < 100000 := by have := p.isLt; omega
  rw [View.read_apply]
  refine (lin_eq V c t p q).trans ?_
  unfold Zn
  rw [dif_pos hr]
  show Z V c ⟨5000 * t.val + p.val, hr⟩ q = Z V c _ _
  refine congrArg₂ (Z V c) (Fin.ext ?_) (Fin.ext ?_)
  · show 5000 * t.val + p.val = win6_4.index t (0 : Fin 2) * 5000 + 1 * p.val
    rw [e0]; omega
  · show q.val = win6_4.index t (1 : Fin 2) * 128 + 1 * q.val
    rw [e1]; omega

/-- A row index lies in point t's block exactly when each coordinate lies in the block's range. -/
theorem mem_blk4 (t : Fin cfg6.N) (i : S100000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v113_0).slice (win6_4.rect t)).set ↔ _
  rw [View.set_slice_whole, Rect.mem_set_unit]
  exact Iff.rfl

/-- The twenty blocks cover the array (row r is in block r / 5000), so the array ends holding the linear map. -/
theorem final4 (V : (c : Dev nD) → (b : Ref sig .tc) → Buf (Elt Ideal) ((c : Thread nD τ).loc b)) (c : Dev nD) : (dat6 V c).arrAt 4 cfg6.N = G4 V c :=
  (dat6 V c).arrAt_eq_of_cover 4 (G4 V c) (fun t _ => flushed4 V c t) fun i => by
    have hi0 : (i 0 : Nat) < 100000 := (i 0).isLt
    have hi1 : (i 1 : Nat) < 128 := (i 1).isLt
    have hlt : (i 0 : Nat) / 5000 < cfg6.N := by rw [show cfg6.N = 20 from N_6]; omega
    refine ⟨⟨(i 0 : Nat) / 5000, hlt⟩, flush6_4 _, ?_⟩
    obtain ⟨-, -, -, -, -, -, -, -, e0, e1⟩ := idx_facts ⟨(i 0 : Nat) / 5000, hlt⟩
    rw [mem_blk4]
    intro a
    match a with
    | ⟨0, _⟩ =>
      show win6_4.index ⟨(i 0 : Nat) / 5000, hlt⟩ (0 : Fin 2) * 5000 ≤ (i 0 : Nat) ∧ (i 0 : Nat) < win6_4.index ⟨(i 0 : Nat) / 5000, hlt⟩ (0 : Fin 2) * 5000 + 5000
      rw [e0]; dsimp only; omega
    | ⟨1, _⟩ =>
      show win6_4.index ⟨(i 0 : Nat) / 5000, hlt⟩ (1 : Fin 2) * 128 ≤ (i 1 : Nat) ∧ (i 1 : Nat) < win6_4.index ⟨(i 0 : Nat) / 5000, hlt⟩ (1 : Fin 2) * 128 + 128
      rw [e1]; omega

/-! ## The two rows of totals: written back once, after the last point -/

theorem last_lt : 19 < cfg6.N := by rw [show cfg6.N = 20 from N_6]; decide

/-- The last grid point. -/
abbrev tLast : Fin cfg6.N := ⟨19, last_lt⟩

/-- The row of column totals after the last point. -/
def R5 (V : (c : Dev nD) → (b : Ref sig .tc) → Buf (Elt Ideal) ((c : Thread nD τ).loc b)) (c : Dev nD) : Buf (Elt Ideal) ((c : Thread nD τ).loc main_v113_1) := (outsAt6 V c 19 last_lt).2.1

/-- The row of totals of squares after the last point. -/
def R6 (V : (c : Dev nD) → (b : Ref sig .tc) → Buf (Elt Ideal) ((c : Thread nD τ).loc b)) (c : Dev nD) : Buf (Elt Ideal) ((c : Thread nD τ).loc main_v113_2) := (outsAt6 V c 19 last_lt).2.2

/-- The one write-back of the row of totals, at the last point, writes the whole row. -/
theorem flushed5 (V : (c : Dev nD) → (b : Ref sig .tc) → Buf (Elt Ideal) ((c : Thread nD τ).loc b)) (c : Dev nD) (t : Fin cfg6.N) (hf : (cfg6.win 5).flush t = true) :
    (dat6 V c).flushed 5 t = ((cfg6.win 5).blk t).view.read (Elt Ideal) (R5 V c) := by
  have hN : cfg6.N = 20 := N_6
  have h19 : t.val = 19 := by have := (flush6_5 t).mp hf; have := t.isLt; omega
  obtain rfl : t = tLast := Fin.ext h19
  show (cfg6.win 5).cut (grid6.coords tLast) ((dat6 V c).after 5 tLast) = _
  rw [after6_5]
  have hz' : (fun a => win6_5.index tLast a * main_v113_1.ty.shape.size a) = fun _ => 0 := funext fun a => by fin_cases a <;> decide +kernel
  exact (Memref.read_access_unit_zero (Elt Ideal) main_v113_1 hz' (fun a => by rw [congrFun hz' a]; simp) (R5 V c)).symm

/-- The one write-back of the row of square totals, at the last point, writes the whole row. -/
theorem flushed6 (V : (c : Dev nD) → (b : Ref sig .tc) → Buf (Elt Ideal) ((c : Thread nD τ).loc b)) (c : Dev nD) (t : Fin cfg6.N) (hf : (cfg6.win 6).flush t = true) :
    (dat6 V c).flushed 6 t = ((cfg6.win 6).blk t).view.read (Elt Ideal) (R6 V c) := by
  have hN : cfg6.N = 20 := N_6
  have h19 : t.val = 19 := by have := (flush6_6 t).mp hf; have := t.isLt; omega
  obtain rfl : t = tLast := Fin.ext h19
  show (cfg6.win 6).cut (grid6.coords tLast) ((dat6 V c).after 6 tLast) = _
  rw [after6_6]
  have hz' : (fun a => win6_6.index tLast a * main_v113_2.ty.shape.size a) = fun _ => 0 := funext fun a => by fin_cases a <;> decide +kernel
  exact (Memref.read_access_unit_zero (Elt Ideal) main_v113_2 hz' (fun a => by rw [congrFun hz' a]; simp) (R6 V c)).symm

/-- The last point's block is the whole row, so the array ends holding the row of totals. -/
theorem final5 (V : (c : Dev nD) → (b : Ref sig .tc) → Buf (Elt Ideal) ((c : Thread nD τ).loc b)) (c : Dev nD) : (dat6 V c).arrAt 5 cfg6.N = R5 V c :=
  (dat6 V c).arrAt_eq_of_cover 5 (R5 V c) (flushed5 V c) fun i =>
    ⟨tLast, (flush6_5 tLast).mpr rfl, by
      show i ∈ ((View.whole main_v113_1).slice (win6_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win6_5.index tLast 0 * win6_5.size 0 ≤ (i 0 : Nat) ∧ (i 0 : Nat) < win6_5.index tLast 0 * win6_5.size 0 + win6_5.xsize (grid6.coords tLast) 0
                  rw [show win6_5.index tLast 0 * win6_5.size 0 = 0 from by decide +kernel, show win6_5.xsize (grid6.coords tLast) 0 = 1 from by decide +kernel]; omega
      | ⟨1, _⟩ => show win6_5.index tLast 1 * win6_5.size 1 ≤ (i 1 : Nat) ∧ (i 1 : Nat) < win6_5.index tLast 1 * win6_5.size 1 + win6_5.xsize (grid6.coords tLast) 1
                  rw [show win6_5.index tLast 1 * win6_5.size 1 = 0 from by decide +kernel, show win6_5.xsize (grid6.coords tLast) 1 = 128 from by decide +kernel]; omega⟩

/-- Likewise the array of square totals ends holding the row of totals of squares. -/
theorem final6 (V : (c : Dev nD) → (b : Ref sig .tc) → Buf (Elt Ideal) ((c : Thread nD τ).loc b)) (c : Dev nD) : (dat6 V c).arrAt 6 cfg6.N = R6 V c :=
  (dat6 V c).arrAt_eq_of_cover 6 (R6 V c) (flushed6 V c) fun i =>
    ⟨tLast, (flush6_6 tLast).mpr rfl, by
      show i ∈ ((View.whole main_v113_2).slice (win6_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win6_6.index tLast 0 * win6_6.size 0 ≤ (i 0 : Nat) ∧ (i 0 : Nat) < win6_6.index tLast 0 * win6_6.size 0 + win6_6.xsize (grid6.coords tLast) 0
                  rw [show win6_6.index tLast 0 * win6_6.size 0 = 0 from by decide +kernel, show win6_6.xsize (grid6.coords tLast) 0 = 1 from by decide +kernel]; omega
      | ⟨1, _⟩ => show win6_6.index tLast 1 * win6_6.size 1 ≤ (i 1 : Nat) ∧ (i 1 : Nat) < win6_6.index tLast 1 * win6_6.size 1 + win6_6.xsize (grid6.coords tLast) 1
                  rw [show win6_6.index tLast 1 * win6_6.size 1 = 0 from by decide +kernel, show win6_6.xsize (grid6.coords tLast) 1 = 128 from by decide +kernel]; omega⟩

/-! ## The three arrays after the region -/

/-- The result array holds the linear map. -/
theorem final_z (V : (c : Dev nD) → (b : Ref sig .tc) → Buf (Elt Ideal) ((c : Thread nD τ).loc b)) (c : Dev nD) (r : Fin 100000) (j : Fin 128) : zOut V c (ix2 r j) = Z V c r j :=
  congrFun (final4 V c) (ix2 r j)

/-- The array of column totals holds, at column j, the sum of the linear map over all rows. -/
theorem final_s (V : (c : Dev nD) → (b : Ref sig .tc) → Buf (Elt Ideal) ((c : Thread nD τ).loc b)) (c : Dev nD) (j : Fin 128) : sOut V c (ix2 0 j) = ∑ r : Fin 100000, Z V c r j :=
  (congrFun (final5 V c) (ix2 0 j)).trans (((outs_inv V c 19 last_lt).2.1 j).trans
    (Cert.BlockSum.sum_20x5000 (fun r => Z V c r j) (Zn V c j) fun n => dif_pos n.isLt))

/-- The array of totals of squares holds, at column j, the sum of the squared linear map over all rows. -/
theorem final_q (V : (c : Dev nD) → (b : Ref sig .tc) → Buf (Elt Ideal) ((c : Thread nD τ).loc b)) (c : Dev nD) (j : Fin 128) : qOut V c (ix2 0 j) = ∑ r : Fin 100000, Z V c r j * Z V c r j :=
  (congrFun (final6 V c) (ix2 0 j)).trans (((outs_inv V c 19 last_lt).2.2 j).trans
    (Cert.BlockSum.sum_20x5000 (fun r => Z V c r j * Z V c r j) (fun n => Zn V c j n * Zn V c j n)
      fun n => by show Zn V c j n.val * Zn V c j n.val = _; unfold Zn; rw [dif_pos n.isLt]))

/-- The region's contract: the result array is the linear map of the sum of the two feature arrays, and the two
    rows of totals are its column sums and the column sums of its squares. -/
theorem contract (V : (c : Dev nD) → (b : Ref sig .tc) → Buf (Elt Ideal) ((c : Thread nD τ).loc b)) (c : Dev nD) :
    cur2 (a := 100000) (b := 128) ((dat6 V c).arrAt 4 cfg6.N) = lin (fun r k => cur2 (a := 100000) (b := 128) (V c (Pipeline.arrRef spec6 0)) r k + cur2 (a := 100000) (b := 128) (V c (Pipeline.arrRef spec6 1)) r k) (cur2 (a := 128) (b := 128) (V c (Pipeline.arrRef spec6 2))) (row (a := 128) (V c (Pipeline.arrRef spec6 3)))
    ∧ row (a := 128) ((dat6 V c).arrAt 5 cfg6.N) = (fun j => ∑ r, cur2 (a := 100000) (b := 128) ((dat6 V c).arrAt 4 cfg6.N) r j)
    ∧ row (a := 128) ((dat6 V c).arrAt 6 cfg6.N) = (fun j => ∑ r, cur2 (a := 100000) (b := 128) ((dat6 V c).arrAt 4 cfg6.N) r j * cur2 (a := 100000) (b := 128) ((dat6 V c).arrAt 4 cfg6.N) r j) := by
  have hz : ∀ (r : Fin 100000) (j : Fin 128), cur2 (a := 100000) (b := 128) ((dat6 V c).arrAt 4 cfg6.N) r j = Z V c r j :=
    fun r j => by unfold Cert.Lib.cur2; exact final_z V c r j
  have hs : ∀ j : Fin 128, row (a := 128) ((dat6 V c).arrAt 5 cfg6.N) j = ∑ r : Fin 100000, Z V c r j :=
    fun j => by unfold Cert.Lib.row; exact final_s V c j
  have hq : ∀ j : Fin 128, row (a := 128) ((dat6 V c).arrAt 6 cfg6.N) j = ∑ r : Fin 100000, Z V c r j * Z V c r j :=
    fun j => by unfold Cert.Lib.row; exact final_q V c j
  refine ⟨funext fun r => funext fun j => (hz r j).trans rfl, funext fun j => ?_, funext fun j => ?_⟩
  · exact (hs j).trans (Finset.sum_congr rfl fun r _ => (hz r j).symm)
  · exact (hq j).trans (Finset.sum_congr rfl fun r _ => by rw [hz r j])

end Cert.KernelIdeal.FirstLinear6

end
-- ==== Proof.RegionBnReluLinear7.lean ====
import proofs.«120577_j28003186770423_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«120577_j28003186770423_1_alg».proof.Proof.LibPlainDot
import proofs.«120577_j28003186770423_1_alg».proof.Proof.LibColumnSum
import proofs.«120577_j28003186770423_1_alg».proof.Proof.LibBlockSum
import proofs.«120577_j28003186770423_1_alg».proof.Proof.LibCurry
import proofs.«120577_j28003186770423_1_alg».proof.Proof.GinMath

/-!
# The second linear map of a layer, with its column sums

A [100000, 128] array z is normalised column by column (subtract the column's mean, scale by the inverse square root of
its variance plus a small constant, multiply by a gain, add an offset), rectified, multiplied by a [128, 128] matrix and
shifted by a row vector.  The rows are processed in twenty blocks of five thousand.  Besides the product itself the
region leaves, for every column, the sum of the product's entries over all hundred thousand rows and the sum of their
squares: two one-row accumulators are set to zero at the first block and each block adds its own column sums to them.

This file reads the three results at an entry: the product entry (r, j) depends on row r of z alone; the two row vectors
are sums over all rows, the twenty partial sums regrouped into one by commutativity and associativity of addition.
-/

set_option maxRecDepth 16384

noncomputable section

namespace Cert.KernelIdeal.BnReluLinear7

open Idealize.ShloMosaic Idealize.ShloMosaic.TcCoe Idealize.ShloMosaic.ValueIdx Idealize.SL.Sem Cert.KernelIdeal Cert.KernelIdeal.Gen
open Idealize.ShloMosaic.Pipeline (Dat)

/-! The seven input arrays as the region finds them, each as a function of its index into the extended reals. -/

/-- the [100000, 128] array z the region normalises -/
abbrev zIn (V : (c : Dev nD) → (b : Ref sig .tc) → Buf (Elt Ideal) ((c : Thread nD τ).loc b)) (c : Dev nD) : S100000x128.Idx → EReal := V c (Pipeline.arrRef spec7 0)
/-- the row of column means -/
abbrev meanIn (V : (c : Dev nD) → (b : Ref sig .tc) → Buf (Elt Ideal) ((c : Thread nD τ).loc b)) (c : Dev nD) : S1x128.Idx → EReal := V c (Pipeline.arrRef spec7 1)
/-- the row of column variances -/
abbrev varIn (V : (c : Dev nD) → (b : Ref sig .tc) → Buf (Elt Ideal) ((c : Thread nD τ).loc b)) (c : Dev nD) : S1x128.Idx → EReal := V c (Pipeline.arrRef spec7 2)
/-- the row of gains -/
abbrev gainIn (V : (c : Dev nD) → (b : Ref sig .tc) → Buf (Elt Ideal) ((c : Thread nD τ).loc b)) (c : Dev nD) : S1x128.Idx → EReal := V c (Pipeline.arrRef spec7 3)
/-- the row of offsets -/
abbrev biasIn (V : (c : Dev nD) → (b : Ref sig .tc) → Buf (Elt Ideal) ((c : Thread nD τ).loc b)) (c : Dev nD) : S1x128.Idx → EReal := V c (Pipeline.arrRef spec7 4)
/-- the [128, 128] matrix -/
abbrev wIn (V : (c : Dev nD) → (b : Ref sig .tc) → Buf (Elt Ideal) ((c : Thread nD τ).loc b)) (c : Dev nD) : S128x128.Idx → EReal := V c (Pipeline.arrRef spec7 5)
/-- the row added after the product -/
abbrev shiftIn (V : (c : Dev nD) → (b : Ref sig .tc) → Buf (Elt Ideal) ((c : Thread nD τ).loc b)) (c : Dev nD) : S1x128.Idx → EReal := V c (Pipeline.arrRef spec7 6)

/-- entry (r, k) of the normalized, rectified activations -/
def Act (V : (c : Dev nD) → (b : Ref sig .tc) → Buf (Elt Ideal) ((c : Thread nD τ).loc b)) (c : Dev nD) (r : Fin 100000) (k : Fin 128) : EReal :=
  max (((zIn V c (ix2 r k) - meanIn V c (ix2 0 k))
         * Ideal.rsqrt (varIn V c (ix2 0 k) + Ideal.ofBits .f32 0x3727C5AC#32))
        * gainIn V c (ix2 0 k)
       + biasIn V c (ix2 0 k)) (Ideal.ofBits .f32 0x00000000#32)

/-- entry (r, j) of the layer's second linear map -/
def Z (V : (c : Dev nD) → (b : Ref sig .tc) → Buf (Elt Ideal) ((c : Thread nD τ).loc b)) (c : Dev nD) (r : Fin 100000) (j : Fin 128) : EReal :=
  (∑ k : Fin 128, Act V c r k * wIn V c (ix2 k j)) + shiftIn V c (ix2 0 j)

/-! ## The body's arithmetic at an entry -/

/-- one activation from an entry of z and its column's mean, variance, gain and offset -/
def actOf (z mean var g b : EReal) : EReal :=
  max ((((z - mean) * Ideal.rsqrt (var + Ideal.ofBits .f32 0x3727C5AC#32)) * g) + b) (Ideal.ofBits .f32 0x00000000#32)

/-- the product's dimension numbers: the left operand's columns against the right operand's rows, no batch axis -/
theorem plain : Cert.PlainDot.IsPlain (M := 5000) (K := 128) (N := 128) dot_S5000x128_S128x128_S5000x128_1_0_0_1_n_n :=
  ⟨rfl, rfl, rfl, rfl, rfl, rfl⟩

/-- Entry (p, q) of a block of the product: the sum over k of the activation (p, k) times the matrix entry (k, q), plus
    the shift at q.  The activation at (p, k) uses row p of the block of z and column k of the four parameter rows. -/
theorem pay5_apply (x0 : Vec Ideal S5000x128 .f32) (xvar xmean xg xb : Vec Ideal S1x128 .f32) (xw : Vec Ideal S128x128 .f32)
    (xc : Vec Ideal S1x128 .f32) (p : Fin 5000) (q : Fin 128) :
    k7_pay5 (F := Ideal) x0 xvar xmean xg xb xw xc (ix2 p q)
      = (∑ k : Fin 128, actOf (x0 (ix2 p k)) (xmean (ix2 0 k)) (xvar (ix2 0 k)) (xg (ix2 0 k)) (xb (ix2 0 k)) * xw (ix2 k q)) + xc (ix2 0 q) := by
  unfold k7_pay5
  simp only [shapeCast_self]
  refine (congrArg₂ (· + ·) (Cert.PlainDot.matmul_apply _ plain none _ _ p q) (broadcastTo_1b_ab_apply _ _ p q)).trans ?_
  refine congrArg (· + xc (ix2 0 q)) (Finset.sum_congr rfl fun k _ => ?_)
  refine congrArg (· * xw (ix2 k q)) ?_
  simp only [truncf_apply, maximumf_apply, addf_apply, mulf_apply, subf_apply, broadcast_apply, broadcastTo_1b_ab_apply]
  rfl

/-- the running column sums after a block: what they held plus the block's column sums -/
theorem pay1_apply (v34 : FVec Ideal S5000x128 .f32) (v36 : Vec Ideal S1x128 .f32) (j : Fin 128) :
    k7_pay1 (F := Ideal) v34 v36 (ix2 0 j) = v36 (ix2 0 j) + ∑ r : Fin 5000, v34 (ix2 r j) := by
  unfold k7_pay1
  simp only [shapeCast_self]
  refine congrArg (v36 (ix2 0 j) + ·) ?_
  refine (shapeCast_a_1a_apply _ _ 0 j).trans ?_
  exact Cert.Lib.column_sum v34 _ _ _ j

/-- the running column sums of squares after a block -/
theorem pay2_apply (v34 : FVec Ideal S5000x128 .f32) (v42 : Vec Ideal S1x128 .f32) (j : Fin 128) :
    k7_pay2 (F := Ideal) v34 v42 (ix2 0 j) = v42 (ix2 0 j) + ∑ r : Fin 5000, v34 (ix2 r j) * v34 (ix2 r j) := by
  unfold k7_pay2
  simp only [shapeCast_self]
  refine congrArg (v42 (ix2 0 j) + ·) ?_
  refine (shapeCast_a_1a_apply _ _ 0 j).trans ?_
  exact Cert.Lib.column_sum (mulf v34 v34) _ _ _ j

/-- the first block starts both accumulators from zero -/
theorem pay3_apply (j : Fin 128) : k7_pay3 (F := Ideal) (ix2 0 j) = 0 := by
  unfold k7_pay3
  exact Ideal.ofBits_zero_f32

theorem pay4_apply (j : Fin 128) : k7_pay4 (F := Ideal) (ix2 0 j) = 0 := by
  unfold k7_pay4
  exact Ideal.ofBits_zero_f32

/-! ## What each of the two control cases leaves in the three output blocks -/

section Cases

variable {F : FTy → Type} [FloatOps F]

theorem hz : (![0, 0] : Fin 2 → Nat) = fun _ => 0 := funext fun a => by fin_cases a <;> rfl

/-- first block: the product block -/
theorem outA7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond7_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out7_A_7 c i arg1 harg1 arg2 harg2 arg3 harg3 arg4 harg4 arg5 harg5 arg6 harg6 arg7 harg7 arg8 harg8 arg9 harg9 arg10 harg10 hc0 x0 x1 x2 x3 x4 x5 x6 = k7_pay5 x0 x2 x1 x3 x4 x5 x6 := by
  unfold out7_A_7
  rw [View.read_writes_eq_canon _ _ _ (cover7_A_7 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- first block: the column sums start from the zero row -/
theorem outA8 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond7_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out7_A_8 c i arg1 harg1 arg2 harg2 arg3 harg3 arg4 harg4 arg5 harg5 arg6 harg6 arg7 harg7 arg8 harg8 arg9 harg9 arg10 harg10 hc0 x0 x1 x2 x3 x4 x5 x6 = k7_pay1 (k7_pay5 x0 x2 x1 x3 x4 x5 x6) (k7_pay3 (F := F)) := by
  unfold out7_A_8
  rw [View.read_writes_eq_canon _ _ _ (cover7_A_8 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- first block: the column sums of squares start from the zero row -/
theorem outA9 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond7_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out7_A_9 c i arg1 harg1 arg2 harg2 arg3 harg3 arg4 harg4 arg5 harg5 arg6 harg6 arg7 harg7 arg8 harg8 arg9 harg9 arg10 harg10 hc0 x0 x1 x2 x3 x4 x5 x6 = k7_pay2 (k7_pay5 x0 x2 x1 x3 x4 x5 x6) (k7_pay4 (F := F)) := by
  unfold out7_A_9
  rw [View.read_writes_eq_canon _ _ _ (cover7_A_9 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- later block: the product block -/
theorem outB7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond7_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out7_B_7 c i arg1 harg1 arg2 harg2 arg3 harg3 arg4 harg4 arg5 harg5 arg6 harg6 arg7 harg7 arg8 harg8 arg9 harg9 arg10 harg10 hc0 x0 x1 x2 x3 x4 x5 x6 xo8 xo9 = k7_pay5 x0 x2 x1 x3 x4 x5 x6 := by
  unfold out7_B_7
  rw [View.read_writes_eq_canon _ _ _ (cover7_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

/-- later block: the column sums carried from the block before, plus this block's -/
theorem outB8 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond7_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out7_B_8 c i arg1 harg1 arg2 harg2 arg3 harg3 arg4 harg4 arg5 harg5 arg6 harg6 arg7 harg7 arg8 harg8 arg9 harg9 arg10 harg10 hc0 x0 x1 x2 x3 x4 x5 x6 xo8 xo9 = k7_pay1 (k7_pay5 x0 x2 x1 x3 x4 x5 x6) xo8 := by
  unfold out7_B_8
  rw [View.read_writes_eq_canon _ _ _ (cover7_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

/-- later block: the column sums of squares carried from the block before, plus this block's -/
theorem outB9 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond7_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out7_B_9 c i arg1 harg1 arg2 harg2 arg3 harg3 arg4 harg4 arg5 harg5 arg6 harg6 arg7 harg7 arg8 harg8 arg9 harg9 arg10 harg10 hc0 x0 x1 x2 x3 x4 x5 x6 xo8 xo9 = k7_pay2 (k7_pay5 x0 x2 x1 x3 x4 x5 x6) xo9 := by
  unfold out7_B_9
  rw [View.read_writes_eq_canon _ _ _ (cover7_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

end Cases

/-! ## The blocks the body reads, as entries of the arrays -/

variable (V : (c : Dev nD) → (b : Ref sig .tc) → Buf (Elt Ideal) ((c : Thread nD τ).loc b))

/-! Block indices, decided once over the twenty grid points: the two row-blocked windows (the input z and the product)
    are at block t of the rows at point t; every other window stays at its one block. -/

theorem idx_0 : ∀ t : Fin cfg7.N, win7_0.index t (0 : Fin 2) = t.val ∧ win7_0.index t (1 : Fin 2) = 0 :=
  (by decide +kernel : ∀ t : Fin grid7.N, _)
theorem idx_1 : ∀ t : Fin cfg7.N, win7_1.index t (0 : Fin 2) = 0 ∧ win7_1.index t (1 : Fin 2) = 0 :=
  (by decide +kernel : ∀ t : Fin grid7.N, _)
theorem idx_2 : ∀ t : Fin cfg7.N, win7_2.index t (0 : Fin 2) = 0 ∧ win7_2.index t (1 : Fin 2) = 0 :=
  (by decide +kernel : ∀ t : Fin grid7.N, _)
theorem idx_3 : ∀ t : Fin cfg7.N, win7_3.index t (0 : Fin 2) = 0 ∧ win7_3.index t (1 : Fin 2) = 0 :=
  (by decide +kernel : ∀ t : Fin grid7.N, _)
theorem idx_4 : ∀ t : Fin cfg7.N, win7_4.index t (0 : Fin 2) = 0 ∧ win7_4.index t (1 : Fin 2) = 0 :=
  (by decide +kernel : ∀ t : Fin grid7.N, _)
theorem idx_5 : ∀ t : Fin cfg7.N, win7_5.index t (0 : Fin 2) = 0 ∧ win7_5.index t (1 : Fin 2) = 0 :=
  (by decide +kernel : ∀ t : Fin grid7.N, _)
theorem idx_6 : ∀ t : Fin cfg7.N, win7_6.index t (0 : Fin 2) = 0 ∧ win7_6.index t (1 : Fin 2) = 0 :=
  (by decide +kernel : ∀ t : Fin grid7.N, _)
theorem idx_7 : ∀ t : Fin cfg7.N, win7_7.index t (0 : Fin 2) = t.val ∧ win7_7.index t (1 : Fin 2) = 0 :=
  (by decide +kernel : ∀ t : Fin grid7.N, _)
theorem idx_8 : ∀ t : Fin cfg7.N, win7_8.index t (0 : Fin 2) = 0 ∧ win7_8.index t (1 : Fin 2) = 0 :=
  (by decide +kernel : ∀ t : Fin grid7.N, _)
theorem idx_9 : ∀ t : Fin cfg7.N, win7_9.index t (0 : Fin 2) = 0 ∧ win7_9.index t (1 : Fin 2) = 0 :=
  (by decide +kernel : ∀ t : Fin grid7.N, _)

/-- entry (p, k) of block t of z is entry (5000 t + p, k) of z -/
theorem iblk_z (c : Dev nD) (t : Fin cfg7.N) (p : Fin 5000) (k : Fin 128) (hb : 5000 * t.val + p.val < 100000) :
    (iblk7 V c 0 t : Vec Ideal S5000x128 .f32) (ix2 p k)
      = zIn V c (ix2 ⟨5000 * t.val + p.val, hb⟩ k) := by
  obtain ⟨e0, e1⟩ := idx_0 t
  show zIn V c (((cfg7.win 0).blk t).view.emb (ix2 p k)) = _
  refine congrArg (zIn V c) (funext fun a => Fin.ext ?_)
  match a with
  | ⟨0, _⟩ => show win7_0.index t (0 : Fin 2) * 5000 + 1 * p.val = 5000 * t.val + p.val; rw [e0]; omega
  | ⟨1, _⟩ => show win7_0.index t (1 : Fin 2) * 128 + 1 * k.val = k.val; rw [e1]; omega

/-- window 1 (the column means) is one row, the same at every grid point -/
theorem iblk_row1 (c : Dev nD) (t : Fin cfg7.N) (k : Fin 128) :
    (iblk7 V c 1 t : Vec Ideal S1x128 .f32) (ix2 0 k) = meanIn V c (ix2 0 k) := by
  obtain ⟨e0, e1⟩ := idx_1 t
  show meanIn V c (((cfg7.win 1).blk t).view.emb (ix2 0 k)) = _
  refine congrArg (meanIn V c) (funext fun a => Fin.ext ?_)
  match a with
  | ⟨0, _⟩ => show win7_1.index t (0 : Fin 2) * 1 + 1 * 0 = 0; rw [e0]
  | ⟨1, _⟩ => show win7_1.index t (1 : Fin 2) * 128 + 1 * k.val = k.val; rw [e1]; omega

/-- window 2 (the column variances) is one row, the same at every grid point -/
theorem iblk_row2 (c : Dev nD) (t : Fin cfg7.N) (k : Fin 128) :
    (iblk7 V c 2 t : Vec Ideal S1x128 .f32) (ix2 0 k) = varIn V c (ix2 0 k) := by
  obtain ⟨e0, e1⟩ := idx_2 t
  show varIn V c (((cfg7.win 2).blk t).view.emb (ix2 0 k)) = _
  refine congrArg (varIn V c) (funext fun a => Fin.ext ?_)
  match a with
  | ⟨0, _⟩ => show win7_2.index t (0 : Fin 2) * 1 + 1 * 0 = 0; rw [e0]
  | ⟨1, _⟩ => show win7_2.index t (1 : Fin 2) * 128 + 1 * k.val = k.val; rw [e1]; omega

/-- window 3 (the gains) is one row, the same at every grid point -/
theorem iblk_row3 (c : Dev nD) (t : Fin cfg7.N) (k : Fin 128) :
    (iblk7 V c 3 t : Vec Ideal S1x128 .f32) (ix2 0 k) = gainIn V c (ix2 0 k) := by
  obtain ⟨e0, e1⟩ := idx_3 t
  show gainIn V c (((cfg7.win 3).blk t).view.emb (ix2 0 k)) = _
  refine congrArg (gainIn V c) (funext fun a => Fin.ext ?_)
  match a with
  | ⟨0, _⟩ => show win7_3.index t (0 : Fin 2) * 1 + 1 * 0 = 0; rw [e0]
  | ⟨1, _⟩ => show win7_3.index t (1 : Fin 2) * 128 + 1 * k.val = k.val; rw [e1]; omega

/-- window 4 (the offsets) is one row, the same at every grid point -/
theorem iblk_row4 (c : Dev nD) (t : Fin cfg7.N) (k : Fin 128) :
    (iblk7 V c 4 t : Vec Ideal S1x128 .f32) (ix2 0 k) = biasIn V c (ix2 0 k) := by
  obtain ⟨e0, e1⟩ := idx_4 t
  show biasIn V c (((cfg7.win 4).blk t).view.emb (ix2 0 k)) = _
  refine congrArg (biasIn V c) (funext fun a => Fin.ext ?_)
  match a with
  | ⟨0, _⟩ => show win7_4.index t (0 : Fin 2) * 1 + 1 * 0 = 0; rw [e0]
  | ⟨1, _⟩ => show win7_4.index t (1 : Fin 2) * 128 + 1 * k.val = k.val; rw [e1]; omega

/-- window 6 (the shift) is one row, the same at every grid point -/
theorem iblk_row6 (c : Dev nD) (t : Fin cfg7.N) (k : Fin 128) :
    (iblk7 V c 6 t : Vec Ideal S1x128 .f32) (ix2 0 k) = shiftIn V c (ix2 0 k) := by
  obtain ⟨e0, e1⟩ := idx_6 t
  show shiftIn V c (((cfg7.win 6).blk t).view.emb (ix2 0 k)) = _
  refine congrArg (shiftIn V c) (funext fun a => Fin.ext ?_)
  match a with
  | ⟨0, _⟩ => show win7_6.index t (0 : Fin 2) * 1 + 1 * 0 = 0; rw [e0]
  | ⟨1, _⟩ => show win7_6.index t (1 : Fin 2) * 128 + 1 * k.val = k.val; rw [e1]; omega

/-- window 5 is the whole [128, 128] matrix at every grid point -/
theorem iblk_w (c : Dev nD) (t : Fin cfg7.N) (k q : Fin 128) :
    (iblk7 V c 5 t : Vec Ideal S128x128 .f32) (ix2 k q) = wIn V c (ix2 k q) := by
  obtain ⟨e0, e1⟩ := idx_5 t
  show wIn V c (((cfg7.win 5).blk t).view.emb (ix2 k q)) = _
  refine congrArg (wIn V c) (funext fun a => Fin.ext ?_)
  match a with
  | ⟨0, _⟩ => show win7_5.index t (0 : Fin 2) * 128 + 1 * k.val = k.val; rw [e0]; omega
  | ⟨1, _⟩ => show win7_5.index t (1 : Fin 2) * 128 + 1 * q.val = q.val; rw [e1]; omega

/-! ## The product block of a grid point, and the running sums -/

/-- the product block the body computes at point t -/
noncomputable def blockZ (c : Dev nD) (t : Fin cfg7.N) : Vec Ideal S5000x128 .f32 :=
  k7_pay5 (F := Ideal) (iblk7 V c 0 t) (iblk7 V c 2 t) (iblk7 V c 1 t) (iblk7 V c 3 t) (iblk7 V c 4 t) (iblk7 V c 5 t) (iblk7 V c 6 t)

/-- the product's entry (n, j) for a row number n, zero past the last row (never used there) -/
noncomputable def Zn (c : Dev nD) (n : ℕ) (j : Fin 128) : EReal := if h : n < 100000 then Z V c ⟨n, h⟩ j else 0

theorem Zn_val (c : Dev nD) (n : Fin 100000) (j : Fin 128) : Zn V c n.val j = Z V c n j := dif_pos n.isLt

/-- entry (p, q) of the product block at point t is the product's entry (5000 t + p, q) -/
theorem blockZ_apply (c : Dev nD) (t : Fin cfg7.N) (p : Fin 5000) (q : Fin 128) :
    blockZ V c t (ix2 p q) = Zn V c (5000 * t.val + p.val) q := by
  have hN : t.val < 20 := lt_of_lt_of_eq t.isLt (show cfg7.N = 20 from N_7)
  have hb : 5000 * t.val + p.val < 100000 := by have := p.isLt; omega
  unfold Zn
  rw [dif_pos hb]
  unfold blockZ Z
  refine (pay5_apply (iblk7 V c 0 t) (iblk7 V c 2 t) (iblk7 V c 1 t) (iblk7 V c 3 t) (iblk7 V c 4 t) (iblk7 V c 5 t) (iblk7 V c 6 t) p q).trans ?_
  refine congrArg₂ (· + ·) (Finset.sum_congr rfl fun k _ => congrArg₂ (· * ·) ?_ (iblk_w V c t k q)) (iblk_row6 V c t q)
  show actOf _ _ _ _ _ = Act V c ⟨5000 * t.val + p.val, hb⟩ k
  rw [iblk_z V c t p k hb, iblk_row1 V c t k, iblk_row2 V c t k, iblk_row3 V c t k, iblk_row4 V c t k]
  rfl

/-- column j of block s of the product, summed over the block's rows -/
noncomputable def colS (c : Dev nD) (s : ℕ) (j : Fin 128) : EReal := ∑ r : Fin 5000, Zn V c (5000 * s + r.val) j

/-- the same for the squares -/
noncomputable def colQ (c : Dev nD) (s : ℕ) (j : Fin 128) : EReal :=
  ∑ r : Fin 5000, Zn V c (5000 * s + r.val) j * Zn V c (5000 * s + r.val) j

/-- After point n the first output block is the product block of point n, and the two accumulators hold, from zero, the
    column sums (and sums of squares) of blocks 0 to n: by induction on the point, the first point resetting and every
    later point adding to what the point before left. -/
theorem outs_eq (c : Dev nD) : ∀ (n : ℕ) (h : n < cfg7.N),
    (outsAt7 V c n h).1 = blockZ V c ⟨n, h⟩
    ∧ (∀ j : Fin 128, ((outsAt7 V c n h).2.1 : S1x128.Idx → EReal) (ix2 0 j) = 0 + ∑ s ∈ Finset.range (n + 1), colS V c s j)
    ∧ (∀ j : Fin 128, ((outsAt7 V c n h).2.2 : S1x128.Idx → EReal) (ix2 0 j) = 0 + ∑ s ∈ Finset.range (n + 1), colQ V c s j)
  | 0, h => by
    have e := outsAt7_A V c (⟨0, h⟩ : Fin cfg7.N) rfl
    rw [outA7 (F := Ideal) c (grid7.coords (⟨0, h⟩ : Fin cfg7.N)) (ms7_0 (⟨0, h⟩ : Fin cfg7.N)) (hs7_0 (⟨0, h⟩ : Fin cfg7.N)) (ms7_1 (⟨0, h⟩ : Fin cfg7.N)) (hs7_1 (⟨0, h⟩ : Fin cfg7.N)) (ms7_2 (⟨0, h⟩ : Fin cfg7.N)) (hs7_2 (⟨0, h⟩ : Fin cfg7.N)) (ms7_3 (⟨0, h⟩ : Fin cfg7.N)) (hs7_3 (⟨0, h⟩ : Fin cfg7.N)) (ms7_4 (⟨0, h⟩ : Fin cfg7.N)) (hs7_4 (⟨0, h⟩ : Fin cfg7.N)) (ms7_5 (⟨0, h⟩ : Fin cfg7.N)) (hs7_5 (⟨0, h⟩ : Fin cfg7.N)) (ms7_6 (⟨0, h⟩ : Fin cfg7.N)) (hs7_6 (⟨0, h⟩ : Fin cfg7.N)) (ms7_7 (⟨0, h⟩ : Fin cfg7.N)) (hs7_7 (⟨0, h⟩ : Fin cfg7.N)) (ms7_8 (⟨0, h⟩ : Fin cfg7.N)) (hs7_8 (⟨0, h⟩ : Fin cfg7.N)) (ms7_9 (⟨0, h⟩ : Fin cfg7.N)) (hs7_9 (⟨0, h⟩ : Fin cfg7.N)) ((hcond7_0 (⟨0, h⟩ : Fin cfg7.N)).mpr rfl) (iblk7 V c 0 (⟨0, h⟩ : Fin cfg7.N)) (iblk7 V c 1 (⟨0, h⟩ : Fin cfg7.N)) (iblk7 V c 2 (⟨0, h⟩ : Fin cfg7.N)) (iblk7 V c 3 (⟨0, h⟩ : Fin cfg7.N)) (iblk7 V c 4 (⟨0, h⟩ : Fin cfg7.N)) (iblk7 V c 5 (⟨0, h⟩ : Fin cfg7.N)) (iblk7 V c 6 (⟨0, h⟩ : Fin cfg7.N)), outA8 (F := Ideal) c (grid7.coords (⟨0, h⟩ : Fin cfg7.N)) (ms7_0 (⟨0, h⟩ : Fin cfg7.N)) (hs7_0 (⟨0, h⟩ : Fin cfg7.N)) (ms7_1 (⟨0, h⟩ : Fin cfg7.N)) (hs7_1 (⟨0, h⟩ : Fin cfg7.N)) (ms7_2 (⟨0, h⟩ : Fin cfg7.N)) (hs7_2 (⟨0, h⟩ : Fin cfg7.N)) (ms7_3 (⟨0, h⟩ : Fin cfg7.N)) (hs7_3 (⟨0, h⟩ : Fin cfg7.N)) (ms7_4 (⟨0, h⟩ : Fin cfg7.N)) (hs7_4 (⟨0, h⟩ : Fin cfg7.N)) (ms7_5 (⟨0, h⟩ : Fin cfg7.N)) (hs7_5 (⟨0, h⟩ : Fin cfg7.N)) (ms7_6 (⟨0, h⟩ : Fin cfg7.N)) (hs7_6 (⟨0, h⟩ : Fin cfg7.N)) (ms7_7 (⟨0, h⟩ : Fin cfg7.N)) (hs7_7 (⟨0, h⟩ : Fin cfg7.N)) (ms7_8 (⟨0, h⟩ : Fin cfg7.N)) (hs7_8 (⟨0, h⟩ : Fin cfg7.N)) (ms7_9 (⟨0, h⟩ : Fin cfg7.N)) (hs7_9 (⟨0, h⟩ : Fin cfg7.N)) ((hcond7_0 (⟨0, h⟩ : Fin cfg7.N)).mpr rfl) (iblk7 V c 0 (⟨0, h⟩ : Fin cfg7.N)) (iblk7 V c 1 (⟨0, h⟩ : Fin cfg7.N)) (iblk7 V c 2 (⟨0, h⟩ : Fin cfg7.N)) (iblk7 V c 3 (⟨0, h⟩ : Fin cfg7.N)) (iblk7 V c 4 (⟨0, h⟩ : Fin cfg7.N)) (iblk7 V c 5 (⟨0, h⟩ : Fin cfg7.N)) (iblk7 V c 6 (⟨0, h⟩ : Fin cfg7.N)), outA9 (F := Ideal) c (grid7.coords (⟨0, h⟩ : Fin cfg7.N)) (ms7_0 (⟨0, h⟩ : Fin cfg7.N)) (hs7_0 (⟨0, h⟩ : Fin cfg7.N)) (ms7_1 (⟨0, h⟩ : Fin cfg7.N)) (hs7_1 (⟨0, h⟩ : Fin cfg7.N)) (ms7_2 (⟨0, h⟩ : Fin cfg7.N)) (hs7_2 (⟨0, h⟩ : Fin cfg7.N)) (ms7_3 (⟨0, h⟩ : Fin cfg7.N)) (hs7_3 (⟨0, h⟩ : Fin cfg7.N)) (ms7_4 (⟨0, h⟩ : Fin cfg7.N)) (hs7_4 (⟨0, h⟩ : Fin cfg7.N)) (ms7_5 (⟨0, h⟩ : Fin cfg7.N)) (hs7_5 (⟨0, h⟩ : Fin cfg7.N)) (ms7_6 (⟨0, h⟩ : Fin cfg7.N)) (hs7_6 (⟨0, h⟩ : Fin cfg7.N)) (ms7_7 (⟨0, h⟩ : Fin cfg7.N)) (hs7_7 (⟨0, h⟩ : Fin cfg7.N)) (ms7_8 (⟨0, h⟩ : Fin cfg7.N)) (hs7_8 (⟨0, h⟩ : Fin cfg7.N)) (ms7_9 (⟨0, h⟩ : Fin cfg7.N)) (hs7_9 (⟨0, h⟩ : Fin cfg7.N)) ((hcond7_0 (⟨0, h⟩ : Fin cfg7.N)).mpr rfl) (iblk7 V c 0 (⟨0, h⟩ : Fin cfg7.N)) (iblk7 V c 1 (⟨0, h⟩ : Fin cfg7.N)) (iblk7 V c 2 (⟨0, h⟩ : Fin cfg7.N)) (iblk7 V c 3 (⟨0, h⟩ : Fin cfg7.N)) (iblk7 V c 4 (⟨0, h⟩ : Fin cfg7.N)) (iblk7 V c 5 (⟨0, h⟩ : Fin cfg7.N)) (iblk7 V c 6 (⟨0, h⟩ : Fin cfg7.N))] at e
    have e7 : (outsAt7 V c 0 h).1 = blockZ V c (⟨0, h⟩ : Fin cfg7.N) := congrArg Prod.fst e
    have e8 : (outsAt7 V c 0 h).2.1 = k7_pay1 (F := Ideal) (blockZ V c (⟨0, h⟩ : Fin cfg7.N)) (k7_pay3 (F := Ideal)) := congrArg (fun p => p.2.1) e
    have e9 : (outsAt7 V c 0 h).2.2 = k7_pay2 (F := Ideal) (blockZ V c (⟨0, h⟩ : Fin cfg7.N)) (k7_pay4 (F := Ideal)) := congrArg (fun p => p.2.2) e
    refine ⟨e7, fun j => ?_, fun j => ?_⟩
    · refine (congrFun e8 (ix2 0 j)).trans ?_
      refine (pay1_apply _ _ j).trans ?_
      rw [pay3_apply, Finset.sum_range_one]
      exact congrArg (0 + ·) (Finset.sum_congr rfl fun r _ => blockZ_apply V c (⟨0, h⟩ : Fin cfg7.N) r j)
    · refine (congrFun e9 (ix2 0 j)).trans ?_
      refine (pay2_apply _ _ j).trans ?_
      rw [pay4_apply, Finset.sum_range_one]
      exact congrArg (0 + ·) (Finset.sum_congr rfl fun r _ =>
        congrArg₂ (· * ·) (blockZ_apply V c (⟨0, h⟩ : Fin cfg7.N) r j) (blockZ_apply V c (⟨0, h⟩ : Fin cfg7.N) r j))
  | n + 1, h => by
    have hN : cfg7.N = 20 := N_7
    have hB : ¬(⟨n + 1, h⟩ : Fin cfg7.N).val % 20 = 0 := by dsimp only; omega
    obtain ⟨-, ih8, ih9⟩ := outs_eq c n (Nat.lt_of_succ_lt h)
    have e := outsAt7_B V c (⟨n + 1, h⟩ : Fin cfg7.N) hB
    rw [outB7 (F := Ideal) c (grid7.coords (⟨n + 1, h⟩ : Fin cfg7.N)) (ms7_0 (⟨n + 1, h⟩ : Fin cfg7.N)) (hs7_0 (⟨n + 1, h⟩ : Fin cfg7.N)) (ms7_1 (⟨n + 1, h⟩ : Fin cfg7.N)) (hs7_1 (⟨n + 1, h⟩ : Fin cfg7.N)) (ms7_2 (⟨n + 1, h⟩ : Fin cfg7.N)) (hs7_2 (⟨n + 1, h⟩ : Fin cfg7.N)) (ms7_3 (⟨n + 1, h⟩ : Fin cfg7.N)) (hs7_3 (⟨n + 1, h⟩ : Fin cfg7.N)) (ms7_4 (⟨n + 1, h⟩ : Fin cfg7.N)) (hs7_4 (⟨n + 1, h⟩ : Fin cfg7.N)) (ms7_5 (⟨n + 1, h⟩ : Fin cfg7.N)) (hs7_5 (⟨n + 1, h⟩ : Fin cfg7.N)) (ms7_6 (⟨n + 1, h⟩ : Fin cfg7.N)) (hs7_6 (⟨n + 1, h⟩ : Fin cfg7.N)) (ms7_7 (⟨n + 1, h⟩ : Fin cfg7.N)) (hs7_7 (⟨n + 1, h⟩ : Fin cfg7.N)) (ms7_8 (⟨n + 1, h⟩ : Fin cfg7.N)) (hs7_8 (⟨n + 1, h⟩ : Fin cfg7.N)) (ms7_9 (⟨n + 1, h⟩ : Fin cfg7.N)) (hs7_9 (⟨n + 1, h⟩ : Fin cfg7.N)) (fun hcnd => hB ((hcond7_0 (⟨n + 1, h⟩ : Fin cfg7.N)).mp hcnd)) (iblk7 V c 0 (⟨n + 1, h⟩ : Fin cfg7.N)) (iblk7 V c 1 (⟨n + 1, h⟩ : Fin cfg7.N)) (iblk7 V c 2 (⟨n + 1, h⟩ : Fin cfg7.N)) (iblk7 V c 3 (⟨n + 1, h⟩ : Fin cfg7.N)) (iblk7 V c 4 (⟨n + 1, h⟩ : Fin cfg7.N)) (iblk7 V c 5 (⟨n + 1, h⟩ : Fin cfg7.N)) (iblk7 V c 6 (⟨n + 1, h⟩ : Fin cfg7.N)) (outsAt7 V c ((⟨n + 1, h⟩ : Fin cfg7.N).val - 1) (Nat.lt_of_le_of_lt (Nat.sub_le _ _) (⟨n + 1, h⟩ : Fin cfg7.N).isLt)).2.1 (outsAt7 V c ((⟨n + 1, h⟩ : Fin cfg7.N).val - 1) (Nat.lt_of_le_of_lt (Nat.sub_le _ _) (⟨n + 1, h⟩ : Fin cfg7.N).isLt)).2.2, outB8 (F := Ideal) c (grid7.coords (⟨n + 1, h⟩ : Fin cfg7.N)) (ms7_0 (⟨n + 1, h⟩ : Fin cfg7.N)) (hs7_0 (⟨n + 1, h⟩ : Fin cfg7.N)) (ms7_1 (⟨n + 1, h⟩ : Fin cfg7.N)) (hs7_1 (⟨n + 1, h⟩ : Fin cfg7.N)) (ms7_2 (⟨n + 1, h⟩ : Fin cfg7.N)) (hs7_2 (⟨n + 1, h⟩ : Fin cfg7.N)) (ms7_3 (⟨n + 1, h⟩ : Fin cfg7.N)) (hs7_3 (⟨n + 1, h⟩ : Fin cfg7.N)) (ms7_4 (⟨n + 1, h⟩ : Fin cfg7.N)) (hs7_4 (⟨n + 1, h⟩ : Fin cfg7.N)) (ms7_5 (⟨n + 1, h⟩ : Fin cfg7.N)) (hs7_5 (⟨n + 1, h⟩ : Fin cfg7.N)) (ms7_6 (⟨n + 1, h⟩ : Fin cfg7.N)) (hs7_6 (⟨n + 1, h⟩ : Fin cfg7.N)) (ms7_7 (⟨n + 1, h⟩ : Fin cfg7.N)) (hs7_7 (⟨n + 1, h⟩ : Fin cfg7.N)) (ms7_8 (⟨n + 1, h⟩ : Fin cfg7.N)) (hs7_8 (⟨n + 1, h⟩ : Fin cfg7.N)) (ms7_9 (⟨n + 1, h⟩ : Fin cfg7.N)) (hs7_9 (⟨n + 1, h⟩ : Fin cfg7.N)) (fun hcnd => hB ((hcond7_0 (⟨n + 1, h⟩ : Fin cfg7.N)).mp hcnd)) (iblk7 V c 0 (⟨n + 1, h⟩ : Fin cfg7.N)) (iblk7 V c 1 (⟨n + 1, h⟩ : Fin cfg7.N)) (iblk7 V c 2 (⟨n + 1, h⟩ : Fin cfg7.N)) (iblk7 V c 3 (⟨n + 1, h⟩ : Fin cfg7.N)) (iblk7 V c 4 (⟨n + 1, h⟩ : Fin cfg7.N)) (iblk7 V c 5 (⟨n + 1, h⟩ : Fin cfg7.N)) (iblk7 V c 6 (⟨n + 1, h⟩ : Fin cfg7.N)) (outsAt7 V c ((⟨n + 1, h⟩ : Fin cfg7.N).val - 1) (Nat.lt_of_le_of_lt (Nat.sub_le _ _) (⟨n + 1, h⟩ : Fin cfg7.N).isLt)).2.1 (outsAt7 V c ((⟨n + 1, h⟩ : Fin cfg7.N).val - 1) (Nat.lt_of_le_of_lt (Nat.sub_le _ _) (⟨n + 1, h⟩ : Fin cfg7.N).isLt)).2.2, outB9 (F := Ideal) c (grid7.coords (⟨n + 1, h⟩ : Fin cfg7.N)) (ms7_0 (⟨n + 1, h⟩ : Fin cfg7.N)) (hs7_0 (⟨n + 1, h⟩ : Fin cfg7.N)) (ms7_1 (⟨n + 1, h⟩ : Fin cfg7.N)) (hs7_1 (⟨n + 1, h⟩ : Fin cfg7.N)) (ms7_2 (⟨n + 1, h⟩ : Fin cfg7.N)) (hs7_2 (⟨n + 1, h⟩ : Fin cfg7.N)) (ms7_3 (⟨n + 1, h⟩ : Fin cfg7.N)) (hs7_3 (⟨n + 1, h⟩ : Fin cfg7.N)) (ms7_4 (⟨n + 1, h⟩ : Fin cfg7.N)) (hs7_4 (⟨n + 1, h⟩ : Fin cfg7.N)) (ms7_5 (⟨n + 1, h⟩ : Fin cfg7.N)) (hs7_5 (⟨n + 1, h⟩ : Fin cfg7.N)) (ms7_6 (⟨n + 1, h⟩ : Fin cfg7.N)) (hs7_6 (⟨n + 1, h⟩ : Fin cfg7.N)) (ms7_7 (⟨n + 1, h⟩ : Fin cfg7.N)) (hs7_7 (⟨n + 1, h⟩ : Fin cfg7.N)) (ms7_8 (⟨n + 1, h⟩ : Fin cfg7.N)) (hs7_8 (⟨n + 1, h⟩ : Fin cfg7.N)) (ms7_9 (⟨n + 1, h⟩ : Fin cfg7.N)) (hs7_9 (⟨n + 1, h⟩ : Fin cfg7.N)) (fun hcnd => hB ((hcond7_0 (⟨n + 1, h⟩ : Fin cfg7.N)).mp hcnd)) (iblk7 V c 0 (⟨n + 1, h⟩ : Fin cfg7.N)) (iblk7 V c 1 (⟨n + 1, h⟩ : Fin cfg7.N)) (iblk7 V c 2 (⟨n + 1, h⟩ : Fin cfg7.N)) (iblk7 V c 3 (⟨n + 1, h⟩ : Fin cfg7.N)) (iblk7 V c 4 (⟨n + 1, h⟩ : Fin cfg7.N)) (iblk7 V c 5 (⟨n + 1, h⟩ : Fin cfg7.N)) (iblk7 V c 6 (⟨n + 1, h⟩ : Fin cfg7.N)) (outsAt7 V c ((⟨n + 1, h⟩ : Fin cfg7.N).val - 1) (Nat.lt_of_le_of_lt (Nat.sub_le _ _) (⟨n + 1, h⟩ : Fin cfg7.N).isLt)).2.1 (outsAt7 V c ((⟨n + 1, h⟩ : Fin cfg7.N).val - 1) (Nat.lt_of_le_of_lt (Nat.sub_le _ _) (⟨n + 1, h⟩ : Fin cfg7.N).isLt)).2.2] at e
    have e7 : (outsAt7 V c (n + 1) h).1 = blockZ V c (⟨n + 1, h⟩ : Fin cfg7.N) := congrArg Prod.fst e
    have e8 : (outsAt7 V c (n + 1) h).2.1
        = k7_pay1 (F := Ideal) (blockZ V c (⟨n + 1, h⟩ : Fin cfg7.N)) (outsAt7 V c n (Nat.lt_of_succ_lt h)).2.1 := congrArg (fun p => p.2.1) e
    have e9 : (outsAt7 V c (n + 1) h).2.2
        = k7_pay2 (F := Ideal) (blockZ V c (⟨n + 1, h⟩ : Fin cfg7.N)) (outsAt7 V c n (Nat.lt_of_succ_lt h)).2.2 := congrArg (fun p => p.2.2) e
    refine ⟨e7, fun j => ?_, fun j => ?_⟩
    · refine (congrFun e8 (ix2 0 j)).trans ?_
      refine (pay1_apply _ _ j).trans ?_
      refine (congrArg₂ (· + ·) (ih8 j) (Finset.sum_congr rfl fun r _ => blockZ_apply V c (⟨n + 1, h⟩ : Fin cfg7.N) r j)).trans ?_
      exact (add_assoc _ _ _).trans (congrArg (0 + ·) (Finset.sum_range_succ (fun s => colS V c s j) (n + 1)).symm)
    · refine (congrFun e9 (ix2 0 j)).trans ?_
      refine (pay2_apply _ _ j).trans ?_
      refine (congrArg₂ (· + ·) (ih9 j) (Finset.sum_congr rfl fun r _ =>
        congrArg₂ (· * ·) (blockZ_apply V c (⟨n + 1, h⟩ : Fin cfg7.N) r j) (blockZ_apply V c (⟨n + 1, h⟩ : Fin cfg7.N) r j))).trans ?_
      exact (add_assoc _ _ _).trans (congrArg (0 + ·) (Finset.sum_range_succ (fun s => colQ V c s j) (n + 1)).symm)

/-! ## The three arrays after the region -/

/-- the product as one array -/
noncomputable def Gz (c : Dev nD) : S100000x128.Idx → EReal := fun i => Z V c (i 0) (i 1)

/-- every point writes back its product block: block t of the product array -/
theorem flushed7_eq (c : Dev nD) (t : Fin cfg7.N) :
    (dat7 V c).flushed 7 t = ((cfg7.win 7).blk t).view.read (Elt Ideal) (Gz V c) := by
  have hN : t.val < 20 := lt_of_lt_of_eq t.isLt (show cfg7.N = 20 from N_7)
  obtain ⟨e0, e1⟩ := idx_7 t
  show (cfg7.win 7).cut (grid7.coords t) ((dat7 V c).after 7 t) = _
  rw [after7_7, (outs_eq V c t.val t.isLt).1]
  funext y
  have h0 : (y 0).val < 5000 := (y 0).isLt
  have h1 : (y 1).val < 128 := (y 1).isLt
  have hb : 5000 * t.val + (y 0).val < 100000 := by omega
  have hx : (cfg7.win 7).xinj (grid7.coords t) y = ix2 (⟨(y 0).val, h0⟩ : Fin 5000) (⟨(y 1).val, h1⟩ : Fin 128) :=
    funext fun a => by
      match a with
      | ⟨0, _⟩ => rfl
      | ⟨1, _⟩ => rfl
  have hemb : ((cfg7.win 7).blk t).view.emb y = ix2 (⟨5000 * t.val + (y 0).val, hb⟩ : Fin 100000) (⟨(y 1).val, h1⟩ : Fin 128) :=
    funext fun a => Fin.ext (by
      match a with
      | ⟨0, _⟩ => show win7_7.index t (0 : Fin 2) * 5000 + 1 * (y 0).val = 5000 * t.val + (y 0).val; rw [e0]; omega
      | ⟨1, _⟩ => show win7_7.index t (1 : Fin 2) * 128 + 1 * (y 1).val = (y 1).val; rw [e1]; omega)
  show blockZ V c t ((cfg7.win 7).xinj (grid7.coords t) y) = Gz V c (((cfg7.win 7).blk t).view.emb y)
  rw [hx, hemb, blockZ_apply]
  exact dif_pos hb

/-- every row of the product array lies in the block of the point numbered by the row divided by five thousand -/
theorem cover7 (i : S100000x128.Idx) : ∃ t : Fin cfg7.N, (cfg7.win 7).flush t = true ∧ i ∈ ((cfg7.win 7).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  obtain ⟨e0, e1⟩ := idx_7 t
  refine ⟨t, flush7_7 t, ?_⟩
  show i ∈ ((View.whole main_v131_0).slice (win7_7.rect t)).set
  rw [View.set_slice_whole, Rect.mem_set_unit]
  intro a
  match a with
  | ⟨0, _⟩ =>
    show win7_7.index t (0 : Fin 2) * 5000 ≤ (i 0).val ∧ (i 0).val < win7_7.index t (0 : Fin 2) * 5000 + 5000
    rw [e0]; show (i 0).val / 5000 * 5000 ≤ (i 0).val ∧ (i 0).val < (i 0).val / 5000 * 5000 + 5000; omega
  | ⟨1, _⟩ =>
    show win7_7.index t (1 : Fin 2) * 128 ≤ (i 1).val ∧ (i 1).val < win7_7.index t (1 : Fin 2) * 128 + 128
    rw [e1]; omega

/-- the product array after the region -/
theorem final7 (c : Dev nD) : (dat7 V c).arrAt 7 cfg7.N = Gz V c :=
  (dat7 V c).arrAt_eq_of_cover 7 (Gz V c) (fun t _ => flushed7_eq V c t) cover7

/-- the last grid point, the only one that writes the two accumulators back -/
abbrev tLast : Fin cfg7.N := ⟨19, by rw [show cfg7.N = 20 from N_7]; decide⟩

/-- the sum of column j of the product over all hundred thousand rows -/
noncomputable def totS (c : Dev nD) (j : Fin 128) : EReal := ∑ r : Fin 100000, Z V c r j

/-- the sum of the squares of column j of the product over all rows -/
noncomputable def totQ (c : Dev nD) (j : Fin 128) : EReal := ∑ r : Fin 100000, Z V c r j * Z V c r j

theorem totS_eq (c : Dev nD) (j : Fin 128) : totS V c j = ∑ r : Fin 100000, Z V c r j := rfl

theorem totQ_eq (c : Dev nD) (j : Fin 128) : totQ V c j = ∑ r : Fin 100000, Z V c r j * Z V c r j := rfl

/-- the twenty partial column sums, from zero, are the column sum over all rows -/
theorem sumS (c : Dev nD) (j : Fin 128) : 0 + ∑ s ∈ Finset.range (19 + 1), colS V c s j = totS V c j :=
  Cert.BlockSum.sum_20x5000 (fun r => Z V c r j) (fun n => Zn V c n j) (fun n => Zn_val V c n j)

theorem sumQ (c : Dev nD) (j : Fin 128) : 0 + ∑ s ∈ Finset.range (19 + 1), colQ V c s j = totQ V c j :=
  Cert.BlockSum.sum_20x5000 (fun r => Z V c r j * Z V c r j) (fun n => Zn V c n j * Zn V c n j)
    (fun n => congrArg₂ (· * ·) (Zn_val V c n j) (Zn_val V c n j))

-- From here on the two totals are names: a comparison that opened them would enumerate the hundred thousand rows.
attribute [local irreducible] totS totQ

/-- the column sums as one row -/
noncomputable def Gs (c : Dev nD) : S1x128.Idx → EReal := fun i => totS V c (i 1)

/-- the column sums of the squares as one row -/
noncomputable def Gq (c : Dev nD) : S1x128.Idx → EReal := fun i => totQ V c (i 1)

/-- the one write-back of the column sums, at the last point -/
theorem flushed8_eq (c : Dev nD) (t : Fin cfg7.N) (hf : (cfg7.win 8).flush t = true) :
    (dat7 V c).flushed 8 t = ((cfg7.win 8).blk t).view.read (Elt Ideal) (Gs V c) := by
  have hN : cfg7.N = 20 := N_7
  have h19 : t.val = 19 := by have := (flush7_8 t).mp hf; have := t.isLt; omega
  obtain ⟨e0, e1⟩ := idx_8 t
  show (cfg7.win 8).cut (grid7.coords t) ((dat7 V c).after 8 t) = _
  rw [after7_8]
  funext y
  have h0 : (y 0).val < 1 := (y 0).isLt
  have h1 : (y 1).val < 128 := (y 1).isLt
  have hx : (cfg7.win 8).xinj (grid7.coords t) y = ix2 (0 : Fin 1) (⟨(y 1).val, h1⟩ : Fin 128) :=
    funext fun a => Fin.ext (by
      match a with
      | ⟨0, _⟩ => show (y 0).val = 0; omega
      | ⟨1, _⟩ => rfl)
  have hemb : ((cfg7.win 8).blk t).view.emb y = ix2 (0 : Fin 1) (⟨(y 1).val, h1⟩ : Fin 128) :=
    funext fun a => Fin.ext (by
      match a with
      | ⟨0, _⟩ => show win7_8.index t (0 : Fin 2) * 1 + 1 * (y 0).val = 0; rw [e0]; omega
      | ⟨1, _⟩ => show win7_8.index t (1 : Fin 2) * 128 + 1 * (y 1).val = (y 1).val; rw [e1]; omega)
  show ((outsAt7 V c t.val t.isLt).2.1 : S1x128.Idx → EReal) ((cfg7.win 8).xinj (grid7.coords t) y)
    = Gs V c (((cfg7.win 8).blk t).view.emb y)
  rw [hx, hemb, (outs_eq V c t.val t.isLt).2.1 ⟨(y 1).val, h1⟩, h19]
  exact sumS V c ⟨(y 1).val, h1⟩

theorem flushed9_eq (c : Dev nD) (t : Fin cfg7.N) (hf : (cfg7.win 9).flush t = true) :
    (dat7 V c).flushed 9 t = ((cfg7.win 9).blk t).view.read (Elt Ideal) (Gq V c) := by
  have hN : cfg7.N = 20 := N_7
  have h19 : t.val = 19 := by have := (flush7_9 t).mp hf; have := t.isLt; omega
  obtain ⟨e0, e1⟩ := idx_9 t
  show (cfg7.win 9).cut (grid7.coords t) ((dat7 V c).after 9 t) = _
  rw [after7_9]
  funext y
  have h0 : (y 0).val < 1 := (y 0).isLt
  have h1 : (y 1).val < 128 := (y 1).isLt
  have hx : (cfg7.win 9).xinj (grid7.coords t) y = ix2 (0 : Fin 1) (⟨(y 1).val, h1⟩ : Fin 128) :=
    funext fun a => Fin.ext (by
      match a with
      | ⟨0, _⟩ => show (y 0).val = 0; omega
      | ⟨1, _⟩ => rfl)
  have hemb : ((cfg7.win 9).blk t).view.emb y = ix2 (0 : Fin 1) (⟨(y 1).val, h1⟩ : Fin 128) :=
    funext fun a => Fin.ext (by
      match a with
      | ⟨0, _⟩ => show win7_9.index t (0 : Fin 2) * 1 + 1 * (y 0).val = 0; rw [e0]; omega
      | ⟨1, _⟩ => show win7_9.index t (1 : Fin 2) * 128 + 1 * (y 1).val = (y 1).val; rw [e1]; omega)
  show ((outsAt7 V c t.val t.isLt).2.2 : S1x128.Idx → EReal) ((cfg7.win 9).xinj (grid7.coords t) y)
    = Gq V c (((cfg7.win 9).blk t).view.emb y)
  rw [hx, hemb, (outs_eq V c t.val t.isLt).2.2 ⟨(y 1).val, h1⟩, h19]
  exact sumQ V c ⟨(y 1).val, h1⟩

/-- the one block of each accumulator is its whole one-row array -/
theorem cover8 (i : S1x128.Idx) : ∃ t : Fin cfg7.N, (cfg7.win 8).flush t = true ∧ i ∈ ((cfg7.win 8).blk t).view.set := by
  have hi0 : (i 0).val < 1 := (i 0).isLt
  have hi1 : (i 1).val < 128 := (i 1).isLt
  obtain ⟨e0, e1⟩ := idx_8 tLast
  refine ⟨tLast, (flush7_8 tLast).mpr rfl, ?_⟩
  show i ∈ ((View.whole main_v131_1).slice (win7_8.rect tLast)).set
  rw [View.set_slice_whole, Rect.mem_set_unit]
  intro a
  match a with
  | ⟨0, _⟩ =>
    show win7_8.index tLast (0 : Fin 2) * 1 ≤ (i 0).val ∧ (i 0).val < win7_8.index tLast (0 : Fin 2) * 1 + 1
    rw [e0]; omega
  | ⟨1, _⟩ =>
    show win7_8.index tLast (1 : Fin 2) * 128 ≤ (i 1).val ∧ (i 1).val < win7_8.index tLast (1 : Fin 2) * 128 + 128
    rw [e1]; omega

theorem cover9 (i : S1x128.Idx) : ∃ t : Fin cfg7.N, (cfg7.win 9).flush t = true ∧ i ∈ ((cfg7.win 9).blk t).view.set := by
  have hi0 : (i 0).val < 1 := (i 0).isLt
  have hi1 : (i 1).val < 128 := (i 1).isLt
  obtain ⟨e0, e1⟩ := idx_9 tLast
  refine ⟨tLast, (flush7_9 tLast).mpr rfl, ?_⟩
  show i ∈ ((View.whole main_v131_2).slice (win7_9.rect tLast)).set
  rw [View.set_slice_whole, Rect.mem_set_unit]
  intro a
  match a with
  | ⟨0, _⟩ =>
    show win7_9.index tLast (0 : Fin 2) * 1 ≤ (i 0).val ∧ (i 0).val < win7_9.index tLast (0 : Fin 2) * 1 + 1
    rw [e0]; omega
  | ⟨1, _⟩ =>
    show win7_9.index tLast (1 : Fin 2) * 128 ≤ (i 1).val ∧ (i 1).val < win7_9.index tLast (1 : Fin 2) * 128 + 128
    rw [e1]; omega

theorem final8 (c : Dev nD) : (dat7 V c).arrAt 8 cfg7.N = Gs V c :=
  (dat7 V c).arrAt_eq_of_cover 8 (Gs V c) (flushed8_eq V c) cover8

theorem final9 (c : Dev nD) : (dat7 V c).arrAt 9 cfg7.N = Gq V c :=
  (dat7 V c).arrAt_eq_of_cover 9 (Gq V c) (flushed9_eq V c) cover9

/-! ## The three results at an entry -/

theorem final_z (c : Dev nD) (r : Fin 100000) (j : Fin 128) :
    ((dat7 V c).arrAt 7 cfg7.N : S100000x128.Idx → EReal) (ix2 r j) = Z V c r j :=
  congrFun (final7 V c) (ix2 r j)

theorem final_s (c : Dev nD) (j : Fin 128) :
    ((dat7 V c).arrAt 8 cfg7.N : S1x128.Idx → EReal) (ix2 0 j) = ∑ r : Fin 100000, Z V c r j :=
  (congrFun (final8 V c) (ix2 0 j)).trans (totS_eq V c j)

theorem final_q (c : Dev nD) (j : Fin 128) :
    ((dat7 V c).arrAt 9 cfg7.N : S1x128.Idx → EReal) (ix2 0 j) = ∑ r : Fin 100000, Z V c r j * Z V c r j :=
  (congrFun (final9 V c) (ix2 0 j)).trans (totQ_eq V c j)

/-! ## The region's results as functions of their coordinates -/

/-- the product's entries read by their two coordinates -/
theorem prod_entry (c : Dev nD) (r : Fin 100000) (j : Fin 128) : Cert.Lib.cur2 (a := 100000) (b := 128) ((dat7 V c).arrAt 7 cfg7.N) r j = Z V c r j :=
  final_z V c r j

/-- the product is the linear map, with its shift, of the normalised and rectified z -/
theorem contract_z (c : Dev nD) :
    Cert.Lib.cur2 (a := 100000) (b := 128) ((dat7 V c).arrAt 7 cfg7.N)
      = Cert.Gin.lin (Cert.Gin.norm (Cert.Lib.cur2 (a := 100000) (b := 128) (V c (Pipeline.arrRef spec7 0)))
          (Cert.Lib.row (a := 128) (V c (Pipeline.arrRef spec7 1))) (Cert.Lib.row (a := 128) (V c (Pipeline.arrRef spec7 2)))
          (Cert.Lib.row (a := 128) (V c (Pipeline.arrRef spec7 3))) (Cert.Lib.row (a := 128) (V c (Pipeline.arrRef spec7 4))))
        (Cert.Lib.cur2 (a := 128) (b := 128) (V c (Pipeline.arrRef spec7 5))) (Cert.Lib.row (a := 128) (V c (Pipeline.arrRef spec7 6))) := by
  funext r j
  exact (prod_entry V c r j).trans rfl

/-- the first row is the sum over all rows of the product's columns -/
theorem contract_s (c : Dev nD) :
    Cert.Lib.row (a := 128) ((dat7 V c).arrAt 8 cfg7.N)
      = (fun j => ∑ r, Cert.Lib.cur2 (a := 100000) (b := 128) ((dat7 V c).arrAt 7 cfg7.N) r j) := by
  funext j
  have h8 : Cert.Lib.row (a := 128) ((dat7 V c).arrAt 8 cfg7.N) j = totS V c j := congrFun (final8 V c) (ix2 0 j)
  refine h8.trans ((totS_eq V c j).trans ?_)
  exact Finset.sum_congr rfl fun r _ => (prod_entry V c r j).symm

/-- the second row is the sum over all rows of the squares of the product's columns -/
theorem contract_q (c : Dev nD) :
    Cert.Lib.row (a := 128) ((dat7 V c).arrAt 9 cfg7.N)
      = (fun j => ∑ r, Cert.Lib.cur2 (a := 100000) (b := 128) ((dat7 V c).arrAt 7 cfg7.N) r j
          * Cert.Lib.cur2 (a := 100000) (b := 128) ((dat7 V c).arrAt 7 cfg7.N) r j) := by
  funext j
  have h9 : Cert.Lib.row (a := 128) ((dat7 V c).arrAt 9 cfg7.N) j = totQ V c j := congrFun (final9 V c) (ix2 0 j)
  refine h9.trans ((totQ_eq V c j).trans ?_)
  exact Finset.sum_congr rfl fun r _ => (congrArg₂ (· * ·) (prod_entry V c r j) (prod_entry V c r j)).symm

/-- The product is the linear map, with its shift, of the normalised and rectified z; the two rows are the sums over all
    rows of the product's columns and of their squares. -/
theorem contract (c : Dev nD) :
    Cert.Lib.cur2 (a := 100000) (b := 128) ((dat7 V c).arrAt 7 cfg7.N)
      = Cert.Gin.lin (Cert.Gin.norm (Cert.Lib.cur2 (a := 100000) (b := 128) (V c (Pipeline.arrRef spec7 0)))
          (Cert.Lib.row (a := 128) (V c (Pipeline.arrRef spec7 1))) (Cert.Lib.row (a := 128) (V c (Pipeline.arrRef spec7 2)))
          (Cert.Lib.row (a := 128) (V c (Pipeline.arrRef spec7 3))) (Cert.Lib.row (a := 128) (V c (Pipeline.arrRef spec7 4))))
        (Cert.Lib.cur2 (a := 128) (b := 128) (V c (Pipeline.arrRef spec7 5))) (Cert.Lib.row (a := 128) (V c (Pipeline.arrRef spec7 6)))
    ∧ Cert.Lib.row (a := 128) ((dat7 V c).arrAt 8 cfg7.N)
      = (fun j => ∑ r, Cert.Lib.cur2 (a := 100000) (b := 128) ((dat7 V c).arrAt 7 cfg7.N) r j)
    ∧ Cert.Lib.row (a := 128) ((dat7 V c).arrAt 9 cfg7.N)
      = (fun j => ∑ r, Cert.Lib.cur2 (a := 100000) (b := 128) ((dat7 V c).arrAt 7 cfg7.N) r j
          * Cert.Lib.cur2 (a := 100000) (b := 128) ((dat7 V c).arrAt 7 cfg7.N) r j) :=
  ⟨contract_z V c, contract_s V c, contract_q V c⟩

end Cert.KernelIdeal.BnReluLinear7
-- ==== Proof.RegionBnRelu8.lean ====
import proofs.«120577_j28003186770423_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120577_j28003186770423_1_alg».proof.Proof.LibCurry
import proofs.«120577_j28003186770423_1_alg».proof.Proof.GinMath

/-! Batch normalisation followed by a rectifier, one block of 5000 rows at a time.

The output array has 100000 rows and 128 columns. Grid point t handles rows 5000 t .. 5000 t + 4999: it reads that
block of the big input and the four row vectors (one row, 128 columns, the same at every point), and stores
max ((((x - mean) * rsqrt (var + eps)) * gamma) + beta, 0) entry by entry, each row vector read at the entry's column.
Since every point writes back the restriction of ONE function of the five input arrays to its block, and the twenty
blocks cover all rows, the output array ends as that function: entry (r, j) depends on entry (r, j) of the big input
and on column j of the four row vectors, and on nothing else. -/

noncomputable section

namespace Cert.KernelIdeal.BnRelu8

open Idealize.ShloMosaic Idealize.ShloMosaic.ValueIdx Idealize.SL.Sem Cert.KernelIdeal Cert.KernelIdeal.Gen
open Idealize.ShloMosaic.TcCoe
open Idealize.ShloMosaic.Pipeline (Dat)

/-- Row r, column j of the big array, minus column j of the first row vector, times the reciprocal square root of
    (column j of the second row vector plus the small constant), times column j of the third, plus column j of the
    fourth, and the larger of that and zero. -/
def bnRelu (A0 : S100000x128.Idx → EReal) (A1 A2 A3 A4 : S1x128.Idx → EReal) (r : Fin 100000) (j : Fin 128) : EReal :=
  max ((((A0 (ix2 r j) - A1 (ix2 0 j)) * Ideal.rsqrt (A2 (ix2 0 j) + Ideal.ofBits .f32 0x3727C5AC#32)) * A3 (ix2 0 j)) + A4 (ix2 0 j))
    (Ideal.ofBits .f32 0x00000000#32)

/-- The same function of a whole index: its two coordinates taken apart. -/
def bnReluArr (A0 : S100000x128.Idx → EReal) (A1 A2 A3 A4 : S1x128.Idx → EReal) : S100000x128.Idx → EReal :=
  fun i => bnRelu A0 A1 A2 A3 A4 ⟨(i 0).val, idx2_lt0 i⟩ ⟨(i 1).val, idx2_lt1 i⟩

/-- At an index whose coordinates are (r, j) the whole-index form is the coordinate form. -/
theorem bnReluArr_at (A0 : S100000x128.Idx → EReal) (A1 A2 A3 A4 : S1x128.Idx → EReal) (i : S100000x128.Idx)
    (r : Fin 100000) (j : Fin 128) (h0 : (i 0).val = r.val) (h1 : (i 1).val = j.val) :
    bnReluArr A0 A1 A2 A3 A4 i = bnRelu A0 A1 A2 A3 A4 r j := by
  unfold bnReluArr
  have e0 : (⟨(i 0).val, idx2_lt0 i⟩ : Fin 100000) = r := Fin.ext h0
  have e1 : (⟨(i 1).val, idx2_lt1 i⟩ : Fin 128) = j := Fin.ext h1
  rw [e0, e1]

theorem hz : (![0, 0] : Fin 2 → Nat) = fun _ => 0 := funext fun a => by fin_cases a <;> rfl

/-- What the body stores, at row p and column q of a block: the five loaded blocks combined entry by entry, the
    row vectors read at their one row. -/
theorem pay_apply (x0 : Vec Ideal S5000x128 .f32) (x2 x1 x3 x4 : Vec Ideal S1x128 .f32) (p : Fin 5000) (q : Fin 128) :
    k8_pay1 x0 x2 x1 x3 x4 (ix2 p q)
      = max ((((x0 (ix2 p q) - x1 (ix2 0 q)) * Ideal.rsqrt (x2 (ix2 0 q) + Ideal.ofBits .f32 0x3727C5AC#32)) * x3 (ix2 0 q)) + x4 (ix2 0 q))
          (Ideal.ofBits .f32 0x00000000#32) := by
  unfold k8_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The index maps over the twenty grid points: the two big windows sit at block (t, 0) at point t, the four row
    vectors at block (0, 0) throughout. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

theorem point_lt (t : Fin cfg8.N) : t.val < 20 := lt_of_lt_of_eq t.isLt N_8

variable (V : (c : Dev nD) → (b : Ref sig .tc) → Buf (Elt Ideal) ((c : Thread nD τ).loc b))

/-- Block t of the big input window, at row p and column q, is the array at row 5000 t + p and column q. -/
theorem iblk_big (c : Dev nD) (t : Fin cfg8.N) (p : Fin 5000) (q : Fin 128) (r : Fin 100000) (hr : r.val = 5000 * t.val + p.val) :
    (iblk8 V c 0 t : Vec Ideal S5000x128 .f32) (ix2 p q) = (V c (Pipeline.arrRef spec8 0) : S100000x128.Idx → EReal) (ix2 r q) := by
  obtain ⟨e0, e1, -⟩ := idx_facts t
  unfold iblk8
  rw [View.read_apply]
  show (V c (Pipeline.arrRef spec8 0) : S100000x128.Idx → EReal) _ = _
  refine congrArg _ ?_
  funext a; apply Fin.ext
  match a with
  | ⟨0, _⟩ => show win8_0.index t (0 : Fin 2) * 5000 + 1 * p.val = r.val; rw [e0, hr]; omega
  | ⟨1, _⟩ => show win8_0.index t (1 : Fin 2) * 128 + 1 * q.val = q.val; rw [e1]; omega

/-- The single block of a row-vector window, at its one row and column q, is the array at that row and column. -/
theorem iblk_row1 (c : Dev nD) (t : Fin cfg8.N) (q : Fin 128) :
    (iblk8 V c 1 t : Vec Ideal S1x128 .f32) (ix2 0 q) = (V c (Pipeline.arrRef spec8 1) : S1x128.Idx → EReal) (ix2 0 q) := by
  obtain ⟨-, -, e0, e1, -⟩ := idx_facts t
  unfold iblk8
  rw [View.read_apply]
  show (V c (Pipeline.arrRef spec8 1) : S1x128.Idx → EReal) _ = _
  refine congrArg _ ?_
  funext a; apply Fin.ext
  match a with
  | ⟨0, _⟩ => show win8_1.index t (0 : Fin 2) * 1 + 1 * 0 = 0; rw [e0]
  | ⟨1, _⟩ => show win8_1.index t (1 : Fin 2) * 128 + 1 * q.val = q.val; rw [e1]; omega

theorem iblk_row2 (c : Dev nD) (t : Fin cfg8.N) (q : Fin 128) :
    (iblk8 V c 2 t : Vec Ideal S1x128 .f32) (ix2 0 q) = (V c (Pipeline.arrRef spec8 2) : S1x128.Idx → EReal) (ix2 0 q) := by
  obtain ⟨-, -, -, -, e0, e1, -⟩ := idx_facts t
  unfold iblk8
  rw [View.read_apply]
  show (V c (Pipeline.arrRef spec8 2) : S1x128.Idx → EReal) _ = _
  refine congrArg _ ?_
  funext a; apply Fin.ext
  match a with
  | ⟨0, _⟩ => show win8_2.index t (0 : Fin 2) * 1 + 1 * 0 = 0; rw [e0]
  | ⟨1, _⟩ => show win8_2.index t (1 : Fin 2) * 128 + 1 * q.val = q.val; rw [e1]; omega

theorem iblk_row3 (c : Dev nD) (t : Fin cfg8.N) (q : Fin 128) :
    (iblk8 V c 3 t : Vec Ideal S1x128 .f32) (ix2 0 q) = (V c (Pipeline.arrRef spec8 3) : S1x128.Idx → EReal) (ix2 0 q) := by
  obtain ⟨-, -, -, -, -, -, e0, e1, -⟩ := idx_facts t
  unfold iblk8
  rw [View.read_apply]
  show (V c (Pipeline.arrRef spec8 3) : S1x128.Idx → EReal) _ = _
  refine congrArg _ ?_
  funext a; apply Fin.ext
  match a with
  | ⟨0, _⟩ => show win8_3.index t (0 : Fin 2) * 1 + 1 * 0 = 0; rw [e0]
  | ⟨1, _⟩ => show win8_3.index t (1 : Fin 2) * 128 + 1 * q.val = q.val; rw [e1]; omega

theorem iblk_row4 (c : Dev nD) (t : Fin cfg8.N) (q : Fin 128) :
    (iblk8 V c 4 t : Vec Ideal S1x128 .f32) (ix2 0 q) = (V c (Pipeline.arrRef spec8 4) : S1x128.Idx → EReal) (ix2 0 q) := by
  obtain ⟨-, -, -, -, -, -, -, -, e0, e1, -⟩ := idx_facts t
  unfold iblk8
  rw [View.read_apply]
  show (V c (Pipeline.arrRef spec8 4) : S1x128.Idx → EReal) _ = _
  refine congrArg _ ?_
  funext a; apply Fin.ext
  match a with
  | ⟨0, _⟩ => show win8_4.index t (0 : Fin 2) * 1 + 1 * 0 = 0; rw [e0]
  | ⟨1, _⟩ => show win8_4.index t (1 : Fin 2) * 128 + 1 * q.val = q.val; rw [e1]; omega

/-- The whole-array function the output ends holding: the entrywise formula of the five arrays as the region finds them. -/
abbrev result (c : Dev nD) : S100000x128.Idx → EReal :=
  bnReluArr (V c (Pipeline.arrRef spec8 0)) (V c (Pipeline.arrRef spec8 1)) (V c (Pipeline.arrRef spec8 2))
    (V c (Pipeline.arrRef spec8 3)) (V c (Pipeline.arrRef spec8 4))

/-- What point t writes back is block t of that function: rows 5000 t .. 5000 t + 4999, every column. -/
theorem flushed_eq (c : Dev nD) (t : Fin cfg8.N) :
    (dat8 V c).flushed 5 t = ((cfg8.win 5).blk t).view.read (Elt Ideal) (result V c) := by
  show (cfg8.win 5).cut (grid8.coords t) ((dat8 V c).after 5 t) = _
  rw [after8_5]
  unfold out8_5
  rw [View.canon_unit_zero hz]
  simp only [View.ld_unit_zero (S := S5000x128) hz, View.ld_unit_zero (S := S1x128) hz]
  obtain ⟨-, -, -, -, -, -, -, -, -, -, e0, e1⟩ := idx_facts t
  have ht := point_lt t
  funext y
  obtain ⟨p, q, rfl⟩ : ∃ (p : Fin 5000) (q : Fin 128), y = ix2 p q := ⟨y 0, y 1, eq_ix2 y⟩
  have hr : 5000 * t.val + p.val < 100000 := by have := p.isLt; omega
  rw [View.read_apply]
  show k8_pay1 (iblk8 V c 0 t) (iblk8 V c 2 t) (iblk8 V c 1 t) (iblk8 V c 3 t) (iblk8 V c 4 t) (ix2 p q)
    = result V c (((cfg8.win 5).blk t).view.emb (ix2 p q))
  rw [pay_apply, iblk_big V c t p q ⟨5000 * t.val + p.val, hr⟩ rfl, iblk_row1, iblk_row2, iblk_row3, iblk_row4]
  refine (bnReluArr_at _ _ _ _ _ _ ⟨5000 * t.val + p.val, hr⟩ q ?_ ?_).symm
  · show win8_5.index t (0 : Fin 2) * 5000 + 1 * p.val = 5000 * t.val + p.val; rw [e0]; omega
  · show win8_5.index t (1 : Fin 2) * 128 + 1 * q.val = q.val; rw [e1]; omega

/-- Every index of the output array lies in the block of the point its row divided by 5000 names. -/
theorem covered (i : S100000x128.Idx) :
    ∃ t : Fin cfg8.N, (cfg8.win 5).flush t = true ∧ i ∈ ((cfg8.win 5).blk t).view.set := by
  have h0 : (i 0).val < 100000 := idx2_lt0 i
  have h1 : (i 1).val < 128 := idx2_lt1 i
  have hN : (i 0).val / 5000 < cfg8.N := lt_of_lt_of_eq (by omega : (i 0).val / 5000 < 20) N_8.symm
  obtain ⟨-, -, -, -, -, -, -, -, -, -, e0, e1⟩ := idx_facts ⟨(i 0).val / 5000, hN⟩
  refine ⟨⟨(i 0).val / 5000, hN⟩, flush8_5 _, ?_⟩
  show i ∈ ((View.whole main_v144).slice (win8_5.rect ⟨(i 0).val / 5000, hN⟩)).set
  rw [View.set_slice_whole, Rect.mem_set_unit]
  intro a
  match a with
  | ⟨0, _⟩ =>
    show win8_5.index ⟨(i 0).val / 5000, hN⟩ (0 : Fin 2) * 5000 ≤ (i 0).val
      ∧ (i 0).val < win8_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win8_5.index ⟨(i 0).val / 5000, hN⟩ (1 : Fin 2) * 128 ≤ (i 1).val
      ∧ (i 1).val < win8_5.index ⟨(i 0).val / 5000, hN⟩ (1 : Fin 2) * 128 + 128
    rw [e1]; omega

/-- After the region the output array holds the entrywise formula of the five input arrays: every point writes back
    its block of one whole-array function, and the twenty blocks cover the array. -/
theorem final_arr (c : Dev nD) : (dat8 V c).arrAt 5 cfg8.N = result V c :=
  (dat8 V c).arrAt_eq_of_cover 5 (result V c) (fun t _ => flushed_eq V c t) (fun i => covered i)

/-- The same, index by index, in terms of the coordinate form of the formula. -/
theorem final (c : Dev nD) (r : Fin 100000) (j : Fin 128) :
    ((dat8 V c).arrAt 5 cfg8.N : S100000x128.Idx → EReal) (ix2 r j)
      = bnRelu (V c (Pipeline.arrRef spec8 0)) (V c (Pipeline.arrRef spec8 1)) (V c (Pipeline.arrRef spec8 2))
          (V c (Pipeline.arrRef spec8 3)) (V c (Pipeline.arrRef spec8 4)) r j := by
  rw [final_arr V c]
  exact bnReluArr_at _ _ _ _ _ (ix2 r j) r j rfl rfl

/-- The same with the five input arrays named: whatever functions the region finds in its five input arrays, the
    output entry (r, j) is the formula of their entries. -/
theorem final_of (c : Dev nD) (A0 : S100000x128.Idx → EReal) (A1 A2 A3 A4 : S1x128.Idx → EReal)
    (h0 : (V c (Pipeline.arrRef spec8 0) : S100000x128.Idx → EReal) = A0)
    (h1 : (V c (Pipeline.arrRef spec8 1) : S1x128.Idx → EReal) = A1)
    (h2 : (V c (Pipeline.arrRef spec8 2) : S1x128.Idx → EReal) = A2)
    (h3 : (V c (Pipeline.arrRef spec8 3) : S1x128.Idx → EReal) = A3)
    (h4 : (V c (Pipeline.arrRef spec8 4) : S1x128.Idx → EReal) = A4)
    (r : Fin 100000) (j : Fin 128) :
    ((dat8 V c).arrAt 5 cfg8.N : S100000x128.Idx → EReal) (ix2 r j)
      = max ((((A0 (ix2 r j) - A1 (ix2 0 j)) * Ideal.rsqrt (A2 (ix2 0 j) + Ideal.ofBits .f32 0x3727C5AC#32)) * A3 (ix2 0 j)) + A4 (ix2 0 j))
          (Ideal.ofBits .f32 0x00000000#32) := by
  subst h0 h1 h2 h3 h4
  exact final V c r j

/-- The same as an equation between functions of the two coordinates: the output, read by row and column, is the
    normalisation of the big input by the four row vectors read by column. -/
theorem contract (c : Dev nD) :
    Cert.Lib.cur2 (a := 100000) (b := 128) ((dat8 V c).arrAt 5 cfg8.N)
      = Cert.Gin.norm (Cert.Lib.cur2 (a := 100000) (b := 128) (V c (Pipeline.arrRef spec8 0)))
          (Cert.Lib.row (a := 128) (V c (Pipeline.arrRef spec8 1))) (Cert.Lib.row (a := 128) (V c (Pipeline.arrRef spec8 2)))
          (Cert.Lib.row (a := 128) (V c (Pipeline.arrRef spec8 3))) (Cert.Lib.row (a := 128) (V c (Pipeline.arrRef spec8 4))) := by
  funext r j
  exact final V c r j

end Cert.KernelIdeal.BnRelu8

end
-- ==== Proof.KLayer2.lean ====
/-
  Layer 2 of the idealized kernel program, read off the run's fold.

  The buffer contents at the seven boundaries of the layer (before its first stretch of host operations, after each
  stretch, after each of its three regions) are the run's. A region leaves in its output arrays what its value
  theorem says and every other buffer as entered; so the layer's output array is the layer function of the contents
  at the layer's entry, and the argument arrays and the arrays later layers read come out as they went in.
-/
import proofs.«120577_j28003186770423_1_alg».proof.Proof.Gen.KernelIdeal.Frame
import proofs.«120577_j28003186770423_1_alg».proof.Proof.KCore2
import proofs.«120577_j28003186770423_1_alg».proof.Proof.RegionFirstLinear6
import proofs.«120577_j28003186770423_1_alg».proof.Proof.RegionBnReluLinear7
import proofs.«120577_j28003186770423_1_alg».proof.Proof.RegionBnRelu8

set_option maxRecDepth 16384

noncomputable section

namespace Cert.KernelIdeal.KLayer2

open Idealize.ShloMosaic Idealize.ShloMosaic.TcCoe Idealize.ShloMosaic.ValueIdx Idealize.ShloMosaic.StableHlo Idealize.SL.Sem
open Cert.KernelIdeal Cert.KernelIdeal.Gen Cert.KernelIdeal.K Cert.Lib Cert.Gin

variable (m : (ℓ : Loc nD τ sig) → Buf (Elt Ideal) ℓ) (ρ : Dev nD → PrngReg) (c : Dev nD)

set_option maxHeartbeats 4000000 in
/-- The layer's output array as the layer function of the contents at the layer's entry. -/
theorem out_eq :
    cur2 (a := 100000) (b := 128) (W18 m ρ c (Proc.devRef .tc main_v144))
      = layerK (fun r k => cur2 (a := 100000) (b := 128) (W12 m ρ c (Proc.devRef .tc main_v97)) r k + cur2 (aggOf (W12 m ρ c (Proc.devRef .tc main_v97)) (W12 m ρ c (Proc.devRef .tc main_v1)) (W12 m ρ c (Proc.devRef .tc main_v3))) r k)
          (cur2 (mat 2 (W12 m ρ c (Proc.devRef .tc main_arg3)) slices_S4x128x128_S1x128x128_2_0_0)) (cur1 (vec 2 (W12 m ρ c (Proc.devRef .tc main_arg4)) slices_S4x128_S1x128_2_0)) (cur1 (vec 2 (W12 m ρ c (Proc.devRef .tc main_arg5)) slices_S4x128_S1x128_2_0)) (cur1 (vec 2 (W12 m ρ c (Proc.devRef .tc main_arg6)) slices_S4x128_S1x128_2_0))
          (cur2 (mat 2 (W12 m ρ c (Proc.devRef .tc main_arg7)) slices_S4x128x128_S1x128x128_2_0_0)) (cur1 (vec 2 (W12 m ρ c (Proc.devRef .tc main_arg8)) slices_S4x128_S1x128_2_0)) (cur1 (vec 2 (W12 m ρ c (Proc.devRef .tc main_arg9)) slices_S4x128_S1x128_2_0)) (cur1 (vec 2 (W12 m ρ c (Proc.devRef .tc main_arg10)) slices_S4x128_S1x128_2_0)) := by
  -- the first region's three output arrays
  have e4 : W14 m ρ c (Proc.devRef .tc main_v113_0) = (dat6 (V13 (F := Ideal) m ρ) c).arrAt 4 cfg6.N := W14_arr m ρ c 4
  have e5 : W14 m ρ c (Proc.devRef .tc main_v113_1) = (dat6 (V13 (F := Ideal) m ρ) c).arrAt 5 cfg6.N := W14_arr m ρ c 5
  have e6 : W14 m ρ c (Proc.devRef .tc main_v113_2) = (dat6 (V13 (F := Ideal) m ρ) c).arrAt 6 cfg6.N := W14_arr m ρ c 6
  obtain ⟨a1, a2, a3⟩ := FirstLinear6.contract (V13 (F := Ideal) m ρ) c
  rw [← e4] at a1 a2 a3
  rw [← e5] at a2
  rw [← e6] at a3
  -- the second region's
  have f7 : W16 m ρ c (Proc.devRef .tc main_v131_0) = (dat7 (V15 (F := Ideal) m ρ) c).arrAt 7 cfg7.N := W16_arr m ρ c 7
  have f8 : W16 m ρ c (Proc.devRef .tc main_v131_1) = (dat7 (V15 (F := Ideal) m ρ) c).arrAt 8 cfg7.N := W16_arr m ρ c 8
  have f9 : W16 m ρ c (Proc.devRef .tc main_v131_2) = (dat7 (V15 (F := Ideal) m ρ) c).arrAt 9 cfg7.N := W16_arr m ρ c 9
  obtain ⟨b1, b2, b3⟩ := BnReluLinear7.contract (V15 (F := Ideal) m ρ) c
  rw [← f7] at b1 b2 b3
  rw [← f8] at b2
  rw [← f9] at b3
  -- the third region's
  have g5 : W18 m ρ c (Proc.devRef .tc main_v144) = (dat8 (V17 (F := Ideal) m ρ) c).arrAt 5 cfg8.N := W18_arr m ρ c 5
  have c1 := BnRelu8.contract (V17 (F := Ideal) m ρ) c
  rw [← g5] at c1
  exact KCore2.out_eq (W12 m ρ c) (W14 m ρ c) (W16 m ρ c) (W18 m ρ c) a1 a2 a3
    (W14_of_ne m ρ c main_arg5 (by decide))
    (W14_of_ne m ρ c main_arg6 (by decide))
    (W14_of_ne m ρ c main_arg7 (by decide))
    (W14_of_ne m ρ c main_arg8 (by decide))
    (W14_of_ne m ρ c main_arg9 (by decide))
    (W14_of_ne m ρ c main_arg10 (by decide))
    b1 b2 b3
    (W16_of_ne m ρ c main_arg9 (by decide))
    (W16_of_ne m ρ c main_arg10 (by decide))
    c1

/-! ## What the layer leaves alone -/

theorem keep_arg0 : W18 m ρ c (Proc.devRef .tc main_arg0) = W12 m ρ c (Proc.devRef .tc main_arg0) :=
  (W18_of_ne m ρ c main_arg0 (by decide)).trans ((KHost2.C_keep_arg0 (W16 m ρ c)).trans ((W16_of_ne m ρ c main_arg0 (by decide)).trans
    ((KHost2.B_keep_arg0 (W14 m ρ c)).trans ((W14_of_ne m ρ c main_arg0 (by decide)).trans (KHost2.A_keep_arg0 (W12 m ρ c))))))
theorem keep_arg1 : W18 m ρ c (Proc.devRef .tc main_arg1) = W12 m ρ c (Proc.devRef .tc main_arg1) :=
  (W18_of_ne m ρ c main_arg1 (by decide)).trans ((KHost2.C_keep_arg1 (W16 m ρ c)).trans ((W16_of_ne m ρ c main_arg1 (by decide)).trans
    ((KHost2.B_keep_arg1 (W14 m ρ c)).trans ((W14_of_ne m ρ c main_arg1 (by decide)).trans (KHost2.A_keep_arg1 (W12 m ρ c))))))
theorem keep_arg2 : W18 m ρ c (Proc.devRef .tc main_arg2) = W12 m ρ c (Proc.devRef .tc main_arg2) :=
  (W18_of_ne m ρ c main_arg2 (by decide)).trans ((KHost2.C_keep_arg2 (W16 m ρ c)).trans ((W16_of_ne m ρ c main_arg2 (by decide)).trans
    ((KHost2.B_keep_arg2 (W14 m ρ c)).trans ((W14_of_ne m ρ c main_arg2 (by decide)).trans (KHost2.A_keep_arg2 (W12 m ρ c))))))
theorem keep_arg3 : W18 m ρ c (Proc.devRef .tc main_arg3) = W12 m ρ c (Proc.devRef .tc main_arg3) :=
  (W18_of_ne m ρ c main_arg3 (by decide)).trans ((KHost2.C_keep_arg3 (W16 m ρ c)).trans ((W16_of_ne m ρ c main_arg3 (by decide)).trans
    ((KHost2.B_keep_arg3 (W14 m ρ c)).trans ((W14_of_ne m ρ c main_arg3 (by decide)).trans (KHost2.A_keep_arg3 (W12 m ρ c))))))
theorem keep_arg4 : W18 m ρ c (Proc.devRef .tc main_arg4) = W12 m ρ c (Proc.devRef .tc main_arg4) :=
  (W18_of_ne m ρ c main_arg4 (by decide)).trans ((KHost2.C_keep_arg4 (W16 m ρ c)).trans ((W16_of_ne m ρ c main_arg4 (by decide)).trans
    ((KHost2.B_keep_arg4 (W14 m ρ c)).trans ((W14_of_ne m ρ c main_arg4 (by decide)).trans (KHost2.A_keep_arg4 (W12 m ρ c))))))
theorem keep_arg5 : W18 m ρ c (Proc.devRef .tc main_arg5) = W12 m ρ c (Proc.devRef .tc main_arg5) :=
  (W18_of_ne m ρ c main_arg5 (by decide)).trans ((KHost2.C_keep_arg5 (W16 m ρ c)).trans ((W16_of_ne m ρ c main_arg5 (by decide)).trans
    ((KHost2.B_keep_arg5 (W14 m ρ c)).trans ((W14_of_ne m ρ c main_arg5 (by decide)).trans (KHost2.A_keep_arg5 (W12 m ρ c))))))
theorem keep_arg6 : W18 m ρ c (Proc.devRef .tc main_arg6) = W12 m ρ c (Proc.devRef .tc main_arg6) :=
  (W18_of_ne m ρ c main_arg6 (by decide)).trans ((KHost2.C_keep_arg6 (W16 m ρ c)).trans ((W16_of_ne m ρ c main_arg6 (by decide)).trans
    ((KHost2.B_keep_arg6 (W14 m ρ c)).trans ((W14_of_ne m ρ c main_arg6 (by decide)).trans (KHost2.A_keep_arg6 (W12 m ρ c))))))
theorem keep_arg7 : W18 m ρ c (Proc.devRef .tc main_arg7) = W12 m ρ c (Proc.devRef .tc main_arg7) :=
  (W18_of_ne m ρ c main_arg7 (by decide)).trans ((KHost2.C_keep_arg7 (W16 m ρ c)).trans ((W16_of_ne m ρ c main_arg7 (by decide)).trans
    ((KHost2.B_keep_arg7 (W14 m ρ c)).trans ((W14_of_ne m ρ c main_arg7 (by decide)).trans (KHost2.A_keep_arg7 (W12 m ρ c))))))
theorem keep_arg8 : W18 m ρ c (Proc.devRef .tc main_arg8) = W12 m ρ c (Proc.devRef .tc main_arg8) :=
  (W18_of_ne m ρ c main_arg8 (by decide)).trans ((KHost2.C_keep_arg8 (W16 m ρ c)).trans ((W16_of_ne m ρ c main_arg8 (by decide)).trans
    ((KHost2.B_keep_arg8 (W14 m ρ c)).trans ((W14_of_ne m ρ c main_arg8 (by decide)).trans (KHost2.A_keep_arg8 (W12 m ρ c))))))
theorem keep_arg9 : W18 m ρ c (Proc.devRef .tc main_arg9) = W12 m ρ c (Proc.devRef .tc main_arg9) :=
  (W18_of_ne m ρ c main_arg9 (by decide)).trans ((KHost2.C_keep_arg9 (W16 m ρ c)).trans ((W16_of_ne m ρ c main_arg9 (by decide)).trans
    ((KHost2.B_keep_arg9 (W14 m ρ c)).trans ((W14_of_ne m ρ c main_arg9 (by decide)).trans (KHost2.A_keep_arg9 (W12 m ρ c))))))
theorem keep_arg10 : W18 m ρ c (Proc.devRef .tc main_arg10) = W12 m ρ c (Proc.devRef .tc main_arg10) :=
  (W18_of_ne m ρ c main_arg10 (by decide)).trans ((KHost2.C_keep_arg10 (W16 m ρ c)).trans ((W16_of_ne m ρ c main_arg10 (by decide)).trans
    ((KHost2.B_keep_arg10 (W14 m ρ c)).trans ((W14_of_ne m ρ c main_arg10 (by decide)).trans (KHost2.A_keep_arg10 (W12 m ρ c))))))
theorem keep_arg11 : W18 m ρ c (Proc.devRef .tc main_arg11) = W12 m ρ c (Proc.devRef .tc main_arg11) :=
  (W18_of_ne m ρ c main_arg11 (by decide)).trans ((KHost2.C_keep_arg11 (W16 m ρ c)).trans ((W16_of_ne m ρ c main_arg11 (by decide)).trans
    ((KHost2.B_keep_arg11 (W14 m ρ c)).trans ((W14_of_ne m ρ c main_arg11 (by decide)).trans (KHost2.A_keep_arg11 (W12 m ρ c))))))
theorem keep_arg12 : W18 m ρ c (Proc.devRef .tc main_arg12) = W12 m ρ c (Proc.devRef .tc main_arg12) :=
  (W18_of_ne m ρ c main_arg12 (by decide)).trans ((KHost2.C_keep_arg12 (W16 m ρ c)).trans ((W16_of_ne m ρ c main_arg12 (by decide)).trans
    ((KHost2.B_keep_arg12 (W14 m ρ c)).trans ((W14_of_ne m ρ c main_arg12 (by decide)).trans (KHost2.A_keep_arg12 (W12 m ρ c))))))
theorem keep_v1 : W18 m ρ c (Proc.devRef .tc main_v1) = W12 m ρ c (Proc.devRef .tc main_v1) :=
  (W18_of_ne m ρ c main_v1 (by decide)).trans ((KHost2.C_keep_v1 (W16 m ρ c)).trans ((W16_of_ne m ρ c main_v1 (by decide)).trans
    ((KHost2.B_keep_v1 (W14 m ρ c)).trans ((W14_of_ne m ρ c main_v1 (by decide)).trans (KHost2.A_keep_v1 (W12 m ρ c))))))
theorem keep_v3 : W18 m ρ c (Proc.devRef .tc main_v3) = W12 m ρ c (Proc.devRef .tc main_v3) :=
  (W18_of_ne m ρ c main_v3 (by decide)).trans ((KHost2.C_keep_v3 (W16 m ρ c)).trans ((W16_of_ne m ρ c main_v3 (by decide)).trans
    ((KHost2.B_keep_v3 (W14 m ρ c)).trans ((W14_of_ne m ρ c main_v3 (by decide)).trans (KHost2.A_keep_v3 (W12 m ρ c))))))
theorem keep_v50 : W18 m ρ c (Proc.devRef .tc main_v50) = W12 m ρ c (Proc.devRef .tc main_v50) :=
  (W18_of_ne m ρ c main_v50 (by decide)).trans ((KHost2.C_keep_v50 (W16 m ρ c)).trans ((W16_of_ne m ρ c main_v50 (by decide)).trans
    ((KHost2.B_keep_v50 (W14 m ρ c)).trans ((W14_of_ne m ρ c main_v50 (by decide)).trans (KHost2.A_keep_v50 (W12 m ρ c))))))
theorem keep_v97 : W18 m ρ c (Proc.devRef .tc main_v97) = W12 m ρ c (Proc.devRef .tc main_v97) :=
  (W18_of_ne m ρ c main_v97 (by decide)).trans ((KHost2.C_keep_v97 (W16 m ρ c)).trans ((W16_of_ne m ρ c main_v97 (by decide)).trans
    ((KHost2.B_keep_v97 (W14 m ρ c)).trans (((W14_arr m ρ c 0).trans (((dat6 (V13 (F := Ideal) m ρ) c).arrAt_in 0 rfl _).trans (A_eq6 (V13 (F := Ideal) m ρ) c 0))).trans (KHost2.A_keep_v97 (W12 m ρ c))))))

end Cert.KernelIdeal.KLayer2

end
-- ==== Proof.KHost3.lean ====
/-
  Layer 3's host-side quantities, read from the three stretches of host operations around its regions, for any
  contents `X` of the buffers when a stretch is entered: the neighbourhood sums, the layer's slices of the weight and
  parameter stacks (a vector of length 128 laid out as one row), and the column means and variances formed from the
  accumulated column sums. A stretch leaves every buffer it does not write as it found it.
-/
import proofs.«120577_j28003186770423_1_alg».proof.Proof.Gen.KernelIdeal.Launch
import proofs.«120577_j28003186770423_1_alg».proof.Proof.KDefs
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KHost3

open Idealize.ShloMosaic Idealize.ShloMosaic.ValueIdx Idealize.ShloMosaic.StableHlo Cert.KernelIdeal Cert.KernelIdeal.Gen Cert.KernelIdeal.K Cert.Lib

/-- A stretch of host operations leaves a buffer none of them writes as it was. -/
local macro "keep_host " h:ident : tactic => `(tactic| (
  refine StableHlo.after_of_forall_not_mem _ _ (List.forall_iff_forall_mem.mp ?_)
  simp only [$h:ident, List.Forall, StableHlo.nullary_writes, StableHlo.unary_writes, StableHlo.binary_writes, StableHlo.ternary_writes,
    StableHlo.quaternary_writes, StableHlo.reshape_writes, Finset.mem_singleton]
  repeat' apply And.intro
  all_goals exact StableHlo.devRef_ne_of_ne (by decide)))

variable (X : Valuation τ sig (Elt Ideal))

/-! ## Before the first region -/

set_option maxHeartbeats 1000000 in
/-- The neighbourhood sums of the layer's input. -/
theorem A_agg : (after (hostOps9 (F := Ideal)) X (Proc.devRef .tc main_v154) : FVec Ideal S100000x128 .f32)
    = aggOf (X (Proc.devRef .tc main_v144)) (X (Proc.devRef .tc main_v1)) (X (Proc.devRef .tc main_v3)) := by
  after_results_simp <;> rfl

/-- The first linear map's weights. -/
theorem A_w1 : (after (hostOps9 (F := Ideal)) X (Proc.devRef .tc main_v156) : FVec Ideal S128x128 .f32) = mat 3 (X (Proc.devRef .tc main_arg3)) slices_S4x128x128_S1x128x128_3_0_0 := by
  after_results_simp <;> rfl

/-- The first linear map's bias, as one row. -/
theorem A_b1 : row (a := 128) (after (hostOps9 (F := Ideal)) X (Proc.devRef .tc main_v159)) = cur1 (vec 3 (X (Proc.devRef .tc main_arg4)) slices_S4x128_S1x128_3_0) := by
  have e : (after (hostOps9 (F := Ideal)) X (Proc.devRef .tc main_v159) : FVec Ideal S1x128 .f32)
      = shapeCast S1x128 (vec 3 (X (Proc.devRef .tc main_arg4)) slices_S4x128_S1x128_3_0) shapeCasts_S128_S1x128 := by
    after_results_simp <;> rfl
  funext j
  unfold row cur1
  rw [e]
  exact shapeCast_a_1a_apply _ _ _ _

theorem A_keep_v144 : after (hostOps9 (F := Ideal)) X (Proc.devRef .tc main_v144) = X (Proc.devRef .tc main_v144) := by keep_host hostOps9
theorem A_keep_arg0 : after (hostOps9 (F := Ideal)) X (Proc.devRef .tc main_arg0) = X (Proc.devRef .tc main_arg0) := by keep_host hostOps9
theorem A_keep_arg1 : after (hostOps9 (F := Ideal)) X (Proc.devRef .tc main_arg1) = X (Proc.devRef .tc main_arg1) := by keep_host hostOps9
theorem A_keep_arg2 : after (hostOps9 (F := Ideal)) X (Proc.devRef .tc main_arg2) = X (Proc.devRef .tc main_arg2) := by keep_host hostOps9
theorem A_keep_arg3 : after (hostOps9 (F := Ideal)) X (Proc.devRef .tc main_arg3) = X (Proc.devRef .tc main_arg3) := by keep_host hostOps9
theorem A_keep_arg4 : after (hostOps9 (F := Ideal)) X (Proc.devRef .tc main_arg4) = X (Proc.devRef .tc main_arg4) := by keep_host hostOps9
theorem A_keep_arg5 : after (hostOps9 (F := Ideal)) X (Proc.devRef .tc main_arg5) = X (Proc.devRef .tc main_arg5) := by keep_host hostOps9
theorem A_keep_arg6 : after (hostOps9 (F := Ideal)) X (Proc.devRef .tc main_arg6) = X (Proc.devRef .tc main_arg6) := by keep_host hostOps9
theorem A_keep_arg7 : after (hostOps9 (F := Ideal)) X (Proc.devRef .tc main_arg7) = X (Proc.devRef .tc main_arg7) := by keep_host hostOps9
theorem A_keep_arg8 : after (hostOps9 (F := Ideal)) X (Proc.devRef .tc main_arg8) = X (Proc.devRef .tc main_arg8) := by keep_host hostOps9
theorem A_keep_arg9 : after (hostOps9 (F := Ideal)) X (Proc.devRef .tc main_arg9) = X (Proc.devRef .tc main_arg9) := by keep_host hostOps9
theorem A_keep_arg10 : after (hostOps9 (F := Ideal)) X (Proc.devRef .tc main_arg10) = X (Proc.devRef .tc main_arg10) := by keep_host hostOps9
theorem A_keep_arg11 : after (hostOps9 (F := Ideal)) X (Proc.devRef .tc main_arg11) = X (Proc.devRef .tc main_arg11) := by keep_host hostOps9
theorem A_keep_arg12 : after (hostOps9 (F := Ideal)) X (Proc.devRef .tc main_arg12) = X (Proc.devRef .tc main_arg12) := by keep_host hostOps9
theorem A_keep_v1 : after (hostOps9 (F := Ideal)) X (Proc.devRef .tc main_v1) = X (Proc.devRef .tc main_v1) := by keep_host hostOps9
theorem A_keep_v3 : after (hostOps9 (F := Ideal)) X (Proc.devRef .tc main_v3) = X (Proc.devRef .tc main_v3) := by keep_host hostOps9
theorem A_keep_v50 : after (hostOps9 (F := Ideal)) X (Proc.devRef .tc main_v50) = X (Proc.devRef .tc main_v50) := by keep_host hostOps9
theorem A_keep_v97 : after (hostOps9 (F := Ideal)) X (Proc.devRef .tc main_v97) = X (Proc.devRef .tc main_v97) := by keep_host hostOps9

/-! ## Between the first and the second region -/

/-- The first column means: the accumulated column sums divided by the number of rows. -/
theorem B_mean : row (a := 128) (after (hostOps10 (F := Ideal)) X (Proc.devRef .tc main_v162)) = fun j => Ideal.div (row (a := 128) (X (Proc.devRef .tc main_v160_1)) j) (Ideal.ofBits .f32 0x47C35000#32) := by
  have e : (after (hostOps10 (F := Ideal)) X (Proc.devRef .tc main_v162) : FVec Ideal S1x128 .f32) = Host.divf (F := Ideal) (X (Proc.devRef .tc main_v160_1)) (broadcastInDim S1x128 ![] bcast_S_S1x128 (constant (F := Ideal) S_ .f32 0x47C35000#32)) := by
    after_results_simp <;> rfl
  funext j
  unfold row
  rw [e]
  rfl

/-- The first column variances: the accumulated sums of squares divided by the number of rows, less the squared means. -/
theorem B_var : row (a := 128) (after (hostOps10 (F := Ideal)) X (Proc.devRef .tc main_v166)) = fun j => Ideal.div (row (a := 128) (X (Proc.devRef .tc main_v160_2)) j) (Ideal.ofBits .f32 0x47C35000#32) - Ideal.div (row (a := 128) (X (Proc.devRef .tc main_v160_1)) j) (Ideal.ofBits .f32 0x47C35000#32) * Ideal.div (row (a := 128) (X (Proc.devRef .tc main_v160_1)) j) (Ideal.ofBits .f32 0x47C35000#32) := by
  have e : (after (hostOps10 (F := Ideal)) X (Proc.devRef .tc main_v166) : FVec Ideal S1x128 .f32)
      = subf (Host.divf (F := Ideal) (X (Proc.devRef .tc main_v160_2)) (broadcastInDim S1x128 ![] bcast_S_S1x128 (constant (F := Ideal) S_ .f32 0x47C35000#32))) (mulf (Host.divf (F := Ideal) (X (Proc.devRef .tc main_v160_1)) (broadcastInDim S1x128 ![] bcast_S_S1x128 (constant (F := Ideal) S_ .f32 0x47C35000#32))) (Host.divf (F := Ideal) (X (Proc.devRef .tc main_v160_1)) (broadcastInDim S1x128 ![] bcast_S_S1x128 (constant (F := Ideal) S_ .f32 0x47C35000#32)))) := by
    after_results_simp <;> rfl
  funext j
  unfold row
  rw [e]
  rfl

/-- The first normalization's scale, as one row. -/
theorem B_g1 : row (a := 128) (after (hostOps10 (F := Ideal)) X (Proc.devRef .tc main_v175)) = cur1 (vec 3 (X (Proc.devRef .tc main_arg5)) slices_S4x128_S1x128_3_0) := by
  have e : (after (hostOps10 (F := Ideal)) X (Proc.devRef .tc main_v175) : FVec Ideal S1x128 .f32)
      = shapeCast S1x128 (vec 3 (X (Proc.devRef .tc main_arg5)) slices_S4x128_S1x128_3_0) shapeCasts_S128_S1x128 := by
    after_results_simp <;> rfl
  funext j
  unfold row cur1
  rw [e]
  exact shapeCast_a_1a_apply _ _ _ _

/-- The first normalization's shift, as one row. -/
theorem B_c1 : row (a := 128) (after (hostOps10 (F := Ideal)) X (Proc.devRef .tc main_v176)) = cur1 (vec 3 (X (Proc.devRef .tc main_arg6)) slices_S4x128_S1x128_3_0) := by
  have e : (after (hostOps10 (F := Ideal)) X (Proc.devRef .tc main_v176) : FVec Ideal S1x128 .f32)
      = shapeCast S1x128 (vec 3 (X (Proc.devRef .tc main_arg6)) slices_S4x128_S1x128_3_0) shapeCasts_S128_S1x128 := by
    after_results_simp <;> rfl
  funext j
  unfold row cur1
  rw [e]
  exact shapeCast_a_1a_apply _ _ _ _

/-- The second linear map's weights. -/
theorem B_w2 : (after (hostOps10 (F := Ideal)) X (Proc.devRef .tc main_v172) : FVec Ideal S128x128 .f32) = mat 3 (X (Proc.devRef .tc main_arg7)) slices_S4x128x128_S1x128x128_3_0_0 := by
  after_results_simp <;> rfl

/-- The second linear map's bias, as one row. -/
theorem B_b2 : row (a := 128) (after (hostOps10 (F := Ideal)) X (Proc.devRef .tc main_v177)) = cur1 (vec 3 (X (Proc.devRef .tc main_arg8)) slices_S4x128_S1x128_3_0) := by
  have e : (after (hostOps10 (F := Ideal)) X (Proc.devRef .tc main_v177) : FVec Ideal S1x128 .f32)
      = shapeCast S1x128 (vec 3 (X (Proc.devRef .tc main_arg8)) slices_S4x128_S1x128_3_0) shapeCasts_S128_S1x128 := by
    after_results_simp <;> rfl
  funext j
  unfold row cur1
  rw [e]
  exact shapeCast_a_1a_apply _ _ _ _

theorem B_keep_v160_0 : after (hostOps10 (F := Ideal)) X (Proc.devRef .tc main_v160_0) = X (Proc.devRef .tc main_v160_0) := by keep_host hostOps10
theorem B_keep_arg0 : after (hostOps10 (F := Ideal)) X (Proc.devRef .tc main_arg0) = X (Proc.devRef .tc main_arg0) := by keep_host hostOps10
theorem B_keep_arg1 : after (hostOps10 (F := Ideal)) X (Proc.devRef .tc main_arg1) = X (Proc.devRef .tc main_arg1) := by keep_host hostOps10
theorem B_keep_arg2 : after (hostOps10 (F := Ideal)) X (Proc.devRef .tc main_arg2) = X (Proc.devRef .tc main_arg2) := by keep_host hostOps10
theorem B_keep_arg3 : after (hostOps10 (F := Ideal)) X (Proc.devRef .tc main_arg3) = X (Proc.devRef .tc main_arg3) := by keep_host hostOps10
theorem B_keep_arg4 : after (hostOps10 (F := Ideal)) X (Proc.devRef .tc main_arg4) = X (Proc.devRef .tc main_arg4) := by keep_host hostOps10
theorem B_keep_arg5 : after (hostOps10 (F := Ideal)) X (Proc.devRef .tc main_arg5) = X (Proc.devRef .tc main_arg5) := by keep_host hostOps10
theorem B_keep_arg6 : after (hostOps10 (F := Ideal)) X (Proc.devRef .tc main_arg6) = X (Proc.devRef .tc main_arg6) := by keep_host hostOps10
theorem B_keep_arg7 : after (hostOps10 (F := Ideal)) X (Proc.devRef .tc main_arg7) = X (Proc.devRef .tc main_arg7) := by keep_host hostOps10
theorem B_keep_arg8 : after (hostOps10 (F := Ideal)) X (Proc.devRef .tc main_arg8) = X (Proc.devRef .tc main_arg8) := by keep_host hostOps10
theorem B_keep_arg9 : after (hostOps10 (F := Ideal)) X (Proc.devRef .tc main_arg9) = X (Proc.devRef .tc main_arg9) := by keep_host hostOps10
theorem B_keep_arg10 : after (hostOps10 (F := Ideal)) X (Proc.devRef .tc main_arg10) = X (Proc.devRef .tc main_arg10) := by keep_host hostOps10
theorem B_keep_arg11 : after (hostOps10 (F := Ideal)) X (Proc.devRef .tc main_arg11) = X (Proc.devRef .tc main_arg11) := by keep_host hostOps10
theorem B_keep_arg12 : after (hostOps10 (F := Ideal)) X (Proc.devRef .tc main_arg12) = X (Proc.devRef .tc main_arg12) := by keep_host hostOps10
theorem B_keep_v1 : after (hostOps10 (F := Ideal)) X (Proc.devRef .tc main_v1) = X (Proc.devRef .tc main_v1) := by keep_host hostOps10
theorem B_keep_v3 : after (hostOps10 (F := Ideal)) X (Proc.devRef .tc main_v3) = X (Proc.devRef .tc main_v3) := by keep_host hostOps10
theorem B_keep_v50 : after (hostOps10 (F := Ideal)) X (Proc.devRef .tc main_v50) = X (Proc.devRef .tc main_v50) := by keep_host hostOps10
theorem B_keep_v97 : after (hostOps10 (F := Ideal)) X (Proc.devRef .tc main_v97) = X (Proc.devRef .tc main_v97) := by keep_host hostOps10
theorem B_keep_v144 : after (hostOps10 (F := Ideal)) X (Proc.devRef .tc main_v144) = X (Proc.devRef .tc main_v144) := by keep_host hostOps10

/-! ## Between the second and the third region -/

/-- The second column means: the accumulated column sums divided by the number of rows. -/
theorem C_mean : row (a := 128) (after (hostOps11 (F := Ideal)) X (Proc.devRef .tc main_v180)) = fun j => Ideal.div (row (a := 128) (X (Proc.devRef .tc main_v178_1)) j) (Ideal.ofBits .f32 0x47C35000#32) := by
  have e : (after (hostOps11 (F := Ideal)) X (Proc.devRef .tc main_v180) : FVec Ideal S1x128 .f32) = Host.divf (F := Ideal) (X (Proc.devRef .tc main_v178_1)) (broadcastInDim S1x128 ![] bcast_S_S1x128 (constant (F := Ideal) S_ .f32 0x47C35000#32)) := by
    after_results_simp <;> rfl
  funext j
  unfold row
  rw [e]
  rfl

/-- The second column variances: the accumulated sums of squares divided by the number of rows, less the squared means. -/
theorem C_var : row (a := 128) (after (hostOps11 (F := Ideal)) X (Proc.devRef .tc main_v184)) = fun j => Ideal.div (row (a := 128) (X (Proc.devRef .tc main_v178_2)) j) (Ideal.ofBits .f32 0x47C35000#32) - Ideal.div (row (a := 128) (X (Proc.devRef .tc main_v178_1)) j) (Ideal.ofBits .f32 0x47C35000#32) * Ideal.div (row (a := 128) (X (Proc.devRef .tc main_v178_1)) j) (Ideal.ofBits .f32 0x47C35000#32) := by
  have e : (after (hostOps11 (F := Ideal)) X (Proc.devRef .tc main_v184) : FVec Ideal S1x128 .f32)
      = subf (Host.divf (F := Ideal) (X (Proc.devRef .tc main_v178_2)) (broadcastInDim S1x128 ![] bcast_S_S1x128 (constant (F := Ideal) S_ .f32 0x47C35000#32))) (mulf (Host.divf (F := Ideal) (X (Proc.devRef .tc main_v178_1)) (broadcastInDim S1x128 ![] bcast_S_S1x128 (constant (F := Ideal) S_ .f32 0x47C35000#32))) (Host.divf (F := Ideal) (X (Proc.devRef .tc main_v178_1)) (broadcastInDim S1x128 ![] bcast_S_S1x128 (constant (F := Ideal) S_ .f32 0x47C35000#32)))) := by
    after_results_simp <;> rfl
  funext j
  unfold row
  rw [e]
  rfl

/-- The second normalization's scale, as one row. -/
theorem C_g2 : row (a := 128) (after (hostOps11 (F := Ideal)) X (Proc.devRef .tc main_v189)) = cur1 (vec 3 (X (Proc.devRef .tc main_arg9)) slices_S4x128_S1x128_3_0) := by
  have e : (after (hostOps11 (F := Ideal)) X (Proc.devRef .tc main_v189) : FVec Ideal S1x128 .f32)
      = shapeCast S1x128 (vec 3 (X (Proc.devRef .tc main_arg9)) slices_S4x128_S1x128_3_0) shapeCasts_S128_S1x128 := by
    after_results_simp <;> rfl
  funext j
  unfold row cur1
  rw [e]
  exact shapeCast_a_1a_apply _ _ _ _

/-- The second normalization's shift, as one row. -/
theorem C_c2 : row (a := 128) (after (hostOps11 (F := Ideal)) X (Proc.devRef .tc main_v190)) = cur1 (vec 3 (X (Proc.devRef .tc main_arg10)) slices_S4x128_S1x128_3_0) := by
  have e : (after (hostOps11 (F := Ideal)) X (Proc.devRef .tc main_v190) : FVec Ideal S1x128 .f32)
      = shapeCast S1x128 (vec 3 (X (Proc.devRef .tc main_arg10)) slices_S4x128_S1x128_3_0) shapeCasts_S128_S1x128 := by
    after_results_simp <;> rfl
  funext j
  unfold row cur1
  rw [e]
  exact shapeCast_a_1a_apply _ _ _ _

theorem C_keep_v178_0 : after (hostOps11 (F := Ideal)) X (Proc.devRef .tc main_v178_0) = X (Proc.devRef .tc main_v178_0) := by keep_host hostOps11
theorem C_keep_arg0 : after (hostOps11 (F := Ideal)) X (Proc.devRef .tc main_arg0) = X (Proc.devRef .tc main_arg0) := by keep_host hostOps11
theorem C_keep_arg1 : after (hostOps11 (F := Ideal)) X (Proc.devRef .tc main_arg1) = X (Proc.devRef .tc main_arg1) := by keep_host hostOps11
theorem C_keep_arg2 : after (hostOps11 (F := Ideal)) X (Proc.devRef .tc main_arg2) = X (Proc.devRef .tc main_arg2) := by keep_host hostOps11
theorem C_keep_arg3 : after (hostOps11 (F := Ideal)) X (Proc.devRef .tc main_arg3) = X (Proc.devRef .tc main_arg3) := by keep_host hostOps11
theorem C_keep_arg4 : after (hostOps11 (F := Ideal)) X (Proc.devRef .tc main_arg4) = X (Proc.devRef .tc main_arg4) := by keep_host hostOps11
theorem C_keep_arg5 : after (hostOps11 (F := Ideal)) X (Proc.devRef .tc main_arg5) = X (Proc.devRef .tc main_arg5) := by keep_host hostOps11
theorem C_keep_arg6 : after (hostOps11 (F := Ideal)) X (Proc.devRef .tc main_arg6) = X (Proc.devRef .tc main_arg6) := by keep_host hostOps11
theorem C_keep_arg7 : after (hostOps11 (F := Ideal)) X (Proc.devRef .tc main_arg7) = X (Proc.devRef .tc main_arg7) := by keep_host hostOps11
theorem C_keep_arg8 : after (hostOps11 (F := Ideal)) X (Proc.devRef .tc main_arg8) = X (Proc.devRef .tc main_arg8) := by keep_host hostOps11
theorem C_keep_arg9 : after (hostOps11 (F := Ideal)) X (Proc.devRef .tc main_arg9) = X (Proc.devRef .tc main_arg9) := by keep_host hostOps11
theorem C_keep_arg10 : after (hostOps11 (F := Ideal)) X (Proc.devRef .tc main_arg10) = X (Proc.devRef .tc main_arg10) := by keep_host hostOps11
theorem C_keep_arg11 : after (hostOps11 (F := Ideal)) X (Proc.devRef .tc main_arg11) = X (Proc.devRef .tc main_arg11) := by keep_host hostOps11
theorem C_keep_arg12 : after (hostOps11 (F := Ideal)) X (Proc.devRef .tc main_arg12) = X (Proc.devRef .tc main_arg12) := by keep_host hostOps11
theorem C_keep_v1 : after (hostOps11 (F := Ideal)) X (Proc.devRef .tc main_v1) = X (Proc.devRef .tc main_v1) := by keep_host hostOps11
theorem C_keep_v3 : after (hostOps11 (F := Ideal)) X (Proc.devRef .tc main_v3) = X (Proc.devRef .tc main_v3) := by keep_host hostOps11
theorem C_keep_v50 : after (hostOps11 (F := Ideal)) X (Proc.devRef .tc main_v50) = X (Proc.devRef .tc main_v50) := by keep_host hostOps11
theorem C_keep_v97 : after (hostOps11 (F := Ideal)) X (Proc.devRef .tc main_v97) = X (Proc.devRef .tc main_v97) := by keep_host hostOps11
theorem C_keep_v144 : after (hostOps11 (F := Ideal)) X (Proc.devRef .tc main_v144) = X (Proc.devRef .tc main_v144) := by keep_host hostOps11

end Cert.KernelIdeal.KHost3

end
-- ==== Proof.KCore3.lean ====
/-
  Layer 3 as one function of what its buffers hold when it is entered.

  `Y0` is the contents before the layer's first stretch of host operations; `Y2`, `Y4`, `Y6` are the contents after its
  three regions, each described by what the region is known to compute from the contents it was entered with
  (the first linear map with its column sums, the normalization followed by the second linear map with its column
  sums, the last normalization) and by the buffers it leaves alone. Reading the host stretches in between, the
  layer's output is the layer function of its input, the neighbourhood sums and the layer's slices of the weights.
-/
import proofs.«120577_j28003186770423_1_alg».proof.Proof.KHost3
import proofs.«120577_j28003186770423_1_alg».proof.Proof.GinMath

noncomputable section

namespace Cert.KernelIdeal.KCore3

open Idealize.ShloMosaic Idealize.ShloMosaic.ValueIdx Idealize.ShloMosaic.StableHlo Cert.KernelIdeal Cert.KernelIdeal.Gen Cert.KernelIdeal.K Cert.Lib Cert.Gin

variable (Y0 Y2 Y4 Y6 : Valuation τ sig (Elt Ideal))

/-- The layer's output is the layer function of its input with the neighbourhood sums added, the layer's weights and parameters. -/
theorem out_eq
    (hz1 : cur2 (a := 100000) (b := 128) (Y2 (Proc.devRef .tc main_v160_0)) = lin (fun r k => cur2 (a := 100000) (b := 128) (after (hostOps9 (F := Ideal)) Y0 (Proc.devRef .tc main_v144)) r k + cur2 (a := 100000) (b := 128) (after (hostOps9 (F := Ideal)) Y0 (Proc.devRef .tc main_v154)) r k) (cur2 (a := 128) (b := 128) (after (hostOps9 (F := Ideal)) Y0 (Proc.devRef .tc main_v156))) (row (a := 128) (after (hostOps9 (F := Ideal)) Y0 (Proc.devRef .tc main_v159))))
    (hs1 : row (a := 128) (Y2 (Proc.devRef .tc main_v160_1)) = fun j => ∑ r, cur2 (a := 100000) (b := 128) (Y2 (Proc.devRef .tc main_v160_0)) r j)
    (hq1 : row (a := 128) (Y2 (Proc.devRef .tc main_v160_2)) = fun j => ∑ r, cur2 (a := 100000) (b := 128) (Y2 (Proc.devRef .tc main_v160_0)) r j * cur2 (a := 100000) (b := 128) (Y2 (Proc.devRef .tc main_v160_0)) r j)
    (k2_5 : Y2 (Proc.devRef .tc main_arg5) = (after (hostOps9 (F := Ideal)) Y0 (Proc.devRef .tc main_arg5)))
    (k2_6 : Y2 (Proc.devRef .tc main_arg6) = (after (hostOps9 (F := Ideal)) Y0 (Proc.devRef .tc main_arg6)))
    (k2_7 : Y2 (Proc.devRef .tc main_arg7) = (after (hostOps9 (F := Ideal)) Y0 (Proc.devRef .tc main_arg7)))
    (k2_8 : Y2 (Proc.devRef .tc main_arg8) = (after (hostOps9 (F := Ideal)) Y0 (Proc.devRef .tc main_arg8)))
    (k2_9 : Y2 (Proc.devRef .tc main_arg9) = (after (hostOps9 (F := Ideal)) Y0 (Proc.devRef .tc main_arg9)))
    (k2_10 : Y2 (Proc.devRef .tc main_arg10) = (after (hostOps9 (F := Ideal)) Y0 (Proc.devRef .tc main_arg10)))
    (hz2 : cur2 (a := 100000) (b := 128) (Y4 (Proc.devRef .tc main_v178_0)) = lin (norm (cur2 (a := 100000) (b := 128) (after (hostOps10 (F := Ideal)) Y2 (Proc.devRef .tc main_v160_0))) (row (a := 128) (after (hostOps10 (F := Ideal)) Y2 (Proc.devRef .tc main_v162))) (row (a := 128) (after (hostOps10 (F := Ideal)) Y2 (Proc.devRef .tc main_v166))) (row (a := 128) (after (hostOps10 (F := Ideal)) Y2 (Proc.devRef .tc main_v175))) (row (a := 128) (after (hostOps10 (F := Ideal)) Y2 (Proc.devRef .tc main_v176)))) (cur2 (a := 128) (b := 128) (after (hostOps10 (F := Ideal)) Y2 (Proc.devRef .tc main_v172))) (row (a := 128) (after (hostOps10 (F := Ideal)) Y2 (Proc.devRef .tc main_v177))))
    (hs2 : row (a := 128) (Y4 (Proc.devRef .tc main_v178_1)) = fun j => ∑ r, cur2 (a := 100000) (b := 128) (Y4 (Proc.devRef .tc main_v178_0)) r j)
    (hq2 : row (a := 128) (Y4 (Proc.devRef .tc main_v178_2)) = fun j => ∑ r, cur2 (a := 100000) (b := 128) (Y4 (Proc.devRef .tc main_v178_0)) r j * cur2 (a := 100000) (b := 128) (Y4 (Proc.devRef .tc main_v178_0)) r j)
    (k4_9 : Y4 (Proc.devRef .tc main_arg9) = (after (hostOps10 (F := Ideal)) Y2 (Proc.devRef .tc main_arg9)))
    (k4_10 : Y4 (Proc.devRef .tc main_arg10) = (after (hostOps10 (F := Ideal)) Y2 (Proc.devRef .tc main_arg10)))
    (hout : cur2 (a := 100000) (b := 128) (Y6 (Proc.devRef .tc main_v191)) = norm (cur2 (a := 100000) (b := 128) (after (hostOps11 (F := Ideal)) Y4 (Proc.devRef .tc main_v178_0))) (row (a := 128) (after (hostOps11 (F := Ideal)) Y4 (Proc.devRef .tc main_v180))) (row (a := 128) (after (hostOps11 (F := Ideal)) Y4 (Proc.devRef .tc main_v184))) (row (a := 128) (after (hostOps11 (F := Ideal)) Y4 (Proc.devRef .tc main_v189))) (row (a := 128) (after (hostOps11 (F := Ideal)) Y4 (Proc.devRef .tc main_v190)))) :
    cur2 (a := 100000) (b := 128) (Y6 (Proc.devRef .tc main_v191))
      = layerK (fun r k => cur2 (a := 100000) (b := 128) (Y0 (Proc.devRef .tc main_v144)) r k + cur2 (aggOf (Y0 (Proc.devRef .tc main_v144)) (Y0 (Proc.devRef .tc main_v1)) (Y0 (Proc.devRef .tc main_v3))) r k)
          (cur2 (mat 3 (Y0 (Proc.devRef .tc main_arg3)) slices_S4x128x128_S1x128x128_3_0_0)) (cur1 (vec 3 (Y0 (Proc.devRef .tc main_arg4)) slices_S4x128_S1x128_3_0)) (cur1 (vec 3 (Y0 (Proc.devRef .tc main_arg5)) slices_S4x128_S1x128_3_0)) (cur1 (vec 3 (Y0 (Proc.devRef .tc main_arg6)) slices_S4x128_S1x128_3_0))
          (cur2 (mat 3 (Y0 (Proc.devRef .tc main_arg7)) slices_S4x128x128_S1x128x128_3_0_0)) (cur1 (vec 3 (Y0 (Proc.devRef .tc main_arg8)) slices_S4x128_S1x128_3_0)) (cur1 (vec 3 (Y0 (Proc.devRef .tc main_arg9)) slices_S4x128_S1x128_3_0)) (cur1 (vec 3 (Y0 (Proc.devRef .tc main_arg10)) slices_S4x128_S1x128_3_0)) := by
  -- the first linear map
  rw [KHost3.A_keep_v144 Y0, KHost3.A_agg Y0, KHost3.A_w1 Y0, KHost3.A_b1 Y0] at hz1
  -- its column statistics, and the first normalization's parameters
  have hm1 := KHost3.B_mean Y2
  have hv1 := KHost3.B_var Y2
  rw [hs1] at hm1 hv1
  rw [hq1] at hv1
  have hg1 := KHost3.B_g1 Y2
  have hc1 := KHost3.B_c1 Y2
  have hw2 := KHost3.B_w2 Y2
  have hb2 := KHost3.B_b2 Y2
  rw [k2_5, KHost3.A_keep_arg5 Y0] at hg1
  rw [k2_6, KHost3.A_keep_arg6 Y0] at hc1
  rw [k2_7, KHost3.A_keep_arg7 Y0] at hw2
  rw [k2_8, KHost3.A_keep_arg8 Y0] at hb2
  rw [KHost3.B_keep_v160_0 Y2, hm1, hv1, hg1, hc1, hw2, hb2, hz1] at hz2
  -- the second linear map's column statistics, and the last normalization's parameters
  have hm2 := KHost3.C_mean Y4
  have hv2 := KHost3.C_var Y4
  rw [hs2] at hm2 hv2
  rw [hq2] at hv2
  have hg2 := KHost3.C_g2 Y4
  have hc2 := KHost3.C_c2 Y4
  rw [k4_9, KHost3.B_keep_arg9 Y2, k2_9, KHost3.A_keep_arg9 Y0] at hg2
  rw [k4_10, KHost3.B_keep_arg10 Y2, k2_10, KHost3.A_keep_arg10 Y0] at hc2
  rw [KHost3.C_keep_v178_0 Y4, hm2, hv2, hg2, hc2, hz2] at hout
  exact hout

end Cert.KernelIdeal.KCore3

end
-- ==== Proof.RegionFirstLinear9.lean ====
/-
  The first linear map of layer 3 on the whole node array, and its two column statistics.

  The region walks twenty blocks of 5000 consecutive rows.  On a block it adds the node features and the
  aggregated neighbour features entry by entry, multiplies the sum by the 128 by 128 weight matrix (a plain
  sum over the 128 inner positions), adds the bias row to every row, and stores the result; it also adds, into two
  rows of 128 running totals that start at zero on the first block, the sum down the block's rows of the
  result and of its square.  Read over the extended reals, where addition is commutative and associative with
  neutral zero, the three arrays after the region hold: entry (r, j) of the linear map; the sum over all
  100000 rows of column j; the sum over all rows of the square of column j.  No finiteness is needed.
-/
import proofs.«120577_j28003186770423_1_alg».proof.Proof.Gen.KernelIdeal.Frame
import proofs.«120577_j28003186770423_1_alg».proof.Proof.LibPlainDot
import proofs.«120577_j28003186770423_1_alg».proof.Proof.LibColumnSum
import proofs.«120577_j28003186770423_1_alg».proof.Proof.LibBlockSum
import proofs.«120577_j28003186770423_1_alg».proof.Proof.LibCurry
import proofs.«120577_j28003186770423_1_alg».proof.Proof.GinMath
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.FirstLinear9

open Cert.KernelIdeal Cert.KernelIdeal.Gen

open Cert.Lib Cert.Gin

/-- The node features when the region is entered. -/
abbrev hIn (V : (c : Dev nD) → (b : Ref sig .tc) → Buf (Elt Ideal) ((c : Thread nD τ).loc b)) (c : Dev nD) : S100000x128.Idx → EReal := V c (Pipeline.arrRef spec9 0)
/-- The aggregated neighbour features when the region is entered. -/
abbrev aggIn (V : (c : Dev nD) → (b : Ref sig .tc) → Buf (Elt Ideal) ((c : Thread nD τ).loc b)) (c : Dev nD) : S100000x128.Idx → EReal := V c (Pipeline.arrRef spec9 1)
/-- The weight matrix when the region is entered. -/
abbrev wIn (V : (c : Dev nD) → (b : Ref sig .tc) → Buf (Elt Ideal) ((c : Thread nD τ).loc b)) (c : Dev nD) : S128x128.Idx → EReal := V c (Pipeline.arrRef spec9 2)
/-- The bias row when the region is entered. -/
abbrev bIn (V : (c : Dev nD) → (b : Ref sig .tc) → Buf (Elt Ideal) ((c : Thread nD τ).loc b)) (c : Dev nD) : S1x128.Idx → EReal := V c (Pipeline.arrRef spec9 3)

/-- entry (r, j) of the layer's first linear map -/
def Z (V : (c : Dev nD) → (b : Ref sig .tc) → Buf (Elt Ideal) ((c : Thread nD τ).loc b)) (c : Dev nD) (r : Fin 100000) (j : Fin 128) : EReal :=
  (∑ k : Fin 128, (hIn V c (ix2 r k) + aggIn V c (ix2 r k)) * wIn V c (ix2 k j)) + bIn V c (ix2 0 j)

/-- The result array after the region. -/
abbrev zOut (V : (c : Dev nD) → (b : Ref sig .tc) → Buf (Elt Ideal) ((c : Thread nD τ).loc b)) (c : Dev nD) : S100000x128.Idx → EReal := (dat9 V c).arrAt 4 cfg9.N
/-- The array of column totals after the region. -/
abbrev sOut (V : (c : Dev nD) → (b : Ref sig .tc) → Buf (Elt Ideal) ((c : Thread nD τ).loc b)) (c : Dev nD) : S1x128.Idx → EReal := (dat9 V c).arrAt 5 cfg9.N
/-- The array of column totals of squares after the region. -/
abbrev qOut (V : (c : Dev nD) → (b : Ref sig .tc) → Buf (Elt Ideal) ((c : Thread nD τ).loc b)) (c : Dev nD) : S1x128.Idx → EReal := (dat9 V c).arrAt 6 cfg9.N

/-! ## The block's arithmetic at an entry -/

/-- The block's linear map at row p, column q: the inner sum over the 128 positions, plus the bias. -/
theorem lin_apply (x0 x1 : Vec Ideal S5000x128 .f32) (x2 : Vec Ideal S128x128 .f32) (x3 : Vec Ideal S1x128 .f32) (p : Fin 5000) (q : Fin 128) :
    k9_pay3 x0 x1 x2 x3 (ix2 p q)
      = (∑ k : Fin 128, (x0 (ix2 p k) + x1 (ix2 p k)) * x2 (ix2 k q)) + x3 (ix2 0 q) := by
  unfold k9_pay3
  refine (addf_apply _ _ _).trans ?_
  refine congrArg₂ (· + ·) ?_ ?_
  · refine (Cert.PlainDot.matmul_apply dot_S5000x128_S128x128_S5000x128_1_0_0_1_n_n ⟨rfl, rfl, rfl, rfl, rfl, rfl⟩ none _ _ p q).trans ?_
    refine Finset.sum_congr rfl fun k _ => ?_
    simp only [truncf_apply, addf_apply, shapeCast_self]
  · refine (broadcastTo_1b_ab_apply _ _ p q).trans ?_
    rw [shapeCast_self]

/-- The running column total after a block: what it held, plus the block's column sum of the linear map. -/
theorem colsum_apply (x0 x1 : Vec Ideal S5000x128 .f32) (x2 : Vec Ideal S128x128 .f32) (x3 : Vec Ideal S1x128 .f32) (xo : Vec Ideal S1x128 .f32) (q : Fin 128) :
    k9_pay4 x0 x1 x2 x3 xo (ix2 0 q) = xo (ix2 0 q) + ∑ p : Fin 5000, k9_pay3 x0 x1 x2 x3 (ix2 p q) := by
  unfold k9_pay4
  refine (addf_apply _ _ _).trans ?_
  refine congrArg₂ (· + ·) ?_ ?_
  · rw [shapeCast_self]
  · refine (shapeCast_a_1a_apply _ _ 0 q).trans ?_
    exact Cert.Lib.column_sum (k9_pay3 x0 x1 x2 x3) reduces_S5000x128_S128 (.inl rfl) rfl q

/-- The running total of squares after a block: what it held, plus the block's column sum of the squared linear map. -/
theorem colsq_apply (x0 x1 : Vec Ideal S5000x128 .f32) (x2 : Vec Ideal S128x128 .f32) (x3 : Vec Ideal S1x128 .f32) (xo : Vec Ideal S1x128 .f32) (q : Fin 128) :
    k9_pay5 x0 x1 x2 x3 xo (ix2 0 q)
      = xo (ix2 0 q) + ∑ p : Fin 5000, k9_pay3 x0 x1 x2 x3 (ix2 p q) * k9_pay3 x0 x1 x2 x3 (ix2 p q) := by
  unfold k9_pay5
  refine (addf_apply _ _ _).trans ?_
  refine congrArg₂ (· + ·) ?_ ?_
  · rw [shapeCast_self]
  · refine (shapeCast_a_1a_apply _ _ 0 q).trans ?_
    refine (Cert.Lib.column_sum (mulf (k9_pay3 x0 x1 x2 x3) (k9_pay3 x0 x1 x2 x3)) reduces_S5000x128_S128 (.inl rfl) rfl q).trans ?_
    rfl

/-- The two rows of totals start at zero. -/
theorem zero_row_s (q : Fin 128) : (k9_pay1 (F := Ideal)) (ix2 0 q) = 0 := Ideal.ofBits_zero_f32
theorem zero_row_q (q : Fin 128) : (k9_pay2 (F := Ideal)) (ix2 0 q) = 0 := Ideal.ofBits_zero_f32

theorem hz : (![0, 0] : Fin 2 → Nat) = fun _ => 0 := funext fun a => by fin_cases a <;> rfl

/-! ## What one grid point leaves in the three output blocks -/

/-- On the first block the result block is the linear map of the four input blocks. -/
theorem first_z (c : Dev nD) (i : grid9.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond9_0 i) (x0 x1 : Vec Ideal S5000x128 .f32) (x2 : Vec Ideal S128x128 .f32) (x3 : Vec Ideal S1x128 .f32) :
    out9_A_4 c i a1 h1 a2 h2 a3 h3 a4 h4 a5 h5 a6 h6 a7 h7 hc x0 x1 x2 x3 = k9_pay3 x0 x1 x2 x3 := by
  unfold out9_A_4
  rw [View.read_writes_eq_canon _ _ _ (cover9_A_4 c i a1 h1 a2 h2 a3 h3 a4 h4 a5 h5 a6 h6 a7 h7 hc x0 x1 x2 x3)]
  unfold kernelRun9_A
  dsimp only
  try sl_unfold_words
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S1x128) hz]

/-- On the first block the row of totals is zeroed and then receives the block's column sums. -/
theorem first_s (c : Dev nD) (i : grid9.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond9_0 i) (x0 x1 : Vec Ideal S5000x128 .f32) (x2 : Vec Ideal S128x128 .f32) (x3 : Vec Ideal S1x128 .f32) :
    out9_A_5 c i a1 h1 a2 h2 a3 h3 a4 h4 a5 h5 a6 h6 a7 h7 hc x0 x1 x2 x3 = k9_pay4 x0 x1 x2 x3 (k9_pay1 (F := Ideal)) := by
  unfold out9_A_5
  rw [View.read_writes_eq_canon _ _ _ (cover9_A_5 c i a1 h1 a2 h2 a3 h3 a4 h4 a5 h5 a6 h6 a7 h7 hc x0 x1 x2 x3)]
  unfold kernelRun9_A
  dsimp only
  try sl_unfold_words
  rw [View.canon_cons_unit_zero (S := S1x128) hz]
  simp only [View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- On the first block the row of square totals is zeroed and then receives the block's column sums of squares. -/
theorem first_q (c : Dev nD) (i : grid9.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond9_0 i) (x0 x1 : Vec Ideal S5000x128 .f32) (x2 : Vec Ideal S128x128 .f32) (x3 : Vec Ideal S1x128 .f32) :
    out9_A_6 c i a1 h1 a2 h2 a3 h3 a4 h4 a5 h5 a6 h6 a7 h7 hc x0 x1 x2 x3 = k9_pay5 x0 x1 x2 x3 (k9_pay2 (F := Ideal)) := by
  unfold out9_A_6
  rw [View.read_writes_eq_canon _ _ _ (cover9_A_6 c i a1 h1 a2 h2 a3 h3 a4 h4 a5 h5 a6 h6 a7 h7 hc x0 x1 x2 x3)]
  unfold kernelRun9_A
  dsimp only
  try sl_unfold_words
  rw [View.canon_cons_unit_zero (S := S1x128) hz]
  simp only [View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- On a later block the result block is again the linear map of the four input blocks. -/
theorem later_z (c : Dev nD) (i : grid9.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond9_0 i) (x0 x1 : Vec Ideal S5000x128 .f32) (x2 : Vec Ideal S128x128 .f32) (x3 : Vec Ideal S1x128 .f32) (xo5 xo6 : Vec Ideal S1x128 .f32) :
    out9_B_4 c i a1 h1 a2 h2 a3 h3 a4 h4 a5 h5 a6 h6 a7 h7 hc x0 x1 x2 x3 xo5 xo6 = k9_pay3 x0 x1 x2 x3 := by
  unfold out9_B_4
  rw [View.read_writes_eq_canon _ _ _ (cover9_B_4 c i a1 h1 a2 h2 a3 h3 a4 h4 a5 h5 a6 h6 a7 h7 hc x0 x1 x2 x3 xo5 xo6)]
  unfold kernelRun9_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- On a later block the row of totals keeps what it held and receives the block's column sums. -/
theorem later_s (c : Dev nD) (i : grid9.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond9_0 i) (x0 x1 : Vec Ideal S5000x128 .f32) (x2 : Vec Ideal S128x128 .f32) (x3 : Vec Ideal S1x128 .f32) (xo5 xo6 : Vec Ideal S1x128 .f32) :
    out9_B_5 c i a1 h1 a2 h2 a3 h3 a4 h4 a5 h5 a6 h6 a7 h7 hc x0 x1 x2 x3 xo5 xo6 = k9_pay4 x0 x1 x2 x3 xo5 := by
  unfold out9_B_5
  rw [View.read_writes_eq_canon _ _ _ (cover9_B_5 c i a1 h1 a2 h2 a3 h3 a4 h4 a5 h5 a6 h6 a7 h7 hc x0 x1 x2 x3 xo5 xo6)]
  unfold kernelRun9_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- On a later block the row of square totals keeps what it held and receives the block's column sums of squares. -/
theorem later_q (c : Dev nD) (i : grid9.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond9_0 i) (x0 x1 : Vec Ideal S5000x128 .f32) (x2 : Vec Ideal S128x128 .f32) (x3 : Vec Ideal S1x128 .f32) (xo5 xo6 : Vec Ideal S1x128 .f32) :
    out9_B_6 c i a1 h1 a2 h2 a3 h3 a4 h4 a5 h5 a6 h6 a7 h7 hc x0 x1 x2 x3 xo5 xo6 = k9_pay5 x0 x1 x2 x3 xo6 := by
  unfold out9_B_6
  rw [View.read_writes_eq_canon _ _ _ (cover9_B_6 c i a1 h1 a2 h2 a3 h3 a4 h4 a5 h5 a6 h6 a7 h7 hc x0 x1 x2 x3 xo5 xo6)]
  unfold kernelRun9_B
  dsimp only
  try sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- The three output blocks after the first grid point. -/
theorem outs_first (V : (c : Dev nD) → (b : Ref sig .tc) → Buf (Elt Ideal) ((c : Thread nD τ).loc b)) (c : Dev nD) (t : Fin cfg9.N) (h0 : t.val % 20 = 0) :
    outsAt9 V c t.val t.isLt
      = (k9_pay3 (iblk9 V c 0 t) (iblk9 V c 1 t) (iblk9 V c 2 t) (iblk9 V c 3 t), k9_pay4 (iblk9 V c 0 t) (iblk9 V c 1 t) (iblk9 V c 2 t) (iblk9 V c 3 t) (k9_pay1 (F := Ideal)), k9_pay5 (iblk9 V c 0 t) (iblk9 V c 1 t) (iblk9 V c 2 t) (iblk9 V c 3 t) (k9_pay2 (F := Ideal))) :=
  (outsAt9_A V c t h0).trans (congrArg₂ Prod.mk
    (first_z c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t))
    (congrArg₂ Prod.mk
      (first_s c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t))
      (first_q c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t))))

/-- The three output blocks after a later grid point, over what the point before left in the two rows of totals. -/
theorem outs_later (V : (c : Dev nD) → (b : Ref sig .tc) → Buf (Elt Ideal) ((c : Thread nD τ).loc b)) (c : Dev nD) (t : Fin cfg9.N) (h0 : ¬t.val % 20 = 0) :
    outsAt9 V c t.val t.isLt
      = (k9_pay3 (iblk9 V c 0 t) (iblk9 V c 1 t) (iblk9 V c 2 t) (iblk9 V c 3 t),
         k9_pay4 (iblk9 V c 0 t) (iblk9 V c 1 t) (iblk9 V c 2 t) (iblk9 V c 3 t) (outsAt9 V c (t.val - 1) (Nat.lt_of_le_of_lt (Nat.sub_le _ _) t.isLt)).2.1,
         k9_pay5 (iblk9 V c 0 t) (iblk9 V c 1 t) (iblk9 V c 2 t) (iblk9 V c 3 t) (outsAt9 V c (t.val - 1) (Nat.lt_of_le_of_lt (Nat.sub_le _ _) t.isLt)).2.2) :=
  (outsAt9_B V c t h0).trans (congrArg₂ Prod.mk
    (later_z c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) _ _)
    (congrArg₂ Prod.mk
      (later_s c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) _ _)
      (later_q c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) _ _)))

/-! ## The input blocks as rows of the arrays -/

/-- Where each window's block sits at grid point t: the three row-blocked windows at block t, the others at the origin. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- Entry (p, k) of the node-feature block at point t is row 5000 t + p of the array. -/
theorem blk0_apply (V : (c : Dev nD) → (b : Ref sig .tc) → Buf (Elt Ideal) ((c : Thread nD τ).loc b)) (c : Dev nD) (t : Fin cfg9.N) (p : Fin 5000) (k : Fin 128) (hr : 5000 * t.val + p.val < 100000) :
    (iblk9 V c 0 t : Vec Ideal S5000x128 .f32) (ix2 p k) = hIn V c (ix2 ⟨5000 * t.val + p.val, hr⟩ k) := by
  obtain ⟨e0, e1, -⟩ := idx_facts t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 5000 + 1 * p.val = 5000 * t.val + p.val; rw [e0]; omega
  | ⟨1, _⟩ => show win9_0.index t (1 : Fin 2) * 128 + 1 * k.val = k.val; rw [e1]; omega

/-- Entry (p, k) of the aggregated-feature block at point t is row 5000 t + p of the array. -/
theorem blk1_apply (V : (c : Dev nD) → (b : Ref sig .tc) → Buf (Elt Ideal) ((c : Thread nD τ).loc b)) (c : Dev nD) (t : Fin cfg9.N) (p : Fin 5000) (k : Fin 128) (hr : 5000 * t.val + p.val < 100000) :
    (iblk9 V c 1 t : Vec Ideal S5000x128 .f32) (ix2 p k) = aggIn V c (ix2 ⟨5000 * t.val + p.val, hr⟩ k) := by
  obtain ⟨-, -, e0, e1, -⟩ := idx_facts t
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 5000 + 1 * p.val = 5000 * t.val + p.val; rw [e0]; omega
  | ⟨1, _⟩ => show win9_1.index t (1 : Fin 2) * 128 + 1 * k.val = k.val; rw [e1]; omega

/-- The weight window is the whole weight matrix at every point. -/
theorem blk2_apply (V : (c : Dev nD) → (b : Ref sig .tc) → Buf (Elt Ideal) ((c : Thread nD τ).loc b)) (c : Dev nD) (t : Fin cfg9.N) (k q : Fin 128) :
    (iblk9 V c 2 t : Vec Ideal S128x128 .f32) (ix2 k q) = wIn V c (ix2 k q) := by
  obtain ⟨-, -, -, -, e0, e1, -⟩ := idx_facts t
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 128 + 1 * k.val = k.val; rw [e0]; omega
  | ⟨1, _⟩ => show win9_2.index t (1 : Fin 2) * 128 + 1 * q.val = q.val; rw [e1]; omega

/-- The bias window is the whole bias row at every point. -/
theorem blk3_apply (V : (c : Dev nD) → (b : Ref sig .tc) → Buf (Elt Ideal) ((c : Thread nD τ).loc b)) (c : Dev nD) (t : Fin cfg9.N) (q : Fin 128) :
    (iblk9 V c 3 t : Vec Ideal S1x128 .f32) (ix2 0 q) = bIn V c (ix2 0 q) := by
  obtain ⟨-, -, -, -, -, -, e0, e1, -⟩ := idx_facts t
  unfold iblk9
  rw [View.read_apply]
  show V c (Pipeline.arrRef spec9 3) _ = V c (Pipeline.arrRef spec9 3) _
  congr 1
  funext a
  apply Fin.ext
  match a with
  | ⟨0, _⟩ => show win9_3.index t (0 : Fin 2) * 1 + 1 * 0 = 0; rw [e0]
  | ⟨1, _⟩ => show win9_3.index t (1 : Fin 2) * 128 + 1 * q.val = q.val; rw [e1]; omega

/-- The linear map along the natural numbers: row n while n is a row, zero past the last row. -/
def Zn (V : (c : Dev nD) → (b : Ref sig .tc) → Buf (Elt Ideal) ((c : Thread nD τ).loc b)) (c : Dev nD) (q : Fin 128) (n : ℕ) : EReal :=
  if h : n < 100000 then Z V c ⟨n, h⟩ q else 0

/-- Entry (p, q) of the block computed at point t is the linear map at row 5000 t + p. -/
theorem lin_eq (V : (c : Dev nD) → (b : Ref sig .tc) → Buf (Elt Ideal) ((c : Thread nD τ).loc b)) (c : Dev nD) (t : Fin cfg9.N) (p : Fin 5000) (q : Fin 128) :
    k9_pay3 (iblk9 V c 0 t) (iblk9 V c 1 t) (iblk9 V c 2 t) (iblk9 V c 3 t) (ix2 p q) = Zn V c q (5000 * t.val + p.val) := by
  have hN : t.val < 20 := lt_of_lt_of_eq t.isLt (show cfg9.N = 20 from N_9)
  have hr : 5000 * t.val + p.val < 100000 := by have := p.isLt; omega
  unfold Zn
  rw [dif_pos hr]
  refine (lin_apply (iblk9 V c 0 t) (iblk9 V c 1 t) (iblk9 V c 2 t) (iblk9 V c 3 t) p q).trans ?_
  unfold Z
  exact congrArg₂ (· + ·)
    (Finset.sum_congr rfl fun k _ => congrArg₂ (· * ·)
      (congrArg₂ (· + ·) (blk0_apply V c t p k hr) (blk1_apply V c t p k hr)) (blk2_apply V c t k q))
    (blk3_apply V c t q)

/-! ## The three output blocks after every grid point -/

/-- After point n the result block is the linear map of the point's input blocks, and the two rows of totals hold
    the sums, over the rows of blocks 0 to n, of the linear map and of its square. -/
theorem outs_inv (V : (c : Dev nD) → (b : Ref sig .tc) → Buf (Elt Ideal) ((c : Thread nD τ).loc b)) (c : Dev nD) : ∀ (n : ℕ) (h : n < cfg9.N),
    (outsAt9 V c n h).1 = k9_pay3 (iblk9 V c 0 ⟨n, h⟩) (iblk9 V c 1 ⟨n, h⟩) (iblk9 V c 2 ⟨n, h⟩) (iblk9 V c 3 ⟨n, h⟩)
    ∧ (∀ q : Fin 128, ((outsAt9 V c n h).2.1 : Vec Ideal S1x128 .f32) (ix2 0 q)
        = 0 + ∑ s ∈ Finset.range (n + 1), ∑ p : Fin 5000, Zn V c q (5000 * s + p.val))
    ∧ (∀ q : Fin 128, ((outsAt9 V c n h).2.2 : Vec Ideal S1x128 .f32) (ix2 0 q)
        = 0 + ∑ s ∈ Finset.range (n + 1), ∑ p : Fin 5000, Zn V c q (5000 * s + p.val) * Zn V c q (5000 * s + p.val))
  | 0, h => by
    have e := outs_first V c ⟨0, h⟩ rfl
    refine ⟨congrArg Prod.fst e, fun q => ?_, fun q => ?_⟩
    · refine (congrFun (congrArg (fun o => o.2.1) e) (ix2 0 q)).trans ?_
      refine (colsum_apply (iblk9 V c 0 ⟨0, h⟩) (iblk9 V c 1 ⟨0, h⟩) (iblk9 V c 2 ⟨0, h⟩) (iblk9 V c 3 ⟨0, h⟩) _ q).trans ?_
      rw [Finset.sum_range_one]
      exact congrArg₂ (· + ·) (zero_row_s q) (Finset.sum_congr rfl fun p _ => lin_eq V c ⟨0, h⟩ p q)
    · refine (congrFun (congrArg (fun o => o.2.2) e) (ix2 0 q)).trans ?_
      refine (colsq_apply (iblk9 V c 0 ⟨0, h⟩) (iblk9 V c 1 ⟨0, h⟩) (iblk9 V c 2 ⟨0, h⟩) (iblk9 V c 3 ⟨0, h⟩) _ q).trans ?_
      rw [Finset.sum_range_one]
      exact congrArg₂ (· + ·) (zero_row_q q) (Finset.sum_congr rfl fun p _ => by rw [lin_eq V c ⟨0, h⟩ p q])
  | n + 1, h => by
    have hN : cfg9.N = 20 := N_9
    have hB : ¬(⟨n + 1, h⟩ : Fin cfg9.N).val % 20 = 0 := by dsimp only; omega
    obtain ⟨-, ih5, ih6⟩ := outs_inv V c n (Nat.lt_of_succ_lt h)
    have e := outs_later V c ⟨n + 1, h⟩ hB
    refine ⟨congrArg Prod.fst e, fun q => ?_, fun q => ?_⟩
    · refine (congrFun (congrArg (fun o => o.2.1) e) (ix2 0 q)).trans ?_
      refine (colsum_apply (iblk9 V c 0 ⟨n + 1, h⟩) (iblk9 V c 1 ⟨n + 1, h⟩) (iblk9 V c 2 ⟨n + 1, h⟩) (iblk9 V c 3 ⟨n + 1, h⟩) _ q).trans ?_
      rw [Finset.sum_range_succ _ (n + 1), ← add_assoc]
      exact congrArg₂ (· + ·) (ih5 q) (Finset.sum_congr rfl fun p _ => lin_eq V c ⟨n + 1, h⟩ p q)
    · refine (congrFun (congrArg (fun o => o.2.2) e) (ix2 0 q)).trans ?_
      refine (colsq_apply (iblk9 V c 0 ⟨n + 1, h⟩) (iblk9 V c 1 ⟨n + 1, h⟩) (iblk9 V c 2 ⟨n + 1, h⟩) (iblk9 V c 3 ⟨n + 1, h⟩) _ q).trans ?_
      rw [Finset.sum_range_succ _ (n + 1), ← add_assoc]
      exact congrArg₂ (· + ·) (ih6 q) (Finset.sum_congr rfl fun p _ => by rw [lin_eq V c ⟨n + 1, h⟩ p q])

/-! ## The result array: every point writes its block of the linear map back -/

/-- The linear map as one array of 100000 rows. -/
def G4 (V : (c : Dev nD) → (b : Ref sig .tc) → Buf (Elt Ideal) ((c : Thread nD τ).loc b)) (c : Dev nD) : Buf (Elt Ideal) ((c : Thread nD τ).loc main_v160_0) :=
  fun (i : S100000x128.Idx) => Z V c (i 0) (i 1)

/-- What point t writes back is rows 5000 t to 5000 t + 4999 of the linear map. -/
theorem flushed4 (V : (c : Dev nD) → (b : Ref sig .tc) → Buf (Elt Ideal) ((c : Thread nD τ).loc b)) (c : Dev nD) (t : Fin cfg9.N) :
    (dat9 V c).flushed 4 t = ((cfg9.win 4).blk t).view.read (Elt Ideal) (G4 V c) := by
  have hN : t.val < 20 := lt_of_lt_of_eq t.isLt (show cfg9.N = 20 from N_9)
  obtain ⟨-, -, -, -, -, -, -, -, e0, e1⟩ := idx_facts t
  show (cfg9.win 4).cut (grid9.coords t) ((dat9 V c).after 4 t) = _
  rw [after9_4, (outs_inv V c t.val t.isLt).1]
  funext y
  obtain ⟨p, q, rfl⟩ : ∃ (p : Fin 5000) (q : Fin 128), y = ix2 p q := ⟨y 0, y 1, eq_ix2 y⟩
  have hr : 5000 * t.val + p.val < 100000 := by have := p.isLt; omega
  rw [View.read_apply]
  refine (lin_eq V c t p q).trans ?_
  unfold Zn
  rw [dif_pos hr]
  show Z V c ⟨5000 * t.val + p.val, hr⟩ q = Z V c _ _
  refine congrArg₂ (Z V c) (Fin.ext ?_) (Fin.ext ?_)
  · show 5000 * t.val + p.val = win9_4.index t (0 : Fin 2) * 5000 + 1 * p.val
    rw [e0]; omega
  · show q.val = win9_4.index t (1 : Fin 2) * 128 + 1 * q.val
    rw [e1]; omega

/-- A row index lies in point t's block exactly when each coordinate lies in the block's range. -/
theorem mem_blk4 (t : Fin cfg9.N) (i : S100000x128.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole main_v160_0).slice (win9_4.rect t)).set ↔ _
  rw [View.set_slice_whole, Rect.mem_set_unit]
  exact Iff.rfl

/-- The twenty blocks cover the array (row r is in block r / 5000), so the array ends holding the linear map. -/
theorem final4 (V : (c : Dev nD) → (b : Ref sig .tc) → Buf (Elt Ideal) ((c : Thread nD τ).loc b)) (c : Dev nD) : (dat9 V c).arrAt 4 cfg9.N = G4 V c :=
  (dat9 V c).arrAt_eq_of_cover 4 (G4 V c) (fun t _ => flushed4 V c t) fun i => by
    have hi0 : (i 0 : Nat) < 100000 := (i 0).isLt
    have hi1 : (i 1 : Nat) < 128 := (i 1).isLt
    have hlt : (i 0 : Nat) / 5000 < cfg9.N := by rw [show cfg9.N = 20 from N_9]; omega
    refine ⟨⟨(i 0 : Nat) / 5000, hlt⟩, flush9_4 _, ?_⟩
    obtain ⟨-, -, -, -, -, -, -, -, e0, e1⟩ := idx_facts ⟨(i 0 : Nat) / 5000, hlt⟩
    rw [mem_blk4]
    intro a
    match a with
    | ⟨0, _⟩ =>
      show win9_4.index ⟨(i 0 : Nat) / 5000, hlt⟩ (0 : Fin 2) * 5000 ≤ (i 0 : Nat) ∧ (i 0 : Nat) < win9_4.index ⟨(i 0 : Nat) / 5000, hlt⟩ (0 : Fin 2) * 5000 + 5000
      rw [e0]; dsimp only; omega
    | ⟨1, _⟩ =>
      show win9_4.index ⟨(i 0 : Nat) / 5000, hlt⟩ (1 : Fin 2) * 128 ≤ (i 1 : Nat) ∧ (i 1 : Nat) < win9_4.index ⟨(i 0 : Nat) / 5000, hlt⟩ (1 : Fin 2) * 128 + 128
      rw [e1]; omega

/-! ## The two rows of totals: written back once, after the last point -/

theorem last_lt : 19 < cfg9.N := by rw [show cfg9.N = 20 from N_9]; decide

/-- The last grid point. -/
abbrev tLast : Fin cfg9.N := ⟨19, last_lt⟩

/-- The row of column totals after the last point. -/
def R5 (V : (c : Dev nD) → (b : Ref sig .tc) → Buf (Elt Ideal) ((c : Thread nD τ).loc b)) (c : Dev nD) : Buf (Elt Ideal) ((c : Thread nD τ).loc main_v160_1) := (outsAt9 V c 19 last_lt).2.1

/-- The row of totals of squares after the last point. -/
def R6 (V : (c : Dev nD) → (b : Ref sig .tc) → Buf (Elt Ideal) ((c : Thread nD τ).loc b)) (c : Dev nD) : Buf (Elt Ideal) ((c : Thread nD τ).loc main_v160_2) := (outsAt9 V c 19 last_lt).2.2

/-- The one write-back of the row of totals, at the last point, writes the whole row. -/
theorem flushed5 (V : (c : Dev nD) → (b : Ref sig .tc) → Buf (Elt Ideal) ((c : Thread nD τ).loc b)) (c : Dev nD) (t : Fin cfg9.N) (hf : (cfg9.win 5).flush t = true) :
    (dat9 V c).flushed 5 t = ((cfg9.win 5).blk t).view.read (Elt Ideal) (R5 V c) := by
  have hN : cfg9.N = 20 := N_9
  have h19 : t.val = 19 := by have := (flush9_5 t).mp hf; have := t.isLt; omega
  obtain rfl : t = tLast := Fin.ext h19
  show (cfg9.win 5).cut (grid9.coords tLast) ((dat9 V c).after 5 tLast) = _
  rw [after9_5]
  have hz' : (fun a => win9_5.index tLast a * main_v160_1.ty.shape.size a) = fun _ => 0 := funext fun a => by fin_cases a <;> decide +kernel
  exact (Memref.read_access_unit_zero (Elt Ideal) main_v160_1 hz' (fun a => by rw [congrFun hz' a]; simp) (R5 V c)).symm

/-- The one write-back of the row of square totals, at the last point, writes the whole row. -/
theorem flushed6 (V : (c : Dev nD) → (b : Ref sig .tc) → Buf (Elt Ideal) ((c : Thread nD τ).loc b)) (c : Dev nD) (t : Fin cfg9.N) (hf : (cfg9.win 6).flush t = true) :
    (dat9 V c).flushed 6 t = ((cfg9.win 6).blk t).view.read (Elt Ideal) (R6 V c) := by
  have hN : cfg9.N = 20 := N_9
  have h19 : t.val = 19 := by have := (flush9_6 t).mp hf; have := t.isLt; omega
  obtain rfl : t = tLast := Fin.ext h19
  show (cfg9.win 6).cut (grid9.coords tLast) ((dat9 V c).after 6 tLast) = _
  rw [after9_6]
  have hz' : (fun a => win9_6.index tLast a * main_v160_2.ty.shape.size a) = fun _ => 0 := funext fun a => by fin_cases a <;> decide +kernel
  exact (Memref.read_access_unit_zero (Elt Ideal) main_v160_2 hz' (fun a => by rw [congrFun hz' a]; simp) (R6 V c)).symm

/-- The last point's block is the whole row, so the array ends holding the row of totals. -/
theorem final5 (V : (c : Dev nD) → (b : Ref sig .tc) → Buf (Elt Ideal) ((c : Thread nD τ).loc b)) (c : Dev nD) : (dat9 V c).arrAt 5 cfg9.N = R5 V c :=
  (dat9 V c).arrAt_eq_of_cover 5 (R5 V c) (flushed5 V c) fun i =>
    ⟨tLast, (flush9_5 tLast).mpr rfl, by
      show i ∈ ((View.whole main_v160_1).slice (win9_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win9_5.index tLast 0 * win9_5.size 0 ≤ (i 0 : Nat) ∧ (i 0 : Nat) < win9_5.index tLast 0 * win9_5.size 0 + win9_5.xsize (grid9.coords tLast) 0
                  rw [show win9_5.index tLast 0 * win9_5.size 0 = 0 from by decide +kernel, show win9_5.xsize (grid9.coords tLast) 0 = 1 from by decide +kernel]; omega
      | ⟨1, _⟩ => show win9_5.index tLast 1 * win9_5.size 1 ≤ (i 1 : Nat) ∧ (i 1 : Nat) < win9_5.index tLast 1 * win9_5.size 1 + win9_5.xsize (grid9.coords tLast) 1
                  rw [show win9_5.index tLast 1 * win9_5.size 1 = 0 from by decide +kernel, show win9_5.xsize (grid9.coords tLast) 1 = 128 from by decide +kernel]; omega⟩

/-- Likewise the array of square totals ends holding the row of totals of squares. -/
theorem final6 (V : (c : Dev nD) → (b : Ref sig .tc) → Buf (Elt Ideal) ((c : Thread nD τ).loc b)) (c : Dev nD) : (dat9 V c).arrAt 6 cfg9.N = R6 V c :=
  (dat9 V c).arrAt_eq_of_cover 6 (R6 V c) (flushed6 V c) fun i =>
    ⟨tLast, (flush9_6 tLast).mpr rfl, by
      show i ∈ ((View.whole main_v160_2).slice (win9_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win9_6.index tLast 0 * win9_6.size 0 ≤ (i 0 : Nat) ∧ (i 0 : Nat) < win9_6.index tLast 0 * win9_6.size 0 + win9_6.xsize (grid9.coords tLast) 0
                  rw [show win9_6.index tLast 0 * win9_6.size 0 = 0 from by decide +kernel, show win9_6.xsize (grid9.coords tLast) 0 = 1 from by decide +kernel]; omega
      | ⟨1, _⟩ => show win9_6.index tLast 1 * win9_6.size 1 ≤ (i 1 : Nat) ∧ (i 1 : Nat) < win9_6.index tLast 1 * win9_6.size 1 + win9_6.xsize (grid9.coords tLast) 1
                  rw [show win9_6.index tLast 1 * win9_6.size 1 = 0 from by decide +kernel, show win9_6.xsize (grid9.coords tLast) 1 = 128 from by decide +kernel]; omega⟩

/-! ## The three arrays after the region -/

/-- The result array holds the linear map. -/
theorem final_z (V : (c : Dev nD) → (b : Ref sig .tc) → Buf (Elt Ideal) ((c : Thread nD τ).loc b)) (c : Dev nD) (r : Fin 100000) (j : Fin 128) : zOut V c (ix2 r j) = Z V c r j :=
  congrFun (final4 V c) (ix2 r j)

/-- The array of column totals holds, at column j, the sum of the linear map over all rows. -/
theorem final_s (V : (c : Dev nD) → (b : Ref sig .tc) → Buf (Elt Ideal) ((c : Thread nD τ).loc b)) (c : Dev nD) (j : Fin 128) : sOut V c (ix2 0 j) = ∑ r : Fin 100000, Z V c r j :=
  (congrFun (final5 V c) (ix2 0 j)).trans (((outs_inv V c 19 last_lt).2.1 j).trans
    (Cert.BlockSum.sum_20x5000 (fun r => Z V c r j) (Zn V c j) fun n => dif_pos n.isLt))

/-- The array of totals of squares holds, at column j, the sum of the squared linear map over all rows. -/
theorem final_q (V : (c : Dev nD) → (b : Ref sig .tc) → Buf (Elt Ideal) ((c : Thread nD τ).loc b)) (c : Dev nD) (j : Fin 128) : qOut V c (ix2 0 j) = ∑ r : Fin 100000, Z V c r j * Z V c r j :=
  (congrFun (final6 V c) (ix2 0 j)).trans (((outs_inv V c 19 last_lt).2.2 j).trans
    (Cert.BlockSum.sum_20x5000 (fun r => Z V c r j * Z V c r j) (fun n => Zn V c j n * Zn V c j n)
      fun n => by show Zn V c j n.val * Zn V c j n.val = _; unfold Zn; rw [dif_pos n.isLt]))

/-- The region's contract: the result array is the linear map of the sum of the two feature arrays, and the two
    rows of totals are its column sums and the column sums of its squares. -/
theorem contract (V : (c : Dev nD) → (b : Ref sig .tc) → Buf (Elt Ideal) ((c : Thread nD τ).loc b)) (c : Dev nD) :
    cur2 (a := 100000) (b := 128) ((dat9 V c).arrAt 4 cfg9.N) = lin (fun r k => cur2 (a := 100000) (b := 128) (V c (Pipeline.arrRef spec9 0)) r k + cur2 (a := 100000) (b := 128) (V c (Pipeline.arrRef spec9 1)) r k) (cur2 (a := 128) (b := 128) (V c (Pipeline.arrRef spec9 2))) (row (a := 128) (V c (Pipeline.arrRef spec9 3)))
    ∧ row (a := 128) ((dat9 V c).arrAt 5 cfg9.N) = (fun j => ∑ r, cur2 (a := 100000) (b := 128) ((dat9 V c).arrAt 4 cfg9.N) r j)
    ∧ row (a := 128) ((dat9 V c).arrAt 6 cfg9.N) = (fun j => ∑ r, cur2 (a := 100000) (b := 128) ((dat9 V c).arrAt 4 cfg9.N) r j * cur2 (a := 100000) (b := 128) ((dat9 V c).arrAt 4 cfg9.N) r j) := by
  have hz : ∀ (r : Fin 100000) (j : Fin 128), cur2 (a := 100000) (b := 128) ((dat9 V c).arrAt 4 cfg9.N) r j = Z V c r j :=
    fun r j => by unfold Cert.Lib.cur2; exact final_z V c r j
  have hs : ∀ j : Fin 128, row (a := 128) ((dat9 V c).arrAt 5 cfg9.N) j = ∑ r : Fin 100000, Z V c r j :=
    fun j => by unfold Cert.Lib.row; exact final_s V c j
  have hq : ∀ j : Fin 128, row (a := 128) ((dat9 V c).arrAt 6 cfg9.N) j = ∑ r : Fin 100000, Z V c r j * Z V c r j :=
    fun j => by unfold Cert.Lib.row; exact final_q V c j
  refine ⟨funext fun r => funext fun j => (hz r j).trans rfl, funext fun j => ?_, funext fun j => ?_⟩
  · exact (hs j).trans (Finset.sum_congr rfl fun r _ => (hz r j).symm)
  · exact (hq j).trans (Finset.sum_congr rfl fun r _ => by rw [hz r j])

end Cert.KernelIdeal.FirstLinear9

end
-- ==== Proof.RegionBnReluLinear10.lean ====
import proofs.«120577_j28003186770423_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«120577_j28003186770423_1_alg».proof.Proof.LibPlainDot
import proofs.«120577_j28003186770423_1_alg».proof.Proof.LibColumnSum
import proofs.«120577_j28003186770423_1_alg».proof.Proof.LibBlockSum
import proofs.«120577_j28003186770423_1_alg».proof.Proof.LibCurry
import proofs.«120577_j28003186770423_1_alg».proof.Proof.GinMath

/-!
# The second linear map of a layer, with its column sums

A [100000, 128] array z is normalised column by column (subtract the column's mean, scale by the inverse square root of
its variance plus a small constant, multiply by a gain, add an offset), rectified, multiplied by a [128, 128] matrix and
shifted by a row vector.  The rows are processed in twenty blocks of five thousand.  Besides the product itself the
region leaves, for every column, the sum of the product's entries over all hundred thousand rows and the sum of their
squares: two one-row accumulators are set to zero at the first block and each block adds its own column sums to them.

This file reads the three results at an entry: the product entry (r, j) depends on row r of z alone; the two row vectors
are sums over all rows, the twenty partial sums regrouped into one by commutativity and associativity of addition.
-/

set_option maxRecDepth 16384

noncomputable section

namespace Cert.KernelIdeal.BnReluLinear10

open Idealize.ShloMosaic Idealize.ShloMosaic.TcCoe Idealize.ShloMosaic.ValueIdx Idealize.SL.Sem Cert.KernelIdeal Cert.KernelIdeal.Gen
open Idealize.ShloMosaic.Pipeline (Dat)

/-! The seven input arrays as the region finds them, each as a function of its index into the extended reals. -/

/-- the [100000, 128] array z the region normalises -/
abbrev zIn (V : (c : Dev nD) → (b : Ref sig .tc) → Buf (Elt Ideal) ((c : Thread nD τ).loc b)) (c : Dev nD) : S100000x128.Idx → EReal := V c (Pipeline.arrRef spec10 0)
/-- the row of column means -/
abbrev meanIn (V : (c : Dev nD) → (b : Ref sig .tc) → Buf (Elt Ideal) ((c : Thread nD τ).loc b)) (c : Dev nD) : S1x128.Idx → EReal := V c (Pipeline.arrRef spec10 1)
/-- the row of column variances -/
abbrev varIn (V : (c : Dev nD) → (b : Ref sig .tc) → Buf (Elt Ideal) ((c : Thread nD τ).loc b)) (c : Dev nD) : S1x128.Idx → EReal := V c (Pipeline.arrRef spec10 2)
/-- the row of gains -/
abbrev gainIn (V : (c : Dev nD) → (b : Ref sig .tc) → Buf (Elt Ideal) ((c : Thread nD τ).loc b)) (c : Dev nD) : S1x128.Idx → EReal := V c (Pipeline.arrRef spec10 3)
/-- the row of offsets -/
abbrev biasIn (V : (c : Dev nD) → (b : Ref sig .tc) → Buf (Elt Ideal) ((c : Thread nD τ).loc b)) (c : Dev nD) : S1x128.Idx → EReal := V c (Pipeline.arrRef spec10 4)
/-- the [128, 128] matrix -/
abbrev wIn (V : (c : Dev nD) → (b : Ref sig .tc) → Buf (Elt Ideal) ((c : Thread nD τ).loc b)) (c : Dev nD) : S128x128.Idx → EReal := V c (Pipeline.arrRef spec10 5)
/-- the row added after the product -/
abbrev shiftIn (V : (c : Dev nD) → (b : Ref sig .tc) → Buf (Elt Ideal) ((c : Thread nD τ).loc b)) (c : Dev nD) : S1x128.Idx → EReal := V c (Pipeline.arrRef spec10 6)

/-- entry (r, k) of the normalized, rectified activations -/
def Act (V : (c : Dev nD) → (b : Ref sig .tc) → Buf (Elt Ideal) ((c : Thread nD τ).loc b)) (c : Dev nD) (r : Fin 100000) (k : Fin 128) : EReal :=
  max (((zIn V c (ix2 r k) - meanIn V c (ix2 0 k))
         * Ideal.rsqrt (varIn V c (ix2 0 k) + Ideal.ofBits .f32 0x3727C5AC#32))
        * gainIn V c (ix2 0 k)
       + biasIn V c (ix2 0 k)) (Ideal.ofBits .f32 0x00000000#32)

/-- entry (r, j) of the layer's second linear map -/
def Z (V : (c : Dev nD) → (b : Ref sig .tc) → Buf (Elt Ideal) ((c : Thread nD τ).loc b)) (c : Dev nD) (r : Fin 100000) (j : Fin 128) : EReal :=
  (∑ k : Fin 128, Act V c r k * wIn V c (ix2 k j)) + shiftIn V c (ix2 0 j)

/-! ## The body's arithmetic at an entry -/

/-- one activation from an entry of z and its column's mean, variance, gain and offset -/
def actOf (z mean var g b : EReal) : EReal :=
  max ((((z - mean) * Ideal.rsqrt (var + Ideal.ofBits .f32 0x3727C5AC#32)) * g) + b) (Ideal.ofBits .f32 0x00000000#32)

/-- the product's dimension numbers: the left operand's columns against the right operand's rows, no batch axis -/
theorem plain : Cert.PlainDot.IsPlain (M := 5000) (K := 128) (N := 128) dot_S5000x128_S128x128_S5000x128_1_0_0_1_n_n :=
  ⟨rfl, rfl, rfl, rfl, rfl, rfl⟩

/-- Entry (p, q) of a block of the product: the sum over k of the activation (p, k) times the matrix entry (k, q), plus
    the shift at q.  The activation at (p, k) uses row p of the block of z and column k of the four parameter rows. -/
theorem pay5_apply (x0 : Vec Ideal S5000x128 .f32) (xvar xmean xg xb : Vec Ideal S1x128 .f32) (xw : Vec Ideal S128x128 .f32)
    (xc : Vec Ideal S1x128 .f32) (p : Fin 5000) (q : Fin 128) :
    k10_pay5 (F := Ideal) x0 xvar xmean xg xb xw xc (ix2 p q)
      = (∑ k : Fin 128, actOf (x0 (ix2 p k)) (xmean (ix2 0 k)) (xvar (ix2 0 k)) (xg (ix2 0 k)) (xb (ix2 0 k)) * xw (ix2 k q)) + xc (ix2 0 q) := by
  unfold k10_pay5
  simp only [shapeCast_self]
  refine (congrArg₂ (· + ·) (Cert.PlainDot.matmul_apply _ plain none _ _ p q) (broadcastTo_1b_ab_apply _ _ p q)).trans ?_
  refine congrArg (· + xc (ix2 0 q)) (Finset.sum_congr rfl fun k _ => ?_)
  refine congrArg (· * xw (ix2 k q)) ?_
  simp only [truncf_apply, maximumf_apply, addf_apply, mulf_apply, subf_apply, broadcast_apply, broadcastTo_1b_ab_apply]
  rfl

/-- the running column sums after a block: what they held plus the block's column sums -/
theorem pay1_apply (v34 : FVec Ideal S5000x128 .f32) (v36 : Vec Ideal S1x128 .f32) (j : Fin 128) :
    k10_pay1 (F := Ideal) v34 v36 (ix2 0 j) = v36 (ix2 0 j) + ∑ r : Fin 5000, v34 (ix2 r j) := by
  unfold k10_pay1
  simp only [shapeCast_self]
  refine congrArg (v36 (ix2 0 j) + ·) ?_
  refine (shapeCast_a_1a_apply _ _ 0 j).trans ?_
  exact Cert.Lib.column_sum v34 _ _ _ j

/-- the running column sums of squares after a block -/
theorem pay2_apply (v34 : FVec Ideal S5000x128 .f32) (v42 : Vec Ideal S1x128 .f32) (j : Fin 128) :
    k10_pay2 (F := Ideal) v34 v42 (ix2 0 j) = v42 (ix2 0 j) + ∑ r : Fin 5000, v34 (ix2 r j) * v34 (ix2 r j) := by
  unfold k10_pay2
  simp only [shapeCast_self]
  refine congrArg (v42 (ix2 0 j) + ·) ?_
  refine (shapeCast_a_1a_apply _ _ 0 j).trans ?_
  exact Cert.Lib.column_sum (mulf v34 v34) _ _ _ j

/-- the first block starts both accumulators from zero -/
theorem pay3_apply (j : Fin 128) : k10_pay3 (F := Ideal) (ix2 0 j) = 0 := by
  unfold k10_pay3
  exact Ideal.ofBits_zero_f32

theorem pay4_apply (j : Fin 128) : k10_pay4 (F := Ideal) (ix2 0 j) = 0 := by
  unfold k10_pay4
  exact Ideal.ofBits_zero_f32

/-! ## What each of the two control cases leaves in the three output blocks -/

section Cases

variable {F : FTy → Type} [FloatOps F]

theorem hz : (![0, 0] : Fin 2 → Nat) = fun _ => 0 := funext fun a => by fin_cases a <;> rfl

/-- first block: the product block -/
theorem outA7 (c : Dev nD) (i : grid10.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond10_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out10_A_7 c i arg1 harg1 arg2 harg2 arg3 harg3 arg4 harg4 arg5 harg5 arg6 harg6 arg7 harg7 arg8 harg8 arg9 harg9 arg10 harg10 hc0 x0 x1 x2 x3 x4 x5 x6 = k10_pay5 x0 x2 x1 x3 x4 x5 x6 := by
  unfold out10_A_7
  rw [View.read_writes_eq_canon _ _ _ (cover10_A_7 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  try sl_unfold_words
  rw [View.canon_unit_zero hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- first block: the column sums start from the zero row -/
theorem outA8 (c : Dev nD) (i : grid10.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond10_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out10_A_8 c i arg1 harg1 arg2 harg2 arg3 harg3 arg4 harg4 arg5 harg5 arg6 harg6 arg7 harg7 arg8 harg8 arg9 harg9 arg10 harg10 hc0 x0 x1 x2 x3 x4 x5 x6 = k10_pay1 (k10_pay5 x0 x2 x1 x3 x4 x5 x6) (k10_pay3 (F := F)) := by
  unfold out10_A_8
  rw [View.read_writes_eq_canon _ _ _ (cover10_A_8 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- first block: the column sums of squares start from the zero row -/
theorem outA9 (c : Dev nD) (i : grid10.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond10_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out10_A_9 c i arg1 harg1 arg2 harg2 arg3 harg3 arg4 harg4 arg5 harg5 arg6 harg6 arg7 harg7 arg8 harg8 arg9 harg9 arg10 harg10 hc0 x0 x1 x2 x3 x4 x5 x6 = k10_pay2 (k10_pay5 x0 x2 x1 x3 x4 x5 x6) (k10_pay4 (F := F)) := by
  unfold out10_A_9
  rw [View.read_writes_eq_canon _ _ _ (cover10_A_9 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  try sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S1x128) hz, View.ld_unit_zero (S := S128x128) hz]

/-- later block: the product block -/
theorem outB7 (c : Dev nD) (i : grid10.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond10_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out10_B_7 c i arg1 harg1 arg2 harg2 arg3 harg3 arg4 harg4 arg5 harg5 arg6 harg6 arg7 harg7 arg8 harg8 arg9 harg9 arg10 harg10 hc0 x0 x1 x2 x3 x4 x5 x6 xo8 xo9 = k10_pay5 x0 x2 x1 x3 x4 x5 x6 := by
  unfold out10_B_7
  rw [View.read_writes_eq_canon _ _ _ (cover10_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

/-- later block: the column sums carried from the block before, plus this block's -/
theorem outB8 (c : Dev nD) (i : grid10.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond10_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out10_B_8 c i arg1 harg1 arg2 harg2 arg3 harg3 arg4 harg4 arg5 harg5 arg6 harg6 arg7 harg7 arg8 harg8 arg9 harg9 arg10 harg10 hc0 x0 x1 x2 x3 x4 x5 x6 xo8 xo9 = k10_pay1 (k10_pay5 x0 x2 x1 x3 x4 x5 x6) xo8 := by
  unfold out10_B_8
  rw [View.read_writes_eq_canon _ _ _ (cover10_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

/-- later block: the column sums of squares carried from the block before, plus this block's -/
theorem outB9 (c : Dev nD) (i : grid10.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond10_0 i) (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out10_B_9 c i arg1 harg1 arg2 harg2 arg3 harg3 arg4 harg4 arg5 harg5 arg6 harg6 arg7 harg7 arg8 harg8 arg9 harg9 arg10 harg10 hc0 x0 x1 x2 x3 x4 x5 x6 xo8 xo9 = k10_pay2 (k10_pay5 x0 x2 x1 x3 x4 x5 x6) xo9 := by
  unfold out10_B_9
  rw [View.read_writes_eq_canon _ _ _ (cover10_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S1x128) hz, View.ld_unit_zero (S := S128x128) hz]

end Cases

/-! ## The blocks the body reads, as entries of the arrays -/

variable (V : (c : Dev nD) → (b : Ref sig .tc) → Buf (Elt Ideal) ((c : Thread nD τ).loc b))

/-! Block indices, decided once over the twenty grid points: the two row-blocked windows (the input z and the product)
    are at block t of the rows at point t; every other window stays at its one block. -/

theorem idx_0 : ∀ t : Fin cfg10.N, win10_0.index t (0 : Fin 2) = t.val ∧ win10_0.index t (1 : Fin 2) = 0 :=
  (by decide +kernel : ∀ t : Fin grid10.N, _)
theorem idx_1 : ∀ t : Fin cfg10.N, win10_1.index t (0 : Fin 2) = 0 ∧ win10_1.index t (1 : Fin 2) = 0 :=
  (by decide +kernel : ∀ t : Fin grid10.N, _)
theorem idx_2 : ∀ t : Fin cfg10.N, win10_2.index t (0 : Fin 2) = 0 ∧ win10_2.index t (1 : Fin 2) = 0 :=
  (by decide +kernel : ∀ t : Fin grid10.N, _)
theorem idx_3 : ∀ t : Fin cfg10.N, win10_3.index t (0 : Fin 2) = 0 ∧ win10_3.index t (1 : Fin 2) = 0 :=
  (by decide +kernel : ∀ t : Fin grid10.N, _)
theorem idx_4 : ∀ t : Fin cfg10.N, win10_4.index t (0 : Fin 2) = 0 ∧ win10_4.index t (1 : Fin 2) = 0 :=
  (by decide +kernel : ∀ t : Fin grid10.N, _)
theorem idx_5 : ∀ t : Fin cfg10.N, win10_5.index t (0 : Fin 2) = 0 ∧ win10_5.index t (1 : Fin 2) = 0 :=
  (by decide +kernel : ∀ t : Fin grid10.N, _)
theorem idx_6 : ∀ t : Fin cfg10.N, win10_6.index t (0 : Fin 2) = 0 ∧ win10_6.index t (1 : Fin 2) = 0 :=
  (by decide +kernel : ∀ t : Fin grid10.N, _)
theorem idx_7 : ∀ t : Fin cfg10.N, win10_7.index t (0 : Fin 2) = t.val ∧ win10_7.index t (1 : Fin 2) = 0 :=
  (by decide +kernel : ∀ t : Fin grid10.N, _)
theorem idx_8 : ∀ t : Fin cfg10.N, win10_8.index t (0 : Fin 2) = 0 ∧ win10_8.index t (1 : Fin 2) = 0 :=
  (by decide +kernel : ∀ t : Fin grid10.N, _)
theorem idx_9 : ∀ t : Fin cfg10.N, win10_9.index t (0 : Fin 2) = 0 ∧ win10_9.index t (1 : Fin 2) = 0 :=
  (by decide +kernel : ∀ t : Fin grid10.N, _)

/-- entry (p, k) of block t of z is entry (5000 t + p, k) of z -/
theorem iblk_z (c : Dev nD) (t : Fin cfg10.N) (p : Fin 5000) (k : Fin 128) (hb : 5000 * t.val + p.val < 100000) :
    (iblk10 V c 0 t : Vec Ideal S5000x128 .f32) (ix2 p k)
      = zIn V c (ix2 ⟨5000 * t.val + p.val, hb⟩ k) := by
  obtain ⟨e0, e1⟩ := idx_0 t
  show zIn V c (((cfg10.win 0).blk t).view.emb (ix2 p k)) = _
  refine congrArg (zIn V c) (funext fun a => Fin.ext ?_)
  match a with
  | ⟨0, _⟩ => show win10_0.index t (0 : Fin 2) * 5000 + 1 * p.val = 5000 * t.val + p.val; rw [e0]; omega
  | ⟨1, _⟩ => show win10_0.index t (1 : Fin 2) * 128 + 1 * k.val = k.val; rw [e1]; omega

/-- window 1 (the column means) is one row, the same at every grid point -/
theorem iblk_row1 (c : Dev nD) (t : Fin cfg10.N) (k : Fin 128) :
    (iblk10 V c 1 t : Vec Ideal S1x128 .f32) (ix2 0 k) = meanIn V c (ix2 0 k) := by
  obtain ⟨e0, e1⟩ := idx_1 t
  show meanIn V c (((cfg10.win 1).blk t).view.emb (ix2 0 k)) = _
  refine congrArg (meanIn V c) (funext fun a => Fin.ext ?_)
  match a with
  | ⟨0, _⟩ => show win10_1.index t (0 : Fin 2) * 1 + 1 * 0 = 0; rw [e0]
  | ⟨1, _⟩ => show win10_1.index t (1 : Fin 2) * 128 + 1 * k.val = k.val; rw [e1]; omega

/-- window 2 (the column variances) is one row, the same at every grid point -/
theorem iblk_row2 (c : Dev nD) (t : Fin cfg10.N) (k : Fin 128) :
    (iblk10 V c 2 t : Vec Ideal S1x128 .f32) (ix2 0 k) = varIn V c (ix2 0 k) := by
  obtain ⟨e0, e1⟩ := idx_2 t
  show varIn V c (((cfg10.win 2).blk t).view.emb (ix2 0 k)) = _
  refine congrArg (varIn V c) (funext fun a => Fin.ext ?_)
  match a with
  | ⟨0, _⟩ => show win10_2.index t (0 : Fin 2) * 1 + 1 * 0 = 0; rw [e0]
  | ⟨1, _⟩ => show win10_2.index t (1 : Fin 2) * 128 + 1 * k.val = k.val; rw [e1]; omega

/-- window 3 (the gains) is one row, the same at every grid point -/
theorem iblk_row3 (c : Dev nD) (t : Fin cfg10.N) (k : Fin 128) :
    (iblk10 V c 3 t : Vec Ideal S1x128 .f32) (ix2 0 k) = gainIn V c (ix2 0 k) := by
  obtain ⟨e0, e1⟩ := idx_3 t
  show gainIn V c (((cfg10.win 3).blk t).view.emb (ix2 0 k)) = _
  refine congrArg (gainIn V c) (funext fun a => Fin.ext ?_)
  match a with
  | ⟨0, _⟩ => show win10_3.index t (0 : Fin 2) * 1 + 1 * 0 = 0; rw [e0]
  | ⟨1, _⟩ => show win10_3.index t (1 : Fin 2) * 128 + 1 * k.val = k.val; rw [e1]; omega

/-- window 4 (the offsets) is one row, the same at every grid point -/
theorem iblk_row4 (c : Dev nD) (t : Fin cfg10.N) (k : Fin 128) :
    (iblk10 V c 4 t : Vec Ideal S1x128 .f32) (ix2 0 k) = biasIn V c (ix2 0 k) := by
  obtain ⟨e0, e1⟩ := idx_4 t
  show biasIn V c (((cfg10.win 4).blk t).view.emb (ix2 0 k)) = _
  refine congrArg (biasIn V c) (funext fun a => Fin.ext ?_)
  match a with
  | ⟨0, _⟩ => show win10_4.index t (0 : Fin 2) * 1 + 1 * 0 = 0; rw [e0]
  | ⟨1, _⟩ => show win10_4.index t (1 : Fin 2) * 128 + 1 * k.val = k.val; rw [e1]; omega

/-- window 6 (the shift) is one row, the same at every grid point -/
theorem iblk_row6 (c : Dev nD) (t : Fin cfg10.N) (k : Fin 128) :
    (iblk10 V c 6 t : Vec Ideal S1x128 .f32) (ix2 0 k) = shiftIn V c (ix2 0 k) := by
  obtain ⟨e0, e1⟩ := idx_6 t
  show shiftIn V c (((cfg10.win 6).blk t).view.emb (ix2 0 k)) = _
  refine congrArg (shiftIn V c) (funext fun a => Fin.ext ?_)
  match a with
  | ⟨0, _⟩ => show win10_6.index t (0 : Fin 2) * 1 + 1 * 0 = 0; rw [e0]
  | ⟨1, _⟩ => show win10_6.index t (1 : Fin 2) * 128 + 1 * k.val = k.val; rw [e1]; omega

/-- window 5 is the whole [128, 128] matrix at every grid point -/
theorem iblk_w (c : Dev nD) (t : Fin cfg10.N) (k q : Fin 128) :
    (iblk10 V c 5 t : Vec Ideal S128x128 .f32) (ix2 k q) = wIn V c (ix2 k q) := by
  obtain ⟨e0, e1⟩ := idx_5 t
  show wIn V c (((cfg10.win 5).blk t).view.emb (ix2 k q)) = _
  refine congrArg (wIn V c) (funext fun a => Fin.ext ?_)
  match a with
  | ⟨0, _⟩ => show win10_5.index t (0 : Fin 2) * 128 + 1 * k.val = k.val; rw [e0]; omega
  | ⟨1, _⟩ => show win10_5.index t (1 : Fin 2) * 128 + 1 * q.val = q.val; rw [e1]; omega

/-! ## The product block of a grid point, and the running sums -/

/-- the product block the body computes at point t -/
noncomputable def blockZ (c : Dev nD) (t : Fin cfg10.N) : Vec Ideal S5000x128 .f32 :=
  k10_pay5 (F := Ideal) (iblk10 V c 0 t) (iblk10 V c 2 t) (iblk10 V c 1 t) (iblk10 V c 3 t) (iblk10 V c 4 t) (iblk10 V c 5 t) (iblk10 V c 6 t)

/-- the product's entry (n, j) for a row number n, zero past the last row (never used there) -/
noncomputable def Zn (c : Dev nD) (n : ℕ) (j : Fin 128) : EReal := if h : n < 100000 then Z V c ⟨n, h⟩ j else 0

theorem Zn_val (c : Dev nD) (n : Fin 100000) (j : Fin 128) : Zn V c n.val j = Z V c n j := dif_pos n.isLt

/-- entry (p, q) of the product block at point t is the product's entry (5000 t + p, q) -/
theorem blockZ_apply (c : Dev nD) (t : Fin cfg10.N) (p : Fin 5000) (q : Fin 128) :
    blockZ V c t (ix2 p q) = Zn V c (5000 * t.val + p.val) q := by
  have hN : t.val < 20 := lt_of_lt_of_eq t.isLt (show cfg10.N = 20 from N_10)
  have hb : 5000 * t.val + p.val < 100000 := by have := p.isLt; omega
  unfold Zn
  rw [dif_pos hb]
  unfold blockZ Z
  refine (pay5_apply (iblk10 V c 0 t) (iblk10 V c 2 t) (iblk10 V c 1 t) (iblk10 V c 3 t) (iblk10 V c 4 t) (iblk10 V c 5 t) (iblk10 V c 6 t) p q).trans ?_
  refine congrArg₂ (· + ·) (Finset.sum_congr rfl fun k _ => congrArg₂ (· * ·) ?_ (iblk_w V c t k q)) (iblk_row6 V c t q)
  show actOf _ _ _ _ _ = Act V c ⟨5000 * t.val + p.val, hb⟩ k
  rw [iblk_z V c t p k hb, iblk_row1 V c t k, iblk_row2 V c t k, iblk_row3 V c t k, iblk_row4 V c t k]
  rfl

/-- column j of block s of the product, summed over the block's rows -/
noncomputable def colS (c : Dev nD) (s : ℕ) (j : Fin 128) : EReal := ∑ r : Fin 5000, Zn V c (5000 * s + r.val) j

/-- the same for the squares -/
noncomputable def colQ (c : Dev nD) (s : ℕ) (j : Fin 128) : EReal :=
  ∑ r : Fin 5000, Zn V c (5000 * s + r.val) j * Zn V c (5000 * s + r.val) j

/-- After point n the first output block is the product block of point n, and the two accumulators hold, from zero, the
    column sums (and sums of squares) of blocks 0 to n: by induction on the point, the first point resetting and every
    later point adding to what the point before left. -/
theorem outs_eq (c : Dev nD) : ∀ (n : ℕ) (h : n < cfg10.N),
    (outsAt10 V c n h).1 = blockZ V c ⟨n, h⟩
    ∧ (∀ j : Fin 128, ((outsAt10 V c n h).2.1 : S1x128.Idx → EReal) (ix2 0 j) = 0 + ∑ s ∈ Finset.range (n + 1), colS V c s j)
    ∧ (∀ j : Fin 128, ((outsAt10 V c n h).2.2 : S1x128.Idx → EReal) (ix2 0 j) = 0 + ∑ s ∈ Finset.range (n + 1), colQ V c s j)
  | 0, h => by
    have e := outsAt10_A V c (⟨0, h⟩ : Fin cfg10.N) rfl
    rw [outA7 (F := Ideal) c (grid10.coords (⟨0, h⟩ : Fin cfg10.N)) (ms10_0 (⟨0, h⟩ : Fin cfg10.N)) (hs10_0 (⟨0, h⟩ : Fin cfg10.N)) (ms10_1 (⟨0, h⟩ : Fin cfg10.N)) (hs10_1 (⟨0, h⟩ : Fin cfg10.N)) (ms10_2 (⟨0, h⟩ : Fin cfg10.N)) (hs10_2 (⟨0, h⟩ : Fin cfg10.N)) (ms10_3 (⟨0, h⟩ : Fin cfg10.N)) (hs10_3 (⟨0, h⟩ : Fin cfg10.N)) (ms10_4 (⟨0, h⟩ : Fin cfg10.N)) (hs10_4 (⟨0, h⟩ : Fin cfg10.N)) (ms10_5 (⟨0, h⟩ : Fin cfg10.N)) (hs10_5 (⟨0, h⟩ : Fin cfg10.N)) (ms10_6 (⟨0, h⟩ : Fin cfg10.N)) (hs10_6 (⟨0, h⟩ : Fin cfg10.N)) (ms10_7 (⟨0, h⟩ : Fin cfg10.N)) (hs10_7 (⟨0, h⟩ : Fin cfg10.N)) (ms10_8 (⟨0, h⟩ : Fin cfg10.N)) (hs10_8 (⟨0, h⟩ : Fin cfg10.N)) (ms10_9 (⟨0, h⟩ : Fin cfg10.N)) (hs10_9 (⟨0, h⟩ : Fin cfg10.N)) ((hcond10_0 (⟨0, h⟩ : Fin cfg10.N)).mpr rfl) (iblk10 V c 0 (⟨0, h⟩ : Fin cfg10.N)) (iblk10 V c 1 (⟨0, h⟩ : Fin cfg10.N)) (iblk10 V c 2 (⟨0, h⟩ : Fin cfg10.N)) (iblk10 V c 3 (⟨0, h⟩ : Fin cfg10.N)) (iblk10 V c 4 (⟨0, h⟩ : Fin cfg10.N)) (iblk10 V c 5 (⟨0, h⟩ : Fin cfg10.N)) (iblk10 V c 6 (⟨0, h⟩ : Fin cfg10.N)), outA8 (F := Ideal) c (grid10.coords (⟨0, h⟩ : Fin cfg10.N)) (ms10_0 (⟨0, h⟩ : Fin cfg10.N)) (hs10_0 (⟨0, h⟩ : Fin cfg10.N)) (ms10_1 (⟨0, h⟩ : Fin cfg10.N)) (hs10_1 (⟨0, h⟩ : Fin cfg10.N)) (ms10_2 (⟨0, h⟩ : Fin cfg10.N)) (hs10_2 (⟨0, h⟩ : Fin cfg10.N)) (ms10_3 (⟨0, h⟩ : Fin cfg10.N)) (hs10_3 (⟨0, h⟩ : Fin cfg10.N)) (ms10_4 (⟨0, h⟩ : Fin cfg10.N)) (hs10_4 (⟨0, h⟩ : Fin cfg10.N)) (ms10_5 (⟨0, h⟩ : Fin cfg10.N)) (hs10_5 (⟨0, h⟩ : Fin cfg10.N)) (ms10_6 (⟨0, h⟩ : Fin cfg10.N)) (hs10_6 (⟨0, h⟩ : Fin cfg10.N)) (ms10_7 (⟨0, h⟩ : Fin cfg10.N)) (hs10_7 (⟨0, h⟩ : Fin cfg10.N)) (ms10_8 (⟨0, h⟩ : Fin cfg10.N)) (hs10_8 (⟨0, h⟩ : Fin cfg10.N)) (ms10_9 (⟨0, h⟩ : Fin cfg10.N)) (hs10_9 (⟨0, h⟩ : Fin cfg10.N)) ((hcond10_0 (⟨0, h⟩ : Fin cfg10.N)).mpr rfl) (iblk10 V c 0 (⟨0, h⟩ : Fin cfg10.N)) (iblk10 V c 1 (⟨0, h⟩ : Fin cfg10.N)) (iblk10 V c 2 (⟨0, h⟩ : Fin cfg10.N)) (iblk10 V c 3 (⟨0, h⟩ : Fin cfg10.N)) (iblk10 V c 4 (⟨0, h⟩ : Fin cfg10.N)) (iblk10 V c 5 (⟨0, h⟩ : Fin cfg10.N)) (iblk10 V c 6 (⟨0, h⟩ : Fin cfg10.N)), outA9 (F := Ideal) c (grid10.coords (⟨0, h⟩ : Fin cfg10.N)) (ms10_0 (⟨0, h⟩ : Fin cfg10.N)) (hs10_0 (⟨0, h⟩ : Fin cfg10.N)) (ms10_1 (⟨0, h⟩ : Fin cfg10.N)) (hs10_1 (⟨0, h⟩ : Fin cfg10.N)) (ms10_2 (⟨0, h⟩ : Fin cfg10.N)) (hs10_2 (⟨0, h⟩ : Fin cfg10.N)) (ms10_3 (⟨0, h⟩ : Fin cfg10.N)) (hs10_3 (⟨0, h⟩ : Fin cfg10.N)) (ms10_4 (⟨0, h⟩ : Fin cfg10.N)) (hs10_4 (⟨0, h⟩ : Fin cfg10.N)) (ms10_5 (⟨0, h⟩ : Fin cfg10.N)) (hs10_5 (⟨0, h⟩ : Fin cfg10.N)) (ms10_6 (⟨0, h⟩ : Fin cfg10.N)) (hs10_6 (⟨0, h⟩ : Fin cfg10.N)) (ms10_7 (⟨0, h⟩ : Fin cfg10.N)) (hs10_7 (⟨0, h⟩ : Fin cfg10.N)) (ms10_8 (⟨0, h⟩ : Fin cfg10.N)) (hs10_8 (⟨0, h⟩ : Fin cfg10.N)) (ms10_9 (⟨0, h⟩ : Fin cfg10.N)) (hs10_9 (⟨0, h⟩ : Fin cfg10.N)) ((hcond10_0 (⟨0, h⟩ : Fin cfg10.N)).mpr rfl) (iblk10 V c 0 (⟨0, h⟩ : Fin cfg10.N)) (iblk10 V c 1 (⟨0, h⟩ : Fin cfg10.N)) (iblk10 V c 2 (⟨0, h⟩ : Fin cfg10.N)) (iblk10 V c 3 (⟨0, h⟩ : Fin cfg10.N)) (iblk10 V c 4 (⟨0, h⟩ : Fin cfg10.N)) (iblk10 V c 5 (⟨0, h⟩ : Fin cfg10.N)) (iblk10 V c 6 (⟨0, h⟩ : Fin cfg10.N))] at e
    have e7 : (outsAt10 V c 0 h).1 = blockZ V c (⟨0, h⟩ : Fin cfg10.N) := congrArg Prod.fst e
    have e8 : (outsAt10 V c 0 h).2.1 = k10_pay1 (F := Ideal) (blockZ V c (⟨0, h⟩ : Fin cfg10.N)) (k10_pay3 (F := Ideal)) := congrArg (fun p => p.2.1) e
    have e9 : (outsAt10 V c 0 h).2.2 = k10_pay2 (F := Ideal) (blockZ V c (⟨0, h⟩ : Fin cfg10.N)) (k10_pay4 (F := Ideal)) := congrArg (fun p => p.2.2) e
    refine ⟨e7, fun j => ?_, fun j => ?_⟩
    · refine (congrFun e8 (ix2 0 j)).trans ?_
      refine (pay1_apply _ _ j).trans ?_
      rw [pay3_apply, Finset.sum_range_one]
      exact congrArg (0 + ·) (Finset.sum_congr rfl fun r _ => blockZ_apply V c (⟨0, h⟩ : Fin cfg10.N) r j)
    · refine (congrFun e9 (ix2 0 j)).trans ?_
      refine (pay2_apply _ _ j).trans ?_
      rw [pay4_apply, Finset.sum_range_one]
      exact congrArg (0 + ·) (Finset.sum_congr rfl fun r _ =>
        congrArg₂ (· * ·) (blockZ_apply V c (⟨0, h⟩ : Fin cfg10.N) r j) (blockZ_apply V c (⟨0, h⟩ : Fin cfg10.N) r j))
  | n + 1, h => by
    have hN : cfg10.N = 20 := N_10
    have hB : ¬(⟨n + 1, h⟩ : Fin cfg10.N).val % 20 = 0 := by dsimp only; omega
    obtain ⟨-, ih8, ih9⟩ := outs_eq c n (Nat.lt_of_succ_lt h)
    have e := outsAt10_B V c (⟨n + 1, h⟩ : Fin cfg10.N) hB
    rw [outB7 (F := Ideal) c (grid10.coords (⟨n + 1, h⟩ : Fin cfg10.N)) (ms10_0 (⟨n + 1, h⟩ : Fin cfg10.N)) (hs10_0 (⟨n + 1, h⟩ : Fin cfg10.N)) (ms10_1 (⟨n + 1, h⟩ : Fin cfg10.N)) (hs10_1 (⟨n + 1, h⟩ : Fin cfg10.N)) (ms10_2 (⟨n + 1, h⟩ : Fin cfg10.N)) (hs10_2 (⟨n + 1, h⟩ : Fin cfg10.N)) (ms10_3 (⟨n + 1, h⟩ : Fin cfg10.N)) (hs10_3 (⟨n + 1, h⟩ : Fin cfg10.N)) (ms10_4 (⟨n + 1, h⟩ : Fin cfg10.N)) (hs10_4 (⟨n + 1, h⟩ : Fin cfg10.N)) (ms10_5 (⟨n + 1, h⟩ : Fin cfg10.N)) (hs10_5 (⟨n + 1, h⟩ : Fin cfg10.N)) (ms10_6 (⟨n + 1, h⟩ : Fin cfg10.N)) (hs10_6 (⟨n + 1, h⟩ : Fin cfg10.N)) (ms10_7 (⟨n + 1, h⟩ : Fin cfg10.N)) (hs10_7 (⟨n + 1, h⟩ : Fin cfg10.N)) (ms10_8 (⟨n + 1, h⟩ : Fin cfg10.N)) (hs10_8 (⟨n + 1, h⟩ : Fin cfg10.N)) (ms10_9 (⟨n + 1, h⟩ : Fin cfg10.N)) (hs10_9 (⟨n + 1, h⟩ : Fin cfg10.N)) (fun hcnd => hB ((hcond10_0 (⟨n + 1, h⟩ : Fin cfg10.N)).mp hcnd)) (iblk10 V c 0 (⟨n + 1, h⟩ : Fin cfg10.N)) (iblk10 V c 1 (⟨n + 1, h⟩ : Fin cfg10.N)) (iblk10 V c 2 (⟨n + 1, h⟩ : Fin cfg10.N)) (iblk10 V c 3 (⟨n + 1, h⟩ : Fin cfg10.N)) (iblk10 V c 4 (⟨n + 1, h⟩ : Fin cfg10.N)) (iblk10 V c 5 (⟨n + 1, h⟩ : Fin cfg10.N)) (iblk10 V c 6 (⟨n + 1, h⟩ : Fin cfg10.N)) (outsAt10 V c ((⟨n + 1, h⟩ : Fin cfg10.N).val - 1) (Nat.lt_of_le_of_lt (Nat.sub_le _ _) (⟨n + 1, h⟩ : Fin cfg10.N).isLt)).2.1 (outsAt10 V c ((⟨n + 1, h⟩ : Fin cfg10.N).val - 1) (Nat.lt_of_le_of_lt (Nat.sub_le _ _) (⟨n + 1, h⟩ : Fin cfg10.N).isLt)).2.2, outB8 (F := Ideal) c (grid10.coords (⟨n + 1, h⟩ : Fin cfg10.N)) (ms10_0 (⟨n + 1, h⟩ : Fin cfg10.N)) (hs10_0 (⟨n + 1, h⟩ : Fin cfg10.N)) (ms10_1 (⟨n + 1, h⟩ : Fin cfg10.N)) (hs10_1 (⟨n + 1, h⟩ : Fin cfg10.N)) (ms10_2 (⟨n + 1, h⟩ : Fin cfg10.N)) (hs10_2 (⟨n + 1, h⟩ : Fin cfg10.N)) (ms10_3 (⟨n + 1, h⟩ : Fin cfg10.N)) (hs10_3 (⟨n + 1, h⟩ : Fin cfg10.N)) (ms10_4 (⟨n + 1, h⟩ : Fin cfg10.N)) (hs10_4 (⟨n + 1, h⟩ : Fin cfg10.N)) (ms10_5 (⟨n + 1, h⟩ : Fin cfg10.N)) (hs10_5 (⟨n + 1, h⟩ : Fin cfg10.N)) (ms10_6 (⟨n + 1, h⟩ : Fin cfg10.N)) (hs10_6 (⟨n + 1, h⟩ : Fin cfg10.N)) (ms10_7 (⟨n + 1, h⟩ : Fin cfg10.N)) (hs10_7 (⟨n + 1, h⟩ : Fin cfg10.N)) (ms10_8 (⟨n + 1, h⟩ : Fin cfg10.N)) (hs10_8 (⟨n + 1, h⟩ : Fin cfg10.N)) (ms10_9 (⟨n + 1, h⟩ : Fin cfg10.N)) (hs10_9 (⟨n + 1, h⟩ : Fin cfg10.N)) (fun hcnd => hB ((hcond10_0 (⟨n + 1, h⟩ : Fin cfg10.N)).mp hcnd)) (iblk10 V c 0 (⟨n + 1, h⟩ : Fin cfg10.N)) (iblk10 V c 1 (⟨n + 1, h⟩ : Fin cfg10.N)) (iblk10 V c 2 (⟨n + 1, h⟩ : Fin cfg10.N)) (iblk10 V c 3 (⟨n + 1, h⟩ : Fin cfg10.N)) (iblk10 V c 4 (⟨n + 1, h⟩ : Fin cfg10.N)) (iblk10 V c 5 (⟨n + 1, h⟩ : Fin cfg10.N)) (iblk10 V c 6 (⟨n + 1, h⟩ : Fin cfg10.N)) (outsAt10 V c ((⟨n + 1, h⟩ : Fin cfg10.N).val - 1) (Nat.lt_of_le_of_lt (Nat.sub_le _ _) (⟨n + 1, h⟩ : Fin cfg10.N).isLt)).2.1 (outsAt10 V c ((⟨n + 1, h⟩ : Fin cfg10.N).val - 1) (Nat.lt_of_le_of_lt (Nat.sub_le _ _) (⟨n + 1, h⟩ : Fin cfg10.N).isLt)).2.2, outB9 (F := Ideal) c (grid10.coords (⟨n + 1, h⟩ : Fin cfg10.N)) (ms10_0 (⟨n + 1, h⟩ : Fin cfg10.N)) (hs10_0 (⟨n + 1, h⟩ : Fin cfg10.N)) (ms10_1 (⟨n + 1, h⟩ : Fin cfg10.N)) (hs10_1 (⟨n + 1, h⟩ : Fin cfg10.N)) (ms10_2 (⟨n + 1, h⟩ : Fin cfg10.N)) (hs10_2 (⟨n + 1, h⟩ : Fin cfg10.N)) (ms10_3 (⟨n + 1, h⟩ : Fin cfg10.N)) (hs10_3 (⟨n + 1, h⟩ : Fin cfg10.N)) (ms10_4 (⟨n + 1, h⟩ : Fin cfg10.N)) (hs10_4 (⟨n + 1, h⟩ : Fin cfg10.N)) (ms10_5 (⟨n + 1, h⟩ : Fin cfg10.N)) (hs10_5 (⟨n + 1, h⟩ : Fin cfg10.N)) (ms10_6 (⟨n + 1, h⟩ : Fin cfg10.N)) (hs10_6 (⟨n + 1, h⟩ : Fin cfg10.N)) (ms10_7 (⟨n + 1, h⟩ : Fin cfg10.N)) (hs10_7 (⟨n + 1, h⟩ : Fin cfg10.N)) (ms10_8 (⟨n + 1, h⟩ : Fin cfg10.N)) (hs10_8 (⟨n + 1, h⟩ : Fin cfg10.N)) (ms10_9 (⟨n + 1, h⟩ : Fin cfg10.N)) (hs10_9 (⟨n + 1, h⟩ : Fin cfg10.N)) (fun hcnd => hB ((hcond10_0 (⟨n + 1, h⟩ : Fin cfg10.N)).mp hcnd)) (iblk10 V c 0 (⟨n + 1, h⟩ : Fin cfg10.N)) (iblk10 V c 1 (⟨n + 1, h⟩ : Fin cfg10.N)) (iblk10 V c 2 (⟨n + 1, h⟩ : Fin cfg10.N)) (iblk10 V c 3 (⟨n + 1, h⟩ : Fin cfg10.N)) (iblk10 V c 4 (⟨n + 1, h⟩ : Fin cfg10.N)) (iblk10 V c 5 (⟨n + 1, h⟩ : Fin cfg10.N)) (iblk10 V c 6 (⟨n + 1, h⟩ : Fin cfg10.N)) (outsAt10 V c ((⟨n + 1, h⟩ : Fin cfg10.N).val - 1) (Nat.lt_of_le_of_lt (Nat.sub_le _ _) (⟨n + 1, h⟩ : Fin cfg10.N).isLt)).2.1 (outsAt10 V c ((⟨n + 1, h⟩ : Fin cfg10.N).val - 1) (Nat.lt_of_le_of_lt (Nat.sub_le _ _) (⟨n + 1, h⟩ : Fin cfg10.N).isLt)).2.2] at e
    have e7 : (outsAt10 V c (n + 1) h).1 = blockZ V c (⟨n + 1, h⟩ : Fin cfg10.N) := congrArg Prod.fst e
    have e8 : (outsAt10 V c (n + 1) h).2.1
        = k10_pay1 (F := Ideal) (blockZ V c (⟨n + 1, h⟩ : Fin cfg10.N)) (outsAt10 V c n (Nat.lt_of_succ_lt h)).2.1 := congrArg (fun p => p.2.1) e
    have e9 : (outsAt10 V c (n + 1) h).2.2
        = k10_pay2 (F := Ideal) (blockZ V c (⟨n + 1, h⟩ : Fin cfg10.N)) (outsAt10 V c n (Nat.lt_of_succ_lt h)).2.2 := congrArg (fun p => p.2.2) e
    refine ⟨e7, fun j => ?_, fun j => ?_⟩
    · refine (congrFun e8 (ix2 0 j)).trans ?_
      refine (pay1_apply _ _ j).trans ?_
      refine (congrArg₂ (· + ·) (ih8 j) (Finset.sum_congr rfl fun r _ => blockZ_apply V c (⟨n + 1, h⟩ : Fin cfg10.N) r j)).trans ?_
      exact (add_assoc _ _ _).trans (congrArg (0 + ·) (Finset.sum_range_succ (fun s => colS V c s j) (n + 1)).symm)
    · refine (congrFun e9 (ix2 0 j)).trans ?_
      refine (pay2_apply _ _ j).trans ?_
      refine (congrArg₂ (· + ·) (ih9 j) (Finset.sum_congr rfl fun r _ =>
        congrArg₂ (· * ·) (blockZ_apply V c (⟨n + 1, h⟩ : Fin cfg10.N) r j) (blockZ_apply V c (⟨n + 1, h⟩ : Fin cfg10.N) r j))).trans ?_
      exact (add_assoc _ _ _).trans (congrArg (0 + ·) (Finset.sum_range_succ (fun s => colQ V c s j) (n + 1)).symm)

/-! ## The three arrays after the region -/

/-- the product as one array -/
noncomputable def Gz (c : Dev nD) : S100000x128.Idx → EReal := fun i => Z V c (i 0) (i 1)

/-- every point writes back its product block: block t of the product array -/
theorem flushed7_eq (c : Dev nD) (t : Fin cfg10.N) :
    (dat10 V c).flushed 7 t = ((cfg10.win 7).blk t).view.read (Elt Ideal) (Gz V c) := by
  have hN : t.val < 20 := lt_of_lt_of_eq t.isLt (show cfg10.N = 20 from N_10)
  obtain ⟨e0, e1⟩ := idx_7 t
  show (cfg10.win 7).cut (grid10.coords t) ((dat10 V c).after 7 t) = _
  rw [after10_7, (outs_eq V c t.val t.isLt).1]
  funext y
  have h0 : (y 0).val < 5000 := (y 0).isLt
  have h1 : (y 1).val < 128 := (y 1).isLt
  have hb : 5000 * t.val + (y 0).val < 100000 := by omega
  have hx : (cfg10.win 7).xinj (grid10.coords t) y = ix2 (⟨(y 0).val, h0⟩ : Fin 5000) (⟨(y 1).val, h1⟩ : Fin 128) :=
    funext fun a => by
      match a with
      | ⟨0, _⟩ => rfl
      | ⟨1, _⟩ => rfl
  have hemb : ((cfg10.win 7).blk t).view.emb y = ix2 (⟨5000 * t.val + (y 0).val, hb⟩ : Fin 100000) (⟨(y 1).val, h1⟩ : Fin 128) :=
    funext fun a => Fin.ext (by
      match a with
      | ⟨0, _⟩ => show win10_7.index t (0 : Fin 2) * 5000 + 1 * (y 0).val = 5000 * t.val + (y 0).val; rw [e0]; omega
      | ⟨1, _⟩ => show win10_7.index t (1 : Fin 2) * 128 + 1 * (y 1).val = (y 1).val; rw [e1]; omega)
  show blockZ V c t ((cfg10.win 7).xinj (grid10.coords t) y) = Gz V c (((cfg10.win 7).blk t).view.emb y)
  rw [hx, hemb, blockZ_apply]
  exact dif_pos hb

/-- every row of the product array lies in the block of the point numbered by the row divided by five thousand -/
theorem cover7 (i : S100000x128.Idx) : ∃ t : Fin cfg10.N, (cfg10.win 7).flush t = true ∧ i ∈ ((cfg10.win 7).blk t).view.set := by
  have hi0 : (i 0).val < 100000 := (i 0).isLt
  have hi1 : (i 1).val < 128 := (i 1).isLt
  have hN : cfg10.N = 20 := N_10
  let t : Fin cfg10.N := ⟨(i 0).val / 5000, by rw [hN]; omega⟩
  obtain ⟨e0, e1⟩ := idx_7 t
  refine ⟨t, flush10_7 t, ?_⟩
  show i ∈ ((View.whole main_v178_0).slice (win10_7.rect t)).set
  rw [View.set_slice_whole, Rect.mem_set_unit]
  intro a
  match a with
  | ⟨0, _⟩ =>
    show win10_7.index t (0 : Fin 2) * 5000 ≤ (i 0).val ∧ (i 0).val < win10_7.index t (0 : Fin 2) * 5000 + 5000
    rw [e0]; show (i 0).val / 5000 * 5000 ≤ (i 0).val ∧ (i 0).val < (i 0).val / 5000 * 5000 + 5000; omega
  | ⟨1, _⟩ =>
    show win10_7.index t (1 : Fin 2) * 128 ≤ (i 1).val ∧ (i 1).val < win10_7.index t (1 : Fin 2) * 128 + 128
    rw [e1]; omega

/-- the product array after the region -/
theorem final7 (c : Dev nD) : (dat10 V c).arrAt 7 cfg10.N = Gz V c :=
  (dat10 V c).arrAt_eq_of_cover 7 (Gz V c) (fun t _ => flushed7_eq V c t) cover7

/-- the last grid point, the only one that writes the two accumulators back -/
abbrev tLast : Fin cfg10.N := ⟨19, by rw [show cfg10.N = 20 from N_10]; decide⟩

/-- the sum of column j of the product over all hundred thousand rows -/
noncomputable def totS (c : Dev nD) (j : Fin 128) : EReal := ∑ r : Fin 100000, Z V c r j

/-- the sum of the squares of column j of the product over all rows -/
noncomputable def totQ (c : Dev nD) (j : Fin 128) : EReal := ∑ r : Fin 100000, Z V c r j * Z V c r j

theorem totS_eq (c : Dev nD) (j : Fin 128) : totS V c j = ∑ r : Fin 100000, Z V c r j := rfl

theorem totQ_eq (c : Dev nD) (j : Fin 128) : totQ V c j = ∑ r : Fin 100000, Z V c r j * Z V c r j := rfl

/-- the twenty partial column sums, from zero, are the column sum over all rows -/
theorem sumS (c : Dev nD) (j : Fin 128) : 0 + ∑ s ∈ Finset.range (19 + 1), colS V c s j = totS V c j :=
  Cert.BlockSum.sum_20x5000 (fun r => Z V c r j) (fun n => Zn V c n j) (fun n => Zn_val V c n j)

theorem sumQ (c : Dev nD) (j : Fin 128) : 0 + ∑ s ∈ Finset.range (19 + 1), colQ V c s j = totQ V c j :=
  Cert.BlockSum.sum_20x5000 (fun r => Z V c r j * Z V c r j) (fun n => Zn V c n j * Zn V c n j)
    (fun n => congrArg₂ (· * ·) (Zn_val V c n j) (Zn_val V c n j))

-- From here on the two totals are names: a comparison that opened them would enumerate the hundred thousand rows.
attribute [local irreducible] totS totQ

/-- the column sums as one row -/
noncomputable def Gs (c : Dev nD) : S1x128.Idx → EReal := fun i => totS V c (i 1)

/-- the column sums of the squares as one row -/
noncomputable def Gq (c : Dev nD) : S1x128.Idx → EReal := fun i => totQ V c (i 1)

/-- the one write-back of the column sums, at the last point -/
theorem flushed8_eq (c : Dev nD) (t : Fin cfg10.N) (hf : (cfg10.win 8).flush t = true) :
    (dat10 V c).flushed 8 t = ((cfg10.win 8).blk t).view.read (Elt Ideal) (Gs V c) := by
  have hN : cfg10.N = 20 := N_10
  have h19 : t.val = 19 := by have := (flush10_8 t).mp hf; have := t.isLt; omega
  obtain ⟨e0, e1⟩ := idx_8 t
  show (cfg10.win 8).cut (grid10.coords t) ((dat10 V c).after 8 t) = _
  rw [after10_8]
  funext y
  have h0 : (y 0).val < 1 := (y 0).isLt
  have h1 : (y 1).val < 128 := (y 1).isLt
  have hx : (cfg10.win 8).xinj (grid10.coords t) y = ix2 (0 : Fin 1) (⟨(y 1).val, h1⟩ : Fin 128) :=
    funext fun a => Fin.ext (by
      match a with
      | ⟨0, _⟩ => show (y 0).val = 0; omega
      | ⟨1, _⟩ => rfl)
  have hemb : ((cfg10.win 8).blk t).view.emb y = ix2 (0 : Fin 1) (⟨(y 1).val, h1⟩ : Fin 128) :=
    funext fun a => Fin.ext (by
      match a with
      | ⟨0, _⟩ => show win10_8.index t (0 : Fin 2) * 1 + 1 * (y 0).val = 0; rw [e0]; omega
      | ⟨1, _⟩ => show win10_8.index t (1 : Fin 2) * 128 + 1 * (y 1).val = (y 1).val; rw [e1]; omega)
  show ((outsAt10 V c t.val t.isLt).2.1 : S1x128.Idx → EReal) ((cfg10.win 8).xinj (grid10.coords t) y)
    = Gs V c (((cfg10.win 8).blk t).view.emb y)
  rw [hx, hemb, (outs_eq V c t.val t.isLt).2.1 ⟨(y 1).val, h1⟩, h19]
  exact sumS V c ⟨(y 1).val, h1⟩

theorem flushed9_eq (c : Dev nD) (t : Fin cfg10.N) (hf : (cfg10.win 9).flush t = true) :
    (dat10 V c).flushed 9 t = ((cfg10.win 9).blk t).view.read (Elt Ideal) (Gq V c) := by
  have hN : cfg10.N = 20 := N_10
  have h19 : t.val = 19 := by have := (flush10_9 t).mp hf; have := t.isLt; omega
  obtain ⟨e0, e1⟩ := idx_9 t
  show (cfg10.win 9).cut (grid10.coords t) ((dat10 V c).after 9 t) = _
  rw [after10_9]
  funext y
  have h0 : (y 0).val < 1 := (y 0).isLt
  have h1 : (y 1).val < 128 := (y 1).isLt
  have hx : (cfg10.win 9).xinj (grid10.coords t) y = ix2 (0 : Fin 1) (⟨(y 1).val, h1⟩ : Fin 128) :=
    funext fun a => Fin.ext (by
      match a with
      | ⟨0, _⟩ => show (y 0).val = 0; omega
      | ⟨1, _⟩ => rfl)
  have hemb : ((cfg10.win 9).blk t).view.emb y = ix2 (0 : Fin 1) (⟨(y 1).val, h1⟩ : Fin 128) :=
    funext fun a => Fin.ext (by
      match a with
      | ⟨0, _⟩ => show win10_9.index t (0 : Fin 2) * 1 + 1 * (y 0).val = 0; rw [e0]; omega
      | ⟨1, _⟩ => show win10_9.index t (1 : Fin 2) * 128 + 1 * (y 1).val = (y 1).val; rw [e1]; omega)
  show ((outsAt10 V c t.val t.isLt).2.2 : S1x128.Idx → EReal) ((cfg10.win 9).xinj (grid10.coords t) y)
    = Gq V c (((cfg10.win 9).blk t).view.emb y)
  rw [hx, hemb, (outs_eq V c t.val t.isLt).2.2 ⟨(y 1).val, h1⟩, h19]
  exact sumQ V c ⟨(y 1).val, h1⟩

/-- the one block of each accumulator is its whole one-row array -/
theorem cover8 (i : S1x128.Idx) : ∃ t : Fin cfg10.N, (cfg10.win 8).flush t = true ∧ i ∈ ((cfg10.win 8).blk t).view.set := by
  have hi0 : (i 0).val < 1 := (i 0).isLt
  have hi1 : (i 1).val < 128 := (i 1).isLt
  obtain ⟨e0, e1⟩ := idx_8 tLast
  refine ⟨tLast, (flush10_8 tLast).mpr rfl, ?_⟩
  show i ∈ ((View.whole main_v178_1).slice (win10_8.rect tLast)).set
  rw [View.set_slice_whole, Rect.mem_set_unit]
  intro a
  match a with
  | ⟨0, _⟩ =>
    show win10_8.index tLast (0 : Fin 2) * 1 ≤ (i 0).val ∧ (i 0).val < win10_8.index tLast (0 : Fin 2) * 1 + 1
    rw [e0]; omega
  | ⟨1, _⟩ =>
    show win10_8.index tLast (1 : Fin 2) * 128 ≤ (i 1).val ∧ (i 1).val < win10_8.index tLast (1 : Fin 2) * 128 + 128
    rw [e1]; omega

theorem cover9 (i : S1x128.Idx) : ∃ t : Fin cfg10.N, (cfg10.win 9).flush t = true ∧ i ∈ ((cfg10.win 9).blk t).view.set := by
  have hi0 : (i 0).val < 1 := (i 0).isLt
  have hi1 : (i 1).val < 128 := (i 1).isLt
  obtain ⟨e0, e1⟩ := idx_9 tLast
  refine ⟨tLast, (flush10_9 tLast).mpr rfl, ?_⟩
  show i ∈ ((View.whole main_v178_2).slice (win10_9.rect tLast)).set
  rw [View.set_slice_whole, Rect.mem_set_unit]
  intro a
  match a with
  | ⟨0, _⟩ =>
    show win10_9.index tLast (0 : Fin 2) * 1 ≤ (i 0).val ∧ (i 0).val < win10_9.index tLast (0 : Fin 2) * 1 + 1
    rw [e0]; omega
  | ⟨1, _⟩ =>
    show win10_9.index tLast (1 : Fin 2) * 128 ≤ (i 1).val ∧ (i 1).val < win10_9.index tLast (1 : Fin 2) * 128 + 128
    rw [e1]; omega

theorem final8 (c : Dev nD) : (dat10 V c).arrAt 8 cfg10.N = Gs V c :=
  (dat10 V c).arrAt_eq_of_cover 8 (Gs V c) (flushed8_eq V c) cover8

theorem final9 (c : Dev nD) : (dat10 V c).arrAt 9 cfg10.N = Gq V c :=
  (dat10 V c).arrAt_eq_of_cover 9 (Gq V c) (flushed9_eq V c) cover9

/-! ## The three results at an entry -/

theorem final_z (c : Dev nD) (r : Fin 100000) (j : Fin 128) :
    ((dat10 V c).arrAt 7 cfg10.N : S100000x128.Idx → EReal) (ix2 r j) = Z V c r j :=
  congrFun (final7 V c) (ix2 r j)

theorem final_s (c : Dev nD) (j : Fin 128) :
    ((dat10 V c).arrAt 8 cfg10.N : S1x128.Idx → EReal) (ix2 0 j) = ∑ r : Fin 100000, Z V c r j :=
  (congrFun (final8 V c) (ix2 0 j)).trans (totS_eq V c j)

theorem final_q (c : Dev nD) (j : Fin 128) :
    ((dat10 V c).arrAt 9 cfg10.N : S1x128.Idx → EReal) (ix2 0 j) = ∑ r : Fin 100000, Z V c r j * Z V c r j :=
  (congrFun (final9 V c) (ix2 0 j)).trans (totQ_eq V c j)

/-! ## The region's results as functions of their coordinates -/

/-- the product's entries read by their two coordinates -/
theorem prod_entry (c : Dev nD) (r : Fin 100000) (j : Fin 128) : Cert.Lib.cur2 (a := 100000) (b := 128) ((dat10 V c).arrAt 7 cfg10.N) r j = Z V c r j :=
  final_z V c r j

/-- the product is the linear map, with its shift, of the normalised and rectified z -/
theorem contract_z (c : Dev nD) :
    Cert.Lib.cur2 (a := 100000) (b := 128) ((dat10 V c).arrAt 7 cfg10.N)
      = Cert.Gin.lin (Cert.Gin.norm (Cert.Lib.cur2 (a := 100000) (b := 128) (V c (Pipeline.arrRef spec10 0)))
          (Cert.Lib.row (a := 128) (V c (Pipeline.arrRef spec10 1))) (Cert.Lib.row (a := 128) (V c (Pipeline.arrRef spec10 2)))
          (Cert.Lib.row (a := 128) (V c (Pipeline.arrRef spec10 3))) (Cert.Lib.row (a := 128) (V c (Pipeline.arrRef spec10 4))))
        (Cert.Lib.cur2 (a := 128) (b := 128) (V c (Pipeline.arrRef spec10 5))) (Cert.Lib.row (a := 128) (V c (Pipeline.arrRef spec10 6))) := by
  funext r j
  exact (prod_entry V c r j).trans rfl

/-- the first row is the sum over all rows of the product's columns -/
theorem contract_s (c : Dev nD) :
    Cert.Lib.row (a := 128) ((dat10 V c).arrAt 8 cfg10.N)
      = (fun j => ∑ r, Cert.Lib.cur2 (a := 100000) (b := 128) ((dat10 V c).arrAt 7 cfg10.N) r j) := by
  funext j
  have h8 : Cert.Lib.row (a := 128) ((dat10 V c).arrAt 8 cfg10.N) j = totS V c j := congrFun (final8 V c) (ix2 0 j)
  refine h8.trans ((totS_eq V c j).trans ?_)
  exact Finset.sum_congr rfl fun r _ => (prod_entry V c r j).symm

/-- the second row is the sum over all rows of the squares of the product's columns -/
theorem contract_q (c : Dev nD) :
    Cert.Lib.row (a := 128) ((dat10 V c).arrAt 9 cfg10.N)
      = (fun j => ∑ r, Cert.Lib.cur2 (a := 100000) (b := 128) ((dat10 V c).arrAt 7 cfg10.N) r j
          * Cert.Lib.cur2 (a := 100000) (b := 128) ((dat10 V c).arrAt 7 cfg10.N) r j) := by
  funext j
  have h9 : Cert.Lib.row (a := 128) ((dat10 V c).arrAt 9 cfg10.N) j = totQ V c j := congrFun (final9 V c) (ix2 0 j)
  refine h9.trans ((totQ_eq V c j).trans ?_)
  exact Finset.sum_congr rfl fun r _ => (congrArg₂ (· * ·) (prod_entry V c r j) (prod_entry V c r j)).symm

/-- The product is the linear map, with its shift, of the normalised and rectified z; the two rows are the sums over all
    rows of the product's columns and of their squares. -/
theorem contract (c : Dev nD) :
    Cert.Lib.cur2 (a := 100000) (b := 128) ((dat10 V c).arrAt 7 cfg10.N)
      = Cert.Gin.lin (Cert.Gin.norm (Cert.Lib.cur2 (a := 100000) (b := 128) (V c (Pipeline.arrRef spec10 0)))
          (Cert.Lib.row (a := 128) (V c (Pipeline.arrRef spec10 1))) (Cert.Lib.row (a := 128) (V c (Pipeline.arrRef spec10 2)))
          (Cert.Lib.row (a := 128) (V c (Pipeline.arrRef spec10 3))) (Cert.Lib.row (a := 128) (V c (Pipeline.arrRef spec10 4))))
        (Cert.Lib.cur2 (a := 128) (b := 128) (V c (Pipeline.arrRef spec10 5))) (Cert.Lib.row (a := 128) (V c (Pipeline.arrRef spec10 6)))
    ∧ Cert.Lib.row (a := 128) ((dat10 V c).arrAt 8 cfg10.N)
      = (fun j => ∑ r, Cert.Lib.cur2 (a := 100000) (b := 128) ((dat10 V c).arrAt 7 cfg10.N) r j)
    ∧ Cert.Lib.row (a := 128) ((dat10 V c).arrAt 9 cfg10.N)
      = (fun j => ∑ r, Cert.Lib.cur2 (a := 100000) (b := 128) ((dat10 V c).arrAt 7 cfg10.N) r j
          * Cert.Lib.cur2 (a := 100000) (b := 128) ((dat10 V c).arrAt 7 cfg10.N) r j) :=
  ⟨contract_z V c, contract_s V c, contract_q V c⟩

end Cert.KernelIdeal.BnReluLinear10
-- ==== Proof.RegionBnRelu11.lean ====
import proofs.«120577_j28003186770423_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«120577_j28003186770423_1_alg».proof.Proof.LibCurry
import proofs.«120577_j28003186770423_1_alg».proof.Proof.GinMath

/-! Batch normalisation followed by a rectifier, one block of 5000 rows at a time.

The output array has 100000 rows and 128 columns. Grid point t handles rows 5000 t .. 5000 t + 4999: it reads that
block of the big input and the four row vectors (one row, 128 columns, the same at every point), and stores
max ((((x - mean) * rsqrt (var + eps)) * gamma) + beta, 0) entry by entry, each row vector read at the entry's column.
Since every point writes back the restriction of ONE function of the five input arrays to its block, and the twenty
blocks cover all rows, the output array ends as that function: entry (r, j) depends on entry (r, j) of the big input
and on column j of the four row vectors, and on nothing else. -/

noncomputable section

namespace Cert.KernelIdeal.BnRelu11

open Idealize.ShloMosaic Idealize.ShloMosaic.ValueIdx Idealize.SL.Sem Cert.KernelIdeal Cert.KernelIdeal.Gen
open Idealize.ShloMosaic.TcCoe
open Idealize.ShloMosaic.Pipeline (Dat)

/-- Row r, column j of the big array, minus column j of the first row vector, times the reciprocal square root of
    (column j of the second row vector plus the small constant), times column j of the third, plus column j of the
    fourth, and the larger of that and zero. -/
def bnRelu (A0 : S100000x128.Idx → EReal) (A1 A2 A3 A4 : S1x128.Idx → EReal) (r : Fin 100000) (j : Fin 128) : EReal :=
  max ((((A0 (ix2 r j) - A1 (ix2 0 j)) * Ideal.rsqrt (A2 (ix2 0 j) + Ideal.ofBits .f32 0x3727C5AC#32)) * A3 (ix2 0 j)) + A4 (ix2 0 j))
    (Ideal.ofBits .f32 0x00000000#32)

/-- The same function of a whole index: its two coordinates taken apart. -/
def bnReluArr (A0 : S100000x128.Idx → EReal) (A1 A2 A3 A4 : S1x128.Idx → EReal) : S100000x128.Idx → EReal :=
  fun i => bnRelu A0 A1 A2 A3 A4 ⟨(i 0).val, idx2_lt0 i⟩ ⟨(i 1).val, idx2_lt1 i⟩

/-- At an index whose coordinates are (r, j) the whole-index form is the coordinate form. -/
theorem bnReluArr_at (A0 : S100000x128.Idx → EReal) (A1 A2 A3 A4 : S1x128.Idx → EReal) (i : S100000x128.Idx)
    (r : Fin 100000) (j : Fin 128) (h0 : (i 0).val = r.val) (h1 : (i 1).val = j.val) :
    bnReluArr A0 A1 A2 A3 A4 i = bnRelu A0 A1 A2 A3 A4 r j := by
  unfold bnReluArr
  have e0 : (⟨(i 0).val, idx2_lt0 i⟩ : Fin 100000) = r := Fin.ext h0
  have e1 : (⟨(i 1).val, idx2_lt1 i⟩ : Fin 128) = j := Fin.ext h1
  rw [e0, e1]

theorem hz : (![0, 0] : Fin 2 → Nat) = fun _ => 0 := funext fun a => by fin_cases a <;> rfl

/-- What the body stores, at row p and column q of a block: the five loaded blocks combined entry by entry, the
    row vectors read at their one row. -/
theorem pay_apply (x0 : Vec Ideal S5000x128 .f32) (x2 x1 x3 x4 : Vec Ideal S1x128 .f32) (p : Fin 5000) (q : Fin 128) :
    k11_pay1 x0 x2 x1 x3 x4 (ix2 p q)
      = max ((((x0 (ix2 p q) - x1 (ix2 0 q)) * Ideal.rsqrt (x2 (ix2 0 q) + Ideal.ofBits .f32 0x3727C5AC#32)) * x3 (ix2 0 q)) + x4 (ix2 0 q))
          (Ideal.ofBits .f32 0x00000000#32) := by
  unfold k11_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- The index maps over the twenty grid points: the two big windows sit at block (t, 0) at point t, the four row
    vectors at block (0, 0) throughout. -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

theorem point_lt (t : Fin cfg11.N) : t.val < 20 := lt_of_lt_of_eq t.isLt N_11

variable (V : (c : Dev nD) → (b : Ref sig .tc) → Buf (Elt Ideal) ((c : Thread nD τ).loc b))

/-- Block t of the big input window, at row p and column q, is the array at row 5000 t + p and column q. -/
theorem iblk_big (c : Dev nD) (t : Fin cfg11.N) (p : Fin 5000) (q : Fin 128) (r : Fin 100000) (hr : r.val = 5000 * t.val + p.val) :
    (iblk11 V c 0 t : Vec Ideal S5000x128 .f32) (ix2 p q) = (V c (Pipeline.arrRef spec11 0) : S100000x128.Idx → EReal) (ix2 r q) := by
  obtain ⟨e0, e1, -⟩ := idx_facts t
  unfold iblk11
  rw [View.read_apply]
  show (V c (Pipeline.arrRef spec11 0) : S100000x128.Idx → EReal) _ = _
  refine congrArg _ ?_
  funext a; apply Fin.ext
  match a with
  | ⟨0, _⟩ => show win11_0.index t (0 : Fin 2) * 5000 + 1 * p.val = r.val; rw [e0, hr]; omega
  | ⟨1, _⟩ => show win11_0.index t (1 : Fin 2) * 128 + 1 * q.val = q.val; rw [e1]; omega

/-- The single block of a row-vector window, at its one row and column q, is the array at that row and column. -/
theorem iblk_row1 (c : Dev nD) (t : Fin cfg11.N) (q : Fin 128) :
    (iblk11 V c 1 t : Vec Ideal S1x128 .f32) (ix2 0 q) = (V c (Pipeline.arrRef spec11 1) : S1x128.Idx → EReal) (ix2 0 q) := by
  obtain ⟨-, -, e0, e1, -⟩ := idx_facts t
  unfold iblk11
  rw [View.read_apply]
  show (V c (Pipeline.arrRef spec11 1) : S1x128.Idx → EReal) _ = _
  refine congrArg _ ?_
  funext a; apply Fin.ext
  match a with
  | ⟨0, _⟩ => show win11_1.index t (0 : Fin 2) * 1 + 1 * 0 = 0; rw [e0]
  | ⟨1, _⟩ => show win11_1.index t (1 : Fin 2) * 128 + 1 * q.val = q.val; rw [e1]; omega

theorem iblk_row2 (c : Dev nD) (t : Fin cfg11.N) (q : Fin 128) :
    (iblk11 V c 2 t : Vec Ideal S1x128 .f32) (ix2 0 q) = (V c (Pipeline.arrRef spec11 2) : S1x128.Idx → EReal) (ix2 0 q) := by
  obtain ⟨-, -, -, -, e0, e1, -⟩ := idx_facts t
  unfold iblk11
  rw [View.read_apply]
  show (V c (Pipeline.arrRef spec11 2) : S1x128.Idx → EReal) _ = _
  refine congrArg _ ?_
  funext a; apply Fin.ext
  match a with
  | ⟨0, _⟩ => show win11_2.index t (0 : Fin 2) * 1 + 1 * 0 = 0; rw [e0]
  | ⟨1, _⟩ => show win11_2.index t (1 : Fin 2) * 128 + 1 * q.val = q.val; rw [e1]; omega

theorem iblk_row3 (c : Dev nD) (t : Fin cfg11.N) (q : Fin 128) :
    (iblk11 V c 3 t : Vec Ideal S1x128 .f32) (ix2 0 q) = (V c (Pipeline.arrRef spec11 3) : S1x128.Idx → EReal) (ix2 0 q) := by
  obtain ⟨-, -, -, -, -, -, e0, e1, -⟩ := idx_facts t
  unfold iblk11
  rw [View.read_apply]
  show (V c (Pipeline.arrRef spec11 3) : S1x128.Idx → EReal) _ = _
  refine congrArg _ ?_
  funext a; apply Fin.ext
  match a with
  | ⟨0, _⟩ => show win11_3.index t (0 : Fin 2) * 1 + 1 * 0 = 0; rw [e0]
  | ⟨1, _⟩ => show win11_3.index t (1 : Fin 2) * 128 + 1 * q.val = q.val; rw [e1]; omega

theorem iblk_row4 (c : Dev nD) (t : Fin cfg11.N) (q : Fin 128) :
    (iblk11 V c 4 t : Vec Ideal S1x128 .f32) (ix2 0 q) = (V c (Pipeline.arrRef spec11 4) : S1x128.Idx → EReal) (ix2 0 q) := by
  obtain ⟨-, -, -, -, -, -, -, -, e0, e1, -⟩ := idx_facts t
  unfold iblk11
  rw [View.read_apply]
  show (V c (Pipeline.arrRef spec11 4) : S1x128.Idx → EReal) _ = _
  refine congrArg _ ?_
  funext a; apply Fin.ext
  match a with
  | ⟨0, _⟩ => show win11_4.index t (0 : Fin 2) * 1 + 1 * 0 = 0; rw [e0]
  | ⟨1, _⟩ => show win11_4.index t (1 : Fin 2) * 128 + 1 * q.val = q.val; rw [e1]; omega

/-- The whole-array function the output ends holding: the entrywise formula of the five arrays as the region finds them. -/
abbrev result (c : Dev nD) : S100000x128.Idx → EReal :=
  bnReluArr (V c (Pipeline.arrRef spec11 0)) (V c (Pipeline.arrRef spec11 1)) (V c (Pipeline.arrRef spec11 2))
    (V c (Pipeline.arrRef spec11 3)) (V c (Pipeline.arrRef spec11 4))

/-- What point t writes back is block t of that function: rows 5000 t .. 5000 t + 4999, every column. -/
theorem flushed_eq (c : Dev nD) (t : Fin cfg11.N) :
    (dat11 V c).flushed 5 t = ((cfg11.win 5).blk t).view.read (Elt Ideal) (result V c) := by
  show (cfg11.win 5).cut (grid11.coords t) ((dat11 V c).after 5 t) = _
  rw [after11_5]
  unfold out11_5
  rw [View.canon_unit_zero hz]
  simp only [View.ld_unit_zero (S := S5000x128) hz, View.ld_unit_zero (S := S1x128) hz]
  obtain ⟨-, -, -, -, -, -, -, -, -, -, e0, e1⟩ := idx_facts t
  have ht := point_lt t
  funext y
  obtain ⟨p, q, rfl⟩ : ∃ (p : Fin 5000) (q : Fin 128), y = ix2 p q := ⟨y 0, y 1, eq_ix2 y⟩
  have hr : 5000 * t.val + p.val < 100000 := by have := p.isLt; omega
  rw [View.read_apply]
  show k11_pay1 (iblk11 V c 0 t) (iblk11 V c 2 t) (iblk11 V c 1 t) (iblk11 V c 3 t) (iblk11 V c 4 t) (ix2 p q)
    = result V c (((cfg11.win 5).blk t).view.emb (ix2 p q))
  rw [pay_apply, iblk_big V c t p q ⟨5000 * t.val + p.val, hr⟩ rfl, iblk_row1, iblk_row2, iblk_row3, iblk_row4]
  refine (bnReluArr_at _ _ _ _ _ _ ⟨5000 * t.val + p.val, hr⟩ q ?_ ?_).symm
  · show win11_5.index t (0 : Fin 2) * 5000 + 1 * p.val = 5000 * t.val + p.val; rw [e0]; omega
  · show win11_5.index t (1 : Fin 2) * 128 + 1 * q.val = q.val; rw [e1]; omega

/-- Every index of the output array lies in the block of the point its row divided by 5000 names. -/
theorem covered (i : S100000x128.Idx) :
    ∃ t : Fin cfg11.N, (cfg11.win 5).flush t = true ∧ i ∈ ((cfg11.win 5).blk t).view.set := by
  have h0 : (i 0).val < 100000 := idx2_lt0 i
  have h1 : (i 1).val < 128 := idx2_lt1 i
  have hN : (i 0).val / 5000 < cfg11.N := lt_of_lt_of_eq (by omega : (i 0).val / 5000 < 20) N_11.symm
  obtain ⟨-, -, -, -, -, -, -, -, -, -, e0, e1⟩ := idx_facts ⟨(i 0).val / 5000, hN⟩
  refine ⟨⟨(i 0).val / 5000, hN⟩, flush11_5 _, ?_⟩
  show i ∈ ((View.whole main_v191).slice (win11_5.rect ⟨(i 0).val / 5000, hN⟩)).set
  rw [View.set_slice_whole, Rect.mem_set_unit]
  intro a
  match a with
  | ⟨0, _⟩ =>
    show win11_5.index ⟨(i 0).val / 5000, hN⟩ (0 : Fin 2) * 5000 ≤ (i 0).val
      ∧ (i 0).val < win11_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win11_5.index ⟨(i 0).val / 5000, hN⟩ (1 : Fin 2) * 128 ≤ (i 1).val
      ∧ (i 1).val < win11_5.index ⟨(i 0).val / 5000, hN⟩ (1 : Fin 2) * 128 + 128
    rw [e1]; omega

/-- After the region the output array holds the entrywise formula of the five input arrays: every point writes back
    its block of one whole-array function, and the twenty blocks cover the array. -/
theorem final_arr (c : Dev nD) : (dat11 V c).arrAt 5 cfg11.N = result V c :=
  (dat11 V c).arrAt_eq_of_cover 5 (result V c) (fun t _ => flushed_eq V c t) (fun i => covered i)

/-- The same, index by index, in terms of the coordinate form of the formula. -/
theorem final (c : Dev nD) (r : Fin 100000) (j : Fin 128) :
    ((dat11 V c).arrAt 5 cfg11.N : S100000x128.Idx → EReal) (ix2 r j)
      = bnRelu (V c (Pipeline.arrRef spec11 0)) (V c (Pipeline.arrRef spec11 1)) (V c (Pipeline.arrRef spec11 2))
          (V c (Pipeline.arrRef spec11 3)) (V c (Pipeline.arrRef spec11 4)) r j := by
  rw [final_arr V c]
  exact bnReluArr_at _ _ _ _ _ (ix2 r j) r j rfl rfl

/-- The same with the five input arrays named: whatever functions the region finds in its five input arrays, the
    output entry (r, j) is the formula of their entries. -/
theorem final_of (c : Dev nD) (A0 : S100000x128.Idx → EReal) (A1 A2 A3 A4 : S1x128.Idx → EReal)
    (h0 : (V c (Pipeline.arrRef spec11 0) : S100000x128.Idx → EReal) = A0)
    (h1 : (V c (Pipeline.arrRef spec11 1) : S1x128.Idx → EReal) = A1)
    (h2 : (V c (Pipeline.arrRef spec11 2) : S1x128.Idx → EReal) = A2)
    (h3 : (V c (Pipeline.arrRef spec11 3) : S1x128.Idx → EReal) = A3)
    (h4 : (V c (Pipeline.arrRef spec11 4) : S1x128.Idx → EReal) = A4)
    (r : Fin 100000) (j : Fin 128) :
    ((dat11 V c).arrAt 5 cfg11.N : S100000x128.Idx → EReal) (ix2 r j)
      = max ((((A0 (ix2 r j) - A1 (ix2 0 j)) * Ideal.rsqrt (A2 (ix2 0 j) + Ideal.ofBits .f32 0x3727C5AC#32)) * A3 (ix2 0 j)) + A4 (ix2 0 j))
          (Ideal.ofBits .f32 0x00000000#32) := by
  subst h0 h1 h2 h3 h4
  exact final V c r j

/-- The same as an equation between functions of the two coordinates: the output, read by row and column, is the
    normalisation of the big input by the four row vectors read by column. -/
theorem contract (c : Dev nD) :
    Cert.Lib.cur2 (a := 100000) (b := 128) ((dat11 V c).arrAt 5 cfg11.N)
      = Cert.Gin.norm (Cert.Lib.cur2 (a := 100000) (b := 128) (V c (Pipeline.arrRef spec11 0)))
          (Cert.Lib.row (a := 128) (V c (Pipeline.arrRef spec11 1))) (Cert.Lib.row (a := 128) (V c (Pipeline.arrRef spec11 2)))
          (Cert.Lib.row (a := 128) (V c (Pipeline.arrRef spec11 3))) (Cert.Lib.row (a := 128) (V c (Pipeline.arrRef spec11 4))) := by
  funext r j
  exact final V c r j

end Cert.KernelIdeal.BnRelu11

end
-- ==== Proof.KLayer3.lean ====
/-
  Layer 3 of the idealized kernel program, read off the run's fold.

  The buffer contents at the seven boundaries of the layer (before its first stretch of host operations, after each
  stretch, after each of its three regions) are the run's. A region leaves in its output arrays what its value
  theorem says and every other buffer as entered; so the layer's output array is the layer function of the contents
  at the layer's entry, and the argument arrays and the arrays later layers read come out as they went in.
-/
import proofs.«120577_j28003186770423_1_alg».proof.Proof.Gen.KernelIdeal.Frame
import proofs.«120577_j28003186770423_1_alg».proof.Proof.KCore3
import proofs.«120577_j28003186770423_1_alg».proof.Proof.RegionFirstLinear9
import proofs.«120577_j28003186770423_1_alg».proof.Proof.RegionBnReluLinear10
import proofs.«120577_j28003186770423_1_alg».proof.Proof.RegionBnRelu11

set_option maxRecDepth 16384

noncomputable section

namespace Cert.KernelIdeal.KLayer3

open Idealize.ShloMosaic Idealize.ShloMosaic.TcCoe Idealize.ShloMosaic.ValueIdx Idealize.ShloMosaic.StableHlo Idealize.SL.Sem
open Cert.KernelIdeal Cert.KernelIdeal.Gen Cert.KernelIdeal.K Cert.Lib Cert.Gin

variable (m : (ℓ : Loc nD τ sig) → Buf (Elt Ideal) ℓ) (ρ : Dev nD → PrngReg) (c : Dev nD)

set_option maxHeartbeats 4000000 in
/-- The layer's output array as the layer function of the contents at the layer's entry. -/
theorem out_eq :
    cur2 (a := 100000) (b := 128) (W24 m ρ c (Proc.devRef .tc main_v191))
      = layerK (fun r k => cur2 (a := 100000) (b := 128) (W18 m ρ c (Proc.devRef .tc main_v144)) r k + cur2 (aggOf (W18 m ρ c (Proc.devRef .tc main_v144)) (W18 m ρ c (Proc.devRef .tc main_v1)) (W18 m ρ c (Proc.devRef .tc main_v3))) r k)
          (cur2 (mat 3 (W18 m ρ c (Proc.devRef .tc main_arg3)) slices_S4x128x128_S1x128x128_3_0_0)) (cur1 (vec 3 (W18 m ρ c (Proc.devRef .tc main_arg4)) slices_S4x128_S1x128_3_0)) (cur1 (vec 3 (W18 m ρ c (Proc.devRef .tc main_arg5)) slices_S4x128_S1x128_3_0)) (cur1 (vec 3 (W18 m ρ c (Proc.devRef .tc main_arg6)) slices_S4x128_S1x128_3_0))
          (cur2 (mat 3 (W18 m ρ c (Proc.devRef .tc main_arg7)) slices_S4x128x128_S1x128x128_3_0_0)) (cur1 (vec 3 (W18 m ρ c (Proc.devRef .tc main_arg8)) slices_S4x128_S1x128_3_0)) (cur1 (vec 3 (W18 m ρ c (Proc.devRef .tc main_arg9)) slices_S4x128_S1x128_3_0)) (cur1 (vec 3 (W18 m ρ c (Proc.devRef .tc main_arg10)) slices_S4x128_S1x128_3_0)) := by
  -- the first region's three output arrays
  have e4 : W20 m ρ c (Proc.devRef .tc main_v160_0) = (dat9 (V19 (F := Ideal) m ρ) c).arrAt 4 cfg9.N := W20_arr m ρ c 4
  have e5 : W20 m ρ c (Proc.devRef .tc main_v160_1) = (dat9 (V19 (F := Ideal) m ρ) c).arrAt 5 cfg9.N := W20_arr m ρ c 5
  have e6 : W20 m ρ c (Proc.devRef .tc main_v160_2) = (dat9 (V19 (F := Ideal) m ρ) c).arrAt 6 cfg9.N := W20_arr m ρ c 6
  obtain ⟨a1, a2, a3⟩ := FirstLinear9.contract (V19 (F := Ideal) m ρ) c
  rw [← e4] at a1 a2 a3
  rw [← e5] at a2
  rw [← e6] at a3
  -- the second region's
  have f7 : W22 m ρ c (Proc.devRef .tc main_v178_0) = (dat10 (V21 (F := Ideal) m ρ) c).arrAt 7 cfg10.N := W22_arr m ρ c 7
  have f8 : W22 m ρ c (Proc.devRef .tc main_v178_1) = (dat10 (V21 (F := Ideal) m ρ) c).arrAt 8 cfg10.N := W22_arr m ρ c 8
  have f9 : W22 m ρ c (Proc.devRef .tc main_v178_2) = (dat10 (V21 (F := Ideal) m ρ) c).arrAt 9 cfg10.N := W22_arr m ρ c 9
  obtain ⟨b1, b2, b3⟩ := BnReluLinear10.contract (V21 (F := Ideal) m ρ) c
  rw [← f7] at b1 b2 b3
  rw [← f8] at b2
  rw [← f9] at b3
  -- the third region's
  have g5 : W24 m ρ c (Proc.devRef .tc main_v191) = (dat11 (V23 (F := Ideal) m ρ) c).arrAt 5 cfg11.N := W24_arr m ρ c 5
  have c1 := BnRelu11.contract (V23 (F := Ideal) m ρ) c
  rw [← g5] at c1
  exact KCore3.out_eq (W18 m ρ c) (W20 m ρ c) (W22 m ρ c) (W24 m ρ c) a1 a2 a3
    (W20_of_ne m ρ c main_arg5 (by decide))
    (W20_of_ne m ρ c main_arg6 (by decide))
    (W20_of_ne m ρ c main_arg7 (by decide))
    (W20_of_ne m ρ c main_arg8 (by decide))
    (W20_of_ne m ρ c main_arg9 (by decide))
    (W20_of_ne m ρ c main_arg10 (by decide))
    b1 b2 b3
    (W22_of_ne m ρ c main_arg9 (by decide))
    (W22_of_ne m ρ c main_arg10 (by decide))
    c1

/-! ## What the layer leaves alone -/

theorem keep_arg0 : W24 m ρ c (Proc.devRef .tc main_arg0) = W18 m ρ c (Proc.devRef .tc main_arg0) :=
  (W24_of_ne m ρ c main_arg0 (by decide)).trans ((KHost3.C_keep_arg0 (W22 m ρ c)).trans ((W22_of_ne m ρ c main_arg0 (by decide)).trans
    ((KHost3.B_keep_arg0 (W20 m ρ c)).trans ((W20_of_ne m ρ c main_arg0 (by decide)).trans (KHost3.A_keep_arg0 (W18 m ρ c))))))
theorem keep_arg1 : W24 m ρ c (Proc.devRef .tc main_arg1) = W18 m ρ c (Proc.devRef .tc main_arg1) :=
  (W24_of_ne m ρ c main_arg1 (by decide)).trans ((KHost3.C_keep_arg1 (W22 m ρ c)).trans ((W22_of_ne m ρ c main_arg1 (by decide)).trans
    ((KHost3.B_keep_arg1 (W20 m ρ c)).trans ((W20_of_ne m ρ c main_arg1 (by decide)).trans (KHost3.A_keep_arg1 (W18 m ρ c))))))
theorem keep_arg2 : W24 m ρ c (Proc.devRef .tc main_arg2) = W18 m ρ c (Proc.devRef .tc main_arg2) :=
  (W24_of_ne m ρ c main_arg2 (by decide)).trans ((KHost3.C_keep_arg2 (W22 m ρ c)).trans ((W22_of_ne m ρ c main_arg2 (by decide)).trans
    ((KHost3.B_keep_arg2 (W20 m ρ c)).trans ((W20_of_ne m ρ c main_arg2 (by decide)).trans (KHost3.A_keep_arg2 (W18 m ρ c))))))
theorem keep_arg3 : W24 m ρ c (Proc.devRef .tc main_arg3) = W18 m ρ c (Proc.devRef .tc main_arg3) :=
  (W24_of_ne m ρ c main_arg3 (by decide)).trans ((KHost3.C_keep_arg3 (W22 m ρ c)).trans ((W22_of_ne m ρ c main_arg3 (by decide)).trans
    ((KHost3.B_keep_arg3 (W20 m ρ c)).trans ((W20_of_ne m ρ c main_arg3 (by decide)).trans (KHost3.A_keep_arg3 (W18 m ρ c))))))
theorem keep_arg4 : W24 m ρ c (Proc.devRef .tc main_arg4) = W18 m ρ c (Proc.devRef .tc main_arg4) :=
  (W24_of_ne m ρ c main_arg4 (by decide)).trans ((KHost3.C_keep_arg4 (W22 m ρ c)).trans ((W22_of_ne m ρ c main_arg4 (by decide)).trans
    ((KHost3.B_keep_arg4 (W20 m ρ c)).trans ((W20_of_ne m ρ c main_arg4 (by decide)).trans (KHost3.A_keep_arg4 (W18 m ρ c))))))
theorem keep_arg5 : W24 m ρ c (Proc.devRef .tc main_arg5) = W18 m ρ c (Proc.devRef .tc main_arg5) :=
  (W24_of_ne m ρ c main_arg5 (by decide)).trans ((KHost3.C_keep_arg5 (W22 m ρ c)).trans ((W22_of_ne m ρ c main_arg5 (by decide)).trans
    ((KHost3.B_keep_arg5 (W20 m ρ c)).trans ((W20_of_ne m ρ c main_arg5 (by decide)).trans (KHost3.A_keep_arg5 (W18 m ρ c))))))
theorem keep_arg6 : W24 m ρ c (Proc.devRef .tc main_arg6) = W18 m ρ c (Proc.devRef .tc main_arg6) :=
  (W24_of_ne m ρ c main_arg6 (by decide)).trans ((KHost3.C_keep_arg6 (W22 m ρ c)).trans ((W22_of_ne m ρ c main_arg6 (by decide)).trans
    ((KHost3.B_keep_arg6 (W20 m ρ c)).trans ((W20_of_ne m ρ c main_arg6 (by decide)).trans (KHost3.A_keep_arg6 (W18 m ρ c))))))
theorem keep_arg7 : W24 m ρ c (Proc.devRef .tc main_arg7) = W18 m ρ c (Proc.devRef .tc main_arg7) :=
  (W24_of_ne m ρ c main_arg7 (by decide)).trans ((KHost3.C_keep_arg7 (W22 m ρ c)).trans ((W22_of_ne m ρ c main_arg7 (by decide)).trans
    ((KHost3.B_keep_arg7 (W20 m ρ c)).trans ((W20_of_ne m ρ c main_arg7 (by decide)).trans (KHost3.A_keep_arg7 (W18 m ρ c))))))
theorem keep_arg8 : W24 m ρ c (Proc.devRef .tc main_arg8) = W18 m ρ c (Proc.devRef .tc main_arg8) :=
  (W24_of_ne m ρ c main_arg8 (by decide)).trans ((KHost3.C_keep_arg8 (W22 m ρ c)).trans ((W22_of_ne m ρ c main_arg8 (by decide)).trans
    ((KHost3.B_keep_arg8 (W20 m ρ c)).trans ((W20_of_ne m ρ c main_arg8 (by decide)).trans (KHost3.A_keep_arg8 (W18 m ρ c))))))
theorem keep_arg9 : W24 m ρ c (Proc.devRef .tc main_arg9) = W18 m ρ c (Proc.devRef .tc main_arg9) :=
  (W24_of_ne m ρ c main_arg9 (by decide)).trans ((KHost3.C_keep_arg9 (W22 m ρ c)).trans ((W22_of_ne m ρ c main_arg9 (by decide)).trans
    ((KHost3.B_keep_arg9 (W20 m ρ c)).trans ((W20_of_ne m ρ c main_arg9 (by decide)).trans (KHost3.A_keep_arg9 (W18 m ρ c))))))
theorem keep_arg10 : W24 m ρ c (Proc.devRef .tc main_arg10) = W18 m ρ c (Proc.devRef .tc main_arg10) :=
  (W24_of_ne m ρ c main_arg10 (by decide)).trans ((KHost3.C_keep_arg10 (W22 m ρ c)).trans ((W22_of_ne m ρ c main_arg10 (by decide)).trans
    ((KHost3.B_keep_arg10 (W20 m ρ c)).trans ((W20_of_ne m ρ c main_arg10 (by decide)).trans (KHost3.A_keep_arg10 (W18 m ρ c))))))
theorem keep_arg11 : W24 m ρ c (Proc.devRef .tc main_arg11) = W18 m ρ c (Proc.devRef .tc main_arg11) :=
  (W24_of_ne m ρ c main_arg11 (by decide)).trans ((KHost3.C_keep_arg11 (W22 m ρ c)).trans ((W22_of_ne m ρ c main_arg11 (by decide)).trans
    ((KHost3.B_keep_arg11 (W20 m ρ c)).trans ((W20_of_ne m ρ c main_arg11 (by decide)).trans (KHost3.A_keep_arg11 (W18 m ρ c))))))
theorem keep_arg12 : W24 m ρ c (Proc.devRef .tc main_arg12) = W18 m ρ c (Proc.devRef .tc main_arg12) :=
  (W24_of_ne m ρ c main_arg12 (by decide)).trans ((KHost3.C_keep_arg12 (W22 m ρ c)).trans ((W22_of_ne m ρ c main_arg12 (by decide)).trans
    ((KHost3.B_keep_arg12 (W20 m ρ c)).trans ((W20_of_ne m ρ c main_arg12 (by decide)).trans (KHost3.A_keep_arg12 (W18 m ρ c))))))
theorem keep_v1 : W24 m ρ c (Proc.devRef .tc main_v1) = W18 m ρ c (Proc.devRef .tc main_v1) :=
  (W24_of_ne m ρ c main_v1 (by decide)).trans ((KHost3.C_keep_v1 (W22 m ρ c)).trans ((W22_of_ne m ρ c main_v1 (by decide)).trans
    ((KHost3.B_keep_v1 (W20 m ρ c)).trans ((W20_of_ne m ρ c main_v1 (by decide)).trans (KHost3.A_keep_v1 (W18 m ρ c))))))
theorem keep_v3 : W24 m ρ c (Proc.devRef .tc main_v3) = W18 m ρ c (Proc.devRef .tc main_v3) :=
  (W24_of_ne m ρ c main_v3 (by decide)).trans ((KHost3.C_keep_v3 (W22 m ρ c)).trans ((W22_of_ne m ρ c main_v3 (by decide)).trans
    ((KHost3.B_keep_v3 (W20 m ρ c)).trans ((W20_of_ne m ρ c main_v3 (by decide)).trans (KHost3.A_keep_v3 (W18 m ρ c))))))
theorem keep_v50 : W24 m ρ c (Proc.devRef .tc main_v50) = W18 m ρ c (Proc.devRef .tc main_v50) :=
  (W24_of_ne m ρ c main_v50 (by decide)).trans ((KHost3.C_keep_v50 (W22 m ρ c)).trans ((W22_of_ne m ρ c main_v50 (by decide)).trans
    ((KHost3.B_keep_v50 (W20 m ρ c)).trans ((W20_of_ne m ρ c main_v50 (by decide)).trans (KHost3.A_keep_v50 (W18 m ρ c))))))
theorem keep_v97 : W24 m ρ c (Proc.devRef .tc main_v97) = W18 m ρ c (Proc.devRef .tc main_v97) :=
  (W24_of_ne m ρ c main_v97 (by decide)).trans ((KHost3.C_keep_v97 (W22 m ρ c)).trans ((W22_of_ne m ρ c main_v97 (by decide)).trans
    ((KHost3.B_keep_v97 (W20 m ρ c)).trans ((W20_of_ne m ρ c main_v97 (by decide)).trans (KHost3.A_keep_v97 (W18 m ρ c))))))
theorem keep_v144 : W24 m ρ c (Proc.devRef .tc main_v144) = W18 m ρ c (Proc.devRef .tc main_v144) :=
  (W24_of_ne m ρ c main_v144 (by decide)).trans ((KHost3.C_keep_v144 (W22 m ρ c)).trans ((W22_of_ne m ρ c main_v144 (by decide)).trans
    ((KHost3.B_keep_v144 (W20 m ρ c)).trans (((W20_arr m ρ c 0).trans (((dat9 (V19 (F := Ideal) m ρ) c).arrAt_in 0 rfl _).trans (A_eq9 (V19 (F := Ideal) m ρ) c 0))).trans (KHost3.A_keep_v144 (W18 m ρ c))))))

end Cert.KernelIdeal.KLayer3

end
-- ==== Proof.KTail.lean ====
/-
  The tail of the program as one function.

  From the input features and the four layers' features: each array is pooled per graph (a scatter-add of the node
  rows by the graph index, from zero), multiplied by its own [128, 10] matrix and shifted by its own bias, giving a
  [512, 10] array of class scores; the five score arrays are added, first to last; and the logarithm of the softmax
  along the ten classes is taken (subtract the row maximum, then the logarithm of the row sum of exponentials).
  The last two stretches of host operations compute exactly this of the arrays they find.
-/
import proofs.«120577_j28003186770423_1_alg».proof.Proof.Gen.KernelIdeal.Launch
import Idealize.ShloMosaic.Lib.StableHlo.Run
import Idealize.ShloMosaic.PureOps.Ideal

noncomputable section

namespace Cert.KernelIdeal.K

open Idealize.ShloMosaic Idealize.ShloMosaic.StableHlo Cert.KernelIdeal Cert.KernelIdeal.Gen

/-- The per-graph sums of the node rows. -/
def pool (h : FVec Ideal S100000x128 .f32) (batch : IVec S100000 32) : FVec Ideal S512x128 .f32 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 batch) h

/-- Class scores of one feature array: the pooled rows times matrix `i` of the stack, plus bias `i`. -/
def score (i : Nat) (h3 : S5x128x10.Slices ![i, 0, 0] S1x128x10) (h2 : S5x10.Slices ![i, 0] S1x10)
    (h : FVec Ideal S100000x128 .f32) (batch : IVec S100000 32) (fcw : FVec Ideal S5x128x10 .f32) (fcb : FVec Ideal S5x10 .f32) :
    FVec Ideal S512x10 .f32 :=
  addf (F := Ideal)
    (Host.dotGeneral (F := Ideal) dot_S512x128_S128x10_S512x10_1_0_0_1_n_n none (pool h batch)
      (shapeCast S128x10 (extractStridedSlice S1x128x10 ![i, 0, 0] fcw h3) shapeCasts_S1x128x10_S128x10))
    (broadcastInDim S512x10 ![0, 1] bcast_S1x10_S512x10_0_1
      (broadcastInDim S1x10 ![1] bcast_S10_S1x10_1 (shapeCast S10 (extractStridedSlice S1x10 ![i, 0] fcb h2) shapeCasts_S1x10_S10)))

/-- The row-wise shifted scores: each row less its maximum. -/
def shifted (x : FVec Ideal S512x10 .f32) : FVec Ideal S512x10 .f32 :=
  subf (F := Ideal) x
    (broadcastInDim S512x10 ![0, 1] bcast_S512x1_S512x10_0_1
      (broadcastInDim S512x1 ![0] bcast_S512_S512x1_0
        (maximumf (F := Ideal) (broadcastInDim S512 ![] bcast_S_S512 (constant (F := Ideal) S_ .f32 0xFF800000#32))
          (Host.reduce (FloatOps.maximumf (F := Ideal) (φ := .f32)) x (constant (F := Ideal) S_ .f32 0xFF800000#32) reducesTo_S512x10_S512_d1 h_S_))))

/-- The logarithm of the softmax along the rows. -/
def logSoftmax (x : FVec Ideal S512x10 .f32) : FVec Ideal S512x10 .f32 :=
  subf (F := Ideal) (shifted x)
    (broadcastInDim S512x10 ![0, 1] bcast_S512x1_S512x10_0_1
      (Host.log (F := Ideal)
        (broadcastInDim S512x1 ![0] bcast_S512_S512x1_0
          (Host.reduceAdd (F := Ideal) (Host.exp (F := Ideal) (shifted x)) (constant (F := Ideal) S_ .f32 0x00000000#32) reducesTo_S512x10_S512_d1 h_S_))))

/-- Pooling, the five class scores, their sum, and the logarithm of the softmax. -/
def tailOf (x0 h1 h2 h3 h4 : FVec Ideal S100000x128 .f32) (batch : IVec S100000 32) (fcw : FVec Ideal S5x128x10 .f32) (fcb : FVec Ideal S5x10 .f32) :
    FVec Ideal S512x10 .f32 :=
  logSoftmax
    (addf (F := Ideal) (addf (F := Ideal) (addf (F := Ideal) (addf (F := Ideal)
      (score 0 slices_S5x128x10_S1x128x10_0_0_0 slices_S5x10_S1x10_0_0 x0 batch fcw fcb)
      (score 1 slices_S5x128x10_S1x128x10_1_0_0 slices_S5x10_S1x10_1_0 h1 batch fcw fcb))
      (score 2 slices_S5x128x10_S1x128x10_2_0_0 slices_S5x10_S1x10_2_0 h2 batch fcw fcb))
      (score 3 slices_S5x128x10_S1x128x10_3_0_0 slices_S5x10_S1x10_3_0 h3 batch fcw fcb))
      (score 4 slices_S5x128x10_S1x128x10_4_0_0 slices_S5x10_S1x10_4_0 h4 batch fcw fcb))

set_option maxHeartbeats 4000000 in
/-- The last two stretches of host operations compute the tail of the arrays they find. -/
theorem tail_eq (X : Valuation τ sig (Elt Ideal)) :
    (after (hostOps12_1 (F := Ideal)) (after (hostOps12 (F := Ideal)) X) (Proc.devRef .tc main_v251) : FVec Ideal S512x10 .f32)
      = tailOf (X (Proc.devRef .tc main_arg0)) (X (Proc.devRef .tc main_v50)) (X (Proc.devRef .tc main_v97)) (X (Proc.devRef .tc main_v144))
          (X (Proc.devRef .tc main_v191)) (X (Proc.devRef .tc main_arg2)) (X (Proc.devRef .tc main_arg11)) (X (Proc.devRef .tc main_arg12)) := by
  after_results_simp <;> rfl

end Cert.KernelIdeal.K

end
-- ==== Proof.RDefs.lean ====
/-
  The host-side building blocks of a layer, as functions of arrays.

  `srcOf` and `dstOf` are the two rows of the edge list; `aggOf h src dst` adds, into each node's row, the rows of
  `h` at the sources of the edges that end at that node (a source index below zero is first moved up by the
  number of nodes); `matOf` and `vecOf` are layer `i`'s slice of a stack of matrices or of vectors.
-/
import proofs.«120577_j28003186770423_1_alg».proof.Proof.Gen.ReferenceIdeal
import proofs.«120577_j28003186770423_1_alg».proof.Proof.LibCurry
import proofs.«120577_j28003186770423_1_alg».proof.Proof.GinNet

noncomputable section

namespace Cert.ReferenceIdeal.R

open Idealize.ShloMosaic Cert.ReferenceIdeal Cert.ReferenceIdeal.Gen

/-- The sources of the edges: row 0 of the edge list. -/
def srcOf (e : IVec S2x600000 32) : IVec S600000 32 :=
  shapeCast S600000 (extractStridedSlice S1x600000 ![0, 0] e slices_S2x600000_S1x600000_0_0) shapeCasts_S1x600000_S600000

/-- The targets of the edges: row 1 of the edge list. -/
def dstOf (e : IVec S2x600000 32) : IVec S600000 32 :=
  shapeCast S600000 (extractStridedSlice S1x600000 ![1, 0] e slices_S2x600000_S1x600000_1_0) shapeCasts_S1x600000_S600000

/-- The neighbourhood sums: from a zero array, add row `src e` of `h` into row `dst e`, over all edges `e`. -/
def aggOf (h : FVec Ideal S100000x128 .f32) (src dst : IVec S600000 32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

/-- Layer `i`'s matrix of a stack of four [128,128] matrices. -/
def mat (i : Nat) (x : FVec Ideal S4x128x128 .f32) (h : S4x128x128.Slices ![i, 0, 0] S1x128x128) : FVec Ideal S128x128 .f32 :=
  shapeCast S128x128 (extractStridedSlice S1x128x128 ![i, 0, 0] x h) shapeCasts_S1x128x128_S128x128

/-- Layer `i`'s vector of a stack of four vectors of length 128. -/
def vec (i : Nat) (x : FVec Ideal S4x128 .f32) (h : S4x128.Slices ![i, 0] S1x128) : FVec Ideal S128 .f32 :=
  shapeCast S128 (extractStridedSlice S1x128 ![i, 0] x h) shapeCasts_S1x128_S128

/-- The neighbourhood sums along the edge list `e`, as a map of arrays. -/
def aggK (e : IVec S2x600000 32) (h : FVec Ideal S100000x128 .f32) : FVec Ideal S100000x128 .f32 := aggOf h (srcOf e) (dstOf e)

/-- Layer `i`'s eight parameter arrays, cut from the stacks. -/
def paramsK (i : Nat) (h3 : S4x128x128.Slices ![i, 0, 0] S1x128x128) (h2 : S4x128.Slices ![i, 0] S1x128)
    (x3 : FVec Ideal S4x128x128 .f32) (x4 x5 x6 : FVec Ideal S4x128 .f32) (x7 : FVec Ideal S4x128x128 .f32) (x8 x9 x10 : FVec Ideal S4x128 .f32) : Cert.Gin.Params where
  w1 := Cert.Lib.cur2 (mat i x3 h3)
  b1 := Cert.Lib.cur1 (vec i x4 h2)
  g1 := Cert.Lib.cur1 (vec i x5 h2)
  c1 := Cert.Lib.cur1 (vec i x6 h2)
  w2 := Cert.Lib.cur2 (mat i x7 h3)
  b2 := Cert.Lib.cur1 (vec i x8 h2)
  g2 := Cert.Lib.cur1 (vec i x9 h2)
  c2 := Cert.Lib.cur1 (vec i x10 h2)

end Cert.ReferenceIdeal.R

end
-- ==== Proof.Cross.lean ====
/-
  The two programs' host-side building blocks are the same functions.

  Each printed program carries its own copies of the dimension records of the gather, the scatter-add and the
  slices; the copies have the same fields, so the functions built on them agree on all arguments.
-/
import proofs.«120577_j28003186770423_1_alg».proof.Proof.KDefs
import proofs.«120577_j28003186770423_1_alg».proof.Proof.RDefs

noncomputable section

namespace Cert.Cross

open Idealize.ShloMosaic

theorem srcOf_eq (e : IVec ⟨2, ![2, 600000]⟩ 32) : Cert.KernelIdeal.K.srcOf e = Cert.ReferenceIdeal.R.srcOf e := rfl

theorem dstOf_eq (e : IVec ⟨2, ![2, 600000]⟩ 32) : Cert.KernelIdeal.K.dstOf e = Cert.ReferenceIdeal.R.dstOf e := rfl

theorem aggOf_eq (h : FVec Ideal ⟨2, ![100000, 128]⟩ .f32) (src dst : IVec ⟨1, ![600000]⟩ 32) :
    Cert.KernelIdeal.K.aggOf h src dst = Cert.ReferenceIdeal.R.aggOf h src dst := rfl

theorem mat_eq (i : Nat) (x : FVec Ideal ⟨3, ![4, 128, 128]⟩ .f32) (h : (⟨3, ![4, 128, 128]⟩ : Shape).Slices ![i, 0, 0] ⟨3, ![1, 128, 128]⟩) :
    Cert.KernelIdeal.K.mat i x h = Cert.ReferenceIdeal.R.mat i x h := rfl

theorem vec_eq (i : Nat) (x : FVec Ideal ⟨2, ![4, 128]⟩ .f32) (h : (⟨2, ![4, 128]⟩ : Shape).Slices ![i, 0] ⟨2, ![1, 128]⟩) :
    Cert.KernelIdeal.K.vec i x h = Cert.ReferenceIdeal.R.vec i x h := rfl

theorem aggK_eq (e : IVec ⟨2, ![2, 600000]⟩ 32) : Cert.KernelIdeal.K.aggK e = Cert.ReferenceIdeal.R.aggK e := rfl

theorem paramsK_eq (i : Nat) (h3 : (⟨3, ![4, 128, 128]⟩ : Shape).Slices ![i, 0, 0] ⟨3, ![1, 128, 128]⟩) (h2 : (⟨2, ![4, 128]⟩ : Shape).Slices ![i, 0] ⟨2, ![1, 128]⟩)
    (x3 : FVec Ideal ⟨3, ![4, 128, 128]⟩ .f32) (x4 x5 x6 : FVec Ideal ⟨2, ![4, 128]⟩ .f32) (x7 : FVec Ideal ⟨3, ![4, 128, 128]⟩ .f32) (x8 x9 x10 : FVec Ideal ⟨2, ![4, 128]⟩ .f32) :
    Cert.KernelIdeal.K.paramsK i h3 h2 x3 x4 x5 x6 x7 x8 x9 x10 = Cert.ReferenceIdeal.R.paramsK i h3 h2 x3 x4 x5 x6 x7 x8 x9 x10 := rfl

end Cert.Cross

end
-- ==== Proof.KReal.lean ====
/-
  The host-side quantities of a layer are real-valued when what they are made from is.

  A slice, a change of shape, a broadcast and a gather each return entries of their operand, so they keep an
  array of real numbers real.  The neighbourhood sum at a node is zero plus a finite sum of gathered rows'
  entries, hence real as well.
-/
import proofs.«120577_j28003186770423_1_alg».proof.Proof.KDefs
import proofs.«120577_j28003186770423_1_alg».proof.Proof.LibRealValued
import Idealize.ShloMosaic.PureOps.Ideal.Laws

noncomputable section

namespace Cert.KernelIdeal.K

open Idealize.ShloMosaic Cert.KernelIdeal Cert.KernelIdeal.Gen Cert.Lib

/-- A layer's weight matrix has real entries when the stack has. -/
theorem mat_real {i : Nat} {x : FVec Ideal S4x128x128 .f32} {h : S4x128x128.Slices ![i, 0, 0] S1x128x128}
    (hx : ∀ a, IsReal (x a)) (k j : Fin 128) : IsReal (cur2 (mat i x h) k j) := by
  unfold cur2 mat shapeCast extractStridedSlice
  exact hx _

/-- A layer's parameter vector has real entries when the stack has. -/
theorem vec_real {i : Nat} {x : FVec Ideal S4x128 .f32} {h : S4x128.Slices ![i, 0] S1x128}
    (hx : ∀ a, IsReal (x a)) (j : Fin 128) : IsReal (cur1 (vec i x h) j) := by
  unfold cur1 vec shapeCast extractStridedSlice
  exact hx _

/-- The neighbourhood sums of an array of real numbers are real, whatever the edge list. -/
theorem aggOf_real {h : FVec Ideal S100000x128 .f32} (hh : ∀ a, IsReal (h a)) (src dst : IVec S600000 32)
    (r : Fin 100000) (k : Fin 128) : IsReal (cur2 (aggOf h src dst) r k) := by
  unfold cur2 aggOf Host.scatterAdd
  show IsReal (Ideal.hostScatterAdd _ _ _ _ _)
  unfold Ideal.hostScatterAdd
  refine IsReal.add ?_ (IsReal.sum _ _ fun j _ => ?_)
  · show IsReal (Ideal.ofBits .f32 0x00000000#32)
    rw [Ideal.ofBits_zero_f32]; exact IsReal.zero
  · unfold Host.gather
    exact hh _

/-- The neighbourhood-sum map keeps real arrays real. -/
theorem aggK_real (e : IVec S2x600000 32) (h : FVec Ideal S100000x128 .f32) (hh : ∀ a, IsReal (h a)) (r : Fin 100000) (k : Fin 128) :
    IsReal (cur2 (aggK e h) r k) := aggOf_real hh _ _ r k

/-- A layer's parameters are real when the stacks they are cut from are. -/
theorem paramsK_real {i : Nat} {h3 : S4x128x128.Slices ![i, 0, 0] S1x128x128} {h2 : S4x128.Slices ![i, 0] S1x128}
    {x3 : FVec Ideal S4x128x128 .f32} {x4 x5 x6 : FVec Ideal S4x128 .f32} {x7 : FVec Ideal S4x128x128 .f32} {x8 x9 x10 : FVec Ideal S4x128 .f32}
    (r3 : ∀ a, IsReal (x3 a)) (r4 : ∀ a, IsReal (x4 a)) (r5 : ∀ a, IsReal (x5 a)) (r6 : ∀ a, IsReal (x6 a))
    (r7 : ∀ a, IsReal (x7 a)) (r8 : ∀ a, IsReal (x8 a)) (r9 : ∀ a, IsReal (x9 a)) (r10 : ∀ a, IsReal (x10 a)) :
    (paramsK i h3 h2 x3 x4 x5 x6 x7 x8 x9 x10).IsReal :=
  ⟨mat_real (h := h3) r3, vec_real (h := h2) r4, vec_real (h := h2) r5, vec_real (h := h2) r6,
    mat_real (h := h3) r7, vec_real (h := h2) r8, vec_real (h := h2) r9, vec_real (h := h2) r10⟩

end Cert.KernelIdeal.K

end
-- ==== Proof.RTailDef.lean ====
/-
  The tail of the program as one function, over the reference program's records: pooling of the input features and of the
  four layers' features per graph, the five class scores, their sum, and the logarithm of the softmax.
-/
import proofs.«120577_j28003186770423_1_alg».proof.Proof.Gen.ReferenceIdeal
import Idealize.ShloMosaic.PureOps.Ideal

noncomputable section

namespace Cert.ReferenceIdeal.R

open Idealize.ShloMosaic Cert.ReferenceIdeal Cert.ReferenceIdeal.Gen

/-- The per-graph sums of the node rows. -/
def pool (h : FVec Ideal S100000x128 .f32) (batch : IVec S100000 32) : FVec Ideal S512x128 .f32 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 batch) h

/-- Class scores of one feature array: the pooled rows times matrix `i` of the stack, plus bias `i`. -/
def score (i : Nat) (h3 : S5x128x10.Slices ![i, 0, 0] S1x128x10) (h2 : S5x10.Slices ![i, 0] S1x10)
    (h : FVec Ideal S100000x128 .f32) (batch : IVec S100000 32) (fcw : FVec Ideal S5x128x10 .f32) (fcb : FVec Ideal S5x10 .f32) :
    FVec Ideal S512x10 .f32 :=
  addf (F := Ideal)
    (Host.dotGeneral (F := Ideal) dot_S512x128_S128x10_S512x10_1_0_0_1_n_n none (pool h batch)
      (shapeCast S128x10 (extractStridedSlice S1x128x10 ![i, 0, 0] fcw h3) shapeCasts_S1x128x10_S128x10))
    (broadcastInDim S512x10 ![0, 1] bcast_S1x10_S512x10_0_1
      (broadcastInDim S1x10 ![1] bcast_S10_S1x10_1 (shapeCast S10 (extractStridedSlice S1x10 ![i, 0] fcb h2) shapeCasts_S1x10_S10)))

/-- The row-wise shifted scores: each row less its maximum. -/
def shifted (x : FVec Ideal S512x10 .f32) : FVec Ideal S512x10 .f32 :=
  subf (F := Ideal) x
    (broadcastInDim S512x10 ![0, 1] bcast_S512x1_S512x10_0_1
      (broadcastInDim S512x1 ![0] bcast_S512_S512x1_0
        (maximumf (F := Ideal) (broadcastInDim S512 ![] bcast_S_S512 (constant (F := Ideal) S_ .f32 0xFF800000#32))
          (Host.reduce (FloatOps.maximumf (F := Ideal) (φ := .f32)) x (constant (F := Ideal) S_ .f32 0xFF800000#32) reducesTo_S512x10_S512_d1 h_S_))))

/-- The logarithm of the softmax along the rows. -/
def logSoftmax (x : FVec Ideal S512x10 .f32) : FVec Ideal S512x10 .f32 :=
  subf (F := Ideal) (shifted x)
    (broadcastInDim S512x10 ![0, 1] bcast_S512x1_S512x10_0_1
      (Host.log (F := Ideal)
        (broadcastInDim S512x1 ![0] bcast_S512_S512x1_0
          (Host.reduceAdd (F := Ideal) (Host.exp (F := Ideal) (shifted x)) (constant (F := Ideal) S_ .f32 0x00000000#32) reducesTo_S512x10_S512_d1 h_S_))))

/-- Pooling, the five class scores, their sum, and the logarithm of the softmax. -/
def tailOf (x0 h1 h2 h3 h4 : FVec Ideal S100000x128 .f32) (batch : IVec S100000 32) (fcw : FVec Ideal S5x128x10 .f32) (fcb : FVec Ideal S5x10 .f32) :
    FVec Ideal S512x10 .f32 :=
  logSoftmax
    (addf (F := Ideal) (addf (F := Ideal) (addf (F := Ideal) (addf (F := Ideal)
      (score 0 slices_S5x128x10_S1x128x10_0_0_0 slices_S5x10_S1x10_0_0 x0 batch fcw fcb)
      (score 1 slices_S5x128x10_S1x128x10_1_0_0 slices_S5x10_S1x10_1_0 h1 batch fcw fcb))
      (score 2 slices_S5x128x10_S1x128x10_2_0_0 slices_S5x10_S1x10_2_0 h2 batch fcw fcb))
      (score 3 slices_S5x128x10_S1x128x10_3_0_0 slices_S5x10_S1x10_3_0 h3 batch fcw fcb))
      (score 4 slices_S5x128x10_S1x128x10_4_0_0 slices_S5x10_S1x10_4_0 h4 batch fcw fcb))

end Cert.ReferenceIdeal.R

end
-- ==== Proof.NetEq.lean ====
/-
  The two programs compute the same network.

  Over the same thirteen argument arrays, with every floating-point entry a real number: the features after each of the
  four layers are the same whether a layer's statistics are taken from accumulated sums or as reductions of deviations
  (one step at a time: real features in, equal and real features out), the two programs' neighbourhood sums, parameter
  slices and tails being the same functions; hence the two results are equal.
-/
import proofs.«120577_j28003186770423_1_alg».proof.Proof.Cross
import proofs.«120577_j28003186770423_1_alg».proof.Proof.KReal
import proofs.«120577_j28003186770423_1_alg».proof.Proof.KTail
import proofs.«120577_j28003186770423_1_alg».proof.Proof.RTailDef

noncomputable section

namespace Cert.NetEq

open Idealize.ShloMosaic Cert.Lib Cert.Gin

variable (X0 : FVec Ideal ⟨2, ![100000, 128]⟩ .f32) (X1 : IVec ⟨2, ![2, 600000]⟩ 32) (X2 : IVec ⟨1, ![100000]⟩ 32)
  (X3 : FVec Ideal ⟨3, ![4, 128, 128]⟩ .f32) (X4 X5 X6 : FVec Ideal ⟨2, ![4, 128]⟩ .f32) (X7 : FVec Ideal ⟨3, ![4, 128, 128]⟩ .f32)
  (X8 X9 X10 : FVec Ideal ⟨2, ![4, 128]⟩ .f32) (X11 : FVec Ideal ⟨3, ![5, 128, 10]⟩ .f32) (X12 : FVec Ideal ⟨2, ![5, 10]⟩ .f32)

/-! ## The features after each layer, in the kernel's arrangement -/

def H1 : Fin 100000 → Fin 128 → EReal := stepK (Cert.KernelIdeal.K.aggK X1) (Cert.KernelIdeal.K.paramsK 0 Cert.KernelIdeal.Gen.slices_S4x128x128_S1x128x128_0_0_0 Cert.KernelIdeal.Gen.slices_S4x128_S1x128_0_0 X3 X4 X5 X6 X7 X8 X9 X10) (cur2 X0)
def H2 : Fin 100000 → Fin 128 → EReal := stepK (Cert.KernelIdeal.K.aggK X1) (Cert.KernelIdeal.K.paramsK 1 Cert.KernelIdeal.Gen.slices_S4x128x128_S1x128x128_1_0_0 Cert.KernelIdeal.Gen.slices_S4x128_S1x128_1_0 X3 X4 X5 X6 X7 X8 X9 X10) (H1 X0 X1 X3 X4 X5 X6 X7 X8 X9 X10)
def H3 : Fin 100000 → Fin 128 → EReal := stepK (Cert.KernelIdeal.K.aggK X1) (Cert.KernelIdeal.K.paramsK 2 Cert.KernelIdeal.Gen.slices_S4x128x128_S1x128x128_2_0_0 Cert.KernelIdeal.Gen.slices_S4x128_S1x128_2_0 X3 X4 X5 X6 X7 X8 X9 X10) (H2 X0 X1 X3 X4 X5 X6 X7 X8 X9 X10)
def H4 : Fin 100000 → Fin 128 → EReal := stepK (Cert.KernelIdeal.K.aggK X1) (Cert.KernelIdeal.K.paramsK 3 Cert.KernelIdeal.Gen.slices_S4x128x128_S1x128x128_3_0_0 Cert.KernelIdeal.Gen.slices_S4x128_S1x128_3_0 X3 X4 X5 X6 X7 X8 X9 X10) (H3 X0 X1 X3 X4 X5 X6 X7 X8 X9 X10)

/-! ## The same in the reference's arrangement -/

def G1 : Fin 100000 → Fin 128 → EReal := stepR (Cert.ReferenceIdeal.R.aggK X1) (Cert.ReferenceIdeal.R.paramsK 0 Cert.ReferenceIdeal.Gen.slices_S4x128x128_S1x128x128_0_0_0 Cert.ReferenceIdeal.Gen.slices_S4x128_S1x128_0_0 X3 X4 X5 X6 X7 X8 X9 X10) (cur2 X0)
def G2 : Fin 100000 → Fin 128 → EReal := stepR (Cert.ReferenceIdeal.R.aggK X1) (Cert.ReferenceIdeal.R.paramsK 1 Cert.ReferenceIdeal.Gen.slices_S4x128x128_S1x128x128_1_0_0 Cert.ReferenceIdeal.Gen.slices_S4x128_S1x128_1_0 X3 X4 X5 X6 X7 X8 X9 X10) (G1 X0 X1 X3 X4 X5 X6 X7 X8 X9 X10)
def G3 : Fin 100000 → Fin 128 → EReal := stepR (Cert.ReferenceIdeal.R.aggK X1) (Cert.ReferenceIdeal.R.paramsK 2 Cert.ReferenceIdeal.Gen.slices_S4x128x128_S1x128x128_2_0_0 Cert.ReferenceIdeal.Gen.slices_S4x128_S1x128_2_0 X3 X4 X5 X6 X7 X8 X9 X10) (G2 X0 X1 X3 X4 X5 X6 X7 X8 X9 X10)
def G4 : Fin 100000 → Fin 128 → EReal := stepR (Cert.ReferenceIdeal.R.aggK X1) (Cert.ReferenceIdeal.R.paramsK 3 Cert.ReferenceIdeal.Gen.slices_S4x128x128_S1x128x128_3_0_0 Cert.ReferenceIdeal.Gen.slices_S4x128_S1x128_3_0 X3 X4 X5 X6 X7 X8 X9 X10) (G3 X0 X1 X3 X4 X5 X6 X7 X8 X9 X10)

section
variable {X0 X1 X3 X4 X5 X6 X7 X8 X9 X10}
variable (r0 : ∀ a, IsReal (X0 a)) (r3 : ∀ a, IsReal (X3 a)) (r4 : ∀ a, IsReal (X4 a)) (r5 : ∀ a, IsReal (X5 a)) (r6 : ∀ a, IsReal (X6 a))
  (r7 : ∀ a, IsReal (X7 a)) (r8 : ∀ a, IsReal (X8 a)) (r9 : ∀ a, IsReal (X9 a)) (r10 : ∀ a, IsReal (X10 a))
include r0 r3 r4 r5 r6 r7 r8 r9 r10

/-- One step, in either arrangement and over either program's building blocks, from real features. -/
theorem step (i : Nat) (h3 : (⟨3, ![4, 128, 128]⟩ : Shape).Slices ![i, 0, 0] ⟨3, ![1, 128, 128]⟩) (h2 : (⟨2, ![4, 128]⟩ : Shape).Slices ![i, 0] ⟨2, ![1, 128]⟩)
    (H : Fin 100000 → Fin 128 → EReal) (hH : ∀ r k, IsReal (H r k)) :
    stepR (Cert.ReferenceIdeal.R.aggK X1) (Cert.ReferenceIdeal.R.paramsK i h3 h2 X3 X4 X5 X6 X7 X8 X9 X10) H
        = stepK (Cert.KernelIdeal.K.aggK X1) (Cert.KernelIdeal.K.paramsK i h3 h2 X3 X4 X5 X6 X7 X8 X9 X10) H
      ∧ ∀ r k, IsReal (stepK (Cert.KernelIdeal.K.aggK X1) (Cert.KernelIdeal.K.paramsK i h3 h2 X3 X4 X5 X6 X7 X8 X9 X10) H r k) := by
  rw [← Cert.Cross.aggK_eq X1, ← Cert.Cross.paramsK_eq i h3 h2 X3 X4 X5 X6 X7 X8 X9 X10]
  exact step_eq (fun h hh => Cert.KernelIdeal.K.aggK_real X1 h hh)
    (Cert.KernelIdeal.K.paramsK_real (h3 := h3) (h2 := h2) r3 r4 r5 r6 r7 r8 r9 r10) hH

theorem feats1 : G1 X0 X1 X3 X4 X5 X6 X7 X8 X9 X10 = H1 X0 X1 X3 X4 X5 X6 X7 X8 X9 X10 ∧ ∀ r k, IsReal (H1 X0 X1 X3 X4 X5 X6 X7 X8 X9 X10 r k) :=
  step (X1 := X1) r0 r3 r4 r5 r6 r7 r8 r9 r10 0 _ _ (cur2 X0) (fun r k => r0 _)

theorem feats2 : G2 X0 X1 X3 X4 X5 X6 X7 X8 X9 X10 = H2 X0 X1 X3 X4 X5 X6 X7 X8 X9 X10 ∧ ∀ r k, IsReal (H2 X0 X1 X3 X4 X5 X6 X7 X8 X9 X10 r k) := by
  obtain ⟨e, hr⟩ := feats1 (X1 := X1) r0 r3 r4 r5 r6 r7 r8 r9 r10
  unfold G2 H2; rw [e]
  exact step (X1 := X1) r0 r3 r4 r5 r6 r7 r8 r9 r10 1 _ _ _ hr

theorem feats3 : G3 X0 X1 X3 X4 X5 X6 X7 X8 X9 X10 = H3 X0 X1 X3 X4 X5 X6 X7 X8 X9 X10 ∧ ∀ r k, IsReal (H3 X0 X1 X3 X4 X5 X6 X7 X8 X9 X10 r k) := by
  obtain ⟨e, hr⟩ := feats2 (X1 := X1) r0 r3 r4 r5 r6 r7 r8 r9 r10
  unfold G3 H3; rw [e]
  exact step (X1 := X1) r0 r3 r4 r5 r6 r7 r8 r9 r10 2 _ _ _ hr

theorem feats4 : G4 X0 X1 X3 X4 X5 X6 X7 X8 X9 X10 = H4 X0 X1 X3 X4 X5 X6 X7 X8 X9 X10 ∧ ∀ r k, IsReal (H4 X0 X1 X3 X4 X5 X6 X7 X8 X9 X10 r k) := by
  obtain ⟨e, hr⟩ := feats3 (X1 := X1) r0 r3 r4 r5 r6 r7 r8 r9 r10
  unfold G4 H4; rw [e]
  exact step (X1 := X1) r0 r3 r4 r5 r6 r7 r8 r9 r10 3 _ _ _ hr

end

/-- The two programs' tails are one function. -/
theorem tailOf_eq (x0 h1 h2 h3 h4 : FVec Ideal ⟨2, ![100000, 128]⟩ .f32) (batch : IVec ⟨1, ![100000]⟩ 32)
    (fcw : FVec Ideal ⟨3, ![5, 128, 10]⟩ .f32) (fcb : FVec Ideal ⟨2, ![5, 10]⟩ .f32) :
    Cert.ReferenceIdeal.R.tailOf x0 h1 h2 h3 h4 batch fcw fcb = Cert.KernelIdeal.K.tailOf x0 h1 h2 h3 h4 batch fcw fcb := rfl

/-- The two results are equal: the reference's tail of its features is the kernel's tail of its features. -/
theorem results_eq (r0 : ∀ a, IsReal (X0 a)) (r3 : ∀ a, IsReal (X3 a)) (r4 : ∀ a, IsReal (X4 a)) (r5 : ∀ a, IsReal (X5 a)) (r6 : ∀ a, IsReal (X6 a))
    (r7 : ∀ a, IsReal (X7 a)) (r8 : ∀ a, IsReal (X8 a)) (r9 : ∀ a, IsReal (X9 a)) (r10 : ∀ a, IsReal (X10 a)) :
    Cert.ReferenceIdeal.R.tailOf X0 (unc2 (G1 X0 X1 X3 X4 X5 X6 X7 X8 X9 X10)) (unc2 (G2 X0 X1 X3 X4 X5 X6 X7 X8 X9 X10))
        (unc2 (G3 X0 X1 X3 X4 X5 X6 X7 X8 X9 X10)) (unc2 (G4 X0 X1 X3 X4 X5 X6 X7 X8 X9 X10)) X2 X11 X12
      = Cert.KernelIdeal.K.tailOf X0 (unc2 (H1 X0 X1 X3 X4 X5 X6 X7 X8 X9 X10)) (unc2 (H2 X0 X1 X3 X4 X5 X6 X7 X8 X9 X10))
        (unc2 (H3 X0 X1 X3 X4 X5 X6 X7 X8 X9 X10)) (unc2 (H4 X0 X1 X3 X4 X5 X6 X7 X8 X9 X10)) X2 X11 X12 := by
  rw [(feats1 (X1 := X1) r0 r3 r4 r5 r6 r7 r8 r9 r10).1, (feats2 (X1 := X1) r0 r3 r4 r5 r6 r7 r8 r9 r10).1,
    (feats3 (X1 := X1) r0 r3 r4 r5 r6 r7 r8 r9 r10).1, (feats4 (X1 := X1) r0 r3 r4 r5 r6 r7 r8 r9 r10).1]
  exact tailOf_eq _ _ _ _ _ _ _ _

end Cert.NetEq

end
-- ==== Proof.KFinal.lean ====
/-
  The idealized kernel program's result as one function of the launch memory.

  The node features after each of the four layers are four steps from the input features, each with its own slice of
  the parameter stacks and the neighbourhood sums along the one edge list; the result is the tail (pooling, class
  scores, their sum, the logarithm of the softmax) of the input features and the four layers' features.  Each layer's
  output array is read off the run's fold by the layer's own theorem; the argument arrays, the edge lists computed in
  the first stretch, and the earlier layers' outputs reach the later layers and the tail unchanged.
-/
import proofs.«120577_j28003186770423_1_alg».proof.Proof.KLayer0
import proofs.«120577_j28003186770423_1_alg».proof.Proof.KLayer1
import proofs.«120577_j28003186770423_1_alg».proof.Proof.KLayer2
import proofs.«120577_j28003186770423_1_alg».proof.Proof.KLayer3
import proofs.«120577_j28003186770423_1_alg».proof.Proof.KTail
import proofs.«120577_j28003186770423_1_alg».proof.Proof.NetEq

set_option maxRecDepth 16384

noncomputable section

namespace Cert.KernelIdeal.KFinal

open Idealize.ShloMosaic Idealize.ShloMosaic.TcCoe Idealize.ShloMosaic.StableHlo Idealize.SL.Sem
open Cert.KernelIdeal Cert.KernelIdeal.Gen Cert.KernelIdeal.K Cert.Lib Cert.Gin

variable (m : (ℓ : Loc nD τ sig) → Buf (Elt Ideal) ℓ) (ρ : Dev nD → PrngReg) (c : Dev nD)

/-! ## The launch memory's arrays -/

abbrev X0 : FVec Ideal S100000x128 .f32 := W0 m ρ c (Proc.devRef .tc main_arg0)
abbrev X1 : IVec S2x600000 32 := W0 m ρ c (Proc.devRef .tc main_arg1)
abbrev X2 : IVec S100000 32 := W0 m ρ c (Proc.devRef .tc main_arg2)
abbrev X3 : FVec Ideal S4x128x128 .f32 := W0 m ρ c (Proc.devRef .tc main_arg3)
abbrev X4 : FVec Ideal S4x128 .f32 := W0 m ρ c (Proc.devRef .tc main_arg4)
abbrev X5 : FVec Ideal S4x128 .f32 := W0 m ρ c (Proc.devRef .tc main_arg5)
abbrev X6 : FVec Ideal S4x128 .f32 := W0 m ρ c (Proc.devRef .tc main_arg6)
abbrev X7 : FVec Ideal S4x128x128 .f32 := W0 m ρ c (Proc.devRef .tc main_arg7)
abbrev X8 : FVec Ideal S4x128 .f32 := W0 m ρ c (Proc.devRef .tc main_arg8)
abbrev X9 : FVec Ideal S4x128 .f32 := W0 m ρ c (Proc.devRef .tc main_arg9)
abbrev X10 : FVec Ideal S4x128 .f32 := W0 m ρ c (Proc.devRef .tc main_arg10)
abbrev X11 : FVec Ideal S5x128x10 .f32 := W0 m ρ c (Proc.devRef .tc main_arg11)
abbrev X12 : FVec Ideal S5x10 .f32 := W0 m ρ c (Proc.devRef .tc main_arg12)

/-! ## The features after each layer -/

abbrev H1 : Fin 100000 → Fin 128 → EReal := Cert.NetEq.H1 (X0 m ρ c) (X1 m ρ c) (X3 m ρ c) (X4 m ρ c) (X5 m ρ c) (X6 m ρ c) (X7 m ρ c) (X8 m ρ c) (X9 m ρ c) (X10 m ρ c)
abbrev H2 : Fin 100000 → Fin 128 → EReal := Cert.NetEq.H2 (X0 m ρ c) (X1 m ρ c) (X3 m ρ c) (X4 m ρ c) (X5 m ρ c) (X6 m ρ c) (X7 m ρ c) (X8 m ρ c) (X9 m ρ c) (X10 m ρ c)
abbrev H3 : Fin 100000 → Fin 128 → EReal := Cert.NetEq.H3 (X0 m ρ c) (X1 m ρ c) (X3 m ρ c) (X4 m ρ c) (X5 m ρ c) (X6 m ρ c) (X7 m ρ c) (X8 m ρ c) (X9 m ρ c) (X10 m ρ c)
abbrev H4 : Fin 100000 → Fin 128 → EReal := Cert.NetEq.H4 (X0 m ρ c) (X1 m ρ c) (X3 m ρ c) (X4 m ρ c) (X5 m ρ c) (X6 m ρ c) (X7 m ρ c) (X8 m ρ c) (X9 m ρ c) (X10 m ρ c)

/-- The first layer's output array holds the first step's features. -/
theorem step0 : cur2 (a := 100000) (b := 128) (W6 m ρ c (Proc.devRef .tc main_v50)) = H1 m ρ c := by
  rw [KLayer0.out_eq m ρ c]
  unfold H1 Cert.NetEq.H1 stepK withAgg aggK
  rw [unc2_cur2]
  rfl

theorem feat1 : (W6 m ρ c (Proc.devRef .tc main_v50) : FVec Ideal S100000x128 .f32) = unc2 (H1 m ρ c) := by
  rw [← step0 m ρ c]; exact (unc2_cur2 _).symm

theorem step1 : cur2 (a := 100000) (b := 128) (W12 m ρ c (Proc.devRef .tc main_v97)) = H2 m ρ c := by
  rw [KLayer1.out_eq m ρ c]
  rw [KLayer0.keep_arg3 m ρ c,
    KLayer0.keep_arg4 m ρ c,
    KLayer0.keep_arg5 m ρ c,
    KLayer0.keep_arg6 m ρ c,
    KLayer0.keep_arg7 m ρ c,
    KLayer0.keep_arg8 m ρ c,
    KLayer0.keep_arg9 m ρ c,
    KLayer0.keep_arg10 m ρ c,
    KLayer0.made_v1 m ρ c,
    KLayer0.made_v3 m ρ c]
  rw [feat1 m ρ c]
  unfold H2 Cert.NetEq.H2 stepK withAgg aggK
  rfl

theorem feat2 : (W12 m ρ c (Proc.devRef .tc main_v97) : FVec Ideal S100000x128 .f32) = unc2 (H2 m ρ c) := by
  rw [← step1 m ρ c]; exact (unc2_cur2 _).symm

theorem step2 : cur2 (a := 100000) (b := 128) (W18 m ρ c (Proc.devRef .tc main_v144)) = H3 m ρ c := by
  rw [KLayer2.out_eq m ρ c]
  rw [KLayer1.keep_arg3 m ρ c,
    KLayer0.keep_arg3 m ρ c,
    KLayer1.keep_arg4 m ρ c,
    KLayer0.keep_arg4 m ρ c,
    KLayer1.keep_arg5 m ρ c,
    KLayer0.keep_arg5 m ρ c,
    KLayer1.keep_arg6 m ρ c,
    KLayer0.keep_arg6 m ρ c,
    KLayer1.keep_arg7 m ρ c,
    KLayer0.keep_arg7 m ρ c,
    KLayer1.keep_arg8 m ρ c,
    KLayer0.keep_arg8 m ρ c,
    KLayer1.keep_arg9 m ρ c,
    KLayer0.keep_arg9 m ρ c,
    KLayer1.keep_arg10 m ρ c,
    KLayer0.keep_arg10 m ρ c,
    KLayer1.keep_v1 m ρ c,
    KLayer0.made_v1 m ρ c,
    KLayer1.keep_v3 m ρ c,
    KLayer0.made_v3 m ρ c]
  rw [feat2 m ρ c]
  unfold H3 Cert.NetEq.H3 stepK withAgg aggK
  rfl

theorem feat3 : (W18 m ρ c (Proc.devRef .tc main_v144) : FVec Ideal S100000x128 .f32) = unc2 (H3 m ρ c) := by
  rw [← step2 m ρ c]; exact (unc2_cur2 _).symm

theorem step3 : cur2 (a := 100000) (b := 128) (W24 m ρ c (Proc.devRef .tc main_v191)) = H4 m ρ c := by
  rw [KLayer3.out_eq m ρ c]
  rw [KLayer2.keep_arg3 m ρ c,
    KLayer1.keep_arg3 m ρ c,
    KLayer0.keep_arg3 m ρ c,
    KLayer2.keep_arg4 m ρ c,
    KLayer1.keep_arg4 m ρ c,
    KLayer0.keep_arg4 m ρ c,
    KLayer2.keep_arg5 m ρ c,
    KLayer1.keep_arg5 m ρ c,
    KLayer0.keep_arg5 m ρ c,
    KLayer2.keep_arg6 m ρ c,
    KLayer1.keep_arg6 m ρ c,
    KLayer0.keep_arg6 m ρ c,
    KLayer2.keep_arg7 m ρ c,
    KLayer1.keep_arg7 m ρ c,
    KLayer0.keep_arg7 m ρ c,
    KLayer2.keep_arg8 m ρ c,
    KLayer1.keep_arg8 m ρ c,
    KLayer0.keep_arg8 m ρ c,
    KLayer2.keep_arg9 m ρ c,
    KLayer1.keep_arg9 m ρ c,
    KLayer0.keep_arg9 m ρ c,
    KLayer2.keep_arg10 m ρ c,
    KLayer1.keep_arg10 m ρ c,
    KLayer0.keep_arg10 m ρ c,
    KLayer2.keep_v1 m ρ c,
    KLayer1.keep_v1 m ρ c,
    KLayer0.made_v1 m ρ c,
    KLayer2.keep_v3 m ρ c,
    KLayer1.keep_v3 m ρ c,
    KLayer0.made_v3 m ρ c]
  rw [feat3 m ρ c]
  unfold H4 Cert.NetEq.H4 stepK withAgg aggK
  rfl

theorem feat4 : (W24 m ρ c (Proc.devRef .tc main_v191) : FVec Ideal S100000x128 .f32) = unc2 (H4 m ρ c) := by
  rw [← step3 m ρ c]; exact (unc2_cur2 _).symm

/-! ## The result -/

/-- The result array at the end of the fold: the tail of the input features and the four layers' features. -/
theorem value : (W26 m ρ c (Proc.devRef .tc main_v251) : FVec Ideal S512x10 .f32)
    = tailOf (X0 m ρ c) (unc2 (H1 m ρ c)) (unc2 (H2 m ρ c)) (unc2 (H3 m ρ c)) (unc2 (H4 m ρ c)) (X2 m ρ c) (X11 m ρ c) (X12 m ρ c) := by
  have t := tail_eq (W24 m ρ c)
  rw [KLayer3.keep_arg0 m ρ c,
    KLayer2.keep_arg0 m ρ c,
    KLayer1.keep_arg0 m ρ c,
    KLayer0.keep_arg0 m ρ c,
    KLayer3.keep_arg2 m ρ c,
    KLayer2.keep_arg2 m ρ c,
    KLayer1.keep_arg2 m ρ c,
    KLayer0.keep_arg2 m ρ c,
    KLayer3.keep_arg11 m ρ c,
    KLayer2.keep_arg11 m ρ c,
    KLayer1.keep_arg11 m ρ c,
    KLayer0.keep_arg11 m ρ c,
    KLayer3.keep_arg12 m ρ c,
    KLayer2.keep_arg12 m ρ c,
    KLayer1.keep_arg12 m ρ c,
    KLayer0.keep_arg12 m ρ c,
    KLayer3.keep_v50 m ρ c,
    KLayer2.keep_v50 m ρ c,
    KLayer1.keep_v50 m ρ c,
    KLayer3.keep_v97 m ρ c,
    KLayer2.keep_v97 m ρ c,
    KLayer3.keep_v144 m ρ c] at t
  rw [feat1 m ρ c, feat2 m ρ c, feat3 m ρ c, feat4 m ρ c] at t
  exact t

end Cert.KernelIdeal.KFinal

end
-- ==== Proof.RefEqs.lean ====
/- The equations the reference line satisfies at its end, one per operation: the buffer the operation writes holds,
   after the whole line, the operation's function of what its operand buffers hold after the whole line. -/
import proofs.«120577_j28003186770423_1_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- the fold over the whole line is never evaluated here: every equation below is an instance of a lemma of the line
attribute [local irreducible] Idealize.ShloMosaic.StableHlo.after

theorem eq_main_v0 (V : Valuation τ sig (Elt F)) :
    A V main_v0 = (((extractStridedSlice S1x600000 ![0, 0] · slices_S2x600000_S1x600000_0_0) : (⟨S2x600000, .i32⟩ : BufTy).Contents (Elt F) → (⟨S1x600000, .i32⟩ : BufTy).Contents (Elt F)) (A V main_arg1 : (⟨S2x600000, .i32⟩ : BufTy).Contents (Elt F)) : (⟨S1x600000, .i32⟩ : BufTy).Contents (Elt F)) :=
  pc0.unary (k := 0) (y := main_v0) rfl (by decide)
    (fun Z => (((extractStridedSlice S1x600000 ![0, 0] · slices_S2x600000_S1x600000_0_0) : (⟨S2x600000, .i32⟩ : BufTy).Contents (Elt F) → (⟨S1x600000, .i32⟩ : BufTy).Contents (Elt F)) (Z (Proc.devRef .tc main_arg1) : (⟨S2x600000, .i32⟩ : BufTy).Contents (Elt F)) : (⟨S1x600000, .i32⟩ : BufTy).Contents (Elt F))) (fun Z => rfl) V

theorem eq_main_v1 (V : Valuation τ sig (Elt F)) :
    A V main_v1 = (shapeCast S600000 (A V main_v0 : (⟨S1x600000, .i32⟩ : BufTy).Contents (Elt F)) shapeCasts_S1x600000_S600000 : (⟨S600000, .i32⟩ : BufTy).Contents (Elt F)) :=
  pc0.reshape (k := 1) (y := main_v1) rfl (by decide)
    (fun Z => (shapeCast S600000 (Z (Proc.devRef .tc main_v0) : (⟨S1x600000, .i32⟩ : BufTy).Contents (Elt F)) shapeCasts_S1x600000_S600000 : (⟨S600000, .i32⟩ : BufTy).Contents (Elt F))) (fun Z => rfl) V

theorem eq_main_v2 (V : Valuation τ sig (Elt F)) :
    A V main_v2 = (((extractStridedSlice S1x600000 ![1, 0] · slices_S2x600000_S1x600000_1_0) : (⟨S2x600000, .i32⟩ : BufTy).Contents (Elt F) → (⟨S1x600000, .i32⟩ : BufTy).Contents (Elt F)) (A V main_arg1 : (⟨S2x600000, .i32⟩ : BufTy).Contents (Elt F)) : (⟨S1x600000, .i32⟩ : BufTy).Contents (Elt F)) :=
  pc0.unary (k := 2) (y := main_v2) rfl (by decide)
    (fun Z => (((extractStridedSlice S1x600000 ![1, 0] · slices_S2x600000_S1x600000_1_0) : (⟨S2x600000, .i32⟩ : BufTy).Contents (Elt F) → (⟨S1x600000, .i32⟩ : BufTy).Contents (Elt F)) (Z (Proc.devRef .tc main_arg1) : (⟨S2x600000, .i32⟩ : BufTy).Contents (Elt F)) : (⟨S1x600000, .i32⟩ : BufTy).Contents (Elt F))) (fun Z => rfl) V

theorem eq_main_v3 (V : Valuation τ sig (Elt F)) :
    A V main_v3 = (shapeCast S600000 (A V main_v2 : (⟨S1x600000, .i32⟩ : BufTy).Contents (Elt F)) shapeCasts_S1x600000_S600000 : (⟨S600000, .i32⟩ : BufTy).Contents (Elt F)) :=
  pc0.reshape (k := 3) (y := main_v3) rfl (by decide)
    (fun Z => (shapeCast S600000 (Z (Proc.devRef .tc main_v2) : (⟨S1x600000, .i32⟩ : BufTy).Contents (Elt F)) shapeCasts_S1x600000_S600000 : (⟨S600000, .i32⟩ : BufTy).Contents (Elt F))) (fun Z => rfl) V

theorem eq_main_c (V : Valuation τ sig (Elt F)) :
    A V main_c = ((constantI S_ 32 0#32) : (⟨S_, .i32⟩ : BufTy).Contents (Elt F)) :=
  pc0.nullary (k := 4) (y := main_c) rfl V

theorem eq_main_v4 (V : Valuation τ sig (Elt F)) :
    A V main_v4 = ((broadcastInDim S600000 ![] bcast_S_S600000 : (⟨S_, .i32⟩ : BufTy).Contents (Elt F) → (⟨S600000, .i32⟩ : BufTy).Contents (Elt F)) (A V main_c : (⟨S_, .i32⟩ : BufTy).Contents (Elt F)) : (⟨S600000, .i32⟩ : BufTy).Contents (Elt F)) :=
  pc0.unary (k := 5) (y := main_v4) rfl (by decide)
    (fun Z => ((broadcastInDim S600000 ![] bcast_S_S600000 : (⟨S_, .i32⟩ : BufTy).Contents (Elt F) → (⟨S600000, .i32⟩ : BufTy).Contents (Elt F)) (Z (Proc.devRef .tc main_c) : (⟨S_, .i32⟩ : BufTy).Contents (Elt F)) : (⟨S600000, .i32⟩ : BufTy).Contents (Elt F))) (fun Z => rfl) V

theorem eq_main_v5 (V : Valuation τ sig (Elt F)) :
    A V main_v5 = ((cmpi .slt : (⟨S600000, .i32⟩ : BufTy).Contents (Elt F) → (⟨S600000, .i32⟩ : BufTy).Contents (Elt F) → (⟨S600000, .i1⟩ : BufTy).Contents (Elt F)) (A V main_v1 : (⟨S600000, .i32⟩ : BufTy).Contents (Elt F)) (A V main_v4 : (⟨S600000, .i32⟩ : BufTy).Contents (Elt F)) : (⟨S600000, .i1⟩ : BufTy).Contents (Elt F)) :=
  pc0.binary (k := 6) (y := main_v5) rfl (by decide) (by decide)
    (fun Z => ((cmpi .slt : (⟨S600000, .i32⟩ : BufTy).Contents (Elt F) → (⟨S600000, .i32⟩ : BufTy).Contents (Elt F) → (⟨S600000, .i1⟩ : BufTy).Contents (Elt F)) (Z (Proc.devRef .tc main_v1) : (⟨S600000, .i32⟩ : BufTy).Contents (Elt F)) (Z (Proc.devRef .tc main_v4) : (⟨S600000, .i32⟩ : BufTy).Contents (Elt F)) : (⟨S600000, .i1⟩ : BufTy).Contents (Elt F))) (fun Z => rfl) V

theorem eq_main_c_0 (V : Valuation τ sig (Elt F)) :
    A V main_c_0 = ((constantI S_ 32 100000#32) : (⟨S_, .i32⟩ : BufTy).Contents (Elt F)) :=
  pc0.nullary (k := 7) (y := main_c_0) rfl V

theorem eq_main_v6 (V : Valuation τ sig (Elt F)) :
    A V main_v6 = ((broadcastInDim S600000 ![] bcast_S_S600000 : (⟨S_, .i32⟩ : BufTy).Contents (Elt F) → (⟨S600000, .i32⟩ : BufTy).Contents (Elt F)) (A V main_c_0 : (⟨S_, .i32⟩ : BufTy).Contents (Elt F)) : (⟨S600000, .i32⟩ : BufTy).Contents (Elt F)) :=
  pc0.unary (k := 8) (y := main_v6) rfl (by decide)
    (fun Z => ((broadcastInDim S600000 ![] bcast_S_S600000 : (⟨S_, .i32⟩ : BufTy).Contents (Elt F) → (⟨S600000, .i32⟩ : BufTy).Contents (Elt F)) (Z (Proc.devRef .tc main_c_0) : (⟨S_, .i32⟩ : BufTy).Contents (Elt F)) : (⟨S600000, .i32⟩ : BufTy).Contents (Elt F))) (fun Z => rfl) V

theorem eq_main_v7 (V : Valuation τ sig (Elt F)) :
    A V main_v7 = ((addi : (⟨S600000, .i32⟩ : BufTy).Contents (Elt F) → (⟨S600000, .i32⟩ : BufTy).Contents (Elt F) → (⟨S600000, .i32⟩ : BufTy).Contents (Elt F)) (A V main_v1 : (⟨S600000, .i32⟩ : BufTy).Contents (Elt F)) (A V main_v6 : (⟨S600000, .i32⟩ : BufTy).Contents (Elt F)) : (⟨S600000, .i32⟩ : BufTy).Contents (Elt F)) :=
  pc0.binary (k := 9) (y := main_v7) rfl (by decide) (by decide)
    (fun Z => ((addi : (⟨S600000, .i32⟩ : BufTy).Contents (Elt F) → (⟨S600000, .i32⟩ : BufTy).Contents (Elt F) → (⟨S600000, .i32⟩ : BufTy).Contents (Elt F)) (Z (Proc.devRef .tc main_v1) : (⟨S600000, .i32⟩ : BufTy).Contents (Elt F)) (Z (Proc.devRef .tc main_v6) : (⟨S600000, .i32⟩ : BufTy).Contents (Elt F)) : (⟨S600000, .i32⟩ : BufTy).Contents (Elt F))) (fun Z => rfl) V

theorem eq_main_v8 (V : Valuation τ sig (Elt F)) :
    A V main_v8 = ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (A V main_v5 : (⟨S600000, .i1⟩ : BufTy).Contents (Elt F)) (A V main_v7 : (⟨S600000, .i32⟩ : BufTy).Contents (Elt F)) (A V main_v1 : (⟨S600000, .i32⟩ : BufTy).Contents (Elt F)) : (⟨S600000, .i32⟩ : BufTy).Contents (Elt F)) :=
  pc0.ternary (k := 10) (y := main_v8) rfl (by decide) (by decide) (by decide)
    (fun Z => ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (Z (Proc.devRef .tc main_v5) : (⟨S600000, .i1⟩ : BufTy).Contents (Elt F)) (Z (Proc.devRef .tc main_v7) : (⟨S600000, .i32⟩ : BufTy).Contents (Elt F)) (Z (Proc.devRef .tc main_v1) : (⟨S600000, .i32⟩ : BufTy).Contents (Elt F)) : (⟨S600000, .i32⟩ : BufTy).Contents (Elt F))) (fun Z => rfl) V

theorem eq_main_v9 (V : Valuation τ sig (Elt F)) :
    A V main_v9 = ((broadcastInDim S600000x1 ![0] bcast_S600000_S600000x1_0 : (⟨S600000, .i32⟩ : BufTy).Contents (Elt F) → (⟨S600000x1, .i32⟩ : BufTy).Contents (Elt F)) (A V main_v8 : (⟨S600000, .i32⟩ : BufTy).Contents (Elt F)) : (⟨S600000x1, .i32⟩ : BufTy).Contents (Elt F)) :=
  pc0.unary (k := 11) (y := main_v9) rfl (by decide)
    (fun Z => ((broadcastInDim S600000x1 ![0] bcast_S600000_S600000x1_0 : (⟨S600000, .i32⟩ : BufTy).Contents (Elt F) → (⟨S600000x1, .i32⟩ : BufTy).Contents (Elt F)) (Z (Proc.devRef .tc main_v8) : (⟨S600000, .i32⟩ : BufTy).Contents (Elt F)) : (⟨S600000x1, .i32⟩ : BufTy).Contents (Elt F))) (fun Z => rfl) V

theorem eq_main_v10 (V : Valuation τ sig (Elt F)) :
    A V main_v10 = (Host.gather gather_S100000x128_S600000x1_S600000x128_1_0_n_n_0_1_1128 (A V main_arg0 : (⟨S100000x128, .f32⟩ : BufTy).Contents (Elt F)) (A V main_v9 : (⟨S600000x1, .i32⟩ : BufTy).Contents (Elt F)) : (⟨S600000x128, .f32⟩ : BufTy).Contents (Elt F)) :=
  pc0.binary (k := 12) (y := main_v10) rfl (by decide) (by decide)
    (fun Z => (Host.gather gather_S100000x128_S600000x1_S600000x128_1_0_n_n_0_1_1128 (Z (Proc.devRef .tc main_arg0) : (⟨S100000x128, .f32⟩ : BufTy).Contents (Elt F)) (Z (Proc.devRef .tc main_v9) : (⟨S600000x1, .i32⟩ : BufTy).Contents (Elt F)) : (⟨S600000x128, .f32⟩ : BufTy).Contents (Elt F))) (fun Z => rfl) V

theorem eq_main_cst (V : Valuation τ sig (Elt F)) :
    A V main_cst = ((constant S_ .f32 0x00000000#32) : (⟨S_, .f32⟩ : BufTy).Contents (Elt F)) :=
  pc0.nullary (k := 13) (y := main_cst) rfl V

theorem eq_main_v11 (V : Valuation τ sig (Elt F)) :
    A V main_v11 = ((broadcastInDim S100000x128 ![] bcast_S_S100000x128 : (⟨S_, .f32⟩ : BufTy).Contents (Elt F) → (⟨S100000x128, .f32⟩ : BufTy).Contents (Elt F)) (A V main_cst : (⟨S_, .f32⟩ : BufTy).Contents (Elt F)) : (⟨S100000x128, .f32⟩ : BufTy).Contents (Elt F)) :=
  pc0.unary (k := 14) (y := main_v11) rfl (by decide)
    (fun Z => ((broadcastInDim S100000x128 ![] bcast_S_S100000x128 : (⟨S_, .f32⟩ : BufTy).Contents (Elt F) → (⟨S100000x128, .f32⟩ : BufTy).Contents (Elt F)) (Z (Proc.devRef .tc main_cst) : (⟨S_, .f32⟩ : BufTy).Contents (Elt F)) : (⟨S100000x128, .f32⟩ : BufTy).Contents (Elt F))) (fun Z => rfl) V

theorem eq_main_v12 (V : Valuation τ sig (Elt F)) :
    A V main_v12 = ((broadcastInDim S600000x1 ![0] bcast_S600000_S600000x1_0 : (⟨S600000, .i32⟩ : BufTy).Contents (Elt F) → (⟨S600000x1, .i32⟩ : BufTy).Contents (Elt F)) (A V main_v3 : (⟨S600000, .i32⟩ : BufTy).Contents (Elt F)) : (⟨S600000x1, .i32⟩ : BufTy).Contents (Elt F)) :=
  pc0.unary (k := 15) (y := main_v12) rfl (by decide)
    (fun Z => ((broadcastInDim S600000x1 ![0] bcast_S600000_S600000x1_0 : (⟨S600000, .i32⟩ : BufTy).Contents (Elt F) → (⟨S600000x1, .i32⟩ : BufTy).Contents (Elt F)) (Z (Proc.devRef .tc main_v3) : (⟨S600000, .i32⟩ : BufTy).Contents (Elt F)) : (⟨S600000x1, .i32⟩ : BufTy).Contents (Elt F))) (fun Z => rfl) V

theorem eq_main_v13 (V : Valuation τ sig (Elt F)) :
    A V main_v13 = (Host.scatterAdd scatter_S100000x128_S600000x1_S600000x128_1_0_0_1 (A V main_v11 : (⟨S100000x128, .f32⟩ : BufTy).Contents (Elt F)) (A V main_v12 : (⟨S600000x1, .i32⟩ : BufTy).Contents (Elt F)) (A V main_v10 : (⟨S600000x128, .f32⟩ : BufTy).Contents (Elt F)) : (⟨S100000x128, .f32⟩ : BufTy).Contents (Elt F)) :=
  pc0.ternary (k := 16) (y := main_v13) rfl (by decide) (by decide) (by decide)
    (fun Z => (Host.scatterAdd scatter_S100000x128_S600000x1_S600000x128_1_0_0_1 (Z (Proc.devRef .tc main_v11) : (⟨S100000x128, .f32⟩ : BufTy).Contents (Elt F)) (Z (Proc.devRef .tc main_v12) : (⟨S600000x1, .i32⟩ : BufTy).Contents (Elt F)) (Z (Proc.devRef .tc main_v10) : (⟨S600000x128, .f32⟩ : BufTy).Contents (Elt F)) : (⟨S100000x128, .f32⟩ : BufTy).Contents (Elt F))) (fun Z => rfl) V

theorem eq_main_v14 (V : Valuation τ sig (Elt F)) :
    A V main_v14 = ((addf : (⟨S100000x128, .f32⟩ : BufTy).Contents (Elt F) → (⟨S100000x128, .f32⟩ : BufTy).Contents (Elt F) → (⟨S100000x128, .f32⟩ : BufTy).Contents (Elt F)) (A V main_arg0 : (⟨S100000x128, .f32⟩ : BufTy).Contents (Elt F)) (A V main_v13 : (⟨S100000x128, .f32⟩ : BufTy).Contents (Elt F)) : (⟨S100000x128, .f32⟩ : BufTy).Contents (Elt F)) :=
  pc0.binary (k := 17) (y := main_v14) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_arg0) : (⟨S100000x128, .f32⟩ : BufTy).Contents (Elt F)) (Z (Proc.devRef .tc main_v13) : (⟨S100000x128, .f32⟩ : BufTy).Contents (Elt F)) : (⟨S100000x128, .f32⟩ : BufTy).Contents (Elt F))) (fun Z => rfl) V

theorem eq_main_v15 (V : Valuation τ sig (Elt F)) :
    A V main_v15 = (((extractStridedSlice S1x128x128 ![0, 0, 0] · slices_S4x128x128_S1x128x128_0_0_0) : (⟨S4x128x128, .f32⟩ : BufTy).Contents (Elt F) → (⟨S1x128x128, .f32⟩ : BufTy).Contents (Elt F)) (A V main_arg3 : (⟨S4x128x128, .f32⟩ : BufTy).Contents (Elt F)) : (⟨S1x128x128, .f32⟩ : BufTy).Contents (Elt F)) :=
  pc0.unary (k := 18) (y := main_v15) rfl (by decide)
    (fun Z => (((extractStridedSlice S1x128x128 ![0, 0, 0] · slices_S4x128x128_S1x128x128_0_0_0) : (⟨S4x128x128, .f32⟩ : BufTy).Contents (Elt F) → (⟨S1x128x128, .f32⟩ : BufTy).Contents (Elt F)) (Z (Proc.devRef .tc main_arg3) : (⟨S4x128x128, .f32⟩ : BufTy).Contents (Elt F)) : (⟨S1x128x128, .f32⟩ : BufTy).Contents (Elt F))) (fun Z => rfl) V

theorem eq_main_v16 (V : Valuation τ sig (Elt F)) :
    A V main_v16 = (shapeCast S128x128 (A V main_v15 : (⟨S1x128x128, .f32⟩ : BufTy).Contents (Elt F)) shapeCasts_S1x128x128_S128x128 : (⟨S128x128, .f32⟩ : BufTy).Contents (Elt F)) :=
  pc0.reshape (k := 19) (y := main_v16) rfl (by decide)
    (fun Z => (shapeCast S128x128 (Z (Proc.devRef .tc main_v15) : (⟨S1x128x128, .f32⟩ : BufTy).Contents (Elt F)) shapeCasts_S1x128x128_S128x128 : (⟨S128x128, .f32⟩ : BufTy).Contents (Elt F))) (fun Z => rfl) V

theorem eq_main_v17 (V : Valuation τ sig (Elt F)) :
    A V main_v17 = (Host.dotGeneral dot_S100000x128_S128x128_S100000x128_1_0_0_1_n_n none (A V main_v14 : (⟨S100000x128, .f32⟩ : BufTy).Contents (Elt F)) (A V main_v16 : (⟨S128x128, .f32⟩ : BufTy).Contents (Elt F)) : (⟨S100000x128, .f32⟩ : BufTy).Contents (Elt F)) :=
  pc0.binary (k := 20) (y := main_v17) rfl (by decide) (by decide)
    (fun Z => (Host.dotGeneral dot_S100000x128_S128x128_S100000x128_1_0_0_1_n_n none (Z (Proc.devRef .tc main_v14) : (⟨S100000x128, .f32⟩ : BufTy).Contents (Elt F)) (Z (Proc.devRef .tc main_v16) : (⟨S128x128, .f32⟩ : BufTy).Contents (Elt F)) : (⟨S100000x128, .f32⟩ : BufTy).Contents (Elt F))) (fun Z => rfl) V

theorem eq_main_v18 (V : Valuation τ sig (Elt F)) :
    A V main_v18 = (((extractStridedSlice S1x128 ![0, 0] · slices_S4x128_S1x128_0_0) : (⟨S4x128, .f32⟩ : BufTy).Contents (Elt F) → (⟨S1x128, .f32⟩ : BufTy).Contents (Elt F)) (A V main_arg4 : (⟨S4x128, .f32⟩ : BufTy).Contents (Elt F)) : (⟨S1x128, .f32⟩ : BufTy).Contents (Elt F)) :=
  pc0.unary (k := 21) (y := main_v18) rfl (by decide)
    (fun Z => (((extractStridedSlice S1x128 ![0, 0] · slices_S4x128_S1x128_0_0) : (⟨S4x128, .f32⟩ : BufTy).Contents (Elt F) → (⟨S1x128, .f32⟩ : BufTy).Contents (Elt F)) (Z (Proc.devRef .tc main_arg4) : (⟨S4x128, .f32⟩ : BufTy).Contents (Elt F)) : (⟨S1x128, .f32⟩ : BufTy).Contents (Elt F))) (fun Z => rfl) V

theorem eq_main_v19 (V : Valuation τ sig (Elt F)) :
    A V main_v19 = (shapeCast S128 (A V main_v18 : (⟨S1x128, .f32⟩ : BufTy).Contents (Elt F)) shapeCasts_S1x128_S128 : (⟨S128, .f32⟩ : BufTy).Contents (Elt F)) :=
  pc0.reshape (k := 22) (y := main_v19) rfl (by decide)
    (fun Z => (shapeCast S128 (Z (Proc.devRef .tc main_v18) : (⟨S1x128, .f32⟩ : BufTy).Contents (Elt F)) shapeCasts_S1x128_S128 : (⟨S128, .f32⟩ : BufTy).Contents (Elt F))) (fun Z => rfl) V

theorem eq_main_v20 (V : Valuation τ sig (Elt F)) :
    A V main_v20 = ((broadcastInDim S1x128 ![1] bcast_S128_S1x128_1 : (⟨S128, .f32⟩ : BufTy).Contents (Elt F) → (⟨S1x128, .f32⟩ : BufTy).Contents (Elt F)) (A V main_v19 : (⟨S128, .f32⟩ : BufTy).Contents (Elt F)) : (⟨S1x128, .f32⟩ : BufTy).Contents (Elt F)) :=
  pc0.unary (k := 23) (y := main_v20) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v19) : (⟨S128, .f32⟩ : BufTy).Contents (Elt F)) : (⟨S1x128, .f32⟩ : BufTy).Contents (Elt F))) (fun Z => rfl) V

theorem eq_main_v21 (V : Valuation τ sig (Elt F)) :
    A V main_v21 = ((broadcastInDim S100000x128 ![0, 1] bcast_S1x128_S100000x128_0_1 : (⟨S1x128, .f32⟩ : BufTy).Contents (Elt F) → (⟨S100000x128, .f32⟩ : BufTy).Contents (Elt F)) (A V main_v20 : (⟨S1x128, .f32⟩ : BufTy).Contents (Elt F)) : (⟨S100000x128, .f32⟩ : BufTy).Contents (Elt F)) :=
  pc0.unary (k := 24) (y := main_v21) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v20) : (⟨S1x128, .f32⟩ : BufTy).Contents (Elt F)) : (⟨S100000x128, .f32⟩ : BufTy).Contents (Elt F))) (fun Z => rfl) V

theorem eq_main_v22 (V : Valuation τ sig (Elt F)) :
    A V main_v22 = ((addf : (⟨S100000x128, .f32⟩ : BufTy).Contents (Elt F) → (⟨S100000x128, .f32⟩ : BufTy).Contents (Elt F) → (⟨S100000x128, .f32⟩ : BufTy).Contents (Elt F)) (A V main_v17 : (⟨S100000x128, .f32⟩ : BufTy).Contents (Elt F)) (A V main_v21 : (⟨S100000x128, .f32⟩ : BufTy).Contents (Elt F)) : (⟨S100000x128, .f32⟩ : BufTy).Contents (Elt F)) :=
  pc0.binary (k := 25) (y := main_v22) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v17) : (⟨S100000x128, .f32⟩ : BufTy).Contents (Elt F)) (Z (Proc.devRef .tc main_v21) : (⟨S100000x128, .f32⟩ : BufTy).Contents (Elt F)) : (⟨S100000x128, .f32⟩ : BufTy).Contents (Elt F))) (fun Z => rfl) V

theorem eq_main_v23 (V : Valuation τ sig (Elt F)) :
    A V main_v23 = (((extractStridedSlice S1x128 ![0, 0] · slices_S4x128_S1x128_0_0) : (⟨S4x128, .f32⟩ : BufTy).Contents (Elt F) → (⟨S1x128, .f32⟩ : BufTy).Contents (Elt F)) (A V main_arg5 : (⟨S4x128, .f32⟩ : BufTy).Contents (Elt F)) : (⟨S1x128, .f32⟩ : BufTy).Contents (Elt F)) :=
  pc0.unary (k := 26) (y := main_v23) rfl (by decide)
    (fun Z => (((extractStridedSlice S1x128 ![0, 0] · slices_S4x128_S1x128_0_0) : (⟨S4x128, .f32⟩ : BufTy).Contents (Elt F) → (⟨S1x128, .f32⟩ : BufTy).Contents (Elt F)) (Z (Proc.devRef .tc main_arg5) : (⟨S4x128, .f32⟩ : BufTy).Contents (Elt F)) : (⟨S1x128, .f32⟩ : BufTy).Contents (Elt F))) (fun Z => rfl) V

theorem eq_main_v24 (V : Valuation τ sig (Elt F)) :
    A V main_v24 = (shapeCast S128 (A V main_v23 : (⟨S1x128, .f32⟩ : BufTy).Contents (Elt F)) shapeCasts_S1x128_S128 : (⟨S128, .f32⟩ : BufTy).Contents (Elt F)) :=
  pc0.reshape (k := 27) (y := main_v24) rfl (by decide)
    (fun Z => (shapeCast S128 (Z (Proc.devRef .tc main_v23) : (⟨S1x128, .f32⟩ : BufTy).Contents (Elt F)) shapeCasts_S1x128_S128 : (⟨S128, .f32⟩ : BufTy).Contents (Elt F))) (fun Z => rfl) V

theorem eq_main_v25 (V : Valuation τ sig (Elt F)) :
    A V main_v25 = (((extractStridedSlice S1x128 ![0, 0] · slices_S4x128_S1x128_0_0) : (⟨S4x128, .f32⟩ : BufTy).Contents (Elt F) → (⟨S1x128, .f32⟩ : BufTy).Contents (Elt F)) (A V main_arg6 : (⟨S4x128, .f32⟩ : BufTy).Contents (Elt F)) : (⟨S1x128, .f32⟩ : BufTy).Contents (Elt F)) :=
  pc0.unary (k := 28) (y := main_v25) rfl (by decide)
    (fun Z => (((extractStridedSlice S1x128 ![0, 0] · slices_S4x128_S1x128_0_0) : (⟨S4x128, .f32⟩ : BufTy).Contents (Elt F) → (⟨S1x128, .f32⟩ : BufTy).Contents (Elt F)) (Z (Proc.devRef .tc main_arg6) : (⟨S4x128, .f32⟩ : BufTy).Contents (Elt F)) : (⟨S1x128, .f32⟩ : BufTy).Contents (Elt F))) (fun Z => rfl) V

theorem eq_main_v26 (V : Valuation τ sig (Elt F)) :
    A V main_v26 = (shapeCast S128 (A V main_v25 : (⟨S1x128, .f32⟩ : BufTy).Contents (Elt F)) shapeCasts_S1x128_S128 : (⟨S128, .f32⟩ : BufTy).Contents (Elt F)) :=
  pc0.reshape (k := 29) (y := main_v26) rfl (by decide)
    (fun Z => (shapeCast S128 (Z (Proc.devRef .tc main_v25) : (⟨S1x128, .f32⟩ : BufTy).Contents (Elt F)) shapeCasts_S1x128_S128 : (⟨S128, .f32⟩ : BufTy).Contents (Elt F))) (fun Z => rfl) V

theorem eq_main_cst_1 (V : Valuation τ sig (Elt F)) :
    A V main_cst_1 = ((constant S_ .f32 0x00000000#32) : (⟨S_, .f32⟩ : BufTy).Contents (Elt F)) :=
  pc0.nullary (k := 30) (y := main_cst_1) rfl V

theorem eq_main_v27 (V : Valuation τ sig (Elt F)) :
    A V main_v27 = (Host.reduceAdd (A V main_v22 : (⟨S100000x128, .f32⟩ : BufTy).Contents (Elt F)) (A V main_cst_1 : (⟨S_, .f32⟩ : BufTy).Contents (Elt F)) reducesTo_S100000x128_S128_d0 h_S_ : (⟨S128, .f32⟩ : BufTy).Contents (Elt F)) :=
  pc0.binary (k := 31) (y := main_v27) rfl (by decide) (by decide)
    (fun Z => (Host.reduceAdd (Z (Proc.devRef .tc main_v22) : (⟨S100000x128, .f32⟩ : BufTy).Contents (Elt F)) (Z (Proc.devRef .tc main_cst_1) : (⟨S_, .f32⟩ : BufTy).Contents (Elt F)) reducesTo_S100000x128_S128_d0 h_S_ : (⟨S128, .f32⟩ : BufTy).Contents (Elt F))) (fun Z => rfl) V

theorem eq_main_cst_2 (V : Valuation τ sig (Elt F)) :
    A V main_cst_2 = ((constant S_ .f32 0x47C35000#32) : (⟨S_, .f32⟩ : BufTy).Contents (Elt F)) :=
  pc0.nullary (k := 32) (y := main_cst_2) rfl V

theorem eq_main_v28 (V : Valuation τ sig (Elt F)) :
    A V main_v28 = ((broadcastInDim S128 ![] bcast_S_S128 : (⟨S_, .f32⟩ : BufTy).Contents (Elt F) → (⟨S128, .f32⟩ : BufTy).Contents (Elt F)) (A V main_cst_2 : (⟨S_, .f32⟩ : BufTy).Contents (Elt F)) : (⟨S128, .f32⟩ : BufTy).Contents (Elt F)) :=
  pc0.unary (k := 33) (y := main_v28) rfl (by decide)
    (fun Z => ((broadcastInDim S128 ![] bcast_S_S128 : (⟨S_, .f32⟩ : BufTy).Contents (Elt F) → (⟨S128, .f32⟩ : BufTy).Contents (Elt F)) (Z (Proc.devRef .tc main_cst_2) : (⟨S_, .f32⟩ : BufTy).Contents (Elt F)) : (⟨S128, .f32⟩ : BufTy).Contents (Elt F))) (fun Z => rfl) V

theorem eq_main_v29 (V : Valuation τ sig (Elt F)) :
    A V main_v29 = ((Host.divf : (⟨S128, .f32⟩ : BufTy).Contents (Elt F) → (⟨S128, .f32⟩ : BufTy).Contents (Elt F) → (⟨S128, .f32⟩ : BufTy).Contents (Elt F)) (A V main_v27 : (⟨S128, .f32⟩ : BufTy).Contents (Elt F)) (A V main_v28 : (⟨S128, .f32⟩ : BufTy).Contents (Elt F)) : (⟨S128, .f32⟩ : BufTy).Contents (Elt F)) :=
  pc0.binary (k := 34) (y := main_v29) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_v27) : (⟨S128, .f32⟩ : BufTy).Contents (Elt F)) (Z (Proc.devRef .tc main_v28) : (⟨S128, .f32⟩ : BufTy).Contents (Elt F)) : (⟨S128, .f32⟩ : BufTy).Contents (Elt F))) (fun Z => rfl) V

theorem eq_main_c_3 (V : Valuation τ sig (Elt F)) :
    A V main_c_3 = ((constantI S_ 32 0#32) : (⟨S_, .i32⟩ : BufTy).Contents (Elt F)) :=
  pc0.nullary (k := 35) (y := main_c_3) rfl V

theorem eq_main_call0_cst (V : Valuation τ sig (Elt F)) :
    A V main_call0_cst = ((constant S_ .f32 0x00000000#32) : (⟨S_, .f32⟩ : BufTy).Contents (Elt F)) :=
  pc0.nullary (k := 36) (y := main_call0_cst) rfl V

theorem eq_main_call0_v0 (V : Valuation τ sig (Elt F)) :
    A V main_call0_v0 = (Host.reduceAdd (A V main_v22 : (⟨S100000x128, .f32⟩ : BufTy).Contents (Elt F)) (A V main_call0_cst : (⟨S_, .f32⟩ : BufTy).Contents (Elt F)) reducesTo_S100000x128_S128_d0 h_S_ : (⟨S128, .f32⟩ : BufTy).Contents (Elt F)) :=
  pc0.binary (k := 37) (y := main_call0_v0) rfl (by decide) (by decide)
    (fun Z => (Host.reduceAdd (Z (Proc.devRef .tc main_v22) : (⟨S100000x128, .f32⟩ : BufTy).Contents (Elt F)) (Z (Proc.devRef .tc main_call0_cst) : (⟨S_, .f32⟩ : BufTy).Contents (Elt F)) reducesTo_S100000x128_S128_d0 h_S_ : (⟨S128, .f32⟩ : BufTy).Contents (Elt F))) (fun Z => rfl) V

theorem eq_main_call0_v1 (V : Valuation τ sig (Elt F)) :
    A V main_call0_v1 = (((broadcastInDim S1x128 ![1] bcast_S128_S1x128_1) : (⟨S128, .f32⟩ : BufTy).Contents (Elt F) → (⟨S1x128, .f32⟩ : BufTy).Contents (Elt F)) (A V main_call0_v0 : (⟨S128, .f32⟩ : BufTy).Contents (Elt F)) : (⟨S1x128, .f32⟩ : BufTy).Contents (Elt F)) :=
  pc0.unary (k := 38) (y := main_call0_v1) rfl (by decide)
    (fun Z => (((broadcastInDim S1x128 ![1] bcast_S128_S1x128_1) : (⟨S128, .f32⟩ : BufTy).Contents (Elt F) → (⟨S1x128, .f32⟩ : BufTy).Contents (Elt F)) (Z (Proc.devRef .tc main_call0_v0) : (⟨S128, .f32⟩ : BufTy).Contents (Elt F)) : (⟨S1x128, .f32⟩ : BufTy).Contents (Elt F))) (fun Z => rfl) V

theorem eq_main_call0_cst_0 (V : Valuation τ sig (Elt F)) :
    A V main_call0_cst_0 = ((constant S_ .f32 0x47C35000#32) : (⟨S_, .f32⟩ : BufTy).Contents (Elt F)) :=
  pc0.nullary (k := 39) (y := main_call0_cst_0) rfl V

theorem eq_main_call0_v2 (V : Valuation τ sig (Elt F)) :
    A V main_call0_v2 = (((broadcastInDim S1x128 ![] bcast_S_S1x128) : (⟨S_, .f32⟩ : BufTy).Contents (Elt F) → (⟨S1x128, .f32⟩ : BufTy).Contents (Elt F)) (A V main_call0_cst_0 : (⟨S_, .f32⟩ : BufTy).Contents (Elt F)) : (⟨S1x128, .f32⟩ : BufTy).Contents (Elt F)) :=
  pc0.unary (k := 40) (y := main_call0_v2) rfl (by decide)
    (fun Z => (((broadcastInDim S1x128 ![] bcast_S_S1x128) : (⟨S_, .f32⟩ : BufTy).Contents (Elt F) → (⟨S1x128, .f32⟩ : BufTy).Contents (Elt F)) (Z (Proc.devRef .tc main_call0_cst_0) : (⟨S_, .f32⟩ : BufTy).Contents (Elt F)) : (⟨S1x128, .f32⟩ : BufTy).Contents (Elt F))) (fun Z => rfl) V

theorem eq_main_call0_v3 (V : Valuation τ sig (Elt F)) :
    A V main_call0_v3 = ((Host.divf : (⟨S1x128, .f32⟩ : BufTy).Contents (Elt F) → (⟨S1x128, .f32⟩ : BufTy).Contents (Elt F) → (⟨S1x128, .f32⟩ : BufTy).Contents (Elt F)) (A V main_call0_v1 : (⟨S1x128, .f32⟩ : BufTy).Contents (Elt F)) (A V main_call0_v2 : (⟨S1x128, .f32⟩ : BufTy).Contents (Elt F)) : (⟨S1x128, .f32⟩ : BufTy).Contents (Elt F)) :=
  pc0.binary (k := 41) (y := main_call0_v3) rfl (by decide) (by decide)
    (fun Z => ((Host.divf : (⟨S1x128, .f32⟩ : BufTy).Contents (Elt F) → (⟨S1x128, .f32⟩ : BufTy).Contents (Elt F) → (⟨S1x128, .f32⟩ : BufTy).Contents (Elt F)) (Z (Proc.devRef .tc main_call0_v1) : (⟨S1x128, .f32⟩ : BufTy).Contents (Elt F)) (Z (Proc.devRef .tc main_call0_v2) : (⟨S1x128, .f32⟩ : BufTy).Contents (Elt F)) : (⟨S1x128, .f32⟩ : BufTy).Contents (Elt F))) (fun Z => rfl) V

theorem eq_main_call0_v4 (V : Valuation τ sig (Elt F)) :
    A V main_call0_v4 = (((broadcastInDim S100000x128 ![0, 1] bcast_S1x128_S100000x128_0_1) : (⟨S1x128, .f32⟩ : BufTy).Contents (Elt F) → (⟨S100000x128, .f32⟩ : BufTy).Contents (Elt F)) (A V main_call0_v3 : (⟨S1x128, .f32⟩ : BufTy).Contents (Elt F)) : (⟨S100000x128, .f32⟩ : BufTy).Contents (Elt F)) :=
  pc0.unary (k := 42) (y := main_call0_v4) rfl (by decide)
    (fun Z => (((broadcastInDim S100000x128 ![0, 1] bcast_S1x128_S100000x128_0_1) : (⟨S1x128, .f32⟩ : BufTy).Contents (Elt F) → (⟨S100000x128, .f32⟩ : BufTy).Contents (Elt F)) (Z (Proc.devRef .tc main_call0_v3) : (⟨S1x128, .f32⟩ : BufTy).Contents (Elt F)) : (⟨S100000x128, .f32⟩ : BufTy).Contents (Elt F))) (fun Z => rfl) V

theorem eq_main_call0_v5 (V : Valuation τ sig (Elt F)) :
    A V main_call0_v5 = ((subf : (⟨S100000x128, .f32⟩ : BufTy).Contents (Elt F) → (⟨S100000x128, .f32⟩ : BufTy).Contents (Elt F) → (⟨S100000x128, .f32⟩ : BufTy).Contents (Elt F)) (A V main_v22 : (⟨S100000x128, .f32⟩ : BufTy).Contents (Elt F)) (A V main_call0_v4 : (⟨S100000x128, .f32⟩ : BufTy).Contents (Elt F)) : (⟨S100000x128, .f32⟩ : BufTy).Contents (Elt F)) :=
  pc0.binary (k := 43) (y := main_call0_v5) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v22) : (⟨S100000x128, .f32⟩ : BufTy).Contents (Elt F)) (Z (Proc.devRef .tc main_call0_v4) : (⟨S100000x128, .f32⟩ : BufTy).Contents (Elt F)) : (⟨S100000x128, .f32⟩ : BufTy).Contents (Elt F))) (fun Z => rfl) V

theorem eq_main_call0_v6 (V : Valuation τ sig (Elt F)) :
    A V main_call0_v6 = ((mulf : (⟨S100000x128, .f32⟩ : BufTy).Contents (Elt F) → (⟨S100000x128, .f32⟩ : BufTy).Contents (Elt F) → (⟨S100000x128, .f32⟩ : BufTy).Contents (Elt F)) (A V main_call0_v5 : (⟨S100000x128, .f32⟩ : BufTy).Contents (Elt F)) (A V main_call0_v5 : (⟨S100000x128, .f32⟩ : BufTy).Contents (Elt F)) : (⟨S100000x128, .f32⟩ : BufTy).Contents (Elt F)) :=
  pc0.binary (k := 44) (y := main_call0_v6) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_call0_v5) : (⟨S100000x128, .f32⟩ : BufTy).Contents (Elt F)) (Z (Proc.devRef .tc main_call0_v5) : (⟨S100000x128, .f32⟩ : BufTy).Contents (Elt F)) : (⟨S100000x128, .f32⟩ : BufTy).Contents (Elt F))) (fun Z => rfl) V

theorem eq_main_call0_v7 (V : Valuation τ sig (Elt F)) :
    A V main_call0_v7 = (((sitofp .f32) : (⟨S_, .i32⟩ : BufTy).Contents (Elt F) → (⟨S_, .f32⟩ : BufTy).Contents (Elt F)) (A V main_c_3 : (⟨S_, .i32⟩ : BufTy).Contents (Elt F)) : (⟨S_, .f32⟩ : BufTy).Contents (Elt F)) :=
  pc0.unary (k := 45) (y := main_call0_v7) rfl (by decide)
    (fun Z => (((sitofp .f32) : (⟨S_, .i32⟩ : BufTy).Contents (Elt F) → (⟨S_, .f32⟩ : BufTy).Contents (Elt F)) (Z (Proc.devRef .tc main_c_3) : (⟨S_, .i32⟩ : BufTy).Contents (Elt F)) : (⟨S_, .f32⟩ : BufTy).Contents (Elt F))) (fun Z => rfl) V

theorem eq_main_call0_cst_1 (V : Valuation τ sig (Elt F)) :
    A V main_call0_cst_1 = ((constant S_ .f32 0x47C35000#32) : (⟨S_, .f32⟩ : BufTy).Contents (Elt F)) :=
  pc0.nullary (k := 46) (y := main_call0_cst_1) rfl V

theorem eq_main_call0_v8 (V : Valuation τ sig (Elt F)) :
    A V main_call0_v8 = ((subf : (⟨S_, .f32⟩ : BufTy).Contents (Elt F) → (⟨S_, .f32⟩ : BufTy).Contents (Elt F) → (⟨S_, .f32⟩ : BufTy).Contents (Elt F)) (A V main_call0_cst_1 : (⟨S_, .f32⟩ : BufTy).Contents (Elt F)) (A V main_call0_v7 : (⟨S_, .f32⟩ : BufTy).Contents (Elt F)) : (⟨S_, .f32⟩ : BufTy).Contents (Elt F)) :=
  pc0.binary (k := 47) (y := main_call0_v8) rfl (by decide) (by decide)
    (fun Z => ((subf : (⟨S_, .f32⟩ : BufTy).Contents (Elt F) → (⟨S_, .f32⟩ : BufTy).Contents (Elt F) → (⟨S_, .f32⟩ : BufTy).Contents (Elt F)) (Z (Proc.devRef .tc main_call0_cst_1) : (⟨S_, .f32⟩ : BufTy).Contents (Elt F)) (Z (Proc.devRef .tc main_call0_v7) : (⟨S_, .f32⟩ : BufTy).Contents (Elt F)) : (⟨S_, .f32⟩ : BufTy).Contents (Elt F))) (fun Z => rfl) V

theorem eq_main_call0_cst_2 (V : Valuation τ sig (Elt F)) :
    A V main_call0_cst_2 = ((constant S_ .f32 0x00000000#32) : (⟨S_, .f32⟩ : BufTy).Contents (Elt F)) :=
  pc0.nullary (k := 48) (y := main_call0_cst_2) rfl V

theorem eq_main_call0_v9 (V : Valuation τ sig (Elt F)) :
    A V main_call0_v9 = (Host.reduceAdd (A V main_call0_v6 : (⟨S100000x128, .f32⟩ : BufTy).Contents (Elt F)) (A V main_call0_cst_2 : (⟨S_, .f32⟩ : BufTy).Contents (Elt F)) reducesTo_S100000x128_S128_d0 h_S_ : (⟨S128, .f32⟩ : BufTy).Contents (Elt F)) :=
  pc0.binary (k := 49) (y := main_call0_v9) rfl (by decide) (by decide)
    (fun Z => (Host.reduceAdd (Z (Proc.devRef .tc main_call0_v6) : (⟨S100000x128, .f32⟩ : BufTy).Contents (Elt F)) (Z (Proc.devRef .tc main_call0_cst_2) : (⟨S_, .f32⟩ : BufTy).Contents (Elt F)) reducesTo_S100000x128_S128_d0 h_S_ : (⟨S128, .f32⟩ : BufTy).Contents (Elt F))) (fun Z => rfl) V

theorem eq_main_call0_v10 (V : Valuation τ sig (Elt F)) :
    A V main_call0_v10 = (((broadcastInDim S128 ![] bcast_S_S128) : (⟨S_, .f32⟩ : BufTy).Contents (Elt F) → (⟨S128, .f32⟩ : BufTy).Contents (Elt F)) (A V main_call0_v8 : (⟨S_, .f32⟩ : BufTy).Contents (Elt F)) : (⟨S128, .f32⟩ : BufTy).Contents (Elt F)) :=
  pc0.unary (k := 50) (y := main_call0_v10) rfl (by decide)
    (fun Z => (((broadcastInDim S128 ![] bcast_S_S128) : (⟨S_, .f32⟩ : BufTy).Contents (Elt F) → (⟨S128, .f32⟩ : BufTy).Contents (Elt F)) (Z (Proc.devRef .tc main_call0_v8) : (⟨S_, .f32⟩ : BufTy).Contents (Elt F)) : (⟨S128, .f32⟩ : BufTy).Contents (Elt F))) (fun Z => rfl) V

theorem eq_main_call0_v11 (V : Valuation τ sig (Elt F)) :
    A V main_call0_v11 = ((Host.divf : (⟨S128, .f32⟩ : BufTy).Contents (Elt F) → (⟨S128, .f32⟩ : BufTy).Contents (Elt F) → (⟨S128, .f32⟩ : BufTy).Contents (Elt F)) (A V main_call0_v9 : (⟨S128, .f32⟩ : BufTy).Contents (Elt F)) (A V main_call0_v10 : (⟨S128, .f32⟩ : BufTy).Contents (Elt F)) : (⟨S128, .f32⟩ : BufTy).Contents (Elt F)) :=
  pc0.binary (k := 51) (y := main_call0_v11) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_call0_v9) : (⟨S128, .f32⟩ : BufTy).Contents (Elt F)) (Z (Proc.devRef .tc main_call0_v10) : (⟨S128, .f32⟩ : BufTy).Contents (Elt F)) : (⟨S128, .f32⟩ : BufTy).Contents (Elt F))) (fun Z => rfl) V

theorem eq_main_call0_cst_3 (V : Valuation τ sig (Elt F)) :
    A V main_call0_cst_3 = ((constant S_ .f32 0x00000000#32) : (⟨S_, .f32⟩ : BufTy).Contents (Elt F)) :=
  pc0.nullary (k := 52) (y := main_call0_cst_3) rfl V

theorem eq_main_call0_v12 (V : Valuation τ sig (Elt F)) :
    A V main_call0_v12 = (((cmpf .ogt) : (⟨S_, .f32⟩ : BufTy).Contents (Elt F) → (⟨S_, .f32⟩ : BufTy).Contents (Elt F) → (⟨S_, .i1⟩ : BufTy).Contents (Elt F)) (A V main_call0_v8 : (⟨S_, .f32⟩ : BufTy).Contents (Elt F)) (A V main_call0_cst_3 : (⟨S_, .f32⟩ : BufTy).Contents (Elt F)) : (⟨S_, .i1⟩ : BufTy).Contents (Elt F)) :=
  pc0.binary (k := 53) (y := main_call0_v12) rfl (by decide) (by decide)
    (fun Z => (((cmpf .ogt) : (⟨S_, .f32⟩ : BufTy).Contents (Elt F) → (⟨S_, .f32⟩ : BufTy).Contents (Elt F) → (⟨S_, .i1⟩ : BufTy).Contents (Elt F)) (Z (Proc.devRef .tc main_call0_v8) : (⟨S_, .f32⟩ : BufTy).Contents (Elt F)) (Z (Proc.devRef .tc main_call0_cst_3) : (⟨S_, .f32⟩ : BufTy).Contents (Elt F)) : (⟨S_, .i1⟩ : BufTy).Contents (Elt F))) (fun Z => rfl) V

theorem eq_main_call0_cst_4 (V : Valuation τ sig (Elt F)) :
    A V main_call0_cst_4 = ((constant S_ .f32 0x7FC00000#32) : (⟨S_, .f32⟩ : BufTy).Contents (Elt F)) :=
  pc0.nullary (k := 54) (y := main_call0_cst_4) rfl V

theorem eq_main_call0_call0_v0 (V : Valuation τ sig (Elt F)) :
    A V main_call0_call0_v0 = ((id : (⟨S_, .f32⟩ : BufTy).Contents (Elt F) → (⟨S_, .f32⟩ : BufTy).Contents (Elt F)) (A V main_call0_cst_4 : (⟨S_, .f32⟩ : BufTy).Contents (Elt F)) : (⟨S_, .f32⟩ : BufTy).Contents (Elt F)) :=
  pc0.unary (k := 55) (y := main_call0_call0_v0) rfl (by decide)
    (fun Z => ((id : (⟨S_, .f32⟩ : BufTy).Contents (Elt F) → (⟨S_, .f32⟩ : BufTy).Contents (Elt F)) (Z (Proc.devRef .tc main_call0_cst_4) : (⟨S_, .f32⟩ : BufTy).Contents (Elt F)) : (⟨S_, .f32⟩ : BufTy).Contents (Elt F))) (fun Z => rfl) V

theorem eq_main_call0_call0_v1 (V : Valuation τ sig (Elt F)) :
    A V main_call0_call0_v1 = (((broadcastInDim S128 ![] bcast_S_S128) : (⟨S_, .f32⟩ : BufTy).Contents (Elt F) → (⟨S128, .f32⟩ : BufTy).Contents (Elt F)) (A V main_call0_call0_v0 : (⟨S_, .f32⟩ : BufTy).Contents (Elt F)) : (⟨S128, .f32⟩ : BufTy).Contents (Elt F)) :=
  pc0.unary (k := 56) (y := main_call0_call0_v1) rfl (by decide)
    (fun Z => (((broadcastInDim S128 ![] bcast_S_S128) : (⟨S_, .f32⟩ : BufTy).Contents (Elt F) → (⟨S128, .f32⟩ : BufTy).Contents (Elt F)) (Z (Proc.devRef .tc main_call0_call0_v0) : (⟨S_, .f32⟩ : BufTy).Contents (Elt F)) : (⟨S128, .f32⟩ : BufTy).Contents (Elt F))) (fun Z => rfl) V

theorem eq_main_v30 (V : Valuation τ sig (Elt F)) :
    A V main_v30 = (select ((broadcastInDim S128 ![] bcast_S_S128 : (⟨S_, .i1⟩ : BufTy).Contents (Elt F) → (⟨S128, .i1⟩ : BufTy).Contents (Elt F)) (A V main_call0_v12 : (⟨S_, .i1⟩ : BufTy).Contents (Elt F))) (A V main_call0_v11 : (⟨S128, .f32⟩ : BufTy).Contents (Elt F)) (A V main_call0_call0_v1 : (⟨S128, .f32⟩ : BufTy).Contents (Elt F)) : (⟨S128, .f32⟩ : BufTy).Contents (Elt F)) :=
  pc0.ternary (k := 57) (y := main_v30) rfl (by decide) (by decide) (by decide)
    (fun Z => (select ((broadcastInDim S128 ![] bcast_S_S128 : (⟨S_, .i1⟩ : BufTy).Contents (Elt F) → (⟨S128, .i1⟩ : BufTy).Contents (Elt F)) (Z (Proc.devRef .tc main_call0_v12) : (⟨S_, .i1⟩ : BufTy).Contents (Elt F))) (Z (Proc.devRef .tc main_call0_v11) : (⟨S128, .f32⟩ : BufTy).Contents (Elt F)) (Z (Proc.devRef .tc main_call0_call0_v1) : (⟨S128, .f32⟩ : BufTy).Contents (Elt F)) : (⟨S128, .f32⟩ : BufTy).Contents (Elt F))) (fun Z => rfl) V

theorem eq_main_v31 (V : Valuation τ sig (Elt F)) :
    A V main_v31 = ((broadcastInDim S1x128 ![1] bcast_S128_S1x128_1 : (⟨S128, .f32⟩ : BufTy).Contents (Elt F) → (⟨S1x128, .f32⟩ : BufTy).Contents (Elt F)) (A V main_v29 : (⟨S128, .f32⟩ : BufTy).Contents (Elt F)) : (⟨S1x128, .f32⟩ : BufTy).Contents (Elt F)) :=
  pc0.unary (k := 58) (y := main_v31) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v29) : (⟨S128, .f32⟩ : BufTy).Contents (Elt F)) : (⟨S1x128, .f32⟩ : BufTy).Contents (Elt F))) (fun Z => rfl) V

theorem eq_main_v32 (V : Valuation τ sig (Elt F)) :
    A V main_v32 = ((broadcastInDim S100000x128 ![0, 1] bcast_S1x128_S100000x128_0_1 : (⟨S1x128, .f32⟩ : BufTy).Contents (Elt F) → (⟨S100000x128, .f32⟩ : BufTy).Contents (Elt F)) (A V main_v31 : (⟨S1x128, .f32⟩ : BufTy).Contents (Elt F)) : (⟨S100000x128, .f32⟩ : BufTy).Contents (Elt F)) :=
  pc0.unary (k := 59) (y := main_v32) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v31) : (⟨S1x128, .f32⟩ : BufTy).Contents (Elt F)) : (⟨S100000x128, .f32⟩ : BufTy).Contents (Elt F))) (fun Z => rfl) V

theorem eq_main_v33 (V : Valuation τ sig (Elt F)) :
    A V main_v33 = ((subf : (⟨S100000x128, .f32⟩ : BufTy).Contents (Elt F) → (⟨S100000x128, .f32⟩ : BufTy).Contents (Elt F) → (⟨S100000x128, .f32⟩ : BufTy).Contents (Elt F)) (A V main_v22 : (⟨S100000x128, .f32⟩ : BufTy).Contents (Elt F)) (A V main_v32 : (⟨S100000x128, .f32⟩ : BufTy).Contents (Elt F)) : (⟨S100000x128, .f32⟩ : BufTy).Contents (Elt F)) :=
  pc0.binary (k := 60) (y := main_v33) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v22) : (⟨S100000x128, .f32⟩ : BufTy).Contents (Elt F)) (Z (Proc.devRef .tc main_v32) : (⟨S100000x128, .f32⟩ : BufTy).Contents (Elt F)) : (⟨S100000x128, .f32⟩ : BufTy).Contents (Elt F))) (fun Z => rfl) V

theorem eq_main_cst_4 (V : Valuation τ sig (Elt F)) :
    A V main_cst_4 = ((constant S_ .f32 0x3727C5AC#32) : (⟨S_, .f32⟩ : BufTy).Contents (Elt F)) :=
  pc0.nullary (k := 61) (y := main_cst_4) rfl V

theorem eq_main_v34 (V : Valuation τ sig (Elt F)) :
    A V main_v34 = ((broadcastInDim S128 ![] bcast_S_S128 : (⟨S_, .f32⟩ : BufTy).Contents (Elt F) → (⟨S128, .f32⟩ : BufTy).Contents (Elt F)) (A V main_cst_4 : (⟨S_, .f32⟩ : BufTy).Contents (Elt F)) : (⟨S128, .f32⟩ : BufTy).Contents (Elt F)) :=
  pc0.unary (k := 62) (y := main_v34) rfl (by decide)
    (fun Z => ((broadcastInDim S128 ![] bcast_S_S128 : (⟨S_, .f32⟩ : BufTy).Contents (Elt F) → (⟨S128, .f32⟩ : BufTy).Contents (Elt F)) (Z (Proc.devRef .tc main_cst_4) : (⟨S_, .f32⟩ : BufTy).Contents (Elt F)) : (⟨S128, .f32⟩ : BufTy).Contents (Elt F))) (fun Z => rfl) V

theorem eq_main_v35 (V : Valuation τ sig (Elt F)) :
    A V main_v35 = ((addf : (⟨S128, .f32⟩ : BufTy).Contents (Elt F) → (⟨S128, .f32⟩ : BufTy).Contents (Elt F) → (⟨S128, .f32⟩ : BufTy).Contents (Elt F)) (A V main_v30 : (⟨S128, .f32⟩ : BufTy).Contents (Elt F)) (A V main_v34 : (⟨S128, .f32⟩ : BufTy).Contents (Elt F)) : (⟨S128, .f32⟩ : BufTy).Contents (Elt F)) :=
  pc0.binary (k := 63) (y := main_v35) rfl (by decide) (by decide)
    (fun Z => ((addf : (⟨S128, .f32⟩ : BufTy).Contents (Elt F) → (⟨S128, .f32⟩ : BufTy).Contents (Elt F) → (⟨S128, .f32⟩ : BufTy).Contents (Elt F)) (Z (Proc.devRef .tc main_v30) : (⟨S128, .f32⟩ : BufTy).Contents (Elt F)) (Z (Proc.devRef .tc main_v34) : (⟨S128, .f32⟩ : BufTy).Contents (Elt F)) : (⟨S128, .f32⟩ : BufTy).Contents (Elt F))) (fun Z => rfl) V

theorem eq_main_v36 (V : Valuation τ sig (Elt F)) :
    A V main_v36 = ((Host.rsqrt : (⟨S128, .f32⟩ : BufTy).Contents (Elt F) → (⟨S128, .f32⟩ : BufTy).Contents (Elt F)) (A V main_v35 : (⟨S128, .f32⟩ : BufTy).Contents (Elt F)) : (⟨S128, .f32⟩ : BufTy).Contents (Elt F)) :=
  pc0.unary (k := 64) (y := main_v36) rfl (by decide)
    (fun Z => ((Host.rsqrt : (⟨S128, .f32⟩ : BufTy).Contents (Elt F) → (⟨S128, .f32⟩ : BufTy).Contents (Elt F)) (Z (Proc.devRef .tc main_v35) : (⟨S128, .f32⟩ : BufTy).Contents (Elt F)) : (⟨S128, .f32⟩ : BufTy).Contents (Elt F))) (fun Z => rfl) V

theorem eq_main_v37 (V : Valuation τ sig (Elt F)) :
    A V main_v37 = ((broadcastInDim S1x128 ![1] bcast_S128_S1x128_1 : (⟨S128, .f32⟩ : BufTy).Contents (Elt F) → (⟨S1x128, .f32⟩ : BufTy).Contents (Elt F)) (A V main_v36 : (⟨S128, .f32⟩ : BufTy).Contents (Elt F)) : (⟨S1x128, .f32⟩ : BufTy).Contents (Elt F)) :=
  pc0.unary (k := 65) (y := main_v37) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v36) : (⟨S128, .f32⟩ : BufTy).Contents (Elt F)) : (⟨S1x128, .f32⟩ : BufTy).Contents (Elt F))) (fun Z => rfl) V

theorem eq_main_v38 (V : Valuation τ sig (Elt F)) :
    A V main_v38 = ((broadcastInDim S100000x128 ![0, 1] bcast_S1x128_S100000x128_0_1 : (⟨S1x128, .f32⟩ : BufTy).Contents (Elt F) → (⟨S100000x128, .f32⟩ : BufTy).Contents (Elt F)) (A V main_v37 : (⟨S1x128, .f32⟩ : BufTy).Contents (Elt F)) : (⟨S100000x128, .f32⟩ : BufTy).Contents (Elt F)) :=
  pc0.unary (k := 66) (y := main_v38) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v37) : (⟨S1x128, .f32⟩ : BufTy).Contents (Elt F)) : (⟨S100000x128, .f32⟩ : BufTy).Contents (Elt F))) (fun Z => rfl) V

theorem eq_main_v39 (V : Valuation τ sig (Elt F)) :
    A V main_v39 = ((mulf : (⟨S100000x128, .f32⟩ : BufTy).Contents (Elt F) → (⟨S100000x128, .f32⟩ : BufTy).Contents (Elt F) → (⟨S100000x128, .f32⟩ : BufTy).Contents (Elt F)) (A V main_v33 : (⟨S100000x128, .f32⟩ : BufTy).Contents (Elt F)) (A V main_v38 : (⟨S100000x128, .f32⟩ : BufTy).Contents (Elt F)) : (⟨S100000x128, .f32⟩ : BufTy).Contents (Elt F)) :=
  pc0.binary (k := 67) (y := main_v39) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v33) : (⟨S100000x128, .f32⟩ : BufTy).Contents (Elt F)) (Z (Proc.devRef .tc main_v38) : (⟨S100000x128, .f32⟩ : BufTy).Contents (Elt F)) : (⟨S100000x128, .f32⟩ : BufTy).Contents (Elt F))) (fun Z => rfl) V

theorem eq_main_v40 (V : Valuation τ sig (Elt F)) :
    A V main_v40 = ((broadcastInDim S1x128 ![1] bcast_S128_S1x128_1 : (⟨S128, .f32⟩ : BufTy).Contents (Elt F) → (⟨S1x128, .f32⟩ : BufTy).Contents (Elt F)) (A V main_v24 : (⟨S128, .f32⟩ : BufTy).Contents (Elt F)) : (⟨S1x128, .f32⟩ : BufTy).Contents (Elt F)) :=
  pc0.unary (k := 68) (y := main_v40) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v24) : (⟨S128, .f32⟩ : BufTy).Contents (Elt F)) : (⟨S1x128, .f32⟩ : BufTy).Contents (Elt F))) (fun Z => rfl) V

theorem eq_main_v41 (V : Valuation τ sig (Elt F)) :
    A V main_v41 = ((broadcastInDim S100000x128 ![0, 1] bcast_S1x128_S100000x128_0_1 : (⟨S1x128, .f32⟩ : BufTy).Contents (Elt F) → (⟨S100000x128, .f32⟩ : BufTy).Contents (Elt F)) (A V main_v40 : (⟨S1x128, .f32⟩ : BufTy).Contents (Elt F)) : (⟨S100000x128, .f32⟩ : BufTy).Contents (Elt F)) :=
  pc0.unary (k := 69) (y := main_v41) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v40) : (⟨S1x128, .f32⟩ : BufTy).Contents (Elt F)) : (⟨S100000x128, .f32⟩ : BufTy).Contents (Elt F))) (fun Z => rfl) V

theorem eq_main_v42 (V : Valuation τ sig (Elt F)) :
    A V main_v42 = ((mulf : (⟨S100000x128, .f32⟩ : BufTy).Contents (Elt F) → (⟨S100000x128, .f32⟩ : BufTy).Contents (Elt F) → (⟨S100000x128, .f32⟩ : BufTy).Contents (Elt F)) (A V main_v39 : (⟨S100000x128, .f32⟩ : BufTy).Contents (Elt F)) (A V main_v41 : (⟨S100000x128, .f32⟩ : BufTy).Contents (Elt F)) : (⟨S100000x128, .f32⟩ : BufTy).Contents (Elt F)) :=
  pc0.binary (k := 70) (y := main_v42) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v39) : (⟨S100000x128, .f32⟩ : BufTy).Contents (Elt F)) (Z (Proc.devRef .tc main_v41) : (⟨S100000x128, .f32⟩ : BufTy).Contents (Elt F)) : (⟨S100000x128, .f32⟩ : BufTy).Contents (Elt F))) (fun Z => rfl) V

theorem eq_main_v43 (V : Valuation τ sig (Elt F)) :
    A V main_v43 = ((broadcastInDim S1x128 ![1] bcast_S128_S1x128_1 : (⟨S128, .f32⟩ : BufTy).Contents (Elt F) → (⟨S1x128, .f32⟩ : BufTy).Contents (Elt F)) (A V main_v26 : (⟨S128, .f32⟩ : BufTy).Contents (Elt F)) : (⟨S1x128, .f32⟩ : BufTy).Contents (Elt F)) :=
  pc0.unary (k := 71) (y := main_v43) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v26) : (⟨S128, .f32⟩ : BufTy).Contents (Elt F)) : (⟨S1x128, .f32⟩ : BufTy).Contents (Elt F))) (fun Z => rfl) V

theorem eq_main_v44 (V : Valuation τ sig (Elt F)) :
    A V main_v44 = ((broadcastInDim S100000x128 ![0, 1] bcast_S1x128_S100000x128_0_1 : (⟨S1x128, .f32⟩ : BufTy).Contents (Elt F) → (⟨S100000x128, .f32⟩ : BufTy).Contents (Elt F)) (A V main_v43 : (⟨S1x128, .f32⟩ : BufTy).Contents (Elt F)) : (⟨S100000x128, .f32⟩ : BufTy).Contents (Elt F)) :=
  pc0.unary (k := 72) (y := main_v44) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v43) : (⟨S1x128, .f32⟩ : BufTy).Contents (Elt F)) : (⟨S100000x128, .f32⟩ : BufTy).Contents (Elt F))) (fun Z => rfl) V

theorem eq_main_v45 (V : Valuation τ sig (Elt F)) :
    A V main_v45 = ((addf : (⟨S100000x128, .f32⟩ : BufTy).Contents (Elt F) → (⟨S100000x128, .f32⟩ : BufTy).Contents (Elt F) → (⟨S100000x128, .f32⟩ : BufTy).Contents (Elt F)) (A V main_v42 : (⟨S100000x128, .f32⟩ : BufTy).Contents (Elt F)) (A V main_v44 : (⟨S100000x128, .f32⟩ : BufTy).Contents (Elt F)) : (⟨S100000x128, .f32⟩ : BufTy).Contents (Elt F)) :=
  pc0.binary (k := 73) (y := main_v45) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v42) : (⟨S100000x128, .f32⟩ : BufTy).Contents (Elt F)) (Z (Proc.devRef .tc main_v44) : (⟨S100000x128, .f32⟩ : BufTy).Contents (Elt F)) : (⟨S100000x128, .f32⟩ : BufTy).Contents (Elt F))) (fun Z => rfl) V

theorem eq_main_call1_cst (V : Valuation τ sig (Elt F)) :
    A V main_call1_cst = ((constant S_ .f32 0x00000000#32) : (⟨S_, .f32⟩ : BufTy).Contents (Elt F)) :=
  pc0.nullary (k := 74) (y := main_call1_cst) rfl V

theorem eq_main_call1_v0 (V : Valuation τ sig (Elt F)) :
    A V main_call1_v0 = (((broadcastInDim S100000x128 ![] bcast_S_S100000x128) : (⟨S_, .f32⟩ : BufTy).Contents (Elt F) → (⟨S100000x128, .f32⟩ : BufTy).Contents (Elt F)) (A V main_call1_cst : (⟨S_, .f32⟩ : BufTy).Contents (Elt F)) : (⟨S100000x128, .f32⟩ : BufTy).Contents (Elt F)) :=
  pc0.unary (k := 75) (y := main_call1_v0) rfl (by decide)
    (fun Z => (((broadcastInDim S100000x128 ![] bcast_S_S100000x128) : (⟨S_, .f32⟩ : BufTy).Contents (Elt F) → (⟨S100000x128, .f32⟩ : BufTy).Contents (Elt F)) (Z (Proc.devRef .tc main_call1_cst) : (⟨S_, .f32⟩ : BufTy).Contents (Elt F)) : (⟨S100000x128, .f32⟩ : BufTy).Contents (Elt F))) (fun Z => rfl) V

theorem eq_main_v46 (V : Valuation τ sig (Elt F)) :
    A V main_v46 = ((maximumf : (⟨S100000x128, .f32⟩ : BufTy).Contents (Elt F) → (⟨S100000x128, .f32⟩ : BufTy).Contents (Elt F) → (⟨S100000x128, .f32⟩ : BufTy).Contents (Elt F)) (A V main_v45 : (⟨S100000x128, .f32⟩ : BufTy).Contents (Elt F)) (A V main_call1_v0 : (⟨S100000x128, .f32⟩ : BufTy).Contents (Elt F)) : (⟨S100000x128, .f32⟩ : BufTy).Contents (Elt F)) :=
  pc0.binary (k := 76) (y := main_v46) rfl (by decide) (by decide)
    (fun Z => ((maximumf : (⟨S100000x128, .f32⟩ : BufTy).Contents (Elt F) → (⟨S100000x128, .f32⟩ : BufTy).Contents (Elt F) → (⟨S100000x128, .f32⟩ : BufTy).Contents (Elt F)) (Z (Proc.devRef .tc main_v45) : (⟨S100000x128, .f32⟩ : BufTy).Contents (Elt F)) (Z (Proc.devRef .tc main_call1_v0) : (⟨S100000x128, .f32⟩ : BufTy).Contents (Elt F)) : (⟨S100000x128, .f32⟩ : BufTy).Contents (Elt F))) (fun Z => rfl) V

theorem eq_main_v47 (V : Valuation τ sig (Elt F)) :
    A V main_v47 = (((extractStridedSlice S1x128x128 ![0, 0, 0] · slices_S4x128x128_S1x128x128_0_0_0) : (⟨S4x128x128, .f32⟩ : BufTy).Contents (Elt F) → (⟨S1x128x128, .f32⟩ : BufTy).Contents (Elt F)) (A V main_arg7 : (⟨S4x128x128, .f32⟩ : BufTy).Contents (Elt F)) : (⟨S1x128x128, .f32⟩ : BufTy).Contents (Elt F)) :=
  pc0.unary (k := 77) (y := main_v47) rfl (by decide)
    (fun Z => (((extractStridedSlice S1x128x128 ![0, 0, 0] · slices_S4x128x128_S1x128x128_0_0_0) : (⟨S4x128x128, .f32⟩ : BufTy).Contents (Elt F) → (⟨S1x128x128, .f32⟩ : BufTy).Contents (Elt F)) (Z (Proc.devRef .tc main_arg7) : (⟨S4x128x128, .f32⟩ : BufTy).Contents (Elt F)) : (⟨S1x128x128, .f32⟩ : BufTy).Contents (Elt F))) (fun Z => rfl) V

theorem eq_main_v48 (V : Valuation τ sig (Elt F)) :
    A V main_v48 = (shapeCast S128x128 (A V main_v47 : (⟨S1x128x128, .f32⟩ : BufTy).Contents (Elt F)) shapeCasts_S1x128x128_S128x128 : (⟨S128x128, .f32⟩ : BufTy).Contents (Elt F)) :=
  pc0.reshape (k := 78) (y := main_v48) rfl (by decide)
    (fun Z => (shapeCast S128x128 (Z (Proc.devRef .tc main_v47) : (⟨S1x128x128, .f32⟩ : BufTy).Contents (Elt F)) shapeCasts_S1x128x128_S128x128 : (⟨S128x128, .f32⟩ : BufTy).Contents (Elt F))) (fun Z => rfl) V

theorem eq_main_v49 (V : Valuation τ sig (Elt F)) :
    A V main_v49 = (Host.dotGeneral dot_S100000x128_S128x128_S100000x128_1_0_0_1_n_n none (A V main_v46 : (⟨S100000x128, .f32⟩ : BufTy).Contents (Elt F)) (A V main_v48 : (⟨S128x128, .f32⟩ : BufTy).Contents (Elt F)) : (⟨S100000x128, .f32⟩ : BufTy).Contents (Elt F)) :=
  pc0.binary (k := 79) (y := main_v49) rfl (by decide) (by decide)
    (fun Z => (Host.dotGeneral dot_S100000x128_S128x128_S100000x128_1_0_0_1_n_n none (Z (Proc.devRef .tc main_v46) : (⟨S100000x128, .f32⟩ : BufTy).Contents (Elt F)) (Z (Proc.devRef .tc main_v48) : (⟨S128x128, .f32⟩ : BufTy).Contents (Elt F)) : (⟨S100000x128, .f32⟩ : BufTy).Contents (Elt F))) (fun Z => rfl) V

theorem eq_main_v50 (V : Valuation τ sig (Elt F)) :
    A V main_v50 = (((extractStridedSlice S1x128 ![0, 0] · slices_S4x128_S1x128_0_0) : (⟨S4x128, .f32⟩ : BufTy).Contents (Elt F) → (⟨S1x128, .f32⟩ : BufTy).Contents (Elt F)) (A V main_arg8 : (⟨S4x128, .f32⟩ : BufTy).Contents (Elt F)) : (⟨S1x128, .f32⟩ : BufTy).Contents (Elt F)) :=
  pc0.unary (k := 80) (y := main_v50) rfl (by decide)
    (fun Z => (((extractStridedSlice S1x128 ![0, 0] · slices_S4x128_S1x128_0_0) : (⟨S4x128, .f32⟩ : BufTy).Contents (Elt F) → (⟨S1x128, .f32⟩ : BufTy).Contents (Elt F)) (Z (Proc.devRef .tc main_arg8) : (⟨S4x128, .f32⟩ : BufTy).Contents (Elt F)) : (⟨S1x128, .f32⟩ : BufTy).Contents (Elt F))) (fun Z => rfl) V

theorem eq_main_v51 (V : Valuation τ sig (Elt F)) :
    A V main_v51 = (shapeCast S128 (A V main_v50 : (⟨S1x128, .f32⟩ : BufTy).Contents (Elt F)) shapeCasts_S1x128_S128 : (⟨S128, .f32⟩ : BufTy).Contents (Elt F)) :=
  pc0.reshape (k := 81) (y := main_v51) rfl (by decide)
    (fun Z => (shapeCast S128 (Z (Proc.devRef .tc main_v50) : (⟨S1x128, .f32⟩ : BufTy).Contents (Elt F)) shapeCasts_S1x128_S128 : (⟨S128, .f32⟩ : BufTy).Contents (Elt F))) (fun Z => rfl) V

theorem eq_main_v52 (V : Valuation τ sig (Elt F)) :
    A V main_v52 = ((broadcastInDim S1x128 ![1] bcast_S128_S1x128_1 : (⟨S128, .f32⟩ : BufTy).Contents (Elt F) → (⟨S1x128, .f32⟩ : BufTy).Contents (Elt F)) (A V main_v51 : (⟨S128, .f32⟩ : BufTy).Contents (Elt F)) : (⟨S1x128, .f32⟩ : BufTy).Contents (Elt F)) :=
  pc0.unary (k := 82) (y := main_v52) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v51) : (⟨S128, .f32⟩ : BufTy).Contents (Elt F)) : (⟨S1x128, .f32⟩ : BufTy).Contents (Elt F))) (fun Z => rfl) V

theorem eq_main_v53 (V : Valuation τ sig (Elt F)) :
    A V main_v53 = ((broadcastInDim S100000x128 ![0, 1] bcast_S1x128_S100000x128_0_1 : (⟨S1x128, .f32⟩ : BufTy).Contents (Elt F) → (⟨S100000x128, .f32⟩ : BufTy).Contents (Elt F)) (A V main_v52 : (⟨S1x128, .f32⟩ : BufTy).Contents (Elt F)) : (⟨S100000x128, .f32⟩ : BufTy).Contents (Elt F)) :=
  pc1.unary (k := 0) (y := main_v53) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v52) : (⟨S1x128, .f32⟩ : BufTy).Contents (Elt F)) : (⟨S100000x128, .f32⟩ : BufTy).Contents (Elt F))) (fun Z => rfl) V

theorem eq_main_v54 (V : Valuation τ sig (Elt F)) :
    A V main_v54 = ((addf : (⟨S100000x128, .f32⟩ : BufTy).Contents (Elt F) → (⟨S100000x128, .f32⟩ : BufTy).Contents (Elt F) → (⟨S100000x128, .f32⟩ : BufTy).Contents (Elt F)) (A V main_v49 : (⟨S100000x128, .f32⟩ : BufTy).Contents (Elt F)) (A V main_v53 : (⟨S100000x128, .f32⟩ : BufTy).Contents (Elt F)) : (⟨S100000x128, .f32⟩ : BufTy).Contents (Elt F)) :=
  pc1.binary (k := 1) (y := main_v54) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v49) : (⟨S100000x128, .f32⟩ : BufTy).Contents (Elt F)) (Z (Proc.devRef .tc main_v53) : (⟨S100000x128, .f32⟩ : BufTy).Contents (Elt F)) : (⟨S100000x128, .f32⟩ : BufTy).Contents (Elt F))) (fun Z => rfl) V

theorem eq_main_v55 (V : Valuation τ sig (Elt F)) :
    A V main_v55 = (((extractStridedSlice S1x128 ![0, 0] · slices_S4x128_S1x128_0_0) : (⟨S4x128, .f32⟩ : BufTy).Contents (Elt F) → (⟨S1x128, .f32⟩ : BufTy).Contents (Elt F)) (A V main_arg9 : (⟨S4x128, .f32⟩ : BufTy).Contents (Elt F)) : (⟨S1x128, .f32⟩ : BufTy).Contents (Elt F)) :=
  pc1.unary (k := 2) (y := main_v55) rfl (by decide)
    (fun Z => (((extractStridedSlice S1x128 ![0, 0] · slices_S4x128_S1x128_0_0) : (⟨S4x128, .f32⟩ : BufTy).Contents (Elt F) → (⟨S1x128, .f32⟩ : BufTy).Contents (Elt F)) (Z (Proc.devRef .tc main_arg9) : (⟨S4x128, .f32⟩ : BufTy).Contents (Elt F)) : (⟨S1x128, .f32⟩ : BufTy).Contents (Elt F))) (fun Z => rfl) V

theorem eq_main_v56 (V : Valuation τ sig (Elt F)) :
    A V main_v56 = (shapeCast S128 (A V main_v55 : (⟨S1x128, .f32⟩ : BufTy).Contents (Elt F)) shapeCasts_S1x128_S128 : (⟨S128, .f32⟩ : BufTy).Contents (Elt F)) :=
  pc1.reshape (k := 3) (y := main_v56) rfl (by decide)
    (fun Z => (shapeCast S128 (Z (Proc.devRef .tc main_v55) : (⟨S1x128, .f32⟩ : BufTy).Contents (Elt F)) shapeCasts_S1x128_S128 : (⟨S128, .f32⟩ : BufTy).Contents (Elt F))) (fun Z => rfl) V

theorem eq_main_v57 (V : Valuation τ sig (Elt F)) :
    A V main_v57 = (((extractStridedSlice S1x128 ![0, 0] · slices_S4x128_S1x128_0_0) : (⟨S4x128, .f32⟩ : BufTy).Contents (Elt F) → (⟨S1x128, .f32⟩ : BufTy).Contents (Elt F)) (A V main_arg10 : (⟨S4x128, .f32⟩ : BufTy).Contents (Elt F)) : (⟨S1x128, .f32⟩ : BufTy).Contents (Elt F)) :=
  pc1.unary (k := 4) (y := main_v57) rfl (by decide)
    (fun Z => (((extractStridedSlice S1x128 ![0, 0] · slices_S4x128_S1x128_0_0) : (⟨S4x128, .f32⟩ : BufTy).Contents (Elt F) → (⟨S1x128, .f32⟩ : BufTy).Contents (Elt F)) (Z (Proc.devRef .tc main_arg10) : (⟨S4x128, .f32⟩ : BufTy).Contents (Elt F)) : (⟨S1x128, .f32⟩ : BufTy).Contents (Elt F))) (fun Z => rfl) V

theorem eq_main_v58 (V : Valuation τ sig (Elt F)) :
    A V main_v58 = (shapeCast S128 (A V main_v57 : (⟨S1x128, .f32⟩ : BufTy).Contents (Elt F)) shapeCasts_S1x128_S128 : (⟨S128, .f32⟩ : BufTy).Contents (Elt F)) :=
  pc1.reshape (k := 5) (y := main_v58) rfl (by decide)
    (fun Z => (shapeCast S128 (Z (Proc.devRef .tc main_v57) : (⟨S1x128, .f32⟩ : BufTy).Contents (Elt F)) shapeCasts_S1x128_S128 : (⟨S128, .f32⟩ : BufTy).Contents (Elt F))) (fun Z => rfl) V

theorem eq_main_cst_5 (V : Valuation τ sig (Elt F)) :
    A V main_cst_5 = ((constant S_ .f32 0x00000000#32) : (⟨S_, .f32⟩ : BufTy).Contents (Elt F)) :=
  pc1.nullary (k := 6) (y := main_cst_5) rfl V

theorem eq_main_v59 (V : Valuation τ sig (Elt F)) :
    A V main_v59 = (Host.reduceAdd (A V main_v54 : (⟨S100000x128, .f32⟩ : BufTy).Contents (Elt F)) (A V main_cst_5 : (⟨S_, .f32⟩ : BufTy).Contents (Elt F)) reducesTo_S100000x128_S128_d0 h_S_ : (⟨S128, .f32⟩ : BufTy).Contents (Elt F)) :=
  pc1.binary (k := 7) (y := main_v59) rfl (by decide) (by decide)
    (fun Z => (Host.reduceAdd (Z (Proc.devRef .tc main_v54) : (⟨S100000x128, .f32⟩ : BufTy).Contents (Elt F)) (Z (Proc.devRef .tc main_cst_5) : (⟨S_, .f32⟩ : BufTy).Contents (Elt F)) reducesTo_S100000x128_S128_d0 h_S_ : (⟨S128, .f32⟩ : BufTy).Contents (Elt F))) (fun Z => rfl) V

theorem eq_main_cst_6 (V : Valuation τ sig (Elt F)) :
    A V main_cst_6 = ((constant S_ .f32 0x47C35000#32) : (⟨S_, .f32⟩ : BufTy).Contents (Elt F)) :=
  pc1.nullary (k := 8) (y := main_cst_6) rfl V

theorem eq_main_v60 (V : Valuation τ sig (Elt F)) :
    A V main_v60 = ((broadcastInDim S128 ![] bcast_S_S128 : (⟨S_, .f32⟩ : BufTy).Contents (Elt F) → (⟨S128, .f32⟩ : BufTy).Contents (Elt F)) (A V main_cst_6 : (⟨S_, .f32⟩ : BufTy).Contents (Elt F)) : (⟨S128, .f32⟩ : BufTy).Contents (Elt F)) :=
  pc1.unary (k := 9) (y := main_v60) rfl (by decide)
    (fun Z => ((broadcastInDim S128 ![] bcast_S_S128 : (⟨S_, .f32⟩ : BufTy).Contents (Elt F) → (⟨S128, .f32⟩ : BufTy).Contents (Elt F)) (Z (Proc.devRef .tc main_cst_6) : (⟨S_, .f32⟩ : BufTy).Contents (Elt F)) : (⟨S128, .f32⟩ : BufTy).Contents (Elt F))) (fun Z => rfl) V

theorem eq_main_v61 (V : Valuation τ sig (Elt F)) :
    A V main_v61 = ((Host.divf : (⟨S128, .f32⟩ : BufTy).Contents (Elt F) → (⟨S128, .f32⟩ : BufTy).Contents (Elt F) → (⟨S128, .f32⟩ : BufTy).Contents (Elt F)) (A V main_v59 : (⟨S128, .f32⟩ : BufTy).Contents (Elt F)) (A V main_v60 : (⟨S128, .f32⟩ : BufTy).Contents (Elt F)) : (⟨S128, .f32⟩ : BufTy).Contents (Elt F)) :=
  pc1.binary (k := 10) (y := main_v61) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_v59) : (⟨S128, .f32⟩ : BufTy).Contents (Elt F)) (Z (Proc.devRef .tc main_v60) : (⟨S128, .f32⟩ : BufTy).Contents (Elt F)) : (⟨S128, .f32⟩ : BufTy).Contents (Elt F))) (fun Z => rfl) V

theorem eq_main_c_7 (V : Valuation τ sig (Elt F)) :
    A V main_c_7 = ((constantI S_ 32 0#32) : (⟨S_, .i32⟩ : BufTy).Contents (Elt F)) :=
  pc1.nullary (k := 11) (y := main_c_7) rfl V

theorem eq_main_call2_cst (V : Valuation τ sig (Elt F)) :
    A V main_call2_cst = ((constant S_ .f32 0x00000000#32) : (⟨S_, .f32⟩ : BufTy).Contents (Elt F)) :=
  pc1.nullary (k := 12) (y := main_call2_cst) rfl V

theorem eq_main_call2_v0 (V : Valuation τ sig (Elt F)) :
    A V main_call2_v0 = (Host.reduceAdd (A V main_v54 : (⟨S100000x128, .f32⟩ : BufTy).Contents (Elt F)) (A V main_call2_cst : (⟨S_, .f32⟩ : BufTy).Contents (Elt F)) reducesTo_S100000x128_S128_d0 h_S_ : (⟨S128, .f32⟩ : BufTy).Contents (Elt F)) :=
  pc1.binary (k := 13) (y := main_call2_v0) rfl (by decide) (by decide)
    (fun Z => (Host.reduceAdd (Z (Proc.devRef .tc main_v54) : (⟨S100000x128, .f32⟩ : BufTy).Contents (Elt F)) (Z (Proc.devRef .tc main_call2_cst) : (⟨S_, .f32⟩ : BufTy).Contents (Elt F)) reducesTo_S100000x128_S128_d0 h_S_ : (⟨S128, .f32⟩ : BufTy).Contents (Elt F))) (fun Z => rfl) V

theorem eq_main_call2_v1 (V : Valuation τ sig (Elt F)) :
    A V main_call2_v1 = (((broadcastInDim S1x128 ![1] bcast_S128_S1x128_1) : (⟨S128, .f32⟩ : BufTy).Contents (Elt F) → (⟨S1x128, .f32⟩ : BufTy).Contents (Elt F)) (A V main_call2_v0 : (⟨S128, .f32⟩ : BufTy).Contents (Elt F)) : (⟨S1x128, .f32⟩ : BufTy).Contents (Elt F)) :=
  pc1.unary (k := 14) (y := main_call2_v1) rfl (by decide)
    (fun Z => (((broadcastInDim S1x128 ![1] bcast_S128_S1x128_1) : (⟨S128, .f32⟩ : BufTy).Contents (Elt F) → (⟨S1x128, .f32⟩ : BufTy).Contents (Elt F)) (Z (Proc.devRef .tc main_call2_v0) : (⟨S128, .f32⟩ : BufTy).Contents (Elt F)) : (⟨S1x128, .f32⟩ : BufTy).Contents (Elt F))) (fun Z => rfl) V

theorem eq_main_call2_cst_0 (V : Valuation τ sig (Elt F)) :
    A V main_call2_cst_0 = ((constant S_ .f32 0x47C35000#32) : (⟨S_, .f32⟩ : BufTy).Contents (Elt F)) :=
  pc1.nullary (k := 15) (y := main_call2_cst_0) rfl V

theorem eq_main_call2_v2 (V : Valuation τ sig (Elt F)) :
    A V main_call2_v2 = (((broadcastInDim S1x128 ![] bcast_S_S1x128) : (⟨S_, .f32⟩ : BufTy).Contents (Elt F) → (⟨S1x128, .f32⟩ : BufTy).Contents (Elt F)) (A V main_call2_cst_0 : (⟨S_, .f32⟩ : BufTy).Contents (Elt F)) : (⟨S1x128, .f32⟩ : BufTy).Contents (Elt F)) :=
  pc1.unary (k := 16) (y := main_call2_v2) rfl (by decide)
    (fun Z => (((broadcastInDim S1x128 ![] bcast_S_S1x128) : (⟨S_, .f32⟩ : BufTy).Contents (Elt F) → (⟨S1x128, .f32⟩ : BufTy).Contents (Elt F)) (Z (Proc.devRef .tc main_call2_cst_0) : (⟨S_, .f32⟩ : BufTy).Contents (Elt F)) : (⟨S1x128, .f32⟩ : BufTy).Contents (Elt F))) (fun Z => rfl) V

theorem eq_main_call2_v3 (V : Valuation τ sig (Elt F)) :
    A V main_call2_v3 = ((Host.divf : (⟨S1x128, .f32⟩ : BufTy).Contents (Elt F) → (⟨S1x128, .f32⟩ : BufTy).Contents (Elt F) → (⟨S1x128, .f32⟩ : BufTy).Contents (Elt F)) (A V main_call2_v1 : (⟨S1x128, .f32⟩ : BufTy).Contents (Elt F)) (A V main_call2_v2 : (⟨S1x128, .f32⟩ : BufTy).Contents (Elt F)) : (⟨S1x128, .f32⟩ : BufTy).Contents (Elt F)) :=
  pc1.binary (k := 17) (y := main_call2_v3) rfl (by decide) (by decide)
    (fun Z => ((Host.divf : (⟨S1x128, .f32⟩ : BufTy).Contents (Elt F) → (⟨S1x128, .f32⟩ : BufTy).Contents (Elt F) → (⟨S1x128, .f32⟩ : BufTy).Contents (Elt F)) (Z (Proc.devRef .tc main_call2_v1) : (⟨S1x128, .f32⟩ : BufTy).Contents (Elt F)) (Z (Proc.devRef .tc main_call2_v2) : (⟨S1x128, .f32⟩ : BufTy).Contents (Elt F)) : (⟨S1x128, .f32⟩ : BufTy).Contents (Elt F))) (fun Z => rfl) V

theorem eq_main_call2_v4 (V : Valuation τ sig (Elt F)) :
    A V main_call2_v4 = (((broadcastInDim S100000x128 ![0, 1] bcast_S1x128_S100000x128_0_1) : (⟨S1x128, .f32⟩ : BufTy).Contents (Elt F) → (⟨S100000x128, .f32⟩ : BufTy).Contents (Elt F)) (A V main_call2_v3 : (⟨S1x128, .f32⟩ : BufTy).Contents (Elt F)) : (⟨S100000x128, .f32⟩ : BufTy).Contents (Elt F)) :=
  pc1.unary (k := 18) (y := main_call2_v4) rfl (by decide)
    (fun Z => (((broadcastInDim S100000x128 ![0, 1] bcast_S1x128_S100000x128_0_1) : (⟨S1x128, .f32⟩ : BufTy).Contents (Elt F) → (⟨S100000x128, .f32⟩ : BufTy).Contents (Elt F)) (Z (Proc.devRef .tc main_call2_v3) : (⟨S1x128, .f32⟩ : BufTy).Contents (Elt F)) : (⟨S100000x128, .f32⟩ : BufTy).Contents (Elt F))) (fun Z => rfl) V

theorem eq_main_call2_v5 (V : Valuation τ sig (Elt F)) :
    A V main_call2_v5 = ((subf : (⟨S100000x128, .f32⟩ : BufTy).Contents (Elt F) → (⟨S100000x128, .f32⟩ : BufTy).Contents (Elt F) → (⟨S100000x128, .f32⟩ : BufTy).Contents (Elt F)) (A V main_v54 : (⟨S100000x128, .f32⟩ : BufTy).Contents (Elt F)) (A V main_call2_v4 : (⟨S100000x128, .f32⟩ : BufTy).Contents (Elt F)) : (⟨S100000x128, .f32⟩ : BufTy).Contents (Elt F)) :=
  pc1.binary (k := 19) (y := main_call2_v5) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v54) : (⟨S100000x128, .f32⟩ : BufTy).Contents (Elt F)) (Z (Proc.devRef .tc main_call2_v4) : (⟨S100000x128, .f32⟩ : BufTy).Contents (Elt F)) : (⟨S100000x128, .f32⟩ : BufTy).Contents (Elt F))) (fun Z => rfl) V

theorem eq_main_call2_v6 (V : Valuation τ sig (Elt F)) :
    A V main_call2_v6 = ((mulf : (⟨S100000x128, .f32⟩ : BufTy).Contents (Elt F) → (⟨S100000x128, .f32⟩ : BufTy).Contents (Elt F) → (⟨S100000x128, .f32⟩ : BufTy).Contents (Elt F)) (A V main_call2_v5 : (⟨S100000x128, .f32⟩ : BufTy).Contents (Elt F)) (A V main_call2_v5 : (⟨S100000x128, .f32⟩ : BufTy).Contents (Elt F)) : (⟨S100000x128, .f32⟩ : BufTy).Contents (Elt F)) :=
  pc1.binary (k := 20) (y := main_call2_v6) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_call2_v5) : (⟨S100000x128, .f32⟩ : BufTy).Contents (Elt F)) (Z (Proc.devRef .tc main_call2_v5) : (⟨S100000x128, .f32⟩ : BufTy).Contents (Elt F)) : (⟨S100000x128, .f32⟩ : BufTy).Contents (Elt F))) (fun Z => rfl) V

theorem eq_main_call2_v7 (V : Valuation τ sig (Elt F)) :
    A V main_call2_v7 = (((sitofp .f32) : (⟨S_, .i32⟩ : BufTy).Contents (Elt F) → (⟨S_, .f32⟩ : BufTy).Contents (Elt F)) (A V main_c_7 : (⟨S_, .i32⟩ : BufTy).Contents (Elt F)) : (⟨S_, .f32⟩ : BufTy).Contents (Elt F)) :=
  pc1.unary (k := 21) (y := main_call2_v7) rfl (by decide)
    (fun Z => (((sitofp .f32) : (⟨S_, .i32⟩ : BufTy).Contents (Elt F) → (⟨S_, .f32⟩ : BufTy).Contents (Elt F)) (Z (Proc.devRef .tc main_c_7) : (⟨S_, .i32⟩ : BufTy).Contents (Elt F)) : (⟨S_, .f32⟩ : BufTy).Contents (Elt F))) (fun Z => rfl) V

theorem eq_main_call2_cst_1 (V : Valuation τ sig (Elt F)) :
    A V main_call2_cst_1 = ((constant S_ .f32 0x47C35000#32) : (⟨S_, .f32⟩ : BufTy).Contents (Elt F)) :=
  pc1.nullary (k := 22) (y := main_call2_cst_1) rfl V

theorem eq_main_call2_v8 (V : Valuation τ sig (Elt F)) :
    A V main_call2_v8 = ((subf : (⟨S_, .f32⟩ : BufTy).Contents (Elt F) → (⟨S_, .f32⟩ : BufTy).Contents (Elt F) → (⟨S_, .f32⟩ : BufTy).Contents (Elt F)) (A V main_call2_cst_1 : (⟨S_, .f32⟩ : BufTy).Contents (Elt F)) (A V main_call2_v7 : (⟨S_, .f32⟩ : BufTy).Contents (Elt F)) : (⟨S_, .f32⟩ : BufTy).Contents (Elt F)) :=
  pc1.binary (k := 23) (y := main_call2_v8) rfl (by decide) (by decide)
    (fun Z => ((subf : (⟨S_, .f32⟩ : BufTy).Contents (Elt F) → (⟨S_, .f32⟩ : BufTy).Contents (Elt F) → (⟨S_, .f32⟩ : BufTy).Contents (Elt F)) (Z (Proc.devRef .tc main_call2_cst_1) : (⟨S_, .f32⟩ : BufTy).Contents (Elt F)) (Z (Proc.devRef .tc main_call2_v7) : (⟨S_, .f32⟩ : BufTy).Contents (Elt F)) : (⟨S_, .f32⟩ : BufTy).Contents (Elt F))) (fun Z => rfl) V

theorem eq_main_call2_cst_2 (V : Valuation τ sig (Elt F)) :
    A V main_call2_cst_2 = ((constant S_ .f32 0x00000000#32) : (⟨S_, .f32⟩ : BufTy).Contents (Elt F)) :=
  pc1.nullary (k := 24) (y := main_call2_cst_2) rfl V

theorem eq_main_call2_v9 (V : Valuation τ sig (Elt F)) :
    A V main_call2_v9 = (Host.reduceAdd (A V main_call2_v6 : (⟨S100000x128, .f32⟩ : BufTy).Contents (Elt F)) (A V main_call2_cst_2 : (⟨S_, .f32⟩ : BufTy).Contents (Elt F)) reducesTo_S100000x128_S128_d0 h_S_ : (⟨S128, .f32⟩ : BufTy).Contents (Elt F)) :=
  pc1.binary (k := 25) (y := main_call2_v9) rfl (by decide) (by decide)
    (fun Z => (Host.reduceAdd (Z (Proc.devRef .tc main_call2_v6) : (⟨S100000x128, .f32⟩ : BufTy).Contents (Elt F)) (Z (Proc.devRef .tc main_call2_cst_2) : (⟨S_, .f32⟩ : BufTy).Contents (Elt F)) reducesTo_S100000x128_S128_d0 h_S_ : (⟨S128, .f32⟩ : BufTy).Contents (Elt F))) (fun Z => rfl) V

theorem eq_main_call2_v10 (V : Valuation τ sig (Elt F)) :
    A V main_call2_v10 = (((broadcastInDim S128 ![] bcast_S_S128) : (⟨S_, .f32⟩ : BufTy).Contents (Elt F) → (⟨S128, .f32⟩ : BufTy).Contents (Elt F)) (A V main_call2_v8 : (⟨S_, .f32⟩ : BufTy).Contents (Elt F)) : (⟨S128, .f32⟩ : BufTy).Contents (Elt F)) :=
  pc1.unary (k := 26) (y := main_call2_v10) rfl (by decide)
    (fun Z => (((broadcastInDim S128 ![] bcast_S_S128) : (⟨S_, .f32⟩ : BufTy).Contents (Elt F) → (⟨S128, .f32⟩ : BufTy).Contents (Elt F)) (Z (Proc.devRef .tc main_call2_v8) : (⟨S_, .f32⟩ : BufTy).Contents (Elt F)) : (⟨S128, .f32⟩ : BufTy).Contents (Elt F))) (fun Z => rfl) V

theorem eq_main_call2_v11 (V : Valuation τ sig (Elt F)) :
    A V main_call2_v11 = ((Host.divf : (⟨S128, .f32⟩ : BufTy).Contents (Elt F) → (⟨S128, .f32⟩ : BufTy).Contents (Elt F) → (⟨S128, .f32⟩ : BufTy).Contents (Elt F)) (A V main_call2_v9 : (⟨S128, .f32⟩ : BufTy).Contents (Elt F)) (A V main_call2_v10 : (⟨S128, .f32⟩ : BufTy).Contents (Elt F)) : (⟨S128, .f32⟩ : BufTy).Contents (Elt F)) :=
  pc1.binary (k := 27) (y := main_call2_v11) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_call2_v9) : (⟨S128, .f32⟩ : BufTy).Contents (Elt F)) (Z (Proc.devRef .tc main_call2_v10) : (⟨S128, .f32⟩ : BufTy).Contents (Elt F)) : (⟨S128, .f32⟩ : BufTy).Contents (Elt F))) (fun Z => rfl) V

theorem eq_main_call2_cst_3 (V : Valuation τ sig (Elt F)) :
    A V main_call2_cst_3 = ((constant S_ .f32 0x00000000#32) : (⟨S_, .f32⟩ : BufTy).Contents (Elt F)) :=
  pc1.nullary (k := 28) (y := main_call2_cst_3) rfl V

theorem eq_main_call2_v12 (V : Valuation τ sig (Elt F)) :
    A V main_call2_v12 = (((cmpf .ogt) : (⟨S_, .f32⟩ : BufTy).Contents (Elt F) → (⟨S_, .f32⟩ : BufTy).Contents (Elt F) → (⟨S_, .i1⟩ : BufTy).Contents (Elt F)) (A V main_call2_v8 : (⟨S_, .f32⟩ : BufTy).Contents (Elt F)) (A V main_call2_cst_3 : (⟨S_, .f32⟩ : BufTy).Contents (Elt F)) : (⟨S_, .i1⟩ : BufTy).Contents (Elt F)) :=
  pc1.binary (k := 29) (y := main_call2_v12) rfl (by decide) (by decide)
    (fun Z => (((cmpf .ogt) : (⟨S_, .f32⟩ : BufTy).Contents (Elt F) → (⟨S_, .f32⟩ : BufTy).Contents (Elt F) → (⟨S_, .i1⟩ : BufTy).Contents (Elt F)) (Z (Proc.devRef .tc main_call2_v8) : (⟨S_, .f32⟩ : BufTy).Contents (Elt F)) (Z (Proc.devRef .tc main_call2_cst_3) : (⟨S_, .f32⟩ : BufTy).Contents (Elt F)) : (⟨S_, .i1⟩ : BufTy).Contents (Elt F))) (fun Z => rfl) V

theorem eq_main_call2_cst_4 (V : Valuation τ sig (Elt F)) :
    A V main_call2_cst_4 = ((constant S_ .f32 0x7FC00000#32) : (⟨S_, .f32⟩ : BufTy).Contents (Elt F)) :=
  pc1.nullary (k := 30) (y := main_call2_cst_4) rfl V

theorem eq_main_call2_call0_v0 (V : Valuation τ sig (Elt F)) :
    A V main_call2_call0_v0 = ((id : (⟨S_, .f32⟩ : BufTy).Contents (Elt F) → (⟨S_, .f32⟩ : BufTy).Contents (Elt F)) (A V main_call2_cst_4 : (⟨S_, .f32⟩ : BufTy).Contents (Elt F)) : (⟨S_, .f32⟩ : BufTy).Contents (Elt F)) :=
  pc1.unary (k := 31) (y := main_call2_call0_v0) rfl (by decide)
    (fun Z => ((id : (⟨S_, .f32⟩ : BufTy).Contents (Elt F) → (⟨S_, .f32⟩ : BufTy).Contents (Elt F)) (Z (Proc.devRef .tc main_call2_cst_4) : (⟨S_, .f32⟩ : BufTy).Contents (Elt F)) : (⟨S_, .f32⟩ : BufTy).Contents (Elt F))) (fun Z => rfl) V

theorem eq_main_call2_call0_v1 (V : Valuation τ sig (Elt F)) :
    A V main_call2_call0_v1 = (((broadcastInDim S128 ![] bcast_S_S128) : (⟨S_, .f32⟩ : BufTy).Contents (Elt F) → (⟨S128, .f32⟩ : BufTy).Contents (Elt F)) (A V main_call2_call0_v0 : (⟨S_, .f32⟩ : BufTy).Contents (Elt F)) : (⟨S128, .f32⟩ : BufTy).Contents (Elt F)) :=
  pc1.unary (k := 32) (y := main_call2_call0_v1) rfl (by decide)
    (fun Z => (((broadcastInDim S128 ![] bcast_S_S128) : (⟨S_, .f32⟩ : BufTy).Contents (Elt F) → (⟨S128, .f32⟩ : BufTy).Contents (Elt F)) (Z (Proc.devRef .tc main_call2_call0_v0) : (⟨S_, .f32⟩ : BufTy).Contents (Elt F)) : (⟨S128, .f32⟩ : BufTy).Contents (Elt F))) (fun Z => rfl) V

theorem eq_main_v62 (V : Valuation τ sig (Elt F)) :
    A V main_v62 = (select ((broadcastInDim S128 ![] bcast_S_S128 : (⟨S_, .i1⟩ : BufTy).Contents (Elt F) → (⟨S128, .i1⟩ : BufTy).Contents (Elt F)) (A V main_call2_v12 : (⟨S_, .i1⟩ : BufTy).Contents (Elt F))) (A V main_call2_v11 : (⟨S128, .f32⟩ : BufTy).Contents (Elt F)) (A V main_call2_call0_v1 : (⟨S128, .f32⟩ : BufTy).Contents (Elt F)) : (⟨S128, .f32⟩ : BufTy).Contents (Elt F)) :=
  pc1.ternary (k := 33) (y := main_v62) rfl (by decide) (by decide) (by decide)
    (fun Z => (select ((broadcastInDim S128 ![] bcast_S_S128 : (⟨S_, .i1⟩ : BufTy).Contents (Elt F) → (⟨S128, .i1⟩ : BufTy).Contents (Elt F)) (Z (Proc.devRef .tc main_call2_v12) : (⟨S_, .i1⟩ : BufTy).Contents (Elt F))) (Z (Proc.devRef .tc main_call2_v11) : (⟨S128, .f32⟩ : BufTy).Contents (Elt F)) (Z (Proc.devRef .tc main_call2_call0_v1) : (⟨S128, .f32⟩ : BufTy).Contents (Elt F)) : (⟨S128, .f32⟩ : BufTy).Contents (Elt F))) (fun Z => rfl) V

theorem eq_main_v63 (V : Valuation τ sig (Elt F)) :
    A V main_v63 = ((broadcastInDim S1x128 ![1] bcast_S128_S1x128_1 : (⟨S128, .f32⟩ : BufTy).Contents (Elt F) → (⟨S1x128, .f32⟩ : BufTy).Contents (Elt F)) (A V main_v61 : (⟨S128, .f32⟩ : BufTy).Contents (Elt F)) : (⟨S1x128, .f32⟩ : BufTy).Contents (Elt F)) :=
  pc1.unary (k := 34) (y := main_v63) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v61) : (⟨S128, .f32⟩ : BufTy).Contents (Elt F)) : (⟨S1x128, .f32⟩ : BufTy).Contents (Elt F))) (fun Z => rfl) V

theorem eq_main_v64 (V : Valuation τ sig (Elt F)) :
    A V main_v64 = ((broadcastInDim S100000x128 ![0, 1] bcast_S1x128_S100000x128_0_1 : (⟨S1x128, .f32⟩ : BufTy).Contents (Elt F) → (⟨S100000x128, .f32⟩ : BufTy).Contents (Elt F)) (A V main_v63 : (⟨S1x128, .f32⟩ : BufTy).Contents (Elt F)) : (⟨S100000x128, .f32⟩ : BufTy).Contents (Elt F)) :=
  pc1.unary (k := 35) (y := main_v64) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v63) : (⟨S1x128, .f32⟩ : BufTy).Contents (Elt F)) : (⟨S100000x128, .f32⟩ : BufTy).Contents (Elt F))) (fun Z => rfl) V

theorem eq_main_v65 (V : Valuation τ sig (Elt F)) :
    A V main_v65 = ((subf : (⟨S100000x128, .f32⟩ : BufTy).Contents (Elt F) → (⟨S100000x128, .f32⟩ : BufTy).Contents (Elt F) → (⟨S100000x128, .f32⟩ : BufTy).Contents (Elt F)) (A V main_v54 : (⟨S100000x128, .f32⟩ : BufTy).Contents (Elt F)) (A V main_v64 : (⟨S100000x128, .f32⟩ : BufTy).Contents (Elt F)) : (⟨S100000x128, .f32⟩ : BufTy).Contents (Elt F)) :=
  pc1.binary (k := 36) (y := main_v65) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v54) : (⟨S100000x128, .f32⟩ : BufTy).Contents (Elt F)) (Z (Proc.devRef .tc main_v64) : (⟨S100000x128, .f32⟩ : BufTy).Contents (Elt F)) : (⟨S100000x128, .f32⟩ : BufTy).Contents (Elt F))) (fun Z => rfl) V

theorem eq_main_cst_8 (V : Valuation τ sig (Elt F)) :
    A V main_cst_8 = ((constant S_ .f32 0x3727C5AC#32) : (⟨S_, .f32⟩ : BufTy).Contents (Elt F)) :=
  pc1.nullary (k := 37) (y := main_cst_8) rfl V

theorem eq_main_v66 (V : Valuation τ sig (Elt F)) :
    A V main_v66 = ((broadcastInDim S128 ![] bcast_S_S128 : (⟨S_, .f32⟩ : BufTy).Contents (Elt F) → (⟨S128, .f32⟩ : BufTy).Contents (Elt F)) (A V main_cst_8 : (⟨S_, .f32⟩ : BufTy).Contents (Elt F)) : (⟨S128, .f32⟩ : BufTy).Contents (Elt F)) :=
  pc1.unary (k := 38) (y := main_v66) rfl (by decide)
    (fun Z => ((broadcastInDim S128 ![] bcast_S_S128 : (⟨S_, .f32⟩ : BufTy).Contents (Elt F) → (⟨S128, .f32⟩ : BufTy).Contents (Elt F)) (Z (Proc.devRef .tc main_cst_8) : (⟨S_, .f32⟩ : BufTy).Contents (Elt F)) : (⟨S128, .f32⟩ : BufTy).Contents (Elt F))) (fun Z => rfl) V

theorem eq_main_v67 (V : Valuation τ sig (Elt F)) :
    A V main_v67 = ((addf : (⟨S128, .f32⟩ : BufTy).Contents (Elt F) → (⟨S128, .f32⟩ : BufTy).Contents (Elt F) → (⟨S128, .f32⟩ : BufTy).Contents (Elt F)) (A V main_v62 : (⟨S128, .f32⟩ : BufTy).Contents (Elt F)) (A V main_v66 : (⟨S128, .f32⟩ : BufTy).Contents (Elt F)) : (⟨S128, .f32⟩ : BufTy).Contents (Elt F)) :=
  pc1.binary (k := 39) (y := main_v67) rfl (by decide) (by decide)
    (fun Z => ((addf : (⟨S128, .f32⟩ : BufTy).Contents (Elt F) → (⟨S128, .f32⟩ : BufTy).Contents (Elt F) → (⟨S128, .f32⟩ : BufTy).Contents (Elt F)) (Z (Proc.devRef .tc main_v62) : (⟨S128, .f32⟩ : BufTy).Contents (Elt F)) (Z (Proc.devRef .tc main_v66) : (⟨S128, .f32⟩ : BufTy).Contents (Elt F)) : (⟨S128, .f32⟩ : BufTy).Contents (Elt F))) (fun Z => rfl) V

theorem eq_main_v68 (V : Valuation τ sig (Elt F)) :
    A V main_v68 = ((Host.rsqrt : (⟨S128, .f32⟩ : BufTy).Contents (Elt F) → (⟨S128, .f32⟩ : BufTy).Contents (Elt F)) (A V main_v67 : (⟨S128, .f32⟩ : BufTy).Contents (Elt F)) : (⟨S128, .f32⟩ : BufTy).Contents (Elt F)) :=
  pc1.unary (k := 40) (y := main_v68) rfl (by decide)
    (fun Z => ((Host.rsqrt : (⟨S128, .f32⟩ : BufTy).Contents (Elt F) → (⟨S128, .f32⟩ : BufTy).Contents (Elt F)) (Z (Proc.devRef .tc main_v67) : (⟨S128, .f32⟩ : BufTy).Contents (Elt F)) : (⟨S128, .f32⟩ : BufTy).Contents (Elt F))) (fun Z => rfl) V

theorem eq_main_v69 (V : Valuation τ sig (Elt F)) :
    A V main_v69 = ((broadcastInDim S1x128 ![1] bcast_S128_S1x128_1 : (⟨S128, .f32⟩ : BufTy).Contents (Elt F) → (⟨S1x128, .f32⟩ : BufTy).Contents (Elt F)) (A V main_v68 : (⟨S128, .f32⟩ : BufTy).Contents (Elt F)) : (⟨S1x128, .f32⟩ : BufTy).Contents (Elt F)) :=
  pc1.unary (k := 41) (y := main_v69) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v68) : (⟨S128, .f32⟩ : BufTy).Contents (Elt F)) : (⟨S1x128, .f32⟩ : BufTy).Contents (Elt F))) (fun Z => rfl) V

theorem eq_main_v70 (V : Valuation τ sig (Elt F)) :
    A V main_v70 = ((broadcastInDim S100000x128 ![0, 1] bcast_S1x128_S100000x128_0_1 : (⟨S1x128, .f32⟩ : BufTy).Contents (Elt F) → (⟨S100000x128, .f32⟩ : BufTy).Contents (Elt F)) (A V main_v69 : (⟨S1x128, .f32⟩ : BufTy).Contents (Elt F)) : (⟨S100000x128, .f32⟩ : BufTy).Contents (Elt F)) :=
  pc1.unary (k := 42) (y := main_v70) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v69) : (⟨S1x128, .f32⟩ : BufTy).Contents (Elt F)) : (⟨S100000x128, .f32⟩ : BufTy).Contents (Elt F))) (fun Z => rfl) V

theorem eq_main_v71 (V : Valuation τ sig (Elt F)) :
    A V main_v71 = ((mulf : (⟨S100000x128, .f32⟩ : BufTy).Contents (Elt F) → (⟨S100000x128, .f32⟩ : BufTy).Contents (Elt F) → (⟨S100000x128, .f32⟩ : BufTy).Contents (Elt F)) (A V main_v65 : (⟨S100000x128, .f32⟩ : BufTy).Contents (Elt F)) (A V main_v70 : (⟨S100000x128, .f32⟩ : BufTy).Contents (Elt F)) : (⟨S100000x128, .f32⟩ : BufTy).Contents (Elt F)) :=
  pc1.binary (k := 43) (y := main_v71) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v65) : (⟨S100000x128, .f32⟩ : BufTy).Contents (Elt F)) (Z (Proc.devRef .tc main_v70) : (⟨S100000x128, .f32⟩ : BufTy).Contents (Elt F)) : (⟨S100000x128, .f32⟩ : BufTy).Contents (Elt F))) (fun Z => rfl) V

theorem eq_main_v72 (V : Valuation τ sig (Elt F)) :
    A V main_v72 = ((broadcastInDim S1x128 ![1] bcast_S128_S1x128_1 : (⟨S128, .f32⟩ : BufTy).Contents (Elt F) → (⟨S1x128, .f32⟩ : BufTy).Contents (Elt F)) (A V main_v56 : (⟨S128, .f32⟩ : BufTy).Contents (Elt F)) : (⟨S1x128, .f32⟩ : BufTy).Contents (Elt F)) :=
  pc1.unary (k := 44) (y := main_v72) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v56) : (⟨S128, .f32⟩ : BufTy).Contents (Elt F)) : (⟨S1x128, .f32⟩ : BufTy).Contents (Elt F))) (fun Z => rfl) V

theorem eq_main_v73 (V : Valuation τ sig (Elt F)) :
    A V main_v73 = ((broadcastInDim S100000x128 ![0, 1] bcast_S1x128_S100000x128_0_1 : (⟨S1x128, .f32⟩ : BufTy).Contents (Elt F) → (⟨S100000x128, .f32⟩ : BufTy).Contents (Elt F)) (A V main_v72 : (⟨S1x128, .f32⟩ : BufTy).Contents (Elt F)) : (⟨S100000x128, .f32⟩ : BufTy).Contents (Elt F)) :=
  pc1.unary (k := 45) (y := main_v73) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v72) : (⟨S1x128, .f32⟩ : BufTy).Contents (Elt F)) : (⟨S100000x128, .f32⟩ : BufTy).Contents (Elt F))) (fun Z => rfl) V

theorem eq_main_v74 (V : Valuation τ sig (Elt F)) :
    A V main_v74 = ((mulf : (⟨S100000x128, .f32⟩ : BufTy).Contents (Elt F) → (⟨S100000x128, .f32⟩ : BufTy).Contents (Elt F) → (⟨S100000x128, .f32⟩ : BufTy).Contents (Elt F)) (A V main_v71 : (⟨S100000x128, .f32⟩ : BufTy).Contents (Elt F)) (A V main_v73 : (⟨S100000x128, .f32⟩ : BufTy).Contents (Elt F)) : (⟨S100000x128, .f32⟩ : BufTy).Contents (Elt F)) :=
  pc1.binary (k := 46) (y := main_v74) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v71) : (⟨S100000x128, .f32⟩ : BufTy).Contents (Elt F)) (Z (Proc.devRef .tc main_v73) : (⟨S100000x128, .f32⟩ : BufTy).Contents (Elt F)) : (⟨S100000x128, .f32⟩ : BufTy).Contents (Elt F))) (fun Z => rfl) V

theorem eq_main_v75 (V : Valuation τ sig (Elt F)) :
    A V main_v75 = ((broadcastInDim S1x128 ![1] bcast_S128_S1x128_1 : (⟨S128, .f32⟩ : BufTy).Contents (Elt F) → (⟨S1x128, .f32⟩ : BufTy).Contents (Elt F)) (A V main_v58 : (⟨S128, .f32⟩ : BufTy).Contents (Elt F)) : (⟨S1x128, .f32⟩ : BufTy).Contents (Elt F)) :=
  pc1.unary (k := 47) (y := main_v75) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v58) : (⟨S128, .f32⟩ : BufTy).Contents (Elt F)) : (⟨S1x128, .f32⟩ : BufTy).Contents (Elt F))) (fun Z => rfl) V

theorem eq_main_v76 (V : Valuation τ sig (Elt F)) :
    A V main_v76 = ((broadcastInDim S100000x128 ![0, 1] bcast_S1x128_S100000x128_0_1 : (⟨S1x128, .f32⟩ : BufTy).Contents (Elt F) → (⟨S100000x128, .f32⟩ : BufTy).Contents (Elt F)) (A V main_v75 : (⟨S1x128, .f32⟩ : BufTy).Contents (Elt F)) : (⟨S100000x128, .f32⟩ : BufTy).Contents (Elt F)) :=
  pc1.unary (k := 48) (y := main_v76) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v75) : (⟨S1x128, .f32⟩ : BufTy).Contents (Elt F)) : (⟨S100000x128, .f32⟩ : BufTy).Contents (Elt F))) (fun Z => rfl) V

theorem eq_main_v77 (V : Valuation τ sig (Elt F)) :
    A V main_v77 = ((addf : (⟨S100000x128, .f32⟩ : BufTy).Contents (Elt F) → (⟨S100000x128, .f32⟩ : BufTy).Contents (Elt F) → (⟨S100000x128, .f32⟩ : BufTy).Contents (Elt F)) (A V main_v74 : (⟨S100000x128, .f32⟩ : BufTy).Contents (Elt F)) (A V main_v76 : (⟨S100000x128, .f32⟩ : BufTy).Contents (Elt F)) : (⟨S100000x128, .f32⟩ : BufTy).Contents (Elt F)) :=
  pc1.binary (k := 49) (y := main_v77) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v74) : (⟨S100000x128, .f32⟩ : BufTy).Contents (Elt F)) (Z (Proc.devRef .tc main_v76) : (⟨S100000x128, .f32⟩ : BufTy).Contents (Elt F)) : (⟨S100000x128, .f32⟩ : BufTy).Contents (Elt F))) (fun Z => rfl) V

theorem eq_main_call3_cst (V : Valuation τ sig (Elt F)) :
    A V main_call3_cst = ((constant S_ .f32 0x00000000#32) : (⟨S_, .f32⟩ : BufTy).Contents (Elt F)) :=
  pc1.nullary (k := 50) (y := main_call3_cst) rfl V

theorem eq_main_call3_v0 (V : Valuation τ sig (Elt F)) :
    A V main_call3_v0 = (((broadcastInDim S100000x128 ![] bcast_S_S100000x128) : (⟨S_, .f32⟩ : BufTy).Contents (Elt F) → (⟨S100000x128, .f32⟩ : BufTy).Contents (Elt F)) (A V main_call3_cst : (⟨S_, .f32⟩ : BufTy).Contents (Elt F)) : (⟨S100000x128, .f32⟩ : BufTy).Contents (Elt F)) :=
  pc1.unary (k := 51) (y := main_call3_v0) rfl (by decide)
    (fun Z => (((broadcastInDim S100000x128 ![] bcast_S_S100000x128) : (⟨S_, .f32⟩ : BufTy).Contents (Elt F) → (⟨S100000x128, .f32⟩ : BufTy).Contents (Elt F)) (Z (Proc.devRef .tc main_call3_cst) : (⟨S_, .f32⟩ : BufTy).Contents (Elt F)) : (⟨S100000x128, .f32⟩ : BufTy).Contents (Elt F))) (fun Z => rfl) V

theorem eq_main_v78 (V : Valuation τ sig (Elt F)) :
    A V main_v78 = ((maximumf : (⟨S100000x128, .f32⟩ : BufTy).Contents (Elt F) → (⟨S100000x128, .f32⟩ : BufTy).Contents (Elt F) → (⟨S100000x128, .f32⟩ : BufTy).Contents (Elt F)) (A V main_v77 : (⟨S100000x128, .f32⟩ : BufTy).Contents (Elt F)) (A V main_call3_v0 : (⟨S100000x128, .f32⟩ : BufTy).Contents (Elt F)) : (⟨S100000x128, .f32⟩ : BufTy).Contents (Elt F)) :=
  pc1.binary (k := 52) (y := main_v78) rfl (by decide) (by decide)
    (fun Z => ((maximumf : (⟨S100000x128, .f32⟩ : BufTy).Contents (Elt F) → (⟨S100000x128, .f32⟩ : BufTy).Contents (Elt F) → (⟨S100000x128, .f32⟩ : BufTy).Contents (Elt F)) (Z (Proc.devRef .tc main_v77) : (⟨S100000x128, .f32⟩ : BufTy).Contents (Elt F)) (Z (Proc.devRef .tc main_call3_v0) : (⟨S100000x128, .f32⟩ : BufTy).Contents (Elt F)) : (⟨S100000x128, .f32⟩ : BufTy).Contents (Elt F))) (fun Z => rfl) V

theorem eq_main_c_9 (V : Valuation τ sig (Elt F)) :
    A V main_c_9 = ((constantI S_ 32 0#32) : (⟨S_, .i32⟩ : BufTy).Contents (Elt F)) :=
  pc1.nullary (k := 53) (y := main_c_9) rfl V

theorem eq_main_v79 (V : Valuation τ sig (Elt F)) :
    A V main_v79 = ((broadcastInDim S600000 ![] bcast_S_S600000 : (⟨S_, .i32⟩ : BufTy).Contents (Elt F) → (⟨S600000, .i32⟩ : BufTy).Contents (Elt F)) (A V main_c_9 : (⟨S_, .i32⟩ : BufTy).Contents (Elt F)) : (⟨S600000, .i32⟩ : BufTy).Contents (Elt F)) :=
  pc1.unary (k := 54) (y := main_v79) rfl (by decide)
    (fun Z => ((broadcastInDim S600000 ![] bcast_S_S600000 : (⟨S_, .i32⟩ : BufTy).Contents (Elt F) → (⟨S600000, .i32⟩ : BufTy).Contents (Elt F)) (Z (Proc.devRef .tc main_c_9) : (⟨S_, .i32⟩ : BufTy).Contents (Elt F)) : (⟨S600000, .i32⟩ : BufTy).Contents (Elt F))) (fun Z => rfl) V

theorem eq_main_v80 (V : Valuation τ sig (Elt F)) :
    A V main_v80 = ((cmpi .slt : (⟨S600000, .i32⟩ : BufTy).Contents (Elt F) → (⟨S600000, .i32⟩ : BufTy).Contents (Elt F) → (⟨S600000, .i1⟩ : BufTy).Contents (Elt F)) (A V main_v1 : (⟨S600000, .i32⟩ : BufTy).Contents (Elt F)) (A V main_v79 : (⟨S600000, .i32⟩ : BufTy).Contents (Elt F)) : (⟨S600000, .i1⟩ : BufTy).Contents (Elt F)) :=
  pc1.binary (k := 55) (y := main_v80) rfl (by decide) (by decide)
    (fun Z => ((cmpi .slt : (⟨S600000, .i32⟩ : BufTy).Contents (Elt F) → (⟨S600000, .i32⟩ : BufTy).Contents (Elt F) → (⟨S600000, .i1⟩ : BufTy).Contents (Elt F)) (Z (Proc.devRef .tc main_v1) : (⟨S600000, .i32⟩ : BufTy).Contents (Elt F)) (Z (Proc.devRef .tc main_v79) : (⟨S600000, .i32⟩ : BufTy).Contents (Elt F)) : (⟨S600000, .i1⟩ : BufTy).Contents (Elt F))) (fun Z => rfl) V

theorem eq_main_c_10 (V : Valuation τ sig (Elt F)) :
    A V main_c_10 = ((constantI S_ 32 100000#32) : (⟨S_, .i32⟩ : BufTy).Contents (Elt F)) :=
  pc1.nullary (k := 56) (y := main_c_10) rfl V

theorem eq_main_v81 (V : Valuation τ sig (Elt F)) :
    A V main_v81 = ((broadcastInDim S600000 ![] bcast_S_S600000 : (⟨S_, .i32⟩ : BufTy).Contents (Elt F) → (⟨S600000, .i32⟩ : BufTy).Contents (Elt F)) (A V main_c_10 : (⟨S_, .i32⟩ : BufTy).Contents (Elt F)) : (⟨S600000, .i32⟩ : BufTy).Contents (Elt F)) :=
  pc1.unary (k := 57) (y := main_v81) rfl (by decide)
    (fun Z => ((broadcastInDim S600000 ![] bcast_S_S600000 : (⟨S_, .i32⟩ : BufTy).Contents (Elt F) → (⟨S600000, .i32⟩ : BufTy).Contents (Elt F)) (Z (Proc.devRef .tc main_c_10) : (⟨S_, .i32⟩ : BufTy).Contents (Elt F)) : (⟨S600000, .i32⟩ : BufTy).Contents (Elt F))) (fun Z => rfl) V

theorem eq_main_v82 (V : Valuation τ sig (Elt F)) :
    A V main_v82 = ((addi : (⟨S600000, .i32⟩ : BufTy).Contents (Elt F) → (⟨S600000, .i32⟩ : BufTy).Contents (Elt F) → (⟨S600000, .i32⟩ : BufTy).Contents (Elt F)) (A V main_v1 : (⟨S600000, .i32⟩ : BufTy).Contents (Elt F)) (A V main_v81 : (⟨S600000, .i32⟩ : BufTy).Contents (Elt F)) : (⟨S600000, .i32⟩ : BufTy).Contents (Elt F)) :=
  pc1.binary (k := 58) (y := main_v82) rfl (by decide) (by decide)
    (fun Z => ((addi : (⟨S600000, .i32⟩ : BufTy).Contents (Elt F) → (⟨S600000, .i32⟩ : BufTy).Contents (Elt F) → (⟨S600000, .i32⟩ : BufTy).Contents (Elt F)) (Z (Proc.devRef .tc main_v1) : (⟨S600000, .i32⟩ : BufTy).Contents (Elt F)) (Z (Proc.devRef .tc main_v81) : (⟨S600000, .i32⟩ : BufTy).Contents (Elt F)) : (⟨S600000, .i32⟩ : BufTy).Contents (Elt F))) (fun Z => rfl) V

theorem eq_main_v83 (V : Valuation τ sig (Elt F)) :
    A V main_v83 = ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (A V main_v80 : (⟨S600000, .i1⟩ : BufTy).Contents (Elt F)) (A V main_v82 : (⟨S600000, .i32⟩ : BufTy).Contents (Elt F)) (A V main_v1 : (⟨S600000, .i32⟩ : BufTy).Contents (Elt F)) : (⟨S600000, .i32⟩ : BufTy).Contents (Elt F)) :=
  pc1.ternary (k := 59) (y := main_v83) rfl (by decide) (by decide) (by decide)
    (fun Z => ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (Z (Proc.devRef .tc main_v80) : (⟨S600000, .i1⟩ : BufTy).Contents (Elt F)) (Z (Proc.devRef .tc main_v82) : (⟨S600000, .i32⟩ : BufTy).Contents (Elt F)) (Z (Proc.devRef .tc main_v1) : (⟨S600000, .i32⟩ : BufTy).Contents (Elt F)) : (⟨S600000, .i32⟩ : BufTy).Contents (Elt F))) (fun Z => rfl) V

theorem eq_main_v84 (V : Valuation τ sig (Elt F)) :
    A V main_v84 = ((broadcastInDim S600000x1 ![0] bcast_S600000_S600000x1_0 : (⟨S600000, .i32⟩ : BufTy).Contents (Elt F) → (⟨S600000x1, .i32⟩ : BufTy).Contents (Elt F)) (A V main_v83 : (⟨S600000, .i32⟩ : BufTy).Contents (Elt F)) : (⟨S600000x1, .i32⟩ : BufTy).Contents (Elt F)) :=
  pc1.unary (k := 60) (y := main_v84) rfl (by decide)
    (fun Z => ((broadcastInDim S600000x1 ![0] bcast_S600000_S600000x1_0 : (⟨S600000, .i32⟩ : BufTy).Contents (Elt F) → (⟨S600000x1, .i32⟩ : BufTy).Contents (Elt F)) (Z (Proc.devRef .tc main_v83) : (⟨S600000, .i32⟩ : BufTy).Contents (Elt F)) : (⟨S600000x1, .i32⟩ : BufTy).Contents (Elt F))) (fun Z => rfl) V

theorem eq_main_v85 (V : Valuation τ sig (Elt F)) :
    A V main_v85 = (Host.gather gather_S100000x128_S600000x1_S600000x128_1_0_n_n_0_1_1128 (A V main_v78 : (⟨S100000x128, .f32⟩ : BufTy).Contents (Elt F)) (A V main_v84 : (⟨S600000x1, .i32⟩ : BufTy).Contents (Elt F)) : (⟨S600000x128, .f32⟩ : BufTy).Contents (Elt F)) :=
  pc1.binary (k := 61) (y := main_v85) rfl (by decide) (by decide)
    (fun Z => (Host.gather gather_S100000x128_S600000x1_S600000x128_1_0_n_n_0_1_1128 (Z (Proc.devRef .tc main_v78) : (⟨S100000x128, .f32⟩ : BufTy).Contents (Elt F)) (Z (Proc.devRef .tc main_v84) : (⟨S600000x1, .i32⟩ : BufTy).Contents (Elt F)) : (⟨S600000x128, .f32⟩ : BufTy).Contents (Elt F))) (fun Z => rfl) V

theorem eq_main_cst_11 (V : Valuation τ sig (Elt F)) :
    A V main_cst_11 = ((constant S_ .f32 0x00000000#32) : (⟨S_, .f32⟩ : BufTy).Contents (Elt F)) :=
  pc1.nullary (k := 62) (y := main_cst_11) rfl V

theorem eq_main_v86 (V : Valuation τ sig (Elt F)) :
    A V main_v86 = ((broadcastInDim S100000x128 ![] bcast_S_S100000x128 : (⟨S_, .f32⟩ : BufTy).Contents (Elt F) → (⟨S100000x128, .f32⟩ : BufTy).Contents (Elt F)) (A V main_cst_11 : (⟨S_, .f32⟩ : BufTy).Contents (Elt F)) : (⟨S100000x128, .f32⟩ : BufTy).Contents (Elt F)) :=
  pc1.unary (k := 63) (y := main_v86) rfl (by decide)
    (fun Z => ((broadcastInDim S100000x128 ![] bcast_S_S100000x128 : (⟨S_, .f32⟩ : BufTy).Contents (Elt F) → (⟨S100000x128, .f32⟩ : BufTy).Contents (Elt F)) (Z (Proc.devRef .tc main_cst_11) : (⟨S_, .f32⟩ : BufTy).Contents (Elt F)) : (⟨S100000x128, .f32⟩ : BufTy).Contents (Elt F))) (fun Z => rfl) V

theorem eq_main_v87 (V : Valuation τ sig (Elt F)) :
    A V main_v87 = ((broadcastInDim S600000x1 ![0] bcast_S600000_S600000x1_0 : (⟨S600000, .i32⟩ : BufTy).Contents (Elt F) → (⟨S600000x1, .i32⟩ : BufTy).Contents (Elt F)) (A V main_v3 : (⟨S600000, .i32⟩ : BufTy).Contents (Elt F)) : (⟨S600000x1, .i32⟩ : BufTy).Contents (Elt F)) :=
  pc1.unary (k := 64) (y := main_v87) rfl (by decide)
    (fun Z => ((broadcastInDim S600000x1 ![0] bcast_S600000_S600000x1_0 : (⟨S600000, .i32⟩ : BufTy).Contents (Elt F) → (⟨S600000x1, .i32⟩ : BufTy).Contents (Elt F)) (Z (Proc.devRef .tc main_v3) : (⟨S600000, .i32⟩ : BufTy).Contents (Elt F)) : (⟨S600000x1, .i32⟩ : BufTy).Contents (Elt F))) (fun Z => rfl) V

theorem eq_main_v88 (V : Valuation τ sig (Elt F)) :
    A V main_v88 = (Host.scatterAdd scatter_S100000x128_S600000x1_S600000x128_1_0_0_1 (A V main_v86 : (⟨S100000x128, .f32⟩ : BufTy).Contents (Elt F)) (A V main_v87 : (⟨S600000x1, .i32⟩ : BufTy).Contents (Elt F)) (A V main_v85 : (⟨S600000x128, .f32⟩ : BufTy).Contents (Elt F)) : (⟨S100000x128, .f32⟩ : BufTy).Contents (Elt F)) :=
  pc1.ternary (k := 65) (y := main_v88) rfl (by decide) (by decide) (by decide)
    (fun Z => (Host.scatterAdd scatter_S100000x128_S600000x1_S600000x128_1_0_0_1 (Z (Proc.devRef .tc main_v86) : (⟨S100000x128, .f32⟩ : BufTy).Contents (Elt F)) (Z (Proc.devRef .tc main_v87) : (⟨S600000x1, .i32⟩ : BufTy).Contents (Elt F)) (Z (Proc.devRef .tc main_v85) : (⟨S600000x128, .f32⟩ : BufTy).Contents (Elt F)) : (⟨S100000x128, .f32⟩ : BufTy).Contents (Elt F))) (fun Z => rfl) V

theorem eq_main_v89 (V : Valuation τ sig (Elt F)) :
    A V main_v89 = ((addf : (⟨S100000x128, .f32⟩ : BufTy).Contents (Elt F) → (⟨S100000x128, .f32⟩ : BufTy).Contents (Elt F) → (⟨S100000x128, .f32⟩ : BufTy).Contents (Elt F)) (A V main_v78 : (⟨S100000x128, .f32⟩ : BufTy).Contents (Elt F)) (A V main_v88 : (⟨S100000x128, .f32⟩ : BufTy).Contents (Elt F)) : (⟨S100000x128, .f32⟩ : BufTy).Contents (Elt F)) :=
  pc1.binary (k := 66) (y := main_v89) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v78) : (⟨S100000x128, .f32⟩ : BufTy).Contents (Elt F)) (Z (Proc.devRef .tc main_v88) : (⟨S100000x128, .f32⟩ : BufTy).Contents (Elt F)) : (⟨S100000x128, .f32⟩ : BufTy).Contents (Elt F))) (fun Z => rfl) V

theorem eq_main_v90 (V : Valuation τ sig (Elt F)) :
    A V main_v90 = (((extractStridedSlice S1x128x128 ![1, 0, 0] · slices_S4x128x128_S1x128x128_1_0_0) : (⟨S4x128x128, .f32⟩ : BufTy).Contents (Elt F) → (⟨S1x128x128, .f32⟩ : BufTy).Contents (Elt F)) (A V main_arg3 : (⟨S4x128x128, .f32⟩ : BufTy).Contents (Elt F)) : (⟨S1x128x128, .f32⟩ : BufTy).Contents (Elt F)) :=
  pc1.unary (k := 67) (y := main_v90) rfl (by decide)
    (fun Z => (((extractStridedSlice S1x128x128 ![1, 0, 0] · slices_S4x128x128_S1x128x128_1_0_0) : (⟨S4x128x128, .f32⟩ : BufTy).Contents (Elt F) → (⟨S1x128x128, .f32⟩ : BufTy).Contents (Elt F)) (Z (Proc.devRef .tc main_arg3) : (⟨S4x128x128, .f32⟩ : BufTy).Contents (Elt F)) : (⟨S1x128x128, .f32⟩ : BufTy).Contents (Elt F))) (fun Z => rfl) V

theorem eq_main_v91 (V : Valuation τ sig (Elt F)) :
    A V main_v91 = (shapeCast S128x128 (A V main_v90 : (⟨S1x128x128, .f32⟩ : BufTy).Contents (Elt F)) shapeCasts_S1x128x128_S128x128 : (⟨S128x128, .f32⟩ : BufTy).Contents (Elt F)) :=
  pc1.reshape (k := 68) (y := main_v91) rfl (by decide)
    (fun Z => (shapeCast S128x128 (Z (Proc.devRef .tc main_v90) : (⟨S1x128x128, .f32⟩ : BufTy).Contents (Elt F)) shapeCasts_S1x128x128_S128x128 : (⟨S128x128, .f32⟩ : BufTy).Contents (Elt F))) (fun Z => rfl) V

theorem eq_main_v92 (V : Valuation τ sig (Elt F)) :
    A V main_v92 = (Host.dotGeneral dot_S100000x128_S128x128_S100000x128_1_0_0_1_n_n none (A V main_v89 : (⟨S100000x128, .f32⟩ : BufTy).Contents (Elt F)) (A V main_v91 : (⟨S128x128, .f32⟩ : BufTy).Contents (Elt F)) : (⟨S100000x128, .f32⟩ : BufTy).Contents (Elt F)) :=
  pc1.binary (k := 69) (y := main_v92) rfl (by decide) (by decide)
    (fun Z => (Host.dotGeneral dot_S100000x128_S128x128_S100000x128_1_0_0_1_n_n none (Z (Proc.devRef .tc main_v89) : (⟨S100000x128, .f32⟩ : BufTy).Contents (Elt F)) (Z (Proc.devRef .tc main_v91) : (⟨S128x128, .f32⟩ : BufTy).Contents (Elt F)) : (⟨S100000x128, .f32⟩ : BufTy).Contents (Elt F))) (fun Z => rfl) V

theorem eq_main_v93 (V : Valuation τ sig (Elt F)) :
    A V main_v93 = (((extractStridedSlice S1x128 ![1, 0] · slices_S4x128_S1x128_1_0) : (⟨S4x128, .f32⟩ : BufTy).Contents (Elt F) → (⟨S1x128, .f32⟩ : BufTy).Contents (Elt F)) (A V main_arg4 : (⟨S4x128, .f32⟩ : BufTy).Contents (Elt F)) : (⟨S1x128, .f32⟩ : BufTy).Contents (Elt F)) :=
  pc1.unary (k := 70) (y := main_v93) rfl (by decide)
    (fun Z => (((extractStridedSlice S1x128 ![1, 0] · slices_S4x128_S1x128_1_0) : (⟨S4x128, .f32⟩ : BufTy).Contents (Elt F) → (⟨S1x128, .f32⟩ : BufTy).Contents (Elt F)) (Z (Proc.devRef .tc main_arg4) : (⟨S4x128, .f32⟩ : BufTy).Contents (Elt F)) : (⟨S1x128, .f32⟩ : BufTy).Contents (Elt F))) (fun Z => rfl) V

theorem eq_main_v94 (V : Valuation τ sig (Elt F)) :
    A V main_v94 = (shapeCast S128 (A V main_v93 : (⟨S1x128, .f32⟩ : BufTy).Contents (Elt F)) shapeCasts_S1x128_S128 : (⟨S128, .f32⟩ : BufTy).Contents (Elt F)) :=
  pc1.reshape (k := 71) (y := main_v94) rfl (by decide)
    (fun Z => (shapeCast S128 (Z (Proc.devRef .tc main_v93) : (⟨S1x128, .f32⟩ : BufTy).Contents (Elt F)) shapeCasts_S1x128_S128 : (⟨S128, .f32⟩ : BufTy).Contents (Elt F))) (fun Z => rfl) V

theorem eq_main_v95 (V : Valuation τ sig (Elt F)) :
    A V main_v95 = ((broadcastInDim S1x128 ![1] bcast_S128_S1x128_1 : (⟨S128, .f32⟩ : BufTy).Contents (Elt F) → (⟨S1x128, .f32⟩ : BufTy).Contents (Elt F)) (A V main_v94 : (⟨S128, .f32⟩ : BufTy).Contents (Elt F)) : (⟨S1x128, .f32⟩ : BufTy).Contents (Elt F)) :=
  pc1.unary (k := 72) (y := main_v95) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v94) : (⟨S128, .f32⟩ : BufTy).Contents (Elt F)) : (⟨S1x128, .f32⟩ : BufTy).Contents (Elt F))) (fun Z => rfl) V

theorem eq_main_v96 (V : Valuation τ sig (Elt F)) :
    A V main_v96 = ((broadcastInDim S100000x128 ![0, 1] bcast_S1x128_S100000x128_0_1 : (⟨S1x128, .f32⟩ : BufTy).Contents (Elt F) → (⟨S100000x128, .f32⟩ : BufTy).Contents (Elt F)) (A V main_v95 : (⟨S1x128, .f32⟩ : BufTy).Contents (Elt F)) : (⟨S100000x128, .f32⟩ : BufTy).Contents (Elt F)) :=
  pc1.unary (k := 73) (y := main_v96) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v95) : (⟨S1x128, .f32⟩ : BufTy).Contents (Elt F)) : (⟨S100000x128, .f32⟩ : BufTy).Contents (Elt F))) (fun Z => rfl) V

theorem eq_main_v97 (V : Valuation τ sig (Elt F)) :
    A V main_v97 = ((addf : (⟨S100000x128, .f32⟩ : BufTy).Contents (Elt F) → (⟨S100000x128, .f32⟩ : BufTy).Contents (Elt F) → (⟨S100000x128, .f32⟩ : BufTy).Contents (Elt F)) (A V main_v92 : (⟨S100000x128, .f32⟩ : BufTy).Contents (Elt F)) (A V main_v96 : (⟨S100000x128, .f32⟩ : BufTy).Contents (Elt F)) : (⟨S100000x128, .f32⟩ : BufTy).Contents (Elt F)) :=
  pc1.binary (k := 74) (y := main_v97) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v92) : (⟨S100000x128, .f32⟩ : BufTy).Contents (Elt F)) (Z (Proc.devRef .tc main_v96) : (⟨S100000x128, .f32⟩ : BufTy).Contents (Elt F)) : (⟨S100000x128, .f32⟩ : BufTy).Contents (Elt F))) (fun Z => rfl) V

theorem eq_main_v98 (V : Valuation τ sig (Elt F)) :
    A V main_v98 = (((extractStridedSlice S1x128 ![1, 0] · slices_S4x128_S1x128_1_0) : (⟨S4x128, .f32⟩ : BufTy).Contents (Elt F) → (⟨S1x128, .f32⟩ : BufTy).Contents (Elt F)) (A V main_arg5 : (⟨S4x128, .f32⟩ : BufTy).Contents (Elt F)) : (⟨S1x128, .f32⟩ : BufTy).Contents (Elt F)) :=
  pc1.unary (k := 75) (y := main_v98) rfl (by decide)
    (fun Z => (((extractStridedSlice S1x128 ![1, 0] · slices_S4x128_S1x128_1_0) : (⟨S4x128, .f32⟩ : BufTy).Contents (Elt F) → (⟨S1x128, .f32⟩ : BufTy).Contents (Elt F)) (Z (Proc.devRef .tc main_arg5) : (⟨S4x128, .f32⟩ : BufTy).Contents (Elt F)) : (⟨S1x128, .f32⟩ : BufTy).Contents (Elt F))) (fun Z => rfl) V

theorem eq_main_v99 (V : Valuation τ sig (Elt F)) :
    A V main_v99 = (shapeCast S128 (A V main_v98 : (⟨S1x128, .f32⟩ : BufTy).Contents (Elt F)) shapeCasts_S1x128_S128 : (⟨S128, .f32⟩ : BufTy).Contents (Elt F)) :=
  pc1.reshape (k := 76) (y := main_v99) rfl (by decide)
    (fun Z => (shapeCast S128 (Z (Proc.devRef .tc main_v98) : (⟨S1x128, .f32⟩ : BufTy).Contents (Elt F)) shapeCasts_S1x128_S128 : (⟨S128, .f32⟩ : BufTy).Contents (Elt F))) (fun Z => rfl) V

theorem eq_main_v100 (V : Valuation τ sig (Elt F)) :
    A V main_v100 = (((extractStridedSlice S1x128 ![1, 0] · slices_S4x128_S1x128_1_0) : (⟨S4x128, .f32⟩ : BufTy).Contents (Elt F) → (⟨S1x128, .f32⟩ : BufTy).Contents (Elt F)) (A V main_arg6 : (⟨S4x128, .f32⟩ : BufTy).Contents (Elt F)) : (⟨S1x128, .f32⟩ : BufTy).Contents (Elt F)) :=
  pc1.unary (k := 77) (y := main_v100) rfl (by decide)
    (fun Z => (((extractStridedSlice S1x128 ![1, 0] · slices_S4x128_S1x128_1_0) : (⟨S4x128, .f32⟩ : BufTy).Contents (Elt F) → (⟨S1x128, .f32⟩ : BufTy).Contents (Elt F)) (Z (Proc.devRef .tc main_arg6) : (⟨S4x128, .f32⟩ : BufTy).Contents (Elt F)) : (⟨S1x128, .f32⟩ : BufTy).Contents (Elt F))) (fun Z => rfl) V

theorem eq_main_v101 (V : Valuation τ sig (Elt F)) :
    A V main_v101 = (shapeCast S128 (A V main_v100 : (⟨S1x128, .f32⟩ : BufTy).Contents (Elt F)) shapeCasts_S1x128_S128 : (⟨S128, .f32⟩ : BufTy).Contents (Elt F)) :=
  pc1.reshape (k := 78) (y := main_v101) rfl (by decide)
    (fun Z => (shapeCast S128 (Z (Proc.devRef .tc main_v100) : (⟨S1x128, .f32⟩ : BufTy).Contents (Elt F)) shapeCasts_S1x128_S128 : (⟨S128, .f32⟩ : BufTy).Contents (Elt F))) (fun Z => rfl) V

theorem eq_main_cst_12 (V : Valuation τ sig (Elt F)) :
    A V main_cst_12 = ((constant S_ .f32 0x00000000#32) : (⟨S_, .f32⟩ : BufTy).Contents (Elt F)) :=
  pc1.nullary (k := 79) (y := main_cst_12) rfl V

theorem eq_main_v102 (V : Valuation τ sig (Elt F)) :
    A V main_v102 = (Host.reduceAdd (A V main_v97 : (⟨S100000x128, .f32⟩ : BufTy).Contents (Elt F)) (A V main_cst_12 : (⟨S_, .f32⟩ : BufTy).Contents (Elt F)) reducesTo_S100000x128_S128_d0 h_S_ : (⟨S128, .f32⟩ : BufTy).Contents (Elt F)) :=
  pc1.binary (k := 80) (y := main_v102) rfl (by decide) (by decide)
    (fun Z => (Host.reduceAdd (Z (Proc.devRef .tc main_v97) : (⟨S100000x128, .f32⟩ : BufTy).Contents (Elt F)) (Z (Proc.devRef .tc main_cst_12) : (⟨S_, .f32⟩ : BufTy).Contents (Elt F)) reducesTo_S100000x128_S128_d0 h_S_ : (⟨S128, .f32⟩ : BufTy).Contents (Elt F))) (fun Z => rfl) V

theorem eq_main_cst_13 (V : Valuation τ sig (Elt F)) :
    A V main_cst_13 = ((constant S_ .f32 0x47C35000#32) : (⟨S_, .f32⟩ : BufTy).Contents (Elt F)) :=
  pc1.nullary (k := 81) (y := main_cst_13) rfl V

theorem eq_main_v103 (V : Valuation τ sig (Elt F)) :
    A V main_v103 = ((broadcastInDim S128 ![] bcast_S_S128 : (⟨S_, .f32⟩ : BufTy).Contents (Elt F) → (⟨S128, .f32⟩ : BufTy).Contents (Elt F)) (A V main_cst_13 : (⟨S_, .f32⟩ : BufTy).Contents (Elt F)) : (⟨S128, .f32⟩ : BufTy).Contents (Elt F)) :=
  pc1.unary (k := 82) (y := main_v103) rfl (by decide)
    (fun Z => ((broadcastInDim S128 ![] bcast_S_S128 : (⟨S_, .f32⟩ : BufTy).Contents (Elt F) → (⟨S128, .f32⟩ : BufTy).Contents (Elt F)) (Z (Proc.devRef .tc main_cst_13) : (⟨S_, .f32⟩ : BufTy).Contents (Elt F)) : (⟨S128, .f32⟩ : BufTy).Contents (Elt F))) (fun Z => rfl) V

theorem eq_main_v104 (V : Valuation τ sig (Elt F)) :
    A V main_v104 = ((Host.divf : (⟨S128, .f32⟩ : BufTy).Contents (Elt F) → (⟨S128, .f32⟩ : BufTy).Contents (Elt F) → (⟨S128, .f32⟩ : BufTy).Contents (Elt F)) (A V main_v102 : (⟨S128, .f32⟩ : BufTy).Contents (Elt F)) (A V main_v103 : (⟨S128, .f32⟩ : BufTy).Contents (Elt F)) : (⟨S128, .f32⟩ : BufTy).Contents (Elt F)) :=
  pc2.binary (k := 0) (y := main_v104) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_v102) : (⟨S128, .f32⟩ : BufTy).Contents (Elt F)) (Z (Proc.devRef .tc main_v103) : (⟨S128, .f32⟩ : BufTy).Contents (Elt F)) : (⟨S128, .f32⟩ : BufTy).Contents (Elt F))) (fun Z => rfl) V

theorem eq_main_c_14 (V : Valuation τ sig (Elt F)) :
    A V main_c_14 = ((constantI S_ 32 0#32) : (⟨S_, .i32⟩ : BufTy).Contents (Elt F)) :=
  pc2.nullary (k := 1) (y := main_c_14) rfl V

theorem eq_main_call4_cst (V : Valuation τ sig (Elt F)) :
    A V main_call4_cst = ((constant S_ .f32 0x00000000#32) : (⟨S_, .f32⟩ : BufTy).Contents (Elt F)) :=
  pc2.nullary (k := 2) (y := main_call4_cst) rfl V

theorem eq_main_call4_v0 (V : Valuation τ sig (Elt F)) :
    A V main_call4_v0 = (Host.reduceAdd (A V main_v97 : (⟨S100000x128, .f32⟩ : BufTy).Contents (Elt F)) (A V main_call4_cst : (⟨S_, .f32⟩ : BufTy).Contents (Elt F)) reducesTo_S100000x128_S128_d0 h_S_ : (⟨S128, .f32⟩ : BufTy).Contents (Elt F)) :=
  pc2.binary (k := 3) (y := main_call4_v0) rfl (by decide) (by decide)
    (fun Z => (Host.reduceAdd (Z (Proc.devRef .tc main_v97) : (⟨S100000x128, .f32⟩ : BufTy).Contents (Elt F)) (Z (Proc.devRef .tc main_call4_cst) : (⟨S_, .f32⟩ : BufTy).Contents (Elt F)) reducesTo_S100000x128_S128_d0 h_S_ : (⟨S128, .f32⟩ : BufTy).Contents (Elt F))) (fun Z => rfl) V

theorem eq_main_call4_v1 (V : Valuation τ sig (Elt F)) :
    A V main_call4_v1 = (((broadcastInDim S1x128 ![1] bcast_S128_S1x128_1) : (⟨S128, .f32⟩ : BufTy).Contents (Elt F) → (⟨S1x128, .f32⟩ : BufTy).Contents (Elt F)) (A V main_call4_v0 : (⟨S128, .f32⟩ : BufTy).Contents (Elt F)) : (⟨S1x128, .f32⟩ : BufTy).Contents (Elt F)) :=
  pc2.unary (k := 4) (y := main_call4_v1) rfl (by decide)
    (fun Z => (((broadcastInDim S1x128 ![1] bcast_S128_S1x128_1) : (⟨S128, .f32⟩ : BufTy).Contents (Elt F) → (⟨S1x128, .f32⟩ : BufTy).Contents (Elt F)) (Z (Proc.devRef .tc main_call4_v0) : (⟨S128, .f32⟩ : BufTy).Contents (Elt F)) : (⟨S1x128, .f32⟩ : BufTy).Contents (Elt F))) (fun Z => rfl) V

theorem eq_main_call4_cst_0 (V : Valuation τ sig (Elt F)) :
    A V main_call4_cst_0 = ((constant S_ .f32 0x47C35000#32) : (⟨S_, .f32⟩ : BufTy).Contents (Elt F)) :=
  pc2.nullary (k := 5) (y := main_call4_cst_0) rfl V

theorem eq_main_call4_v2 (V : Valuation τ sig (Elt F)) :
    A V main_call4_v2 = (((broadcastInDim S1x128 ![] bcast_S_S1x128) : (⟨S_, .f32⟩ : BufTy).Contents (Elt F) → (⟨S1x128, .f32⟩ : BufTy).Contents (Elt F)) (A V main_call4_cst_0 : (⟨S_, .f32⟩ : BufTy).Contents (Elt F)) : (⟨S1x128, .f32⟩ : BufTy).Contents (Elt F)) :=
  pc2.unary (k := 6) (y := main_call4_v2) rfl (by decide)
    (fun Z => (((broadcastInDim S1x128 ![] bcast_S_S1x128) : (⟨S_, .f32⟩ : BufTy).Contents (Elt F) → (⟨S1x128, .f32⟩ : BufTy).Contents (Elt F)) (Z (Proc.devRef .tc main_call4_cst_0) : (⟨S_, .f32⟩ : BufTy).Contents (Elt F)) : (⟨S1x128, .f32⟩ : BufTy).Contents (Elt F))) (fun Z => rfl) V

theorem eq_main_call4_v3 (V : Valuation τ sig (Elt F)) :
    A V main_call4_v3 = ((Host.divf : (⟨S1x128, .f32⟩ : BufTy).Contents (Elt F) → (⟨S1x128, .f32⟩ : BufTy).Contents (Elt F) → (⟨S1x128, .f32⟩ : BufTy).Contents (Elt F)) (A V main_call4_v1 : (⟨S1x128, .f32⟩ : BufTy).Contents (Elt F)) (A V main_call4_v2 : (⟨S1x128, .f32⟩ : BufTy).Contents (Elt F)) : (⟨S1x128, .f32⟩ : BufTy).Contents (Elt F)) :=
  pc2.binary (k := 7) (y := main_call4_v3) rfl (by decide) (by decide)
    (fun Z => ((Host.divf : (⟨S1x128, .f32⟩ : BufTy).Contents (Elt F) → (⟨S1x128, .f32⟩ : BufTy).Contents (Elt F) → (⟨S1x128, .f32⟩ : BufTy).Contents (Elt F)) (Z (Proc.devRef .tc main_call4_v1) : (⟨S1x128, .f32⟩ : BufTy).Contents (Elt F)) (Z (Proc.devRef .tc main_call4_v2) : (⟨S1x128, .f32⟩ : BufTy).Contents (Elt F)) : (⟨S1x128, .f32⟩ : BufTy).Contents (Elt F))) (fun Z => rfl) V

theorem eq_main_call4_v4 (V : Valuation τ sig (Elt F)) :
    A V main_call4_v4 = (((broadcastInDim S100000x128 ![0, 1] bcast_S1x128_S100000x128_0_1) : (⟨S1x128, .f32⟩ : BufTy).Contents (Elt F) → (⟨S100000x128, .f32⟩ : BufTy).Contents (Elt F)) (A V main_call4_v3 : (⟨S1x128, .f32⟩ : BufTy).Contents (Elt F)) : (⟨S100000x128, .f32⟩ : BufTy).Contents (Elt F)) :=
  pc2.unary (k := 8) (y := main_call4_v4) rfl (by decide)
    (fun Z => (((broadcastInDim S100000x128 ![0, 1] bcast_S1x128_S100000x128_0_1) : (⟨S1x128, .f32⟩ : BufTy).Contents (Elt F) → (⟨S100000x128, .f32⟩ : BufTy).Contents (Elt F)) (Z (Proc.devRef .tc main_call4_v3) : (⟨S1x128, .f32⟩ : BufTy).Contents (Elt F)) : (⟨S100000x128, .f32⟩ : BufTy).Contents (Elt F))) (fun Z => rfl) V

theorem eq_main_call4_v5 (V : Valuation τ sig (Elt F)) :
    A V main_call4_v5 = ((subf : (⟨S100000x128, .f32⟩ : BufTy).Contents (Elt F) → (⟨S100000x128, .f32⟩ : BufTy).Contents (Elt F) → (⟨S100000x128, .f32⟩ : BufTy).Contents (Elt F)) (A V main_v97 : (⟨S100000x128, .f32⟩ : BufTy).Contents (Elt F)) (A V main_call4_v4 : (⟨S100000x128, .f32⟩ : BufTy).Contents (Elt F)) : (⟨S100000x128, .f32⟩ : BufTy).Contents (Elt F)) :=
  pc2.binary (k := 9) (y := main_call4_v5) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v97) : (⟨S100000x128, .f32⟩ : BufTy).Contents (Elt F)) (Z (Proc.devRef .tc main_call4_v4) : (⟨S100000x128, .f32⟩ : BufTy).Contents (Elt F)) : (⟨S100000x128, .f32⟩ : BufTy).Contents (Elt F))) (fun Z => rfl) V

theorem eq_main_call4_v6 (V : Valuation τ sig (Elt F)) :
    A V main_call4_v6 = ((mulf : (⟨S100000x128, .f32⟩ : BufTy).Contents (Elt F) → (⟨S100000x128, .f32⟩ : BufTy).Contents (Elt F) → (⟨S100000x128, .f32⟩ : BufTy).Contents (Elt F)) (A V main_call4_v5 : (⟨S100000x128, .f32⟩ : BufTy).Contents (Elt F)) (A V main_call4_v5 : (⟨S100000x128, .f32⟩ : BufTy).Contents (Elt F)) : (⟨S100000x128, .f32⟩ : BufTy).Contents (Elt F)) :=
  pc2.binary (k := 10) (y := main_call4_v6) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_call4_v5) : (⟨S100000x128, .f32⟩ : BufTy).Contents (Elt F)) (Z (Proc.devRef .tc main_call4_v5) : (⟨S100000x128, .f32⟩ : BufTy).Contents (Elt F)) : (⟨S100000x128, .f32⟩ : BufTy).Contents (Elt F))) (fun Z => rfl) V

theorem eq_main_call4_v7 (V : Valuation τ sig (Elt F)) :
    A V main_call4_v7 = (((sitofp .f32) : (⟨S_, .i32⟩ : BufTy).Contents (Elt F) → (⟨S_, .f32⟩ : BufTy).Contents (Elt F)) (A V main_c_14 : (⟨S_, .i32⟩ : BufTy).Contents (Elt F)) : (⟨S_, .f32⟩ : BufTy).Contents (Elt F)) :=
  pc2.unary (k := 11) (y := main_call4_v7) rfl (by decide)
    (fun Z => (((sitofp .f32) : (⟨S_, .i32⟩ : BufTy).Contents (Elt F) → (⟨S_, .f32⟩ : BufTy).Contents (Elt F)) (Z (Proc.devRef .tc main_c_14) : (⟨S_, .i32⟩ : BufTy).Contents (Elt F)) : (⟨S_, .f32⟩ : BufTy).Contents (Elt F))) (fun Z => rfl) V

theorem eq_main_call4_cst_1 (V : Valuation τ sig (Elt F)) :
    A V main_call4_cst_1 = ((constant S_ .f32 0x47C35000#32) : (⟨S_, .f32⟩ : BufTy).Contents (Elt F)) :=
  pc2.nullary (k := 12) (y := main_call4_cst_1) rfl V

theorem eq_main_call4_v8 (V : Valuation τ sig (Elt F)) :
    A V main_call4_v8 = ((subf : (⟨S_, .f32⟩ : BufTy).Contents (Elt F) → (⟨S_, .f32⟩ : BufTy).Contents (Elt F) → (⟨S_, .f32⟩ : BufTy).Contents (Elt F)) (A V main_call4_cst_1 : (⟨S_, .f32⟩ : BufTy).Contents (Elt F)) (A V main_call4_v7 : (⟨S_, .f32⟩ : BufTy).Contents (Elt F)) : (⟨S_, .f32⟩ : BufTy).Contents (Elt F)) :=
  pc2.binary (k := 13) (y := main_call4_v8) rfl (by decide) (by decide)
    (fun Z => ((subf : (⟨S_, .f32⟩ : BufTy).Contents (Elt F) → (⟨S_, .f32⟩ : BufTy).Contents (Elt F) → (⟨S_, .f32⟩ : BufTy).Contents (Elt F)) (Z (Proc.devRef .tc main_call4_cst_1) : (⟨S_, .f32⟩ : BufTy).Contents (Elt F)) (Z (Proc.devRef .tc main_call4_v7) : (⟨S_, .f32⟩ : BufTy).Contents (Elt F)) : (⟨S_, .f32⟩ : BufTy).Contents (Elt F))) (fun Z => rfl) V

theorem eq_main_call4_cst_2 (V : Valuation τ sig (Elt F)) :
    A V main_call4_cst_2 = ((constant S_ .f32 0x00000000#32) : (⟨S_, .f32⟩ : BufTy).Contents (Elt F)) :=
  pc2.nullary (k := 14) (y := main_call4_cst_2) rfl V

theorem eq_main_call4_v9 (V : Valuation τ sig (Elt F)) :
    A V main_call4_v9 = (Host.reduceAdd (A V main_call4_v6 : (⟨S100000x128, .f32⟩ : BufTy).Contents (Elt F)) (A V main_call4_cst_2 : (⟨S_, .f32⟩ : BufTy).Contents (Elt F)) reducesTo_S100000x128_S128_d0 h_S_ : (⟨S128, .f32⟩ : BufTy).Contents (Elt F)) :=
  pc2.binary (k := 15) (y := main_call4_v9) rfl (by decide) (by decide)
    (fun Z => (Host.reduceAdd (Z (Proc.devRef .tc main_call4_v6) : (⟨S100000x128, .f32⟩ : BufTy).Contents (Elt F)) (Z (Proc.devRef .tc main_call4_cst_2) : (⟨S_, .f32⟩ : BufTy).Contents (Elt F)) reducesTo_S100000x128_S128_d0 h_S_ : (⟨S128, .f32⟩ : BufTy).Contents (Elt F))) (fun Z => rfl) V

theorem eq_main_call4_v10 (V : Valuation τ sig (Elt F)) :
    A V main_call4_v10 = (((broadcastInDim S128 ![] bcast_S_S128) : (⟨S_, .f32⟩ : BufTy).Contents (Elt F) → (⟨S128, .f32⟩ : BufTy).Contents (Elt F)) (A V main_call4_v8 : (⟨S_, .f32⟩ : BufTy).Contents (Elt F)) : (⟨S128, .f32⟩ : BufTy).Contents (Elt F)) :=
  pc2.unary (k := 16) (y := main_call4_v10) rfl (by decide)
    (fun Z => (((broadcastInDim S128 ![] bcast_S_S128) : (⟨S_, .f32⟩ : BufTy).Contents (Elt F) → (⟨S128, .f32⟩ : BufTy).Contents (Elt F)) (Z (Proc.devRef .tc main_call4_v8) : (⟨S_, .f32⟩ : BufTy).Contents (Elt F)) : (⟨S128, .f32⟩ : BufTy).Contents (Elt F))) (fun Z => rfl) V

theorem eq_main_call4_v11 (V : Valuation τ sig (Elt F)) :
    A V main_call4_v11 = ((Host.divf : (⟨S128, .f32⟩ : BufTy).Contents (Elt F) → (⟨S128, .f32⟩ : BufTy).Contents (Elt F) → (⟨S128, .f32⟩ : BufTy).Contents (Elt F)) (A V main_call4_v9 : (⟨S128, .f32⟩ : BufTy).Contents (Elt F)) (A V main_call4_v10 : (⟨S128, .f32⟩ : BufTy).Contents (Elt F)) : (⟨S128, .f32⟩ : BufTy).Contents (Elt F)) :=
  pc2.binary (k := 17) (y := main_call4_v11) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_call4_v9) : (⟨S128, .f32⟩ : BufTy).Contents (Elt F)) (Z (Proc.devRef .tc main_call4_v10) : (⟨S128, .f32⟩ : BufTy).Contents (Elt F)) : (⟨S128, .f32⟩ : BufTy).Contents (Elt F))) (fun Z => rfl) V

theorem eq_main_call4_cst_3 (V : Valuation τ sig (Elt F)) :
    A V main_call4_cst_3 = ((constant S_ .f32 0x00000000#32) : (⟨S_, .f32⟩ : BufTy).Contents (Elt F)) :=
  pc2.nullary (k := 18) (y := main_call4_cst_3) rfl V

theorem eq_main_call4_v12 (V : Valuation τ sig (Elt F)) :
    A V main_call4_v12 = (((cmpf .ogt) : (⟨S_, .f32⟩ : BufTy).Contents (Elt F) → (⟨S_, .f32⟩ : BufTy).Contents (Elt F) → (⟨S_, .i1⟩ : BufTy).Contents (Elt F)) (A V main_call4_v8 : (⟨S_, .f32⟩ : BufTy).Contents (Elt F)) (A V main_call4_cst_3 : (⟨S_, .f32⟩ : BufTy).Contents (Elt F)) : (⟨S_, .i1⟩ : BufTy).Contents (Elt F)) :=
  pc2.binary (k := 19) (y := main_call4_v12) rfl (by decide) (by decide)
    (fun Z => (((cmpf .ogt) : (⟨S_, .f32⟩ : BufTy).Contents (Elt F) → (⟨S_, .f32⟩ : BufTy).Contents (Elt F) → (⟨S_, .i1⟩ : BufTy).Contents (Elt F)) (Z (Proc.devRef .tc main_call4_v8) : (⟨S_, .f32⟩ : BufTy).Contents (Elt F)) (Z (Proc.devRef .tc main_call4_cst_3) : (⟨S_, .f32⟩ : BufTy).Contents (Elt F)) : (⟨S_, .i1⟩ : BufTy).Contents (Elt F))) (fun Z => rfl) V

theorem eq_main_call4_cst_4 (V : Valuation τ sig (Elt F)) :
    A V main_call4_cst_4 = ((constant S_ .f32 0x7FC00000#32) : (⟨S_, .f32⟩ : BufTy).Contents (Elt F)) :=
  pc2.nullary (k := 20) (y := main_call4_cst_4) rfl V

theorem eq_main_call4_call0_v0 (V : Valuation τ sig (Elt F)) :
    A V main_call4_call0_v0 = ((id : (⟨S_, .f32⟩ : BufTy).Contents (Elt F) → (⟨S_, .f32⟩ : BufTy).Contents (Elt F)) (A V main_call4_cst_4 : (⟨S_, .f32⟩ : BufTy).Contents (Elt F)) : (⟨S_, .f32⟩ : BufTy).Contents (Elt F)) :=
  pc2.unary (k := 21) (y := main_call4_call0_v0) rfl (by decide)
    (fun Z => ((id : (⟨S_, .f32⟩ : BufTy).Contents (Elt F) → (⟨S_, .f32⟩ : BufTy).Contents (Elt F)) (Z (Proc.devRef .tc main_call4_cst_4) : (⟨S_, .f32⟩ : BufTy).Contents (Elt F)) : (⟨S_, .f32⟩ : BufTy).Contents (Elt F))) (fun Z => rfl) V

theorem eq_main_call4_call0_v1 (V : Valuation τ sig (Elt F)) :
    A V main_call4_call0_v1 = (((broadcastInDim S128 ![] bcast_S_S128) : (⟨S_, .f32⟩ : BufTy).Contents (Elt F) → (⟨S128, .f32⟩ : BufTy).Contents (Elt F)) (A V main_call4_call0_v0 : (⟨S_, .f32⟩ : BufTy).Contents (Elt F)) : (⟨S128, .f32⟩ : BufTy).Contents (Elt F)) :=
  pc2.unary (k := 22) (y := main_call4_call0_v1) rfl (by decide)
    (fun Z => (((broadcastInDim S128 ![] bcast_S_S128) : (⟨S_, .f32⟩ : BufTy).Contents (Elt F) → (⟨S128, .f32⟩ : BufTy).Contents (Elt F)) (Z (Proc.devRef .tc main_call4_call0_v0) : (⟨S_, .f32⟩ : BufTy).Contents (Elt F)) : (⟨S128, .f32⟩ : BufTy).Contents (Elt F))) (fun Z => rfl) V

theorem eq_main_v105 (V : Valuation τ sig (Elt F)) :
    A V main_v105 = (select ((broadcastInDim S128 ![] bcast_S_S128 : (⟨S_, .i1⟩ : BufTy).Contents (Elt F) → (⟨S128, .i1⟩ : BufTy).Contents (Elt F)) (A V main_call4_v12 : (⟨S_, .i1⟩ : BufTy).Contents (Elt F))) (A V main_call4_v11 : (⟨S128, .f32⟩ : BufTy).Contents (Elt F)) (A V main_call4_call0_v1 : (⟨S128, .f32⟩ : BufTy).Contents (Elt F)) : (⟨S128, .f32⟩ : BufTy).Contents (Elt F)) :=
  pc2.ternary (k := 23) (y := main_v105) rfl (by decide) (by decide) (by decide)
    (fun Z => (select ((broadcastInDim S128 ![] bcast_S_S128 : (⟨S_, .i1⟩ : BufTy).Contents (Elt F) → (⟨S128, .i1⟩ : BufTy).Contents (Elt F)) (Z (Proc.devRef .tc main_call4_v12) : (⟨S_, .i1⟩ : BufTy).Contents (Elt F))) (Z (Proc.devRef .tc main_call4_v11) : (⟨S128, .f32⟩ : BufTy).Contents (Elt F)) (Z (Proc.devRef .tc main_call4_call0_v1) : (⟨S128, .f32⟩ : BufTy).Contents (Elt F)) : (⟨S128, .f32⟩ : BufTy).Contents (Elt F))) (fun Z => rfl) V

theorem eq_main_v106 (V : Valuation τ sig (Elt F)) :
    A V main_v106 = ((broadcastInDim S1x128 ![1] bcast_S128_S1x128_1 : (⟨S128, .f32⟩ : BufTy).Contents (Elt F) → (⟨S1x128, .f32⟩ : BufTy).Contents (Elt F)) (A V main_v104 : (⟨S128, .f32⟩ : BufTy).Contents (Elt F)) : (⟨S1x128, .f32⟩ : BufTy).Contents (Elt F)) :=
  pc2.unary (k := 24) (y := main_v106) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v104) : (⟨S128, .f32⟩ : BufTy).Contents (Elt F)) : (⟨S1x128, .f32⟩ : BufTy).Contents (Elt F))) (fun Z => rfl) V

theorem eq_main_v107 (V : Valuation τ sig (Elt F)) :
    A V main_v107 = ((broadcastInDim S100000x128 ![0, 1] bcast_S1x128_S100000x128_0_1 : (⟨S1x128, .f32⟩ : BufTy).Contents (Elt F) → (⟨S100000x128, .f32⟩ : BufTy).Contents (Elt F)) (A V main_v106 : (⟨S1x128, .f32⟩ : BufTy).Contents (Elt F)) : (⟨S100000x128, .f32⟩ : BufTy).Contents (Elt F)) :=
  pc2.unary (k := 25) (y := main_v107) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v106) : (⟨S1x128, .f32⟩ : BufTy).Contents (Elt F)) : (⟨S100000x128, .f32⟩ : BufTy).Contents (Elt F))) (fun Z => rfl) V

theorem eq_main_v108 (V : Valuation τ sig (Elt F)) :
    A V main_v108 = ((subf : (⟨S100000x128, .f32⟩ : BufTy).Contents (Elt F) → (⟨S100000x128, .f32⟩ : BufTy).Contents (Elt F) → (⟨S100000x128, .f32⟩ : BufTy).Contents (Elt F)) (A V main_v97 : (⟨S100000x128, .f32⟩ : BufTy).Contents (Elt F)) (A V main_v107 : (⟨S100000x128, .f32⟩ : BufTy).Contents (Elt F)) : (⟨S100000x128, .f32⟩ : BufTy).Contents (Elt F)) :=
  pc2.binary (k := 26) (y := main_v108) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v97) : (⟨S100000x128, .f32⟩ : BufTy).Contents (Elt F)) (Z (Proc.devRef .tc main_v107) : (⟨S100000x128, .f32⟩ : BufTy).Contents (Elt F)) : (⟨S100000x128, .f32⟩ : BufTy).Contents (Elt F))) (fun Z => rfl) V

theorem eq_main_cst_15 (V : Valuation τ sig (Elt F)) :
    A V main_cst_15 = ((constant S_ .f32 0x3727C5AC#32) : (⟨S_, .f32⟩ : BufTy).Contents (Elt F)) :=
  pc2.nullary (k := 27) (y := main_cst_15) rfl V

theorem eq_main_v109 (V : Valuation τ sig (Elt F)) :
    A V main_v109 = ((broadcastInDim S128 ![] bcast_S_S128 : (⟨S_, .f32⟩ : BufTy).Contents (Elt F) → (⟨S128, .f32⟩ : BufTy).Contents (Elt F)) (A V main_cst_15 : (⟨S_, .f32⟩ : BufTy).Contents (Elt F)) : (⟨S128, .f32⟩ : BufTy).Contents (Elt F)) :=
  pc2.unary (k := 28) (y := main_v109) rfl (by decide)
    (fun Z => ((broadcastInDim S128 ![] bcast_S_S128 : (⟨S_, .f32⟩ : BufTy).Contents (Elt F) → (⟨S128, .f32⟩ : BufTy).Contents (Elt F)) (Z (Proc.devRef .tc main_cst_15) : (⟨S_, .f32⟩ : BufTy).Contents (Elt F)) : (⟨S128, .f32⟩ : BufTy).Contents (Elt F))) (fun Z => rfl) V

theorem eq_main_v110 (V : Valuation τ sig (Elt F)) :
    A V main_v110 = ((addf : (⟨S128, .f32⟩ : BufTy).Contents (Elt F) → (⟨S128, .f32⟩ : BufTy).Contents (Elt F) → (⟨S128, .f32⟩ : BufTy).Contents (Elt F)) (A V main_v105 : (⟨S128, .f32⟩ : BufTy).Contents (Elt F)) (A V main_v109 : (⟨S128, .f32⟩ : BufTy).Contents (Elt F)) : (⟨S128, .f32⟩ : BufTy).Contents (Elt F)) :=
  pc2.binary (k := 29) (y := main_v110) rfl (by decide) (by decide)
    (fun Z => ((addf : (⟨S128, .f32⟩ : BufTy).Contents (Elt F) → (⟨S128, .f32⟩ : BufTy).Contents (Elt F) → (⟨S128, .f32⟩ : BufTy).Contents (Elt F)) (Z (Proc.devRef .tc main_v105) : (⟨S128, .f32⟩ : BufTy).Contents (Elt F)) (Z (Proc.devRef .tc main_v109) : (⟨S128, .f32⟩ : BufTy).Contents (Elt F)) : (⟨S128, .f32⟩ : BufTy).Contents (Elt F))) (fun Z => rfl) V

theorem eq_main_v111 (V : Valuation τ sig (Elt F)) :
    A V main_v111 = ((Host.rsqrt : (⟨S128, .f32⟩ : BufTy).Contents (Elt F) → (⟨S128, .f32⟩ : BufTy).Contents (Elt F)) (A V main_v110 : (⟨S128, .f32⟩ : BufTy).Contents (Elt F)) : (⟨S128, .f32⟩ : BufTy).Contents (Elt F)) :=
  pc2.unary (k := 30) (y := main_v111) rfl (by decide)
    (fun Z => ((Host.rsqrt : (⟨S128, .f32⟩ : BufTy).Contents (Elt F) → (⟨S128, .f32⟩ : BufTy).Contents (Elt F)) (Z (Proc.devRef .tc main_v110) : (⟨S128, .f32⟩ : BufTy).Contents (Elt F)) : (⟨S128, .f32⟩ : BufTy).Contents (Elt F))) (fun Z => rfl) V

theorem eq_main_v112 (V : Valuation τ sig (Elt F)) :
    A V main_v112 = ((broadcastInDim S1x128 ![1] bcast_S128_S1x128_1 : (⟨S128, .f32⟩ : BufTy).Contents (Elt F) → (⟨S1x128, .f32⟩ : BufTy).Contents (Elt F)) (A V main_v111 : (⟨S128, .f32⟩ : BufTy).Contents (Elt F)) : (⟨S1x128, .f32⟩ : BufTy).Contents (Elt F)) :=
  pc2.unary (k := 31) (y := main_v112) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v111) : (⟨S128, .f32⟩ : BufTy).Contents (Elt F)) : (⟨S1x128, .f32⟩ : BufTy).Contents (Elt F))) (fun Z => rfl) V

theorem eq_main_v113 (V : Valuation τ sig (Elt F)) :
    A V main_v113 = ((broadcastInDim S100000x128 ![0, 1] bcast_S1x128_S100000x128_0_1 : (⟨S1x128, .f32⟩ : BufTy).Contents (Elt F) → (⟨S100000x128, .f32⟩ : BufTy).Contents (Elt F)) (A V main_v112 : (⟨S1x128, .f32⟩ : BufTy).Contents (Elt F)) : (⟨S100000x128, .f32⟩ : BufTy).Contents (Elt F)) :=
  pc2.unary (k := 32) (y := main_v113) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v112) : (⟨S1x128, .f32⟩ : BufTy).Contents (Elt F)) : (⟨S100000x128, .f32⟩ : BufTy).Contents (Elt F))) (fun Z => rfl) V

theorem eq_main_v114 (V : Valuation τ sig (Elt F)) :
    A V main_v114 = ((mulf : (⟨S100000x128, .f32⟩ : BufTy).Contents (Elt F) → (⟨S100000x128, .f32⟩ : BufTy).Contents (Elt F) → (⟨S100000x128, .f32⟩ : BufTy).Contents (Elt F)) (A V main_v108 : (⟨S100000x128, .f32⟩ : BufTy).Contents (Elt F)) (A V main_v113 : (⟨S100000x128, .f32⟩ : BufTy).Contents (Elt F)) : (⟨S100000x128, .f32⟩ : BufTy).Contents (Elt F)) :=
  pc2.binary (k := 33) (y := main_v114) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v108) : (⟨S100000x128, .f32⟩ : BufTy).Contents (Elt F)) (Z (Proc.devRef .tc main_v113) : (⟨S100000x128, .f32⟩ : BufTy).Contents (Elt F)) : (⟨S100000x128, .f32⟩ : BufTy).Contents (Elt F))) (fun Z => rfl) V

theorem eq_main_v115 (V : Valuation τ sig (Elt F)) :
    A V main_v115 = ((broadcastInDim S1x128 ![1] bcast_S128_S1x128_1 : (⟨S128, .f32⟩ : BufTy).Contents (Elt F) → (⟨S1x128, .f32⟩ : BufTy).Contents (Elt F)) (A V main_v99 : (⟨S128, .f32⟩ : BufTy).Contents (Elt F)) : (⟨S1x128, .f32⟩ : BufTy).Contents (Elt F)) :=
  pc2.unary (k := 34) (y := main_v115) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v99) : (⟨S128, .f32⟩ : BufTy).Contents (Elt F)) : (⟨S1x128, .f32⟩ : BufTy).Contents (Elt F))) (fun Z => rfl) V

theorem eq_main_v116 (V : Valuation τ sig (Elt F)) :
    A V main_v116 = ((broadcastInDim S100000x128 ![0, 1] bcast_S1x128_S100000x128_0_1 : (⟨S1x128, .f32⟩ : BufTy).Contents (Elt F) → (⟨S100000x128, .f32⟩ : BufTy).Contents (Elt F)) (A V main_v115 : (⟨S1x128, .f32⟩ : BufTy).Contents (Elt F)) : (⟨S100000x128, .f32⟩ : BufTy).Contents (Elt F)) :=
  pc2.unary (k := 35) (y := main_v116) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v115) : (⟨S1x128, .f32⟩ : BufTy).Contents (Elt F)) : (⟨S100000x128, .f32⟩ : BufTy).Contents (Elt F))) (fun Z => rfl) V

theorem eq_main_v117 (V : Valuation τ sig (Elt F)) :
    A V main_v117 = ((mulf : (⟨S100000x128, .f32⟩ : BufTy).Contents (Elt F) → (⟨S100000x128, .f32⟩ : BufTy).Contents (Elt F) → (⟨S100000x128, .f32⟩ : BufTy).Contents (Elt F)) (A V main_v114 : (⟨S100000x128, .f32⟩ : BufTy).Contents (Elt F)) (A V main_v116 : (⟨S100000x128, .f32⟩ : BufTy).Contents (Elt F)) : (⟨S100000x128, .f32⟩ : BufTy).Contents (Elt F)) :=
  pc2.binary (k := 36) (y := main_v117) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v114) : (⟨S100000x128, .f32⟩ : BufTy).Contents (Elt F)) (Z (Proc.devRef .tc main_v116) : (⟨S100000x128, .f32⟩ : BufTy).Contents (Elt F)) : (⟨S100000x128, .f32⟩ : BufTy).Contents (Elt F))) (fun Z => rfl) V

theorem eq_main_v118 (V : Valuation τ sig (Elt F)) :
    A V main_v118 = ((broadcastInDim S1x128 ![1] bcast_S128_S1x128_1 : (⟨S128, .f32⟩ : BufTy).Contents (Elt F) → (⟨S1x128, .f32⟩ : BufTy).Contents (Elt F)) (A V main_v101 : (⟨S128, .f32⟩ : BufTy).Contents (Elt F)) : (⟨S1x128, .f32⟩ : BufTy).Contents (Elt F)) :=
  pc2.unary (k := 37) (y := main_v118) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v101) : (⟨S128, .f32⟩ : BufTy).Contents (Elt F)) : (⟨S1x128, .f32⟩ : BufTy).Contents (Elt F))) (fun Z => rfl) V

theorem eq_main_v119 (V : Valuation τ sig (Elt F)) :
    A V main_v119 = ((broadcastInDim S100000x128 ![0, 1] bcast_S1x128_S100000x128_0_1 : (⟨S1x128, .f32⟩ : BufTy).Contents (Elt F) → (⟨S100000x128, .f32⟩ : BufTy).Contents (Elt F)) (A V main_v118 : (⟨S1x128, .f32⟩ : BufTy).Contents (Elt F)) : (⟨S100000x128, .f32⟩ : BufTy).Contents (Elt F)) :=
  pc2.unary (k := 38) (y := main_v119) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v118) : (⟨S1x128, .f32⟩ : BufTy).Contents (Elt F)) : (⟨S100000x128, .f32⟩ : BufTy).Contents (Elt F))) (fun Z => rfl) V

theorem eq_main_v120 (V : Valuation τ sig (Elt F)) :
    A V main_v120 = ((addf : (⟨S100000x128, .f32⟩ : BufTy).Contents (Elt F) → (⟨S100000x128, .f32⟩ : BufTy).Contents (Elt F) → (⟨S100000x128, .f32⟩ : BufTy).Contents (Elt F)) (A V main_v117 : (⟨S100000x128, .f32⟩ : BufTy).Contents (Elt F)) (A V main_v119 : (⟨S100000x128, .f32⟩ : BufTy).Contents (Elt F)) : (⟨S100000x128, .f32⟩ : BufTy).Contents (Elt F)) :=
  pc2.binary (k := 39) (y := main_v120) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v117) : (⟨S100000x128, .f32⟩ : BufTy).Contents (Elt F)) (Z (Proc.devRef .tc main_v119) : (⟨S100000x128, .f32⟩ : BufTy).Contents (Elt F)) : (⟨S100000x128, .f32⟩ : BufTy).Contents (Elt F))) (fun Z => rfl) V

theorem eq_main_call5_cst (V : Valuation τ sig (Elt F)) :
    A V main_call5_cst = ((constant S_ .f32 0x00000000#32) : (⟨S_, .f32⟩ : BufTy).Contents (Elt F)) :=
  pc2.nullary (k := 40) (y := main_call5_cst) rfl V

theorem eq_main_call5_v0 (V : Valuation τ sig (Elt F)) :
    A V main_call5_v0 = (((broadcastInDim S100000x128 ![] bcast_S_S100000x128) : (⟨S_, .f32⟩ : BufTy).Contents (Elt F) → (⟨S100000x128, .f32⟩ : BufTy).Contents (Elt F)) (A V main_call5_cst : (⟨S_, .f32⟩ : BufTy).Contents (Elt F)) : (⟨S100000x128, .f32⟩ : BufTy).Contents (Elt F)) :=
  pc2.unary (k := 41) (y := main_call5_v0) rfl (by decide)
    (fun Z => (((broadcastInDim S100000x128 ![] bcast_S_S100000x128) : (⟨S_, .f32⟩ : BufTy).Contents (Elt F) → (⟨S100000x128, .f32⟩ : BufTy).Contents (Elt F)) (Z (Proc.devRef .tc main_call5_cst) : (⟨S_, .f32⟩ : BufTy).Contents (Elt F)) : (⟨S100000x128, .f32⟩ : BufTy).Contents (Elt F))) (fun Z => rfl) V

theorem eq_main_v121 (V : Valuation τ sig (Elt F)) :
    A V main_v121 = ((maximumf : (⟨S100000x128, .f32⟩ : BufTy).Contents (Elt F) → (⟨S100000x128, .f32⟩ : BufTy).Contents (Elt F) → (⟨S100000x128, .f32⟩ : BufTy).Contents (Elt F)) (A V main_v120 : (⟨S100000x128, .f32⟩ : BufTy).Contents (Elt F)) (A V main_call5_v0 : (⟨S100000x128, .f32⟩ : BufTy).Contents (Elt F)) : (⟨S100000x128, .f32⟩ : BufTy).Contents (Elt F)) :=
  pc2.binary (k := 42) (y := main_v121) rfl (by decide) (by decide)
    (fun Z => ((maximumf : (⟨S100000x128, .f32⟩ : BufTy).Contents (Elt F) → (⟨S100000x128, .f32⟩ : BufTy).Contents (Elt F) → (⟨S100000x128, .f32⟩ : BufTy).Contents (Elt F)) (Z (Proc.devRef .tc main_v120) : (⟨S100000x128, .f32⟩ : BufTy).Contents (Elt F)) (Z (Proc.devRef .tc main_call5_v0) : (⟨S100000x128, .f32⟩ : BufTy).Contents (Elt F)) : (⟨S100000x128, .f32⟩ : BufTy).Contents (Elt F))) (fun Z => rfl) V

theorem eq_main_v122 (V : Valuation τ sig (Elt F)) :
    A V main_v122 = (((extractStridedSlice S1x128x128 ![1, 0, 0] · slices_S4x128x128_S1x128x128_1_0_0) : (⟨S4x128x128, .f32⟩ : BufTy).Contents (Elt F) → (⟨S1x128x128, .f32⟩ : BufTy).Contents (Elt F)) (A V main_arg7 : (⟨S4x128x128, .f32⟩ : BufTy).Contents (Elt F)) : (⟨S1x128x128, .f32⟩ : BufTy).Contents (Elt F)) :=
  pc2.unary (k := 43) (y := main_v122) rfl (by decide)
    (fun Z => (((extractStridedSlice S1x128x128 ![1, 0, 0] · slices_S4x128x128_S1x128x128_1_0_0) : (⟨S4x128x128, .f32⟩ : BufTy).Contents (Elt F) → (⟨S1x128x128, .f32⟩ : BufTy).Contents (Elt F)) (Z (Proc.devRef .tc main_arg7) : (⟨S4x128x128, .f32⟩ : BufTy).Contents (Elt F)) : (⟨S1x128x128, .f32⟩ : BufTy).Contents (Elt F))) (fun Z => rfl) V

theorem eq_main_v123 (V : Valuation τ sig (Elt F)) :
    A V main_v123 = (shapeCast S128x128 (A V main_v122 : (⟨S1x128x128, .f32⟩ : BufTy).Contents (Elt F)) shapeCasts_S1x128x128_S128x128 : (⟨S128x128, .f32⟩ : BufTy).Contents (Elt F)) :=
  pc2.reshape (k := 44) (y := main_v123) rfl (by decide)
    (fun Z => (shapeCast S128x128 (Z (Proc.devRef .tc main_v122) : (⟨S1x128x128, .f32⟩ : BufTy).Contents (Elt F)) shapeCasts_S1x128x128_S128x128 : (⟨S128x128, .f32⟩ : BufTy).Contents (Elt F))) (fun Z => rfl) V

theorem eq_main_v124 (V : Valuation τ sig (Elt F)) :
    A V main_v124 = (Host.dotGeneral dot_S100000x128_S128x128_S100000x128_1_0_0_1_n_n none (A V main_v121 : (⟨S100000x128, .f32⟩ : BufTy).Contents (Elt F)) (A V main_v123 : (⟨S128x128, .f32⟩ : BufTy).Contents (Elt F)) : (⟨S100000x128, .f32⟩ : BufTy).Contents (Elt F)) :=
  pc2.binary (k := 45) (y := main_v124) rfl (by decide) (by decide)
    (fun Z => (Host.dotGeneral dot_S100000x128_S128x128_S100000x128_1_0_0_1_n_n none (Z (Proc.devRef .tc main_v121) : (⟨S100000x128, .f32⟩ : BufTy).Contents (Elt F)) (Z (Proc.devRef .tc main_v123) : (⟨S128x128, .f32⟩ : BufTy).Contents (Elt F)) : (⟨S100000x128, .f32⟩ : BufTy).Contents (Elt F))) (fun Z => rfl) V

theorem eq_main_v125 (V : Valuation τ sig (Elt F)) :
    A V main_v125 = (((extractStridedSlice S1x128 ![1, 0] · slices_S4x128_S1x128_1_0) : (⟨S4x128, .f32⟩ : BufTy).Contents (Elt F) → (⟨S1x128, .f32⟩ : BufTy).Contents (Elt F)) (A V main_arg8 : (⟨S4x128, .f32⟩ : BufTy).Contents (Elt F)) : (⟨S1x128, .f32⟩ : BufTy).Contents (Elt F)) :=
  pc2.unary (k := 46) (y := main_v125) rfl (by decide)
    (fun Z => (((extractStridedSlice S1x128 ![1, 0] · slices_S4x128_S1x128_1_0) : (⟨S4x128, .f32⟩ : BufTy).Contents (Elt F) → (⟨S1x128, .f32⟩ : BufTy).Contents (Elt F)) (Z (Proc.devRef .tc main_arg8) : (⟨S4x128, .f32⟩ : BufTy).Contents (Elt F)) : (⟨S1x128, .f32⟩ : BufTy).Contents (Elt F))) (fun Z => rfl) V

theorem eq_main_v126 (V : Valuation τ sig (Elt F)) :
    A V main_v126 = (shapeCast S128 (A V main_v125 : (⟨S1x128, .f32⟩ : BufTy).Contents (Elt F)) shapeCasts_S1x128_S128 : (⟨S128, .f32⟩ : BufTy).Contents (Elt F)) :=
  pc2.reshape (k := 47) (y := main_v126) rfl (by decide)
    (fun Z => (shapeCast S128 (Z (Proc.devRef .tc main_v125) : (⟨S1x128, .f32⟩ : BufTy).Contents (Elt F)) shapeCasts_S1x128_S128 : (⟨S128, .f32⟩ : BufTy).Contents (Elt F))) (fun Z => rfl) V

theorem eq_main_v127 (V : Valuation τ sig (Elt F)) :
    A V main_v127 = ((broadcastInDim S1x128 ![1] bcast_S128_S1x128_1 : (⟨S128, .f32⟩ : BufTy).Contents (Elt F) → (⟨S1x128, .f32⟩ : BufTy).Contents (Elt F)) (A V main_v126 : (⟨S128, .f32⟩ : BufTy).Contents (Elt F)) : (⟨S1x128, .f32⟩ : BufTy).Contents (Elt F)) :=
  pc2.unary (k := 48) (y := main_v127) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v126) : (⟨S128, .f32⟩ : BufTy).Contents (Elt F)) : (⟨S1x128, .f32⟩ : BufTy).Contents (Elt F))) (fun Z => rfl) V

theorem eq_main_v128 (V : Valuation τ sig (Elt F)) :
    A V main_v128 = ((broadcastInDim S100000x128 ![0, 1] bcast_S1x128_S100000x128_0_1 : (⟨S1x128, .f32⟩ : BufTy).Contents (Elt F) → (⟨S100000x128, .f32⟩ : BufTy).Contents (Elt F)) (A V main_v127 : (⟨S1x128, .f32⟩ : BufTy).Contents (Elt F)) : (⟨S100000x128, .f32⟩ : BufTy).Contents (Elt F)) :=
  pc2.unary (k := 49) (y := main_v128) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v127) : (⟨S1x128, .f32⟩ : BufTy).Contents (Elt F)) : (⟨S100000x128, .f32⟩ : BufTy).Contents (Elt F))) (fun Z => rfl) V

theorem eq_main_v129 (V : Valuation τ sig (Elt F)) :
    A V main_v129 = ((addf : (⟨S100000x128, .f32⟩ : BufTy).Contents (Elt F) → (⟨S100000x128, .f32⟩ : BufTy).Contents (Elt F) → (⟨S100000x128, .f32⟩ : BufTy).Contents (Elt F)) (A V main_v124 : (⟨S100000x128, .f32⟩ : BufTy).Contents (Elt F)) (A V main_v128 : (⟨S100000x128, .f32⟩ : BufTy).Contents (Elt F)) : (⟨S100000x128, .f32⟩ : BufTy).Contents (Elt F)) :=
  pc2.binary (k := 50) (y := main_v129) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v124) : (⟨S100000x128, .f32⟩ : BufTy).Contents (Elt F)) (Z (Proc.devRef .tc main_v128) : (⟨S100000x128, .f32⟩ : BufTy).Contents (Elt F)) : (⟨S100000x128, .f32⟩ : BufTy).Contents (Elt F))) (fun Z => rfl) V

theorem eq_main_v130 (V : Valuation τ sig (Elt F)) :
    A V main_v130 = (((extractStridedSlice S1x128 ![1, 0] · slices_S4x128_S1x128_1_0) : (⟨S4x128, .f32⟩ : BufTy).Contents (Elt F) → (⟨S1x128, .f32⟩ : BufTy).Contents (Elt F)) (A V main_arg9 : (⟨S4x128, .f32⟩ : BufTy).Contents (Elt F)) : (⟨S1x128, .f32⟩ : BufTy).Contents (Elt F)) :=
  pc2.unary (k := 51) (y := main_v130) rfl (by decide)
    (fun Z => (((extractStridedSlice S1x128 ![1, 0] · slices_S4x128_S1x128_1_0) : (⟨S4x128, .f32⟩ : BufTy).Contents (Elt F) → (⟨S1x128, .f32⟩ : BufTy).Contents (Elt F)) (Z (Proc.devRef .tc main_arg9) : (⟨S4x128, .f32⟩ : BufTy).Contents (Elt F)) : (⟨S1x128, .f32⟩ : BufTy).Contents (Elt F))) (fun Z => rfl) V

theorem eq_main_v131 (V : Valuation τ sig (Elt F)) :
    A V main_v131 = (shapeCast S128 (A V main_v130 : (⟨S1x128, .f32⟩ : BufTy).Contents (Elt F)) shapeCasts_S1x128_S128 : (⟨S128, .f32⟩ : BufTy).Contents (Elt F)) :=
  pc2.reshape (k := 52) (y := main_v131) rfl (by decide)
    (fun Z => (shapeCast S128 (Z (Proc.devRef .tc main_v130) : (⟨S1x128, .f32⟩ : BufTy).Contents (Elt F)) shapeCasts_S1x128_S128 : (⟨S128, .f32⟩ : BufTy).Contents (Elt F))) (fun Z => rfl) V

theorem eq_main_v132 (V : Valuation τ sig (Elt F)) :
    A V main_v132 = (((extractStridedSlice S1x128 ![1, 0] · slices_S4x128_S1x128_1_0) : (⟨S4x128, .f32⟩ : BufTy).Contents (Elt F) → (⟨S1x128, .f32⟩ : BufTy).Contents (Elt F)) (A V main_arg10 : (⟨S4x128, .f32⟩ : BufTy).Contents (Elt F)) : (⟨S1x128, .f32⟩ : BufTy).Contents (Elt F)) :=
  pc2.unary (k := 53) (y := main_v132) rfl (by decide)
    (fun Z => (((extractStridedSlice S1x128 ![1, 0] · slices_S4x128_S1x128_1_0) : (⟨S4x128, .f32⟩ : BufTy).Contents (Elt F) → (⟨S1x128, .f32⟩ : BufTy).Contents (Elt F)) (Z (Proc.devRef .tc main_arg10) : (⟨S4x128, .f32⟩ : BufTy).Contents (Elt F)) : (⟨S1x128, .f32⟩ : BufTy).Contents (Elt F))) (fun Z => rfl) V

theorem eq_main_v133 (V : Valuation τ sig (Elt F)) :
    A V main_v133 = (shapeCast S128 (A V main_v132 : (⟨S1x128, .f32⟩ : BufTy).Contents (Elt F)) shapeCasts_S1x128_S128 : (⟨S128, .f32⟩ : BufTy).Contents (Elt F)) :=
  pc2.reshape (k := 54) (y := main_v133) rfl (by decide)
    (fun Z => (shapeCast S128 (Z (Proc.devRef .tc main_v132) : (⟨S1x128, .f32⟩ : BufTy).Contents (Elt F)) shapeCasts_S1x128_S128 : (⟨S128, .f32⟩ : BufTy).Contents (Elt F))) (fun Z => rfl) V

theorem eq_main_cst_16 (V : Valuation τ sig (Elt F)) :
    A V main_cst_16 = ((constant S_ .f32 0x00000000#32) : (⟨S_, .f32⟩ : BufTy).Contents (Elt F)) :=
  pc2.nullary (k := 55) (y := main_cst_16) rfl V

theorem eq_main_v134 (V : Valuation τ sig (Elt F)) :
    A V main_v134 = (Host.reduceAdd (A V main_v129 : (⟨S100000x128, .f32⟩ : BufTy).Contents (Elt F)) (A V main_cst_16 : (⟨S_, .f32⟩ : BufTy).Contents (Elt F)) reducesTo_S100000x128_S128_d0 h_S_ : (⟨S128, .f32⟩ : BufTy).Contents (Elt F)) :=
  pc2.binary (k := 56) (y := main_v134) rfl (by decide) (by decide)
    (fun Z => (Host.reduceAdd (Z (Proc.devRef .tc main_v129) : (⟨S100000x128, .f32⟩ : BufTy).Contents (Elt F)) (Z (Proc.devRef .tc main_cst_16) : (⟨S_, .f32⟩ : BufTy).Contents (Elt F)) reducesTo_S100000x128_S128_d0 h_S_ : (⟨S128, .f32⟩ : BufTy).Contents (Elt F))) (fun Z => rfl) V

theorem eq_main_cst_17 (V : Valuation τ sig (Elt F)) :
    A V main_cst_17 = ((constant S_ .f32 0x47C35000#32) : (⟨S_, .f32⟩ : BufTy).Contents (Elt F)) :=
  pc2.nullary (k := 57) (y := main_cst_17) rfl V

theorem eq_main_v135 (V : Valuation τ sig (Elt F)) :
    A V main_v135 = ((broadcastInDim S128 ![] bcast_S_S128 : (⟨S_, .f32⟩ : BufTy).Contents (Elt F) → (⟨S128, .f32⟩ : BufTy).Contents (Elt F)) (A V main_cst_17 : (⟨S_, .f32⟩ : BufTy).Contents (Elt F)) : (⟨S128, .f32⟩ : BufTy).Contents (Elt F)) :=
  pc2.unary (k := 58) (y := main_v135) rfl (by decide)
    (fun Z => ((broadcastInDim S128 ![] bcast_S_S128 : (⟨S_, .f32⟩ : BufTy).Contents (Elt F) → (⟨S128, .f32⟩ : BufTy).Contents (Elt F)) (Z (Proc.devRef .tc main_cst_17) : (⟨S_, .f32⟩ : BufTy).Contents (Elt F)) : (⟨S128, .f32⟩ : BufTy).Contents (Elt F))) (fun Z => rfl) V

theorem eq_main_v136 (V : Valuation τ sig (Elt F)) :
    A V main_v136 = ((Host.divf : (⟨S128, .f32⟩ : BufTy).Contents (Elt F) → (⟨S128, .f32⟩ : BufTy).Contents (Elt F) → (⟨S128, .f32⟩ : BufTy).Contents (Elt F)) (A V main_v134 : (⟨S128, .f32⟩ : BufTy).Contents (Elt F)) (A V main_v135 : (⟨S128, .f32⟩ : BufTy).Contents (Elt F)) : (⟨S128, .f32⟩ : BufTy).Contents (Elt F)) :=
  pc2.binary (k := 59) (y := main_v136) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_v134) : (⟨S128, .f32⟩ : BufTy).Contents (Elt F)) (Z (Proc.devRef .tc main_v135) : (⟨S128, .f32⟩ : BufTy).Contents (Elt F)) : (⟨S128, .f32⟩ : BufTy).Contents (Elt F))) (fun Z => rfl) V

theorem eq_main_c_18 (V : Valuation τ sig (Elt F)) :
    A V main_c_18 = ((constantI S_ 32 0#32) : (⟨S_, .i32⟩ : BufTy).Contents (Elt F)) :=
  pc2.nullary (k := 60) (y := main_c_18) rfl V

theorem eq_main_call6_cst (V : Valuation τ sig (Elt F)) :
    A V main_call6_cst = ((constant S_ .f32 0x00000000#32) : (⟨S_, .f32⟩ : BufTy).Contents (Elt F)) :=
  pc2.nullary (k := 61) (y := main_call6_cst) rfl V

theorem eq_main_call6_v0 (V : Valuation τ sig (Elt F)) :
    A V main_call6_v0 = (Host.reduceAdd (A V main_v129 : (⟨S100000x128, .f32⟩ : BufTy).Contents (Elt F)) (A V main_call6_cst : (⟨S_, .f32⟩ : BufTy).Contents (Elt F)) reducesTo_S100000x128_S128_d0 h_S_ : (⟨S128, .f32⟩ : BufTy).Contents (Elt F)) :=
  pc2.binary (k := 62) (y := main_call6_v0) rfl (by decide) (by decide)
    (fun Z => (Host.reduceAdd (Z (Proc.devRef .tc main_v129) : (⟨S100000x128, .f32⟩ : BufTy).Contents (Elt F)) (Z (Proc.devRef .tc main_call6_cst) : (⟨S_, .f32⟩ : BufTy).Contents (Elt F)) reducesTo_S100000x128_S128_d0 h_S_ : (⟨S128, .f32⟩ : BufTy).Contents (Elt F))) (fun Z => rfl) V

theorem eq_main_call6_v1 (V : Valuation τ sig (Elt F)) :
    A V main_call6_v1 = (((broadcastInDim S1x128 ![1] bcast_S128_S1x128_1) : (⟨S128, .f32⟩ : BufTy).Contents (Elt F) → (⟨S1x128, .f32⟩ : BufTy).Contents (Elt F)) (A V main_call6_v0 : (⟨S128, .f32⟩ : BufTy).Contents (Elt F)) : (⟨S1x128, .f32⟩ : BufTy).Contents (Elt F)) :=
  pc2.unary (k := 63) (y := main_call6_v1) rfl (by decide)
    (fun Z => (((broadcastInDim S1x128 ![1] bcast_S128_S1x128_1) : (⟨S128, .f32⟩ : BufTy).Contents (Elt F) → (⟨S1x128, .f32⟩ : BufTy).Contents (Elt F)) (Z (Proc.devRef .tc main_call6_v0) : (⟨S128, .f32⟩ : BufTy).Contents (Elt F)) : (⟨S1x128, .f32⟩ : BufTy).Contents (Elt F))) (fun Z => rfl) V

theorem eq_main_call6_cst_0 (V : Valuation τ sig (Elt F)) :
    A V main_call6_cst_0 = ((constant S_ .f32 0x47C35000#32) : (⟨S_, .f32⟩ : BufTy).Contents (Elt F)) :=
  pc2.nullary (k := 64) (y := main_call6_cst_0) rfl V

theorem eq_main_call6_v2 (V : Valuation τ sig (Elt F)) :
    A V main_call6_v2 = (((broadcastInDim S1x128 ![] bcast_S_S1x128) : (⟨S_, .f32⟩ : BufTy).Contents (Elt F) → (⟨S1x128, .f32⟩ : BufTy).Contents (Elt F)) (A V main_call6_cst_0 : (⟨S_, .f32⟩ : BufTy).Contents (Elt F)) : (⟨S1x128, .f32⟩ : BufTy).Contents (Elt F)) :=
  pc2.unary (k := 65) (y := main_call6_v2) rfl (by decide)
    (fun Z => (((broadcastInDim S1x128 ![] bcast_S_S1x128) : (⟨S_, .f32⟩ : BufTy).Contents (Elt F) → (⟨S1x128, .f32⟩ : BufTy).Contents (Elt F)) (Z (Proc.devRef .tc main_call6_cst_0) : (⟨S_, .f32⟩ : BufTy).Contents (Elt F)) : (⟨S1x128, .f32⟩ : BufTy).Contents (Elt F))) (fun Z => rfl) V

theorem eq_main_call6_v3 (V : Valuation τ sig (Elt F)) :
    A V main_call6_v3 = ((Host.divf : (⟨S1x128, .f32⟩ : BufTy).Contents (Elt F) → (⟨S1x128, .f32⟩ : BufTy).Contents (Elt F) → (⟨S1x128, .f32⟩ : BufTy).Contents (Elt F)) (A V main_call6_v1 : (⟨S1x128, .f32⟩ : BufTy).Contents (Elt F)) (A V main_call6_v2 : (⟨S1x128, .f32⟩ : BufTy).Contents (Elt F)) : (⟨S1x128, .f32⟩ : BufTy).Contents (Elt F)) :=
  pc2.binary (k := 66) (y := main_call6_v3) rfl (by decide) (by decide)
    (fun Z => ((Host.divf : (⟨S1x128, .f32⟩ : BufTy).Contents (Elt F) → (⟨S1x128, .f32⟩ : BufTy).Contents (Elt F) → (⟨S1x128, .f32⟩ : BufTy).Contents (Elt F)) (Z (Proc.devRef .tc main_call6_v1) : (⟨S1x128, .f32⟩ : BufTy).Contents (Elt F)) (Z (Proc.devRef .tc main_call6_v2) : (⟨S1x128, .f32⟩ : BufTy).Contents (Elt F)) : (⟨S1x128, .f32⟩ : BufTy).Contents (Elt F))) (fun Z => rfl) V

theorem eq_main_call6_v4 (V : Valuation τ sig (Elt F)) :
    A V main_call6_v4 = (((broadcastInDim S100000x128 ![0, 1] bcast_S1x128_S100000x128_0_1) : (⟨S1x128, .f32⟩ : BufTy).Contents (Elt F) → (⟨S100000x128, .f32⟩ : BufTy).Contents (Elt F)) (A V main_call6_v3 : (⟨S1x128, .f32⟩ : BufTy).Contents (Elt F)) : (⟨S100000x128, .f32⟩ : BufTy).Contents (Elt F)) :=
  pc2.unary (k := 67) (y := main_call6_v4) rfl (by decide)
    (fun Z => (((broadcastInDim S100000x128 ![0, 1] bcast_S1x128_S100000x128_0_1) : (⟨S1x128, .f32⟩ : BufTy).Contents (Elt F) → (⟨S100000x128, .f32⟩ : BufTy).Contents (Elt F)) (Z (Proc.devRef .tc main_call6_v3) : (⟨S1x128, .f32⟩ : BufTy).Contents (Elt F)) : (⟨S100000x128, .f32⟩ : BufTy).Contents (Elt F))) (fun Z => rfl) V

theorem eq_main_call6_v5 (V : Valuation τ sig (Elt F)) :
    A V main_call6_v5 = ((subf : (⟨S100000x128, .f32⟩ : BufTy).Contents (Elt F) → (⟨S100000x128, .f32⟩ : BufTy).Contents (Elt F) → (⟨S100000x128, .f32⟩ : BufTy).Contents (Elt F)) (A V main_v129 : (⟨S100000x128, .f32⟩ : BufTy).Contents (Elt F)) (A V main_call6_v4 : (⟨S100000x128, .f32⟩ : BufTy).Contents (Elt F)) : (⟨S100000x128, .f32⟩ : BufTy).Contents (Elt F)) :=
  pc2.binary (k := 68) (y := main_call6_v5) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v129) : (⟨S100000x128, .f32⟩ : BufTy).Contents (Elt F)) (Z (Proc.devRef .tc main_call6_v4) : (⟨S100000x128, .f32⟩ : BufTy).Contents (Elt F)) : (⟨S100000x128, .f32⟩ : BufTy).Contents (Elt F))) (fun Z => rfl) V

theorem eq_main_call6_v6 (V : Valuation τ sig (Elt F)) :
    A V main_call6_v6 = ((mulf : (⟨S100000x128, .f32⟩ : BufTy).Contents (Elt F) → (⟨S100000x128, .f32⟩ : BufTy).Contents (Elt F) → (⟨S100000x128, .f32⟩ : BufTy).Contents (Elt F)) (A V main_call6_v5 : (⟨S100000x128, .f32⟩ : BufTy).Contents (Elt F)) (A V main_call6_v5 : (⟨S100000x128, .f32⟩ : BufTy).Contents (Elt F)) : (⟨S100000x128, .f32⟩ : BufTy).Contents (Elt F)) :=
  pc2.binary (k := 69) (y := main_call6_v6) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_call6_v5) : (⟨S100000x128, .f32⟩ : BufTy).Contents (Elt F)) (Z (Proc.devRef .tc main_call6_v5) : (⟨S100000x128, .f32⟩ : BufTy).Contents (Elt F)) : (⟨S100000x128, .f32⟩ : BufTy).Contents (Elt F))) (fun Z => rfl) V

theorem eq_main_call6_v7 (V : Valuation τ sig (Elt F)) :
    A V main_call6_v7 = (((sitofp .f32) : (⟨S_, .i32⟩ : BufTy).Contents (Elt F) → (⟨S_, .f32⟩ : BufTy).Contents (Elt F)) (A V main_c_18 : (⟨S_, .i32⟩ : BufTy).Contents (Elt F)) : (⟨S_, .f32⟩ : BufTy).Contents (Elt F)) :=
  pc2.unary (k := 70) (y := main_call6_v7) rfl (by decide)
    (fun Z => (((sitofp .f32) : (⟨S_, .i32⟩ : BufTy).Contents (Elt F) → (⟨S_, .f32⟩ : BufTy).Contents (Elt F)) (Z (Proc.devRef .tc main_c_18) : (⟨S_, .i32⟩ : BufTy).Contents (Elt F)) : (⟨S_, .f32⟩ : BufTy).Contents (Elt F))) (fun Z => rfl) V

theorem eq_main_call6_cst_1 (V : Valuation τ sig (Elt F)) :
    A V main_call6_cst_1 = ((constant S_ .f32 0x47C35000#32) : (⟨S_, .f32⟩ : BufTy).Contents (Elt F)) :=
  pc2.nullary (k := 71) (y := main_call6_cst_1) rfl V

theorem eq_main_call6_v8 (V : Valuation τ sig (Elt F)) :
    A V main_call6_v8 = ((subf : (⟨S_, .f32⟩ : BufTy).Contents (Elt F) → (⟨S_, .f32⟩ : BufTy).Contents (Elt F) → (⟨S_, .f32⟩ : BufTy).Contents (Elt F)) (A V main_call6_cst_1 : (⟨S_, .f32⟩ : BufTy).Contents (Elt F)) (A V main_call6_v7 : (⟨S_, .f32⟩ : BufTy).Contents (Elt F)) : (⟨S_, .f32⟩ : BufTy).Contents (Elt F)) :=
  pc2.binary (k := 72) (y := main_call6_v8) rfl (by decide) (by decide)
    (fun Z => ((subf : (⟨S_, .f32⟩ : BufTy).Contents (Elt F) → (⟨S_, .f32⟩ : BufTy).Contents (Elt F) → (⟨S_, .f32⟩ : BufTy).Contents (Elt F)) (Z (Proc.devRef .tc main_call6_cst_1) : (⟨S_, .f32⟩ : BufTy).Contents (Elt F)) (Z (Proc.devRef .tc main_call6_v7) : (⟨S_, .f32⟩ : BufTy).Contents (Elt F)) : (⟨S_, .f32⟩ : BufTy).Contents (Elt F))) (fun Z => rfl) V

theorem eq_main_call6_cst_2 (V : Valuation τ sig (Elt F)) :
    A V main_call6_cst_2 = ((constant S_ .f32 0x00000000#32) : (⟨S_, .f32⟩ : BufTy).Contents (Elt F)) :=
  pc2.nullary (k := 73) (y := main_call6_cst_2) rfl V

theorem eq_main_call6_v9 (V : Valuation τ sig (Elt F)) :
    A V main_call6_v9 = (Host.reduceAdd (A V main_call6_v6 : (⟨S100000x128, .f32⟩ : BufTy).Contents (Elt F)) (A V main_call6_cst_2 : (⟨S_, .f32⟩ : BufTy).Contents (Elt F)) reducesTo_S100000x128_S128_d0 h_S_ : (⟨S128, .f32⟩ : BufTy).Contents (Elt F)) :=
  pc2.binary (k := 74) (y := main_call6_v9) rfl (by decide) (by decide)
    (fun Z => (Host.reduceAdd (Z (Proc.devRef .tc main_call6_v6) : (⟨S100000x128, .f32⟩ : BufTy).Contents (Elt F)) (Z (Proc.devRef .tc main_call6_cst_2) : (⟨S_, .f32⟩ : BufTy).Contents (Elt F)) reducesTo_S100000x128_S128_d0 h_S_ : (⟨S128, .f32⟩ : BufTy).Contents (Elt F))) (fun Z => rfl) V

theorem eq_main_call6_v10 (V : Valuation τ sig (Elt F)) :
    A V main_call6_v10 = (((broadcastInDim S128 ![] bcast_S_S128) : (⟨S_, .f32⟩ : BufTy).Contents (Elt F) → (⟨S128, .f32⟩ : BufTy).Contents (Elt F)) (A V main_call6_v8 : (⟨S_, .f32⟩ : BufTy).Contents (Elt F)) : (⟨S128, .f32⟩ : BufTy).Contents (Elt F)) :=
  pc2.unary (k := 75) (y := main_call6_v10) rfl (by decide)
    (fun Z => (((broadcastInDim S128 ![] bcast_S_S128) : (⟨S_, .f32⟩ : BufTy).Contents (Elt F) → (⟨S128, .f32⟩ : BufTy).Contents (Elt F)) (Z (Proc.devRef .tc main_call6_v8) : (⟨S_, .f32⟩ : BufTy).Contents (Elt F)) : (⟨S128, .f32⟩ : BufTy).Contents (Elt F))) (fun Z => rfl) V

theorem eq_main_call6_v11 (V : Valuation τ sig (Elt F)) :
    A V main_call6_v11 = ((Host.divf : (⟨S128, .f32⟩ : BufTy).Contents (Elt F) → (⟨S128, .f32⟩ : BufTy).Contents (Elt F) → (⟨S128, .f32⟩ : BufTy).Contents (Elt F)) (A V main_call6_v9 : (⟨S128, .f32⟩ : BufTy).Contents (Elt F)) (A V main_call6_v10 : (⟨S128, .f32⟩ : BufTy).Contents (Elt F)) : (⟨S128, .f32⟩ : BufTy).Contents (Elt F)) :=
  pc2.binary (k := 76) (y := main_call6_v11) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_call6_v9) : (⟨S128, .f32⟩ : BufTy).Contents (Elt F)) (Z (Proc.devRef .tc main_call6_v10) : (⟨S128, .f32⟩ : BufTy).Contents (Elt F)) : (⟨S128, .f32⟩ : BufTy).Contents (Elt F))) (fun Z => rfl) V

theorem eq_main_call6_cst_3 (V : Valuation τ sig (Elt F)) :
    A V main_call6_cst_3 = ((constant S_ .f32 0x00000000#32) : (⟨S_, .f32⟩ : BufTy).Contents (Elt F)) :=
  pc2.nullary (k := 77) (y := main_call6_cst_3) rfl V

theorem eq_main_call6_v12 (V : Valuation τ sig (Elt F)) :
    A V main_call6_v12 = (((cmpf .ogt) : (⟨S_, .f32⟩ : BufTy).Contents (Elt F) → (⟨S_, .f32⟩ : BufTy).Contents (Elt F) → (⟨S_, .i1⟩ : BufTy).Contents (Elt F)) (A V main_call6_v8 : (⟨S_, .f32⟩ : BufTy).Contents (Elt F)) (A V main_call6_cst_3 : (⟨S_, .f32⟩ : BufTy).Contents (Elt F)) : (⟨S_, .i1⟩ : BufTy).Contents (Elt F)) :=
  pc2.binary (k := 78) (y := main_call6_v12) rfl (by decide) (by decide)
    (fun Z => (((cmpf .ogt) : (⟨S_, .f32⟩ : BufTy).Contents (Elt F) → (⟨S_, .f32⟩ : BufTy).Contents (Elt F) → (⟨S_, .i1⟩ : BufTy).Contents (Elt F)) (Z (Proc.devRef .tc main_call6_v8) : (⟨S_, .f32⟩ : BufTy).Contents (Elt F)) (Z (Proc.devRef .tc main_call6_cst_3) : (⟨S_, .f32⟩ : BufTy).Contents (Elt F)) : (⟨S_, .i1⟩ : BufTy).Contents (Elt F))) (fun Z => rfl) V

theorem eq_main_call6_cst_4 (V : Valuation τ sig (Elt F)) :
    A V main_call6_cst_4 = ((constant S_ .f32 0x7FC00000#32) : (⟨S_, .f32⟩ : BufTy).Contents (Elt F)) :=
  pc2.nullary (k := 79) (y := main_call6_cst_4) rfl V

theorem eq_main_call6_call0_v0 (V : Valuation τ sig (Elt F)) :
    A V main_call6_call0_v0 = ((id : (⟨S_, .f32⟩ : BufTy).Contents (Elt F) → (⟨S_, .f32⟩ : BufTy).Contents (Elt F)) (A V main_call6_cst_4 : (⟨S_, .f32⟩ : BufTy).Contents (Elt F)) : (⟨S_, .f32⟩ : BufTy).Contents (Elt F)) :=
  pc2.unary (k := 80) (y := main_call6_call0_v0) rfl (by decide)
    (fun Z => ((id : (⟨S_, .f32⟩ : BufTy).Contents (Elt F) → (⟨S_, .f32⟩ : BufTy).Contents (Elt F)) (Z (Proc.devRef .tc main_call6_cst_4) : (⟨S_, .f32⟩ : BufTy).Contents (Elt F)) : (⟨S_, .f32⟩ : BufTy).Contents (Elt F))) (fun Z => rfl) V

theorem eq_main_call6_call0_v1 (V : Valuation τ sig (Elt F)) :
    A V main_call6_call0_v1 = (((broadcastInDim S128 ![] bcast_S_S128) : (⟨S_, .f32⟩ : BufTy).Contents (Elt F) → (⟨S128, .f32⟩ : BufTy).Contents (Elt F)) (A V main_call6_call0_v0 : (⟨S_, .f32⟩ : BufTy).Contents (Elt F)) : (⟨S128, .f32⟩ : BufTy).Contents (Elt F)) :=
  pc2.unary (k := 81) (y := main_call6_call0_v1) rfl (by decide)
    (fun Z => (((broadcastInDim S128 ![] bcast_S_S128) : (⟨S_, .f32⟩ : BufTy).Contents (Elt F) → (⟨S128, .f32⟩ : BufTy).Contents (Elt F)) (Z (Proc.devRef .tc main_call6_call0_v0) : (⟨S_, .f32⟩ : BufTy).Contents (Elt F)) : (⟨S128, .f32⟩ : BufTy).Contents (Elt F))) (fun Z => rfl) V

theorem eq_main_v137 (V : Valuation τ sig (Elt F)) :
    A V main_v137 = (select ((broadcastInDim S128 ![] bcast_S_S128 : (⟨S_, .i1⟩ : BufTy).Contents (Elt F) → (⟨S128, .i1⟩ : BufTy).Contents (Elt F)) (A V main_call6_v12 : (⟨S_, .i1⟩ : BufTy).Contents (Elt F))) (A V main_call6_v11 : (⟨S128, .f32⟩ : BufTy).Contents (Elt F)) (A V main_call6_call0_v1 : (⟨S128, .f32⟩ : BufTy).Contents (Elt F)) : (⟨S128, .f32⟩ : BufTy).Contents (Elt F)) :=
  pc2.ternary (k := 82) (y := main_v137) rfl (by decide) (by decide) (by decide)
    (fun Z => (select ((broadcastInDim S128 ![] bcast_S_S128 : (⟨S_, .i1⟩ : BufTy).Contents (Elt F) → (⟨S128, .i1⟩ : BufTy).Contents (Elt F)) (Z (Proc.devRef .tc main_call6_v12) : (⟨S_, .i1⟩ : BufTy).Contents (Elt F))) (Z (Proc.devRef .tc main_call6_v11) : (⟨S128, .f32⟩ : BufTy).Contents (Elt F)) (Z (Proc.devRef .tc main_call6_call0_v1) : (⟨S128, .f32⟩ : BufTy).Contents (Elt F)) : (⟨S128, .f32⟩ : BufTy).Contents (Elt F))) (fun Z => rfl) V

theorem eq_main_v138 (V : Valuation τ sig (Elt F)) :
    A V main_v138 = ((broadcastInDim S1x128 ![1] bcast_S128_S1x128_1 : (⟨S128, .f32⟩ : BufTy).Contents (Elt F) → (⟨S1x128, .f32⟩ : BufTy).Contents (Elt F)) (A V main_v136 : (⟨S128, .f32⟩ : BufTy).Contents (Elt F)) : (⟨S1x128, .f32⟩ : BufTy).Contents (Elt F)) :=
  pc2.unary (k := 83) (y := main_v138) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v136) : (⟨S128, .f32⟩ : BufTy).Contents (Elt F)) : (⟨S1x128, .f32⟩ : BufTy).Contents (Elt F))) (fun Z => rfl) V

theorem eq_main_v139 (V : Valuation τ sig (Elt F)) :
    A V main_v139 = ((broadcastInDim S100000x128 ![0, 1] bcast_S1x128_S100000x128_0_1 : (⟨S1x128, .f32⟩ : BufTy).Contents (Elt F) → (⟨S100000x128, .f32⟩ : BufTy).Contents (Elt F)) (A V main_v138 : (⟨S1x128, .f32⟩ : BufTy).Contents (Elt F)) : (⟨S100000x128, .f32⟩ : BufTy).Contents (Elt F)) :=
  pc2.unary (k := 84) (y := main_v139) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v138) : (⟨S1x128, .f32⟩ : BufTy).Contents (Elt F)) : (⟨S100000x128, .f32⟩ : BufTy).Contents (Elt F))) (fun Z => rfl) V

theorem eq_main_v140 (V : Valuation τ sig (Elt F)) :
    A V main_v140 = ((subf : (⟨S100000x128, .f32⟩ : BufTy).Contents (Elt F) → (⟨S100000x128, .f32⟩ : BufTy).Contents (Elt F) → (⟨S100000x128, .f32⟩ : BufTy).Contents (Elt F)) (A V main_v129 : (⟨S100000x128, .f32⟩ : BufTy).Contents (Elt F)) (A V main_v139 : (⟨S100000x128, .f32⟩ : BufTy).Contents (Elt F)) : (⟨S100000x128, .f32⟩ : BufTy).Contents (Elt F)) :=
  pc2.binary (k := 85) (y := main_v140) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v129) : (⟨S100000x128, .f32⟩ : BufTy).Contents (Elt F)) (Z (Proc.devRef .tc main_v139) : (⟨S100000x128, .f32⟩ : BufTy).Contents (Elt F)) : (⟨S100000x128, .f32⟩ : BufTy).Contents (Elt F))) (fun Z => rfl) V

theorem eq_main_cst_19 (V : Valuation τ sig (Elt F)) :
    A V main_cst_19 = ((constant S_ .f32 0x3727C5AC#32) : (⟨S_, .f32⟩ : BufTy).Contents (Elt F)) :=
  pc2.nullary (k := 86) (y := main_cst_19) rfl V

theorem eq_main_v141 (V : Valuation τ sig (Elt F)) :
    A V main_v141 = ((broadcastInDim S128 ![] bcast_S_S128 : (⟨S_, .f32⟩ : BufTy).Contents (Elt F) → (⟨S128, .f32⟩ : BufTy).Contents (Elt F)) (A V main_cst_19 : (⟨S_, .f32⟩ : BufTy).Contents (Elt F)) : (⟨S128, .f32⟩ : BufTy).Contents (Elt F)) :=
  pc2.unary (k := 87) (y := main_v141) rfl (by decide)
    (fun Z => ((broadcastInDim S128 ![] bcast_S_S128 : (⟨S_, .f32⟩ : BufTy).Contents (Elt F) → (⟨S128, .f32⟩ : BufTy).Contents (Elt F)) (Z (Proc.devRef .tc main_cst_19) : (⟨S_, .f32⟩ : BufTy).Contents (Elt F)) : (⟨S128, .f32⟩ : BufTy).Contents (Elt F))) (fun Z => rfl) V

theorem eq_main_v142 (V : Valuation τ sig (Elt F)) :
    A V main_v142 = ((addf : (⟨S128, .f32⟩ : BufTy).Contents (Elt F) → (⟨S128, .f32⟩ : BufTy).Contents (Elt F) → (⟨S128, .f32⟩ : BufTy).Contents (Elt F)) (A V main_v137 : (⟨S128, .f32⟩ : BufTy).Contents (Elt F)) (A V main_v141 : (⟨S128, .f32⟩ : BufTy).Contents (Elt F)) : (⟨S128, .f32⟩ : BufTy).Contents (Elt F)) :=
  pc2.binary (k := 88) (y := main_v142) rfl (by decide) (by decide)
    (fun Z => ((addf : (⟨S128, .f32⟩ : BufTy).Contents (Elt F) → (⟨S128, .f32⟩ : BufTy).Contents (Elt F) → (⟨S128, .f32⟩ : BufTy).Contents (Elt F)) (Z (Proc.devRef .tc main_v137) : (⟨S128, .f32⟩ : BufTy).Contents (Elt F)) (Z (Proc.devRef .tc main_v141) : (⟨S128, .f32⟩ : BufTy).Contents (Elt F)) : (⟨S128, .f32⟩ : BufTy).Contents (Elt F))) (fun Z => rfl) V

theorem eq_main_v143 (V : Valuation τ sig (Elt F)) :
    A V main_v143 = ((Host.rsqrt : (⟨S128, .f32⟩ : BufTy).Contents (Elt F) → (⟨S128, .f32⟩ : BufTy).Contents (Elt F)) (A V main_v142 : (⟨S128, .f32⟩ : BufTy).Contents (Elt F)) : (⟨S128, .f32⟩ : BufTy).Contents (Elt F)) :=
  pc2.unary (k := 89) (y := main_v143) rfl (by decide)
    (fun Z => ((Host.rsqrt : (⟨S128, .f32⟩ : BufTy).Contents (Elt F) → (⟨S128, .f32⟩ : BufTy).Contents (Elt F)) (Z (Proc.devRef .tc main_v142) : (⟨S128, .f32⟩ : BufTy).Contents (Elt F)) : (⟨S128, .f32⟩ : BufTy).Contents (Elt F))) (fun Z => rfl) V

theorem eq_main_v144 (V : Valuation τ sig (Elt F)) :
    A V main_v144 = ((broadcastInDim S1x128 ![1] bcast_S128_S1x128_1 : (⟨S128, .f32⟩ : BufTy).Contents (Elt F) → (⟨S1x128, .f32⟩ : BufTy).Contents (Elt F)) (A V main_v143 : (⟨S128, .f32⟩ : BufTy).Contents (Elt F)) : (⟨S1x128, .f32⟩ : BufTy).Contents (Elt F)) :=
  pc2.unary (k := 90) (y := main_v144) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v143) : (⟨S128, .f32⟩ : BufTy).Contents (Elt F)) : (⟨S1x128, .f32⟩ : BufTy).Contents (Elt F))) (fun Z => rfl) V

theorem eq_main_v145 (V : Valuation τ sig (Elt F)) :
    A V main_v145 = ((broadcastInDim S100000x128 ![0, 1] bcast_S1x128_S100000x128_0_1 : (⟨S1x128, .f32⟩ : BufTy).Contents (Elt F) → (⟨S100000x128, .f32⟩ : BufTy).Contents (Elt F)) (A V main_v144 : (⟨S1x128, .f32⟩ : BufTy).Contents (Elt F)) : (⟨S100000x128, .f32⟩ : BufTy).Contents (Elt F)) :=
  pc2.unary (k := 91) (y := main_v145) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v144) : (⟨S1x128, .f32⟩ : BufTy).Contents (Elt F)) : (⟨S100000x128, .f32⟩ : BufTy).Contents (Elt F))) (fun Z => rfl) V

theorem eq_main_v146 (V : Valuation τ sig (Elt F)) :
    A V main_v146 = ((mulf : (⟨S100000x128, .f32⟩ : BufTy).Contents (Elt F) → (⟨S100000x128, .f32⟩ : BufTy).Contents (Elt F) → (⟨S100000x128, .f32⟩ : BufTy).Contents (Elt F)) (A V main_v140 : (⟨S100000x128, .f32⟩ : BufTy).Contents (Elt F)) (A V main_v145 : (⟨S100000x128, .f32⟩ : BufTy).Contents (Elt F)) : (⟨S100000x128, .f32⟩ : BufTy).Contents (Elt F)) :=
  pc2.binary (k := 92) (y := main_v146) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v140) : (⟨S100000x128, .f32⟩ : BufTy).Contents (Elt F)) (Z (Proc.devRef .tc main_v145) : (⟨S100000x128, .f32⟩ : BufTy).Contents (Elt F)) : (⟨S100000x128, .f32⟩ : BufTy).Contents (Elt F))) (fun Z => rfl) V

theorem eq_main_v147 (V : Valuation τ sig (Elt F)) :
    A V main_v147 = ((broadcastInDim S1x128 ![1] bcast_S128_S1x128_1 : (⟨S128, .f32⟩ : BufTy).Contents (Elt F) → (⟨S1x128, .f32⟩ : BufTy).Contents (Elt F)) (A V main_v131 : (⟨S128, .f32⟩ : BufTy).Contents (Elt F)) : (⟨S1x128, .f32⟩ : BufTy).Contents (Elt F)) :=
  pc2.unary (k := 93) (y := main_v147) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v131) : (⟨S128, .f32⟩ : BufTy).Contents (Elt F)) : (⟨S1x128, .f32⟩ : BufTy).Contents (Elt F))) (fun Z => rfl) V

theorem eq_main_v148 (V : Valuation τ sig (Elt F)) :
    A V main_v148 = ((broadcastInDim S100000x128 ![0, 1] bcast_S1x128_S100000x128_0_1 : (⟨S1x128, .f32⟩ : BufTy).Contents (Elt F) → (⟨S100000x128, .f32⟩ : BufTy).Contents (Elt F)) (A V main_v147 : (⟨S1x128, .f32⟩ : BufTy).Contents (Elt F)) : (⟨S100000x128, .f32⟩ : BufTy).Contents (Elt F)) :=
  pc2.unary (k := 94) (y := main_v148) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v147) : (⟨S1x128, .f32⟩ : BufTy).Contents (Elt F)) : (⟨S100000x128, .f32⟩ : BufTy).Contents (Elt F))) (fun Z => rfl) V

theorem eq_main_v149 (V : Valuation τ sig (Elt F)) :
    A V main_v149 = ((mulf : (⟨S100000x128, .f32⟩ : BufTy).Contents (Elt F) → (⟨S100000x128, .f32⟩ : BufTy).Contents (Elt F) → (⟨S100000x128, .f32⟩ : BufTy).Contents (Elt F)) (A V main_v146 : (⟨S100000x128, .f32⟩ : BufTy).Contents (Elt F)) (A V main_v148 : (⟨S100000x128, .f32⟩ : BufTy).Contents (Elt F)) : (⟨S100000x128, .f32⟩ : BufTy).Contents (Elt F)) :=
  pc2.binary (k := 95) (y := main_v149) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v146) : (⟨S100000x128, .f32⟩ : BufTy).Contents (Elt F)) (Z (Proc.devRef .tc main_v148) : (⟨S100000x128, .f32⟩ : BufTy).Contents (Elt F)) : (⟨S100000x128, .f32⟩ : BufTy).Contents (Elt F))) (fun Z => rfl) V

theorem eq_main_v150 (V : Valuation τ sig (Elt F)) :
    A V main_v150 = ((broadcastInDim S1x128 ![1] bcast_S128_S1x128_1 : (⟨S128, .f32⟩ : BufTy).Contents (Elt F) → (⟨S1x128, .f32⟩ : BufTy).Contents (Elt F)) (A V main_v133 : (⟨S128, .f32⟩ : BufTy).Contents (Elt F)) : (⟨S1x128, .f32⟩ : BufTy).Contents (Elt F)) :=
  pc2.unary (k := 96) (y := main_v150) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v133) : (⟨S128, .f32⟩ : BufTy).Contents (Elt F)) : (⟨S1x128, .f32⟩ : BufTy).Contents (Elt F))) (fun Z => rfl) V

theorem eq_main_v151 (V : Valuation τ sig (Elt F)) :
    A V main_v151 = ((broadcastInDim S100000x128 ![0, 1] bcast_S1x128_S100000x128_0_1 : (⟨S1x128, .f32⟩ : BufTy).Contents (Elt F) → (⟨S100000x128, .f32⟩ : BufTy).Contents (Elt F)) (A V main_v150 : (⟨S1x128, .f32⟩ : BufTy).Contents (Elt F)) : (⟨S100000x128, .f32⟩ : BufTy).Contents (Elt F)) :=
  pc2.unary (k := 97) (y := main_v151) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v150) : (⟨S1x128, .f32⟩ : BufTy).Contents (Elt F)) : (⟨S100000x128, .f32⟩ : BufTy).Contents (Elt F))) (fun Z => rfl) V

theorem eq_main_v152 (V : Valuation τ sig (Elt F)) :
    A V main_v152 = ((addf : (⟨S100000x128, .f32⟩ : BufTy).Contents (Elt F) → (⟨S100000x128, .f32⟩ : BufTy).Contents (Elt F) → (⟨S100000x128, .f32⟩ : BufTy).Contents (Elt F)) (A V main_v149 : (⟨S100000x128, .f32⟩ : BufTy).Contents (Elt F)) (A V main_v151 : (⟨S100000x128, .f32⟩ : BufTy).Contents (Elt F)) : (⟨S100000x128, .f32⟩ : BufTy).Contents (Elt F)) :=
  pc2.binary (k := 98) (y := main_v152) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v149) : (⟨S100000x128, .f32⟩ : BufTy).Contents (Elt F)) (Z (Proc.devRef .tc main_v151) : (⟨S100000x128, .f32⟩ : BufTy).Contents (Elt F)) : (⟨S100000x128, .f32⟩ : BufTy).Contents (Elt F))) (fun Z => rfl) V

theorem eq_main_call7_cst (V : Valuation τ sig (Elt F)) :
    A V main_call7_cst = ((constant S_ .f32 0x00000000#32) : (⟨S_, .f32⟩ : BufTy).Contents (Elt F)) :=
  pc2.nullary (k := 99) (y := main_call7_cst) rfl V

theorem eq_main_call7_v0 (V : Valuation τ sig (Elt F)) :
    A V main_call7_v0 = (((broadcastInDim S100000x128 ![] bcast_S_S100000x128) : (⟨S_, .f32⟩ : BufTy).Contents (Elt F) → (⟨S100000x128, .f32⟩ : BufTy).Contents (Elt F)) (A V main_call7_cst : (⟨S_, .f32⟩ : BufTy).Contents (Elt F)) : (⟨S100000x128, .f32⟩ : BufTy).Contents (Elt F)) :=
  pc2.unary (k := 100) (y := main_call7_v0) rfl (by decide)
    (fun Z => (((broadcastInDim S100000x128 ![] bcast_S_S100000x128) : (⟨S_, .f32⟩ : BufTy).Contents (Elt F) → (⟨S100000x128, .f32⟩ : BufTy).Contents (Elt F)) (Z (Proc.devRef .tc main_call7_cst) : (⟨S_, .f32⟩ : BufTy).Contents (Elt F)) : (⟨S100000x128, .f32⟩ : BufTy).Contents (Elt F))) (fun Z => rfl) V

theorem eq_main_v153 (V : Valuation τ sig (Elt F)) :
    A V main_v153 = ((maximumf : (⟨S100000x128, .f32⟩ : BufTy).Contents (Elt F) → (⟨S100000x128, .f32⟩ : BufTy).Contents (Elt F) → (⟨S100000x128, .f32⟩ : BufTy).Contents (Elt F)) (A V main_v152 : (⟨S100000x128, .f32⟩ : BufTy).Contents (Elt F)) (A V main_call7_v0 : (⟨S100000x128, .f32⟩ : BufTy).Contents (Elt F)) : (⟨S100000x128, .f32⟩ : BufTy).Contents (Elt F)) :=
  pc2.binary (k := 101) (y := main_v153) rfl (by decide) (by decide)
    (fun Z => ((maximumf : (⟨S100000x128, .f32⟩ : BufTy).Contents (Elt F) → (⟨S100000x128, .f32⟩ : BufTy).Contents (Elt F) → (⟨S100000x128, .f32⟩ : BufTy).Contents (Elt F)) (Z (Proc.devRef .tc main_v152) : (⟨S100000x128, .f32⟩ : BufTy).Contents (Elt F)) (Z (Proc.devRef .tc main_call7_v0) : (⟨S100000x128, .f32⟩ : BufTy).Contents (Elt F)) : (⟨S100000x128, .f32⟩ : BufTy).Contents (Elt F))) (fun Z => rfl) V

theorem eq_main_c_20 (V : Valuation τ sig (Elt F)) :
    A V main_c_20 = ((constantI S_ 32 0#32) : (⟨S_, .i32⟩ : BufTy).Contents (Elt F)) :=
  pc2.nullary (k := 102) (y := main_c_20) rfl V

theorem eq_main_v154 (V : Valuation τ sig (Elt F)) :
    A V main_v154 = ((broadcastInDim S600000 ![] bcast_S_S600000 : (⟨S_, .i32⟩ : BufTy).Contents (Elt F) → (⟨S600000, .i32⟩ : BufTy).Contents (Elt F)) (A V main_c_20 : (⟨S_, .i32⟩ : BufTy).Contents (Elt F)) : (⟨S600000, .i32⟩ : BufTy).Contents (Elt F)) :=
  pc2.unary (k := 103) (y := main_v154) rfl (by decide)
    (fun Z => ((broadcastInDim S600000 ![] bcast_S_S600000 : (⟨S_, .i32⟩ : BufTy).Contents (Elt F) → (⟨S600000, .i32⟩ : BufTy).Contents (Elt F)) (Z (Proc.devRef .tc main_c_20) : (⟨S_, .i32⟩ : BufTy).Contents (Elt F)) : (⟨S600000, .i32⟩ : BufTy).Contents (Elt F))) (fun Z => rfl) V

theorem eq_main_v155 (V : Valuation τ sig (Elt F)) :
    A V main_v155 = ((cmpi .slt : (⟨S600000, .i32⟩ : BufTy).Contents (Elt F) → (⟨S600000, .i32⟩ : BufTy).Contents (Elt F) → (⟨S600000, .i1⟩ : BufTy).Contents (Elt F)) (A V main_v1 : (⟨S600000, .i32⟩ : BufTy).Contents (Elt F)) (A V main_v154 : (⟨S600000, .i32⟩ : BufTy).Contents (Elt F)) : (⟨S600000, .i1⟩ : BufTy).Contents (Elt F)) :=
  pc2.binary (k := 104) (y := main_v155) rfl (by decide) (by decide)
    (fun Z => ((cmpi .slt : (⟨S600000, .i32⟩ : BufTy).Contents (Elt F) → (⟨S600000, .i32⟩ : BufTy).Contents (Elt F) → (⟨S600000, .i1⟩ : BufTy).Contents (Elt F)) (Z (Proc.devRef .tc main_v1) : (⟨S600000, .i32⟩ : BufTy).Contents (Elt F)) (Z (Proc.devRef .tc main_v154) : (⟨S600000, .i32⟩ : BufTy).Contents (Elt F)) : (⟨S600000, .i1⟩ : BufTy).Contents (Elt F))) (fun Z => rfl) V

theorem eq_main_c_21 (V : Valuation τ sig (Elt F)) :
    A V main_c_21 = ((constantI S_ 32 100000#32) : (⟨S_, .i32⟩ : BufTy).Contents (Elt F)) :=
  pc2.nullary (k := 105) (y := main_c_21) rfl V

theorem eq_main_v156 (V : Valuation τ sig (Elt F)) :
    A V main_v156 = ((broadcastInDim S600000 ![] bcast_S_S600000 : (⟨S_, .i32⟩ : BufTy).Contents (Elt F) → (⟨S600000, .i32⟩ : BufTy).Contents (Elt F)) (A V main_c_21 : (⟨S_, .i32⟩ : BufTy).Contents (Elt F)) : (⟨S600000, .i32⟩ : BufTy).Contents (Elt F)) :=
  pc3.unary (k := 0) (y := main_v156) rfl (by decide)
    (fun Z => ((broadcastInDim S600000 ![] bcast_S_S600000 : (⟨S_, .i32⟩ : BufTy).Contents (Elt F) → (⟨S600000, .i32⟩ : BufTy).Contents (Elt F)) (Z (Proc.devRef .tc main_c_21) : (⟨S_, .i32⟩ : BufTy).Contents (Elt F)) : (⟨S600000, .i32⟩ : BufTy).Contents (Elt F))) (fun Z => rfl) V

theorem eq_main_v157 (V : Valuation τ sig (Elt F)) :
    A V main_v157 = ((addi : (⟨S600000, .i32⟩ : BufTy).Contents (Elt F) → (⟨S600000, .i32⟩ : BufTy).Contents (Elt F) → (⟨S600000, .i32⟩ : BufTy).Contents (Elt F)) (A V main_v1 : (⟨S600000, .i32⟩ : BufTy).Contents (Elt F)) (A V main_v156 : (⟨S600000, .i32⟩ : BufTy).Contents (Elt F)) : (⟨S600000, .i32⟩ : BufTy).Contents (Elt F)) :=
  pc3.binary (k := 1) (y := main_v157) rfl (by decide) (by decide)
    (fun Z => ((addi : (⟨S600000, .i32⟩ : BufTy).Contents (Elt F) → (⟨S600000, .i32⟩ : BufTy).Contents (Elt F) → (⟨S600000, .i32⟩ : BufTy).Contents (Elt F)) (Z (Proc.devRef .tc main_v1) : (⟨S600000, .i32⟩ : BufTy).Contents (Elt F)) (Z (Proc.devRef .tc main_v156) : (⟨S600000, .i32⟩ : BufTy).Contents (Elt F)) : (⟨S600000, .i32⟩ : BufTy).Contents (Elt F))) (fun Z => rfl) V

theorem eq_main_v158 (V : Valuation τ sig (Elt F)) :
    A V main_v158 = ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (A V main_v155 : (⟨S600000, .i1⟩ : BufTy).Contents (Elt F)) (A V main_v157 : (⟨S600000, .i32⟩ : BufTy).Contents (Elt F)) (A V main_v1 : (⟨S600000, .i32⟩ : BufTy).Contents (Elt F)) : (⟨S600000, .i32⟩ : BufTy).Contents (Elt F)) :=
  pc3.ternary (k := 2) (y := main_v158) rfl (by decide) (by decide) (by decide)
    (fun Z => ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (Z (Proc.devRef .tc main_v155) : (⟨S600000, .i1⟩ : BufTy).Contents (Elt F)) (Z (Proc.devRef .tc main_v157) : (⟨S600000, .i32⟩ : BufTy).Contents (Elt F)) (Z (Proc.devRef .tc main_v1) : (⟨S600000, .i32⟩ : BufTy).Contents (Elt F)) : (⟨S600000, .i32⟩ : BufTy).Contents (Elt F))) (fun Z => rfl) V

theorem eq_main_v159 (V : Valuation τ sig (Elt F)) :
    A V main_v159 = ((broadcastInDim S600000x1 ![0] bcast_S600000_S600000x1_0 : (⟨S600000, .i32⟩ : BufTy).Contents (Elt F) → (⟨S600000x1, .i32⟩ : BufTy).Contents (Elt F)) (A V main_v158 : (⟨S600000, .i32⟩ : BufTy).Contents (Elt F)) : (⟨S600000x1, .i32⟩ : BufTy).Contents (Elt F)) :=
  pc3.unary (k := 3) (y := main_v159) rfl (by decide)
    (fun Z => ((broadcastInDim S600000x1 ![0] bcast_S600000_S600000x1_0 : (⟨S600000, .i32⟩ : BufTy).Contents (Elt F) → (⟨S600000x1, .i32⟩ : BufTy).Contents (Elt F)) (Z (Proc.devRef .tc main_v158) : (⟨S600000, .i32⟩ : BufTy).Contents (Elt F)) : (⟨S600000x1, .i32⟩ : BufTy).Contents (Elt F))) (fun Z => rfl) V

theorem eq_main_v160 (V : Valuation τ sig (Elt F)) :
    A V main_v160 = (Host.gather gather_S100000x128_S600000x1_S600000x128_1_0_n_n_0_1_1128 (A V main_v153 : (⟨S100000x128, .f32⟩ : BufTy).Contents (Elt F)) (A V main_v159 : (⟨S600000x1, .i32⟩ : BufTy).Contents (Elt F)) : (⟨S600000x128, .f32⟩ : BufTy).Contents (Elt F)) :=
  pc3.binary (k := 4) (y := main_v160) rfl (by decide) (by decide)
    (fun Z => (Host.gather gather_S100000x128_S600000x1_S600000x128_1_0_n_n_0_1_1128 (Z (Proc.devRef .tc main_v153) : (⟨S100000x128, .f32⟩ : BufTy).Contents (Elt F)) (Z (Proc.devRef .tc main_v159) : (⟨S600000x1, .i32⟩ : BufTy).Contents (Elt F)) : (⟨S600000x128, .f32⟩ : BufTy).Contents (Elt F))) (fun Z => rfl) V

theorem eq_main_cst_22 (V : Valuation τ sig (Elt F)) :
    A V main_cst_22 = ((constant S_ .f32 0x00000000#32) : (⟨S_, .f32⟩ : BufTy).Contents (Elt F)) :=
  pc3.nullary (k := 5) (y := main_cst_22) rfl V

theorem eq_main_v161 (V : Valuation τ sig (Elt F)) :
    A V main_v161 = ((broadcastInDim S100000x128 ![] bcast_S_S100000x128 : (⟨S_, .f32⟩ : BufTy).Contents (Elt F) → (⟨S100000x128, .f32⟩ : BufTy).Contents (Elt F)) (A V main_cst_22 : (⟨S_, .f32⟩ : BufTy).Contents (Elt F)) : (⟨S100000x128, .f32⟩ : BufTy).Contents (Elt F)) :=
  pc3.unary (k := 6) (y := main_v161) rfl (by decide)
    (fun Z => ((broadcastInDim S100000x128 ![] bcast_S_S100000x128 : (⟨S_, .f32⟩ : BufTy).Contents (Elt F) → (⟨S100000x128, .f32⟩ : BufTy).Contents (Elt F)) (Z (Proc.devRef .tc main_cst_22) : (⟨S_, .f32⟩ : BufTy).Contents (Elt F)) : (⟨S100000x128, .f32⟩ : BufTy).Contents (Elt F))) (fun Z => rfl) V

theorem eq_main_v162 (V : Valuation τ sig (Elt F)) :
    A V main_v162 = ((broadcastInDim S600000x1 ![0] bcast_S600000_S600000x1_0 : (⟨S600000, .i32⟩ : BufTy).Contents (Elt F) → (⟨S600000x1, .i32⟩ : BufTy).Contents (Elt F)) (A V main_v3 : (⟨S600000, .i32⟩ : BufTy).Contents (Elt F)) : (⟨S600000x1, .i32⟩ : BufTy).Contents (Elt F)) :=
  pc3.unary (k := 7) (y := main_v162) rfl (by decide)
    (fun Z => ((broadcastInDim S600000x1 ![0] bcast_S600000_S600000x1_0 : (⟨S600000, .i32⟩ : BufTy).Contents (Elt F) → (⟨S600000x1, .i32⟩ : BufTy).Contents (Elt F)) (Z (Proc.devRef .tc main_v3) : (⟨S600000, .i32⟩ : BufTy).Contents (Elt F)) : (⟨S600000x1, .i32⟩ : BufTy).Contents (Elt F))) (fun Z => rfl) V

theorem eq_main_v163 (V : Valuation τ sig (Elt F)) :
    A V main_v163 = (Host.scatterAdd scatter_S100000x128_S600000x1_S600000x128_1_0_0_1 (A V main_v161 : (⟨S100000x128, .f32⟩ : BufTy).Contents (Elt F)) (A V main_v162 : (⟨S600000x1, .i32⟩ : BufTy).Contents (Elt F)) (A V main_v160 : (⟨S600000x128, .f32⟩ : BufTy).Contents (Elt F)) : (⟨S100000x128, .f32⟩ : BufTy).Contents (Elt F)) :=
  pc3.ternary (k := 8) (y := main_v163) rfl (by decide) (by decide) (by decide)
    (fun Z => (Host.scatterAdd scatter_S100000x128_S600000x1_S600000x128_1_0_0_1 (Z (Proc.devRef .tc main_v161) : (⟨S100000x128, .f32⟩ : BufTy).Contents (Elt F)) (Z (Proc.devRef .tc main_v162) : (⟨S600000x1, .i32⟩ : BufTy).Contents (Elt F)) (Z (Proc.devRef .tc main_v160) : (⟨S600000x128, .f32⟩ : BufTy).Contents (Elt F)) : (⟨S100000x128, .f32⟩ : BufTy).Contents (Elt F))) (fun Z => rfl) V

theorem eq_main_v164 (V : Valuation τ sig (Elt F)) :
    A V main_v164 = ((addf : (⟨S100000x128, .f32⟩ : BufTy).Contents (Elt F) → (⟨S100000x128, .f32⟩ : BufTy).Contents (Elt F) → (⟨S100000x128, .f32⟩ : BufTy).Contents (Elt F)) (A V main_v153 : (⟨S100000x128, .f32⟩ : BufTy).Contents (Elt F)) (A V main_v163 : (⟨S100000x128, .f32⟩ : BufTy).Contents (Elt F)) : (⟨S100000x128, .f32⟩ : BufTy).Contents (Elt F)) :=
  pc3.binary (k := 9) (y := main_v164) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v153) : (⟨S100000x128, .f32⟩ : BufTy).Contents (Elt F)) (Z (Proc.devRef .tc main_v163) : (⟨S100000x128, .f32⟩ : BufTy).Contents (Elt F)) : (⟨S100000x128, .f32⟩ : BufTy).Contents (Elt F))) (fun Z => rfl) V

theorem eq_main_v165 (V : Valuation τ sig (Elt F)) :
    A V main_v165 = (((extractStridedSlice S1x128x128 ![2, 0, 0] · slices_S4x128x128_S1x128x128_2_0_0) : (⟨S4x128x128, .f32⟩ : BufTy).Contents (Elt F) → (⟨S1x128x128, .f32⟩ : BufTy).Contents (Elt F)) (A V main_arg3 : (⟨S4x128x128, .f32⟩ : BufTy).Contents (Elt F)) : (⟨S1x128x128, .f32⟩ : BufTy).Contents (Elt F)) :=
  pc3.unary (k := 10) (y := main_v165) rfl (by decide)
    (fun Z => (((extractStridedSlice S1x128x128 ![2, 0, 0] · slices_S4x128x128_S1x128x128_2_0_0) : (⟨S4x128x128, .f32⟩ : BufTy).Contents (Elt F) → (⟨S1x128x128, .f32⟩ : BufTy).Contents (Elt F)) (Z (Proc.devRef .tc main_arg3) : (⟨S4x128x128, .f32⟩ : BufTy).Contents (Elt F)) : (⟨S1x128x128, .f32⟩ : BufTy).Contents (Elt F))) (fun Z => rfl) V

theorem eq_main_v166 (V : Valuation τ sig (Elt F)) :
    A V main_v166 = (shapeCast S128x128 (A V main_v165 : (⟨S1x128x128, .f32⟩ : BufTy).Contents (Elt F)) shapeCasts_S1x128x128_S128x128 : (⟨S128x128, .f32⟩ : BufTy).Contents (Elt F)) :=
  pc3.reshape (k := 11) (y := main_v166) rfl (by decide)
    (fun Z => (shapeCast S128x128 (Z (Proc.devRef .tc main_v165) : (⟨S1x128x128, .f32⟩ : BufTy).Contents (Elt F)) shapeCasts_S1x128x128_S128x128 : (⟨S128x128, .f32⟩ : BufTy).Contents (Elt F))) (fun Z => rfl) V

theorem eq_main_v167 (V : Valuation τ sig (Elt F)) :
    A V main_v167 = (Host.dotGeneral dot_S100000x128_S128x128_S100000x128_1_0_0_1_n_n none (A V main_v164 : (⟨S100000x128, .f32⟩ : BufTy).Contents (Elt F)) (A V main_v166 : (⟨S128x128, .f32⟩ : BufTy).Contents (Elt F)) : (⟨S100000x128, .f32⟩ : BufTy).Contents (Elt F)) :=
  pc3.binary (k := 12) (y := main_v167) rfl (by decide) (by decide)
    (fun Z => (Host.dotGeneral dot_S100000x128_S128x128_S100000x128_1_0_0_1_n_n none (Z (Proc.devRef .tc main_v164) : (⟨S100000x128, .f32⟩ : BufTy).Contents (Elt F)) (Z (Proc.devRef .tc main_v166) : (⟨S128x128, .f32⟩ : BufTy).Contents (Elt F)) : (⟨S100000x128, .f32⟩ : BufTy).Contents (Elt F))) (fun Z => rfl) V

theorem eq_main_v168 (V : Valuation τ sig (Elt F)) :
    A V main_v168 = (((extractStridedSlice S1x128 ![2, 0] · slices_S4x128_S1x128_2_0) : (⟨S4x128, .f32⟩ : BufTy).Contents (Elt F) → (⟨S1x128, .f32⟩ : BufTy).Contents (Elt F)) (A V main_arg4 : (⟨S4x128, .f32⟩ : BufTy).Contents (Elt F)) : (⟨S1x128, .f32⟩ : BufTy).Contents (Elt F)) :=
  pc3.unary (k := 13) (y := main_v168) rfl (by decide)
    (fun Z => (((extractStridedSlice S1x128 ![2, 0] · slices_S4x128_S1x128_2_0) : (⟨S4x128, .f32⟩ : BufTy).Contents (Elt F) → (⟨S1x128, .f32⟩ : BufTy).Contents (Elt F)) (Z (Proc.devRef .tc main_arg4) : (⟨S4x128, .f32⟩ : BufTy).Contents (Elt F)) : (⟨S1x128, .f32⟩ : BufTy).Contents (Elt F))) (fun Z => rfl) V

theorem eq_main_v169 (V : Valuation τ sig (Elt F)) :
    A V main_v169 = (shapeCast S128 (A V main_v168 : (⟨S1x128, .f32⟩ : BufTy).Contents (Elt F)) shapeCasts_S1x128_S128 : (⟨S128, .f32⟩ : BufTy).Contents (Elt F)) :=
  pc3.reshape (k := 14) (y := main_v169) rfl (by decide)
    (fun Z => (shapeCast S128 (Z (Proc.devRef .tc main_v168) : (⟨S1x128, .f32⟩ : BufTy).Contents (Elt F)) shapeCasts_S1x128_S128 : (⟨S128, .f32⟩ : BufTy).Contents (Elt F))) (fun Z => rfl) V

theorem eq_main_v170 (V : Valuation τ sig (Elt F)) :
    A V main_v170 = ((broadcastInDim S1x128 ![1] bcast_S128_S1x128_1 : (⟨S128, .f32⟩ : BufTy).Contents (Elt F) → (⟨S1x128, .f32⟩ : BufTy).Contents (Elt F)) (A V main_v169 : (⟨S128, .f32⟩ : BufTy).Contents (Elt F)) : (⟨S1x128, .f32⟩ : BufTy).Contents (Elt F)) :=
  pc3.unary (k := 15) (y := main_v170) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v169) : (⟨S128, .f32⟩ : BufTy).Contents (Elt F)) : (⟨S1x128, .f32⟩ : BufTy).Contents (Elt F))) (fun Z => rfl) V

theorem eq_main_v171 (V : Valuation τ sig (Elt F)) :
    A V main_v171 = ((broadcastInDim S100000x128 ![0, 1] bcast_S1x128_S100000x128_0_1 : (⟨S1x128, .f32⟩ : BufTy).Contents (Elt F) → (⟨S100000x128, .f32⟩ : BufTy).Contents (Elt F)) (A V main_v170 : (⟨S1x128, .f32⟩ : BufTy).Contents (Elt F)) : (⟨S100000x128, .f32⟩ : BufTy).Contents (Elt F)) :=
  pc3.unary (k := 16) (y := main_v171) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v170) : (⟨S1x128, .f32⟩ : BufTy).Contents (Elt F)) : (⟨S100000x128, .f32⟩ : BufTy).Contents (Elt F))) (fun Z => rfl) V

theorem eq_main_v172 (V : Valuation τ sig (Elt F)) :
    A V main_v172 = ((addf : (⟨S100000x128, .f32⟩ : BufTy).Contents (Elt F) → (⟨S100000x128, .f32⟩ : BufTy).Contents (Elt F) → (⟨S100000x128, .f32⟩ : BufTy).Contents (Elt F)) (A V main_v167 : (⟨S100000x128, .f32⟩ : BufTy).Contents (Elt F)) (A V main_v171 : (⟨S100000x128, .f32⟩ : BufTy).Contents (Elt F)) : (⟨S100000x128, .f32⟩ : BufTy).Contents (Elt F)) :=
  pc3.binary (k := 17) (y := main_v172) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v167) : (⟨S100000x128, .f32⟩ : BufTy).Contents (Elt F)) (Z (Proc.devRef .tc main_v171) : (⟨S100000x128, .f32⟩ : BufTy).Contents (Elt F)) : (⟨S100000x128, .f32⟩ : BufTy).Contents (Elt F))) (fun Z => rfl) V

theorem eq_main_v173 (V : Valuation τ sig (Elt F)) :
    A V main_v173 = (((extractStridedSlice S1x128 ![2, 0] · slices_S4x128_S1x128_2_0) : (⟨S4x128, .f32⟩ : BufTy).Contents (Elt F) → (⟨S1x128, .f32⟩ : BufTy).Contents (Elt F)) (A V main_arg5 : (⟨S4x128, .f32⟩ : BufTy).Contents (Elt F)) : (⟨S1x128, .f32⟩ : BufTy).Contents (Elt F)) :=
  pc3.unary (k := 18) (y := main_v173) rfl (by decide)
    (fun Z => (((extractStridedSlice S1x128 ![2, 0] · slices_S4x128_S1x128_2_0) : (⟨S4x128, .f32⟩ : BufTy).Contents (Elt F) → (⟨S1x128, .f32⟩ : BufTy).Contents (Elt F)) (Z (Proc.devRef .tc main_arg5) : (⟨S4x128, .f32⟩ : BufTy).Contents (Elt F)) : (⟨S1x128, .f32⟩ : BufTy).Contents (Elt F))) (fun Z => rfl) V

theorem eq_main_v174 (V : Valuation τ sig (Elt F)) :
    A V main_v174 = (shapeCast S128 (A V main_v173 : (⟨S1x128, .f32⟩ : BufTy).Contents (Elt F)) shapeCasts_S1x128_S128 : (⟨S128, .f32⟩ : BufTy).Contents (Elt F)) :=
  pc3.reshape (k := 19) (y := main_v174) rfl (by decide)
    (fun Z => (shapeCast S128 (Z (Proc.devRef .tc main_v173) : (⟨S1x128, .f32⟩ : BufTy).Contents (Elt F)) shapeCasts_S1x128_S128 : (⟨S128, .f32⟩ : BufTy).Contents (Elt F))) (fun Z => rfl) V

theorem eq_main_v175 (V : Valuation τ sig (Elt F)) :
    A V main_v175 = (((extractStridedSlice S1x128 ![2, 0] · slices_S4x128_S1x128_2_0) : (⟨S4x128, .f32⟩ : BufTy).Contents (Elt F) → (⟨S1x128, .f32⟩ : BufTy).Contents (Elt F)) (A V main_arg6 : (⟨S4x128, .f32⟩ : BufTy).Contents (Elt F)) : (⟨S1x128, .f32⟩ : BufTy).Contents (Elt F)) :=
  pc3.unary (k := 20) (y := main_v175) rfl (by decide)
    (fun Z => (((extractStridedSlice S1x128 ![2, 0] · slices_S4x128_S1x128_2_0) : (⟨S4x128, .f32⟩ : BufTy).Contents (Elt F) → (⟨S1x128, .f32⟩ : BufTy).Contents (Elt F)) (Z (Proc.devRef .tc main_arg6) : (⟨S4x128, .f32⟩ : BufTy).Contents (Elt F)) : (⟨S1x128, .f32⟩ : BufTy).Contents (Elt F))) (fun Z => rfl) V

theorem eq_main_v176 (V : Valuation τ sig (Elt F)) :
    A V main_v176 = (shapeCast S128 (A V main_v175 : (⟨S1x128, .f32⟩ : BufTy).Contents (Elt F)) shapeCasts_S1x128_S128 : (⟨S128, .f32⟩ : BufTy).Contents (Elt F)) :=
  pc3.reshape (k := 21) (y := main_v176) rfl (by decide)
    (fun Z => (shapeCast S128 (Z (Proc.devRef .tc main_v175) : (⟨S1x128, .f32⟩ : BufTy).Contents (Elt F)) shapeCasts_S1x128_S128 : (⟨S128, .f32⟩ : BufTy).Contents (Elt F))) (fun Z => rfl) V

theorem eq_main_cst_23 (V : Valuation τ sig (Elt F)) :
    A V main_cst_23 = ((constant S_ .f32 0x00000000#32) : (⟨S_, .f32⟩ : BufTy).Contents (Elt F)) :=
  pc3.nullary (k := 22) (y := main_cst_23) rfl V

theorem eq_main_v177 (V : Valuation τ sig (Elt F)) :
    A V main_v177 = (Host.reduceAdd (A V main_v172 : (⟨S100000x128, .f32⟩ : BufTy).Contents (Elt F)) (A V main_cst_23 : (⟨S_, .f32⟩ : BufTy).Contents (Elt F)) reducesTo_S100000x128_S128_d0 h_S_ : (⟨S128, .f32⟩ : BufTy).Contents (Elt F)) :=
  pc3.binary (k := 23) (y := main_v177) rfl (by decide) (by decide)
    (fun Z => (Host.reduceAdd (Z (Proc.devRef .tc main_v172) : (⟨S100000x128, .f32⟩ : BufTy).Contents (Elt F)) (Z (Proc.devRef .tc main_cst_23) : (⟨S_, .f32⟩ : BufTy).Contents (Elt F)) reducesTo_S100000x128_S128_d0 h_S_ : (⟨S128, .f32⟩ : BufTy).Contents (Elt F))) (fun Z => rfl) V

theorem eq_main_cst_24 (V : Valuation τ sig (Elt F)) :
    A V main_cst_24 = ((constant S_ .f32 0x47C35000#32) : (⟨S_, .f32⟩ : BufTy).Contents (Elt F)) :=
  pc3.nullary (k := 24) (y := main_cst_24) rfl V

theorem eq_main_v178 (V : Valuation τ sig (Elt F)) :
    A V main_v178 = ((broadcastInDim S128 ![] bcast_S_S128 : (⟨S_, .f32⟩ : BufTy).Contents (Elt F) → (⟨S128, .f32⟩ : BufTy).Contents (Elt F)) (A V main_cst_24 : (⟨S_, .f32⟩ : BufTy).Contents (Elt F)) : (⟨S128, .f32⟩ : BufTy).Contents (Elt F)) :=
  pc3.unary (k := 25) (y := main_v178) rfl (by decide)
    (fun Z => ((broadcastInDim S128 ![] bcast_S_S128 : (⟨S_, .f32⟩ : BufTy).Contents (Elt F) → (⟨S128, .f32⟩ : BufTy).Contents (Elt F)) (Z (Proc.devRef .tc main_cst_24) : (⟨S_, .f32⟩ : BufTy).Contents (Elt F)) : (⟨S128, .f32⟩ : BufTy).Contents (Elt F))) (fun Z => rfl) V

theorem eq_main_v179 (V : Valuation τ sig (Elt F)) :
    A V main_v179 = ((Host.divf : (⟨S128, .f32⟩ : BufTy).Contents (Elt F) → (⟨S128, .f32⟩ : BufTy).Contents (Elt F) → (⟨S128, .f32⟩ : BufTy).Contents (Elt F)) (A V main_v177 : (⟨S128, .f32⟩ : BufTy).Contents (Elt F)) (A V main_v178 : (⟨S128, .f32⟩ : BufTy).Contents (Elt F)) : (⟨S128, .f32⟩ : BufTy).Contents (Elt F)) :=
  pc3.binary (k := 26) (y := main_v179) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_v177) : (⟨S128, .f32⟩ : BufTy).Contents (Elt F)) (Z (Proc.devRef .tc main_v178) : (⟨S128, .f32⟩ : BufTy).Contents (Elt F)) : (⟨S128, .f32⟩ : BufTy).Contents (Elt F))) (fun Z => rfl) V

theorem eq_main_c_25 (V : Valuation τ sig (Elt F)) :
    A V main_c_25 = ((constantI S_ 32 0#32) : (⟨S_, .i32⟩ : BufTy).Contents (Elt F)) :=
  pc3.nullary (k := 27) (y := main_c_25) rfl V

theorem eq_main_call8_cst (V : Valuation τ sig (Elt F)) :
    A V main_call8_cst = ((constant S_ .f32 0x00000000#32) : (⟨S_, .f32⟩ : BufTy).Contents (Elt F)) :=
  pc3.nullary (k := 28) (y := main_call8_cst) rfl V

theorem eq_main_call8_v0 (V : Valuation τ sig (Elt F)) :
    A V main_call8_v0 = (Host.reduceAdd (A V main_v172 : (⟨S100000x128, .f32⟩ : BufTy).Contents (Elt F)) (A V main_call8_cst : (⟨S_, .f32⟩ : BufTy).Contents (Elt F)) reducesTo_S100000x128_S128_d0 h_S_ : (⟨S128, .f32⟩ : BufTy).Contents (Elt F)) :=
  pc3.binary (k := 29) (y := main_call8_v0) rfl (by decide) (by decide)
    (fun Z => (Host.reduceAdd (Z (Proc.devRef .tc main_v172) : (⟨S100000x128, .f32⟩ : BufTy).Contents (Elt F)) (Z (Proc.devRef .tc main_call8_cst) : (⟨S_, .f32⟩ : BufTy).Contents (Elt F)) reducesTo_S100000x128_S128_d0 h_S_ : (⟨S128, .f32⟩ : BufTy).Contents (Elt F))) (fun Z => rfl) V

theorem eq_main_call8_v1 (V : Valuation τ sig (Elt F)) :
    A V main_call8_v1 = (((broadcastInDim S1x128 ![1] bcast_S128_S1x128_1) : (⟨S128, .f32⟩ : BufTy).Contents (Elt F) → (⟨S1x128, .f32⟩ : BufTy).Contents (Elt F)) (A V main_call8_v0 : (⟨S128, .f32⟩ : BufTy).Contents (Elt F)) : (⟨S1x128, .f32⟩ : BufTy).Contents (Elt F)) :=
  pc3.unary (k := 30) (y := main_call8_v1) rfl (by decide)
    (fun Z => (((broadcastInDim S1x128 ![1] bcast_S128_S1x128_1) : (⟨S128, .f32⟩ : BufTy).Contents (Elt F) → (⟨S1x128, .f32⟩ : BufTy).Contents (Elt F)) (Z (Proc.devRef .tc main_call8_v0) : (⟨S128, .f32⟩ : BufTy).Contents (Elt F)) : (⟨S1x128, .f32⟩ : BufTy).Contents (Elt F))) (fun Z => rfl) V

theorem eq_main_call8_cst_0 (V : Valuation τ sig (Elt F)) :
    A V main_call8_cst_0 = ((constant S_ .f32 0x47C35000#32) : (⟨S_, .f32⟩ : BufTy).Contents (Elt F)) :=
  pc3.nullary (k := 31) (y := main_call8_cst_0) rfl V

theorem eq_main_call8_v2 (V : Valuation τ sig (Elt F)) :
    A V main_call8_v2 = (((broadcastInDim S1x128 ![] bcast_S_S1x128) : (⟨S_, .f32⟩ : BufTy).Contents (Elt F) → (⟨S1x128, .f32⟩ : BufTy).Contents (Elt F)) (A V main_call8_cst_0 : (⟨S_, .f32⟩ : BufTy).Contents (Elt F)) : (⟨S1x128, .f32⟩ : BufTy).Contents (Elt F)) :=
  pc3.unary (k := 32) (y := main_call8_v2) rfl (by decide)
    (fun Z => (((broadcastInDim S1x128 ![] bcast_S_S1x128) : (⟨S_, .f32⟩ : BufTy).Contents (Elt F) → (⟨S1x128, .f32⟩ : BufTy).Contents (Elt F)) (Z (Proc.devRef .tc main_call8_cst_0) : (⟨S_, .f32⟩ : BufTy).Contents (Elt F)) : (⟨S1x128, .f32⟩ : BufTy).Contents (Elt F))) (fun Z => rfl) V

theorem eq_main_call8_v3 (V : Valuation τ sig (Elt F)) :
    A V main_call8_v3 = ((Host.divf : (⟨S1x128, .f32⟩ : BufTy).Contents (Elt F) → (⟨S1x128, .f32⟩ : BufTy).Contents (Elt F) → (⟨S1x128, .f32⟩ : BufTy).Contents (Elt F)) (A V main_call8_v1 : (⟨S1x128, .f32⟩ : BufTy).Contents (Elt F)) (A V main_call8_v2 : (⟨S1x128, .f32⟩ : BufTy).Contents (Elt F)) : (⟨S1x128, .f32⟩ : BufTy).Contents (Elt F)) :=
  pc3.binary (k := 33) (y := main_call8_v3) rfl (by decide) (by decide)
    (fun Z => ((Host.divf : (⟨S1x128, .f32⟩ : BufTy).Contents (Elt F) → (⟨S1x128, .f32⟩ : BufTy).Contents (Elt F) → (⟨S1x128, .f32⟩ : BufTy).Contents (Elt F)) (Z (Proc.devRef .tc main_call8_v1) : (⟨S1x128, .f32⟩ : BufTy).Contents (Elt F)) (Z (Proc.devRef .tc main_call8_v2) : (⟨S1x128, .f32⟩ : BufTy).Contents (Elt F)) : (⟨S1x128, .f32⟩ : BufTy).Contents (Elt F))) (fun Z => rfl) V

theorem eq_main_call8_v4 (V : Valuation τ sig (Elt F)) :
    A V main_call8_v4 = (((broadcastInDim S100000x128 ![0, 1] bcast_S1x128_S100000x128_0_1) : (⟨S1x128, .f32⟩ : BufTy).Contents (Elt F) → (⟨S100000x128, .f32⟩ : BufTy).Contents (Elt F)) (A V main_call8_v3 : (⟨S1x128, .f32⟩ : BufTy).Contents (Elt F)) : (⟨S100000x128, .f32⟩ : BufTy).Contents (Elt F)) :=
  pc3.unary (k := 34) (y := main_call8_v4) rfl (by decide)
    (fun Z => (((broadcastInDim S100000x128 ![0, 1] bcast_S1x128_S100000x128_0_1) : (⟨S1x128, .f32⟩ : BufTy).Contents (Elt F) → (⟨S100000x128, .f32⟩ : BufTy).Contents (Elt F)) (Z (Proc.devRef .tc main_call8_v3) : (⟨S1x128, .f32⟩ : BufTy).Contents (Elt F)) : (⟨S100000x128, .f32⟩ : BufTy).Contents (Elt F))) (fun Z => rfl) V

theorem eq_main_call8_v5 (V : Valuation τ sig (Elt F)) :
    A V main_call8_v5 = ((subf : (⟨S100000x128, .f32⟩ : BufTy).Contents (Elt F) → (⟨S100000x128, .f32⟩ : BufTy).Contents (Elt F) → (⟨S100000x128, .f32⟩ : BufTy).Contents (Elt F)) (A V main_v172 : (⟨S100000x128, .f32⟩ : BufTy).Contents (Elt F)) (A V main_call8_v4 : (⟨S100000x128, .f32⟩ : BufTy).Contents (Elt F)) : (⟨S100000x128, .f32⟩ : BufTy).Contents (Elt F)) :=
  pc3.binary (k := 35) (y := main_call8_v5) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v172) : (⟨S100000x128, .f32⟩ : BufTy).Contents (Elt F)) (Z (Proc.devRef .tc main_call8_v4) : (⟨S100000x128, .f32⟩ : BufTy).Contents (Elt F)) : (⟨S100000x128, .f32⟩ : BufTy).Contents (Elt F))) (fun Z => rfl) V

theorem eq_main_call8_v6 (V : Valuation τ sig (Elt F)) :
    A V main_call8_v6 = ((mulf : (⟨S100000x128, .f32⟩ : BufTy).Contents (Elt F) → (⟨S100000x128, .f32⟩ : BufTy).Contents (Elt F) → (⟨S100000x128, .f32⟩ : BufTy).Contents (Elt F)) (A V main_call8_v5 : (⟨S100000x128, .f32⟩ : BufTy).Contents (Elt F)) (A V main_call8_v5 : (⟨S100000x128, .f32⟩ : BufTy).Contents (Elt F)) : (⟨S100000x128, .f32⟩ : BufTy).Contents (Elt F)) :=
  pc3.binary (k := 36) (y := main_call8_v6) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_call8_v5) : (⟨S100000x128, .f32⟩ : BufTy).Contents (Elt F)) (Z (Proc.devRef .tc main_call8_v5) : (⟨S100000x128, .f32⟩ : BufTy).Contents (Elt F)) : (⟨S100000x128, .f32⟩ : BufTy).Contents (Elt F))) (fun Z => rfl) V

theorem eq_main_call8_v7 (V : Valuation τ sig (Elt F)) :
    A V main_call8_v7 = (((sitofp .f32) : (⟨S_, .i32⟩ : BufTy).Contents (Elt F) → (⟨S_, .f32⟩ : BufTy).Contents (Elt F)) (A V main_c_25 : (⟨S_, .i32⟩ : BufTy).Contents (Elt F)) : (⟨S_, .f32⟩ : BufTy).Contents (Elt F)) :=
  pc3.unary (k := 37) (y := main_call8_v7) rfl (by decide)
    (fun Z => (((sitofp .f32) : (⟨S_, .i32⟩ : BufTy).Contents (Elt F) → (⟨S_, .f32⟩ : BufTy).Contents (Elt F)) (Z (Proc.devRef .tc main_c_25) : (⟨S_, .i32⟩ : BufTy).Contents (Elt F)) : (⟨S_, .f32⟩ : BufTy).Contents (Elt F))) (fun Z => rfl) V

theorem eq_main_call8_cst_1 (V : Valuation τ sig (Elt F)) :
    A V main_call8_cst_1 = ((constant S_ .f32 0x47C35000#32) : (⟨S_, .f32⟩ : BufTy).Contents (Elt F)) :=
  pc3.nullary (k := 38) (y := main_call8_cst_1) rfl V

theorem eq_main_call8_v8 (V : Valuation τ sig (Elt F)) :
    A V main_call8_v8 = ((subf : (⟨S_, .f32⟩ : BufTy).Contents (Elt F) → (⟨S_, .f32⟩ : BufTy).Contents (Elt F) → (⟨S_, .f32⟩ : BufTy).Contents (Elt F)) (A V main_call8_cst_1 : (⟨S_, .f32⟩ : BufTy).Contents (Elt F)) (A V main_call8_v7 : (⟨S_, .f32⟩ : BufTy).Contents (Elt F)) : (⟨S_, .f32⟩ : BufTy).Contents (Elt F)) :=
  pc3.binary (k := 39) (y := main_call8_v8) rfl (by decide) (by decide)
    (fun Z => ((subf : (⟨S_, .f32⟩ : BufTy).Contents (Elt F) → (⟨S_, .f32⟩ : BufTy).Contents (Elt F) → (⟨S_, .f32⟩ : BufTy).Contents (Elt F)) (Z (Proc.devRef .tc main_call8_cst_1) : (⟨S_, .f32⟩ : BufTy).Contents (Elt F)) (Z (Proc.devRef .tc main_call8_v7) : (⟨S_, .f32⟩ : BufTy).Contents (Elt F)) : (⟨S_, .f32⟩ : BufTy).Contents (Elt F))) (fun Z => rfl) V

theorem eq_main_call8_cst_2 (V : Valuation τ sig (Elt F)) :
    A V main_call8_cst_2 = ((constant S_ .f32 0x00000000#32) : (⟨S_, .f32⟩ : BufTy).Contents (Elt F)) :=
  pc3.nullary (k := 40) (y := main_call8_cst_2) rfl V

theorem eq_main_call8_v9 (V : Valuation τ sig (Elt F)) :
    A V main_call8_v9 = (Host.reduceAdd (A V main_call8_v6 : (⟨S100000x128, .f32⟩ : BufTy).Contents (Elt F)) (A V main_call8_cst_2 : (⟨S_, .f32⟩ : BufTy).Contents (Elt F)) reducesTo_S100000x128_S128_d0 h_S_ : (⟨S128, .f32⟩ : BufTy).Contents (Elt F)) :=
  pc3.binary (k := 41) (y := main_call8_v9) rfl (by decide) (by decide)
    (fun Z => (Host.reduceAdd (Z (Proc.devRef .tc main_call8_v6) : (⟨S100000x128, .f32⟩ : BufTy).Contents (Elt F)) (Z (Proc.devRef .tc main_call8_cst_2) : (⟨S_, .f32⟩ : BufTy).Contents (Elt F)) reducesTo_S100000x128_S128_d0 h_S_ : (⟨S128, .f32⟩ : BufTy).Contents (Elt F))) (fun Z => rfl) V

theorem eq_main_call8_v10 (V : Valuation τ sig (Elt F)) :
    A V main_call8_v10 = (((broadcastInDim S128 ![] bcast_S_S128) : (⟨S_, .f32⟩ : BufTy).Contents (Elt F) → (⟨S128, .f32⟩ : BufTy).Contents (Elt F)) (A V main_call8_v8 : (⟨S_, .f32⟩ : BufTy).Contents (Elt F)) : (⟨S128, .f32⟩ : BufTy).Contents (Elt F)) :=
  pc3.unary (k := 42) (y := main_call8_v10) rfl (by decide)
    (fun Z => (((broadcastInDim S128 ![] bcast_S_S128) : (⟨S_, .f32⟩ : BufTy).Contents (Elt F) → (⟨S128, .f32⟩ : BufTy).Contents (Elt F)) (Z (Proc.devRef .tc main_call8_v8) : (⟨S_, .f32⟩ : BufTy).Contents (Elt F)) : (⟨S128, .f32⟩ : BufTy).Contents (Elt F))) (fun Z => rfl) V

theorem eq_main_call8_v11 (V : Valuation τ sig (Elt F)) :
    A V main_call8_v11 = ((Host.divf : (⟨S128, .f32⟩ : BufTy).Contents (Elt F) → (⟨S128, .f32⟩ : BufTy).Contents (Elt F) → (⟨S128, .f32⟩ : BufTy).Contents (Elt F)) (A V main_call8_v9 : (⟨S128, .f32⟩ : BufTy).Contents (Elt F)) (A V main_call8_v10 : (⟨S128, .f32⟩ : BufTy).Contents (Elt F)) : (⟨S128, .f32⟩ : BufTy).Contents (Elt F)) :=
  pc3.binary (k := 43) (y := main_call8_v11) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_call8_v9) : (⟨S128, .f32⟩ : BufTy).Contents (Elt F)) (Z (Proc.devRef .tc main_call8_v10) : (⟨S128, .f32⟩ : BufTy).Contents (Elt F)) : (⟨S128, .f32⟩ : BufTy).Contents (Elt F))) (fun Z => rfl) V

theorem eq_main_call8_cst_3 (V : Valuation τ sig (Elt F)) :
    A V main_call8_cst_3 = ((constant S_ .f32 0x00000000#32) : (⟨S_, .f32⟩ : BufTy).Contents (Elt F)) :=
  pc3.nullary (k := 44) (y := main_call8_cst_3) rfl V

theorem eq_main_call8_v12 (V : Valuation τ sig (Elt F)) :
    A V main_call8_v12 = (((cmpf .ogt) : (⟨S_, .f32⟩ : BufTy).Contents (Elt F) → (⟨S_, .f32⟩ : BufTy).Contents (Elt F) → (⟨S_, .i1⟩ : BufTy).Contents (Elt F)) (A V main_call8_v8 : (⟨S_, .f32⟩ : BufTy).Contents (Elt F)) (A V main_call8_cst_3 : (⟨S_, .f32⟩ : BufTy).Contents (Elt F)) : (⟨S_, .i1⟩ : BufTy).Contents (Elt F)) :=
  pc3.binary (k := 45) (y := main_call8_v12) rfl (by decide) (by decide)
    (fun Z => (((cmpf .ogt) : (⟨S_, .f32⟩ : BufTy).Contents (Elt F) → (⟨S_, .f32⟩ : BufTy).Contents (Elt F) → (⟨S_, .i1⟩ : BufTy).Contents (Elt F)) (Z (Proc.devRef .tc main_call8_v8) : (⟨S_, .f32⟩ : BufTy).Contents (Elt F)) (Z (Proc.devRef .tc main_call8_cst_3) : (⟨S_, .f32⟩ : BufTy).Contents (Elt F)) : (⟨S_, .i1⟩ : BufTy).Contents (Elt F))) (fun Z => rfl) V

theorem eq_main_call8_cst_4 (V : Valuation τ sig (Elt F)) :
    A V main_call8_cst_4 = ((constant S_ .f32 0x7FC00000#32) : (⟨S_, .f32⟩ : BufTy).Contents (Elt F)) :=
  pc3.nullary (k := 46) (y := main_call8_cst_4) rfl V

theorem eq_main_call8_call0_v0 (V : Valuation τ sig (Elt F)) :
    A V main_call8_call0_v0 = ((id : (⟨S_, .f32⟩ : BufTy).Contents (Elt F) → (⟨S_, .f32⟩ : BufTy).Contents (Elt F)) (A V main_call8_cst_4 : (⟨S_, .f32⟩ : BufTy).Contents (Elt F)) : (⟨S_, .f32⟩ : BufTy).Contents (Elt F)) :=
  pc3.unary (k := 47) (y := main_call8_call0_v0) rfl (by decide)
    (fun Z => ((id : (⟨S_, .f32⟩ : BufTy).Contents (Elt F) → (⟨S_, .f32⟩ : BufTy).Contents (Elt F)) (Z (Proc.devRef .tc main_call8_cst_4) : (⟨S_, .f32⟩ : BufTy).Contents (Elt F)) : (⟨S_, .f32⟩ : BufTy).Contents (Elt F))) (fun Z => rfl) V

theorem eq_main_call8_call0_v1 (V : Valuation τ sig (Elt F)) :
    A V main_call8_call0_v1 = (((broadcastInDim S128 ![] bcast_S_S128) : (⟨S_, .f32⟩ : BufTy).Contents (Elt F) → (⟨S128, .f32⟩ : BufTy).Contents (Elt F)) (A V main_call8_call0_v0 : (⟨S_, .f32⟩ : BufTy).Contents (Elt F)) : (⟨S128, .f32⟩ : BufTy).Contents (Elt F)) :=
  pc3.unary (k := 48) (y := main_call8_call0_v1) rfl (by decide)
    (fun Z => (((broadcastInDim S128 ![] bcast_S_S128) : (⟨S_, .f32⟩ : BufTy).Contents (Elt F) → (⟨S128, .f32⟩ : BufTy).Contents (Elt F)) (Z (Proc.devRef .tc main_call8_call0_v0) : (⟨S_, .f32⟩ : BufTy).Contents (Elt F)) : (⟨S128, .f32⟩ : BufTy).Contents (Elt F))) (fun Z => rfl) V

theorem eq_main_v180 (V : Valuation τ sig (Elt F)) :
    A V main_v180 = (select ((broadcastInDim S128 ![] bcast_S_S128 : (⟨S_, .i1⟩ : BufTy).Contents (Elt F) → (⟨S128, .i1⟩ : BufTy).Contents (Elt F)) (A V main_call8_v12 : (⟨S_, .i1⟩ : BufTy).Contents (Elt F))) (A V main_call8_v11 : (⟨S128, .f32⟩ : BufTy).Contents (Elt F)) (A V main_call8_call0_v1 : (⟨S128, .f32⟩ : BufTy).Contents (Elt F)) : (⟨S128, .f32⟩ : BufTy).Contents (Elt F)) :=
  pc3.ternary (k := 49) (y := main_v180) rfl (by decide) (by decide) (by decide)
    (fun Z => (select ((broadcastInDim S128 ![] bcast_S_S128 : (⟨S_, .i1⟩ : BufTy).Contents (Elt F) → (⟨S128, .i1⟩ : BufTy).Contents (Elt F)) (Z (Proc.devRef .tc main_call8_v12) : (⟨S_, .i1⟩ : BufTy).Contents (Elt F))) (Z (Proc.devRef .tc main_call8_v11) : (⟨S128, .f32⟩ : BufTy).Contents (Elt F)) (Z (Proc.devRef .tc main_call8_call0_v1) : (⟨S128, .f32⟩ : BufTy).Contents (Elt F)) : (⟨S128, .f32⟩ : BufTy).Contents (Elt F))) (fun Z => rfl) V

theorem eq_main_v181 (V : Valuation τ sig (Elt F)) :
    A V main_v181 = ((broadcastInDim S1x128 ![1] bcast_S128_S1x128_1 : (⟨S128, .f32⟩ : BufTy).Contents (Elt F) → (⟨S1x128, .f32⟩ : BufTy).Contents (Elt F)) (A V main_v179 : (⟨S128, .f32⟩ : BufTy).Contents (Elt F)) : (⟨S1x128, .f32⟩ : BufTy).Contents (Elt F)) :=
  pc3.unary (k := 50) (y := main_v181) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v179) : (⟨S128, .f32⟩ : BufTy).Contents (Elt F)) : (⟨S1x128, .f32⟩ : BufTy).Contents (Elt F))) (fun Z => rfl) V

theorem eq_main_v182 (V : Valuation τ sig (Elt F)) :
    A V main_v182 = ((broadcastInDim S100000x128 ![0, 1] bcast_S1x128_S100000x128_0_1 : (⟨S1x128, .f32⟩ : BufTy).Contents (Elt F) → (⟨S100000x128, .f32⟩ : BufTy).Contents (Elt F)) (A V main_v181 : (⟨S1x128, .f32⟩ : BufTy).Contents (Elt F)) : (⟨S100000x128, .f32⟩ : BufTy).Contents (Elt F)) :=
  pc3.unary (k := 51) (y := main_v182) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v181) : (⟨S1x128, .f32⟩ : BufTy).Contents (Elt F)) : (⟨S100000x128, .f32⟩ : BufTy).Contents (Elt F))) (fun Z => rfl) V

theorem eq_main_v183 (V : Valuation τ sig (Elt F)) :
    A V main_v183 = ((subf : (⟨S100000x128, .f32⟩ : BufTy).Contents (Elt F) → (⟨S100000x128, .f32⟩ : BufTy).Contents (Elt F) → (⟨S100000x128, .f32⟩ : BufTy).Contents (Elt F)) (A V main_v172 : (⟨S100000x128, .f32⟩ : BufTy).Contents (Elt F)) (A V main_v182 : (⟨S100000x128, .f32⟩ : BufTy).Contents (Elt F)) : (⟨S100000x128, .f32⟩ : BufTy).Contents (Elt F)) :=
  pc3.binary (k := 52) (y := main_v183) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v172) : (⟨S100000x128, .f32⟩ : BufTy).Contents (Elt F)) (Z (Proc.devRef .tc main_v182) : (⟨S100000x128, .f32⟩ : BufTy).Contents (Elt F)) : (⟨S100000x128, .f32⟩ : BufTy).Contents (Elt F))) (fun Z => rfl) V

theorem eq_main_cst_26 (V : Valuation τ sig (Elt F)) :
    A V main_cst_26 = ((constant S_ .f32 0x3727C5AC#32) : (⟨S_, .f32⟩ : BufTy).Contents (Elt F)) :=
  pc3.nullary (k := 53) (y := main_cst_26) rfl V

theorem eq_main_v184 (V : Valuation τ sig (Elt F)) :
    A V main_v184 = ((broadcastInDim S128 ![] bcast_S_S128 : (⟨S_, .f32⟩ : BufTy).Contents (Elt F) → (⟨S128, .f32⟩ : BufTy).Contents (Elt F)) (A V main_cst_26 : (⟨S_, .f32⟩ : BufTy).Contents (Elt F)) : (⟨S128, .f32⟩ : BufTy).Contents (Elt F)) :=
  pc3.unary (k := 54) (y := main_v184) rfl (by decide)
    (fun Z => ((broadcastInDim S128 ![] bcast_S_S128 : (⟨S_, .f32⟩ : BufTy).Contents (Elt F) → (⟨S128, .f32⟩ : BufTy).Contents (Elt F)) (Z (Proc.devRef .tc main_cst_26) : (⟨S_, .f32⟩ : BufTy).Contents (Elt F)) : (⟨S128, .f32⟩ : BufTy).Contents (Elt F))) (fun Z => rfl) V

theorem eq_main_v185 (V : Valuation τ sig (Elt F)) :
    A V main_v185 = ((addf : (⟨S128, .f32⟩ : BufTy).Contents (Elt F) → (⟨S128, .f32⟩ : BufTy).Contents (Elt F) → (⟨S128, .f32⟩ : BufTy).Contents (Elt F)) (A V main_v180 : (⟨S128, .f32⟩ : BufTy).Contents (Elt F)) (A V main_v184 : (⟨S128, .f32⟩ : BufTy).Contents (Elt F)) : (⟨S128, .f32⟩ : BufTy).Contents (Elt F)) :=
  pc3.binary (k := 55) (y := main_v185) rfl (by decide) (by decide)
    (fun Z => ((addf : (⟨S128, .f32⟩ : BufTy).Contents (Elt F) → (⟨S128, .f32⟩ : BufTy).Contents (Elt F) → (⟨S128, .f32⟩ : BufTy).Contents (Elt F)) (Z (Proc.devRef .tc main_v180) : (⟨S128, .f32⟩ : BufTy).Contents (Elt F)) (Z (Proc.devRef .tc main_v184) : (⟨S128, .f32⟩ : BufTy).Contents (Elt F)) : (⟨S128, .f32⟩ : BufTy).Contents (Elt F))) (fun Z => rfl) V

theorem eq_main_v186 (V : Valuation τ sig (Elt F)) :
    A V main_v186 = ((Host.rsqrt : (⟨S128, .f32⟩ : BufTy).Contents (Elt F) → (⟨S128, .f32⟩ : BufTy).Contents (Elt F)) (A V main_v185 : (⟨S128, .f32⟩ : BufTy).Contents (Elt F)) : (⟨S128, .f32⟩ : BufTy).Contents (Elt F)) :=
  pc3.unary (k := 56) (y := main_v186) rfl (by decide)
    (fun Z => ((Host.rsqrt : (⟨S128, .f32⟩ : BufTy).Contents (Elt F) → (⟨S128, .f32⟩ : BufTy).Contents (Elt F)) (Z (Proc.devRef .tc main_v185) : (⟨S128, .f32⟩ : BufTy).Contents (Elt F)) : (⟨S128, .f32⟩ : BufTy).Contents (Elt F))) (fun Z => rfl) V

theorem eq_main_v187 (V : Valuation τ sig (Elt F)) :
    A V main_v187 = ((broadcastInDim S1x128 ![1] bcast_S128_S1x128_1 : (⟨S128, .f32⟩ : BufTy).Contents (Elt F) → (⟨S1x128, .f32⟩ : BufTy).Contents (Elt F)) (A V main_v186 : (⟨S128, .f32⟩ : BufTy).Contents (Elt F)) : (⟨S1x128, .f32⟩ : BufTy).Contents (Elt F)) :=
  pc3.unary (k := 57) (y := main_v187) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v186) : (⟨S128, .f32⟩ : BufTy).Contents (Elt F)) : (⟨S1x128, .f32⟩ : BufTy).Contents (Elt F))) (fun Z => rfl) V

theorem eq_main_v188 (V : Valuation τ sig (Elt F)) :
    A V main_v188 = ((broadcastInDim S100000x128 ![0, 1] bcast_S1x128_S100000x128_0_1 : (⟨S1x128, .f32⟩ : BufTy).Contents (Elt F) → (⟨S100000x128, .f32⟩ : BufTy).Contents (Elt F)) (A V main_v187 : (⟨S1x128, .f32⟩ : BufTy).Contents (Elt F)) : (⟨S100000x128, .f32⟩ : BufTy).Contents (Elt F)) :=
  pc3.unary (k := 58) (y := main_v188) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v187) : (⟨S1x128, .f32⟩ : BufTy).Contents (Elt F)) : (⟨S100000x128, .f32⟩ : BufTy).Contents (Elt F))) (fun Z => rfl) V

theorem eq_main_v189 (V : Valuation τ sig (Elt F)) :
    A V main_v189 = ((mulf : (⟨S100000x128, .f32⟩ : BufTy).Contents (Elt F) → (⟨S100000x128, .f32⟩ : BufTy).Contents (Elt F) → (⟨S100000x128, .f32⟩ : BufTy).Contents (Elt F)) (A V main_v183 : (⟨S100000x128, .f32⟩ : BufTy).Contents (Elt F)) (A V main_v188 : (⟨S100000x128, .f32⟩ : BufTy).Contents (Elt F)) : (⟨S100000x128, .f32⟩ : BufTy).Contents (Elt F)) :=
  pc3.binary (k := 59) (y := main_v189) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v183) : (⟨S100000x128, .f32⟩ : BufTy).Contents (Elt F)) (Z (Proc.devRef .tc main_v188) : (⟨S100000x128, .f32⟩ : BufTy).Contents (Elt F)) : (⟨S100000x128, .f32⟩ : BufTy).Contents (Elt F))) (fun Z => rfl) V

theorem eq_main_v190 (V : Valuation τ sig (Elt F)) :
    A V main_v190 = ((broadcastInDim S1x128 ![1] bcast_S128_S1x128_1 : (⟨S128, .f32⟩ : BufTy).Contents (Elt F) → (⟨S1x128, .f32⟩ : BufTy).Contents (Elt F)) (A V main_v174 : (⟨S128, .f32⟩ : BufTy).Contents (Elt F)) : (⟨S1x128, .f32⟩ : BufTy).Contents (Elt F)) :=
  pc3.unary (k := 60) (y := main_v190) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v174) : (⟨S128, .f32⟩ : BufTy).Contents (Elt F)) : (⟨S1x128, .f32⟩ : BufTy).Contents (Elt F))) (fun Z => rfl) V

theorem eq_main_v191 (V : Valuation τ sig (Elt F)) :
    A V main_v191 = ((broadcastInDim S100000x128 ![0, 1] bcast_S1x128_S100000x128_0_1 : (⟨S1x128, .f32⟩ : BufTy).Contents (Elt F) → (⟨S100000x128, .f32⟩ : BufTy).Contents (Elt F)) (A V main_v190 : (⟨S1x128, .f32⟩ : BufTy).Contents (Elt F)) : (⟨S100000x128, .f32⟩ : BufTy).Contents (Elt F)) :=
  pc3.unary (k := 61) (y := main_v191) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v190) : (⟨S1x128, .f32⟩ : BufTy).Contents (Elt F)) : (⟨S100000x128, .f32⟩ : BufTy).Contents (Elt F))) (fun Z => rfl) V

theorem eq_main_v192 (V : Valuation τ sig (Elt F)) :
    A V main_v192 = ((mulf : (⟨S100000x128, .f32⟩ : BufTy).Contents (Elt F) → (⟨S100000x128, .f32⟩ : BufTy).Contents (Elt F) → (⟨S100000x128, .f32⟩ : BufTy).Contents (Elt F)) (A V main_v189 : (⟨S100000x128, .f32⟩ : BufTy).Contents (Elt F)) (A V main_v191 : (⟨S100000x128, .f32⟩ : BufTy).Contents (Elt F)) : (⟨S100000x128, .f32⟩ : BufTy).Contents (Elt F)) :=
  pc3.binary (k := 62) (y := main_v192) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v189) : (⟨S100000x128, .f32⟩ : BufTy).Contents (Elt F)) (Z (Proc.devRef .tc main_v191) : (⟨S100000x128, .f32⟩ : BufTy).Contents (Elt F)) : (⟨S100000x128, .f32⟩ : BufTy).Contents (Elt F))) (fun Z => rfl) V

theorem eq_main_v193 (V : Valuation τ sig (Elt F)) :
    A V main_v193 = ((broadcastInDim S1x128 ![1] bcast_S128_S1x128_1 : (⟨S128, .f32⟩ : BufTy).Contents (Elt F) → (⟨S1x128, .f32⟩ : BufTy).Contents (Elt F)) (A V main_v176 : (⟨S128, .f32⟩ : BufTy).Contents (Elt F)) : (⟨S1x128, .f32⟩ : BufTy).Contents (Elt F)) :=
  pc3.unary (k := 63) (y := main_v193) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v176) : (⟨S128, .f32⟩ : BufTy).Contents (Elt F)) : (⟨S1x128, .f32⟩ : BufTy).Contents (Elt F))) (fun Z => rfl) V

theorem eq_main_v194 (V : Valuation τ sig (Elt F)) :
    A V main_v194 = ((broadcastInDim S100000x128 ![0, 1] bcast_S1x128_S100000x128_0_1 : (⟨S1x128, .f32⟩ : BufTy).Contents (Elt F) → (⟨S100000x128, .f32⟩ : BufTy).Contents (Elt F)) (A V main_v193 : (⟨S1x128, .f32⟩ : BufTy).Contents (Elt F)) : (⟨S100000x128, .f32⟩ : BufTy).Contents (Elt F)) :=
  pc3.unary (k := 64) (y := main_v194) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v193) : (⟨S1x128, .f32⟩ : BufTy).Contents (Elt F)) : (⟨S100000x128, .f32⟩ : BufTy).Contents (Elt F))) (fun Z => rfl) V

theorem eq_main_v195 (V : Valuation τ sig (Elt F)) :
    A V main_v195 = ((addf : (⟨S100000x128, .f32⟩ : BufTy).Contents (Elt F) → (⟨S100000x128, .f32⟩ : BufTy).Contents (Elt F) → (⟨S100000x128, .f32⟩ : BufTy).Contents (Elt F)) (A V main_v192 : (⟨S100000x128, .f32⟩ : BufTy).Contents (Elt F)) (A V main_v194 : (⟨S100000x128, .f32⟩ : BufTy).Contents (Elt F)) : (⟨S100000x128, .f32⟩ : BufTy).Contents (Elt F)) :=
  pc3.binary (k := 65) (y := main_v195) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v192) : (⟨S100000x128, .f32⟩ : BufTy).Contents (Elt F)) (Z (Proc.devRef .tc main_v194) : (⟨S100000x128, .f32⟩ : BufTy).Contents (Elt F)) : (⟨S100000x128, .f32⟩ : BufTy).Contents (Elt F))) (fun Z => rfl) V

theorem eq_main_call9_cst (V : Valuation τ sig (Elt F)) :
    A V main_call9_cst = ((constant S_ .f32 0x00000000#32) : (⟨S_, .f32⟩ : BufTy).Contents (Elt F)) :=
  pc3.nullary (k := 66) (y := main_call9_cst) rfl V

theorem eq_main_call9_v0 (V : Valuation τ sig (Elt F)) :
    A V main_call9_v0 = (((broadcastInDim S100000x128 ![] bcast_S_S100000x128) : (⟨S_, .f32⟩ : BufTy).Contents (Elt F) → (⟨S100000x128, .f32⟩ : BufTy).Contents (Elt F)) (A V main_call9_cst : (⟨S_, .f32⟩ : BufTy).Contents (Elt F)) : (⟨S100000x128, .f32⟩ : BufTy).Contents (Elt F)) :=
  pc3.unary (k := 67) (y := main_call9_v0) rfl (by decide)
    (fun Z => (((broadcastInDim S100000x128 ![] bcast_S_S100000x128) : (⟨S_, .f32⟩ : BufTy).Contents (Elt F) → (⟨S100000x128, .f32⟩ : BufTy).Contents (Elt F)) (Z (Proc.devRef .tc main_call9_cst) : (⟨S_, .f32⟩ : BufTy).Contents (Elt F)) : (⟨S100000x128, .f32⟩ : BufTy).Contents (Elt F))) (fun Z => rfl) V

theorem eq_main_v196 (V : Valuation τ sig (Elt F)) :
    A V main_v196 = ((maximumf : (⟨S100000x128, .f32⟩ : BufTy).Contents (Elt F) → (⟨S100000x128, .f32⟩ : BufTy).Contents (Elt F) → (⟨S100000x128, .f32⟩ : BufTy).Contents (Elt F)) (A V main_v195 : (⟨S100000x128, .f32⟩ : BufTy).Contents (Elt F)) (A V main_call9_v0 : (⟨S100000x128, .f32⟩ : BufTy).Contents (Elt F)) : (⟨S100000x128, .f32⟩ : BufTy).Contents (Elt F)) :=
  pc3.binary (k := 68) (y := main_v196) rfl (by decide) (by decide)
    (fun Z => ((maximumf : (⟨S100000x128, .f32⟩ : BufTy).Contents (Elt F) → (⟨S100000x128, .f32⟩ : BufTy).Contents (Elt F) → (⟨S100000x128, .f32⟩ : BufTy).Contents (Elt F)) (Z (Proc.devRef .tc main_v195) : (⟨S100000x128, .f32⟩ : BufTy).Contents (Elt F)) (Z (Proc.devRef .tc main_call9_v0) : (⟨S100000x128, .f32⟩ : BufTy).Contents (Elt F)) : (⟨S100000x128, .f32⟩ : BufTy).Contents (Elt F))) (fun Z => rfl) V

theorem eq_main_v197 (V : Valuation τ sig (Elt F)) :
    A V main_v197 = (((extractStridedSlice S1x128x128 ![2, 0, 0] · slices_S4x128x128_S1x128x128_2_0_0) : (⟨S4x128x128, .f32⟩ : BufTy).Contents (Elt F) → (⟨S1x128x128, .f32⟩ : BufTy).Contents (Elt F)) (A V main_arg7 : (⟨S4x128x128, .f32⟩ : BufTy).Contents (Elt F)) : (⟨S1x128x128, .f32⟩ : BufTy).Contents (Elt F)) :=
  pc3.unary (k := 69) (y := main_v197) rfl (by decide)
    (fun Z => (((extractStridedSlice S1x128x128 ![2, 0, 0] · slices_S4x128x128_S1x128x128_2_0_0) : (⟨S4x128x128, .f32⟩ : BufTy).Contents (Elt F) → (⟨S1x128x128, .f32⟩ : BufTy).Contents (Elt F)) (Z (Proc.devRef .tc main_arg7) : (⟨S4x128x128, .f32⟩ : BufTy).Contents (Elt F)) : (⟨S1x128x128, .f32⟩ : BufTy).Contents (Elt F))) (fun Z => rfl) V

theorem eq_main_v198 (V : Valuation τ sig (Elt F)) :
    A V main_v198 = (shapeCast S128x128 (A V main_v197 : (⟨S1x128x128, .f32⟩ : BufTy).Contents (Elt F)) shapeCasts_S1x128x128_S128x128 : (⟨S128x128, .f32⟩ : BufTy).Contents (Elt F)) :=
  pc3.reshape (k := 70) (y := main_v198) rfl (by decide)
    (fun Z => (shapeCast S128x128 (Z (Proc.devRef .tc main_v197) : (⟨S1x128x128, .f32⟩ : BufTy).Contents (Elt F)) shapeCasts_S1x128x128_S128x128 : (⟨S128x128, .f32⟩ : BufTy).Contents (Elt F))) (fun Z => rfl) V

theorem eq_main_v199 (V : Valuation τ sig (Elt F)) :
    A V main_v199 = (Host.dotGeneral dot_S100000x128_S128x128_S100000x128_1_0_0_1_n_n none (A V main_v196 : (⟨S100000x128, .f32⟩ : BufTy).Contents (Elt F)) (A V main_v198 : (⟨S128x128, .f32⟩ : BufTy).Contents (Elt F)) : (⟨S100000x128, .f32⟩ : BufTy).Contents (Elt F)) :=
  pc3.binary (k := 71) (y := main_v199) rfl (by decide) (by decide)
    (fun Z => (Host.dotGeneral dot_S100000x128_S128x128_S100000x128_1_0_0_1_n_n none (Z (Proc.devRef .tc main_v196) : (⟨S100000x128, .f32⟩ : BufTy).Contents (Elt F)) (Z (Proc.devRef .tc main_v198) : (⟨S128x128, .f32⟩ : BufTy).Contents (Elt F)) : (⟨S100000x128, .f32⟩ : BufTy).Contents (Elt F))) (fun Z => rfl) V

theorem eq_main_v200 (V : Valuation τ sig (Elt F)) :
    A V main_v200 = (((extractStridedSlice S1x128 ![2, 0] · slices_S4x128_S1x128_2_0) : (⟨S4x128, .f32⟩ : BufTy).Contents (Elt F) → (⟨S1x128, .f32⟩ : BufTy).Contents (Elt F)) (A V main_arg8 : (⟨S4x128, .f32⟩ : BufTy).Contents (Elt F)) : (⟨S1x128, .f32⟩ : BufTy).Contents (Elt F)) :=
  pc3.unary (k := 72) (y := main_v200) rfl (by decide)
    (fun Z => (((extractStridedSlice S1x128 ![2, 0] · slices_S4x128_S1x128_2_0) : (⟨S4x128, .f32⟩ : BufTy).Contents (Elt F) → (⟨S1x128, .f32⟩ : BufTy).Contents (Elt F)) (Z (Proc.devRef .tc main_arg8) : (⟨S4x128, .f32⟩ : BufTy).Contents (Elt F)) : (⟨S1x128, .f32⟩ : BufTy).Contents (Elt F))) (fun Z => rfl) V

theorem eq_main_v201 (V : Valuation τ sig (Elt F)) :
    A V main_v201 = (shapeCast S128 (A V main_v200 : (⟨S1x128, .f32⟩ : BufTy).Contents (Elt F)) shapeCasts_S1x128_S128 : (⟨S128, .f32⟩ : BufTy).Contents (Elt F)) :=
  pc3.reshape (k := 73) (y := main_v201) rfl (by decide)
    (fun Z => (shapeCast S128 (Z (Proc.devRef .tc main_v200) : (⟨S1x128, .f32⟩ : BufTy).Contents (Elt F)) shapeCasts_S1x128_S128 : (⟨S128, .f32⟩ : BufTy).Contents (Elt F))) (fun Z => rfl) V

theorem eq_main_v202 (V : Valuation τ sig (Elt F)) :
    A V main_v202 = ((broadcastInDim S1x128 ![1] bcast_S128_S1x128_1 : (⟨S128, .f32⟩ : BufTy).Contents (Elt F) → (⟨S1x128, .f32⟩ : BufTy).Contents (Elt F)) (A V main_v201 : (⟨S128, .f32⟩ : BufTy).Contents (Elt F)) : (⟨S1x128, .f32⟩ : BufTy).Contents (Elt F)) :=
  pc3.unary (k := 74) (y := main_v202) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v201) : (⟨S128, .f32⟩ : BufTy).Contents (Elt F)) : (⟨S1x128, .f32⟩ : BufTy).Contents (Elt F))) (fun Z => rfl) V

theorem eq_main_v203 (V : Valuation τ sig (Elt F)) :
    A V main_v203 = ((broadcastInDim S100000x128 ![0, 1] bcast_S1x128_S100000x128_0_1 : (⟨S1x128, .f32⟩ : BufTy).Contents (Elt F) → (⟨S100000x128, .f32⟩ : BufTy).Contents (Elt F)) (A V main_v202 : (⟨S1x128, .f32⟩ : BufTy).Contents (Elt F)) : (⟨S100000x128, .f32⟩ : BufTy).Contents (Elt F)) :=
  pc3.unary (k := 75) (y := main_v203) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v202) : (⟨S1x128, .f32⟩ : BufTy).Contents (Elt F)) : (⟨S100000x128, .f32⟩ : BufTy).Contents (Elt F))) (fun Z => rfl) V

theorem eq_main_v204 (V : Valuation τ sig (Elt F)) :
    A V main_v204 = ((addf : (⟨S100000x128, .f32⟩ : BufTy).Contents (Elt F) → (⟨S100000x128, .f32⟩ : BufTy).Contents (Elt F) → (⟨S100000x128, .f32⟩ : BufTy).Contents (Elt F)) (A V main_v199 : (⟨S100000x128, .f32⟩ : BufTy).Contents (Elt F)) (A V main_v203 : (⟨S100000x128, .f32⟩ : BufTy).Contents (Elt F)) : (⟨S100000x128, .f32⟩ : BufTy).Contents (Elt F)) :=
  pc3.binary (k := 76) (y := main_v204) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v199) : (⟨S100000x128, .f32⟩ : BufTy).Contents (Elt F)) (Z (Proc.devRef .tc main_v203) : (⟨S100000x128, .f32⟩ : BufTy).Contents (Elt F)) : (⟨S100000x128, .f32⟩ : BufTy).Contents (Elt F))) (fun Z => rfl) V

theorem eq_main_v205 (V : Valuation τ sig (Elt F)) :
    A V main_v205 = (((extractStridedSlice S1x128 ![2, 0] · slices_S4x128_S1x128_2_0) : (⟨S4x128, .f32⟩ : BufTy).Contents (Elt F) → (⟨S1x128, .f32⟩ : BufTy).Contents (Elt F)) (A V main_arg9 : (⟨S4x128, .f32⟩ : BufTy).Contents (Elt F)) : (⟨S1x128, .f32⟩ : BufTy).Contents (Elt F)) :=
  pc3.unary (k := 77) (y := main_v205) rfl (by decide)
    (fun Z => (((extractStridedSlice S1x128 ![2, 0] · slices_S4x128_S1x128_2_0) : (⟨S4x128, .f32⟩ : BufTy).Contents (Elt F) → (⟨S1x128, .f32⟩ : BufTy).Contents (Elt F)) (Z (Proc.devRef .tc main_arg9) : (⟨S4x128, .f32⟩ : BufTy).Contents (Elt F)) : (⟨S1x128, .f32⟩ : BufTy).Contents (Elt F))) (fun Z => rfl) V

theorem eq_main_v206 (V : Valuation τ sig (Elt F)) :
    A V main_v206 = (shapeCast S128 (A V main_v205 : (⟨S1x128, .f32⟩ : BufTy).Contents (Elt F)) shapeCasts_S1x128_S128 : (⟨S128, .f32⟩ : BufTy).Contents (Elt F)) :=
  pc3.reshape (k := 78) (y := main_v206) rfl (by decide)
    (fun Z => (shapeCast S128 (Z (Proc.devRef .tc main_v205) : (⟨S1x128, .f32⟩ : BufTy).Contents (Elt F)) shapeCasts_S1x128_S128 : (⟨S128, .f32⟩ : BufTy).Contents (Elt F))) (fun Z => rfl) V

theorem eq_main_v207 (V : Valuation τ sig (Elt F)) :
    A V main_v207 = (((extractStridedSlice S1x128 ![2, 0] · slices_S4x128_S1x128_2_0) : (⟨S4x128, .f32⟩ : BufTy).Contents (Elt F) → (⟨S1x128, .f32⟩ : BufTy).Contents (Elt F)) (A V main_arg10 : (⟨S4x128, .f32⟩ : BufTy).Contents (Elt F)) : (⟨S1x128, .f32⟩ : BufTy).Contents (Elt F)) :=
  pc3.unary (k := 79) (y := main_v207) rfl (by decide)
    (fun Z => (((extractStridedSlice S1x128 ![2, 0] · slices_S4x128_S1x128_2_0) : (⟨S4x128, .f32⟩ : BufTy).Contents (Elt F) → (⟨S1x128, .f32⟩ : BufTy).Contents (Elt F)) (Z (Proc.devRef .tc main_arg10) : (⟨S4x128, .f32⟩ : BufTy).Contents (Elt F)) : (⟨S1x128, .f32⟩ : BufTy).Contents (Elt F))) (fun Z => rfl) V

theorem eq_main_v208 (V : Valuation τ sig (Elt F)) :
    A V main_v208 = (shapeCast S128 (A V main_v207 : (⟨S1x128, .f32⟩ : BufTy).Contents (Elt F)) shapeCasts_S1x128_S128 : (⟨S128, .f32⟩ : BufTy).Contents (Elt F)) :=
  pc3.reshape (k := 80) (y := main_v208) rfl (by decide)
    (fun Z => (shapeCast S128 (Z (Proc.devRef .tc main_v207) : (⟨S1x128, .f32⟩ : BufTy).Contents (Elt F)) shapeCasts_S1x128_S128 : (⟨S128, .f32⟩ : BufTy).Contents (Elt F))) (fun Z => rfl) V

theorem eq_main_cst_27 (V : Valuation τ sig (Elt F)) :
    A V main_cst_27 = ((constant S_ .f32 0x00000000#32) : (⟨S_, .f32⟩ : BufTy).Contents (Elt F)) :=
  pc3.nullary (k := 81) (y := main_cst_27) rfl V

theorem eq_main_v209 (V : Valuation τ sig (Elt F)) :
    A V main_v209 = (Host.reduceAdd (A V main_v204 : (⟨S100000x128, .f32⟩ : BufTy).Contents (Elt F)) (A V main_cst_27 : (⟨S_, .f32⟩ : BufTy).Contents (Elt F)) reducesTo_S100000x128_S128_d0 h_S_ : (⟨S128, .f32⟩ : BufTy).Contents (Elt F)) :=
  pc3.binary (k := 82) (y := main_v209) rfl (by decide) (by decide)
    (fun Z => (Host.reduceAdd (Z (Proc.devRef .tc main_v204) : (⟨S100000x128, .f32⟩ : BufTy).Contents (Elt F)) (Z (Proc.devRef .tc main_cst_27) : (⟨S_, .f32⟩ : BufTy).Contents (Elt F)) reducesTo_S100000x128_S128_d0 h_S_ : (⟨S128, .f32⟩ : BufTy).Contents (Elt F))) (fun Z => rfl) V

theorem eq_main_cst_28 (V : Valuation τ sig (Elt F)) :
    A V main_cst_28 = ((constant S_ .f32 0x47C35000#32) : (⟨S_, .f32⟩ : BufTy).Contents (Elt F)) :=
  pc4.nullary (k := 0) (y := main_cst_28) rfl V

theorem eq_main_v210 (V : Valuation τ sig (Elt F)) :
    A V main_v210 = ((broadcastInDim S128 ![] bcast_S_S128 : (⟨S_, .f32⟩ : BufTy).Contents (Elt F) → (⟨S128, .f32⟩ : BufTy).Contents (Elt F)) (A V main_cst_28 : (⟨S_, .f32⟩ : BufTy).Contents (Elt F)) : (⟨S128, .f32⟩ : BufTy).Contents (Elt F)) :=
  pc4.unary (k := 1) (y := main_v210) rfl (by decide)
    (fun Z => ((broadcastInDim S128 ![] bcast_S_S128 : (⟨S_, .f32⟩ : BufTy).Contents (Elt F) → (⟨S128, .f32⟩ : BufTy).Contents (Elt F)) (Z (Proc.devRef .tc main_cst_28) : (⟨S_, .f32⟩ : BufTy).Contents (Elt F)) : (⟨S128, .f32⟩ : BufTy).Contents (Elt F))) (fun Z => rfl) V

theorem eq_main_v211 (V : Valuation τ sig (Elt F)) :
    A V main_v211 = ((Host.divf : (⟨S128, .f32⟩ : BufTy).Contents (Elt F) → (⟨S128, .f32⟩ : BufTy).Contents (Elt F) → (⟨S128, .f32⟩ : BufTy).Contents (Elt F)) (A V main_v209 : (⟨S128, .f32⟩ : BufTy).Contents (Elt F)) (A V main_v210 : (⟨S128, .f32⟩ : BufTy).Contents (Elt F)) : (⟨S128, .f32⟩ : BufTy).Contents (Elt F)) :=
  pc4.binary (k := 2) (y := main_v211) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_v209) : (⟨S128, .f32⟩ : BufTy).Contents (Elt F)) (Z (Proc.devRef .tc main_v210) : (⟨S128, .f32⟩ : BufTy).Contents (Elt F)) : (⟨S128, .f32⟩ : BufTy).Contents (Elt F))) (fun Z => rfl) V

theorem eq_main_c_29 (V : Valuation τ sig (Elt F)) :
    A V main_c_29 = ((constantI S_ 32 0#32) : (⟨S_, .i32⟩ : BufTy).Contents (Elt F)) :=
  pc4.nullary (k := 3) (y := main_c_29) rfl V

theorem eq_main_call10_cst (V : Valuation τ sig (Elt F)) :
    A V main_call10_cst = ((constant S_ .f32 0x00000000#32) : (⟨S_, .f32⟩ : BufTy).Contents (Elt F)) :=
  pc4.nullary (k := 4) (y := main_call10_cst) rfl V

theorem eq_main_call10_v0 (V : Valuation τ sig (Elt F)) :
    A V main_call10_v0 = (Host.reduceAdd (A V main_v204 : (⟨S100000x128, .f32⟩ : BufTy).Contents (Elt F)) (A V main_call10_cst : (⟨S_, .f32⟩ : BufTy).Contents (Elt F)) reducesTo_S100000x128_S128_d0 h_S_ : (⟨S128, .f32⟩ : BufTy).Contents (Elt F)) :=
  pc4.binary (k := 5) (y := main_call10_v0) rfl (by decide) (by decide)
    (fun Z => (Host.reduceAdd (Z (Proc.devRef .tc main_v204) : (⟨S100000x128, .f32⟩ : BufTy).Contents (Elt F)) (Z (Proc.devRef .tc main_call10_cst) : (⟨S_, .f32⟩ : BufTy).Contents (Elt F)) reducesTo_S100000x128_S128_d0 h_S_ : (⟨S128, .f32⟩ : BufTy).Contents (Elt F))) (fun Z => rfl) V

theorem eq_main_call10_v1 (V : Valuation τ sig (Elt F)) :
    A V main_call10_v1 = (((broadcastInDim S1x128 ![1] bcast_S128_S1x128_1) : (⟨S128, .f32⟩ : BufTy).Contents (Elt F) → (⟨S1x128, .f32⟩ : BufTy).Contents (Elt F)) (A V main_call10_v0 : (⟨S128, .f32⟩ : BufTy).Contents (Elt F)) : (⟨S1x128, .f32⟩ : BufTy).Contents (Elt F)) :=
  pc4.unary (k := 6) (y := main_call10_v1) rfl (by decide)
    (fun Z => (((broadcastInDim S1x128 ![1] bcast_S128_S1x128_1) : (⟨S128, .f32⟩ : BufTy).Contents (Elt F) → (⟨S1x128, .f32⟩ : BufTy).Contents (Elt F)) (Z (Proc.devRef .tc main_call10_v0) : (⟨S128, .f32⟩ : BufTy).Contents (Elt F)) : (⟨S1x128, .f32⟩ : BufTy).Contents (Elt F))) (fun Z => rfl) V

theorem eq_main_call10_cst_0 (V : Valuation τ sig (Elt F)) :
    A V main_call10_cst_0 = ((constant S_ .f32 0x47C35000#32) : (⟨S_, .f32⟩ : BufTy).Contents (Elt F)) :=
  pc4.nullary (k := 7) (y := main_call10_cst_0) rfl V

theorem eq_main_call10_v2 (V : Valuation τ sig (Elt F)) :
    A V main_call10_v2 = (((broadcastInDim S1x128 ![] bcast_S_S1x128) : (⟨S_, .f32⟩ : BufTy).Contents (Elt F) → (⟨S1x128, .f32⟩ : BufTy).Contents (Elt F)) (A V main_call10_cst_0 : (⟨S_, .f32⟩ : BufTy).Contents (Elt F)) : (⟨S1x128, .f32⟩ : BufTy).Contents (Elt F)) :=
  pc4.unary (k := 8) (y := main_call10_v2) rfl (by decide)
    (fun Z => (((broadcastInDim S1x128 ![] bcast_S_S1x128) : (⟨S_, .f32⟩ : BufTy).Contents (Elt F) → (⟨S1x128, .f32⟩ : BufTy).Contents (Elt F)) (Z (Proc.devRef .tc main_call10_cst_0) : (⟨S_, .f32⟩ : BufTy).Contents (Elt F)) : (⟨S1x128, .f32⟩ : BufTy).Contents (Elt F))) (fun Z => rfl) V

theorem eq_main_call10_v3 (V : Valuation τ sig (Elt F)) :
    A V main_call10_v3 = ((Host.divf : (⟨S1x128, .f32⟩ : BufTy).Contents (Elt F) → (⟨S1x128, .f32⟩ : BufTy).Contents (Elt F) → (⟨S1x128, .f32⟩ : BufTy).Contents (Elt F)) (A V main_call10_v1 : (⟨S1x128, .f32⟩ : BufTy).Contents (Elt F)) (A V main_call10_v2 : (⟨S1x128, .f32⟩ : BufTy).Contents (Elt F)) : (⟨S1x128, .f32⟩ : BufTy).Contents (Elt F)) :=
  pc4.binary (k := 9) (y := main_call10_v3) rfl (by decide) (by decide)
    (fun Z => ((Host.divf : (⟨S1x128, .f32⟩ : BufTy).Contents (Elt F) → (⟨S1x128, .f32⟩ : BufTy).Contents (Elt F) → (⟨S1x128, .f32⟩ : BufTy).Contents (Elt F)) (Z (Proc.devRef .tc main_call10_v1) : (⟨S1x128, .f32⟩ : BufTy).Contents (Elt F)) (Z (Proc.devRef .tc main_call10_v2) : (⟨S1x128, .f32⟩ : BufTy).Contents (Elt F)) : (⟨S1x128, .f32⟩ : BufTy).Contents (Elt F))) (fun Z => rfl) V

theorem eq_main_call10_v4 (V : Valuation τ sig (Elt F)) :
    A V main_call10_v4 = (((broadcastInDim S100000x128 ![0, 1] bcast_S1x128_S100000x128_0_1) : (⟨S1x128, .f32⟩ : BufTy).Contents (Elt F) → (⟨S100000x128, .f32⟩ : BufTy).Contents (Elt F)) (A V main_call10_v3 : (⟨S1x128, .f32⟩ : BufTy).Contents (Elt F)) : (⟨S100000x128, .f32⟩ : BufTy).Contents (Elt F)) :=
  pc4.unary (k := 10) (y := main_call10_v4) rfl (by decide)
    (fun Z => (((broadcastInDim S100000x128 ![0, 1] bcast_S1x128_S100000x128_0_1) : (⟨S1x128, .f32⟩ : BufTy).Contents (Elt F) → (⟨S100000x128, .f32⟩ : BufTy).Contents (Elt F)) (Z (Proc.devRef .tc main_call10_v3) : (⟨S1x128, .f32⟩ : BufTy).Contents (Elt F)) : (⟨S100000x128, .f32⟩ : BufTy).Contents (Elt F))) (fun Z => rfl) V

theorem eq_main_call10_v5 (V : Valuation τ sig (Elt F)) :
    A V main_call10_v5 = ((subf : (⟨S100000x128, .f32⟩ : BufTy).Contents (Elt F) → (⟨S100000x128, .f32⟩ : BufTy).Contents (Elt F) → (⟨S100000x128, .f32⟩ : BufTy).Contents (Elt F)) (A V main_v204 : (⟨S100000x128, .f32⟩ : BufTy).Contents (Elt F)) (A V main_call10_v4 : (⟨S100000x128, .f32⟩ : BufTy).Contents (Elt F)) : (⟨S100000x128, .f32⟩ : BufTy).Contents (Elt F)) :=
  pc4.binary (k := 11) (y := main_call10_v5) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v204) : (⟨S100000x128, .f32⟩ : BufTy).Contents (Elt F)) (Z (Proc.devRef .tc main_call10_v4) : (⟨S100000x128, .f32⟩ : BufTy).Contents (Elt F)) : (⟨S100000x128, .f32⟩ : BufTy).Contents (Elt F))) (fun Z => rfl) V

theorem eq_main_call10_v6 (V : Valuation τ sig (Elt F)) :
    A V main_call10_v6 = ((mulf : (⟨S100000x128, .f32⟩ : BufTy).Contents (Elt F) → (⟨S100000x128, .f32⟩ : BufTy).Contents (Elt F) → (⟨S100000x128, .f32⟩ : BufTy).Contents (Elt F)) (A V main_call10_v5 : (⟨S100000x128, .f32⟩ : BufTy).Contents (Elt F)) (A V main_call10_v5 : (⟨S100000x128, .f32⟩ : BufTy).Contents (Elt F)) : (⟨S100000x128, .f32⟩ : BufTy).Contents (Elt F)) :=
  pc4.binary (k := 12) (y := main_call10_v6) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_call10_v5) : (⟨S100000x128, .f32⟩ : BufTy).Contents (Elt F)) (Z (Proc.devRef .tc main_call10_v5) : (⟨S100000x128, .f32⟩ : BufTy).Contents (Elt F)) : (⟨S100000x128, .f32⟩ : BufTy).Contents (Elt F))) (fun Z => rfl) V

theorem eq_main_call10_v7 (V : Valuation τ sig (Elt F)) :
    A V main_call10_v7 = (((sitofp .f32) : (⟨S_, .i32⟩ : BufTy).Contents (Elt F) → (⟨S_, .f32⟩ : BufTy).Contents (Elt F)) (A V main_c_29 : (⟨S_, .i32⟩ : BufTy).Contents (Elt F)) : (⟨S_, .f32⟩ : BufTy).Contents (Elt F)) :=
  pc4.unary (k := 13) (y := main_call10_v7) rfl (by decide)
    (fun Z => (((sitofp .f32) : (⟨S_, .i32⟩ : BufTy).Contents (Elt F) → (⟨S_, .f32⟩ : BufTy).Contents (Elt F)) (Z (Proc.devRef .tc main_c_29) : (⟨S_, .i32⟩ : BufTy).Contents (Elt F)) : (⟨S_, .f32⟩ : BufTy).Contents (Elt F))) (fun Z => rfl) V

theorem eq_main_call10_cst_1 (V : Valuation τ sig (Elt F)) :
    A V main_call10_cst_1 = ((constant S_ .f32 0x47C35000#32) : (⟨S_, .f32⟩ : BufTy).Contents (Elt F)) :=
  pc4.nullary (k := 14) (y := main_call10_cst_1) rfl V

theorem eq_main_call10_v8 (V : Valuation τ sig (Elt F)) :
    A V main_call10_v8 = ((subf : (⟨S_, .f32⟩ : BufTy).Contents (Elt F) → (⟨S_, .f32⟩ : BufTy).Contents (Elt F) → (⟨S_, .f32⟩ : BufTy).Contents (Elt F)) (A V main_call10_cst_1 : (⟨S_, .f32⟩ : BufTy).Contents (Elt F)) (A V main_call10_v7 : (⟨S_, .f32⟩ : BufTy).Contents (Elt F)) : (⟨S_, .f32⟩ : BufTy).Contents (Elt F)) :=
  pc4.binary (k := 15) (y := main_call10_v8) rfl (by decide) (by decide)
    (fun Z => ((subf : (⟨S_, .f32⟩ : BufTy).Contents (Elt F) → (⟨S_, .f32⟩ : BufTy).Contents (Elt F) → (⟨S_, .f32⟩ : BufTy).Contents (Elt F)) (Z (Proc.devRef .tc main_call10_cst_1) : (⟨S_, .f32⟩ : BufTy).Contents (Elt F)) (Z (Proc.devRef .tc main_call10_v7) : (⟨S_, .f32⟩ : BufTy).Contents (Elt F)) : (⟨S_, .f32⟩ : BufTy).Contents (Elt F))) (fun Z => rfl) V

theorem eq_main_call10_cst_2 (V : Valuation τ sig (Elt F)) :
    A V main_call10_cst_2 = ((constant S_ .f32 0x00000000#32) : (⟨S_, .f32⟩ : BufTy).Contents (Elt F)) :=
  pc4.nullary (k := 16) (y := main_call10_cst_2) rfl V

theorem eq_main_call10_v9 (V : Valuation τ sig (Elt F)) :
    A V main_call10_v9 = (Host.reduceAdd (A V main_call10_v6 : (⟨S100000x128, .f32⟩ : BufTy).Contents (Elt F)) (A V main_call10_cst_2 : (⟨S_, .f32⟩ : BufTy).Contents (Elt F)) reducesTo_S100000x128_S128_d0 h_S_ : (⟨S128, .f32⟩ : BufTy).Contents (Elt F)) :=
  pc4.binary (k := 17) (y := main_call10_v9) rfl (by decide) (by decide)
    (fun Z => (Host.reduceAdd (Z (Proc.devRef .tc main_call10_v6) : (⟨S100000x128, .f32⟩ : BufTy).Contents (Elt F)) (Z (Proc.devRef .tc main_call10_cst_2) : (⟨S_, .f32⟩ : BufTy).Contents (Elt F)) reducesTo_S100000x128_S128_d0 h_S_ : (⟨S128, .f32⟩ : BufTy).Contents (Elt F))) (fun Z => rfl) V

theorem eq_main_call10_v10 (V : Valuation τ sig (Elt F)) :
    A V main_call10_v10 = (((broadcastInDim S128 ![] bcast_S_S128) : (⟨S_, .f32⟩ : BufTy).Contents (Elt F) → (⟨S128, .f32⟩ : BufTy).Contents (Elt F)) (A V main_call10_v8 : (⟨S_, .f32⟩ : BufTy).Contents (Elt F)) : (⟨S128, .f32⟩ : BufTy).Contents (Elt F)) :=
  pc4.unary (k := 18) (y := main_call10_v10) rfl (by decide)
    (fun Z => (((broadcastInDim S128 ![] bcast_S_S128) : (⟨S_, .f32⟩ : BufTy).Contents (Elt F) → (⟨S128, .f32⟩ : BufTy).Contents (Elt F)) (Z (Proc.devRef .tc main_call10_v8) : (⟨S_, .f32⟩ : BufTy).Contents (Elt F)) : (⟨S128, .f32⟩ : BufTy).Contents (Elt F))) (fun Z => rfl) V

theorem eq_main_call10_v11 (V : Valuation τ sig (Elt F)) :
    A V main_call10_v11 = ((Host.divf : (⟨S128, .f32⟩ : BufTy).Contents (Elt F) → (⟨S128, .f32⟩ : BufTy).Contents (Elt F) → (⟨S128, .f32⟩ : BufTy).Contents (Elt F)) (A V main_call10_v9 : (⟨S128, .f32⟩ : BufTy).Contents (Elt F)) (A V main_call10_v10 : (⟨S128, .f32⟩ : BufTy).Contents (Elt F)) : (⟨S128, .f32⟩ : BufTy).Contents (Elt F)) :=
  pc4.binary (k := 19) (y := main_call10_v11) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_call10_v9) : (⟨S128, .f32⟩ : BufTy).Contents (Elt F)) (Z (Proc.devRef .tc main_call10_v10) : (⟨S128, .f32⟩ : BufTy).Contents (Elt F)) : (⟨S128, .f32⟩ : BufTy).Contents (Elt F))) (fun Z => rfl) V

theorem eq_main_call10_cst_3 (V : Valuation τ sig (Elt F)) :
    A V main_call10_cst_3 = ((constant S_ .f32 0x00000000#32) : (⟨S_, .f32⟩ : BufTy).Contents (Elt F)) :=
  pc4.nullary (k := 20) (y := main_call10_cst_3) rfl V

theorem eq_main_call10_v12 (V : Valuation τ sig (Elt F)) :
    A V main_call10_v12 = (((cmpf .ogt) : (⟨S_, .f32⟩ : BufTy).Contents (Elt F) → (⟨S_, .f32⟩ : BufTy).Contents (Elt F) → (⟨S_, .i1⟩ : BufTy).Contents (Elt F)) (A V main_call10_v8 : (⟨S_, .f32⟩ : BufTy).Contents (Elt F)) (A V main_call10_cst_3 : (⟨S_, .f32⟩ : BufTy).Contents (Elt F)) : (⟨S_, .i1⟩ : BufTy).Contents (Elt F)) :=
  pc4.binary (k := 21) (y := main_call10_v12) rfl (by decide) (by decide)
    (fun Z => (((cmpf .ogt) : (⟨S_, .f32⟩ : BufTy).Contents (Elt F) → (⟨S_, .f32⟩ : BufTy).Contents (Elt F) → (⟨S_, .i1⟩ : BufTy).Contents (Elt F)) (Z (Proc.devRef .tc main_call10_v8) : (⟨S_, .f32⟩ : BufTy).Contents (Elt F)) (Z (Proc.devRef .tc main_call10_cst_3) : (⟨S_, .f32⟩ : BufTy).Contents (Elt F)) : (⟨S_, .i1⟩ : BufTy).Contents (Elt F))) (fun Z => rfl) V

theorem eq_main_call10_cst_4 (V : Valuation τ sig (Elt F)) :
    A V main_call10_cst_4 = ((constant S_ .f32 0x7FC00000#32) : (⟨S_, .f32⟩ : BufTy).Contents (Elt F)) :=
  pc4.nullary (k := 22) (y := main_call10_cst_4) rfl V

theorem eq_main_call10_call0_v0 (V : Valuation τ sig (Elt F)) :
    A V main_call10_call0_v0 = ((id : (⟨S_, .f32⟩ : BufTy).Contents (Elt F) → (⟨S_, .f32⟩ : BufTy).Contents (Elt F)) (A V main_call10_cst_4 : (⟨S_, .f32⟩ : BufTy).Contents (Elt F)) : (⟨S_, .f32⟩ : BufTy).Contents (Elt F)) :=
  pc4.unary (k := 23) (y := main_call10_call0_v0) rfl (by decide)
    (fun Z => ((id : (⟨S_, .f32⟩ : BufTy).Contents (Elt F) → (⟨S_, .f32⟩ : BufTy).Contents (Elt F)) (Z (Proc.devRef .tc main_call10_cst_4) : (⟨S_, .f32⟩ : BufTy).Contents (Elt F)) : (⟨S_, .f32⟩ : BufTy).Contents (Elt F))) (fun Z => rfl) V

theorem eq_main_call10_call0_v1 (V : Valuation τ sig (Elt F)) :
    A V main_call10_call0_v1 = (((broadcastInDim S128 ![] bcast_S_S128) : (⟨S_, .f32⟩ : BufTy).Contents (Elt F) → (⟨S128, .f32⟩ : BufTy).Contents (Elt F)) (A V main_call10_call0_v0 : (⟨S_, .f32⟩ : BufTy).Contents (Elt F)) : (⟨S128, .f32⟩ : BufTy).Contents (Elt F)) :=
  pc4.unary (k := 24) (y := main_call10_call0_v1) rfl (by decide)
    (fun Z => (((broadcastInDim S128 ![] bcast_S_S128) : (⟨S_, .f32⟩ : BufTy).Contents (Elt F) → (⟨S128, .f32⟩ : BufTy).Contents (Elt F)) (Z (Proc.devRef .tc main_call10_call0_v0) : (⟨S_, .f32⟩ : BufTy).Contents (Elt F)) : (⟨S128, .f32⟩ : BufTy).Contents (Elt F))) (fun Z => rfl) V

theorem eq_main_v212 (V : Valuation τ sig (Elt F)) :
    A V main_v212 = (select ((broadcastInDim S128 ![] bcast_S_S128 : (⟨S_, .i1⟩ : BufTy).Contents (Elt F) → (⟨S128, .i1⟩ : BufTy).Contents (Elt F)) (A V main_call10_v12 : (⟨S_, .i1⟩ : BufTy).Contents (Elt F))) (A V main_call10_v11 : (⟨S128, .f32⟩ : BufTy).Contents (Elt F)) (A V main_call10_call0_v1 : (⟨S128, .f32⟩ : BufTy).Contents (Elt F)) : (⟨S128, .f32⟩ : BufTy).Contents (Elt F)) :=
  pc4.ternary (k := 25) (y := main_v212) rfl (by decide) (by decide) (by decide)
    (fun Z => (select ((broadcastInDim S128 ![] bcast_S_S128 : (⟨S_, .i1⟩ : BufTy).Contents (Elt F) → (⟨S128, .i1⟩ : BufTy).Contents (Elt F)) (Z (Proc.devRef .tc main_call10_v12) : (⟨S_, .i1⟩ : BufTy).Contents (Elt F))) (Z (Proc.devRef .tc main_call10_v11) : (⟨S128, .f32⟩ : BufTy).Contents (Elt F)) (Z (Proc.devRef .tc main_call10_call0_v1) : (⟨S128, .f32⟩ : BufTy).Contents (Elt F)) : (⟨S128, .f32⟩ : BufTy).Contents (Elt F))) (fun Z => rfl) V

theorem eq_main_v213 (V : Valuation τ sig (Elt F)) :
    A V main_v213 = ((broadcastInDim S1x128 ![1] bcast_S128_S1x128_1 : (⟨S128, .f32⟩ : BufTy).Contents (Elt F) → (⟨S1x128, .f32⟩ : BufTy).Contents (Elt F)) (A V main_v211 : (⟨S128, .f32⟩ : BufTy).Contents (Elt F)) : (⟨S1x128, .f32⟩ : BufTy).Contents (Elt F)) :=
  pc4.unary (k := 26) (y := main_v213) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v211) : (⟨S128, .f32⟩ : BufTy).Contents (Elt F)) : (⟨S1x128, .f32⟩ : BufTy).Contents (Elt F))) (fun Z => rfl) V

theorem eq_main_v214 (V : Valuation τ sig (Elt F)) :
    A V main_v214 = ((broadcastInDim S100000x128 ![0, 1] bcast_S1x128_S100000x128_0_1 : (⟨S1x128, .f32⟩ : BufTy).Contents (Elt F) → (⟨S100000x128, .f32⟩ : BufTy).Contents (Elt F)) (A V main_v213 : (⟨S1x128, .f32⟩ : BufTy).Contents (Elt F)) : (⟨S100000x128, .f32⟩ : BufTy).Contents (Elt F)) :=
  pc4.unary (k := 27) (y := main_v214) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v213) : (⟨S1x128, .f32⟩ : BufTy).Contents (Elt F)) : (⟨S100000x128, .f32⟩ : BufTy).Contents (Elt F))) (fun Z => rfl) V

theorem eq_main_v215 (V : Valuation τ sig (Elt F)) :
    A V main_v215 = ((subf : (⟨S100000x128, .f32⟩ : BufTy).Contents (Elt F) → (⟨S100000x128, .f32⟩ : BufTy).Contents (Elt F) → (⟨S100000x128, .f32⟩ : BufTy).Contents (Elt F)) (A V main_v204 : (⟨S100000x128, .f32⟩ : BufTy).Contents (Elt F)) (A V main_v214 : (⟨S100000x128, .f32⟩ : BufTy).Contents (Elt F)) : (⟨S100000x128, .f32⟩ : BufTy).Contents (Elt F)) :=
  pc4.binary (k := 28) (y := main_v215) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v204) : (⟨S100000x128, .f32⟩ : BufTy).Contents (Elt F)) (Z (Proc.devRef .tc main_v214) : (⟨S100000x128, .f32⟩ : BufTy).Contents (Elt F)) : (⟨S100000x128, .f32⟩ : BufTy).Contents (Elt F))) (fun Z => rfl) V

theorem eq_main_cst_30 (V : Valuation τ sig (Elt F)) :
    A V main_cst_30 = ((constant S_ .f32 0x3727C5AC#32) : (⟨S_, .f32⟩ : BufTy).Contents (Elt F)) :=
  pc4.nullary (k := 29) (y := main_cst_30) rfl V

theorem eq_main_v216 (V : Valuation τ sig (Elt F)) :
    A V main_v216 = ((broadcastInDim S128 ![] bcast_S_S128 : (⟨S_, .f32⟩ : BufTy).Contents (Elt F) → (⟨S128, .f32⟩ : BufTy).Contents (Elt F)) (A V main_cst_30 : (⟨S_, .f32⟩ : BufTy).Contents (Elt F)) : (⟨S128, .f32⟩ : BufTy).Contents (Elt F)) :=
  pc4.unary (k := 30) (y := main_v216) rfl (by decide)
    (fun Z => ((broadcastInDim S128 ![] bcast_S_S128 : (⟨S_, .f32⟩ : BufTy).Contents (Elt F) → (⟨S128, .f32⟩ : BufTy).Contents (Elt F)) (Z (Proc.devRef .tc main_cst_30) : (⟨S_, .f32⟩ : BufTy).Contents (Elt F)) : (⟨S128, .f32⟩ : BufTy).Contents (Elt F))) (fun Z => rfl) V

theorem eq_main_v217 (V : Valuation τ sig (Elt F)) :
    A V main_v217 = ((addf : (⟨S128, .f32⟩ : BufTy).Contents (Elt F) → (⟨S128, .f32⟩ : BufTy).Contents (Elt F) → (⟨S128, .f32⟩ : BufTy).Contents (Elt F)) (A V main_v212 : (⟨S128, .f32⟩ : BufTy).Contents (Elt F)) (A V main_v216 : (⟨S128, .f32⟩ : BufTy).Contents (Elt F)) : (⟨S128, .f32⟩ : BufTy).Contents (Elt F)) :=
  pc4.binary (k := 31) (y := main_v217) rfl (by decide) (by decide)
    (fun Z => ((addf : (⟨S128, .f32⟩ : BufTy).Contents (Elt F) → (⟨S128, .f32⟩ : BufTy).Contents (Elt F) → (⟨S128, .f32⟩ : BufTy).Contents (Elt F)) (Z (Proc.devRef .tc main_v212) : (⟨S128, .f32⟩ : BufTy).Contents (Elt F)) (Z (Proc.devRef .tc main_v216) : (⟨S128, .f32⟩ : BufTy).Contents (Elt F)) : (⟨S128, .f32⟩ : BufTy).Contents (Elt F))) (fun Z => rfl) V

theorem eq_main_v218 (V : Valuation τ sig (Elt F)) :
    A V main_v218 = ((Host.rsqrt : (⟨S128, .f32⟩ : BufTy).Contents (Elt F) → (⟨S128, .f32⟩ : BufTy).Contents (Elt F)) (A V main_v217 : (⟨S128, .f32⟩ : BufTy).Contents (Elt F)) : (⟨S128, .f32⟩ : BufTy).Contents (Elt F)) :=
  pc4.unary (k := 32) (y := main_v218) rfl (by decide)
    (fun Z => ((Host.rsqrt : (⟨S128, .f32⟩ : BufTy).Contents (Elt F) → (⟨S128, .f32⟩ : BufTy).Contents (Elt F)) (Z (Proc.devRef .tc main_v217) : (⟨S128, .f32⟩ : BufTy).Contents (Elt F)) : (⟨S128, .f32⟩ : BufTy).Contents (Elt F))) (fun Z => rfl) V

theorem eq_main_v219 (V : Valuation τ sig (Elt F)) :
    A V main_v219 = ((broadcastInDim S1x128 ![1] bcast_S128_S1x128_1 : (⟨S128, .f32⟩ : BufTy).Contents (Elt F) → (⟨S1x128, .f32⟩ : BufTy).Contents (Elt F)) (A V main_v218 : (⟨S128, .f32⟩ : BufTy).Contents (Elt F)) : (⟨S1x128, .f32⟩ : BufTy).Contents (Elt F)) :=
  pc4.unary (k := 33) (y := main_v219) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v218) : (⟨S128, .f32⟩ : BufTy).Contents (Elt F)) : (⟨S1x128, .f32⟩ : BufTy).Contents (Elt F))) (fun Z => rfl) V

theorem eq_main_v220 (V : Valuation τ sig (Elt F)) :
    A V main_v220 = ((broadcastInDim S100000x128 ![0, 1] bcast_S1x128_S100000x128_0_1 : (⟨S1x128, .f32⟩ : BufTy).Contents (Elt F) → (⟨S100000x128, .f32⟩ : BufTy).Contents (Elt F)) (A V main_v219 : (⟨S1x128, .f32⟩ : BufTy).Contents (Elt F)) : (⟨S100000x128, .f32⟩ : BufTy).Contents (Elt F)) :=
  pc4.unary (k := 34) (y := main_v220) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v219) : (⟨S1x128, .f32⟩ : BufTy).Contents (Elt F)) : (⟨S100000x128, .f32⟩ : BufTy).Contents (Elt F))) (fun Z => rfl) V

theorem eq_main_v221 (V : Valuation τ sig (Elt F)) :
    A V main_v221 = ((mulf : (⟨S100000x128, .f32⟩ : BufTy).Contents (Elt F) → (⟨S100000x128, .f32⟩ : BufTy).Contents (Elt F) → (⟨S100000x128, .f32⟩ : BufTy).Contents (Elt F)) (A V main_v215 : (⟨S100000x128, .f32⟩ : BufTy).Contents (Elt F)) (A V main_v220 : (⟨S100000x128, .f32⟩ : BufTy).Contents (Elt F)) : (⟨S100000x128, .f32⟩ : BufTy).Contents (Elt F)) :=
  pc4.binary (k := 35) (y := main_v221) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v215) : (⟨S100000x128, .f32⟩ : BufTy).Contents (Elt F)) (Z (Proc.devRef .tc main_v220) : (⟨S100000x128, .f32⟩ : BufTy).Contents (Elt F)) : (⟨S100000x128, .f32⟩ : BufTy).Contents (Elt F))) (fun Z => rfl) V

theorem eq_main_v222 (V : Valuation τ sig (Elt F)) :
    A V main_v222 = ((broadcastInDim S1x128 ![1] bcast_S128_S1x128_1 : (⟨S128, .f32⟩ : BufTy).Contents (Elt F) → (⟨S1x128, .f32⟩ : BufTy).Contents (Elt F)) (A V main_v206 : (⟨S128, .f32⟩ : BufTy).Contents (Elt F)) : (⟨S1x128, .f32⟩ : BufTy).Contents (Elt F)) :=
  pc4.unary (k := 36) (y := main_v222) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v206) : (⟨S128, .f32⟩ : BufTy).Contents (Elt F)) : (⟨S1x128, .f32⟩ : BufTy).Contents (Elt F))) (fun Z => rfl) V

theorem eq_main_v223 (V : Valuation τ sig (Elt F)) :
    A V main_v223 = ((broadcastInDim S100000x128 ![0, 1] bcast_S1x128_S100000x128_0_1 : (⟨S1x128, .f32⟩ : BufTy).Contents (Elt F) → (⟨S100000x128, .f32⟩ : BufTy).Contents (Elt F)) (A V main_v222 : (⟨S1x128, .f32⟩ : BufTy).Contents (Elt F)) : (⟨S100000x128, .f32⟩ : BufTy).Contents (Elt F)) :=
  pc4.unary (k := 37) (y := main_v223) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v222) : (⟨S1x128, .f32⟩ : BufTy).Contents (Elt F)) : (⟨S100000x128, .f32⟩ : BufTy).Contents (Elt F))) (fun Z => rfl) V

theorem eq_main_v224 (V : Valuation τ sig (Elt F)) :
    A V main_v224 = ((mulf : (⟨S100000x128, .f32⟩ : BufTy).Contents (Elt F) → (⟨S100000x128, .f32⟩ : BufTy).Contents (Elt F) → (⟨S100000x128, .f32⟩ : BufTy).Contents (Elt F)) (A V main_v221 : (⟨S100000x128, .f32⟩ : BufTy).Contents (Elt F)) (A V main_v223 : (⟨S100000x128, .f32⟩ : BufTy).Contents (Elt F)) : (⟨S100000x128, .f32⟩ : BufTy).Contents (Elt F)) :=
  pc4.binary (k := 38) (y := main_v224) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v221) : (⟨S100000x128, .f32⟩ : BufTy).Contents (Elt F)) (Z (Proc.devRef .tc main_v223) : (⟨S100000x128, .f32⟩ : BufTy).Contents (Elt F)) : (⟨S100000x128, .f32⟩ : BufTy).Contents (Elt F))) (fun Z => rfl) V

theorem eq_main_v225 (V : Valuation τ sig (Elt F)) :
    A V main_v225 = ((broadcastInDim S1x128 ![1] bcast_S128_S1x128_1 : (⟨S128, .f32⟩ : BufTy).Contents (Elt F) → (⟨S1x128, .f32⟩ : BufTy).Contents (Elt F)) (A V main_v208 : (⟨S128, .f32⟩ : BufTy).Contents (Elt F)) : (⟨S1x128, .f32⟩ : BufTy).Contents (Elt F)) :=
  pc4.unary (k := 39) (y := main_v225) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v208) : (⟨S128, .f32⟩ : BufTy).Contents (Elt F)) : (⟨S1x128, .f32⟩ : BufTy).Contents (Elt F))) (fun Z => rfl) V

theorem eq_main_v226 (V : Valuation τ sig (Elt F)) :
    A V main_v226 = ((broadcastInDim S100000x128 ![0, 1] bcast_S1x128_S100000x128_0_1 : (⟨S1x128, .f32⟩ : BufTy).Contents (Elt F) → (⟨S100000x128, .f32⟩ : BufTy).Contents (Elt F)) (A V main_v225 : (⟨S1x128, .f32⟩ : BufTy).Contents (Elt F)) : (⟨S100000x128, .f32⟩ : BufTy).Contents (Elt F)) :=
  pc4.unary (k := 40) (y := main_v226) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v225) : (⟨S1x128, .f32⟩ : BufTy).Contents (Elt F)) : (⟨S100000x128, .f32⟩ : BufTy).Contents (Elt F))) (fun Z => rfl) V

theorem eq_main_v227 (V : Valuation τ sig (Elt F)) :
    A V main_v227 = ((addf : (⟨S100000x128, .f32⟩ : BufTy).Contents (Elt F) → (⟨S100000x128, .f32⟩ : BufTy).Contents (Elt F) → (⟨S100000x128, .f32⟩ : BufTy).Contents (Elt F)) (A V main_v224 : (⟨S100000x128, .f32⟩ : BufTy).Contents (Elt F)) (A V main_v226 : (⟨S100000x128, .f32⟩ : BufTy).Contents (Elt F)) : (⟨S100000x128, .f32⟩ : BufTy).Contents (Elt F)) :=
  pc4.binary (k := 41) (y := main_v227) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v224) : (⟨S100000x128, .f32⟩ : BufTy).Contents (Elt F)) (Z (Proc.devRef .tc main_v226) : (⟨S100000x128, .f32⟩ : BufTy).Contents (Elt F)) : (⟨S100000x128, .f32⟩ : BufTy).Contents (Elt F))) (fun Z => rfl) V

theorem eq_main_call11_cst (V : Valuation τ sig (Elt F)) :
    A V main_call11_cst = ((constant S_ .f32 0x00000000#32) : (⟨S_, .f32⟩ : BufTy).Contents (Elt F)) :=
  pc4.nullary (k := 42) (y := main_call11_cst) rfl V

theorem eq_main_call11_v0 (V : Valuation τ sig (Elt F)) :
    A V main_call11_v0 = (((broadcastInDim S100000x128 ![] bcast_S_S100000x128) : (⟨S_, .f32⟩ : BufTy).Contents (Elt F) → (⟨S100000x128, .f32⟩ : BufTy).Contents (Elt F)) (A V main_call11_cst : (⟨S_, .f32⟩ : BufTy).Contents (Elt F)) : (⟨S100000x128, .f32⟩ : BufTy).Contents (Elt F)) :=
  pc4.unary (k := 43) (y := main_call11_v0) rfl (by decide)
    (fun Z => (((broadcastInDim S100000x128 ![] bcast_S_S100000x128) : (⟨S_, .f32⟩ : BufTy).Contents (Elt F) → (⟨S100000x128, .f32⟩ : BufTy).Contents (Elt F)) (Z (Proc.devRef .tc main_call11_cst) : (⟨S_, .f32⟩ : BufTy).Contents (Elt F)) : (⟨S100000x128, .f32⟩ : BufTy).Contents (Elt F))) (fun Z => rfl) V

theorem eq_main_v228 (V : Valuation τ sig (Elt F)) :
    A V main_v228 = ((maximumf : (⟨S100000x128, .f32⟩ : BufTy).Contents (Elt F) → (⟨S100000x128, .f32⟩ : BufTy).Contents (Elt F) → (⟨S100000x128, .f32⟩ : BufTy).Contents (Elt F)) (A V main_v227 : (⟨S100000x128, .f32⟩ : BufTy).Contents (Elt F)) (A V main_call11_v0 : (⟨S100000x128, .f32⟩ : BufTy).Contents (Elt F)) : (⟨S100000x128, .f32⟩ : BufTy).Contents (Elt F)) :=
  pc4.binary (k := 44) (y := main_v228) rfl (by decide) (by decide)
    (fun Z => ((maximumf : (⟨S100000x128, .f32⟩ : BufTy).Contents (Elt F) → (⟨S100000x128, .f32⟩ : BufTy).Contents (Elt F) → (⟨S100000x128, .f32⟩ : BufTy).Contents (Elt F)) (Z (Proc.devRef .tc main_v227) : (⟨S100000x128, .f32⟩ : BufTy).Contents (Elt F)) (Z (Proc.devRef .tc main_call11_v0) : (⟨S100000x128, .f32⟩ : BufTy).Contents (Elt F)) : (⟨S100000x128, .f32⟩ : BufTy).Contents (Elt F))) (fun Z => rfl) V

theorem eq_main_c_31 (V : Valuation τ sig (Elt F)) :
    A V main_c_31 = ((constantI S_ 32 0#32) : (⟨S_, .i32⟩ : BufTy).Contents (Elt F)) :=
  pc4.nullary (k := 45) (y := main_c_31) rfl V

theorem eq_main_v229 (V : Valuation τ sig (Elt F)) :
    A V main_v229 = ((broadcastInDim S600000 ![] bcast_S_S600000 : (⟨S_, .i32⟩ : BufTy).Contents (Elt F) → (⟨S600000, .i32⟩ : BufTy).Contents (Elt F)) (A V main_c_31 : (⟨S_, .i32⟩ : BufTy).Contents (Elt F)) : (⟨S600000, .i32⟩ : BufTy).Contents (Elt F)) :=
  pc4.unary (k := 46) (y := main_v229) rfl (by decide)
    (fun Z => ((broadcastInDim S600000 ![] bcast_S_S600000 : (⟨S_, .i32⟩ : BufTy).Contents (Elt F) → (⟨S600000, .i32⟩ : BufTy).Contents (Elt F)) (Z (Proc.devRef .tc main_c_31) : (⟨S_, .i32⟩ : BufTy).Contents (Elt F)) : (⟨S600000, .i32⟩ : BufTy).Contents (Elt F))) (fun Z => rfl) V

theorem eq_main_v230 (V : Valuation τ sig (Elt F)) :
    A V main_v230 = ((cmpi .slt : (⟨S600000, .i32⟩ : BufTy).Contents (Elt F) → (⟨S600000, .i32⟩ : BufTy).Contents (Elt F) → (⟨S600000, .i1⟩ : BufTy).Contents (Elt F)) (A V main_v1 : (⟨S600000, .i32⟩ : BufTy).Contents (Elt F)) (A V main_v229 : (⟨S600000, .i32⟩ : BufTy).Contents (Elt F)) : (⟨S600000, .i1⟩ : BufTy).Contents (Elt F)) :=
  pc4.binary (k := 47) (y := main_v230) rfl (by decide) (by decide)
    (fun Z => ((cmpi .slt : (⟨S600000, .i32⟩ : BufTy).Contents (Elt F) → (⟨S600000, .i32⟩ : BufTy).Contents (Elt F) → (⟨S600000, .i1⟩ : BufTy).Contents (Elt F)) (Z (Proc.devRef .tc main_v1) : (⟨S600000, .i32⟩ : BufTy).Contents (Elt F)) (Z (Proc.devRef .tc main_v229) : (⟨S600000, .i32⟩ : BufTy).Contents (Elt F)) : (⟨S600000, .i1⟩ : BufTy).Contents (Elt F))) (fun Z => rfl) V

theorem eq_main_c_32 (V : Valuation τ sig (Elt F)) :
    A V main_c_32 = ((constantI S_ 32 100000#32) : (⟨S_, .i32⟩ : BufTy).Contents (Elt F)) :=
  pc4.nullary (k := 48) (y := main_c_32) rfl V

theorem eq_main_v231 (V : Valuation τ sig (Elt F)) :
    A V main_v231 = ((broadcastInDim S600000 ![] bcast_S_S600000 : (⟨S_, .i32⟩ : BufTy).Contents (Elt F) → (⟨S600000, .i32⟩ : BufTy).Contents (Elt F)) (A V main_c_32 : (⟨S_, .i32⟩ : BufTy).Contents (Elt F)) : (⟨S600000, .i32⟩ : BufTy).Contents (Elt F)) :=
  pc4.unary (k := 49) (y := main_v231) rfl (by decide)
    (fun Z => ((broadcastInDim S600000 ![] bcast_S_S600000 : (⟨S_, .i32⟩ : BufTy).Contents (Elt F) → (⟨S600000, .i32⟩ : BufTy).Contents (Elt F)) (Z (Proc.devRef .tc main_c_32) : (⟨S_, .i32⟩ : BufTy).Contents (Elt F)) : (⟨S600000, .i32⟩ : BufTy).Contents (Elt F))) (fun Z => rfl) V

theorem eq_main_v232 (V : Valuation τ sig (Elt F)) :
    A V main_v232 = ((addi : (⟨S600000, .i32⟩ : BufTy).Contents (Elt F) → (⟨S600000, .i32⟩ : BufTy).Contents (Elt F) → (⟨S600000, .i32⟩ : BufTy).Contents (Elt F)) (A V main_v1 : (⟨S600000, .i32⟩ : BufTy).Contents (Elt F)) (A V main_v231 : (⟨S600000, .i32⟩ : BufTy).Contents (Elt F)) : (⟨S600000, .i32⟩ : BufTy).Contents (Elt F)) :=
  pc4.binary (k := 50) (y := main_v232) rfl (by decide) (by decide)
    (fun Z => ((addi : (⟨S600000, .i32⟩ : BufTy).Contents (Elt F) → (⟨S600000, .i32⟩ : BufTy).Contents (Elt F) → (⟨S600000, .i32⟩ : BufTy).Contents (Elt F)) (Z (Proc.devRef .tc main_v1) : (⟨S600000, .i32⟩ : BufTy).Contents (Elt F)) (Z (Proc.devRef .tc main_v231) : (⟨S600000, .i32⟩ : BufTy).Contents (Elt F)) : (⟨S600000, .i32⟩ : BufTy).Contents (Elt F))) (fun Z => rfl) V

theorem eq_main_v233 (V : Valuation τ sig (Elt F)) :
    A V main_v233 = ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (A V main_v230 : (⟨S600000, .i1⟩ : BufTy).Contents (Elt F)) (A V main_v232 : (⟨S600000, .i32⟩ : BufTy).Contents (Elt F)) (A V main_v1 : (⟨S600000, .i32⟩ : BufTy).Contents (Elt F)) : (⟨S600000, .i32⟩ : BufTy).Contents (Elt F)) :=
  pc4.ternary (k := 51) (y := main_v233) rfl (by decide) (by decide) (by decide)
    (fun Z => ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (Z (Proc.devRef .tc main_v230) : (⟨S600000, .i1⟩ : BufTy).Contents (Elt F)) (Z (Proc.devRef .tc main_v232) : (⟨S600000, .i32⟩ : BufTy).Contents (Elt F)) (Z (Proc.devRef .tc main_v1) : (⟨S600000, .i32⟩ : BufTy).Contents (Elt F)) : (⟨S600000, .i32⟩ : BufTy).Contents (Elt F))) (fun Z => rfl) V

theorem eq_main_v234 (V : Valuation τ sig (Elt F)) :
    A V main_v234 = ((broadcastInDim S600000x1 ![0] bcast_S600000_S600000x1_0 : (⟨S600000, .i32⟩ : BufTy).Contents (Elt F) → (⟨S600000x1, .i32⟩ : BufTy).Contents (Elt F)) (A V main_v233 : (⟨S600000, .i32⟩ : BufTy).Contents (Elt F)) : (⟨S600000x1, .i32⟩ : BufTy).Contents (Elt F)) :=
  pc4.unary (k := 52) (y := main_v234) rfl (by decide)
    (fun Z => ((broadcastInDim S600000x1 ![0] bcast_S600000_S600000x1_0 : (⟨S600000, .i32⟩ : BufTy).Contents (Elt F) → (⟨S600000x1, .i32⟩ : BufTy).Contents (Elt F)) (Z (Proc.devRef .tc main_v233) : (⟨S600000, .i32⟩ : BufTy).Contents (Elt F)) : (⟨S600000x1, .i32⟩ : BufTy).Contents (Elt F))) (fun Z => rfl) V

theorem eq_main_v235 (V : Valuation τ sig (Elt F)) :
    A V main_v235 = (Host.gather gather_S100000x128_S600000x1_S600000x128_1_0_n_n_0_1_1128 (A V main_v228 : (⟨S100000x128, .f32⟩ : BufTy).Contents (Elt F)) (A V main_v234 : (⟨S600000x1, .i32⟩ : BufTy).Contents (Elt F)) : (⟨S600000x128, .f32⟩ : BufTy).Contents (Elt F)) :=
  pc4.binary (k := 53) (y := main_v235) rfl (by decide) (by decide)
    (fun Z => (Host.gather gather_S100000x128_S600000x1_S600000x128_1_0_n_n_0_1_1128 (Z (Proc.devRef .tc main_v228) : (⟨S100000x128, .f32⟩ : BufTy).Contents (Elt F)) (Z (Proc.devRef .tc main_v234) : (⟨S600000x1, .i32⟩ : BufTy).Contents (Elt F)) : (⟨S600000x128, .f32⟩ : BufTy).Contents (Elt F))) (fun Z => rfl) V

theorem eq_main_cst_33 (V : Valuation τ sig (Elt F)) :
    A V main_cst_33 = ((constant S_ .f32 0x00000000#32) : (⟨S_, .f32⟩ : BufTy).Contents (Elt F)) :=
  pc4.nullary (k := 54) (y := main_cst_33) rfl V

theorem eq_main_v236 (V : Valuation τ sig (Elt F)) :
    A V main_v236 = ((broadcastInDim S100000x128 ![] bcast_S_S100000x128 : (⟨S_, .f32⟩ : BufTy).Contents (Elt F) → (⟨S100000x128, .f32⟩ : BufTy).Contents (Elt F)) (A V main_cst_33 : (⟨S_, .f32⟩ : BufTy).Contents (Elt F)) : (⟨S100000x128, .f32⟩ : BufTy).Contents (Elt F)) :=
  pc4.unary (k := 55) (y := main_v236) rfl (by decide)
    (fun Z => ((broadcastInDim S100000x128 ![] bcast_S_S100000x128 : (⟨S_, .f32⟩ : BufTy).Contents (Elt F) → (⟨S100000x128, .f32⟩ : BufTy).Contents (Elt F)) (Z (Proc.devRef .tc main_cst_33) : (⟨S_, .f32⟩ : BufTy).Contents (Elt F)) : (⟨S100000x128, .f32⟩ : BufTy).Contents (Elt F))) (fun Z => rfl) V

theorem eq_main_v237 (V : Valuation τ sig (Elt F)) :
    A V main_v237 = ((broadcastInDim S600000x1 ![0] bcast_S600000_S600000x1_0 : (⟨S600000, .i32⟩ : BufTy).Contents (Elt F) → (⟨S600000x1, .i32⟩ : BufTy).Contents (Elt F)) (A V main_v3 : (⟨S600000, .i32⟩ : BufTy).Contents (Elt F)) : (⟨S600000x1, .i32⟩ : BufTy).Contents (Elt F)) :=
  pc4.unary (k := 56) (y := main_v237) rfl (by decide)
    (fun Z => ((broadcastInDim S600000x1 ![0] bcast_S600000_S600000x1_0 : (⟨S600000, .i32⟩ : BufTy).Contents (Elt F) → (⟨S600000x1, .i32⟩ : BufTy).Contents (Elt F)) (Z (Proc.devRef .tc main_v3) : (⟨S600000, .i32⟩ : BufTy).Contents (Elt F)) : (⟨S600000x1, .i32⟩ : BufTy).Contents (Elt F))) (fun Z => rfl) V

theorem eq_main_v238 (V : Valuation τ sig (Elt F)) :
    A V main_v238 = (Host.scatterAdd scatter_S100000x128_S600000x1_S600000x128_1_0_0_1 (A V main_v236 : (⟨S100000x128, .f32⟩ : BufTy).Contents (Elt F)) (A V main_v237 : (⟨S600000x1, .i32⟩ : BufTy).Contents (Elt F)) (A V main_v235 : (⟨S600000x128, .f32⟩ : BufTy).Contents (Elt F)) : (⟨S100000x128, .f32⟩ : BufTy).Contents (Elt F)) :=
  pc4.ternary (k := 57) (y := main_v238) rfl (by decide) (by decide) (by decide)
    (fun Z => (Host.scatterAdd scatter_S100000x128_S600000x1_S600000x128_1_0_0_1 (Z (Proc.devRef .tc main_v236) : (⟨S100000x128, .f32⟩ : BufTy).Contents (Elt F)) (Z (Proc.devRef .tc main_v237) : (⟨S600000x1, .i32⟩ : BufTy).Contents (Elt F)) (Z (Proc.devRef .tc main_v235) : (⟨S600000x128, .f32⟩ : BufTy).Contents (Elt F)) : (⟨S100000x128, .f32⟩ : BufTy).Contents (Elt F))) (fun Z => rfl) V

theorem eq_main_v239 (V : Valuation τ sig (Elt F)) :
    A V main_v239 = ((addf : (⟨S100000x128, .f32⟩ : BufTy).Contents (Elt F) → (⟨S100000x128, .f32⟩ : BufTy).Contents (Elt F) → (⟨S100000x128, .f32⟩ : BufTy).Contents (Elt F)) (A V main_v228 : (⟨S100000x128, .f32⟩ : BufTy).Contents (Elt F)) (A V main_v238 : (⟨S100000x128, .f32⟩ : BufTy).Contents (Elt F)) : (⟨S100000x128, .f32⟩ : BufTy).Contents (Elt F)) :=
  pc4.binary (k := 58) (y := main_v239) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v228) : (⟨S100000x128, .f32⟩ : BufTy).Contents (Elt F)) (Z (Proc.devRef .tc main_v238) : (⟨S100000x128, .f32⟩ : BufTy).Contents (Elt F)) : (⟨S100000x128, .f32⟩ : BufTy).Contents (Elt F))) (fun Z => rfl) V

theorem eq_main_v240 (V : Valuation τ sig (Elt F)) :
    A V main_v240 = (((extractStridedSlice S1x128x128 ![3, 0, 0] · slices_S4x128x128_S1x128x128_3_0_0) : (⟨S4x128x128, .f32⟩ : BufTy).Contents (Elt F) → (⟨S1x128x128, .f32⟩ : BufTy).Contents (Elt F)) (A V main_arg3 : (⟨S4x128x128, .f32⟩ : BufTy).Contents (Elt F)) : (⟨S1x128x128, .f32⟩ : BufTy).Contents (Elt F)) :=
  pc4.unary (k := 59) (y := main_v240) rfl (by decide)
    (fun Z => (((extractStridedSlice S1x128x128 ![3, 0, 0] · slices_S4x128x128_S1x128x128_3_0_0) : (⟨S4x128x128, .f32⟩ : BufTy).Contents (Elt F) → (⟨S1x128x128, .f32⟩ : BufTy).Contents (Elt F)) (Z (Proc.devRef .tc main_arg3) : (⟨S4x128x128, .f32⟩ : BufTy).Contents (Elt F)) : (⟨S1x128x128, .f32⟩ : BufTy).Contents (Elt F))) (fun Z => rfl) V

theorem eq_main_v241 (V : Valuation τ sig (Elt F)) :
    A V main_v241 = (shapeCast S128x128 (A V main_v240 : (⟨S1x128x128, .f32⟩ : BufTy).Contents (Elt F)) shapeCasts_S1x128x128_S128x128 : (⟨S128x128, .f32⟩ : BufTy).Contents (Elt F)) :=
  pc4.reshape (k := 60) (y := main_v241) rfl (by decide)
    (fun Z => (shapeCast S128x128 (Z (Proc.devRef .tc main_v240) : (⟨S1x128x128, .f32⟩ : BufTy).Contents (Elt F)) shapeCasts_S1x128x128_S128x128 : (⟨S128x128, .f32⟩ : BufTy).Contents (Elt F))) (fun Z => rfl) V

theorem eq_main_v242 (V : Valuation τ sig (Elt F)) :
    A V main_v242 = (Host.dotGeneral dot_S100000x128_S128x128_S100000x128_1_0_0_1_n_n none (A V main_v239 : (⟨S100000x128, .f32⟩ : BufTy).Contents (Elt F)) (A V main_v241 : (⟨S128x128, .f32⟩ : BufTy).Contents (Elt F)) : (⟨S100000x128, .f32⟩ : BufTy).Contents (Elt F)) :=
  pc4.binary (k := 61) (y := main_v242) rfl (by decide) (by decide)
    (fun Z => (Host.dotGeneral dot_S100000x128_S128x128_S100000x128_1_0_0_1_n_n none (Z (Proc.devRef .tc main_v239) : (⟨S100000x128, .f32⟩ : BufTy).Contents (Elt F)) (Z (Proc.devRef .tc main_v241) : (⟨S128x128, .f32⟩ : BufTy).Contents (Elt F)) : (⟨S100000x128, .f32⟩ : BufTy).Contents (Elt F))) (fun Z => rfl) V

theorem eq_main_v243 (V : Valuation τ sig (Elt F)) :
    A V main_v243 = (((extractStridedSlice S1x128 ![3, 0] · slices_S4x128_S1x128_3_0) : (⟨S4x128, .f32⟩ : BufTy).Contents (Elt F) → (⟨S1x128, .f32⟩ : BufTy).Contents (Elt F)) (A V main_arg4 : (⟨S4x128, .f32⟩ : BufTy).Contents (Elt F)) : (⟨S1x128, .f32⟩ : BufTy).Contents (Elt F)) :=
  pc4.unary (k := 62) (y := main_v243) rfl (by decide)
    (fun Z => (((extractStridedSlice S1x128 ![3, 0] · slices_S4x128_S1x128_3_0) : (⟨S4x128, .f32⟩ : BufTy).Contents (Elt F) → (⟨S1x128, .f32⟩ : BufTy).Contents (Elt F)) (Z (Proc.devRef .tc main_arg4) : (⟨S4x128, .f32⟩ : BufTy).Contents (Elt F)) : (⟨S1x128, .f32⟩ : BufTy).Contents (Elt F))) (fun Z => rfl) V

theorem eq_main_v244 (V : Valuation τ sig (Elt F)) :
    A V main_v244 = (shapeCast S128 (A V main_v243 : (⟨S1x128, .f32⟩ : BufTy).Contents (Elt F)) shapeCasts_S1x128_S128 : (⟨S128, .f32⟩ : BufTy).Contents (Elt F)) :=
  pc4.reshape (k := 63) (y := main_v244) rfl (by decide)
    (fun Z => (shapeCast S128 (Z (Proc.devRef .tc main_v243) : (⟨S1x128, .f32⟩ : BufTy).Contents (Elt F)) shapeCasts_S1x128_S128 : (⟨S128, .f32⟩ : BufTy).Contents (Elt F))) (fun Z => rfl) V

theorem eq_main_v245 (V : Valuation τ sig (Elt F)) :
    A V main_v245 = ((broadcastInDim S1x128 ![1] bcast_S128_S1x128_1 : (⟨S128, .f32⟩ : BufTy).Contents (Elt F) → (⟨S1x128, .f32⟩ : BufTy).Contents (Elt F)) (A V main_v244 : (⟨S128, .f32⟩ : BufTy).Contents (Elt F)) : (⟨S1x128, .f32⟩ : BufTy).Contents (Elt F)) :=
  pc4.unary (k := 64) (y := main_v245) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v244) : (⟨S128, .f32⟩ : BufTy).Contents (Elt F)) : (⟨S1x128, .f32⟩ : BufTy).Contents (Elt F))) (fun Z => rfl) V

theorem eq_main_v246 (V : Valuation τ sig (Elt F)) :
    A V main_v246 = ((broadcastInDim S100000x128 ![0, 1] bcast_S1x128_S100000x128_0_1 : (⟨S1x128, .f32⟩ : BufTy).Contents (Elt F) → (⟨S100000x128, .f32⟩ : BufTy).Contents (Elt F)) (A V main_v245 : (⟨S1x128, .f32⟩ : BufTy).Contents (Elt F)) : (⟨S100000x128, .f32⟩ : BufTy).Contents (Elt F)) :=
  pc4.unary (k := 65) (y := main_v246) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v245) : (⟨S1x128, .f32⟩ : BufTy).Contents (Elt F)) : (⟨S100000x128, .f32⟩ : BufTy).Contents (Elt F))) (fun Z => rfl) V

theorem eq_main_v247 (V : Valuation τ sig (Elt F)) :
    A V main_v247 = ((addf : (⟨S100000x128, .f32⟩ : BufTy).Contents (Elt F) → (⟨S100000x128, .f32⟩ : BufTy).Contents (Elt F) → (⟨S100000x128, .f32⟩ : BufTy).Contents (Elt F)) (A V main_v242 : (⟨S100000x128, .f32⟩ : BufTy).Contents (Elt F)) (A V main_v246 : (⟨S100000x128, .f32⟩ : BufTy).Contents (Elt F)) : (⟨S100000x128, .f32⟩ : BufTy).Contents (Elt F)) :=
  pc4.binary (k := 66) (y := main_v247) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v242) : (⟨S100000x128, .f32⟩ : BufTy).Contents (Elt F)) (Z (Proc.devRef .tc main_v246) : (⟨S100000x128, .f32⟩ : BufTy).Contents (Elt F)) : (⟨S100000x128, .f32⟩ : BufTy).Contents (Elt F))) (fun Z => rfl) V

theorem eq_main_v248 (V : Valuation τ sig (Elt F)) :
    A V main_v248 = (((extractStridedSlice S1x128 ![3, 0] · slices_S4x128_S1x128_3_0) : (⟨S4x128, .f32⟩ : BufTy).Contents (Elt F) → (⟨S1x128, .f32⟩ : BufTy).Contents (Elt F)) (A V main_arg5 : (⟨S4x128, .f32⟩ : BufTy).Contents (Elt F)) : (⟨S1x128, .f32⟩ : BufTy).Contents (Elt F)) :=
  pc4.unary (k := 67) (y := main_v248) rfl (by decide)
    (fun Z => (((extractStridedSlice S1x128 ![3, 0] · slices_S4x128_S1x128_3_0) : (⟨S4x128, .f32⟩ : BufTy).Contents (Elt F) → (⟨S1x128, .f32⟩ : BufTy).Contents (Elt F)) (Z (Proc.devRef .tc main_arg5) : (⟨S4x128, .f32⟩ : BufTy).Contents (Elt F)) : (⟨S1x128, .f32⟩ : BufTy).Contents (Elt F))) (fun Z => rfl) V

theorem eq_main_v249 (V : Valuation τ sig (Elt F)) :
    A V main_v249 = (shapeCast S128 (A V main_v248 : (⟨S1x128, .f32⟩ : BufTy).Contents (Elt F)) shapeCasts_S1x128_S128 : (⟨S128, .f32⟩ : BufTy).Contents (Elt F)) :=
  pc4.reshape (k := 68) (y := main_v249) rfl (by decide)
    (fun Z => (shapeCast S128 (Z (Proc.devRef .tc main_v248) : (⟨S1x128, .f32⟩ : BufTy).Contents (Elt F)) shapeCasts_S1x128_S128 : (⟨S128, .f32⟩ : BufTy).Contents (Elt F))) (fun Z => rfl) V

theorem eq_main_v250 (V : Valuation τ sig (Elt F)) :
    A V main_v250 = (((extractStridedSlice S1x128 ![3, 0] · slices_S4x128_S1x128_3_0) : (⟨S4x128, .f32⟩ : BufTy).Contents (Elt F) → (⟨S1x128, .f32⟩ : BufTy).Contents (Elt F)) (A V main_arg6 : (⟨S4x128, .f32⟩ : BufTy).Contents (Elt F)) : (⟨S1x128, .f32⟩ : BufTy).Contents (Elt F)) :=
  pc4.unary (k := 69) (y := main_v250) rfl (by decide)
    (fun Z => (((extractStridedSlice S1x128 ![3, 0] · slices_S4x128_S1x128_3_0) : (⟨S4x128, .f32⟩ : BufTy).Contents (Elt F) → (⟨S1x128, .f32⟩ : BufTy).Contents (Elt F)) (Z (Proc.devRef .tc main_arg6) : (⟨S4x128, .f32⟩ : BufTy).Contents (Elt F)) : (⟨S1x128, .f32⟩ : BufTy).Contents (Elt F))) (fun Z => rfl) V

theorem eq_main_v251 (V : Valuation τ sig (Elt F)) :
    A V main_v251 = (shapeCast S128 (A V main_v250 : (⟨S1x128, .f32⟩ : BufTy).Contents (Elt F)) shapeCasts_S1x128_S128 : (⟨S128, .f32⟩ : BufTy).Contents (Elt F)) :=
  pc4.reshape (k := 70) (y := main_v251) rfl (by decide)
    (fun Z => (shapeCast S128 (Z (Proc.devRef .tc main_v250) : (⟨S1x128, .f32⟩ : BufTy).Contents (Elt F)) shapeCasts_S1x128_S128 : (⟨S128, .f32⟩ : BufTy).Contents (Elt F))) (fun Z => rfl) V

theorem eq_main_cst_34 (V : Valuation τ sig (Elt F)) :
    A V main_cst_34 = ((constant S_ .f32 0x00000000#32) : (⟨S_, .f32⟩ : BufTy).Contents (Elt F)) :=
  pc4.nullary (k := 71) (y := main_cst_34) rfl V

theorem eq_main_v252 (V : Valuation τ sig (Elt F)) :
    A V main_v252 = (Host.reduceAdd (A V main_v247 : (⟨S100000x128, .f32⟩ : BufTy).Contents (Elt F)) (A V main_cst_34 : (⟨S_, .f32⟩ : BufTy).Contents (Elt F)) reducesTo_S100000x128_S128_d0 h_S_ : (⟨S128, .f32⟩ : BufTy).Contents (Elt F)) :=
  pc4.binary (k := 72) (y := main_v252) rfl (by decide) (by decide)
    (fun Z => (Host.reduceAdd (Z (Proc.devRef .tc main_v247) : (⟨S100000x128, .f32⟩ : BufTy).Contents (Elt F)) (Z (Proc.devRef .tc main_cst_34) : (⟨S_, .f32⟩ : BufTy).Contents (Elt F)) reducesTo_S100000x128_S128_d0 h_S_ : (⟨S128, .f32⟩ : BufTy).Contents (Elt F))) (fun Z => rfl) V

theorem eq_main_cst_35 (V : Valuation τ sig (Elt F)) :
    A V main_cst_35 = ((constant S_ .f32 0x47C35000#32) : (⟨S_, .f32⟩ : BufTy).Contents (Elt F)) :=
  pc4.nullary (k := 73) (y := main_cst_35) rfl V

theorem eq_main_v253 (V : Valuation τ sig (Elt F)) :
    A V main_v253 = ((broadcastInDim S128 ![] bcast_S_S128 : (⟨S_, .f32⟩ : BufTy).Contents (Elt F) → (⟨S128, .f32⟩ : BufTy).Contents (Elt F)) (A V main_cst_35 : (⟨S_, .f32⟩ : BufTy).Contents (Elt F)) : (⟨S128, .f32⟩ : BufTy).Contents (Elt F)) :=
  pc4.unary (k := 74) (y := main_v253) rfl (by decide)
    (fun Z => ((broadcastInDim S128 ![] bcast_S_S128 : (⟨S_, .f32⟩ : BufTy).Contents (Elt F) → (⟨S128, .f32⟩ : BufTy).Contents (Elt F)) (Z (Proc.devRef .tc main_cst_35) : (⟨S_, .f32⟩ : BufTy).Contents (Elt F)) : (⟨S128, .f32⟩ : BufTy).Contents (Elt F))) (fun Z => rfl) V

theorem eq_main_v254 (V : Valuation τ sig (Elt F)) :
    A V main_v254 = ((Host.divf : (⟨S128, .f32⟩ : BufTy).Contents (Elt F) → (⟨S128, .f32⟩ : BufTy).Contents (Elt F) → (⟨S128, .f32⟩ : BufTy).Contents (Elt F)) (A V main_v252 : (⟨S128, .f32⟩ : BufTy).Contents (Elt F)) (A V main_v253 : (⟨S128, .f32⟩ : BufTy).Contents (Elt F)) : (⟨S128, .f32⟩ : BufTy).Contents (Elt F)) :=
  pc4.binary (k := 75) (y := main_v254) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_v252) : (⟨S128, .f32⟩ : BufTy).Contents (Elt F)) (Z (Proc.devRef .tc main_v253) : (⟨S128, .f32⟩ : BufTy).Contents (Elt F)) : (⟨S128, .f32⟩ : BufTy).Contents (Elt F))) (fun Z => rfl) V

theorem eq_main_c_36 (V : Valuation τ sig (Elt F)) :
    A V main_c_36 = ((constantI S_ 32 0#32) : (⟨S_, .i32⟩ : BufTy).Contents (Elt F)) :=
  pc4.nullary (k := 76) (y := main_c_36) rfl V

theorem eq_main_call12_cst (V : Valuation τ sig (Elt F)) :
    A V main_call12_cst = ((constant S_ .f32 0x00000000#32) : (⟨S_, .f32⟩ : BufTy).Contents (Elt F)) :=
  pc4.nullary (k := 77) (y := main_call12_cst) rfl V

theorem eq_main_call12_v0 (V : Valuation τ sig (Elt F)) :
    A V main_call12_v0 = (Host.reduceAdd (A V main_v247 : (⟨S100000x128, .f32⟩ : BufTy).Contents (Elt F)) (A V main_call12_cst : (⟨S_, .f32⟩ : BufTy).Contents (Elt F)) reducesTo_S100000x128_S128_d0 h_S_ : (⟨S128, .f32⟩ : BufTy).Contents (Elt F)) :=
  pc4.binary (k := 78) (y := main_call12_v0) rfl (by decide) (by decide)
    (fun Z => (Host.reduceAdd (Z (Proc.devRef .tc main_v247) : (⟨S100000x128, .f32⟩ : BufTy).Contents (Elt F)) (Z (Proc.devRef .tc main_call12_cst) : (⟨S_, .f32⟩ : BufTy).Contents (Elt F)) reducesTo_S100000x128_S128_d0 h_S_ : (⟨S128, .f32⟩ : BufTy).Contents (Elt F))) (fun Z => rfl) V

theorem eq_main_call12_v1 (V : Valuation τ sig (Elt F)) :
    A V main_call12_v1 = (((broadcastInDim S1x128 ![1] bcast_S128_S1x128_1) : (⟨S128, .f32⟩ : BufTy).Contents (Elt F) → (⟨S1x128, .f32⟩ : BufTy).Contents (Elt F)) (A V main_call12_v0 : (⟨S128, .f32⟩ : BufTy).Contents (Elt F)) : (⟨S1x128, .f32⟩ : BufTy).Contents (Elt F)) :=
  pc4.unary (k := 79) (y := main_call12_v1) rfl (by decide)
    (fun Z => (((broadcastInDim S1x128 ![1] bcast_S128_S1x128_1) : (⟨S128, .f32⟩ : BufTy).Contents (Elt F) → (⟨S1x128, .f32⟩ : BufTy).Contents (Elt F)) (Z (Proc.devRef .tc main_call12_v0) : (⟨S128, .f32⟩ : BufTy).Contents (Elt F)) : (⟨S1x128, .f32⟩ : BufTy).Contents (Elt F))) (fun Z => rfl) V

theorem eq_main_call12_cst_0 (V : Valuation τ sig (Elt F)) :
    A V main_call12_cst_0 = ((constant S_ .f32 0x47C35000#32) : (⟨S_, .f32⟩ : BufTy).Contents (Elt F)) :=
  pc4.nullary (k := 80) (y := main_call12_cst_0) rfl V

theorem eq_main_call12_v2 (V : Valuation τ sig (Elt F)) :
    A V main_call12_v2 = (((broadcastInDim S1x128 ![] bcast_S_S1x128) : (⟨S_, .f32⟩ : BufTy).Contents (Elt F) → (⟨S1x128, .f32⟩ : BufTy).Contents (Elt F)) (A V main_call12_cst_0 : (⟨S_, .f32⟩ : BufTy).Contents (Elt F)) : (⟨S1x128, .f32⟩ : BufTy).Contents (Elt F)) :=
  pc4.unary (k := 81) (y := main_call12_v2) rfl (by decide)
    (fun Z => (((broadcastInDim S1x128 ![] bcast_S_S1x128) : (⟨S_, .f32⟩ : BufTy).Contents (Elt F) → (⟨S1x128, .f32⟩ : BufTy).Contents (Elt F)) (Z (Proc.devRef .tc main_call12_cst_0) : (⟨S_, .f32⟩ : BufTy).Contents (Elt F)) : (⟨S1x128, .f32⟩ : BufTy).Contents (Elt F))) (fun Z => rfl) V

theorem eq_main_call12_v3 (V : Valuation τ sig (Elt F)) :
    A V main_call12_v3 = ((Host.divf : (⟨S1x128, .f32⟩ : BufTy).Contents (Elt F) → (⟨S1x128, .f32⟩ : BufTy).Contents (Elt F) → (⟨S1x128, .f32⟩ : BufTy).Contents (Elt F)) (A V main_call12_v1 : (⟨S1x128, .f32⟩ : BufTy).Contents (Elt F)) (A V main_call12_v2 : (⟨S1x128, .f32⟩ : BufTy).Contents (Elt F)) : (⟨S1x128, .f32⟩ : BufTy).Contents (Elt F)) :=
  pc4.binary (k := 82) (y := main_call12_v3) rfl (by decide) (by decide)
    (fun Z => ((Host.divf : (⟨S1x128, .f32⟩ : BufTy).Contents (Elt F) → (⟨S1x128, .f32⟩ : BufTy).Contents (Elt F) → (⟨S1x128, .f32⟩ : BufTy).Contents (Elt F)) (Z (Proc.devRef .tc main_call12_v1) : (⟨S1x128, .f32⟩ : BufTy).Contents (Elt F)) (Z (Proc.devRef .tc main_call12_v2) : (⟨S1x128, .f32⟩ : BufTy).Contents (Elt F)) : (⟨S1x128, .f32⟩ : BufTy).Contents (Elt F))) (fun Z => rfl) V

theorem eq_main_call12_v4 (V : Valuation τ sig (Elt F)) :
    A V main_call12_v4 = (((broadcastInDim S100000x128 ![0, 1] bcast_S1x128_S100000x128_0_1) : (⟨S1x128, .f32⟩ : BufTy).Contents (Elt F) → (⟨S100000x128, .f32⟩ : BufTy).Contents (Elt F)) (A V main_call12_v3 : (⟨S1x128, .f32⟩ : BufTy).Contents (Elt F)) : (⟨S100000x128, .f32⟩ : BufTy).Contents (Elt F)) :=
  pc4.unary (k := 83) (y := main_call12_v4) rfl (by decide)
    (fun Z => (((broadcastInDim S100000x128 ![0, 1] bcast_S1x128_S100000x128_0_1) : (⟨S1x128, .f32⟩ : BufTy).Contents (Elt F) → (⟨S100000x128, .f32⟩ : BufTy).Contents (Elt F)) (Z (Proc.devRef .tc main_call12_v3) : (⟨S1x128, .f32⟩ : BufTy).Contents (Elt F)) : (⟨S100000x128, .f32⟩ : BufTy).Contents (Elt F))) (fun Z => rfl) V

theorem eq_main_call12_v5 (V : Valuation τ sig (Elt F)) :
    A V main_call12_v5 = ((subf : (⟨S100000x128, .f32⟩ : BufTy).Contents (Elt F) → (⟨S100000x128, .f32⟩ : BufTy).Contents (Elt F) → (⟨S100000x128, .f32⟩ : BufTy).Contents (Elt F)) (A V main_v247 : (⟨S100000x128, .f32⟩ : BufTy).Contents (Elt F)) (A V main_call12_v4 : (⟨S100000x128, .f32⟩ : BufTy).Contents (Elt F)) : (⟨S100000x128, .f32⟩ : BufTy).Contents (Elt F)) :=
  pc4.binary (k := 84) (y := main_call12_v5) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v247) : (⟨S100000x128, .f32⟩ : BufTy).Contents (Elt F)) (Z (Proc.devRef .tc main_call12_v4) : (⟨S100000x128, .f32⟩ : BufTy).Contents (Elt F)) : (⟨S100000x128, .f32⟩ : BufTy).Contents (Elt F))) (fun Z => rfl) V

theorem eq_main_call12_v6 (V : Valuation τ sig (Elt F)) :
    A V main_call12_v6 = ((mulf : (⟨S100000x128, .f32⟩ : BufTy).Contents (Elt F) → (⟨S100000x128, .f32⟩ : BufTy).Contents (Elt F) → (⟨S100000x128, .f32⟩ : BufTy).Contents (Elt F)) (A V main_call12_v5 : (⟨S100000x128, .f32⟩ : BufTy).Contents (Elt F)) (A V main_call12_v5 : (⟨S100000x128, .f32⟩ : BufTy).Contents (Elt F)) : (⟨S100000x128, .f32⟩ : BufTy).Contents (Elt F)) :=
  pc4.binary (k := 85) (y := main_call12_v6) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_call12_v5) : (⟨S100000x128, .f32⟩ : BufTy).Contents (Elt F)) (Z (Proc.devRef .tc main_call12_v5) : (⟨S100000x128, .f32⟩ : BufTy).Contents (Elt F)) : (⟨S100000x128, .f32⟩ : BufTy).Contents (Elt F))) (fun Z => rfl) V

theorem eq_main_call12_v7 (V : Valuation τ sig (Elt F)) :
    A V main_call12_v7 = (((sitofp .f32) : (⟨S_, .i32⟩ : BufTy).Contents (Elt F) → (⟨S_, .f32⟩ : BufTy).Contents (Elt F)) (A V main_c_36 : (⟨S_, .i32⟩ : BufTy).Contents (Elt F)) : (⟨S_, .f32⟩ : BufTy).Contents (Elt F)) :=
  pc4.unary (k := 86) (y := main_call12_v7) rfl (by decide)
    (fun Z => (((sitofp .f32) : (⟨S_, .i32⟩ : BufTy).Contents (Elt F) → (⟨S_, .f32⟩ : BufTy).Contents (Elt F)) (Z (Proc.devRef .tc main_c_36) : (⟨S_, .i32⟩ : BufTy).Contents (Elt F)) : (⟨S_, .f32⟩ : BufTy).Contents (Elt F))) (fun Z => rfl) V

theorem eq_main_call12_cst_1 (V : Valuation τ sig (Elt F)) :
    A V main_call12_cst_1 = ((constant S_ .f32 0x47C35000#32) : (⟨S_, .f32⟩ : BufTy).Contents (Elt F)) :=
  pc4.nullary (k := 87) (y := main_call12_cst_1) rfl V

theorem eq_main_call12_v8 (V : Valuation τ sig (Elt F)) :
    A V main_call12_v8 = ((subf : (⟨S_, .f32⟩ : BufTy).Contents (Elt F) → (⟨S_, .f32⟩ : BufTy).Contents (Elt F) → (⟨S_, .f32⟩ : BufTy).Contents (Elt F)) (A V main_call12_cst_1 : (⟨S_, .f32⟩ : BufTy).Contents (Elt F)) (A V main_call12_v7 : (⟨S_, .f32⟩ : BufTy).Contents (Elt F)) : (⟨S_, .f32⟩ : BufTy).Contents (Elt F)) :=
  pc4.binary (k := 88) (y := main_call12_v8) rfl (by decide) (by decide)
    (fun Z => ((subf : (⟨S_, .f32⟩ : BufTy).Contents (Elt F) → (⟨S_, .f32⟩ : BufTy).Contents (Elt F) → (⟨S_, .f32⟩ : BufTy).Contents (Elt F)) (Z (Proc.devRef .tc main_call12_cst_1) : (⟨S_, .f32⟩ : BufTy).Contents (Elt F)) (Z (Proc.devRef .tc main_call12_v7) : (⟨S_, .f32⟩ : BufTy).Contents (Elt F)) : (⟨S_, .f32⟩ : BufTy).Contents (Elt F))) (fun Z => rfl) V

theorem eq_main_call12_cst_2 (V : Valuation τ sig (Elt F)) :
    A V main_call12_cst_2 = ((constant S_ .f32 0x00000000#32) : (⟨S_, .f32⟩ : BufTy).Contents (Elt F)) :=
  pc4.nullary (k := 89) (y := main_call12_cst_2) rfl V

theorem eq_main_call12_v9 (V : Valuation τ sig (Elt F)) :
    A V main_call12_v9 = (Host.reduceAdd (A V main_call12_v6 : (⟨S100000x128, .f32⟩ : BufTy).Contents (Elt F)) (A V main_call12_cst_2 : (⟨S_, .f32⟩ : BufTy).Contents (Elt F)) reducesTo_S100000x128_S128_d0 h_S_ : (⟨S128, .f32⟩ : BufTy).Contents (Elt F)) :=
  pc4.binary (k := 90) (y := main_call12_v9) rfl (by decide) (by decide)
    (fun Z => (Host.reduceAdd (Z (Proc.devRef .tc main_call12_v6) : (⟨S100000x128, .f32⟩ : BufTy).Contents (Elt F)) (Z (Proc.devRef .tc main_call12_cst_2) : (⟨S_, .f32⟩ : BufTy).Contents (Elt F)) reducesTo_S100000x128_S128_d0 h_S_ : (⟨S128, .f32⟩ : BufTy).Contents (Elt F))) (fun Z => rfl) V

theorem eq_main_call12_v10 (V : Valuation τ sig (Elt F)) :
    A V main_call12_v10 = (((broadcastInDim S128 ![] bcast_S_S128) : (⟨S_, .f32⟩ : BufTy).Contents (Elt F) → (⟨S128, .f32⟩ : BufTy).Contents (Elt F)) (A V main_call12_v8 : (⟨S_, .f32⟩ : BufTy).Contents (Elt F)) : (⟨S128, .f32⟩ : BufTy).Contents (Elt F)) :=
  pc4.unary (k := 91) (y := main_call12_v10) rfl (by decide)
    (fun Z => (((broadcastInDim S128 ![] bcast_S_S128) : (⟨S_, .f32⟩ : BufTy).Contents (Elt F) → (⟨S128, .f32⟩ : BufTy).Contents (Elt F)) (Z (Proc.devRef .tc main_call12_v8) : (⟨S_, .f32⟩ : BufTy).Contents (Elt F)) : (⟨S128, .f32⟩ : BufTy).Contents (Elt F))) (fun Z => rfl) V

theorem eq_main_call12_v11 (V : Valuation τ sig (Elt F)) :
    A V main_call12_v11 = ((Host.divf : (⟨S128, .f32⟩ : BufTy).Contents (Elt F) → (⟨S128, .f32⟩ : BufTy).Contents (Elt F) → (⟨S128, .f32⟩ : BufTy).Contents (Elt F)) (A V main_call12_v9 : (⟨S128, .f32⟩ : BufTy).Contents (Elt F)) (A V main_call12_v10 : (⟨S128, .f32⟩ : BufTy).Contents (Elt F)) : (⟨S128, .f32⟩ : BufTy).Contents (Elt F)) :=
  pc4.binary (k := 92) (y := main_call12_v11) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_call12_v9) : (⟨S128, .f32⟩ : BufTy).Contents (Elt F)) (Z (Proc.devRef .tc main_call12_v10) : (⟨S128, .f32⟩ : BufTy).Contents (Elt F)) : (⟨S128, .f32⟩ : BufTy).Contents (Elt F))) (fun Z => rfl) V

theorem eq_main_call12_cst_3 (V : Valuation τ sig (Elt F)) :
    A V main_call12_cst_3 = ((constant S_ .f32 0x00000000#32) : (⟨S_, .f32⟩ : BufTy).Contents (Elt F)) :=
  pc4.nullary (k := 93) (y := main_call12_cst_3) rfl V

theorem eq_main_call12_v12 (V : Valuation τ sig (Elt F)) :
    A V main_call12_v12 = (((cmpf .ogt) : (⟨S_, .f32⟩ : BufTy).Contents (Elt F) → (⟨S_, .f32⟩ : BufTy).Contents (Elt F) → (⟨S_, .i1⟩ : BufTy).Contents (Elt F)) (A V main_call12_v8 : (⟨S_, .f32⟩ : BufTy).Contents (Elt F)) (A V main_call12_cst_3 : (⟨S_, .f32⟩ : BufTy).Contents (Elt F)) : (⟨S_, .i1⟩ : BufTy).Contents (Elt F)) :=
  pc4.binary (k := 94) (y := main_call12_v12) rfl (by decide) (by decide)
    (fun Z => (((cmpf .ogt) : (⟨S_, .f32⟩ : BufTy).Contents (Elt F) → (⟨S_, .f32⟩ : BufTy).Contents (Elt F) → (⟨S_, .i1⟩ : BufTy).Contents (Elt F)) (Z (Proc.devRef .tc main_call12_v8) : (⟨S_, .f32⟩ : BufTy).Contents (Elt F)) (Z (Proc.devRef .tc main_call12_cst_3) : (⟨S_, .f32⟩ : BufTy).Contents (Elt F)) : (⟨S_, .i1⟩ : BufTy).Contents (Elt F))) (fun Z => rfl) V

theorem eq_main_call12_cst_4 (V : Valuation τ sig (Elt F)) :
    A V main_call12_cst_4 = ((constant S_ .f32 0x7FC00000#32) : (⟨S_, .f32⟩ : BufTy).Contents (Elt F)) :=
  pc4.nullary (k := 95) (y := main_call12_cst_4) rfl V

theorem eq_main_call12_call0_v0 (V : Valuation τ sig (Elt F)) :
    A V main_call12_call0_v0 = ((id : (⟨S_, .f32⟩ : BufTy).Contents (Elt F) → (⟨S_, .f32⟩ : BufTy).Contents (Elt F)) (A V main_call12_cst_4 : (⟨S_, .f32⟩ : BufTy).Contents (Elt F)) : (⟨S_, .f32⟩ : BufTy).Contents (Elt F)) :=
  pc4.unary (k := 96) (y := main_call12_call0_v0) rfl (by decide)
    (fun Z => ((id : (⟨S_, .f32⟩ : BufTy).Contents (Elt F) → (⟨S_, .f32⟩ : BufTy).Contents (Elt F)) (Z (Proc.devRef .tc main_call12_cst_4) : (⟨S_, .f32⟩ : BufTy).Contents (Elt F)) : (⟨S_, .f32⟩ : BufTy).Contents (Elt F))) (fun Z => rfl) V

theorem eq_main_call12_call0_v1 (V : Valuation τ sig (Elt F)) :
    A V main_call12_call0_v1 = (((broadcastInDim S128 ![] bcast_S_S128) : (⟨S_, .f32⟩ : BufTy).Contents (Elt F) → (⟨S128, .f32⟩ : BufTy).Contents (Elt F)) (A V main_call12_call0_v0 : (⟨S_, .f32⟩ : BufTy).Contents (Elt F)) : (⟨S128, .f32⟩ : BufTy).Contents (Elt F)) :=
  pc4.unary (k := 97) (y := main_call12_call0_v1) rfl (by decide)
    (fun Z => (((broadcastInDim S128 ![] bcast_S_S128) : (⟨S_, .f32⟩ : BufTy).Contents (Elt F) → (⟨S128, .f32⟩ : BufTy).Contents (Elt F)) (Z (Proc.devRef .tc main_call12_call0_v0) : (⟨S_, .f32⟩ : BufTy).Contents (Elt F)) : (⟨S128, .f32⟩ : BufTy).Contents (Elt F))) (fun Z => rfl) V

theorem eq_main_v255 (V : Valuation τ sig (Elt F)) :
    A V main_v255 = (select ((broadcastInDim S128 ![] bcast_S_S128 : (⟨S_, .i1⟩ : BufTy).Contents (Elt F) → (⟨S128, .i1⟩ : BufTy).Contents (Elt F)) (A V main_call12_v12 : (⟨S_, .i1⟩ : BufTy).Contents (Elt F))) (A V main_call12_v11 : (⟨S128, .f32⟩ : BufTy).Contents (Elt F)) (A V main_call12_call0_v1 : (⟨S128, .f32⟩ : BufTy).Contents (Elt F)) : (⟨S128, .f32⟩ : BufTy).Contents (Elt F)) :=
  pc4.ternary (k := 98) (y := main_v255) rfl (by decide) (by decide) (by decide)
    (fun Z => (select ((broadcastInDim S128 ![] bcast_S_S128 : (⟨S_, .i1⟩ : BufTy).Contents (Elt F) → (⟨S128, .i1⟩ : BufTy).Contents (Elt F)) (Z (Proc.devRef .tc main_call12_v12) : (⟨S_, .i1⟩ : BufTy).Contents (Elt F))) (Z (Proc.devRef .tc main_call12_v11) : (⟨S128, .f32⟩ : BufTy).Contents (Elt F)) (Z (Proc.devRef .tc main_call12_call0_v1) : (⟨S128, .f32⟩ : BufTy).Contents (Elt F)) : (⟨S128, .f32⟩ : BufTy).Contents (Elt F))) (fun Z => rfl) V

theorem eq_main_v256 (V : Valuation τ sig (Elt F)) :
    A V main_v256 = ((broadcastInDim S1x128 ![1] bcast_S128_S1x128_1 : (⟨S128, .f32⟩ : BufTy).Contents (Elt F) → (⟨S1x128, .f32⟩ : BufTy).Contents (Elt F)) (A V main_v254 : (⟨S128, .f32⟩ : BufTy).Contents (Elt F)) : (⟨S1x128, .f32⟩ : BufTy).Contents (Elt F)) :=
  pc4.unary (k := 99) (y := main_v256) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v254) : (⟨S128, .f32⟩ : BufTy).Contents (Elt F)) : (⟨S1x128, .f32⟩ : BufTy).Contents (Elt F))) (fun Z => rfl) V

theorem eq_main_v257 (V : Valuation τ sig (Elt F)) :
    A V main_v257 = ((broadcastInDim S100000x128 ![0, 1] bcast_S1x128_S100000x128_0_1 : (⟨S1x128, .f32⟩ : BufTy).Contents (Elt F) → (⟨S100000x128, .f32⟩ : BufTy).Contents (Elt F)) (A V main_v256 : (⟨S1x128, .f32⟩ : BufTy).Contents (Elt F)) : (⟨S100000x128, .f32⟩ : BufTy).Contents (Elt F)) :=
  pc4.unary (k := 100) (y := main_v257) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v256) : (⟨S1x128, .f32⟩ : BufTy).Contents (Elt F)) : (⟨S100000x128, .f32⟩ : BufTy).Contents (Elt F))) (fun Z => rfl) V

theorem eq_main_v258 (V : Valuation τ sig (Elt F)) :
    A V main_v258 = ((subf : (⟨S100000x128, .f32⟩ : BufTy).Contents (Elt F) → (⟨S100000x128, .f32⟩ : BufTy).Contents (Elt F) → (⟨S100000x128, .f32⟩ : BufTy).Contents (Elt F)) (A V main_v247 : (⟨S100000x128, .f32⟩ : BufTy).Contents (Elt F)) (A V main_v257 : (⟨S100000x128, .f32⟩ : BufTy).Contents (Elt F)) : (⟨S100000x128, .f32⟩ : BufTy).Contents (Elt F)) :=
  pc4.binary (k := 101) (y := main_v258) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v247) : (⟨S100000x128, .f32⟩ : BufTy).Contents (Elt F)) (Z (Proc.devRef .tc main_v257) : (⟨S100000x128, .f32⟩ : BufTy).Contents (Elt F)) : (⟨S100000x128, .f32⟩ : BufTy).Contents (Elt F))) (fun Z => rfl) V

theorem eq_main_cst_37 (V : Valuation τ sig (Elt F)) :
    A V main_cst_37 = ((constant S_ .f32 0x3727C5AC#32) : (⟨S_, .f32⟩ : BufTy).Contents (Elt F)) :=
  pc4.nullary (k := 102) (y := main_cst_37) rfl V

theorem eq_main_v259 (V : Valuation τ sig (Elt F)) :
    A V main_v259 = ((broadcastInDim S128 ![] bcast_S_S128 : (⟨S_, .f32⟩ : BufTy).Contents (Elt F) → (⟨S128, .f32⟩ : BufTy).Contents (Elt F)) (A V main_cst_37 : (⟨S_, .f32⟩ : BufTy).Contents (Elt F)) : (⟨S128, .f32⟩ : BufTy).Contents (Elt F)) :=
  pc4.unary (k := 103) (y := main_v259) rfl (by decide)
    (fun Z => ((broadcastInDim S128 ![] bcast_S_S128 : (⟨S_, .f32⟩ : BufTy).Contents (Elt F) → (⟨S128, .f32⟩ : BufTy).Contents (Elt F)) (Z (Proc.devRef .tc main_cst_37) : (⟨S_, .f32⟩ : BufTy).Contents (Elt F)) : (⟨S128, .f32⟩ : BufTy).Contents (Elt F))) (fun Z => rfl) V

theorem eq_main_v260 (V : Valuation τ sig (Elt F)) :
    A V main_v260 = ((addf : (⟨S128, .f32⟩ : BufTy).Contents (Elt F) → (⟨S128, .f32⟩ : BufTy).Contents (Elt F) → (⟨S128, .f32⟩ : BufTy).Contents (Elt F)) (A V main_v255 : (⟨S128, .f32⟩ : BufTy).Contents (Elt F)) (A V main_v259 : (⟨S128, .f32⟩ : BufTy).Contents (Elt F)) : (⟨S128, .f32⟩ : BufTy).Contents (Elt F)) :=
  pc5.binary (k := 0) (y := main_v260) rfl (by decide) (by decide)
    (fun Z => ((addf : (⟨S128, .f32⟩ : BufTy).Contents (Elt F) → (⟨S128, .f32⟩ : BufTy).Contents (Elt F) → (⟨S128, .f32⟩ : BufTy).Contents (Elt F)) (Z (Proc.devRef .tc main_v255) : (⟨S128, .f32⟩ : BufTy).Contents (Elt F)) (Z (Proc.devRef .tc main_v259) : (⟨S128, .f32⟩ : BufTy).Contents (Elt F)) : (⟨S128, .f32⟩ : BufTy).Contents (Elt F))) (fun Z => rfl) V

theorem eq_main_v261 (V : Valuation τ sig (Elt F)) :
    A V main_v261 = ((Host.rsqrt : (⟨S128, .f32⟩ : BufTy).Contents (Elt F) → (⟨S128, .f32⟩ : BufTy).Contents (Elt F)) (A V main_v260 : (⟨S128, .f32⟩ : BufTy).Contents (Elt F)) : (⟨S128, .f32⟩ : BufTy).Contents (Elt F)) :=
  pc5.unary (k := 1) (y := main_v261) rfl (by decide)
    (fun Z => ((Host.rsqrt : (⟨S128, .f32⟩ : BufTy).Contents (Elt F) → (⟨S128, .f32⟩ : BufTy).Contents (Elt F)) (Z (Proc.devRef .tc main_v260) : (⟨S128, .f32⟩ : BufTy).Contents (Elt F)) : (⟨S128, .f32⟩ : BufTy).Contents (Elt F))) (fun Z => rfl) V

theorem eq_main_v262 (V : Valuation τ sig (Elt F)) :
    A V main_v262 = ((broadcastInDim S1x128 ![1] bcast_S128_S1x128_1 : (⟨S128, .f32⟩ : BufTy).Contents (Elt F) → (⟨S1x128, .f32⟩ : BufTy).Contents (Elt F)) (A V main_v261 : (⟨S128, .f32⟩ : BufTy).Contents (Elt F)) : (⟨S1x128, .f32⟩ : BufTy).Contents (Elt F)) :=
  pc5.unary (k := 2) (y := main_v262) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v261) : (⟨S128, .f32⟩ : BufTy).Contents (Elt F)) : (⟨S1x128, .f32⟩ : BufTy).Contents (Elt F))) (fun Z => rfl) V

theorem eq_main_v263 (V : Valuation τ sig (Elt F)) :
    A V main_v263 = ((broadcastInDim S100000x128 ![0, 1] bcast_S1x128_S100000x128_0_1 : (⟨S1x128, .f32⟩ : BufTy).Contents (Elt F) → (⟨S100000x128, .f32⟩ : BufTy).Contents (Elt F)) (A V main_v262 : (⟨S1x128, .f32⟩ : BufTy).Contents (Elt F)) : (⟨S100000x128, .f32⟩ : BufTy).Contents (Elt F)) :=
  pc5.unary (k := 3) (y := main_v263) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v262) : (⟨S1x128, .f32⟩ : BufTy).Contents (Elt F)) : (⟨S100000x128, .f32⟩ : BufTy).Contents (Elt F))) (fun Z => rfl) V

theorem eq_main_v264 (V : Valuation τ sig (Elt F)) :
    A V main_v264 = ((mulf : (⟨S100000x128, .f32⟩ : BufTy).Contents (Elt F) → (⟨S100000x128, .f32⟩ : BufTy).Contents (Elt F) → (⟨S100000x128, .f32⟩ : BufTy).Contents (Elt F)) (A V main_v258 : (⟨S100000x128, .f32⟩ : BufTy).Contents (Elt F)) (A V main_v263 : (⟨S100000x128, .f32⟩ : BufTy).Contents (Elt F)) : (⟨S100000x128, .f32⟩ : BufTy).Contents (Elt F)) :=
  pc5.binary (k := 4) (y := main_v264) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v258) : (⟨S100000x128, .f32⟩ : BufTy).Contents (Elt F)) (Z (Proc.devRef .tc main_v263) : (⟨S100000x128, .f32⟩ : BufTy).Contents (Elt F)) : (⟨S100000x128, .f32⟩ : BufTy).Contents (Elt F))) (fun Z => rfl) V

theorem eq_main_v265 (V : Valuation τ sig (Elt F)) :
    A V main_v265 = ((broadcastInDim S1x128 ![1] bcast_S128_S1x128_1 : (⟨S128, .f32⟩ : BufTy).Contents (Elt F) → (⟨S1x128, .f32⟩ : BufTy).Contents (Elt F)) (A V main_v249 : (⟨S128, .f32⟩ : BufTy).Contents (Elt F)) : (⟨S1x128, .f32⟩ : BufTy).Contents (Elt F)) :=
  pc5.unary (k := 5) (y := main_v265) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v249) : (⟨S128, .f32⟩ : BufTy).Contents (Elt F)) : (⟨S1x128, .f32⟩ : BufTy).Contents (Elt F))) (fun Z => rfl) V

theorem eq_main_v266 (V : Valuation τ sig (Elt F)) :
    A V main_v266 = ((broadcastInDim S100000x128 ![0, 1] bcast_S1x128_S100000x128_0_1 : (⟨S1x128, .f32⟩ : BufTy).Contents (Elt F) → (⟨S100000x128, .f32⟩ : BufTy).Contents (Elt F)) (A V main_v265 : (⟨S1x128, .f32⟩ : BufTy).Contents (Elt F)) : (⟨S100000x128, .f32⟩ : BufTy).Contents (Elt F)) :=
  pc5.unary (k := 6) (y := main_v266) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v265) : (⟨S1x128, .f32⟩ : BufTy).Contents (Elt F)) : (⟨S100000x128, .f32⟩ : BufTy).Contents (Elt F))) (fun Z => rfl) V

theorem eq_main_v267 (V : Valuation τ sig (Elt F)) :
    A V main_v267 = ((mulf : (⟨S100000x128, .f32⟩ : BufTy).Contents (Elt F) → (⟨S100000x128, .f32⟩ : BufTy).Contents (Elt F) → (⟨S100000x128, .f32⟩ : BufTy).Contents (Elt F)) (A V main_v264 : (⟨S100000x128, .f32⟩ : BufTy).Contents (Elt F)) (A V main_v266 : (⟨S100000x128, .f32⟩ : BufTy).Contents (Elt F)) : (⟨S100000x128, .f32⟩ : BufTy).Contents (Elt F)) :=
  pc5.binary (k := 7) (y := main_v267) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v264) : (⟨S100000x128, .f32⟩ : BufTy).Contents (Elt F)) (Z (Proc.devRef .tc main_v266) : (⟨S100000x128, .f32⟩ : BufTy).Contents (Elt F)) : (⟨S100000x128, .f32⟩ : BufTy).Contents (Elt F))) (fun Z => rfl) V

theorem eq_main_v268 (V : Valuation τ sig (Elt F)) :
    A V main_v268 = ((broadcastInDim S1x128 ![1] bcast_S128_S1x128_1 : (⟨S128, .f32⟩ : BufTy).Contents (Elt F) → (⟨S1x128, .f32⟩ : BufTy).Contents (Elt F)) (A V main_v251 : (⟨S128, .f32⟩ : BufTy).Contents (Elt F)) : (⟨S1x128, .f32⟩ : BufTy).Contents (Elt F)) :=
  pc5.unary (k := 8) (y := main_v268) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v251) : (⟨S128, .f32⟩ : BufTy).Contents (Elt F)) : (⟨S1x128, .f32⟩ : BufTy).Contents (Elt F))) (fun Z => rfl) V

theorem eq_main_v269 (V : Valuation τ sig (Elt F)) :
    A V main_v269 = ((broadcastInDim S100000x128 ![0, 1] bcast_S1x128_S100000x128_0_1 : (⟨S1x128, .f32⟩ : BufTy).Contents (Elt F) → (⟨S100000x128, .f32⟩ : BufTy).Contents (Elt F)) (A V main_v268 : (⟨S1x128, .f32⟩ : BufTy).Contents (Elt F)) : (⟨S100000x128, .f32⟩ : BufTy).Contents (Elt F)) :=
  pc5.unary (k := 9) (y := main_v269) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v268) : (⟨S1x128, .f32⟩ : BufTy).Contents (Elt F)) : (⟨S100000x128, .f32⟩ : BufTy).Contents (Elt F))) (fun Z => rfl) V

theorem eq_main_v270 (V : Valuation τ sig (Elt F)) :
    A V main_v270 = ((addf : (⟨S100000x128, .f32⟩ : BufTy).Contents (Elt F) → (⟨S100000x128, .f32⟩ : BufTy).Contents (Elt F) → (⟨S100000x128, .f32⟩ : BufTy).Contents (Elt F)) (A V main_v267 : (⟨S100000x128, .f32⟩ : BufTy).Contents (Elt F)) (A V main_v269 : (⟨S100000x128, .f32⟩ : BufTy).Contents (Elt F)) : (⟨S100000x128, .f32⟩ : BufTy).Contents (Elt F)) :=
  pc5.binary (k := 10) (y := main_v270) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v267) : (⟨S100000x128, .f32⟩ : BufTy).Contents (Elt F)) (Z (Proc.devRef .tc main_v269) : (⟨S100000x128, .f32⟩ : BufTy).Contents (Elt F)) : (⟨S100000x128, .f32⟩ : BufTy).Contents (Elt F))) (fun Z => rfl) V

theorem eq_main_call13_cst (V : Valuation τ sig (Elt F)) :
    A V main_call13_cst = ((constant S_ .f32 0x00000000#32) : (⟨S_, .f32⟩ : BufTy).Contents (Elt F)) :=
  pc5.nullary (k := 11) (y := main_call13_cst) rfl V

theorem eq_main_call13_v0 (V : Valuation τ sig (Elt F)) :
    A V main_call13_v0 = (((broadcastInDim S100000x128 ![] bcast_S_S100000x128) : (⟨S_, .f32⟩ : BufTy).Contents (Elt F) → (⟨S100000x128, .f32⟩ : BufTy).Contents (Elt F)) (A V main_call13_cst : (⟨S_, .f32⟩ : BufTy).Contents (Elt F)) : (⟨S100000x128, .f32⟩ : BufTy).Contents (Elt F)) :=
  pc5.unary (k := 12) (y := main_call13_v0) rfl (by decide)
    (fun Z => (((broadcastInDim S100000x128 ![] bcast_S_S100000x128) : (⟨S_, .f32⟩ : BufTy).Contents (Elt F) → (⟨S100000x128, .f32⟩ : BufTy).Contents (Elt F)) (Z (Proc.devRef .tc main_call13_cst) : (⟨S_, .f32⟩ : BufTy).Contents (Elt F)) : (⟨S100000x128, .f32⟩ : BufTy).Contents (Elt F))) (fun Z => rfl) V

theorem eq_main_v271 (V : Valuation τ sig (Elt F)) :
    A V main_v271 = ((maximumf : (⟨S100000x128, .f32⟩ : BufTy).Contents (Elt F) → (⟨S100000x128, .f32⟩ : BufTy).Contents (Elt F) → (⟨S100000x128, .f32⟩ : BufTy).Contents (Elt F)) (A V main_v270 : (⟨S100000x128, .f32⟩ : BufTy).Contents (Elt F)) (A V main_call13_v0 : (⟨S100000x128, .f32⟩ : BufTy).Contents (Elt F)) : (⟨S100000x128, .f32⟩ : BufTy).Contents (Elt F)) :=
  pc5.binary (k := 13) (y := main_v271) rfl (by decide) (by decide)
    (fun Z => ((maximumf : (⟨S100000x128, .f32⟩ : BufTy).Contents (Elt F) → (⟨S100000x128, .f32⟩ : BufTy).Contents (Elt F) → (⟨S100000x128, .f32⟩ : BufTy).Contents (Elt F)) (Z (Proc.devRef .tc main_v270) : (⟨S100000x128, .f32⟩ : BufTy).Contents (Elt F)) (Z (Proc.devRef .tc main_call13_v0) : (⟨S100000x128, .f32⟩ : BufTy).Contents (Elt F)) : (⟨S100000x128, .f32⟩ : BufTy).Contents (Elt F))) (fun Z => rfl) V

theorem eq_main_v272 (V : Valuation τ sig (Elt F)) :
    A V main_v272 = (((extractStridedSlice S1x128x128 ![3, 0, 0] · slices_S4x128x128_S1x128x128_3_0_0) : (⟨S4x128x128, .f32⟩ : BufTy).Contents (Elt F) → (⟨S1x128x128, .f32⟩ : BufTy).Contents (Elt F)) (A V main_arg7 : (⟨S4x128x128, .f32⟩ : BufTy).Contents (Elt F)) : (⟨S1x128x128, .f32⟩ : BufTy).Contents (Elt F)) :=
  pc5.unary (k := 14) (y := main_v272) rfl (by decide)
    (fun Z => (((extractStridedSlice S1x128x128 ![3, 0, 0] · slices_S4x128x128_S1x128x128_3_0_0) : (⟨S4x128x128, .f32⟩ : BufTy).Contents (Elt F) → (⟨S1x128x128, .f32⟩ : BufTy).Contents (Elt F)) (Z (Proc.devRef .tc main_arg7) : (⟨S4x128x128, .f32⟩ : BufTy).Contents (Elt F)) : (⟨S1x128x128, .f32⟩ : BufTy).Contents (Elt F))) (fun Z => rfl) V

theorem eq_main_v273 (V : Valuation τ sig (Elt F)) :
    A V main_v273 = (shapeCast S128x128 (A V main_v272 : (⟨S1x128x128, .f32⟩ : BufTy).Contents (Elt F)) shapeCasts_S1x128x128_S128x128 : (⟨S128x128, .f32⟩ : BufTy).Contents (Elt F)) :=
  pc5.reshape (k := 15) (y := main_v273) rfl (by decide)
    (fun Z => (shapeCast S128x128 (Z (Proc.devRef .tc main_v272) : (⟨S1x128x128, .f32⟩ : BufTy).Contents (Elt F)) shapeCasts_S1x128x128_S128x128 : (⟨S128x128, .f32⟩ : BufTy).Contents (Elt F))) (fun Z => rfl) V

theorem eq_main_v274 (V : Valuation τ sig (Elt F)) :
    A V main_v274 = (Host.dotGeneral dot_S100000x128_S128x128_S100000x128_1_0_0_1_n_n none (A V main_v271 : (⟨S100000x128, .f32⟩ : BufTy).Contents (Elt F)) (A V main_v273 : (⟨S128x128, .f32⟩ : BufTy).Contents (Elt F)) : (⟨S100000x128, .f32⟩ : BufTy).Contents (Elt F)) :=
  pc5.binary (k := 16) (y := main_v274) rfl (by decide) (by decide)
    (fun Z => (Host.dotGeneral dot_S100000x128_S128x128_S100000x128_1_0_0_1_n_n none (Z (Proc.devRef .tc main_v271) : (⟨S100000x128, .f32⟩ : BufTy).Contents (Elt F)) (Z (Proc.devRef .tc main_v273) : (⟨S128x128, .f32⟩ : BufTy).Contents (Elt F)) : (⟨S100000x128, .f32⟩ : BufTy).Contents (Elt F))) (fun Z => rfl) V

theorem eq_main_v275 (V : Valuation τ sig (Elt F)) :
    A V main_v275 = (((extractStridedSlice S1x128 ![3, 0] · slices_S4x128_S1x128_3_0) : (⟨S4x128, .f32⟩ : BufTy).Contents (Elt F) → (⟨S1x128, .f32⟩ : BufTy).Contents (Elt F)) (A V main_arg8 : (⟨S4x128, .f32⟩ : BufTy).Contents (Elt F)) : (⟨S1x128, .f32⟩ : BufTy).Contents (Elt F)) :=
  pc5.unary (k := 17) (y := main_v275) rfl (by decide)
    (fun Z => (((extractStridedSlice S1x128 ![3, 0] · slices_S4x128_S1x128_3_0) : (⟨S4x128, .f32⟩ : BufTy).Contents (Elt F) → (⟨S1x128, .f32⟩ : BufTy).Contents (Elt F)) (Z (Proc.devRef .tc main_arg8) : (⟨S4x128, .f32⟩ : BufTy).Contents (Elt F)) : (⟨S1x128, .f32⟩ : BufTy).Contents (Elt F))) (fun Z => rfl) V

theorem eq_main_v276 (V : Valuation τ sig (Elt F)) :
    A V main_v276 = (shapeCast S128 (A V main_v275 : (⟨S1x128, .f32⟩ : BufTy).Contents (Elt F)) shapeCasts_S1x128_S128 : (⟨S128, .f32⟩ : BufTy).Contents (Elt F)) :=
  pc5.reshape (k := 18) (y := main_v276) rfl (by decide)
    (fun Z => (shapeCast S128 (Z (Proc.devRef .tc main_v275) : (⟨S1x128, .f32⟩ : BufTy).Contents (Elt F)) shapeCasts_S1x128_S128 : (⟨S128, .f32⟩ : BufTy).Contents (Elt F))) (fun Z => rfl) V

theorem eq_main_v277 (V : Valuation τ sig (Elt F)) :
    A V main_v277 = ((broadcastInDim S1x128 ![1] bcast_S128_S1x128_1 : (⟨S128, .f32⟩ : BufTy).Contents (Elt F) → (⟨S1x128, .f32⟩ : BufTy).Contents (Elt F)) (A V main_v276 : (⟨S128, .f32⟩ : BufTy).Contents (Elt F)) : (⟨S1x128, .f32⟩ : BufTy).Contents (Elt F)) :=
  pc5.unary (k := 19) (y := main_v277) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v276) : (⟨S128, .f32⟩ : BufTy).Contents (Elt F)) : (⟨S1x128, .f32⟩ : BufTy).Contents (Elt F))) (fun Z => rfl) V

theorem eq_main_v278 (V : Valuation τ sig (Elt F)) :
    A V main_v278 = ((broadcastInDim S100000x128 ![0, 1] bcast_S1x128_S100000x128_0_1 : (⟨S1x128, .f32⟩ : BufTy).Contents (Elt F) → (⟨S100000x128, .f32⟩ : BufTy).Contents (Elt F)) (A V main_v277 : (⟨S1x128, .f32⟩ : BufTy).Contents (Elt F)) : (⟨S100000x128, .f32⟩ : BufTy).Contents (Elt F)) :=
  pc5.unary (k := 20) (y := main_v278) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v277) : (⟨S1x128, .f32⟩ : BufTy).Contents (Elt F)) : (⟨S100000x128, .f32⟩ : BufTy).Contents (Elt F))) (fun Z => rfl) V

theorem eq_main_v279 (V : Valuation τ sig (Elt F)) :
    A V main_v279 = ((addf : (⟨S100000x128, .f32⟩ : BufTy).Contents (Elt F) → (⟨S100000x128, .f32⟩ : BufTy).Contents (Elt F) → (⟨S100000x128, .f32⟩ : BufTy).Contents (Elt F)) (A V main_v274 : (⟨S100000x128, .f32⟩ : BufTy).Contents (Elt F)) (A V main_v278 : (⟨S100000x128, .f32⟩ : BufTy).Contents (Elt F)) : (⟨S100000x128, .f32⟩ : BufTy).Contents (Elt F)) :=
  pc5.binary (k := 21) (y := main_v279) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v274) : (⟨S100000x128, .f32⟩ : BufTy).Contents (Elt F)) (Z (Proc.devRef .tc main_v278) : (⟨S100000x128, .f32⟩ : BufTy).Contents (Elt F)) : (⟨S100000x128, .f32⟩ : BufTy).Contents (Elt F))) (fun Z => rfl) V

theorem eq_main_v280 (V : Valuation τ sig (Elt F)) :
    A V main_v280 = (((extractStridedSlice S1x128 ![3, 0] · slices_S4x128_S1x128_3_0) : (⟨S4x128, .f32⟩ : BufTy).Contents (Elt F) → (⟨S1x128, .f32⟩ : BufTy).Contents (Elt F)) (A V main_arg9 : (⟨S4x128, .f32⟩ : BufTy).Contents (Elt F)) : (⟨S1x128, .f32⟩ : BufTy).Contents (Elt F)) :=
  pc5.unary (k := 22) (y := main_v280) rfl (by decide)
    (fun Z => (((extractStridedSlice S1x128 ![3, 0] · slices_S4x128_S1x128_3_0) : (⟨S4x128, .f32⟩ : BufTy).Contents (Elt F) → (⟨S1x128, .f32⟩ : BufTy).Contents (Elt F)) (Z (Proc.devRef .tc main_arg9) : (⟨S4x128, .f32⟩ : BufTy).Contents (Elt F)) : (⟨S1x128, .f32⟩ : BufTy).Contents (Elt F))) (fun Z => rfl) V

theorem eq_main_v281 (V : Valuation τ sig (Elt F)) :
    A V main_v281 = (shapeCast S128 (A V main_v280 : (⟨S1x128, .f32⟩ : BufTy).Contents (Elt F)) shapeCasts_S1x128_S128 : (⟨S128, .f32⟩ : BufTy).Contents (Elt F)) :=
  pc5.reshape (k := 23) (y := main_v281) rfl (by decide)
    (fun Z => (shapeCast S128 (Z (Proc.devRef .tc main_v280) : (⟨S1x128, .f32⟩ : BufTy).Contents (Elt F)) shapeCasts_S1x128_S128 : (⟨S128, .f32⟩ : BufTy).Contents (Elt F))) (fun Z => rfl) V

theorem eq_main_v282 (V : Valuation τ sig (Elt F)) :
    A V main_v282 = (((extractStridedSlice S1x128 ![3, 0] · slices_S4x128_S1x128_3_0) : (⟨S4x128, .f32⟩ : BufTy).Contents (Elt F) → (⟨S1x128, .f32⟩ : BufTy).Contents (Elt F)) (A V main_arg10 : (⟨S4x128, .f32⟩ : BufTy).Contents (Elt F)) : (⟨S1x128, .f32⟩ : BufTy).Contents (Elt F)) :=
  pc5.unary (k := 24) (y := main_v282) rfl (by decide)
    (fun Z => (((extractStridedSlice S1x128 ![3, 0] · slices_S4x128_S1x128_3_0) : (⟨S4x128, .f32⟩ : BufTy).Contents (Elt F) → (⟨S1x128, .f32⟩ : BufTy).Contents (Elt F)) (Z (Proc.devRef .tc main_arg10) : (⟨S4x128, .f32⟩ : BufTy).Contents (Elt F)) : (⟨S1x128, .f32⟩ : BufTy).Contents (Elt F))) (fun Z => rfl) V

theorem eq_main_v283 (V : Valuation τ sig (Elt F)) :
    A V main_v283 = (shapeCast S128 (A V main_v282 : (⟨S1x128, .f32⟩ : BufTy).Contents (Elt F)) shapeCasts_S1x128_S128 : (⟨S128, .f32⟩ : BufTy).Contents (Elt F)) :=
  pc5.reshape (k := 25) (y := main_v283) rfl (by decide)
    (fun Z => (shapeCast S128 (Z (Proc.devRef .tc main_v282) : (⟨S1x128, .f32⟩ : BufTy).Contents (Elt F)) shapeCasts_S1x128_S128 : (⟨S128, .f32⟩ : BufTy).Contents (Elt F))) (fun Z => rfl) V

theorem eq_main_cst_38 (V : Valuation τ sig (Elt F)) :
    A V main_cst_38 = ((constant S_ .f32 0x00000000#32) : (⟨S_, .f32⟩ : BufTy).Contents (Elt F)) :=
  pc5.nullary (k := 26) (y := main_cst_38) rfl V

theorem eq_main_v284 (V : Valuation τ sig (Elt F)) :
    A V main_v284 = (Host.reduceAdd (A V main_v279 : (⟨S100000x128, .f32⟩ : BufTy).Contents (Elt F)) (A V main_cst_38 : (⟨S_, .f32⟩ : BufTy).Contents (Elt F)) reducesTo_S100000x128_S128_d0 h_S_ : (⟨S128, .f32⟩ : BufTy).Contents (Elt F)) :=
  pc5.binary (k := 27) (y := main_v284) rfl (by decide) (by decide)
    (fun Z => (Host.reduceAdd (Z (Proc.devRef .tc main_v279) : (⟨S100000x128, .f32⟩ : BufTy).Contents (Elt F)) (Z (Proc.devRef .tc main_cst_38) : (⟨S_, .f32⟩ : BufTy).Contents (Elt F)) reducesTo_S100000x128_S128_d0 h_S_ : (⟨S128, .f32⟩ : BufTy).Contents (Elt F))) (fun Z => rfl) V

theorem eq_main_cst_39 (V : Valuation τ sig (Elt F)) :
    A V main_cst_39 = ((constant S_ .f32 0x47C35000#32) : (⟨S_, .f32⟩ : BufTy).Contents (Elt F)) :=
  pc5.nullary (k := 28) (y := main_cst_39) rfl V

theorem eq_main_v285 (V : Valuation τ sig (Elt F)) :
    A V main_v285 = ((broadcastInDim S128 ![] bcast_S_S128 : (⟨S_, .f32⟩ : BufTy).Contents (Elt F) → (⟨S128, .f32⟩ : BufTy).Contents (Elt F)) (A V main_cst_39 : (⟨S_, .f32⟩ : BufTy).Contents (Elt F)) : (⟨S128, .f32⟩ : BufTy).Contents (Elt F)) :=
  pc5.unary (k := 29) (y := main_v285) rfl (by decide)
    (fun Z => ((broadcastInDim S128 ![] bcast_S_S128 : (⟨S_, .f32⟩ : BufTy).Contents (Elt F) → (⟨S128, .f32⟩ : BufTy).Contents (Elt F)) (Z (Proc.devRef .tc main_cst_39) : (⟨S_, .f32⟩ : BufTy).Contents (Elt F)) : (⟨S128, .f32⟩ : BufTy).Contents (Elt F))) (fun Z => rfl) V

theorem eq_main_v286 (V : Valuation τ sig (Elt F)) :
    A V main_v286 = ((Host.divf : (⟨S128, .f32⟩ : BufTy).Contents (Elt F) → (⟨S128, .f32⟩ : BufTy).Contents (Elt F) → (⟨S128, .f32⟩ : BufTy).Contents (Elt F)) (A V main_v284 : (⟨S128, .f32⟩ : BufTy).Contents (Elt F)) (A V main_v285 : (⟨S128, .f32⟩ : BufTy).Contents (Elt F)) : (⟨S128, .f32⟩ : BufTy).Contents (Elt F)) :=
  pc5.binary (k := 30) (y := main_v286) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_v284) : (⟨S128, .f32⟩ : BufTy).Contents (Elt F)) (Z (Proc.devRef .tc main_v285) : (⟨S128, .f32⟩ : BufTy).Contents (Elt F)) : (⟨S128, .f32⟩ : BufTy).Contents (Elt F))) (fun Z => rfl) V

theorem eq_main_c_40 (V : Valuation τ sig (Elt F)) :
    A V main_c_40 = ((constantI S_ 32 0#32) : (⟨S_, .i32⟩ : BufTy).Contents (Elt F)) :=
  pc5.nullary (k := 31) (y := main_c_40) rfl V

theorem eq_main_call14_cst (V : Valuation τ sig (Elt F)) :
    A V main_call14_cst = ((constant S_ .f32 0x00000000#32) : (⟨S_, .f32⟩ : BufTy).Contents (Elt F)) :=
  pc5.nullary (k := 32) (y := main_call14_cst) rfl V

theorem eq_main_call14_v0 (V : Valuation τ sig (Elt F)) :
    A V main_call14_v0 = (Host.reduceAdd (A V main_v279 : (⟨S100000x128, .f32⟩ : BufTy).Contents (Elt F)) (A V main_call14_cst : (⟨S_, .f32⟩ : BufTy).Contents (Elt F)) reducesTo_S100000x128_S128_d0 h_S_ : (⟨S128, .f32⟩ : BufTy).Contents (Elt F)) :=
  pc5.binary (k := 33) (y := main_call14_v0) rfl (by decide) (by decide)
    (fun Z => (Host.reduceAdd (Z (Proc.devRef .tc main_v279) : (⟨S100000x128, .f32⟩ : BufTy).Contents (Elt F)) (Z (Proc.devRef .tc main_call14_cst) : (⟨S_, .f32⟩ : BufTy).Contents (Elt F)) reducesTo_S100000x128_S128_d0 h_S_ : (⟨S128, .f32⟩ : BufTy).Contents (Elt F))) (fun Z => rfl) V

theorem eq_main_call14_v1 (V : Valuation τ sig (Elt F)) :
    A V main_call14_v1 = (((broadcastInDim S1x128 ![1] bcast_S128_S1x128_1) : (⟨S128, .f32⟩ : BufTy).Contents (Elt F) → (⟨S1x128, .f32⟩ : BufTy).Contents (Elt F)) (A V main_call14_v0 : (⟨S128, .f32⟩ : BufTy).Contents (Elt F)) : (⟨S1x128, .f32⟩ : BufTy).Contents (Elt F)) :=
  pc5.unary (k := 34) (y := main_call14_v1) rfl (by decide)
    (fun Z => (((broadcastInDim S1x128 ![1] bcast_S128_S1x128_1) : (⟨S128, .f32⟩ : BufTy).Contents (Elt F) → (⟨S1x128, .f32⟩ : BufTy).Contents (Elt F)) (Z (Proc.devRef .tc main_call14_v0) : (⟨S128, .f32⟩ : BufTy).Contents (Elt F)) : (⟨S1x128, .f32⟩ : BufTy).Contents (Elt F))) (fun Z => rfl) V

theorem eq_main_call14_cst_0 (V : Valuation τ sig (Elt F)) :
    A V main_call14_cst_0 = ((constant S_ .f32 0x47C35000#32) : (⟨S_, .f32⟩ : BufTy).Contents (Elt F)) :=
  pc5.nullary (k := 35) (y := main_call14_cst_0) rfl V

theorem eq_main_call14_v2 (V : Valuation τ sig (Elt F)) :
    A V main_call14_v2 = (((broadcastInDim S1x128 ![] bcast_S_S1x128) : (⟨S_, .f32⟩ : BufTy).Contents (Elt F) → (⟨S1x128, .f32⟩ : BufTy).Contents (Elt F)) (A V main_call14_cst_0 : (⟨S_, .f32⟩ : BufTy).Contents (Elt F)) : (⟨S1x128, .f32⟩ : BufTy).Contents (Elt F)) :=
  pc5.unary (k := 36) (y := main_call14_v2) rfl (by decide)
    (fun Z => (((broadcastInDim S1x128 ![] bcast_S_S1x128) : (⟨S_, .f32⟩ : BufTy).Contents (Elt F) → (⟨S1x128, .f32⟩ : BufTy).Contents (Elt F)) (Z (Proc.devRef .tc main_call14_cst_0) : (⟨S_, .f32⟩ : BufTy).Contents (Elt F)) : (⟨S1x128, .f32⟩ : BufTy).Contents (Elt F))) (fun Z => rfl) V

theorem eq_main_call14_v3 (V : Valuation τ sig (Elt F)) :
    A V main_call14_v3 = ((Host.divf : (⟨S1x128, .f32⟩ : BufTy).Contents (Elt F) → (⟨S1x128, .f32⟩ : BufTy).Contents (Elt F) → (⟨S1x128, .f32⟩ : BufTy).Contents (Elt F)) (A V main_call14_v1 : (⟨S1x128, .f32⟩ : BufTy).Contents (Elt F)) (A V main_call14_v2 : (⟨S1x128, .f32⟩ : BufTy).Contents (Elt F)) : (⟨S1x128, .f32⟩ : BufTy).Contents (Elt F)) :=
  pc5.binary (k := 37) (y := main_call14_v3) rfl (by decide) (by decide)
    (fun Z => ((Host.divf : (⟨S1x128, .f32⟩ : BufTy).Contents (Elt F) → (⟨S1x128, .f32⟩ : BufTy).Contents (Elt F) → (⟨S1x128, .f32⟩ : BufTy).Contents (Elt F)) (Z (Proc.devRef .tc main_call14_v1) : (⟨S1x128, .f32⟩ : BufTy).Contents (Elt F)) (Z (Proc.devRef .tc main_call14_v2) : (⟨S1x128, .f32⟩ : BufTy).Contents (Elt F)) : (⟨S1x128, .f32⟩ : BufTy).Contents (Elt F))) (fun Z => rfl) V

theorem eq_main_call14_v4 (V : Valuation τ sig (Elt F)) :
    A V main_call14_v4 = (((broadcastInDim S100000x128 ![0, 1] bcast_S1x128_S100000x128_0_1) : (⟨S1x128, .f32⟩ : BufTy).Contents (Elt F) → (⟨S100000x128, .f32⟩ : BufTy).Contents (Elt F)) (A V main_call14_v3 : (⟨S1x128, .f32⟩ : BufTy).Contents (Elt F)) : (⟨S100000x128, .f32⟩ : BufTy).Contents (Elt F)) :=
  pc5.unary (k := 38) (y := main_call14_v4) rfl (by decide)
    (fun Z => (((broadcastInDim S100000x128 ![0, 1] bcast_S1x128_S100000x128_0_1) : (⟨S1x128, .f32⟩ : BufTy).Contents (Elt F) → (⟨S100000x128, .f32⟩ : BufTy).Contents (Elt F)) (Z (Proc.devRef .tc main_call14_v3) : (⟨S1x128, .f32⟩ : BufTy).Contents (Elt F)) : (⟨S100000x128, .f32⟩ : BufTy).Contents (Elt F))) (fun Z => rfl) V

theorem eq_main_call14_v5 (V : Valuation τ sig (Elt F)) :
    A V main_call14_v5 = ((subf : (⟨S100000x128, .f32⟩ : BufTy).Contents (Elt F) → (⟨S100000x128, .f32⟩ : BufTy).Contents (Elt F) → (⟨S100000x128, .f32⟩ : BufTy).Contents (Elt F)) (A V main_v279 : (⟨S100000x128, .f32⟩ : BufTy).Contents (Elt F)) (A V main_call14_v4 : (⟨S100000x128, .f32⟩ : BufTy).Contents (Elt F)) : (⟨S100000x128, .f32⟩ : BufTy).Contents (Elt F)) :=
  pc5.binary (k := 39) (y := main_call14_v5) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v279) : (⟨S100000x128, .f32⟩ : BufTy).Contents (Elt F)) (Z (Proc.devRef .tc main_call14_v4) : (⟨S100000x128, .f32⟩ : BufTy).Contents (Elt F)) : (⟨S100000x128, .f32⟩ : BufTy).Contents (Elt F))) (fun Z => rfl) V

theorem eq_main_call14_v6 (V : Valuation τ sig (Elt F)) :
    A V main_call14_v6 = ((mulf : (⟨S100000x128, .f32⟩ : BufTy).Contents (Elt F) → (⟨S100000x128, .f32⟩ : BufTy).Contents (Elt F) → (⟨S100000x128, .f32⟩ : BufTy).Contents (Elt F)) (A V main_call14_v5 : (⟨S100000x128, .f32⟩ : BufTy).Contents (Elt F)) (A V main_call14_v5 : (⟨S100000x128, .f32⟩ : BufTy).Contents (Elt F)) : (⟨S100000x128, .f32⟩ : BufTy).Contents (Elt F)) :=
  pc5.binary (k := 40) (y := main_call14_v6) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_call14_v5) : (⟨S100000x128, .f32⟩ : BufTy).Contents (Elt F)) (Z (Proc.devRef .tc main_call14_v5) : (⟨S100000x128, .f32⟩ : BufTy).Contents (Elt F)) : (⟨S100000x128, .f32⟩ : BufTy).Contents (Elt F))) (fun Z => rfl) V

theorem eq_main_call14_v7 (V : Valuation τ sig (Elt F)) :
    A V main_call14_v7 = (((sitofp .f32) : (⟨S_, .i32⟩ : BufTy).Contents (Elt F) → (⟨S_, .f32⟩ : BufTy).Contents (Elt F)) (A V main_c_40 : (⟨S_, .i32⟩ : BufTy).Contents (Elt F)) : (⟨S_, .f32⟩ : BufTy).Contents (Elt F)) :=
  pc5.unary (k := 41) (y := main_call14_v7) rfl (by decide)
    (fun Z => (((sitofp .f32) : (⟨S_, .i32⟩ : BufTy).Contents (Elt F) → (⟨S_, .f32⟩ : BufTy).Contents (Elt F)) (Z (Proc.devRef .tc main_c_40) : (⟨S_, .i32⟩ : BufTy).Contents (Elt F)) : (⟨S_, .f32⟩ : BufTy).Contents (Elt F))) (fun Z => rfl) V

theorem eq_main_call14_cst_1 (V : Valuation τ sig (Elt F)) :
    A V main_call14_cst_1 = ((constant S_ .f32 0x47C35000#32) : (⟨S_, .f32⟩ : BufTy).Contents (Elt F)) :=
  pc5.nullary (k := 42) (y := main_call14_cst_1) rfl V

theorem eq_main_call14_v8 (V : Valuation τ sig (Elt F)) :
    A V main_call14_v8 = ((subf : (⟨S_, .f32⟩ : BufTy).Contents (Elt F) → (⟨S_, .f32⟩ : BufTy).Contents (Elt F) → (⟨S_, .f32⟩ : BufTy).Contents (Elt F)) (A V main_call14_cst_1 : (⟨S_, .f32⟩ : BufTy).Contents (Elt F)) (A V main_call14_v7 : (⟨S_, .f32⟩ : BufTy).Contents (Elt F)) : (⟨S_, .f32⟩ : BufTy).Contents (Elt F)) :=
  pc5.binary (k := 43) (y := main_call14_v8) rfl (by decide) (by decide)
    (fun Z => ((subf : (⟨S_, .f32⟩ : BufTy).Contents (Elt F) → (⟨S_, .f32⟩ : BufTy).Contents (Elt F) → (⟨S_, .f32⟩ : BufTy).Contents (Elt F)) (Z (Proc.devRef .tc main_call14_cst_1) : (⟨S_, .f32⟩ : BufTy).Contents (Elt F)) (Z (Proc.devRef .tc main_call14_v7) : (⟨S_, .f32⟩ : BufTy).Contents (Elt F)) : (⟨S_, .f32⟩ : BufTy).Contents (Elt F))) (fun Z => rfl) V

theorem eq_main_call14_cst_2 (V : Valuation τ sig (Elt F)) :
    A V main_call14_cst_2 = ((constant S_ .f32 0x00000000#32) : (⟨S_, .f32⟩ : BufTy).Contents (Elt F)) :=
  pc5.nullary (k := 44) (y := main_call14_cst_2) rfl V

theorem eq_main_call14_v9 (V : Valuation τ sig (Elt F)) :
    A V main_call14_v9 = (Host.reduceAdd (A V main_call14_v6 : (⟨S100000x128, .f32⟩ : BufTy).Contents (Elt F)) (A V main_call14_cst_2 : (⟨S_, .f32⟩ : BufTy).Contents (Elt F)) reducesTo_S100000x128_S128_d0 h_S_ : (⟨S128, .f32⟩ : BufTy).Contents (Elt F)) :=
  pc5.binary (k := 45) (y := main_call14_v9) rfl (by decide) (by decide)
    (fun Z => (Host.reduceAdd (Z (Proc.devRef .tc main_call14_v6) : (⟨S100000x128, .f32⟩ : BufTy).Contents (Elt F)) (Z (Proc.devRef .tc main_call14_cst_2) : (⟨S_, .f32⟩ : BufTy).Contents (Elt F)) reducesTo_S100000x128_S128_d0 h_S_ : (⟨S128, .f32⟩ : BufTy).Contents (Elt F))) (fun Z => rfl) V

theorem eq_main_call14_v10 (V : Valuation τ sig (Elt F)) :
    A V main_call14_v10 = (((broadcastInDim S128 ![] bcast_S_S128) : (⟨S_, .f32⟩ : BufTy).Contents (Elt F) → (⟨S128, .f32⟩ : BufTy).Contents (Elt F)) (A V main_call14_v8 : (⟨S_, .f32⟩ : BufTy).Contents (Elt F)) : (⟨S128, .f32⟩ : BufTy).Contents (Elt F)) :=
  pc5.unary (k := 46) (y := main_call14_v10) rfl (by decide)
    (fun Z => (((broadcastInDim S128 ![] bcast_S_S128) : (⟨S_, .f32⟩ : BufTy).Contents (Elt F) → (⟨S128, .f32⟩ : BufTy).Contents (Elt F)) (Z (Proc.devRef .tc main_call14_v8) : (⟨S_, .f32⟩ : BufTy).Contents (Elt F)) : (⟨S128, .f32⟩ : BufTy).Contents (Elt F))) (fun Z => rfl) V

theorem eq_main_call14_v11 (V : Valuation τ sig (Elt F)) :
    A V main_call14_v11 = ((Host.divf : (⟨S128, .f32⟩ : BufTy).Contents (Elt F) → (⟨S128, .f32⟩ : BufTy).Contents (Elt F) → (⟨S128, .f32⟩ : BufTy).Contents (Elt F)) (A V main_call14_v9 : (⟨S128, .f32⟩ : BufTy).Contents (Elt F)) (A V main_call14_v10 : (⟨S128, .f32⟩ : BufTy).Contents (Elt F)) : (⟨S128, .f32⟩ : BufTy).Contents (Elt F)) :=
  pc5.binary (k := 47) (y := main_call14_v11) rfl (by decide) (by decide)
    (fun Z => ((Host.divf : (⟨S128, .f32⟩ : BufTy).Contents (Elt F) → (⟨S128, .f32⟩ : BufTy).Contents (Elt F) → (⟨S128, .f32⟩ : BufTy).Contents (Elt F)) (Z (Proc.devRef .tc main_call14_v9) : (⟨S128, .f32⟩ : BufTy).Contents (Elt F)) (Z (Proc.devRef .tc main_call14_v10) : (⟨S128, .f32⟩ : BufTy).Contents (Elt F)) : (⟨S128, .f32⟩ : BufTy).Contents (Elt F))) (fun Z => rfl) V

theorem eq_main_call14_cst_3 (V : Valuation τ sig (Elt F)) :
    A V main_call14_cst_3 = ((constant S_ .f32 0x00000000#32) : (⟨S_, .f32⟩ : BufTy).Contents (Elt F)) :=
  pc5.nullary (k := 48) (y := main_call14_cst_3) rfl V

theorem eq_main_call14_v12 (V : Valuation τ sig (Elt F)) :
    A V main_call14_v12 = (((cmpf .ogt) : (⟨S_, .f32⟩ : BufTy).Contents (Elt F) → (⟨S_, .f32⟩ : BufTy).Contents (Elt F) → (⟨S_, .i1⟩ : BufTy).Contents (Elt F)) (A V main_call14_v8 : (⟨S_, .f32⟩ : BufTy).Contents (Elt F)) (A V main_call14_cst_3 : (⟨S_, .f32⟩ : BufTy).Contents (Elt F)) : (⟨S_, .i1⟩ : BufTy).Contents (Elt F)) :=
  pc5.binary (k := 49) (y := main_call14_v12) rfl (by decide) (by decide)
    (fun Z => (((cmpf .ogt) : (⟨S_, .f32⟩ : BufTy).Contents (Elt F) → (⟨S_, .f32⟩ : BufTy).Contents (Elt F) → (⟨S_, .i1⟩ : BufTy).Contents (Elt F)) (Z (Proc.devRef .tc main_call14_v8) : (⟨S_, .f32⟩ : BufTy).Contents (Elt F)) (Z (Proc.devRef .tc main_call14_cst_3) : (⟨S_, .f32⟩ : BufTy).Contents (Elt F)) : (⟨S_, .i1⟩ : BufTy).Contents (Elt F))) (fun Z => rfl) V

theorem eq_main_call14_cst_4 (V : Valuation τ sig (Elt F)) :
    A V main_call14_cst_4 = ((constant S_ .f32 0x7FC00000#32) : (⟨S_, .f32⟩ : BufTy).Contents (Elt F)) :=
  pc5.nullary (k := 50) (y := main_call14_cst_4) rfl V

theorem eq_main_call14_call0_v0 (V : Valuation τ sig (Elt F)) :
    A V main_call14_call0_v0 = ((id : (⟨S_, .f32⟩ : BufTy).Contents (Elt F) → (⟨S_, .f32⟩ : BufTy).Contents (Elt F)) (A V main_call14_cst_4 : (⟨S_, .f32⟩ : BufTy).Contents (Elt F)) : (⟨S_, .f32⟩ : BufTy).Contents (Elt F)) :=
  pc5.unary (k := 51) (y := main_call14_call0_v0) rfl (by decide)
    (fun Z => ((id : (⟨S_, .f32⟩ : BufTy).Contents (Elt F) → (⟨S_, .f32⟩ : BufTy).Contents (Elt F)) (Z (Proc.devRef .tc main_call14_cst_4) : (⟨S_, .f32⟩ : BufTy).Contents (Elt F)) : (⟨S_, .f32⟩ : BufTy).Contents (Elt F))) (fun Z => rfl) V

theorem eq_main_call14_call0_v1 (V : Valuation τ sig (Elt F)) :
    A V main_call14_call0_v1 = (((broadcastInDim S128 ![] bcast_S_S128) : (⟨S_, .f32⟩ : BufTy).Contents (Elt F) → (⟨S128, .f32⟩ : BufTy).Contents (Elt F)) (A V main_call14_call0_v0 : (⟨S_, .f32⟩ : BufTy).Contents (Elt F)) : (⟨S128, .f32⟩ : BufTy).Contents (Elt F)) :=
  pc5.unary (k := 52) (y := main_call14_call0_v1) rfl (by decide)
    (fun Z => (((broadcastInDim S128 ![] bcast_S_S128) : (⟨S_, .f32⟩ : BufTy).Contents (Elt F) → (⟨S128, .f32⟩ : BufTy).Contents (Elt F)) (Z (Proc.devRef .tc main_call14_call0_v0) : (⟨S_, .f32⟩ : BufTy).Contents (Elt F)) : (⟨S128, .f32⟩ : BufTy).Contents (Elt F))) (fun Z => rfl) V

theorem eq_main_v287 (V : Valuation τ sig (Elt F)) :
    A V main_v287 = (select ((broadcastInDim S128 ![] bcast_S_S128 : (⟨S_, .i1⟩ : BufTy).Contents (Elt F) → (⟨S128, .i1⟩ : BufTy).Contents (Elt F)) (A V main_call14_v12 : (⟨S_, .i1⟩ : BufTy).Contents (Elt F))) (A V main_call14_v11 : (⟨S128, .f32⟩ : BufTy).Contents (Elt F)) (A V main_call14_call0_v1 : (⟨S128, .f32⟩ : BufTy).Contents (Elt F)) : (⟨S128, .f32⟩ : BufTy).Contents (Elt F)) :=
  pc5.ternary (k := 53) (y := main_v287) rfl (by decide) (by decide) (by decide)
    (fun Z => (select ((broadcastInDim S128 ![] bcast_S_S128 : (⟨S_, .i1⟩ : BufTy).Contents (Elt F) → (⟨S128, .i1⟩ : BufTy).Contents (Elt F)) (Z (Proc.devRef .tc main_call14_v12) : (⟨S_, .i1⟩ : BufTy).Contents (Elt F))) (Z (Proc.devRef .tc main_call14_v11) : (⟨S128, .f32⟩ : BufTy).Contents (Elt F)) (Z (Proc.devRef .tc main_call14_call0_v1) : (⟨S128, .f32⟩ : BufTy).Contents (Elt F)) : (⟨S128, .f32⟩ : BufTy).Contents (Elt F))) (fun Z => rfl) V

theorem eq_main_v288 (V : Valuation τ sig (Elt F)) :
    A V main_v288 = ((broadcastInDim S1x128 ![1] bcast_S128_S1x128_1 : (⟨S128, .f32⟩ : BufTy).Contents (Elt F) → (⟨S1x128, .f32⟩ : BufTy).Contents (Elt F)) (A V main_v286 : (⟨S128, .f32⟩ : BufTy).Contents (Elt F)) : (⟨S1x128, .f32⟩ : BufTy).Contents (Elt F)) :=
  pc5.unary (k := 54) (y := main_v288) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v286) : (⟨S128, .f32⟩ : BufTy).Contents (Elt F)) : (⟨S1x128, .f32⟩ : BufTy).Contents (Elt F))) (fun Z => rfl) V

theorem eq_main_v289 (V : Valuation τ sig (Elt F)) :
    A V main_v289 = ((broadcastInDim S100000x128 ![0, 1] bcast_S1x128_S100000x128_0_1 : (⟨S1x128, .f32⟩ : BufTy).Contents (Elt F) → (⟨S100000x128, .f32⟩ : BufTy).Contents (Elt F)) (A V main_v288 : (⟨S1x128, .f32⟩ : BufTy).Contents (Elt F)) : (⟨S100000x128, .f32⟩ : BufTy).Contents (Elt F)) :=
  pc5.unary (k := 55) (y := main_v289) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v288) : (⟨S1x128, .f32⟩ : BufTy).Contents (Elt F)) : (⟨S100000x128, .f32⟩ : BufTy).Contents (Elt F))) (fun Z => rfl) V

theorem eq_main_v290 (V : Valuation τ sig (Elt F)) :
    A V main_v290 = ((subf : (⟨S100000x128, .f32⟩ : BufTy).Contents (Elt F) → (⟨S100000x128, .f32⟩ : BufTy).Contents (Elt F) → (⟨S100000x128, .f32⟩ : BufTy).Contents (Elt F)) (A V main_v279 : (⟨S100000x128, .f32⟩ : BufTy).Contents (Elt F)) (A V main_v289 : (⟨S100000x128, .f32⟩ : BufTy).Contents (Elt F)) : (⟨S100000x128, .f32⟩ : BufTy).Contents (Elt F)) :=
  pc5.binary (k := 56) (y := main_v290) rfl (by decide) (by decide)
    (fun Z => ((subf : (⟨S100000x128, .f32⟩ : BufTy).Contents (Elt F) → (⟨S100000x128, .f32⟩ : BufTy).Contents (Elt F) → (⟨S100000x128, .f32⟩ : BufTy).Contents (Elt F)) (Z (Proc.devRef .tc main_v279) : (⟨S100000x128, .f32⟩ : BufTy).Contents (Elt F)) (Z (Proc.devRef .tc main_v289) : (⟨S100000x128, .f32⟩ : BufTy).Contents (Elt F)) : (⟨S100000x128, .f32⟩ : BufTy).Contents (Elt F))) (fun Z => rfl) V

theorem eq_main_cst_41 (V : Valuation τ sig (Elt F)) :
    A V main_cst_41 = ((constant S_ .f32 0x3727C5AC#32) : (⟨S_, .f32⟩ : BufTy).Contents (Elt F)) :=
  pc5.nullary (k := 57) (y := main_cst_41) rfl V

theorem eq_main_v291 (V : Valuation τ sig (Elt F)) :
    A V main_v291 = ((broadcastInDim S128 ![] bcast_S_S128 : (⟨S_, .f32⟩ : BufTy).Contents (Elt F) → (⟨S128, .f32⟩ : BufTy).Contents (Elt F)) (A V main_cst_41 : (⟨S_, .f32⟩ : BufTy).Contents (Elt F)) : (⟨S128, .f32⟩ : BufTy).Contents (Elt F)) :=
  pc5.unary (k := 58) (y := main_v291) rfl (by decide)
    (fun Z => ((broadcastInDim S128 ![] bcast_S_S128 : (⟨S_, .f32⟩ : BufTy).Contents (Elt F) → (⟨S128, .f32⟩ : BufTy).Contents (Elt F)) (Z (Proc.devRef .tc main_cst_41) : (⟨S_, .f32⟩ : BufTy).Contents (Elt F)) : (⟨S128, .f32⟩ : BufTy).Contents (Elt F))) (fun Z => rfl) V

theorem eq_main_v292 (V : Valuation τ sig (Elt F)) :
    A V main_v292 = ((addf : (⟨S128, .f32⟩ : BufTy).Contents (Elt F) → (⟨S128, .f32⟩ : BufTy).Contents (Elt F) → (⟨S128, .f32⟩ : BufTy).Contents (Elt F)) (A V main_v287 : (⟨S128, .f32⟩ : BufTy).Contents (Elt F)) (A V main_v291 : (⟨S128, .f32⟩ : BufTy).Contents (Elt F)) : (⟨S128, .f32⟩ : BufTy).Contents (Elt F)) :=
  pc5.binary (k := 59) (y := main_v292) rfl (by decide) (by decide)
    (fun Z => ((addf : (⟨S128, .f32⟩ : BufTy).Contents (Elt F) → (⟨S128, .f32⟩ : BufTy).Contents (Elt F) → (⟨S128, .f32⟩ : BufTy).Contents (Elt F)) (Z (Proc.devRef .tc main_v287) : (⟨S128, .f32⟩ : BufTy).Contents (Elt F)) (Z (Proc.devRef .tc main_v291) : (⟨S128, .f32⟩ : BufTy).Contents (Elt F)) : (⟨S128, .f32⟩ : BufTy).Contents (Elt F))) (fun Z => rfl) V

theorem eq_main_v293 (V : Valuation τ sig (Elt F)) :
    A V main_v293 = ((Host.rsqrt : (⟨S128, .f32⟩ : BufTy).Contents (Elt F) → (⟨S128, .f32⟩ : BufTy).Contents (Elt F)) (A V main_v292 : (⟨S128, .f32⟩ : BufTy).Contents (Elt F)) : (⟨S128, .f32⟩ : BufTy).Contents (Elt F)) :=
  pc5.unary (k := 60) (y := main_v293) rfl (by decide)
    (fun Z => ((Host.rsqrt : (⟨S128, .f32⟩ : BufTy).Contents (Elt F) → (⟨S128, .f32⟩ : BufTy).Contents (Elt F)) (Z (Proc.devRef .tc main_v292) : (⟨S128, .f32⟩ : BufTy).Contents (Elt F)) : (⟨S128, .f32⟩ : BufTy).Contents (Elt F))) (fun Z => rfl) V

theorem eq_main_v294 (V : Valuation τ sig (Elt F)) :
    A V main_v294 = ((broadcastInDim S1x128 ![1] bcast_S128_S1x128_1 : (⟨S128, .f32⟩ : BufTy).Contents (Elt F) → (⟨S1x128, .f32⟩ : BufTy).Contents (Elt F)) (A V main_v293 : (⟨S128, .f32⟩ : BufTy).Contents (Elt F)) : (⟨S1x128, .f32⟩ : BufTy).Contents (Elt F)) :=
  pc5.unary (k := 61) (y := main_v294) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v293) : (⟨S128, .f32⟩ : BufTy).Contents (Elt F)) : (⟨S1x128, .f32⟩ : BufTy).Contents (Elt F))) (fun Z => rfl) V

theorem eq_main_v295 (V : Valuation τ sig (Elt F)) :
    A V main_v295 = ((broadcastInDim S100000x128 ![0, 1] bcast_S1x128_S100000x128_0_1 : (⟨S1x128, .f32⟩ : BufTy).Contents (Elt F) → (⟨S100000x128, .f32⟩ : BufTy).Contents (Elt F)) (A V main_v294 : (⟨S1x128, .f32⟩ : BufTy).Contents (Elt F)) : (⟨S100000x128, .f32⟩ : BufTy).Contents (Elt F)) :=
  pc5.unary (k := 62) (y := main_v295) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v294) : (⟨S1x128, .f32⟩ : BufTy).Contents (Elt F)) : (⟨S100000x128, .f32⟩ : BufTy).Contents (Elt F))) (fun Z => rfl) V

theorem eq_main_v296 (V : Valuation τ sig (Elt F)) :
    A V main_v296 = ((mulf : (⟨S100000x128, .f32⟩ : BufTy).Contents (Elt F) → (⟨S100000x128, .f32⟩ : BufTy).Contents (Elt F) → (⟨S100000x128, .f32⟩ : BufTy).Contents (Elt F)) (A V main_v290 : (⟨S100000x128, .f32⟩ : BufTy).Contents (Elt F)) (A V main_v295 : (⟨S100000x128, .f32⟩ : BufTy).Contents (Elt F)) : (⟨S100000x128, .f32⟩ : BufTy).Contents (Elt F)) :=
  pc5.binary (k := 63) (y := main_v296) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v290) : (⟨S100000x128, .f32⟩ : BufTy).Contents (Elt F)) (Z (Proc.devRef .tc main_v295) : (⟨S100000x128, .f32⟩ : BufTy).Contents (Elt F)) : (⟨S100000x128, .f32⟩ : BufTy).Contents (Elt F))) (fun Z => rfl) V

theorem eq_main_v297 (V : Valuation τ sig (Elt F)) :
    A V main_v297 = ((broadcastInDim S1x128 ![1] bcast_S128_S1x128_1 : (⟨S128, .f32⟩ : BufTy).Contents (Elt F) → (⟨S1x128, .f32⟩ : BufTy).Contents (Elt F)) (A V main_v281 : (⟨S128, .f32⟩ : BufTy).Contents (Elt F)) : (⟨S1x128, .f32⟩ : BufTy).Contents (Elt F)) :=
  pc5.unary (k := 64) (y := main_v297) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v281) : (⟨S128, .f32⟩ : BufTy).Contents (Elt F)) : (⟨S1x128, .f32⟩ : BufTy).Contents (Elt F))) (fun Z => rfl) V

theorem eq_main_v298 (V : Valuation τ sig (Elt F)) :
    A V main_v298 = ((broadcastInDim S100000x128 ![0, 1] bcast_S1x128_S100000x128_0_1 : (⟨S1x128, .f32⟩ : BufTy).Contents (Elt F) → (⟨S100000x128, .f32⟩ : BufTy).Contents (Elt F)) (A V main_v297 : (⟨S1x128, .f32⟩ : BufTy).Contents (Elt F)) : (⟨S100000x128, .f32⟩ : BufTy).Contents (Elt F)) :=
  pc5.unary (k := 65) (y := main_v298) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v297) : (⟨S1x128, .f32⟩ : BufTy).Contents (Elt F)) : (⟨S100000x128, .f32⟩ : BufTy).Contents (Elt F))) (fun Z => rfl) V

theorem eq_main_v299 (V : Valuation τ sig (Elt F)) :
    A V main_v299 = ((mulf : (⟨S100000x128, .f32⟩ : BufTy).Contents (Elt F) → (⟨S100000x128, .f32⟩ : BufTy).Contents (Elt F) → (⟨S100000x128, .f32⟩ : BufTy).Contents (Elt F)) (A V main_v296 : (⟨S100000x128, .f32⟩ : BufTy).Contents (Elt F)) (A V main_v298 : (⟨S100000x128, .f32⟩ : BufTy).Contents (Elt F)) : (⟨S100000x128, .f32⟩ : BufTy).Contents (Elt F)) :=
  pc5.binary (k := 66) (y := main_v299) rfl (by decide) (by decide)
    (fun Z => ((mulf : (⟨S100000x128, .f32⟩ : BufTy).Contents (Elt F) → (⟨S100000x128, .f32⟩ : BufTy).Contents (Elt F) → (⟨S100000x128, .f32⟩ : BufTy).Contents (Elt F)) (Z (Proc.devRef .tc main_v296) : (⟨S100000x128, .f32⟩ : BufTy).Contents (Elt F)) (Z (Proc.devRef .tc main_v298) : (⟨S100000x128, .f32⟩ : BufTy).Contents (Elt F)) : (⟨S100000x128, .f32⟩ : BufTy).Contents (Elt F))) (fun Z => rfl) V

theorem eq_main_v300 (V : Valuation τ sig (Elt F)) :
    A V main_v300 = ((broadcastInDim S1x128 ![1] bcast_S128_S1x128_1 : (⟨S128, .f32⟩ : BufTy).Contents (Elt F) → (⟨S1x128, .f32⟩ : BufTy).Contents (Elt F)) (A V main_v283 : (⟨S128, .f32⟩ : BufTy).Contents (Elt F)) : (⟨S1x128, .f32⟩ : BufTy).Contents (Elt F)) :=
  pc5.unary (k := 67) (y := main_v300) rfl (by decide)
    (fun Z => ((broadcastInDim S1x128 ![1] bcast_S128_S1x128_1 : (⟨S128, .f32⟩ : BufTy).Contents (Elt F) → (⟨S1x128, .f32⟩ : BufTy).Contents (Elt F)) (Z (Proc.devRef .tc main_v283) : (⟨S128, .f32⟩ : BufTy).Contents (Elt F)) : (⟨S1x128, .f32⟩ : BufTy).Contents (Elt F))) (fun Z => rfl) V

theorem eq_main_v301 (V : Valuation τ sig (Elt F)) :
    A V main_v301 = ((broadcastInDim S100000x128 ![0, 1] bcast_S1x128_S100000x128_0_1 : (⟨S1x128, .f32⟩ : BufTy).Contents (Elt F) → (⟨S100000x128, .f32⟩ : BufTy).Contents (Elt F)) (A V main_v300 : (⟨S1x128, .f32⟩ : BufTy).Contents (Elt F)) : (⟨S100000x128, .f32⟩ : BufTy).Contents (Elt F)) :=
  pc5.unary (k := 68) (y := main_v301) rfl (by decide)
    (fun Z => ((broadcastInDim S100000x128 ![0, 1] bcast_S1x128_S100000x128_0_1 : (⟨S1x128, .f32⟩ : BufTy).Contents (Elt F) → (⟨S100000x128, .f32⟩ : BufTy).Contents (Elt F)) (Z (Proc.devRef .tc main_v300) : (⟨S1x128, .f32⟩ : BufTy).Contents (Elt F)) : (⟨S100000x128, .f32⟩ : BufTy).Contents (Elt F))) (fun Z => rfl) V

theorem eq_main_v302 (V : Valuation τ sig (Elt F)) :
    A V main_v302 = ((addf : (⟨S100000x128, .f32⟩ : BufTy).Contents (Elt F) → (⟨S100000x128, .f32⟩ : BufTy).Contents (Elt F) → (⟨S100000x128, .f32⟩ : BufTy).Contents (Elt F)) (A V main_v299 : (⟨S100000x128, .f32⟩ : BufTy).Contents (Elt F)) (A V main_v301 : (⟨S100000x128, .f32⟩ : BufTy).Contents (Elt F)) : (⟨S100000x128, .f32⟩ : BufTy).Contents (Elt F)) :=
  pc5.binary (k := 69) (y := main_v302) rfl (by decide) (by decide)
    (fun Z => ((addf : (⟨S100000x128, .f32⟩ : BufTy).Contents (Elt F) → (⟨S100000x128, .f32⟩ : BufTy).Contents (Elt F) → (⟨S100000x128, .f32⟩ : BufTy).Contents (Elt F)) (Z (Proc.devRef .tc main_v299) : (⟨S100000x128, .f32⟩ : BufTy).Contents (Elt F)) (Z (Proc.devRef .tc main_v301) : (⟨S100000x128, .f32⟩ : BufTy).Contents (Elt F)) : (⟨S100000x128, .f32⟩ : BufTy).Contents (Elt F))) (fun Z => rfl) V

theorem eq_main_call15_cst (V : Valuation τ sig (Elt F)) :
    A V main_call15_cst = ((constant S_ .f32 0x00000000#32) : (⟨S_, .f32⟩ : BufTy).Contents (Elt F)) :=
  pc5.nullary (k := 70) (y := main_call15_cst) rfl V

theorem eq_main_call15_v0 (V : Valuation τ sig (Elt F)) :
    A V main_call15_v0 = (((broadcastInDim S100000x128 ![] bcast_S_S100000x128) : (⟨S_, .f32⟩ : BufTy).Contents (Elt F) → (⟨S100000x128, .f32⟩ : BufTy).Contents (Elt F)) (A V main_call15_cst : (⟨S_, .f32⟩ : BufTy).Contents (Elt F)) : (⟨S100000x128, .f32⟩ : BufTy).Contents (Elt F)) :=
  pc5.unary (k := 71) (y := main_call15_v0) rfl (by decide)
    (fun Z => (((broadcastInDim S100000x128 ![] bcast_S_S100000x128) : (⟨S_, .f32⟩ : BufTy).Contents (Elt F) → (⟨S100000x128, .f32⟩ : BufTy).Contents (Elt F)) (Z (Proc.devRef .tc main_call15_cst) : (⟨S_, .f32⟩ : BufTy).Contents (Elt F)) : (⟨S100000x128, .f32⟩ : BufTy).Contents (Elt F))) (fun Z => rfl) V

theorem eq_main_v303 (V : Valuation τ sig (Elt F)) :
    A V main_v303 = ((maximumf : (⟨S100000x128, .f32⟩ : BufTy).Contents (Elt F) → (⟨S100000x128, .f32⟩ : BufTy).Contents (Elt F) → (⟨S100000x128, .f32⟩ : BufTy).Contents (Elt F)) (A V main_v302 : (⟨S100000x128, .f32⟩ : BufTy).Contents (Elt F)) (A V main_call15_v0 : (⟨S100000x128, .f32⟩ : BufTy).Contents (Elt F)) : (⟨S100000x128, .f32⟩ : BufTy).Contents (Elt F)) :=
  pc5.binary (k := 72) (y := main_v303) rfl (by decide) (by decide)
    (fun Z => ((maximumf : (⟨S100000x128, .f32⟩ : BufTy).Contents (Elt F) → (⟨S100000x128, .f32⟩ : BufTy).Contents (Elt F) → (⟨S100000x128, .f32⟩ : BufTy).Contents (Elt F)) (Z (Proc.devRef .tc main_v302) : (⟨S100000x128, .f32⟩ : BufTy).Contents (Elt F)) (Z (Proc.devRef .tc main_call15_v0) : (⟨S100000x128, .f32⟩ : BufTy).Contents (Elt F)) : (⟨S100000x128, .f32⟩ : BufTy).Contents (Elt F))) (fun Z => rfl) V

theorem eq_main_cst_42 (V : Valuation τ sig (Elt F)) :
    A V main_cst_42 = ((constant S_ .f32 0x00000000#32) : (⟨S_, .f32⟩ : BufTy).Contents (Elt F)) :=
  pc5.nullary (k := 73) (y := main_cst_42) rfl V

theorem eq_main_v304 (V : Valuation τ sig (Elt F)) :
    A V main_v304 = ((broadcastInDim S512x128 ![] bcast_S_S512x128 : (⟨S_, .f32⟩ : BufTy).Contents (Elt F) → (⟨S512x128, .f32⟩ : BufTy).Contents (Elt F)) (A V main_cst_42 : (⟨S_, .f32⟩ : BufTy).Contents (Elt F)) : (⟨S512x128, .f32⟩ : BufTy).Contents (Elt F)) :=
  pc5.unary (k := 74) (y := main_v304) rfl (by decide)
    (fun Z => ((broadcastInDim S512x128 ![] bcast_S_S512x128 : (⟨S_, .f32⟩ : BufTy).Contents (Elt F) → (⟨S512x128, .f32⟩ : BufTy).Contents (Elt F)) (Z (Proc.devRef .tc main_cst_42) : (⟨S_, .f32⟩ : BufTy).Contents (Elt F)) : (⟨S512x128, .f32⟩ : BufTy).Contents (Elt F))) (fun Z => rfl) V

theorem eq_main_v305 (V : Valuation τ sig (Elt F)) :
    A V main_v305 = ((broadcastInDim S100000x1 ![0] bcast_S100000_S100000x1_0 : (⟨S100000, .i32⟩ : BufTy).Contents (Elt F) → (⟨S100000x1, .i32⟩ : BufTy).Contents (Elt F)) (A V main_arg2 : (⟨S100000, .i32⟩ : BufTy).Contents (Elt F)) : (⟨S100000x1, .i32⟩ : BufTy).Contents (Elt F)) :=
  pc5.unary (k := 75) (y := main_v305) rfl (by decide)
    (fun Z => ((broadcastInDim S100000x1 ![0] bcast_S100000_S100000x1_0 : (⟨S100000, .i32⟩ : BufTy).Contents (Elt F) → (⟨S100000x1, .i32⟩ : BufTy).Contents (Elt F)) (Z (Proc.devRef .tc main_arg2) : (⟨S100000, .i32⟩ : BufTy).Contents (Elt F)) : (⟨S100000x1, .i32⟩ : BufTy).Contents (Elt F))) (fun Z => rfl) V

theorem eq_main_v306 (V : Valuation τ sig (Elt F)) :
    A V main_v306 = (Host.scatterAdd scatter_S512x128_S100000x1_S100000x128_1_0_0_1 (A V main_v304 : (⟨S512x128, .f32⟩ : BufTy).Contents (Elt F)) (A V main_v305 : (⟨S100000x1, .i32⟩ : BufTy).Contents (Elt F)) (A V main_arg0 : (⟨S100000x128, .f32⟩ : BufTy).Contents (Elt F)) : (⟨S512x128, .f32⟩ : BufTy).Contents (Elt F)) :=
  pc5.ternary (k := 76) (y := main_v306) rfl (by decide) (by decide) (by decide)
    (fun Z => (Host.scatterAdd scatter_S512x128_S100000x1_S100000x128_1_0_0_1 (Z (Proc.devRef .tc main_v304) : (⟨S512x128, .f32⟩ : BufTy).Contents (Elt F)) (Z (Proc.devRef .tc main_v305) : (⟨S100000x1, .i32⟩ : BufTy).Contents (Elt F)) (Z (Proc.devRef .tc main_arg0) : (⟨S100000x128, .f32⟩ : BufTy).Contents (Elt F)) : (⟨S512x128, .f32⟩ : BufTy).Contents (Elt F))) (fun Z => rfl) V

theorem eq_main_v307 (V : Valuation τ sig (Elt F)) :
    A V main_v307 = (((extractStridedSlice S1x128x10 ![0, 0, 0] · slices_S5x128x10_S1x128x10_0_0_0) : (⟨S5x128x10, .f32⟩ : BufTy).Contents (Elt F) → (⟨S1x128x10, .f32⟩ : BufTy).Contents (Elt F)) (A V main_arg11 : (⟨S5x128x10, .f32⟩ : BufTy).Contents (Elt F)) : (⟨S1x128x10, .f32⟩ : BufTy).Contents (Elt F)) :=
  pc5.unary (k := 77) (y := main_v307) rfl (by decide)
    (fun Z => (((extractStridedSlice S1x128x10 ![0, 0, 0] · slices_S5x128x10_S1x128x10_0_0_0) : (⟨S5x128x10, .f32⟩ : BufTy).Contents (Elt F) → (⟨S1x128x10, .f32⟩ : BufTy).Contents (Elt F)) (Z (Proc.devRef .tc main_arg11) : (⟨S5x128x10, .f32⟩ : BufTy).Contents (Elt F)) : (⟨S1x128x10, .f32⟩ : BufTy).Contents (Elt F))) (fun Z => rfl) V

theorem eq_main_v308 (V : Valuation τ sig (Elt F)) :
    A V main_v308 = (shapeCast S128x10 (A V main_v307 : (⟨S1x128x10, .f32⟩ : BufTy).Contents (Elt F)) shapeCasts_S1x128x10_S128x10 : (⟨S128x10, .f32⟩ : BufTy).Contents (Elt F)) :=
  pc5.reshape (k := 78) (y := main_v308) rfl (by decide)
    (fun Z => (shapeCast S128x10 (Z (Proc.devRef .tc main_v307) : (⟨S1x128x10, .f32⟩ : BufTy).Contents (Elt F)) shapeCasts_S1x128x10_S128x10 : (⟨S128x10, .f32⟩ : BufTy).Contents (Elt F))) (fun Z => rfl) V

theorem eq_main_v309 (V : Valuation τ sig (Elt F)) :
    A V main_v309 = (Host.dotGeneral dot_S512x128_S128x10_S512x10_1_0_0_1_n_n none (A V main_v306 : (⟨S512x128, .f32⟩ : BufTy).Contents (Elt F)) (A V main_v308 : (⟨S128x10, .f32⟩ : BufTy).Contents (Elt F)) : (⟨S512x10, .f32⟩ : BufTy).Contents (Elt F)) :=
  pc5.binary (k := 79) (y := main_v309) rfl (by decide) (by decide)
    (fun Z => (Host.dotGeneral dot_S512x128_S128x10_S512x10_1_0_0_1_n_n none (Z (Proc.devRef .tc main_v306) : (⟨S512x128, .f32⟩ : BufTy).Contents (Elt F)) (Z (Proc.devRef .tc main_v308) : (⟨S128x10, .f32⟩ : BufTy).Contents (Elt F)) : (⟨S512x10, .f32⟩ : BufTy).Contents (Elt F))) (fun Z => rfl) V

theorem eq_main_v310 (V : Valuation τ sig (Elt F)) :
    A V main_v310 = (((extractStridedSlice S1x10 ![0, 0] · slices_S5x10_S1x10_0_0) : (⟨S5x10, .f32⟩ : BufTy).Contents (Elt F) → (⟨S1x10, .f32⟩ : BufTy).Contents (Elt F)) (A V main_arg12 : (⟨S5x10, .f32⟩ : BufTy).Contents (Elt F)) : (⟨S1x10, .f32⟩ : BufTy).Contents (Elt F)) :=
  pc5.unary (k := 80) (y := main_v310) rfl (by decide)
    (fun Z => (((extractStridedSlice S1x10 ![0, 0] · slices_S5x10_S1x10_0_0) : (⟨S5x10, .f32⟩ : BufTy).Contents (Elt F) → (⟨S1x10, .f32⟩ : BufTy).Contents (Elt F)) (Z (Proc.devRef .tc main_arg12) : (⟨S5x10, .f32⟩ : BufTy).Contents (Elt F)) : (⟨S1x10, .f32⟩ : BufTy).Contents (Elt F))) (fun Z => rfl) V

theorem eq_main_v311 (V : Valuation τ sig (Elt F)) :
    A V main_v311 = (shapeCast S10 (A V main_v310 : (⟨S1x10, .f32⟩ : BufTy).Contents (Elt F)) shapeCasts_S1x10_S10 : (⟨S10, .f32⟩ : BufTy).Contents (Elt F)) :=
  pc5.reshape (k := 81) (y := main_v311) rfl (by decide)
    (fun Z => (shapeCast S10 (Z (Proc.devRef .tc main_v310) : (⟨S1x10, .f32⟩ : BufTy).Contents (Elt F)) shapeCasts_S1x10_S10 : (⟨S10, .f32⟩ : BufTy).Contents (Elt F))) (fun Z => rfl) V

theorem eq_main_v312 (V : Valuation τ sig (Elt F)) :
    A V main_v312 = ((broadcastInDim S1x10 ![1] bcast_S10_S1x10_1 : (⟨S10, .f32⟩ : BufTy).Contents (Elt F) → (⟨S1x10, .f32⟩ : BufTy).Contents (Elt F)) (A V main_v311 : (⟨S10, .f32⟩ : BufTy).Contents (Elt F)) : (⟨S1x10, .f32⟩ : BufTy).Contents (Elt F)) :=
  pc5.unary (k := 82) (y := main_v312) rfl (by decide)
    (fun Z => ((broadcastInDim S1x10 ![1] bcast_S10_S1x10_1 : (⟨S10, .f32⟩ : BufTy).Contents (Elt F) → (⟨S1x10, .f32⟩ : BufTy).Contents (Elt F)) (Z (Proc.devRef .tc main_v311) : (⟨S10, .f32⟩ : BufTy).Contents (Elt F)) : (⟨S1x10, .f32⟩ : BufTy).Contents (Elt F))) (fun Z => rfl) V

theorem eq_main_v313 (V : Valuation τ sig (Elt F)) :
    A V main_v313 = ((broadcastInDim S512x10 ![0, 1] bcast_S1x10_S512x10_0_1 : (⟨S1x10, .f32⟩ : BufTy).Contents (Elt F) → (⟨S512x10, .f32⟩ : BufTy).Contents (Elt F)) (A V main_v312 : (⟨S1x10, .f32⟩ : BufTy).Contents (Elt F)) : (⟨S512x10, .f32⟩ : BufTy).Contents (Elt F)) :=
  pc5.unary (k := 83) (y := main_v313) rfl (by decide)
    (fun Z => ((broadcastInDim S512x10 ![0, 1] bcast_S1x10_S512x10_0_1 : (⟨S1x10, .f32⟩ : BufTy).Contents (Elt F) → (⟨S512x10, .f32⟩ : BufTy).Contents (Elt F)) (Z (Proc.devRef .tc main_v312) : (⟨S1x10, .f32⟩ : BufTy).Contents (Elt F)) : (⟨S512x10, .f32⟩ : BufTy).Contents (Elt F))) (fun Z => rfl) V

theorem eq_main_v314 (V : Valuation τ sig (Elt F)) :
    A V main_v314 = ((addf : (⟨S512x10, .f32⟩ : BufTy).Contents (Elt F) → (⟨S512x10, .f32⟩ : BufTy).Contents (Elt F) → (⟨S512x10, .f32⟩ : BufTy).Contents (Elt F)) (A V main_v309 : (⟨S512x10, .f32⟩ : BufTy).Contents (Elt F)) (A V main_v313 : (⟨S512x10, .f32⟩ : BufTy).Contents (Elt F)) : (⟨S512x10, .f32⟩ : BufTy).Contents (Elt F)) :=
  pc5.binary (k := 84) (y := main_v314) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v309) : (⟨S512x10, .f32⟩ : BufTy).Contents (Elt F)) (Z (Proc.devRef .tc main_v313) : (⟨S512x10, .f32⟩ : BufTy).Contents (Elt F)) : (⟨S512x10, .f32⟩ : BufTy).Contents (Elt F))) (fun Z => rfl) V

theorem eq_main_cst_43 (V : Valuation τ sig (Elt F)) :
    A V main_cst_43 = ((constant S_ .f32 0x00000000#32) : (⟨S_, .f32⟩ : BufTy).Contents (Elt F)) :=
  pc6.nullary (k := 0) (y := main_cst_43) rfl V

theorem eq_main_v315 (V : Valuation τ sig (Elt F)) :
    A V main_v315 = ((broadcastInDim S512x128 ![] bcast_S_S512x128 : (⟨S_, .f32⟩ : BufTy).Contents (Elt F) → (⟨S512x128, .f32⟩ : BufTy).Contents (Elt F)) (A V main_cst_43 : (⟨S_, .f32⟩ : BufTy).Contents (Elt F)) : (⟨S512x128, .f32⟩ : BufTy).Contents (Elt F)) :=
  pc6.unary (k := 1) (y := main_v315) rfl (by decide)
    (fun Z => ((broadcastInDim S512x128 ![] bcast_S_S512x128 : (⟨S_, .f32⟩ : BufTy).Contents (Elt F) → (⟨S512x128, .f32⟩ : BufTy).Contents (Elt F)) (Z (Proc.devRef .tc main_cst_43) : (⟨S_, .f32⟩ : BufTy).Contents (Elt F)) : (⟨S512x128, .f32⟩ : BufTy).Contents (Elt F))) (fun Z => rfl) V

theorem eq_main_v316 (V : Valuation τ sig (Elt F)) :
    A V main_v316 = ((broadcastInDim S100000x1 ![0] bcast_S100000_S100000x1_0 : (⟨S100000, .i32⟩ : BufTy).Contents (Elt F) → (⟨S100000x1, .i32⟩ : BufTy).Contents (Elt F)) (A V main_arg2 : (⟨S100000, .i32⟩ : BufTy).Contents (Elt F)) : (⟨S100000x1, .i32⟩ : BufTy).Contents (Elt F)) :=
  pc6.unary (k := 2) (y := main_v316) rfl (by decide)
    (fun Z => ((broadcastInDim S100000x1 ![0] bcast_S100000_S100000x1_0 : (⟨S100000, .i32⟩ : BufTy).Contents (Elt F) → (⟨S100000x1, .i32⟩ : BufTy).Contents (Elt F)) (Z (Proc.devRef .tc main_arg2) : (⟨S100000, .i32⟩ : BufTy).Contents (Elt F)) : (⟨S100000x1, .i32⟩ : BufTy).Contents (Elt F))) (fun Z => rfl) V

theorem eq_main_v317 (V : Valuation τ sig (Elt F)) :
    A V main_v317 = (Host.scatterAdd scatter_S512x128_S100000x1_S100000x128_1_0_0_1 (A V main_v315 : (⟨S512x128, .f32⟩ : BufTy).Contents (Elt F)) (A V main_v316 : (⟨S100000x1, .i32⟩ : BufTy).Contents (Elt F)) (A V main_v78 : (⟨S100000x128, .f32⟩ : BufTy).Contents (Elt F)) : (⟨S512x128, .f32⟩ : BufTy).Contents (Elt F)) :=
  pc6.ternary (k := 3) (y := main_v317) rfl (by decide) (by decide) (by decide)
    (fun Z => (Host.scatterAdd scatter_S512x128_S100000x1_S100000x128_1_0_0_1 (Z (Proc.devRef .tc main_v315) : (⟨S512x128, .f32⟩ : BufTy).Contents (Elt F)) (Z (Proc.devRef .tc main_v316) : (⟨S100000x1, .i32⟩ : BufTy).Contents (Elt F)) (Z (Proc.devRef .tc main_v78) : (⟨S100000x128, .f32⟩ : BufTy).Contents (Elt F)) : (⟨S512x128, .f32⟩ : BufTy).Contents (Elt F))) (fun Z => rfl) V

theorem eq_main_v318 (V : Valuation τ sig (Elt F)) :
    A V main_v318 = (((extractStridedSlice S1x128x10 ![1, 0, 0] · slices_S5x128x10_S1x128x10_1_0_0) : (⟨S5x128x10, .f32⟩ : BufTy).Contents (Elt F) → (⟨S1x128x10, .f32⟩ : BufTy).Contents (Elt F)) (A V main_arg11 : (⟨S5x128x10, .f32⟩ : BufTy).Contents (Elt F)) : (⟨S1x128x10, .f32⟩ : BufTy).Contents (Elt F)) :=
  pc6.unary (k := 4) (y := main_v318) rfl (by decide)
    (fun Z => (((extractStridedSlice S1x128x10 ![1, 0, 0] · slices_S5x128x10_S1x128x10_1_0_0) : (⟨S5x128x10, .f32⟩ : BufTy).Contents (Elt F) → (⟨S1x128x10, .f32⟩ : BufTy).Contents (Elt F)) (Z (Proc.devRef .tc main_arg11) : (⟨S5x128x10, .f32⟩ : BufTy).Contents (Elt F)) : (⟨S1x128x10, .f32⟩ : BufTy).Contents (Elt F))) (fun Z => rfl) V

theorem eq_main_v319 (V : Valuation τ sig (Elt F)) :
    A V main_v319 = (shapeCast S128x10 (A V main_v318 : (⟨S1x128x10, .f32⟩ : BufTy).Contents (Elt F)) shapeCasts_S1x128x10_S128x10 : (⟨S128x10, .f32⟩ : BufTy).Contents (Elt F)) :=
  pc6.reshape (k := 5) (y := main_v319) rfl (by decide)
    (fun Z => (shapeCast S128x10 (Z (Proc.devRef .tc main_v318) : (⟨S1x128x10, .f32⟩ : BufTy).Contents (Elt F)) shapeCasts_S1x128x10_S128x10 : (⟨S128x10, .f32⟩ : BufTy).Contents (Elt F))) (fun Z => rfl) V

theorem eq_main_v320 (V : Valuation τ sig (Elt F)) :
    A V main_v320 = (Host.dotGeneral dot_S512x128_S128x10_S512x10_1_0_0_1_n_n none (A V main_v317 : (⟨S512x128, .f32⟩ : BufTy).Contents (Elt F)) (A V main_v319 : (⟨S128x10, .f32⟩ : BufTy).Contents (Elt F)) : (⟨S512x10, .f32⟩ : BufTy).Contents (Elt F)) :=
  pc6.binary (k := 6) (y := main_v320) rfl (by decide) (by decide)
    (fun Z => (Host.dotGeneral dot_S512x128_S128x10_S512x10_1_0_0_1_n_n none (Z (Proc.devRef .tc main_v317) : (⟨S512x128, .f32⟩ : BufTy).Contents (Elt F)) (Z (Proc.devRef .tc main_v319) : (⟨S128x10, .f32⟩ : BufTy).Contents (Elt F)) : (⟨S512x10, .f32⟩ : BufTy).Contents (Elt F))) (fun Z => rfl) V

theorem eq_main_v321 (V : Valuation τ sig (Elt F)) :
    A V main_v321 = (((extractStridedSlice S1x10 ![1, 0] · slices_S5x10_S1x10_1_0) : (⟨S5x10, .f32⟩ : BufTy).Contents (Elt F) → (⟨S1x10, .f32⟩ : BufTy).Contents (Elt F)) (A V main_arg12 : (⟨S5x10, .f32⟩ : BufTy).Contents (Elt F)) : (⟨S1x10, .f32⟩ : BufTy).Contents (Elt F)) :=
  pc6.unary (k := 7) (y := main_v321) rfl (by decide)
    (fun Z => (((extractStridedSlice S1x10 ![1, 0] · slices_S5x10_S1x10_1_0) : (⟨S5x10, .f32⟩ : BufTy).Contents (Elt F) → (⟨S1x10, .f32⟩ : BufTy).Contents (Elt F)) (Z (Proc.devRef .tc main_arg12) : (⟨S5x10, .f32⟩ : BufTy).Contents (Elt F)) : (⟨S1x10, .f32⟩ : BufTy).Contents (Elt F))) (fun Z => rfl) V

theorem eq_main_v322 (V : Valuation τ sig (Elt F)) :
    A V main_v322 = (shapeCast S10 (A V main_v321 : (⟨S1x10, .f32⟩ : BufTy).Contents (Elt F)) shapeCasts_S1x10_S10 : (⟨S10, .f32⟩ : BufTy).Contents (Elt F)) :=
  pc6.reshape (k := 8) (y := main_v322) rfl (by decide)
    (fun Z => (shapeCast S10 (Z (Proc.devRef .tc main_v321) : (⟨S1x10, .f32⟩ : BufTy).Contents (Elt F)) shapeCasts_S1x10_S10 : (⟨S10, .f32⟩ : BufTy).Contents (Elt F))) (fun Z => rfl) V

theorem eq_main_v323 (V : Valuation τ sig (Elt F)) :
    A V main_v323 = ((broadcastInDim S1x10 ![1] bcast_S10_S1x10_1 : (⟨S10, .f32⟩ : BufTy).Contents (Elt F) → (⟨S1x10, .f32⟩ : BufTy).Contents (Elt F)) (A V main_v322 : (⟨S10, .f32⟩ : BufTy).Contents (Elt F)) : (⟨S1x10, .f32⟩ : BufTy).Contents (Elt F)) :=
  pc6.unary (k := 9) (y := main_v323) rfl (by decide)
    (fun Z => ((broadcastInDim S1x10 ![1] bcast_S10_S1x10_1 : (⟨S10, .f32⟩ : BufTy).Contents (Elt F) → (⟨S1x10, .f32⟩ : BufTy).Contents (Elt F)) (Z (Proc.devRef .tc main_v322) : (⟨S10, .f32⟩ : BufTy).Contents (Elt F)) : (⟨S1x10, .f32⟩ : BufTy).Contents (Elt F))) (fun Z => rfl) V

theorem eq_main_v324 (V : Valuation τ sig (Elt F)) :
    A V main_v324 = ((broadcastInDim S512x10 ![0, 1] bcast_S1x10_S512x10_0_1 : (⟨S1x10, .f32⟩ : BufTy).Contents (Elt F) → (⟨S512x10, .f32⟩ : BufTy).Contents (Elt F)) (A V main_v323 : (⟨S1x10, .f32⟩ : BufTy).Contents (Elt F)) : (⟨S512x10, .f32⟩ : BufTy).Contents (Elt F)) :=
  pc6.unary (k := 10) (y := main_v324) rfl (by decide)
    (fun Z => ((broadcastInDim S512x10 ![0, 1] bcast_S1x10_S512x10_0_1 : (⟨S1x10, .f32⟩ : BufTy).Contents (Elt F) → (⟨S512x10, .f32⟩ : BufTy).Contents (Elt F)) (Z (Proc.devRef .tc main_v323) : (⟨S1x10, .f32⟩ : BufTy).Contents (Elt F)) : (⟨S512x10, .f32⟩ : BufTy).Contents (Elt F))) (fun Z => rfl) V

theorem eq_main_v325 (V : Valuation τ sig (Elt F)) :
    A V main_v325 = ((addf : (⟨S512x10, .f32⟩ : BufTy).Contents (Elt F) → (⟨S512x10, .f32⟩ : BufTy).Contents (Elt F) → (⟨S512x10, .f32⟩ : BufTy).Contents (Elt F)) (A V main_v320 : (⟨S512x10, .f32⟩ : BufTy).Contents (Elt F)) (A V main_v324 : (⟨S512x10, .f32⟩ : BufTy).Contents (Elt F)) : (⟨S512x10, .f32⟩ : BufTy).Contents (Elt F)) :=
  pc6.binary (k := 11) (y := main_v325) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v320) : (⟨S512x10, .f32⟩ : BufTy).Contents (Elt F)) (Z (Proc.devRef .tc main_v324) : (⟨S512x10, .f32⟩ : BufTy).Contents (Elt F)) : (⟨S512x10, .f32⟩ : BufTy).Contents (Elt F))) (fun Z => rfl) V

theorem eq_main_v326 (V : Valuation τ sig (Elt F)) :
    A V main_v326 = ((addf : (⟨S512x10, .f32⟩ : BufTy).Contents (Elt F) → (⟨S512x10, .f32⟩ : BufTy).Contents (Elt F) → (⟨S512x10, .f32⟩ : BufTy).Contents (Elt F)) (A V main_v314 : (⟨S512x10, .f32⟩ : BufTy).Contents (Elt F)) (A V main_v325 : (⟨S512x10, .f32⟩ : BufTy).Contents (Elt F)) : (⟨S512x10, .f32⟩ : BufTy).Contents (Elt F)) :=
  pc6.binary (k := 12) (y := main_v326) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v314) : (⟨S512x10, .f32⟩ : BufTy).Contents (Elt F)) (Z (Proc.devRef .tc main_v325) : (⟨S512x10, .f32⟩ : BufTy).Contents (Elt F)) : (⟨S512x10, .f32⟩ : BufTy).Contents (Elt F))) (fun Z => rfl) V

theorem eq_main_cst_44 (V : Valuation τ sig (Elt F)) :
    A V main_cst_44 = ((constant S_ .f32 0x00000000#32) : (⟨S_, .f32⟩ : BufTy).Contents (Elt F)) :=
  pc6.nullary (k := 13) (y := main_cst_44) rfl V

theorem eq_main_v327 (V : Valuation τ sig (Elt F)) :
    A V main_v327 = ((broadcastInDim S512x128 ![] bcast_S_S512x128 : (⟨S_, .f32⟩ : BufTy).Contents (Elt F) → (⟨S512x128, .f32⟩ : BufTy).Contents (Elt F)) (A V main_cst_44 : (⟨S_, .f32⟩ : BufTy).Contents (Elt F)) : (⟨S512x128, .f32⟩ : BufTy).Contents (Elt F)) :=
  pc6.unary (k := 14) (y := main_v327) rfl (by decide)
    (fun Z => ((broadcastInDim S512x128 ![] bcast_S_S512x128 : (⟨S_, .f32⟩ : BufTy).Contents (Elt F) → (⟨S512x128, .f32⟩ : BufTy).Contents (Elt F)) (Z (Proc.devRef .tc main_cst_44) : (⟨S_, .f32⟩ : BufTy).Contents (Elt F)) : (⟨S512x128, .f32⟩ : BufTy).Contents (Elt F))) (fun Z => rfl) V

theorem eq_main_v328 (V : Valuation τ sig (Elt F)) :
    A V main_v328 = ((broadcastInDim S100000x1 ![0] bcast_S100000_S100000x1_0 : (⟨S100000, .i32⟩ : BufTy).Contents (Elt F) → (⟨S100000x1, .i32⟩ : BufTy).Contents (Elt F)) (A V main_arg2 : (⟨S100000, .i32⟩ : BufTy).Contents (Elt F)) : (⟨S100000x1, .i32⟩ : BufTy).Contents (Elt F)) :=
  pc6.unary (k := 15) (y := main_v328) rfl (by decide)
    (fun Z => ((broadcastInDim S100000x1 ![0] bcast_S100000_S100000x1_0 : (⟨S100000, .i32⟩ : BufTy).Contents (Elt F) → (⟨S100000x1, .i32⟩ : BufTy).Contents (Elt F)) (Z (Proc.devRef .tc main_arg2) : (⟨S100000, .i32⟩ : BufTy).Contents (Elt F)) : (⟨S100000x1, .i32⟩ : BufTy).Contents (Elt F))) (fun Z => rfl) V

theorem eq_main_v329 (V : Valuation τ sig (Elt F)) :
    A V main_v329 = (Host.scatterAdd scatter_S512x128_S100000x1_S100000x128_1_0_0_1 (A V main_v327 : (⟨S512x128, .f32⟩ : BufTy).Contents (Elt F)) (A V main_v328 : (⟨S100000x1, .i32⟩ : BufTy).Contents (Elt F)) (A V main_v153 : (⟨S100000x128, .f32⟩ : BufTy).Contents (Elt F)) : (⟨S512x128, .f32⟩ : BufTy).Contents (Elt F)) :=
  pc6.ternary (k := 16) (y := main_v329) rfl (by decide) (by decide) (by decide)
    (fun Z => (Host.scatterAdd scatter_S512x128_S100000x1_S100000x128_1_0_0_1 (Z (Proc.devRef .tc main_v327) : (⟨S512x128, .f32⟩ : BufTy).Contents (Elt F)) (Z (Proc.devRef .tc main_v328) : (⟨S100000x1, .i32⟩ : BufTy).Contents (Elt F)) (Z (Proc.devRef .tc main_v153) : (⟨S100000x128, .f32⟩ : BufTy).Contents (Elt F)) : (⟨S512x128, .f32⟩ : BufTy).Contents (Elt F))) (fun Z => rfl) V

theorem eq_main_v330 (V : Valuation τ sig (Elt F)) :
    A V main_v330 = (((extractStridedSlice S1x128x10 ![2, 0, 0] · slices_S5x128x10_S1x128x10_2_0_0) : (⟨S5x128x10, .f32⟩ : BufTy).Contents (Elt F) → (⟨S1x128x10, .f32⟩ : BufTy).Contents (Elt F)) (A V main_arg11 : (⟨S5x128x10, .f32⟩ : BufTy).Contents (Elt F)) : (⟨S1x128x10, .f32⟩ : BufTy).Contents (Elt F)) :=
  pc6.unary (k := 17) (y := main_v330) rfl (by decide)
    (fun Z => (((extractStridedSlice S1x128x10 ![2, 0, 0] · slices_S5x128x10_S1x128x10_2_0_0) : (⟨S5x128x10, .f32⟩ : BufTy).Contents (Elt F) → (⟨S1x128x10, .f32⟩ : BufTy).Contents (Elt F)) (Z (Proc.devRef .tc main_arg11) : (⟨S5x128x10, .f32⟩ : BufTy).Contents (Elt F)) : (⟨S1x128x10, .f32⟩ : BufTy).Contents (Elt F))) (fun Z => rfl) V

theorem eq_main_v331 (V : Valuation τ sig (Elt F)) :
    A V main_v331 = (shapeCast S128x10 (A V main_v330 : (⟨S1x128x10, .f32⟩ : BufTy).Contents (Elt F)) shapeCasts_S1x128x10_S128x10 : (⟨S128x10, .f32⟩ : BufTy).Contents (Elt F)) :=
  pc6.reshape (k := 18) (y := main_v331) rfl (by decide)
    (fun Z => (shapeCast S128x10 (Z (Proc.devRef .tc main_v330) : (⟨S1x128x10, .f32⟩ : BufTy).Contents (Elt F)) shapeCasts_S1x128x10_S128x10 : (⟨S128x10, .f32⟩ : BufTy).Contents (Elt F))) (fun Z => rfl) V

theorem eq_main_v332 (V : Valuation τ sig (Elt F)) :
    A V main_v332 = (Host.dotGeneral dot_S512x128_S128x10_S512x10_1_0_0_1_n_n none (A V main_v329 : (⟨S512x128, .f32⟩ : BufTy).Contents (Elt F)) (A V main_v331 : (⟨S128x10, .f32⟩ : BufTy).Contents (Elt F)) : (⟨S512x10, .f32⟩ : BufTy).Contents (Elt F)) :=
  pc6.binary (k := 19) (y := main_v332) rfl (by decide) (by decide)
    (fun Z => (Host.dotGeneral dot_S512x128_S128x10_S512x10_1_0_0_1_n_n none (Z (Proc.devRef .tc main_v329) : (⟨S512x128, .f32⟩ : BufTy).Contents (Elt F)) (Z (Proc.devRef .tc main_v331) : (⟨S128x10, .f32⟩ : BufTy).Contents (Elt F)) : (⟨S512x10, .f32⟩ : BufTy).Contents (Elt F))) (fun Z => rfl) V

theorem eq_main_v333 (V : Valuation τ sig (Elt F)) :
    A V main_v333 = (((extractStridedSlice S1x10 ![2, 0] · slices_S5x10_S1x10_2_0) : (⟨S5x10, .f32⟩ : BufTy).Contents (Elt F) → (⟨S1x10, .f32⟩ : BufTy).Contents (Elt F)) (A V main_arg12 : (⟨S5x10, .f32⟩ : BufTy).Contents (Elt F)) : (⟨S1x10, .f32⟩ : BufTy).Contents (Elt F)) :=
  pc6.unary (k := 20) (y := main_v333) rfl (by decide)
    (fun Z => (((extractStridedSlice S1x10 ![2, 0] · slices_S5x10_S1x10_2_0) : (⟨S5x10, .f32⟩ : BufTy).Contents (Elt F) → (⟨S1x10, .f32⟩ : BufTy).Contents (Elt F)) (Z (Proc.devRef .tc main_arg12) : (⟨S5x10, .f32⟩ : BufTy).Contents (Elt F)) : (⟨S1x10, .f32⟩ : BufTy).Contents (Elt F))) (fun Z => rfl) V

theorem eq_main_v334 (V : Valuation τ sig (Elt F)) :
    A V main_v334 = (shapeCast S10 (A V main_v333 : (⟨S1x10, .f32⟩ : BufTy).Contents (Elt F)) shapeCasts_S1x10_S10 : (⟨S10, .f32⟩ : BufTy).Contents (Elt F)) :=
  pc6.reshape (k := 21) (y := main_v334) rfl (by decide)
    (fun Z => (shapeCast S10 (Z (Proc.devRef .tc main_v333) : (⟨S1x10, .f32⟩ : BufTy).Contents (Elt F)) shapeCasts_S1x10_S10 : (⟨S10, .f32⟩ : BufTy).Contents (Elt F))) (fun Z => rfl) V

theorem eq_main_v335 (V : Valuation τ sig (Elt F)) :
    A V main_v335 = ((broadcastInDim S1x10 ![1] bcast_S10_S1x10_1 : (⟨S10, .f32⟩ : BufTy).Contents (Elt F) → (⟨S1x10, .f32⟩ : BufTy).Contents (Elt F)) (A V main_v334 : (⟨S10, .f32⟩ : BufTy).Contents (Elt F)) : (⟨S1x10, .f32⟩ : BufTy).Contents (Elt F)) :=
  pc6.unary (k := 22) (y := main_v335) rfl (by decide)
    (fun Z => ((broadcastInDim S1x10 ![1] bcast_S10_S1x10_1 : (⟨S10, .f32⟩ : BufTy).Contents (Elt F) → (⟨S1x10, .f32⟩ : BufTy).Contents (Elt F)) (Z (Proc.devRef .tc main_v334) : (⟨S10, .f32⟩ : BufTy).Contents (Elt F)) : (⟨S1x10, .f32⟩ : BufTy).Contents (Elt F))) (fun Z => rfl) V

theorem eq_main_v336 (V : Valuation τ sig (Elt F)) :
    A V main_v336 = ((broadcastInDim S512x10 ![0, 1] bcast_S1x10_S512x10_0_1 : (⟨S1x10, .f32⟩ : BufTy).Contents (Elt F) → (⟨S512x10, .f32⟩ : BufTy).Contents (Elt F)) (A V main_v335 : (⟨S1x10, .f32⟩ : BufTy).Contents (Elt F)) : (⟨S512x10, .f32⟩ : BufTy).Contents (Elt F)) :=
  pc6.unary (k := 23) (y := main_v336) rfl (by decide)
    (fun Z => ((broadcastInDim S512x10 ![0, 1] bcast_S1x10_S512x10_0_1 : (⟨S1x10, .f32⟩ : BufTy).Contents (Elt F) → (⟨S512x10, .f32⟩ : BufTy).Contents (Elt F)) (Z (Proc.devRef .tc main_v335) : (⟨S1x10, .f32⟩ : BufTy).Contents (Elt F)) : (⟨S512x10, .f32⟩ : BufTy).Contents (Elt F))) (fun Z => rfl) V

theorem eq_main_v337 (V : Valuation τ sig (Elt F)) :
    A V main_v337 = ((addf : (⟨S512x10, .f32⟩ : BufTy).Contents (Elt F) → (⟨S512x10, .f32⟩ : BufTy).Contents (Elt F) → (⟨S512x10, .f32⟩ : BufTy).Contents (Elt F)) (A V main_v332 : (⟨S512x10, .f32⟩ : BufTy).Contents (Elt F)) (A V main_v336 : (⟨S512x10, .f32⟩ : BufTy).Contents (Elt F)) : (⟨S512x10, .f32⟩ : BufTy).Contents (Elt F)) :=
  pc6.binary (k := 24) (y := main_v337) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v332) : (⟨S512x10, .f32⟩ : BufTy).Contents (Elt F)) (Z (Proc.devRef .tc main_v336) : (⟨S512x10, .f32⟩ : BufTy).Contents (Elt F)) : (⟨S512x10, .f32⟩ : BufTy).Contents (Elt F))) (fun Z => rfl) V

theorem eq_main_v338 (V : Valuation τ sig (Elt F)) :
    A V main_v338 = ((addf : (⟨S512x10, .f32⟩ : BufTy).Contents (Elt F) → (⟨S512x10, .f32⟩ : BufTy).Contents (Elt F) → (⟨S512x10, .f32⟩ : BufTy).Contents (Elt F)) (A V main_v326 : (⟨S512x10, .f32⟩ : BufTy).Contents (Elt F)) (A V main_v337 : (⟨S512x10, .f32⟩ : BufTy).Contents (Elt F)) : (⟨S512x10, .f32⟩ : BufTy).Contents (Elt F)) :=
  pc6.binary (k := 25) (y := main_v338) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v326) : (⟨S512x10, .f32⟩ : BufTy).Contents (Elt F)) (Z (Proc.devRef .tc main_v337) : (⟨S512x10, .f32⟩ : BufTy).Contents (Elt F)) : (⟨S512x10, .f32⟩ : BufTy).Contents (Elt F))) (fun Z => rfl) V

theorem eq_main_cst_45 (V : Valuation τ sig (Elt F)) :
    A V main_cst_45 = ((constant S_ .f32 0x00000000#32) : (⟨S_, .f32⟩ : BufTy).Contents (Elt F)) :=
  pc6.nullary (k := 26) (y := main_cst_45) rfl V

theorem eq_main_v339 (V : Valuation τ sig (Elt F)) :
    A V main_v339 = ((broadcastInDim S512x128 ![] bcast_S_S512x128 : (⟨S_, .f32⟩ : BufTy).Contents (Elt F) → (⟨S512x128, .f32⟩ : BufTy).Contents (Elt F)) (A V main_cst_45 : (⟨S_, .f32⟩ : BufTy).Contents (Elt F)) : (⟨S512x128, .f32⟩ : BufTy).Contents (Elt F)) :=
  pc6.unary (k := 27) (y := main_v339) rfl (by decide)
    (fun Z => ((broadcastInDim S512x128 ![] bcast_S_S512x128 : (⟨S_, .f32⟩ : BufTy).Contents (Elt F) → (⟨S512x128, .f32⟩ : BufTy).Contents (Elt F)) (Z (Proc.devRef .tc main_cst_45) : (⟨S_, .f32⟩ : BufTy).Contents (Elt F)) : (⟨S512x128, .f32⟩ : BufTy).Contents (Elt F))) (fun Z => rfl) V

theorem eq_main_v340 (V : Valuation τ sig (Elt F)) :
    A V main_v340 = ((broadcastInDim S100000x1 ![0] bcast_S100000_S100000x1_0 : (⟨S100000, .i32⟩ : BufTy).Contents (Elt F) → (⟨S100000x1, .i32⟩ : BufTy).Contents (Elt F)) (A V main_arg2 : (⟨S100000, .i32⟩ : BufTy).Contents (Elt F)) : (⟨S100000x1, .i32⟩ : BufTy).Contents (Elt F)) :=
  pc6.unary (k := 28) (y := main_v340) rfl (by decide)
    (fun Z => ((broadcastInDim S100000x1 ![0] bcast_S100000_S100000x1_0 : (⟨S100000, .i32⟩ : BufTy).Contents (Elt F) → (⟨S100000x1, .i32⟩ : BufTy).Contents (Elt F)) (Z (Proc.devRef .tc main_arg2) : (⟨S100000, .i32⟩ : BufTy).Contents (Elt F)) : (⟨S100000x1, .i32⟩ : BufTy).Contents (Elt F))) (fun Z => rfl) V

theorem eq_main_v341 (V : Valuation τ sig (Elt F)) :
    A V main_v341 = (Host.scatterAdd scatter_S512x128_S100000x1_S100000x128_1_0_0_1 (A V main_v339 : (⟨S512x128, .f32⟩ : BufTy).Contents (Elt F)) (A V main_v340 : (⟨S100000x1, .i32⟩ : BufTy).Contents (Elt F)) (A V main_v228 : (⟨S100000x128, .f32⟩ : BufTy).Contents (Elt F)) : (⟨S512x128, .f32⟩ : BufTy).Contents (Elt F)) :=
  pc6.ternary (k := 29) (y := main_v341) rfl (by decide) (by decide) (by decide)
    (fun Z => (Host.scatterAdd scatter_S512x128_S100000x1_S100000x128_1_0_0_1 (Z (Proc.devRef .tc main_v339) : (⟨S512x128, .f32⟩ : BufTy).Contents (Elt F)) (Z (Proc.devRef .tc main_v340) : (⟨S100000x1, .i32⟩ : BufTy).Contents (Elt F)) (Z (Proc.devRef .tc main_v228) : (⟨S100000x128, .f32⟩ : BufTy).Contents (Elt F)) : (⟨S512x128, .f32⟩ : BufTy).Contents (Elt F))) (fun Z => rfl) V

theorem eq_main_v342 (V : Valuation τ sig (Elt F)) :
    A V main_v342 = (((extractStridedSlice S1x128x10 ![3, 0, 0] · slices_S5x128x10_S1x128x10_3_0_0) : (⟨S5x128x10, .f32⟩ : BufTy).Contents (Elt F) → (⟨S1x128x10, .f32⟩ : BufTy).Contents (Elt F)) (A V main_arg11 : (⟨S5x128x10, .f32⟩ : BufTy).Contents (Elt F)) : (⟨S1x128x10, .f32⟩ : BufTy).Contents (Elt F)) :=
  pc6.unary (k := 30) (y := main_v342) rfl (by decide)
    (fun Z => (((extractStridedSlice S1x128x10 ![3, 0, 0] · slices_S5x128x10_S1x128x10_3_0_0) : (⟨S5x128x10, .f32⟩ : BufTy).Contents (Elt F) → (⟨S1x128x10, .f32⟩ : BufTy).Contents (Elt F)) (Z (Proc.devRef .tc main_arg11) : (⟨S5x128x10, .f32⟩ : BufTy).Contents (Elt F)) : (⟨S1x128x10, .f32⟩ : BufTy).Contents (Elt F))) (fun Z => rfl) V

theorem eq_main_v343 (V : Valuation τ sig (Elt F)) :
    A V main_v343 = (shapeCast S128x10 (A V main_v342 : (⟨S1x128x10, .f32⟩ : BufTy).Contents (Elt F)) shapeCasts_S1x128x10_S128x10 : (⟨S128x10, .f32⟩ : BufTy).Contents (Elt F)) :=
  pc6.reshape (k := 31) (y := main_v343) rfl (by decide)
    (fun Z => (shapeCast S128x10 (Z (Proc.devRef .tc main_v342) : (⟨S1x128x10, .f32⟩ : BufTy).Contents (Elt F)) shapeCasts_S1x128x10_S128x10 : (⟨S128x10, .f32⟩ : BufTy).Contents (Elt F))) (fun Z => rfl) V

theorem eq_main_v344 (V : Valuation τ sig (Elt F)) :
    A V main_v344 = (Host.dotGeneral dot_S512x128_S128x10_S512x10_1_0_0_1_n_n none (A V main_v341 : (⟨S512x128, .f32⟩ : BufTy).Contents (Elt F)) (A V main_v343 : (⟨S128x10, .f32⟩ : BufTy).Contents (Elt F)) : (⟨S512x10, .f32⟩ : BufTy).Contents (Elt F)) :=
  pc6.binary (k := 32) (y := main_v344) rfl (by decide) (by decide)
    (fun Z => (Host.dotGeneral dot_S512x128_S128x10_S512x10_1_0_0_1_n_n none (Z (Proc.devRef .tc main_v341) : (⟨S512x128, .f32⟩ : BufTy).Contents (Elt F)) (Z (Proc.devRef .tc main_v343) : (⟨S128x10, .f32⟩ : BufTy).Contents (Elt F)) : (⟨S512x10, .f32⟩ : BufTy).Contents (Elt F))) (fun Z => rfl) V

theorem eq_main_v345 (V : Valuation τ sig (Elt F)) :
    A V main_v345 = (((extractStridedSlice S1x10 ![3, 0] · slices_S5x10_S1x10_3_0) : (⟨S5x10, .f32⟩ : BufTy).Contents (Elt F) → (⟨S1x10, .f32⟩ : BufTy).Contents (Elt F)) (A V main_arg12 : (⟨S5x10, .f32⟩ : BufTy).Contents (Elt F)) : (⟨S1x10, .f32⟩ : BufTy).Contents (Elt F)) :=
  pc6.unary (k := 33) (y := main_v345) rfl (by decide)
    (fun Z => (((extractStridedSlice S1x10 ![3, 0] · slices_S5x10_S1x10_3_0) : (⟨S5x10, .f32⟩ : BufTy).Contents (Elt F) → (⟨S1x10, .f32⟩ : BufTy).Contents (Elt F)) (Z (Proc.devRef .tc main_arg12) : (⟨S5x10, .f32⟩ : BufTy).Contents (Elt F)) : (⟨S1x10, .f32⟩ : BufTy).Contents (Elt F))) (fun Z => rfl) V

theorem eq_main_v346 (V : Valuation τ sig (Elt F)) :
    A V main_v346 = (shapeCast S10 (A V main_v345 : (⟨S1x10, .f32⟩ : BufTy).Contents (Elt F)) shapeCasts_S1x10_S10 : (⟨S10, .f32⟩ : BufTy).Contents (Elt F)) :=
  pc6.reshape (k := 34) (y := main_v346) rfl (by decide)
    (fun Z => (shapeCast S10 (Z (Proc.devRef .tc main_v345) : (⟨S1x10, .f32⟩ : BufTy).Contents (Elt F)) shapeCasts_S1x10_S10 : (⟨S10, .f32⟩ : BufTy).Contents (Elt F))) (fun Z => rfl) V

theorem eq_main_v347 (V : Valuation τ sig (Elt F)) :
    A V main_v347 = ((broadcastInDim S1x10 ![1] bcast_S10_S1x10_1 : (⟨S10, .f32⟩ : BufTy).Contents (Elt F) → (⟨S1x10, .f32⟩ : BufTy).Contents (Elt F)) (A V main_v346 : (⟨S10, .f32⟩ : BufTy).Contents (Elt F)) : (⟨S1x10, .f32⟩ : BufTy).Contents (Elt F)) :=
  pc6.unary (k := 35) (y := main_v347) rfl (by decide)
    (fun Z => ((broadcastInDim S1x10 ![1] bcast_S10_S1x10_1 : (⟨S10, .f32⟩ : BufTy).Contents (Elt F) → (⟨S1x10, .f32⟩ : BufTy).Contents (Elt F)) (Z (Proc.devRef .tc main_v346) : (⟨S10, .f32⟩ : BufTy).Contents (Elt F)) : (⟨S1x10, .f32⟩ : BufTy).Contents (Elt F))) (fun Z => rfl) V

theorem eq_main_v348 (V : Valuation τ sig (Elt F)) :
    A V main_v348 = ((broadcastInDim S512x10 ![0, 1] bcast_S1x10_S512x10_0_1 : (⟨S1x10, .f32⟩ : BufTy).Contents (Elt F) → (⟨S512x10, .f32⟩ : BufTy).Contents (Elt F)) (A V main_v347 : (⟨S1x10, .f32⟩ : BufTy).Contents (Elt F)) : (⟨S512x10, .f32⟩ : BufTy).Contents (Elt F)) :=
  pc6.unary (k := 36) (y := main_v348) rfl (by decide)
    (fun Z => ((broadcastInDim S512x10 ![0, 1] bcast_S1x10_S512x10_0_1 : (⟨S1x10, .f32⟩ : BufTy).Contents (Elt F) → (⟨S512x10, .f32⟩ : BufTy).Contents (Elt F)) (Z (Proc.devRef .tc main_v347) : (⟨S1x10, .f32⟩ : BufTy).Contents (Elt F)) : (⟨S512x10, .f32⟩ : BufTy).Contents (Elt F))) (fun Z => rfl) V

theorem eq_main_v349 (V : Valuation τ sig (Elt F)) :
    A V main_v349 = ((addf : (⟨S512x10, .f32⟩ : BufTy).Contents (Elt F) → (⟨S512x10, .f32⟩ : BufTy).Contents (Elt F) → (⟨S512x10, .f32⟩ : BufTy).Contents (Elt F)) (A V main_v344 : (⟨S512x10, .f32⟩ : BufTy).Contents (Elt F)) (A V main_v348 : (⟨S512x10, .f32⟩ : BufTy).Contents (Elt F)) : (⟨S512x10, .f32⟩ : BufTy).Contents (Elt F)) :=
  pc6.binary (k := 37) (y := main_v349) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v344) : (⟨S512x10, .f32⟩ : BufTy).Contents (Elt F)) (Z (Proc.devRef .tc main_v348) : (⟨S512x10, .f32⟩ : BufTy).Contents (Elt F)) : (⟨S512x10, .f32⟩ : BufTy).Contents (Elt F))) (fun Z => rfl) V

theorem eq_main_v350 (V : Valuation τ sig (Elt F)) :
    A V main_v350 = ((addf : (⟨S512x10, .f32⟩ : BufTy).Contents (Elt F) → (⟨S512x10, .f32⟩ : BufTy).Contents (Elt F) → (⟨S512x10, .f32⟩ : BufTy).Contents (Elt F)) (A V main_v338 : (⟨S512x10, .f32⟩ : BufTy).Contents (Elt F)) (A V main_v349 : (⟨S512x10, .f32⟩ : BufTy).Contents (Elt F)) : (⟨S512x10, .f32⟩ : BufTy).Contents (Elt F)) :=
  pc6.binary (k := 38) (y := main_v350) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v338) : (⟨S512x10, .f32⟩ : BufTy).Contents (Elt F)) (Z (Proc.devRef .tc main_v349) : (⟨S512x10, .f32⟩ : BufTy).Contents (Elt F)) : (⟨S512x10, .f32⟩ : BufTy).Contents (Elt F))) (fun Z => rfl) V

theorem eq_main_cst_46 (V : Valuation τ sig (Elt F)) :
    A V main_cst_46 = ((constant S_ .f32 0x00000000#32) : (⟨S_, .f32⟩ : BufTy).Contents (Elt F)) :=
  pc6.nullary (k := 39) (y := main_cst_46) rfl V

theorem eq_main_v351 (V : Valuation τ sig (Elt F)) :
    A V main_v351 = ((broadcastInDim S512x128 ![] bcast_S_S512x128 : (⟨S_, .f32⟩ : BufTy).Contents (Elt F) → (⟨S512x128, .f32⟩ : BufTy).Contents (Elt F)) (A V main_cst_46 : (⟨S_, .f32⟩ : BufTy).Contents (Elt F)) : (⟨S512x128, .f32⟩ : BufTy).Contents (Elt F)) :=
  pc6.unary (k := 40) (y := main_v351) rfl (by decide)
    (fun Z => ((broadcastInDim S512x128 ![] bcast_S_S512x128 : (⟨S_, .f32⟩ : BufTy).Contents (Elt F) → (⟨S512x128, .f32⟩ : BufTy).Contents (Elt F)) (Z (Proc.devRef .tc main_cst_46) : (⟨S_, .f32⟩ : BufTy).Contents (Elt F)) : (⟨S512x128, .f32⟩ : BufTy).Contents (Elt F))) (fun Z => rfl) V

theorem eq_main_v352 (V : Valuation τ sig (Elt F)) :
    A V main_v352 = ((broadcastInDim S100000x1 ![0] bcast_S100000_S100000x1_0 : (⟨S100000, .i32⟩ : BufTy).Contents (Elt F) → (⟨S100000x1, .i32⟩ : BufTy).Contents (Elt F)) (A V main_arg2 : (⟨S100000, .i32⟩ : BufTy).Contents (Elt F)) : (⟨S100000x1, .i32⟩ : BufTy).Contents (Elt F)) :=
  pc6.unary (k := 41) (y := main_v352) rfl (by decide)
    (fun Z => ((broadcastInDim S100000x1 ![0] bcast_S100000_S100000x1_0 : (⟨S100000, .i32⟩ : BufTy).Contents (Elt F) → (⟨S100000x1, .i32⟩ : BufTy).Contents (Elt F)) (Z (Proc.devRef .tc main_arg2) : (⟨S100000, .i32⟩ : BufTy).Contents (Elt F)) : (⟨S100000x1, .i32⟩ : BufTy).Contents (Elt F))) (fun Z => rfl) V

theorem eq_main_v353 (V : Valuation τ sig (Elt F)) :
    A V main_v353 = (Host.scatterAdd scatter_S512x128_S100000x1_S100000x128_1_0_0_1 (A V main_v351 : (⟨S512x128, .f32⟩ : BufTy).Contents (Elt F)) (A V main_v352 : (⟨S100000x1, .i32⟩ : BufTy).Contents (Elt F)) (A V main_v303 : (⟨S100000x128, .f32⟩ : BufTy).Contents (Elt F)) : (⟨S512x128, .f32⟩ : BufTy).Contents (Elt F)) :=
  pc6.ternary (k := 42) (y := main_v353) rfl (by decide) (by decide) (by decide)
    (fun Z => (Host.scatterAdd scatter_S512x128_S100000x1_S100000x128_1_0_0_1 (Z (Proc.devRef .tc main_v351) : (⟨S512x128, .f32⟩ : BufTy).Contents (Elt F)) (Z (Proc.devRef .tc main_v352) : (⟨S100000x1, .i32⟩ : BufTy).Contents (Elt F)) (Z (Proc.devRef .tc main_v303) : (⟨S100000x128, .f32⟩ : BufTy).Contents (Elt F)) : (⟨S512x128, .f32⟩ : BufTy).Contents (Elt F))) (fun Z => rfl) V

theorem eq_main_v354 (V : Valuation τ sig (Elt F)) :
    A V main_v354 = (((extractStridedSlice S1x128x10 ![4, 0, 0] · slices_S5x128x10_S1x128x10_4_0_0) : (⟨S5x128x10, .f32⟩ : BufTy).Contents (Elt F) → (⟨S1x128x10, .f32⟩ : BufTy).Contents (Elt F)) (A V main_arg11 : (⟨S5x128x10, .f32⟩ : BufTy).Contents (Elt F)) : (⟨S1x128x10, .f32⟩ : BufTy).Contents (Elt F)) :=
  pc6.unary (k := 43) (y := main_v354) rfl (by decide)
    (fun Z => (((extractStridedSlice S1x128x10 ![4, 0, 0] · slices_S5x128x10_S1x128x10_4_0_0) : (⟨S5x128x10, .f32⟩ : BufTy).Contents (Elt F) → (⟨S1x128x10, .f32⟩ : BufTy).Contents (Elt F)) (Z (Proc.devRef .tc main_arg11) : (⟨S5x128x10, .f32⟩ : BufTy).Contents (Elt F)) : (⟨S1x128x10, .f32⟩ : BufTy).Contents (Elt F))) (fun Z => rfl) V

theorem eq_main_v355 (V : Valuation τ sig (Elt F)) :
    A V main_v355 = (shapeCast S128x10 (A V main_v354 : (⟨S1x128x10, .f32⟩ : BufTy).Contents (Elt F)) shapeCasts_S1x128x10_S128x10 : (⟨S128x10, .f32⟩ : BufTy).Contents (Elt F)) :=
  pc6.reshape (k := 44) (y := main_v355) rfl (by decide)
    (fun Z => (shapeCast S128x10 (Z (Proc.devRef .tc main_v354) : (⟨S1x128x10, .f32⟩ : BufTy).Contents (Elt F)) shapeCasts_S1x128x10_S128x10 : (⟨S128x10, .f32⟩ : BufTy).Contents (Elt F))) (fun Z => rfl) V

theorem eq_main_v356 (V : Valuation τ sig (Elt F)) :
    A V main_v356 = (Host.dotGeneral dot_S512x128_S128x10_S512x10_1_0_0_1_n_n none (A V main_v353 : (⟨S512x128, .f32⟩ : BufTy).Contents (Elt F)) (A V main_v355 : (⟨S128x10, .f32⟩ : BufTy).Contents (Elt F)) : (⟨S512x10, .f32⟩ : BufTy).Contents (Elt F)) :=
  pc6.binary (k := 45) (y := main_v356) rfl (by decide) (by decide)
    (fun Z => (Host.dotGeneral dot_S512x128_S128x10_S512x10_1_0_0_1_n_n none (Z (Proc.devRef .tc main_v353) : (⟨S512x128, .f32⟩ : BufTy).Contents (Elt F)) (Z (Proc.devRef .tc main_v355) : (⟨S128x10, .f32⟩ : BufTy).Contents (Elt F)) : (⟨S512x10, .f32⟩ : BufTy).Contents (Elt F))) (fun Z => rfl) V

theorem eq_main_v357 (V : Valuation τ sig (Elt F)) :
    A V main_v357 = (((extractStridedSlice S1x10 ![4, 0] · slices_S5x10_S1x10_4_0) : (⟨S5x10, .f32⟩ : BufTy).Contents (Elt F) → (⟨S1x10, .f32⟩ : BufTy).Contents (Elt F)) (A V main_arg12 : (⟨S5x10, .f32⟩ : BufTy).Contents (Elt F)) : (⟨S1x10, .f32⟩ : BufTy).Contents (Elt F)) :=
  pc6.unary (k := 46) (y := main_v357) rfl (by decide)
    (fun Z => (((extractStridedSlice S1x10 ![4, 0] · slices_S5x10_S1x10_4_0) : (⟨S5x10, .f32⟩ : BufTy).Contents (Elt F) → (⟨S1x10, .f32⟩ : BufTy).Contents (Elt F)) (Z (Proc.devRef .tc main_arg12) : (⟨S5x10, .f32⟩ : BufTy).Contents (Elt F)) : (⟨S1x10, .f32⟩ : BufTy).Contents (Elt F))) (fun Z => rfl) V

theorem eq_main_v358 (V : Valuation τ sig (Elt F)) :
    A V main_v358 = (shapeCast S10 (A V main_v357 : (⟨S1x10, .f32⟩ : BufTy).Contents (Elt F)) shapeCasts_S1x10_S10 : (⟨S10, .f32⟩ : BufTy).Contents (Elt F)) :=
  pc6.reshape (k := 47) (y := main_v358) rfl (by decide)
    (fun Z => (shapeCast S10 (Z (Proc.devRef .tc main_v357) : (⟨S1x10, .f32⟩ : BufTy).Contents (Elt F)) shapeCasts_S1x10_S10 : (⟨S10, .f32⟩ : BufTy).Contents (Elt F))) (fun Z => rfl) V

theorem eq_main_v359 (V : Valuation τ sig (Elt F)) :
    A V main_v359 = ((broadcastInDim S1x10 ![1] bcast_S10_S1x10_1 : (⟨S10, .f32⟩ : BufTy).Contents (Elt F) → (⟨S1x10, .f32⟩ : BufTy).Contents (Elt F)) (A V main_v358 : (⟨S10, .f32⟩ : BufTy).Contents (Elt F)) : (⟨S1x10, .f32⟩ : BufTy).Contents (Elt F)) :=
  pc6.unary (k := 48) (y := main_v359) rfl (by decide)
    (fun Z => ((broadcastInDim S1x10 ![1] bcast_S10_S1x10_1 : (⟨S10, .f32⟩ : BufTy).Contents (Elt F) → (⟨S1x10, .f32⟩ : BufTy).Contents (Elt F)) (Z (Proc.devRef .tc main_v358) : (⟨S10, .f32⟩ : BufTy).Contents (Elt F)) : (⟨S1x10, .f32⟩ : BufTy).Contents (Elt F))) (fun Z => rfl) V

theorem eq_main_v360 (V : Valuation τ sig (Elt F)) :
    A V main_v360 = ((broadcastInDim S512x10 ![0, 1] bcast_S1x10_S512x10_0_1 : (⟨S1x10, .f32⟩ : BufTy).Contents (Elt F) → (⟨S512x10, .f32⟩ : BufTy).Contents (Elt F)) (A V main_v359 : (⟨S1x10, .f32⟩ : BufTy).Contents (Elt F)) : (⟨S512x10, .f32⟩ : BufTy).Contents (Elt F)) :=
  pc6.unary (k := 49) (y := main_v360) rfl (by decide)
    (fun Z => ((broadcastInDim S512x10 ![0, 1] bcast_S1x10_S512x10_0_1 : (⟨S1x10, .f32⟩ : BufTy).Contents (Elt F) → (⟨S512x10, .f32⟩ : BufTy).Contents (Elt F)) (Z (Proc.devRef .tc main_v359) : (⟨S1x10, .f32⟩ : BufTy).Contents (Elt F)) : (⟨S512x10, .f32⟩ : BufTy).Contents (Elt F))) (fun Z => rfl) V

theorem eq_main_v361 (V : Valuation τ sig (Elt F)) :
    A V main_v361 = ((addf : (⟨S512x10, .f32⟩ : BufTy).Contents (Elt F) → (⟨S512x10, .f32⟩ : BufTy).Contents (Elt F) → (⟨S512x10, .f32⟩ : BufTy).Contents (Elt F)) (A V main_v356 : (⟨S512x10, .f32⟩ : BufTy).Contents (Elt F)) (A V main_v360 : (⟨S512x10, .f32⟩ : BufTy).Contents (Elt F)) : (⟨S512x10, .f32⟩ : BufTy).Contents (Elt F)) :=
  pc6.binary (k := 50) (y := main_v361) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v356) : (⟨S512x10, .f32⟩ : BufTy).Contents (Elt F)) (Z (Proc.devRef .tc main_v360) : (⟨S512x10, .f32⟩ : BufTy).Contents (Elt F)) : (⟨S512x10, .f32⟩ : BufTy).Contents (Elt F))) (fun Z => rfl) V

theorem eq_main_v362 (V : Valuation τ sig (Elt F)) :
    A V main_v362 = ((addf : (⟨S512x10, .f32⟩ : BufTy).Contents (Elt F) → (⟨S512x10, .f32⟩ : BufTy).Contents (Elt F) → (⟨S512x10, .f32⟩ : BufTy).Contents (Elt F)) (A V main_v350 : (⟨S512x10, .f32⟩ : BufTy).Contents (Elt F)) (A V main_v361 : (⟨S512x10, .f32⟩ : BufTy).Contents (Elt F)) : (⟨S512x10, .f32⟩ : BufTy).Contents (Elt F)) :=
  pc6.binary (k := 51) (y := main_v362) rfl (by decide) (by decide)
    (fun Z => ((addf : (⟨S512x10, .f32⟩ : BufTy).Contents (Elt F) → (⟨S512x10, .f32⟩ : BufTy).Contents (Elt F) → (⟨S512x10, .f32⟩ : BufTy).Contents (Elt F)) (Z (Proc.devRef .tc main_v350) : (⟨S512x10, .f32⟩ : BufTy).Contents (Elt F)) (Z (Proc.devRef .tc main_v361) : (⟨S512x10, .f32⟩ : BufTy).Contents (Elt F)) : (⟨S512x10, .f32⟩ : BufTy).Contents (Elt F))) (fun Z => rfl) V

theorem eq_main_call16_cst (V : Valuation τ sig (Elt F)) :
    A V main_call16_cst = ((constant S_ .f32 0xFF800000#32) : (⟨S_, .f32⟩ : BufTy).Contents (Elt F)) :=
  pc6.nullary (k := 52) (y := main_call16_cst) rfl V

theorem eq_main_call16_v0 (V : Valuation τ sig (Elt F)) :
    A V main_call16_v0 = (Host.reduce FloatOps.maximumf (A V main_v362 : (⟨S512x10, .f32⟩ : BufTy).Contents (Elt F)) (A V main_call16_cst : (⟨S_, .f32⟩ : BufTy).Contents (Elt F)) reducesTo_S512x10_S512_d1 h_S_ : (⟨S512, .f32⟩ : BufTy).Contents (Elt F)) :=
  pc6.binary (k := 53) (y := main_call16_v0) rfl (by decide) (by decide)
    (fun Z => (Host.reduce FloatOps.maximumf (Z (Proc.devRef .tc main_v362) : (⟨S512x10, .f32⟩ : BufTy).Contents (Elt F)) (Z (Proc.devRef .tc main_call16_cst) : (⟨S_, .f32⟩ : BufTy).Contents (Elt F)) reducesTo_S512x10_S512_d1 h_S_ : (⟨S512, .f32⟩ : BufTy).Contents (Elt F))) (fun Z => rfl) V

theorem eq_main_call16_cst_0 (V : Valuation τ sig (Elt F)) :
    A V main_call16_cst_0 = ((constant S_ .f32 0xFF800000#32) : (⟨S_, .f32⟩ : BufTy).Contents (Elt F)) :=
  pc6.nullary (k := 54) (y := main_call16_cst_0) rfl V

theorem eq_main_call16_v1 (V : Valuation τ sig (Elt F)) :
    A V main_call16_v1 = (((broadcastInDim S512 ![] bcast_S_S512) : (⟨S_, .f32⟩ : BufTy).Contents (Elt F) → (⟨S512, .f32⟩ : BufTy).Contents (Elt F)) (A V main_call16_cst_0 : (⟨S_, .f32⟩ : BufTy).Contents (Elt F)) : (⟨S512, .f32⟩ : BufTy).Contents (Elt F)) :=
  pc6.unary (k := 55) (y := main_call16_v1) rfl (by decide)
    (fun Z => (((broadcastInDim S512 ![] bcast_S_S512) : (⟨S_, .f32⟩ : BufTy).Contents (Elt F) → (⟨S512, .f32⟩ : BufTy).Contents (Elt F)) (Z (Proc.devRef .tc main_call16_cst_0) : (⟨S_, .f32⟩ : BufTy).Contents (Elt F)) : (⟨S512, .f32⟩ : BufTy).Contents (Elt F))) (fun Z => rfl) V

theorem eq_main_call16_v2 (V : Valuation τ sig (Elt F)) :
    A V main_call16_v2 = ((maximumf : (⟨S512, .f32⟩ : BufTy).Contents (Elt F) → (⟨S512, .f32⟩ : BufTy).Contents (Elt F) → (⟨S512, .f32⟩ : BufTy).Contents (Elt F)) (A V main_call16_v1 : (⟨S512, .f32⟩ : BufTy).Contents (Elt F)) (A V main_call16_v0 : (⟨S512, .f32⟩ : BufTy).Contents (Elt F)) : (⟨S512, .f32⟩ : BufTy).Contents (Elt F)) :=
  pc6.binary (k := 56) (y := main_call16_v2) rfl (by decide) (by decide)
    (fun Z => ((maximumf : (⟨S512, .f32⟩ : BufTy).Contents (Elt F) → (⟨S512, .f32⟩ : BufTy).Contents (Elt F) → (⟨S512, .f32⟩ : BufTy).Contents (Elt F)) (Z (Proc.devRef .tc main_call16_v1) : (⟨S512, .f32⟩ : BufTy).Contents (Elt F)) (Z (Proc.devRef .tc main_call16_v0) : (⟨S512, .f32⟩ : BufTy).Contents (Elt F)) : (⟨S512, .f32⟩ : BufTy).Contents (Elt F))) (fun Z => rfl) V

theorem eq_main_call16_v3 (V : Valuation τ sig (Elt F)) :
    A V main_call16_v3 = (((broadcastInDim S512x1 ![0] bcast_S512_S512x1_0) : (⟨S512, .f32⟩ : BufTy).Contents (Elt F) → (⟨S512x1, .f32⟩ : BufTy).Contents (Elt F)) (A V main_call16_v2 : (⟨S512, .f32⟩ : BufTy).Contents (Elt F)) : (⟨S512x1, .f32⟩ : BufTy).Contents (Elt F)) :=
  pc6.unary (k := 57) (y := main_call16_v3) rfl (by decide)
    (fun Z => (((broadcastInDim S512x1 ![0] bcast_S512_S512x1_0) : (⟨S512, .f32⟩ : BufTy).Contents (Elt F) → (⟨S512x1, .f32⟩ : BufTy).Contents (Elt F)) (Z (Proc.devRef .tc main_call16_v2) : (⟨S512, .f32⟩ : BufTy).Contents (Elt F)) : (⟨S512x1, .f32⟩ : BufTy).Contents (Elt F))) (fun Z => rfl) V

theorem eq_main_call16_v4 (V : Valuation τ sig (Elt F)) :
    A V main_call16_v4 = (((broadcastInDim S512x10 ![0, 1] bcast_S512x1_S512x10_0_1) : (⟨S512x1, .f32⟩ : BufTy).Contents (Elt F) → (⟨S512x10, .f32⟩ : BufTy).Contents (Elt F)) (A V main_call16_v3 : (⟨S512x1, .f32⟩ : BufTy).Contents (Elt F)) : (⟨S512x10, .f32⟩ : BufTy).Contents (Elt F)) :=
  pc6.unary (k := 58) (y := main_call16_v4) rfl (by decide)
    (fun Z => (((broadcastInDim S512x10 ![0, 1] bcast_S512x1_S512x10_0_1) : (⟨S512x1, .f32⟩ : BufTy).Contents (Elt F) → (⟨S512x10, .f32⟩ : BufTy).Contents (Elt F)) (Z (Proc.devRef .tc main_call16_v3) : (⟨S512x1, .f32⟩ : BufTy).Contents (Elt F)) : (⟨S512x10, .f32⟩ : BufTy).Contents (Elt F))) (fun Z => rfl) V

theorem eq_main_call16_v5 (V : Valuation τ sig (Elt F)) :
    A V main_call16_v5 = ((subf : (⟨S512x10, .f32⟩ : BufTy).Contents (Elt F) → (⟨S512x10, .f32⟩ : BufTy).Contents (Elt F) → (⟨S512x10, .f32⟩ : BufTy).Contents (Elt F)) (A V main_v362 : (⟨S512x10, .f32⟩ : BufTy).Contents (Elt F)) (A V main_call16_v4 : (⟨S512x10, .f32⟩ : BufTy).Contents (Elt F)) : (⟨S512x10, .f32⟩ : BufTy).Contents (Elt F)) :=
  pc6.binary (k := 59) (y := main_call16_v5) rfl (by decide) (by decide)
    (fun Z => ((subf : (⟨S512x10, .f32⟩ : BufTy).Contents (Elt F) → (⟨S512x10, .f32⟩ : BufTy).Contents (Elt F) → (⟨S512x10, .f32⟩ : BufTy).Contents (Elt F)) (Z (Proc.devRef .tc main_v362) : (⟨S512x10, .f32⟩ : BufTy).Contents (Elt F)) (Z (Proc.devRef .tc main_call16_v4) : (⟨S512x10, .f32⟩ : BufTy).Contents (Elt F)) : (⟨S512x10, .f32⟩ : BufTy).Contents (Elt F))) (fun Z => rfl) V

theorem eq_main_call16_v6 (V : Valuation τ sig (Elt F)) :
    A V main_call16_v6 = ((Host.exp : (⟨S512x10, .f32⟩ : BufTy).Contents (Elt F) → (⟨S512x10, .f32⟩ : BufTy).Contents (Elt F)) (A V main_call16_v5 : (⟨S512x10, .f32⟩ : BufTy).Contents (Elt F)) : (⟨S512x10, .f32⟩ : BufTy).Contents (Elt F)) :=
  pc6.unary (k := 60) (y := main_call16_v6) rfl (by decide)
    (fun Z => ((Host.exp : (⟨S512x10, .f32⟩ : BufTy).Contents (Elt F) → (⟨S512x10, .f32⟩ : BufTy).Contents (Elt F)) (Z (Proc.devRef .tc main_call16_v5) : (⟨S512x10, .f32⟩ : BufTy).Contents (Elt F)) : (⟨S512x10, .f32⟩ : BufTy).Contents (Elt F))) (fun Z => rfl) V

theorem eq_main_call16_cst_1 (V : Valuation τ sig (Elt F)) :
    A V main_call16_cst_1 = ((constant S_ .f32 0x00000000#32) : (⟨S_, .f32⟩ : BufTy).Contents (Elt F)) :=
  pc6.nullary (k := 61) (y := main_call16_cst_1) rfl V

theorem eq_main_call16_v7 (V : Valuation τ sig (Elt F)) :
    A V main_call16_v7 = (Host.reduceAdd (A V main_call16_v6 : (⟨S512x10, .f32⟩ : BufTy).Contents (Elt F)) (A V main_call16_cst_1 : (⟨S_, .f32⟩ : BufTy).Contents (Elt F)) reducesTo_S512x10_S512_d1 h_S_ : (⟨S512, .f32⟩ : BufTy).Contents (Elt F)) :=
  pc6.binary (k := 62) (y := main_call16_v7) rfl (by decide) (by decide)
    (fun Z => (Host.reduceAdd (Z (Proc.devRef .tc main_call16_v6) : (⟨S512x10, .f32⟩ : BufTy).Contents (Elt F)) (Z (Proc.devRef .tc main_call16_cst_1) : (⟨S_, .f32⟩ : BufTy).Contents (Elt F)) reducesTo_S512x10_S512_d1 h_S_ : (⟨S512, .f32⟩ : BufTy).Contents (Elt F))) (fun Z => rfl) V

theorem eq_main_call16_v8 (V : Valuation τ sig (Elt F)) :
    A V main_call16_v8 = (((broadcastInDim S512x1 ![0] bcast_S512_S512x1_0) : (⟨S512, .f32⟩ : BufTy).Contents (Elt F) → (⟨S512x1, .f32⟩ : BufTy).Contents (Elt F)) (A V main_call16_v7 : (⟨S512, .f32⟩ : BufTy).Contents (Elt F)) : (⟨S512x1, .f32⟩ : BufTy).Contents (Elt F)) :=
  pc6.unary (k := 63) (y := main_call16_v8) rfl (by decide)
    (fun Z => (((broadcastInDim S512x1 ![0] bcast_S512_S512x1_0) : (⟨S512, .f32⟩ : BufTy).Contents (Elt F) → (⟨S512x1, .f32⟩ : BufTy).Contents (Elt F)) (Z (Proc.devRef .tc main_call16_v7) : (⟨S512, .f32⟩ : BufTy).Contents (Elt F)) : (⟨S512x1, .f32⟩ : BufTy).Contents (Elt F))) (fun Z => rfl) V

theorem eq_main_call16_v9 (V : Valuation τ sig (Elt F)) :
    A V main_call16_v9 = ((Host.log : (⟨S512x1, .f32⟩ : BufTy).Contents (Elt F) → (⟨S512x1, .f32⟩ : BufTy).Contents (Elt F)) (A V main_call16_v8 : (⟨S512x1, .f32⟩ : BufTy).Contents (Elt F)) : (⟨S512x1, .f32⟩ : BufTy).Contents (Elt F)) :=
  pc6.unary (k := 64) (y := main_call16_v9) rfl (by decide)
    (fun Z => ((Host.log : (⟨S512x1, .f32⟩ : BufTy).Contents (Elt F) → (⟨S512x1, .f32⟩ : BufTy).Contents (Elt F)) (Z (Proc.devRef .tc main_call16_v8) : (⟨S512x1, .f32⟩ : BufTy).Contents (Elt F)) : (⟨S512x1, .f32⟩ : BufTy).Contents (Elt F))) (fun Z => rfl) V

theorem eq_main_call16_v10 (V : Valuation τ sig (Elt F)) :
    A V main_call16_v10 = (((broadcastInDim S512x10 ![0, 1] bcast_S512x1_S512x10_0_1) : (⟨S512x1, .f32⟩ : BufTy).Contents (Elt F) → (⟨S512x10, .f32⟩ : BufTy).Contents (Elt F)) (A V main_call16_v9 : (⟨S512x1, .f32⟩ : BufTy).Contents (Elt F)) : (⟨S512x10, .f32⟩ : BufTy).Contents (Elt F)) :=
  pc6.unary (k := 65) (y := main_call16_v10) rfl (by decide)
    (fun Z => (((broadcastInDim S512x10 ![0, 1] bcast_S512x1_S512x10_0_1) : (⟨S512x1, .f32⟩ : BufTy).Contents (Elt F) → (⟨S512x10, .f32⟩ : BufTy).Contents (Elt F)) (Z (Proc.devRef .tc main_call16_v9) : (⟨S512x1, .f32⟩ : BufTy).Contents (Elt F)) : (⟨S512x10, .f32⟩ : BufTy).Contents (Elt F))) (fun Z => rfl) V

theorem eq_main_v363 (V : Valuation τ sig (Elt F)) :
    A V main_v363 = ((subf : (⟨S512x10, .f32⟩ : BufTy).Contents (Elt F) → (⟨S512x10, .f32⟩ : BufTy).Contents (Elt F) → (⟨S512x10, .f32⟩ : BufTy).Contents (Elt F)) (A V main_call16_v5 : (⟨S512x10, .f32⟩ : BufTy).Contents (Elt F)) (A V main_call16_v10 : (⟨S512x10, .f32⟩ : BufTy).Contents (Elt F)) : (⟨S512x10, .f32⟩ : BufTy).Contents (Elt F)) :=
  pc6.binary (k := 66) (y := main_v363) rfl (by decide) (by decide)
    (fun Z => ((subf : (⟨S512x10, .f32⟩ : BufTy).Contents (Elt F) → (⟨S512x10, .f32⟩ : BufTy).Contents (Elt F) → (⟨S512x10, .f32⟩ : BufTy).Contents (Elt F)) (Z (Proc.devRef .tc main_call16_v5) : (⟨S512x10, .f32⟩ : BufTy).Contents (Elt F)) (Z (Proc.devRef .tc main_call16_v10) : (⟨S512x10, .f32⟩ : BufTy).Contents (Elt F)) : (⟨S512x10, .f32⟩ : BufTy).Contents (Elt F))) (fun Z => rfl) V

end Cert.ReferenceIdeal.HandRun

end
-- ==== Proof.RTerms.lean ====
/-
  The reference program's composite array functions, and what they are at an index.

  `linT x w b` is the product of the rows of `x` with the matrix `w` plus the bias `b` on every row; `meanT z` and `varT z`
  are the column means and the column variances of `z` as the reference computes them (sums from a zero initial
  value; the variance as the mean of the squared deviations, its guard for an empty normalizer resolved: the
  normalizer is 100000 - 0); `normT z μ v g c` normalizes by `μ` and `v`, scales by `g`, shifts by `c` and rectifies;
  `layerT` composes them into one layer.  Read at an index each is the corresponding index-level function.
-/
import proofs.«120577_j28003186770423_1_alg».proof.Proof.RDefs
import proofs.«120577_j28003186770423_1_alg».proof.Proof.LibPlainDot
import proofs.«120577_j28003186770423_1_alg».proof.Proof.GinMath
import Idealize.ShloMosaic.Lib.Pipeline.Value
import Idealize.ShloMosaic.Lib.ValueIdx
import Idealize.ShloMosaic.PureOps.Ideal.Laws

noncomputable section

namespace Cert.ReferenceIdeal.R

open Idealize.ShloMosaic Idealize.ShloMosaic.ValueIdx Cert.ReferenceIdeal Cert.ReferenceIdeal.Gen Cert.Lib Cert.Gin

/-- A vector of length 128 repeated down the 100000 rows. -/
def rows (b : FVec Ideal S128 .f32) : FVec Ideal S100000x128 .f32 :=
  broadcastInDim S100000x128 ![0, 1] bcast_S1x128_S100000x128_0_1 (broadcastInDim S1x128 ![1] bcast_S128_S1x128_1 b)

/-- The linear map with bias. -/
def linT (x : FVec Ideal S100000x128 .f32) (w : FVec Ideal S128x128 .f32) (b : FVec Ideal S128 .f32) : FVec Ideal S100000x128 .f32 :=
  addf (F := Ideal) (Host.dotGeneral (F := Ideal) dot_S100000x128_S128x128_S100000x128_1_0_0_1_n_n none x w) (rows b)

/-- The column sums, from a zero initial value. -/
def colsumT (z : FVec Ideal S100000x128 .f32) : FVec Ideal S128 .f32 :=
  Host.reduceAdd (F := Ideal) z (constant (F := Ideal) S_ .f32 0x00000000#32) reducesTo_S100000x128_S128_d0 h_S_

/-- The column means. -/
def meanT (z : FVec Ideal S100000x128 .f32) : FVec Ideal S128 .f32 :=
  Host.divf (F := Ideal) (colsumT z) (broadcastInDim S128 ![] bcast_S_S128 (constant (F := Ideal) S_ .f32 0x47C35000#32))

/-- The normalizer of the variance: the number of rows less the zero correction. -/
def normalizerT : FVec Ideal S_ .f32 :=
  subf (F := Ideal) (constant (F := Ideal) S_ .f32 0x47C35000#32) (sitofp .f32 (constantI S_ 32 0#32))

/-- The squared deviations from the column means. -/
def devsqT (z : FVec Ideal S100000x128 .f32) : FVec Ideal S100000x128 .f32 :=
  mulf (F := Ideal)
    (subf (F := Ideal) z (broadcastInDim S100000x128 ![0, 1] bcast_S1x128_S100000x128_0_1
      (Host.divf (F := Ideal) (broadcastInDim S1x128 ![1] bcast_S128_S1x128_1 (colsumT z)) (broadcastInDim S1x128 ![] bcast_S_S1x128 (constant (F := Ideal) S_ .f32 0x47C35000#32)))))
    (subf (F := Ideal) z (broadcastInDim S100000x128 ![0, 1] bcast_S1x128_S100000x128_0_1
      (Host.divf (F := Ideal) (broadcastInDim S1x128 ![1] bcast_S128_S1x128_1 (colsumT z)) (broadcastInDim S1x128 ![] bcast_S_S1x128 (constant (F := Ideal) S_ .f32 0x47C35000#32)))))

/-- The column variances, with the guard against an empty normalizer as printed. -/
def varT (z : FVec Ideal S100000x128 .f32) : FVec Ideal S128 .f32 :=
  select (broadcastInDim S128 ![] bcast_S_S128 (cmpf (F := Ideal) .ogt normalizerT (constant (F := Ideal) S_ .f32 0x00000000#32)))
    (Host.divf (F := Ideal) (colsumT (devsqT z)) (broadcastInDim S128 ![] bcast_S_S128 normalizerT))
    (broadcastInDim S128 ![] bcast_S_S128 (id (constant (F := Ideal) S_ .f32 0x7FC00000#32)))

/-- Normalize, scale, shift, rectify. -/
def normT (z : FVec Ideal S100000x128 .f32) (μ v g c : FVec Ideal S128 .f32) : FVec Ideal S100000x128 .f32 :=
  maximumf (F := Ideal)
    (addf (F := Ideal)
      (mulf (F := Ideal)
        (mulf (F := Ideal) (subf (F := Ideal) z (rows μ))
          (rows (Host.rsqrt (F := Ideal) (addf (F := Ideal) v (broadcastInDim S128 ![] bcast_S_S128 (constant (F := Ideal) S_ .f32 0x3727C5AC#32))))))
        (rows g))
      (rows c))
    (broadcastInDim S100000x128 ![] bcast_S_S100000x128 (constant (F := Ideal) S_ .f32 0x00000000#32))

/-- One layer, from its input with the neighbourhood sums already added. -/
def layerT (x : FVec Ideal S100000x128 .f32) (w1 : FVec Ideal S128x128 .f32) (b1 g1 c1 : FVec Ideal S128 .f32)
    (w2 : FVec Ideal S128x128 .f32) (b2 g2 c2 : FVec Ideal S128 .f32) : FVec Ideal S100000x128 .f32 :=
  normT (linT (normT (linT x w1 b1) (meanT (linT x w1 b1)) (varT (linT x w1 b1)) g1 c1) w2 b2)
    (meanT (linT (normT (linT x w1 b1) (meanT (linT x w1 b1)) (varT (linT x w1 b1)) g1 c1) w2 b2))
    (varT (linT (normT (linT x w1 b1) (meanT (linT x w1 b1)) (varT (linT x w1 b1)) g1 c1) w2 b2)) g2 c2

/-! ## At an index -/

/-- A row-repeated vector at `(r, j)` is the vector at `j`. -/
theorem rows_apply (b : FVec Ideal S128 .f32) (r : Fin 100000) (j : Fin 128) : rows b (ix2 r j) = b (ix1 j) := by
  unfold rows
  rw [broadcastInDim_apply (s := S1x128) (t := S100000x128) _ _ _ (ix2 r j) (ix2 0 j) (fun a => by
    match a with
    | ⟨0, _⟩ => rfl
    | ⟨1, _⟩ => rfl)]
  exact broadcastInDim_apply (s := S128) (t := S1x128) _ _ _ (ix2 0 j) (ix1 j) (fun a => by
    match a with
    | ⟨0, _⟩ => rfl)

theorem linT_apply (x : FVec Ideal S100000x128 .f32) (w : FVec Ideal S128x128 .f32) (b : FVec Ideal S128 .f32) :
    cur2 (a := 100000) (b := 128) (linT x w b) = lin (cur2 x) (cur2 w) (cur1 b) := by
  funext r j
  unfold cur2 linT lin cur1
  rw [addf_apply, rows_apply, Cert.PlainDot.dotGeneral_apply _ ⟨rfl, rfl, rfl, rfl, rfl, rfl⟩]

/-- A broadcast scalar at any index is the scalar. -/
theorem bcast0_apply {α : Type} {t : Shape} (dims : Fin S_.rank → Fin t.rank) (h : S_.BroadcastsInDim t dims) (x : S_.Idx → α) (i : t.Idx) :
    broadcastInDim t dims h x i = x ix0 :=
  broadcastInDim_apply dims h x i ix0 (fun a => a.elim0)

/-- A column sum at column `j`: the zero word plus the sum of the column's entries. -/
theorem colsumT_apply (z : FVec Ideal S100000x128 .f32) (j : Fin 128) :
    colsumT z (ix1 j) = Ideal.ofBits .f32 0x00000000#32 + ∑ r : Fin 100000, z (ix2 r j) := by
  unfold colsumT Host.reduceAdd
  show Ideal.hostReduceAdd _ z _ (ix1 j) = _
  rw [Ideal.hostReduceAdd_single reducesTo_S100000x128_S128_d0 (by decide : S100000x128.Reduces [0] S128) z _ (ix1 j)]
  exact congrArg₂ (· + ·) rfl (Finset.sum_congr rfl fun k _ => congrArg z (funext fun c => Fin.ext (by
    match c with
    | ⟨0, _⟩ => rfl
    | ⟨1, _⟩ => rfl)))

theorem meanT_apply (z : FVec Ideal S100000x128 .f32) : cur1 (a := 128) (meanT z) = meanR (cur2 z) := by
  funext j
  unfold cur1 meanT meanR cur2
  show Ideal.div (colsumT z (ix1 j)) (broadcastInDim S128 ![] bcast_S_S128 (constant (F := Ideal) S_ .f32 0x47C35000#32) (ix1 j)) = _
  rw [colsumT_apply, bcast0_apply]
  rfl

/-- The normalizer is the real number 100000. -/
theorem normalizerT_eq : normalizerT ix0 = ((100000 : ℝ) : EReal) := by
  have h0 : (((0#32 : BitVec 32).toInt : ℝ) : EReal) = 0 := by
    have : (0#32 : BitVec 32).toInt = 0 := by decide
    rw [this]; norm_num
  show Ideal.ofBits .f32 0x47C35000#32 - (((0#32 : BitVec 32).toInt : ℝ) : EReal) = _
  rw [h0, ofBits_n, sub_zero]

/-- A squared deviation from the column mean. -/
theorem devsqT_apply (z : FVec Ideal S100000x128 .f32) (r : Fin 100000) (j : Fin 128) :
    devsqT z (ix2 r j)
      = (z (ix2 r j) - Ideal.div (Ideal.ofBits .f32 0x00000000#32 + ∑ r' : Fin 100000, z (ix2 r' j)) (Ideal.ofBits .f32 0x47C35000#32))
        * (z (ix2 r j) - Ideal.div (Ideal.ofBits .f32 0x00000000#32 + ∑ r' : Fin 100000, z (ix2 r' j)) (Ideal.ofBits .f32 0x47C35000#32)) := by
  have hm : (broadcastInDim S100000x128 ![0, 1] bcast_S1x128_S100000x128_0_1
      (Host.divf (F := Ideal) (broadcastInDim S1x128 ![1] bcast_S128_S1x128_1 (colsumT z)) (broadcastInDim S1x128 ![] bcast_S_S1x128 (constant (F := Ideal) S_ .f32 0x47C35000#32)))) (ix2 r j)
      = Ideal.div (Ideal.ofBits .f32 0x00000000#32 + ∑ r' : Fin 100000, z (ix2 r' j)) (Ideal.ofBits .f32 0x47C35000#32) := by
    rw [broadcastInDim_apply (s := S1x128) (t := S100000x128) _ _ _ (ix2 r j) (ix2 0 j) (fun a => by
      match a with
      | ⟨0, _⟩ => rfl
      | ⟨1, _⟩ => rfl)]
    show Ideal.div (broadcastInDim S1x128 ![1] bcast_S128_S1x128_1 (colsumT z) (ix2 0 j)) (broadcastInDim S1x128 ![] bcast_S_S1x128 (constant (F := Ideal) S_ .f32 0x47C35000#32) (ix2 0 j)) = _
    rw [broadcastInDim_apply (s := S128) (t := S1x128) _ _ _ (ix2 0 j) (ix1 j) (fun a => by
      match a with
      | ⟨0, _⟩ => rfl), bcast0_apply, colsumT_apply]
    rfl
  unfold devsqT
  rw [mulf_apply, subf_apply, hm]

theorem varT_apply (z : FVec Ideal S100000x128 .f32) : cur1 (a := 128) (varT z) = varR (cur2 z) := by
  funext j
  unfold cur1 varT
  rw [select_apply, bcast0_apply, cmpf_apply]
  have hm : FloatOps.cmpf (F := Ideal) .ogt (normalizerT ix0) (constant (F := Ideal) S_ .f32 0x00000000#32 ix0) = 1#1 := by
    rw [normalizerT_eq]
    show Ideal.cmp .ogt ((100000 : ℝ) : EReal) (Ideal.ofBits .f32 0x00000000#32) = 1#1
    rw [Ideal.ofBits_zero_f32]
    have : (0 : EReal) < ((100000 : ℝ) : EReal) := by exact_mod_cast (by norm_num : (0 : ℝ) < 100000)
    simp [Ideal.cmp, this]
  rw [hm, select_one]
  show Ideal.div (colsumT (devsqT z) (ix1 j)) (broadcastInDim S128 ![] bcast_S_S128 normalizerT (ix1 j)) = _
  rw [colsumT_apply, bcast0_apply, normalizerT_eq, ← ofBits_n]
  unfold varR meanR cur2
  exact congrArg (fun s => Ideal.div (Ideal.ofBits .f32 0x00000000#32 + s) (Ideal.ofBits .f32 0x47C35000#32))
    (Finset.sum_congr rfl fun r _ => devsqT_apply z r j)

theorem normT_apply (z : FVec Ideal S100000x128 .f32) (μ v g c : FVec Ideal S128 .f32) :
    cur2 (a := 100000) (b := 128) (normT z μ v g c) = Cert.Gin.norm (cur2 z) (cur1 μ) (cur1 v) (cur1 g) (cur1 c) := by
  funext r j
  unfold cur2 normT Cert.Gin.norm cur1
  rw [maximumf_apply, addf_apply, mulf_apply, mulf_apply, subf_apply, rows_apply, rows_apply, rows_apply, rows_apply, bcast0_apply]
  rfl

/-- The composed layer at an index is the layer function of its ingredients at their indices. -/
theorem layerT_apply (x : FVec Ideal S100000x128 .f32) (w1 : FVec Ideal S128x128 .f32) (b1 g1 c1 : FVec Ideal S128 .f32)
    (w2 : FVec Ideal S128x128 .f32) (b2 g2 c2 : FVec Ideal S128 .f32) :
    cur2 (a := 100000) (b := 128) (layerT x w1 b1 g1 c1 w2 b2 g2 c2)
      = layerR (cur2 x) (cur2 w1) (cur1 b1) (cur1 g1) (cur1 c1) (cur2 w2) (cur1 b2) (cur1 g2) (cur1 c2) := by
  unfold layerT layerR
  simp only [normT_apply, linT_apply, meanT_apply, varT_apply]

end Cert.ReferenceIdeal.R

end
-- ==== Proof.RefRead0.lean ====
/- Layer 0 of the reference, read at the end of the line: the layer's output array is the composed layer function of the
   layer's input with its neighbourhood sums added and of the layer's eight parameter arrays, themselves slices of the
   arguments. Step by step (the edge rows, the neighbourhood sums, each parameter, the first linear map, its column means
   and variances, the normalized and rectified array, the second linear map, its statistics, the output), each step by the
   equations of the operations between its result and its inputs, latest operation first; then the steps composed. -/
import proofs.«120577_j28003186770423_1_alg».proof.Proof.RefEqs
import proofs.«120577_j28003186770423_1_alg».proof.Proof.RTerms

noncomputable section

namespace Cert.ReferenceIdeal.Read0

open Cert.ReferenceIdeal Cert.ReferenceIdeal.Gen Cert.ReferenceIdeal.HandRun Idealize.ShloMosaic Idealize.ShloMosaic.TcCoe Idealize.ShloMosaic.StableHlo

-- no step looks inside the fold over the whole line
attribute [local irreducible] Idealize.ShloMosaic.StableHlo.after

variable (V : Valuation τ sig (Elt Ideal))

/-- The sources of the edges. -/
theorem src_eq : (A V main_v1 : IVec S600000 32) = R.srcOf (V (Proc.devRef .tc main_arg1)) := by
  rw [eq_main_v1 V, eq_main_v0 V, A_arg1 V]
  all_goals rfl

/-- The targets of the edges. -/
theorem dst_eq : (A V main_v3 : IVec S600000 32) = R.dstOf (V (Proc.devRef .tc main_arg1)) := by
  rw [eq_main_v3 V, eq_main_v2 V, A_arg1 V]
  all_goals rfl

/-- The neighbourhood sums of the layer's input. -/
theorem agg_eq : (A V main_v13 : FVec Ideal S100000x128 .f32) = R.aggOf (A V main_arg0) (A V main_v1) (A V main_v3) := by
  rw [eq_main_v13 V, eq_main_v12 V, eq_main_v11 V, eq_main_cst V, eq_main_v10 V, eq_main_v9 V,
    eq_main_v8 V, eq_main_v7 V, eq_main_v6 V, eq_main_c_0 V, eq_main_v5 V, eq_main_v4 V,
    eq_main_c V]
  all_goals rfl

/-- The layer's slice of argument 3. -/
theorem w1_eq : (A V main_v16 : FVec Ideal S128x128 .f32) = R.mat 0 (V (Proc.devRef .tc main_arg3)) slices_S4x128x128_S1x128x128_0_0_0 := by
  rw [eq_main_v16 V, eq_main_v15 V, A_arg3 V]
  all_goals rfl

/-- The layer's slice of argument 4. -/
theorem b1_eq : (A V main_v19 : FVec Ideal S128 .f32) = R.vec 0 (V (Proc.devRef .tc main_arg4)) slices_S4x128_S1x128_0_0 := by
  rw [eq_main_v19 V, eq_main_v18 V, A_arg4 V]
  all_goals rfl

/-- The layer's slice of argument 5. -/
theorem g1_eq : (A V main_v24 : FVec Ideal S128 .f32) = R.vec 0 (V (Proc.devRef .tc main_arg5)) slices_S4x128_S1x128_0_0 := by
  rw [eq_main_v24 V, eq_main_v23 V, A_arg5 V]
  all_goals rfl

/-- The layer's slice of argument 6. -/
theorem c1_eq : (A V main_v26 : FVec Ideal S128 .f32) = R.vec 0 (V (Proc.devRef .tc main_arg6)) slices_S4x128_S1x128_0_0 := by
  rw [eq_main_v26 V, eq_main_v25 V, A_arg6 V]
  all_goals rfl

/-- The layer's slice of argument 7. -/
theorem w2_eq : (A V main_v48 : FVec Ideal S128x128 .f32) = R.mat 0 (V (Proc.devRef .tc main_arg7)) slices_S4x128x128_S1x128x128_0_0_0 := by
  rw [eq_main_v48 V, eq_main_v47 V, A_arg7 V]
  all_goals rfl

/-- The layer's slice of argument 8. -/
theorem b2_eq : (A V main_v51 : FVec Ideal S128 .f32) = R.vec 0 (V (Proc.devRef .tc main_arg8)) slices_S4x128_S1x128_0_0 := by
  rw [eq_main_v51 V, eq_main_v50 V, A_arg8 V]
  all_goals rfl

/-- The layer's slice of argument 9. -/
theorem g2_eq : (A V main_v56 : FVec Ideal S128 .f32) = R.vec 0 (V (Proc.devRef .tc main_arg9)) slices_S4x128_S1x128_0_0 := by
  rw [eq_main_v56 V, eq_main_v55 V, A_arg9 V]
  all_goals rfl

/-- The layer's slice of argument 10. -/
theorem c2_eq : (A V main_v58 : FVec Ideal S128 .f32) = R.vec 0 (V (Proc.devRef .tc main_arg10)) slices_S4x128_S1x128_0_0 := by
  rw [eq_main_v58 V, eq_main_v57 V, A_arg10 V]
  all_goals rfl

/-- The first linear map, of the input plus its neighbourhood sums. -/
theorem z1_eq : (A V main_v22 : FVec Ideal S100000x128 .f32) = R.linT (addf (F := Ideal) (A V main_arg0) (A V main_v13)) (A V main_v16) (A V main_v19) := by
  rw [eq_main_v22 V, eq_main_v21 V, eq_main_v20 V, eq_main_v17 V, eq_main_v14 V]
  all_goals rfl

/-- Its column means. -/
theorem mean1_eq : (A V main_v29 : FVec Ideal S128 .f32) = R.meanT (A V main_v22) := by
  rw [eq_main_v29 V, eq_main_v28 V, eq_main_cst_2 V, eq_main_v27 V, eq_main_cst_1 V]
  all_goals rfl

/-- Its column variances. -/
theorem var1_eq : (A V main_v30 : FVec Ideal S128 .f32) = R.varT (A V main_v22) := by
  rw [eq_main_v30 V, eq_main_call0_call0_v1 V, eq_main_call0_call0_v0 V, eq_main_call0_cst_4 V, eq_main_call0_v12 V, eq_main_call0_cst_3 V,
    eq_main_call0_v11 V, eq_main_call0_v10 V, eq_main_call0_v9 V, eq_main_call0_cst_2 V, eq_main_call0_v8 V, eq_main_call0_cst_1 V,
    eq_main_call0_v7 V, eq_main_call0_v6 V, eq_main_call0_v5 V, eq_main_call0_v4 V, eq_main_call0_v3 V, eq_main_call0_v2 V,
    eq_main_call0_cst_0 V, eq_main_call0_v1 V, eq_main_call0_v0 V, eq_main_call0_cst V, eq_main_c_3 V]
  all_goals rfl

/-- Normalized, scaled, shifted, rectified. -/
theorem act_eq : (A V main_v46 : FVec Ideal S100000x128 .f32) = R.normT (A V main_v22) (A V main_v29) (A V main_v30) (A V main_v24) (A V main_v26) := by
  rw [eq_main_v46 V, eq_main_call1_v0 V, eq_main_call1_cst V, eq_main_v45 V, eq_main_v44 V, eq_main_v43 V,
    eq_main_v42 V, eq_main_v41 V, eq_main_v40 V, eq_main_v39 V, eq_main_v38 V, eq_main_v37 V,
    eq_main_v36 V, eq_main_v35 V, eq_main_v34 V, eq_main_cst_4 V, eq_main_v33 V, eq_main_v32 V,
    eq_main_v31 V]
  all_goals rfl

/-- The second linear map. -/
theorem z2_eq : (A V main_v54 : FVec Ideal S100000x128 .f32) = R.linT (A V main_v46) (A V main_v48) (A V main_v51) := by
  rw [eq_main_v54 V, eq_main_v53 V, eq_main_v52 V, eq_main_v49 V]
  all_goals rfl

/-- Its column means. -/
theorem mean2_eq : (A V main_v61 : FVec Ideal S128 .f32) = R.meanT (A V main_v54) := by
  rw [eq_main_v61 V, eq_main_v60 V, eq_main_cst_6 V, eq_main_v59 V, eq_main_cst_5 V]
  all_goals rfl

/-- Its column variances. -/
theorem var2_eq : (A V main_v62 : FVec Ideal S128 .f32) = R.varT (A V main_v54) := by
  rw [eq_main_v62 V, eq_main_call2_call0_v1 V, eq_main_call2_call0_v0 V, eq_main_call2_cst_4 V, eq_main_call2_v12 V, eq_main_call2_cst_3 V,
    eq_main_call2_v11 V, eq_main_call2_v10 V, eq_main_call2_v9 V, eq_main_call2_cst_2 V, eq_main_call2_v8 V, eq_main_call2_cst_1 V,
    eq_main_call2_v7 V, eq_main_call2_v6 V, eq_main_call2_v5 V, eq_main_call2_v4 V, eq_main_call2_v3 V, eq_main_call2_v2 V,
    eq_main_call2_cst_0 V, eq_main_call2_v1 V, eq_main_call2_v0 V, eq_main_call2_cst V, eq_main_c_7 V]
  all_goals rfl

/-- The layer's output. -/
theorem out_eq : (A V main_v78 : FVec Ideal S100000x128 .f32) = R.normT (A V main_v54) (A V main_v61) (A V main_v62) (A V main_v56) (A V main_v58) := by
  rw [eq_main_v78 V, eq_main_call3_v0 V, eq_main_call3_cst V, eq_main_v77 V, eq_main_v76 V, eq_main_v75 V,
    eq_main_v74 V, eq_main_v73 V, eq_main_v72 V, eq_main_v71 V, eq_main_v70 V, eq_main_v69 V,
    eq_main_v68 V, eq_main_v67 V, eq_main_v66 V, eq_main_cst_8 V, eq_main_v65 V, eq_main_v64 V,
    eq_main_v63 V]
  all_goals rfl

/-- The layer's output is the composed layer function of the input with its neighbourhood sums and of the eight parameter slices. -/
theorem layerT_eq : (A V main_v78 : FVec Ideal S100000x128 .f32)
    = R.layerT (addf (F := Ideal) (A V main_arg0) (R.aggOf (A V main_arg0) (R.srcOf (V (Proc.devRef .tc main_arg1))) (R.dstOf (V (Proc.devRef .tc main_arg1)))))
        (R.mat 0 (V (Proc.devRef .tc main_arg3)) slices_S4x128x128_S1x128x128_0_0_0) (R.vec 0 (V (Proc.devRef .tc main_arg4)) slices_S4x128_S1x128_0_0) (R.vec 0 (V (Proc.devRef .tc main_arg5)) slices_S4x128_S1x128_0_0) (R.vec 0 (V (Proc.devRef .tc main_arg6)) slices_S4x128_S1x128_0_0)
        (R.mat 0 (V (Proc.devRef .tc main_arg7)) slices_S4x128x128_S1x128x128_0_0_0) (R.vec 0 (V (Proc.devRef .tc main_arg8)) slices_S4x128_S1x128_0_0) (R.vec 0 (V (Proc.devRef .tc main_arg9)) slices_S4x128_S1x128_0_0) (R.vec 0 (V (Proc.devRef .tc main_arg10)) slices_S4x128_S1x128_0_0) := by
  unfold R.layerT
  rw [out_eq V, mean2_eq V, var2_eq V, z2_eq V, act_eq V, mean1_eq V, var1_eq V, z1_eq V, agg_eq V, src_eq V, dst_eq V,
    w1_eq V, b1_eq V, g1_eq V, c1_eq V, w2_eq V, b2_eq V, g2_eq V, c2_eq V]

end Cert.ReferenceIdeal.Read0

end
-- ==== Proof.RefRead1.lean ====
/- Layer 1 of the reference, read at the end of the line: the layer's output array is the composed layer function of the
   layer's input with its neighbourhood sums added and of the layer's eight parameter arrays, themselves slices of the
   arguments. Step by step (the edge rows, the neighbourhood sums, each parameter, the first linear map, its column means
   and variances, the normalized and rectified array, the second linear map, its statistics, the output), each step by the
   equations of the operations between its result and its inputs, latest operation first; then the steps composed. -/
import proofs.«120577_j28003186770423_1_alg».proof.Proof.RefEqs
import proofs.«120577_j28003186770423_1_alg».proof.Proof.RTerms

noncomputable section

namespace Cert.ReferenceIdeal.Read1

open Cert.ReferenceIdeal Cert.ReferenceIdeal.Gen Cert.ReferenceIdeal.HandRun Idealize.ShloMosaic Idealize.ShloMosaic.TcCoe Idealize.ShloMosaic.StableHlo

-- no step looks inside the fold over the whole line
attribute [local irreducible] Idealize.ShloMosaic.StableHlo.after

variable (V : Valuation τ sig (Elt Ideal))

/-- The sources of the edges. -/
theorem src_eq : (A V main_v1 : IVec S600000 32) = R.srcOf (V (Proc.devRef .tc main_arg1)) := by
  rw [eq_main_v1 V, eq_main_v0 V, A_arg1 V]
  all_goals rfl

/-- The targets of the edges. -/
theorem dst_eq : (A V main_v3 : IVec S600000 32) = R.dstOf (V (Proc.devRef .tc main_arg1)) := by
  rw [eq_main_v3 V, eq_main_v2 V, A_arg1 V]
  all_goals rfl

/-- The neighbourhood sums of the layer's input. -/
theorem agg_eq : (A V main_v88 : FVec Ideal S100000x128 .f32) = R.aggOf (A V main_v78) (A V main_v1) (A V main_v3) := by
  rw [eq_main_v88 V, eq_main_v87 V, eq_main_v86 V, eq_main_cst_11 V, eq_main_v85 V, eq_main_v84 V,
    eq_main_v83 V, eq_main_v82 V, eq_main_v81 V, eq_main_c_10 V, eq_main_v80 V, eq_main_v79 V,
    eq_main_c_9 V]
  all_goals rfl

/-- The layer's slice of argument 3. -/
theorem w1_eq : (A V main_v91 : FVec Ideal S128x128 .f32) = R.mat 1 (V (Proc.devRef .tc main_arg3)) slices_S4x128x128_S1x128x128_1_0_0 := by
  rw [eq_main_v91 V, eq_main_v90 V, A_arg3 V]
  all_goals rfl

/-- The layer's slice of argument 4. -/
theorem b1_eq : (A V main_v94 : FVec Ideal S128 .f32) = R.vec 1 (V (Proc.devRef .tc main_arg4)) slices_S4x128_S1x128_1_0 := by
  rw [eq_main_v94 V, eq_main_v93 V, A_arg4 V]
  all_goals rfl

/-- The layer's slice of argument 5. -/
theorem g1_eq : (A V main_v99 : FVec Ideal S128 .f32) = R.vec 1 (V (Proc.devRef .tc main_arg5)) slices_S4x128_S1x128_1_0 := by
  rw [eq_main_v99 V, eq_main_v98 V, A_arg5 V]
  all_goals rfl

/-- The layer's slice of argument 6. -/
theorem c1_eq : (A V main_v101 : FVec Ideal S128 .f32) = R.vec 1 (V (Proc.devRef .tc main_arg6)) slices_S4x128_S1x128_1_0 := by
  rw [eq_main_v101 V, eq_main_v100 V, A_arg6 V]
  all_goals rfl

/-- The layer's slice of argument 7. -/
theorem w2_eq : (A V main_v123 : FVec Ideal S128x128 .f32) = R.mat 1 (V (Proc.devRef .tc main_arg7)) slices_S4x128x128_S1x128x128_1_0_0 := by
  rw [eq_main_v123 V, eq_main_v122 V, A_arg7 V]
  all_goals rfl

/-- The layer's slice of argument 8. -/
theorem b2_eq : (A V main_v126 : FVec Ideal S128 .f32) = R.vec 1 (V (Proc.devRef .tc main_arg8)) slices_S4x128_S1x128_1_0 := by
  rw [eq_main_v126 V, eq_main_v125 V, A_arg8 V]
  all_goals rfl

/-- The layer's slice of argument 9. -/
theorem g2_eq : (A V main_v131 : FVec Ideal S128 .f32) = R.vec 1 (V (Proc.devRef .tc main_arg9)) slices_S4x128_S1x128_1_0 := by
  rw [eq_main_v131 V, eq_main_v130 V, A_arg9 V]
  all_goals rfl

/-- The layer's slice of argument 10. -/
theorem c2_eq : (A V main_v133 : FVec Ideal S128 .f32) = R.vec 1 (V (Proc.devRef .tc main_arg10)) slices_S4x128_S1x128_1_0 := by
  rw [eq_main_v133 V, eq_main_v132 V, A_arg10 V]
  all_goals rfl

/-- The first linear map, of the input plus its neighbourhood sums. -/
theorem z1_eq : (A V main_v97 : FVec Ideal S100000x128 .f32) = R.linT (addf (F := Ideal) (A V main_v78) (A V main_v88)) (A V main_v91) (A V main_v94) := by
  rw [eq_main_v97 V, eq_main_v96 V, eq_main_v95 V, eq_main_v92 V, eq_main_v89 V]
  all_goals rfl

/-- Its column means. -/
theorem mean1_eq : (A V main_v104 : FVec Ideal S128 .f32) = R.meanT (A V main_v97) := by
  rw [eq_main_v104 V, eq_main_v103 V, eq_main_cst_13 V, eq_main_v102 V, eq_main_cst_12 V]
  all_goals rfl

/-- Its column variances. -/
theorem var1_eq : (A V main_v105 : FVec Ideal S128 .f32) = R.varT (A V main_v97) := by
  rw [eq_main_v105 V, eq_main_call4_call0_v1 V, eq_main_call4_call0_v0 V, eq_main_call4_cst_4 V, eq_main_call4_v12 V, eq_main_call4_cst_3 V,
    eq_main_call4_v11 V, eq_main_call4_v10 V, eq_main_call4_v9 V, eq_main_call4_cst_2 V, eq_main_call4_v8 V, eq_main_call4_cst_1 V,
    eq_main_call4_v7 V, eq_main_call4_v6 V, eq_main_call4_v5 V, eq_main_call4_v4 V, eq_main_call4_v3 V, eq_main_call4_v2 V,
    eq_main_call4_cst_0 V, eq_main_call4_v1 V, eq_main_call4_v0 V, eq_main_call4_cst V, eq_main_c_14 V]
  all_goals rfl

/-- Normalized, scaled, shifted, rectified. -/
theorem act_eq : (A V main_v121 : FVec Ideal S100000x128 .f32) = R.normT (A V main_v97) (A V main_v104) (A V main_v105) (A V main_v99) (A V main_v101) := by
  rw [eq_main_v121 V, eq_main_call5_v0 V, eq_main_call5_cst V, eq_main_v120 V, eq_main_v119 V, eq_main_v118 V,
    eq_main_v117 V, eq_main_v116 V, eq_main_v115 V, eq_main_v114 V, eq_main_v113 V, eq_main_v112 V,
    eq_main_v111 V, eq_main_v110 V, eq_main_v109 V, eq_main_cst_15 V, eq_main_v108 V, eq_main_v107 V,
    eq_main_v106 V]
  all_goals rfl

/-- The second linear map. -/
theorem z2_eq : (A V main_v129 : FVec Ideal S100000x128 .f32) = R.linT (A V main_v121) (A V main_v123) (A V main_v126) := by
  rw [eq_main_v129 V, eq_main_v128 V, eq_main_v127 V, eq_main_v124 V]
  all_goals rfl

/-- Its column means. -/
theorem mean2_eq : (A V main_v136 : FVec Ideal S128 .f32) = R.meanT (A V main_v129) := by
  rw [eq_main_v136 V, eq_main_v135 V, eq_main_cst_17 V, eq_main_v134 V, eq_main_cst_16 V]
  all_goals rfl

/-- Its column variances. -/
theorem var2_eq : (A V main_v137 : FVec Ideal S128 .f32) = R.varT (A V main_v129) := by
  rw [eq_main_v137 V, eq_main_call6_call0_v1 V, eq_main_call6_call0_v0 V, eq_main_call6_cst_4 V, eq_main_call6_v12 V, eq_main_call6_cst_3 V,
    eq_main_call6_v11 V, eq_main_call6_v10 V, eq_main_call6_v9 V, eq_main_call6_cst_2 V, eq_main_call6_v8 V, eq_main_call6_cst_1 V,
    eq_main_call6_v7 V, eq_main_call6_v6 V, eq_main_call6_v5 V, eq_main_call6_v4 V, eq_main_call6_v3 V, eq_main_call6_v2 V,
    eq_main_call6_cst_0 V, eq_main_call6_v1 V, eq_main_call6_v0 V, eq_main_call6_cst V, eq_main_c_18 V]
  all_goals rfl

/-- The layer's output. -/
theorem out_eq : (A V main_v153 : FVec Ideal S100000x128 .f32) = R.normT (A V main_v129) (A V main_v136) (A V main_v137) (A V main_v131) (A V main_v133) := by
  rw [eq_main_v153 V, eq_main_call7_v0 V, eq_main_call7_cst V, eq_main_v152 V, eq_main_v151 V, eq_main_v150 V,
    eq_main_v149 V, eq_main_v148 V, eq_main_v147 V, eq_main_v146 V, eq_main_v145 V, eq_main_v144 V,
    eq_main_v143 V, eq_main_v142 V, eq_main_v141 V, eq_main_cst_19 V, eq_main_v140 V, eq_main_v139 V,
    eq_main_v138 V]
  all_goals rfl

/-- The layer's output is the composed layer function of the input with its neighbourhood sums and of the eight parameter slices. -/
theorem layerT_eq : (A V main_v153 : FVec Ideal S100000x128 .f32)
    = R.layerT (addf (F := Ideal) (A V main_v78) (R.aggOf (A V main_v78) (R.srcOf (V (Proc.devRef .tc main_arg1))) (R.dstOf (V (Proc.devRef .tc main_arg1)))))
        (R.mat 1 (V (Proc.devRef .tc main_arg3)) slices_S4x128x128_S1x128x128_1_0_0) (R.vec 1 (V (Proc.devRef .tc main_arg4)) slices_S4x128_S1x128_1_0) (R.vec 1 (V (Proc.devRef .tc main_arg5)) slices_S4x128_S1x128_1_0) (R.vec 1 (V (Proc.devRef .tc main_arg6)) slices_S4x128_S1x128_1_0)
        (R.mat 1 (V (Proc.devRef .tc main_arg7)) slices_S4x128x128_S1x128x128_1_0_0) (R.vec 1 (V (Proc.devRef .tc main_arg8)) slices_S4x128_S1x128_1_0) (R.vec 1 (V (Proc.devRef .tc main_arg9)) slices_S4x128_S1x128_1_0) (R.vec 1 (V (Proc.devRef .tc main_arg10)) slices_S4x128_S1x128_1_0) := by
  unfold R.layerT
  rw [out_eq V, mean2_eq V, var2_eq V, z2_eq V, act_eq V, mean1_eq V, var1_eq V, z1_eq V, agg_eq V, src_eq V, dst_eq V,
    w1_eq V, b1_eq V, g1_eq V, c1_eq V, w2_eq V, b2_eq V, g2_eq V, c2_eq V]

end Cert.ReferenceIdeal.Read1

end
-- ==== Proof.RefRead2.lean ====
/- Layer 2 of the reference, read at the end of the line: the layer's output array is the composed layer function of the
   layer's input with its neighbourhood sums added and of the layer's eight parameter arrays, themselves slices of the
   arguments. Step by step (the edge rows, the neighbourhood sums, each parameter, the first linear map, its column means
   and variances, the normalized and rectified array, the second linear map, its statistics, the output), each step by the
   equations of the operations between its result and its inputs, latest operation first; then the steps composed. -/
import proofs.«120577_j28003186770423_1_alg».proof.Proof.RefEqs
import proofs.«120577_j28003186770423_1_alg».proof.Proof.RTerms

noncomputable section

namespace Cert.ReferenceIdeal.Read2

open Cert.ReferenceIdeal Cert.ReferenceIdeal.Gen Cert.ReferenceIdeal.HandRun Idealize.ShloMosaic Idealize.ShloMosaic.TcCoe Idealize.ShloMosaic.StableHlo

-- no step looks inside the fold over the whole line
attribute [local irreducible] Idealize.ShloMosaic.StableHlo.after

variable (V : Valuation τ sig (Elt Ideal))

/-- The sources of the edges. -/
theorem src_eq : (A V main_v1 : IVec S600000 32) = R.srcOf (V (Proc.devRef .tc main_arg1)) := by
  rw [eq_main_v1 V, eq_main_v0 V, A_arg1 V]
  all_goals rfl

/-- The targets of the edges. -/
theorem dst_eq : (A V main_v3 : IVec S600000 32) = R.dstOf (V (Proc.devRef .tc main_arg1)) := by
  rw [eq_main_v3 V, eq_main_v2 V, A_arg1 V]
  all_goals rfl

/-- The neighbourhood sums of the layer's input. -/
theorem agg_eq : (A V main_v163 : FVec Ideal S100000x128 .f32) = R.aggOf (A V main_v153) (A V main_v1) (A V main_v3) := by
  rw [eq_main_v163 V, eq_main_v162 V, eq_main_v161 V, eq_main_cst_22 V, eq_main_v160 V, eq_main_v159 V,
    eq_main_v158 V, eq_main_v157 V, eq_main_v156 V, eq_main_c_21 V, eq_main_v155 V, eq_main_v154 V,
    eq_main_c_20 V]
  all_goals rfl

/-- The layer's slice of argument 3. -/
theorem w1_eq : (A V main_v166 : FVec Ideal S128x128 .f32) = R.mat 2 (V (Proc.devRef .tc main_arg3)) slices_S4x128x128_S1x128x128_2_0_0 := by
  rw [eq_main_v166 V, eq_main_v165 V, A_arg3 V]
  all_goals rfl

/-- The layer's slice of argument 4. -/
theorem b1_eq : (A V main_v169 : FVec Ideal S128 .f32) = R.vec 2 (V (Proc.devRef .tc main_arg4)) slices_S4x128_S1x128_2_0 := by
  rw [eq_main_v169 V, eq_main_v168 V, A_arg4 V]
  all_goals rfl

/-- The layer's slice of argument 5. -/
theorem g1_eq : (A V main_v174 : FVec Ideal S128 .f32) = R.vec 2 (V (Proc.devRef .tc main_arg5)) slices_S4x128_S1x128_2_0 := by
  rw [eq_main_v174 V, eq_main_v173 V, A_arg5 V]
  all_goals rfl

/-- The layer's slice of argument 6. -/
theorem c1_eq : (A V main_v176 : FVec Ideal S128 .f32) = R.vec 2 (V (Proc.devRef .tc main_arg6)) slices_S4x128_S1x128_2_0 := by
  rw [eq_main_v176 V, eq_main_v175 V, A_arg6 V]
  all_goals rfl

/-- The layer's slice of argument 7. -/
theorem w2_eq : (A V main_v198 : FVec Ideal S128x128 .f32) = R.mat 2 (V (Proc.devRef .tc main_arg7)) slices_S4x128x128_S1x128x128_2_0_0 := by
  rw [eq_main_v198 V, eq_main_v197 V, A_arg7 V]
  all_goals rfl

/-- The layer's slice of argument 8. -/
theorem b2_eq : (A V main_v201 : FVec Ideal S128 .f32) = R.vec 2 (V (Proc.devRef .tc main_arg8)) slices_S4x128_S1x128_2_0 := by
  rw [eq_main_v201 V, eq_main_v200 V, A_arg8 V]
  all_goals rfl

/-- The layer's slice of argument 9. -/
theorem g2_eq : (A V main_v206 : FVec Ideal S128 .f32) = R.vec 2 (V (Proc.devRef .tc main_arg9)) slices_S4x128_S1x128_2_0 := by
  rw [eq_main_v206 V, eq_main_v205 V, A_arg9 V]
  all_goals rfl

/-- The layer's slice of argument 10. -/
theorem c2_eq : (A V main_v208 : FVec Ideal S128 .f32) = R.vec 2 (V (Proc.devRef .tc main_arg10)) slices_S4x128_S1x128_2_0 := by
  rw [eq_main_v208 V, eq_main_v207 V, A_arg10 V]
  all_goals rfl

/-- The first linear map, of the input plus its neighbourhood sums. -/
theorem z1_eq : (A V main_v172 : FVec Ideal S100000x128 .f32) = R.linT (addf (F := Ideal) (A V main_v153) (A V main_v163)) (A V main_v166) (A V main_v169) := by
  rw [eq_main_v172 V, eq_main_v171 V, eq_main_v170 V, eq_main_v167 V, eq_main_v164 V]
  all_goals rfl

/-- Its column means. -/
theorem mean1_eq : (A V main_v179 : FVec Ideal S128 .f32) = R.meanT (A V main_v172) := by
  rw [eq_main_v179 V, eq_main_v178 V, eq_main_cst_24 V, eq_main_v177 V, eq_main_cst_23 V]
  all_goals rfl

/-- Its column variances. -/
theorem var1_eq : (A V main_v180 : FVec Ideal S128 .f32) = R.varT (A V main_v172) := by
  rw [eq_main_v180 V, eq_main_call8_call0_v1 V, eq_main_call8_call0_v0 V, eq_main_call8_cst_4 V, eq_main_call8_v12 V, eq_main_call8_cst_3 V,
    eq_main_call8_v11 V, eq_main_call8_v10 V, eq_main_call8_v9 V, eq_main_call8_cst_2 V, eq_main_call8_v8 V, eq_main_call8_cst_1 V,
    eq_main_call8_v7 V, eq_main_call8_v6 V, eq_main_call8_v5 V, eq_main_call8_v4 V, eq_main_call8_v3 V, eq_main_call8_v2 V,
    eq_main_call8_cst_0 V, eq_main_call8_v1 V, eq_main_call8_v0 V, eq_main_call8_cst V, eq_main_c_25 V]
  all_goals rfl

/-- Normalized, scaled, shifted, rectified. -/
theorem act_eq : (A V main_v196 : FVec Ideal S100000x128 .f32) = R.normT (A V main_v172) (A V main_v179) (A V main_v180) (A V main_v174) (A V main_v176) := by
  rw [eq_main_v196 V, eq_main_call9_v0 V, eq_main_call9_cst V, eq_main_v195 V, eq_main_v194 V, eq_main_v193 V,
    eq_main_v192 V, eq_main_v191 V, eq_main_v190 V, eq_main_v189 V, eq_main_v188 V, eq_main_v187 V,
    eq_main_v186 V, eq_main_v185 V, eq_main_v184 V, eq_main_cst_26 V, eq_main_v183 V, eq_main_v182 V,
    eq_main_v181 V]
  all_goals rfl

/-- The second linear map. -/
theorem z2_eq : (A V main_v204 : FVec Ideal S100000x128 .f32) = R.linT (A V main_v196) (A V main_v198) (A V main_v201) := by
  rw [eq_main_v204 V, eq_main_v203 V, eq_main_v202 V, eq_main_v199 V]
  all_goals rfl

/-- Its column means. -/
theorem mean2_eq : (A V main_v211 : FVec Ideal S128 .f32) = R.meanT (A V main_v204) := by
  rw [eq_main_v211 V, eq_main_v210 V, eq_main_cst_28 V, eq_main_v209 V, eq_main_cst_27 V]
  all_goals rfl

/-- Its column variances. -/
theorem var2_eq : (A V main_v212 : FVec Ideal S128 .f32) = R.varT (A V main_v204) := by
  rw [eq_main_v212 V, eq_main_call10_call0_v1 V, eq_main_call10_call0_v0 V, eq_main_call10_cst_4 V, eq_main_call10_v12 V, eq_main_call10_cst_3 V,
    eq_main_call10_v11 V, eq_main_call10_v10 V, eq_main_call10_v9 V, eq_main_call10_cst_2 V, eq_main_call10_v8 V, eq_main_call10_cst_1 V,
    eq_main_call10_v7 V, eq_main_call10_v6 V, eq_main_call10_v5 V, eq_main_call10_v4 V, eq_main_call10_v3 V, eq_main_call10_v2 V,
    eq_main_call10_cst_0 V, eq_main_call10_v1 V, eq_main_call10_v0 V, eq_main_call10_cst V, eq_main_c_29 V]
  all_goals rfl

/-- The layer's output. -/
theorem out_eq : (A V main_v228 : FVec Ideal S100000x128 .f32) = R.normT (A V main_v204) (A V main_v211) (A V main_v212) (A V main_v206) (A V main_v208) := by
  rw [eq_main_v228 V, eq_main_call11_v0 V, eq_main_call11_cst V, eq_main_v227 V, eq_main_v226 V, eq_main_v225 V,
    eq_main_v224 V, eq_main_v223 V, eq_main_v222 V, eq_main_v221 V, eq_main_v220 V, eq_main_v219 V,
    eq_main_v218 V, eq_main_v217 V, eq_main_v216 V, eq_main_cst_30 V, eq_main_v215 V, eq_main_v214 V,
    eq_main_v213 V]
  all_goals rfl

/-- The layer's output is the composed layer function of the input with its neighbourhood sums and of the eight parameter slices. -/
theorem layerT_eq : (A V main_v228 : FVec Ideal S100000x128 .f32)
    = R.layerT (addf (F := Ideal) (A V main_v153) (R.aggOf (A V main_v153) (R.srcOf (V (Proc.devRef .tc main_arg1))) (R.dstOf (V (Proc.devRef .tc main_arg1)))))
        (R.mat 2 (V (Proc.devRef .tc main_arg3)) slices_S4x128x128_S1x128x128_2_0_0) (R.vec 2 (V (Proc.devRef .tc main_arg4)) slices_S4x128_S1x128_2_0) (R.vec 2 (V (Proc.devRef .tc main_arg5)) slices_S4x128_S1x128_2_0) (R.vec 2 (V (Proc.devRef .tc main_arg6)) slices_S4x128_S1x128_2_0)
        (R.mat 2 (V (Proc.devRef .tc main_arg7)) slices_S4x128x128_S1x128x128_2_0_0) (R.vec 2 (V (Proc.devRef .tc main_arg8)) slices_S4x128_S1x128_2_0) (R.vec 2 (V (Proc.devRef .tc main_arg9)) slices_S4x128_S1x128_2_0) (R.vec 2 (V (Proc.devRef .tc main_arg10)) slices_S4x128_S1x128_2_0) := by
  unfold R.layerT
  rw [out_eq V, mean2_eq V, var2_eq V, z2_eq V, act_eq V, mean1_eq V, var1_eq V, z1_eq V, agg_eq V, src_eq V, dst_eq V,
    w1_eq V, b1_eq V, g1_eq V, c1_eq V, w2_eq V, b2_eq V, g2_eq V, c2_eq V]

end Cert.ReferenceIdeal.Read2

end
-- ==== Proof.RefRead3.lean ====
/- Layer 3 of the reference, read at the end of the line: the layer's output array is the composed layer function of the
   layer's input with its neighbourhood sums added and of the layer's eight parameter arrays, themselves slices of the
   arguments. Step by step (the edge rows, the neighbourhood sums, each parameter, the first linear map, its column means
   and variances, the normalized and rectified array, the second linear map, its statistics, the output), each step by the
   equations of the operations between its result and its inputs, latest operation first; then the steps composed. -/
import proofs.«120577_j28003186770423_1_alg».proof.Proof.RefEqs
import proofs.«120577_j28003186770423_1_alg».proof.Proof.RTerms

noncomputable section

namespace Cert.ReferenceIdeal.Read3

open Cert.ReferenceIdeal Cert.ReferenceIdeal.Gen Cert.ReferenceIdeal.HandRun Idealize.ShloMosaic Idealize.ShloMosaic.TcCoe Idealize.ShloMosaic.StableHlo

-- no step looks inside the fold over the whole line
attribute [local irreducible] Idealize.ShloMosaic.StableHlo.after

variable (V : Valuation τ sig (Elt Ideal))

/-- The sources of the edges. -/
theorem src_eq : (A V main_v1 : IVec S600000 32) = R.srcOf (V (Proc.devRef .tc main_arg1)) := by
  rw [eq_main_v1 V, eq_main_v0 V, A_arg1 V]
  all_goals rfl

/-- The targets of the edges. -/
theorem dst_eq : (A V main_v3 : IVec S600000 32) = R.dstOf (V (Proc.devRef .tc main_arg1)) := by
  rw [eq_main_v3 V, eq_main_v2 V, A_arg1 V]
  all_goals rfl

/-- The neighbourhood sums of the layer's input. -/
theorem agg_eq : (A V main_v238 : FVec Ideal S100000x128 .f32) = R.aggOf (A V main_v228) (A V main_v1) (A V main_v3) := by
  rw [eq_main_v238 V, eq_main_v237 V, eq_main_v236 V, eq_main_cst_33 V, eq_main_v235 V, eq_main_v234 V,
    eq_main_v233 V, eq_main_v232 V, eq_main_v231 V, eq_main_c_32 V, eq_main_v230 V, eq_main_v229 V,
    eq_main_c_31 V]
  all_goals rfl

/-- The layer's slice of argument 3. -/
theorem w1_eq : (A V main_v241 : FVec Ideal S128x128 .f32) = R.mat 3 (V (Proc.devRef .tc main_arg3)) slices_S4x128x128_S1x128x128_3_0_0 := by
  rw [eq_main_v241 V, eq_main_v240 V, A_arg3 V]
  all_goals rfl

/-- The layer's slice of argument 4. -/
theorem b1_eq : (A V main_v244 : FVec Ideal S128 .f32) = R.vec 3 (V (Proc.devRef .tc main_arg4)) slices_S4x128_S1x128_3_0 := by
  rw [eq_main_v244 V, eq_main_v243 V, A_arg4 V]
  all_goals rfl

/-- The layer's slice of argument 5. -/
theorem g1_eq : (A V main_v249 : FVec Ideal S128 .f32) = R.vec 3 (V (Proc.devRef .tc main_arg5)) slices_S4x128_S1x128_3_0 := by
  rw [eq_main_v249 V, eq_main_v248 V, A_arg5 V]
  all_goals rfl

/-- The layer's slice of argument 6. -/
theorem c1_eq : (A V main_v251 : FVec Ideal S128 .f32) = R.vec 3 (V (Proc.devRef .tc main_arg6)) slices_S4x128_S1x128_3_0 := by
  rw [eq_main_v251 V, eq_main_v250 V, A_arg6 V]
  all_goals rfl

/-- The layer's slice of argument 7. -/
theorem w2_eq : (A V main_v273 : FVec Ideal S128x128 .f32) = R.mat 3 (V (Proc.devRef .tc main_arg7)) slices_S4x128x128_S1x128x128_3_0_0 := by
  rw [eq_main_v273 V, eq_main_v272 V, A_arg7 V]
  all_goals rfl

/-- The layer's slice of argument 8. -/
theorem b2_eq : (A V main_v276 : FVec Ideal S128 .f32) = R.vec 3 (V (Proc.devRef .tc main_arg8)) slices_S4x128_S1x128_3_0 := by
  rw [eq_main_v276 V, eq_main_v275 V, A_arg8 V]
  all_goals rfl

/-- The layer's slice of argument 9. -/
theorem g2_eq : (A V main_v281 : FVec Ideal S128 .f32) = R.vec 3 (V (Proc.devRef .tc main_arg9)) slices_S4x128_S1x128_3_0 := by
  rw [eq_main_v281 V, eq_main_v280 V, A_arg9 V]
  all_goals rfl

/-- The layer's slice of argument 10. -/
theorem c2_eq : (A V main_v283 : FVec Ideal S128 .f32) = R.vec 3 (V (Proc.devRef .tc main_arg10)) slices_S4x128_S1x128_3_0 := by
  rw [eq_main_v283 V, eq_main_v282 V, A_arg10 V]
  all_goals rfl

/-- The first linear map, of the input plus its neighbourhood sums. -/
theorem z1_eq : (A V main_v247 : FVec Ideal S100000x128 .f32) = R.linT (addf (F := Ideal) (A V main_v228) (A V main_v238)) (A V main_v241) (A V main_v244) := by
  rw [eq_main_v247 V, eq_main_v246 V, eq_main_v245 V, eq_main_v242 V, eq_main_v239 V]
  all_goals rfl

/-- Its column means. -/
theorem mean1_eq : (A V main_v254 : FVec Ideal S128 .f32) = R.meanT (A V main_v247) := by
  rw [eq_main_v254 V, eq_main_v253 V, eq_main_cst_35 V, eq_main_v252 V, eq_main_cst_34 V]
  all_goals rfl

/-- Its column variances. -/
theorem var1_eq : (A V main_v255 : FVec Ideal S128 .f32) = R.varT (A V main_v247) := by
  rw [eq_main_v255 V, eq_main_call12_call0_v1 V, eq_main_call12_call0_v0 V, eq_main_call12_cst_4 V, eq_main_call12_v12 V, eq_main_call12_cst_3 V,
    eq_main_call12_v11 V, eq_main_call12_v10 V, eq_main_call12_v9 V, eq_main_call12_cst_2 V, eq_main_call12_v8 V, eq_main_call12_cst_1 V,
    eq_main_call12_v7 V, eq_main_call12_v6 V, eq_main_call12_v5 V, eq_main_call12_v4 V, eq_main_call12_v3 V, eq_main_call12_v2 V,
    eq_main_call12_cst_0 V, eq_main_call12_v1 V, eq_main_call12_v0 V, eq_main_call12_cst V, eq_main_c_36 V]
  all_goals rfl

/-- Normalized, scaled, shifted, rectified. -/
theorem act_eq : (A V main_v271 : FVec Ideal S100000x128 .f32) = R.normT (A V main_v247) (A V main_v254) (A V main_v255) (A V main_v249) (A V main_v251) := by
  rw [eq_main_v271 V, eq_main_call13_v0 V, eq_main_call13_cst V, eq_main_v270 V, eq_main_v269 V, eq_main_v268 V,
    eq_main_v267 V, eq_main_v266 V, eq_main_v265 V, eq_main_v264 V, eq_main_v263 V, eq_main_v262 V,
    eq_main_v261 V, eq_main_v260 V, eq_main_v259 V, eq_main_cst_37 V, eq_main_v258 V, eq_main_v257 V,
    eq_main_v256 V]
  all_goals rfl

/-- The second linear map. -/
theorem z2_eq : (A V main_v279 : FVec Ideal S100000x128 .f32) = R.linT (A V main_v271) (A V main_v273) (A V main_v276) := by
  rw [eq_main_v279 V, eq_main_v278 V, eq_main_v277 V, eq_main_v274 V]
  all_goals rfl

/-- Its column means. -/
theorem mean2_eq : (A V main_v286 : FVec Ideal S128 .f32) = R.meanT (A V main_v279) := by
  rw [eq_main_v286 V, eq_main_v285 V, eq_main_cst_39 V, eq_main_v284 V, eq_main_cst_38 V]
  all_goals rfl

/-- Its column variances. -/
theorem var2_eq : (A V main_v287 : FVec Ideal S128 .f32) = R.varT (A V main_v279) := by
  rw [eq_main_v287 V, eq_main_call14_call0_v1 V, eq_main_call14_call0_v0 V, eq_main_call14_cst_4 V, eq_main_call14_v12 V, eq_main_call14_cst_3 V,
    eq_main_call14_v11 V, eq_main_call14_v10 V, eq_main_call14_v9 V, eq_main_call14_cst_2 V, eq_main_call14_v8 V, eq_main_call14_cst_1 V,
    eq_main_call14_v7 V, eq_main_call14_v6 V, eq_main_call14_v5 V, eq_main_call14_v4 V, eq_main_call14_v3 V, eq_main_call14_v2 V,
    eq_main_call14_cst_0 V, eq_main_call14_v1 V, eq_main_call14_v0 V, eq_main_call14_cst V, eq_main_c_40 V]
  all_goals rfl

/-- The layer's output. -/
theorem out_eq : (A V main_v303 : FVec Ideal S100000x128 .f32) = R.normT (A V main_v279) (A V main_v286) (A V main_v287) (A V main_v281) (A V main_v283) := by
  rw [eq_main_v303 V, eq_main_call15_v0 V, eq_main_call15_cst V, eq_main_v302 V, eq_main_v301 V, eq_main_v300 V,
    eq_main_v299 V, eq_main_v298 V, eq_main_v297 V, eq_main_v296 V, eq_main_v295 V, eq_main_v294 V,
    eq_main_v293 V, eq_main_v292 V, eq_main_v291 V, eq_main_cst_41 V, eq_main_v290 V, eq_main_v289 V,
    eq_main_v288 V]
  all_goals rfl

/-- The layer's output is the composed layer function of the input with its neighbourhood sums and of the eight parameter slices. -/
theorem layerT_eq : (A V main_v303 : FVec Ideal S100000x128 .f32)
    = R.layerT (addf (F := Ideal) (A V main_v228) (R.aggOf (A V main_v228) (R.srcOf (V (Proc.devRef .tc main_arg1))) (R.dstOf (V (Proc.devRef .tc main_arg1)))))
        (R.mat 3 (V (Proc.devRef .tc main_arg3)) slices_S4x128x128_S1x128x128_3_0_0) (R.vec 3 (V (Proc.devRef .tc main_arg4)) slices_S4x128_S1x128_3_0) (R.vec 3 (V (Proc.devRef .tc main_arg5)) slices_S4x128_S1x128_3_0) (R.vec 3 (V (Proc.devRef .tc main_arg6)) slices_S4x128_S1x128_3_0)
        (R.mat 3 (V (Proc.devRef .tc main_arg7)) slices_S4x128x128_S1x128x128_3_0_0) (R.vec 3 (V (Proc.devRef .tc main_arg8)) slices_S4x128_S1x128_3_0) (R.vec 3 (V (Proc.devRef .tc main_arg9)) slices_S4x128_S1x128_3_0) (R.vec 3 (V (Proc.devRef .tc main_arg10)) slices_S4x128_S1x128_3_0) := by
  unfold R.layerT
  rw [out_eq V, mean2_eq V, var2_eq V, z2_eq V, act_eq V, mean1_eq V, var1_eq V, z1_eq V, agg_eq V, src_eq V, dst_eq V,
    w1_eq V, b1_eq V, g1_eq V, c1_eq V, w2_eq V, b2_eq V, g2_eq V, c2_eq V]

end Cert.ReferenceIdeal.Read3

end
-- ==== Proof.RefTail.lean ====
/- The tail of the reference, read at the end of the line: the result array is the tail function (per-graph pooling, the five
   class scores, their sum, the logarithm of the softmax) of the input features, the four layers' outputs, the graph index of
   every node and the two stacks of the classifier's parameters. Each score and the log-softmax by the equations of the
   operations between the step's result and its inputs, latest operation first; then the steps composed through the four sums. -/
import proofs.«120577_j28003186770423_1_alg».proof.Proof.RefEqs
import proofs.«120577_j28003186770423_1_alg».proof.Proof.RTailDef

noncomputable section

namespace Cert.ReferenceIdeal.RefTail

open Cert.ReferenceIdeal Cert.ReferenceIdeal.Gen Cert.ReferenceIdeal.HandRun Idealize.ShloMosaic Idealize.ShloMosaic.TcCoe Idealize.ShloMosaic.StableHlo

-- no step looks inside the fold over the whole line
attribute [local irreducible] Idealize.ShloMosaic.StableHlo.after

variable (V : Valuation τ sig (Elt Ideal))

/-- The class scores of the input features. -/
theorem score0_eq : (A V main_v314 : FVec Ideal S512x10 .f32) = R.score 0 slices_S5x128x10_S1x128x10_0_0_0 slices_S5x10_S1x10_0_0 (V (Proc.devRef .tc main_arg0)) (V (Proc.devRef .tc main_arg2)) (V (Proc.devRef .tc main_arg11)) (V (Proc.devRef .tc main_arg12)) := by
  rw [eq_main_v314 V, eq_main_v313 V, eq_main_v312 V, eq_main_v311 V, eq_main_v310 V, eq_main_v309 V,
    eq_main_v308 V, eq_main_v307 V, eq_main_v306 V, eq_main_v305 V, eq_main_v304 V, eq_main_cst_42 V,
    A_arg12 V, A_arg11 V, A_arg0 V, A_arg2 V]
  all_goals rfl

/-- The class scores of layer 1's output. -/
theorem score1_eq : (A V main_v325 : FVec Ideal S512x10 .f32) = R.score 1 slices_S5x128x10_S1x128x10_1_0_0 slices_S5x10_S1x10_1_0 (A V main_v78) (V (Proc.devRef .tc main_arg2)) (V (Proc.devRef .tc main_arg11)) (V (Proc.devRef .tc main_arg12)) := by
  rw [eq_main_v325 V, eq_main_v324 V, eq_main_v323 V, eq_main_v322 V, eq_main_v321 V, eq_main_v320 V,
    eq_main_v319 V, eq_main_v318 V, eq_main_v317 V, eq_main_v316 V, eq_main_v315 V, eq_main_cst_43 V,
    A_arg12 V, A_arg11 V, A_arg2 V]
  all_goals rfl

/-- The class scores of layer 2's output. -/
theorem score2_eq : (A V main_v337 : FVec Ideal S512x10 .f32) = R.score 2 slices_S5x128x10_S1x128x10_2_0_0 slices_S5x10_S1x10_2_0 (A V main_v153) (V (Proc.devRef .tc main_arg2)) (V (Proc.devRef .tc main_arg11)) (V (Proc.devRef .tc main_arg12)) := by
  rw [eq_main_v337 V, eq_main_v336 V, eq_main_v335 V, eq_main_v334 V, eq_main_v333 V, eq_main_v332 V,
    eq_main_v331 V, eq_main_v330 V, eq_main_v329 V, eq_main_v328 V, eq_main_v327 V, eq_main_cst_44 V,
    A_arg12 V, A_arg11 V, A_arg2 V]
  all_goals rfl

/-- The class scores of layer 3's output. -/
theorem score3_eq : (A V main_v349 : FVec Ideal S512x10 .f32) = R.score 3 slices_S5x128x10_S1x128x10_3_0_0 slices_S5x10_S1x10_3_0 (A V main_v228) (V (Proc.devRef .tc main_arg2)) (V (Proc.devRef .tc main_arg11)) (V (Proc.devRef .tc main_arg12)) := by
  rw [eq_main_v349 V, eq_main_v348 V, eq_main_v347 V, eq_main_v346 V, eq_main_v345 V, eq_main_v344 V,
    eq_main_v343 V, eq_main_v342 V, eq_main_v341 V, eq_main_v340 V, eq_main_v339 V, eq_main_cst_45 V,
    A_arg12 V, A_arg11 V, A_arg2 V]
  all_goals rfl

/-- The class scores of layer 4's output. -/
theorem score4_eq : (A V main_v361 : FVec Ideal S512x10 .f32) = R.score 4 slices_S5x128x10_S1x128x10_4_0_0 slices_S5x10_S1x10_4_0 (A V main_v303) (V (Proc.devRef .tc main_arg2)) (V (Proc.devRef .tc main_arg11)) (V (Proc.devRef .tc main_arg12)) := by
  rw [eq_main_v361 V, eq_main_v360 V, eq_main_v359 V, eq_main_v358 V, eq_main_v357 V, eq_main_v356 V,
    eq_main_v355 V, eq_main_v354 V, eq_main_v353 V, eq_main_v352 V, eq_main_v351 V, eq_main_cst_46 V,
    A_arg12 V, A_arg11 V, A_arg2 V]
  all_goals rfl

/-- The logarithm of the softmax of the summed scores. -/
theorem lsm_eq : (A V main_v363 : FVec Ideal S512x10 .f32) = R.logSoftmax (A V main_v362) := by
  rw [eq_main_v363 V, eq_main_call16_v10 V, eq_main_call16_v9 V, eq_main_call16_v8 V, eq_main_call16_v7 V, eq_main_call16_cst_1 V,
    eq_main_call16_v6 V, eq_main_call16_v5 V, eq_main_call16_v4 V, eq_main_call16_v3 V, eq_main_call16_v2 V, eq_main_call16_v1 V,
    eq_main_call16_cst_0 V, eq_main_call16_v0 V, eq_main_call16_cst V]
  all_goals rfl

/-- The result is the tail function of the input features, the four layer outputs, the graph indices and the classifier's parameters. -/
theorem tail : (A V main_v363 : FVec Ideal S512x10 .f32)
    = R.tailOf (V (Proc.devRef .tc main_arg0)) (A V main_v78) (A V main_v153) (A V main_v228) (A V main_v303) (V (Proc.devRef .tc main_arg2)) (V (Proc.devRef .tc main_arg11)) (V (Proc.devRef .tc main_arg12)) := by
  unfold R.tailOf
  rw [lsm_eq V, eq_main_v362 V, eq_main_v350 V, eq_main_v338 V, eq_main_v326 V,
    score4_eq V, score3_eq V, score2_eq V, score1_eq V, score0_eq V]
  all_goals rfl

end Cert.ReferenceIdeal.RefTail

end
-- ==== Proof.RStep.lean ====
/-
  A reference layer is a step of the network.

  The composed layer applied to the features plus their neighbourhood sums, with layer `i`'s slices of the parameter
  stacks, is, read at its indices, the step (in the reference's arrangement of the statistics) from the features.
-/
import proofs.«120577_j28003186770423_1_alg».proof.Proof.RTerms
import proofs.«120577_j28003186770423_1_alg».proof.Proof.GinNet

noncomputable section

namespace Cert.ReferenceIdeal.R

open Idealize.ShloMosaic Idealize.ShloMosaic.ValueIdx Cert.ReferenceIdeal Cert.ReferenceIdeal.Gen Cert.Lib Cert.Gin

theorem layerT_step (i : Nat) (h3 : S4x128x128.Slices ![i, 0, 0] S1x128x128) (h2 : S4x128.Slices ![i, 0] S1x128)
    (e : IVec S2x600000 32) (x3 : FVec Ideal S4x128x128 .f32) (x4 x5 x6 : FVec Ideal S4x128 .f32) (x7 : FVec Ideal S4x128x128 .f32)
    (x8 x9 x10 : FVec Ideal S4x128 .f32) (H : FVec Ideal S100000x128 .f32) :
    cur2 (a := 100000) (b := 128)
        (layerT (addf (F := Ideal) H (aggOf H (srcOf e) (dstOf e))) (mat i x3 h3) (vec i x4 h2) (vec i x5 h2) (vec i x6 h2) (mat i x7 h3) (vec i x8 h2) (vec i x9 h2) (vec i x10 h2))
      = stepR (aggK e) (paramsK i h3 h2 x3 x4 x5 x6 x7 x8 x9 x10) (cur2 H) := by
  rw [layerT_apply]
  unfold stepR withAgg aggK paramsK
  rw [unc2_cur2]
  rfl

end Cert.ReferenceIdeal.R

end
-- ==== Proof.RFinal.lean ====
/-
  The idealized reference program's result as one function of the launch memory.

  Each layer's output buffer ends holding the composed layer of the previous layer's output plus its neighbourhood sums,
  with the layer's slices of the parameter stacks; read at its indices that is one step of the network from the previous
  features.  The result buffer ends holding the tail of the input features and the four layers' features.
-/
import proofs.«120577_j28003186770423_1_alg».proof.Proof.RefRead0
import proofs.«120577_j28003186770423_1_alg».proof.Proof.RefRead1
import proofs.«120577_j28003186770423_1_alg».proof.Proof.RefRead2
import proofs.«120577_j28003186770423_1_alg».proof.Proof.RefRead3
import proofs.«120577_j28003186770423_1_alg».proof.Proof.RefTail
import proofs.«120577_j28003186770423_1_alg».proof.Proof.RStep
import proofs.«120577_j28003186770423_1_alg».proof.Proof.NetEq

noncomputable section

namespace Cert.ReferenceIdeal.RFinal

open Idealize.ShloMosaic Idealize.ShloMosaic.TcCoe Idealize.ShloMosaic.StableHlo Idealize.SL.Sem
open Cert.ReferenceIdeal Cert.ReferenceIdeal.Gen Cert.ReferenceIdeal.R Cert.ReferenceIdeal.HandRun Cert.Lib Cert.Gin

variable (V : Valuation τ sig (Elt Ideal))

/-! ## The launch memory's arrays -/

abbrev Y0 : FVec Ideal S100000x128 .f32 := V (Proc.devRef .tc main_arg0)
abbrev Y1 : IVec S2x600000 32 := V (Proc.devRef .tc main_arg1)
abbrev Y2 : IVec S100000 32 := V (Proc.devRef .tc main_arg2)
abbrev Y3 : FVec Ideal S4x128x128 .f32 := V (Proc.devRef .tc main_arg3)
abbrev Y4 : FVec Ideal S4x128 .f32 := V (Proc.devRef .tc main_arg4)
abbrev Y5 : FVec Ideal S4x128 .f32 := V (Proc.devRef .tc main_arg5)
abbrev Y6 : FVec Ideal S4x128 .f32 := V (Proc.devRef .tc main_arg6)
abbrev Y7 : FVec Ideal S4x128x128 .f32 := V (Proc.devRef .tc main_arg7)
abbrev Y8 : FVec Ideal S4x128 .f32 := V (Proc.devRef .tc main_arg8)
abbrev Y9 : FVec Ideal S4x128 .f32 := V (Proc.devRef .tc main_arg9)
abbrev Y10 : FVec Ideal S4x128 .f32 := V (Proc.devRef .tc main_arg10)
abbrev Y11 : FVec Ideal S5x128x10 .f32 := V (Proc.devRef .tc main_arg11)
abbrev Y12 : FVec Ideal S5x10 .f32 := V (Proc.devRef .tc main_arg12)

/-! ## The features after each layer -/

abbrev G1 : Fin 100000 → Fin 128 → EReal := Cert.NetEq.G1 (Y0 V) (Y1 V) (Y3 V) (Y4 V) (Y5 V) (Y6 V) (Y7 V) (Y8 V) (Y9 V) (Y10 V)
abbrev G2 : Fin 100000 → Fin 128 → EReal := Cert.NetEq.G2 (Y0 V) (Y1 V) (Y3 V) (Y4 V) (Y5 V) (Y6 V) (Y7 V) (Y8 V) (Y9 V) (Y10 V)
abbrev G3 : Fin 100000 → Fin 128 → EReal := Cert.NetEq.G3 (Y0 V) (Y1 V) (Y3 V) (Y4 V) (Y5 V) (Y6 V) (Y7 V) (Y8 V) (Y9 V) (Y10 V)
abbrev G4 : Fin 100000 → Fin 128 → EReal := Cert.NetEq.G4 (Y0 V) (Y1 V) (Y3 V) (Y4 V) (Y5 V) (Y6 V) (Y7 V) (Y8 V) (Y9 V) (Y10 V)

/-- The input features reach the first layer as launched. -/
theorem in0 : (A V main_arg0 : FVec Ideal S100000x128 .f32) = Y0 V := after_ops_arg (r := main_arg0) (by decide) V

theorem step0 : cur2 (a := 100000) (b := 128) (A V main_v78) = G1 V := by
  rw [Read0.layerT_eq V, in0 V]
  exact layerT_step 0 _ _ (Y1 V) (Y3 V) (Y4 V) (Y5 V) (Y6 V) (Y7 V) (Y8 V) (Y9 V) (Y10 V) (Y0 V)

theorem feat1 : (A V main_v78 : FVec Ideal S100000x128 .f32) = unc2 (G1 V) := by
  rw [← step0 V]; exact (unc2_cur2 _).symm

theorem step1 : cur2 (a := 100000) (b := 128) (A V main_v153) = G2 V := by
  rw [Read1.layerT_eq V, feat1 V]
  exact layerT_step 1 _ _ (Y1 V) (Y3 V) (Y4 V) (Y5 V) (Y6 V) (Y7 V) (Y8 V) (Y9 V) (Y10 V) (unc2 (G1 V))

theorem feat2 : (A V main_v153 : FVec Ideal S100000x128 .f32) = unc2 (G2 V) := by
  rw [← step1 V]; exact (unc2_cur2 _).symm

theorem step2 : cur2 (a := 100000) (b := 128) (A V main_v228) = G3 V := by
  rw [Read2.layerT_eq V, feat2 V]
  exact layerT_step 2 _ _ (Y1 V) (Y3 V) (Y4 V) (Y5 V) (Y6 V) (Y7 V) (Y8 V) (Y9 V) (Y10 V) (unc2 (G2 V))

theorem feat3 : (A V main_v228 : FVec Ideal S100000x128 .f32) = unc2 (G3 V) := by
  rw [← step2 V]; exact (unc2_cur2 _).symm

theorem step3 : cur2 (a := 100000) (b := 128) (A V main_v303) = G4 V := by
  rw [Read3.layerT_eq V, feat3 V]
  exact layerT_step 3 _ _ (Y1 V) (Y3 V) (Y4 V) (Y5 V) (Y6 V) (Y7 V) (Y8 V) (Y9 V) (Y10 V) (unc2 (G3 V))

theorem feat4 : (A V main_v303 : FVec Ideal S100000x128 .f32) = unc2 (G4 V) := by
  rw [← step3 V]; exact (unc2_cur2 _).symm

/-! ## The result -/

theorem value : (A V main_v363 : FVec Ideal S512x10 .f32)
    = tailOf (Y0 V) (unc2 (G1 V)) (unc2 (G2 V)) (unc2 (G3 V)) (unc2 (G4 V)) (Y2 V) (Y11 V) (Y12 V) := by
  rw [RefTail.tail V, feat1 V, feat2 V, feat3 V, feat4 V]

end Cert.ReferenceIdeal.RFinal

end
-- ==== Proof.PreReal.lean ====
/-
  From the precondition to real-valued inputs.

  The precondition says of every floating-point argument array that each entry's absolute value is below
  `+∞`; the eleven statements are joined by `and` into one bit that is required to be 1.  An extended real whose
  absolute value `max x (-x)` is below `+∞` is neither infinity, hence a real number.  So under the precondition
  every entry of every floating-point argument is real.
-/
import proofs.«120577_j28003186770423_1_alg».proof.Pre_finite_inputs
import proofs.«120577_j28003186770423_1_alg».proof.Proof.LibRealValued
import Idealize.ShloMosaic.Lib.ReduceAll
import Idealize.ShloMosaic.Lib.ValueIdx
import Idealize.ShloMosaic.Lib.Pipeline.Value

noncomputable section

namespace Cert.Gin.PreReal

open Idealize.ShloMosaic Idealize.ShloMosaic.ValueIdx Cert.Lib Cert.Pre_finite_inputs

instance : Subsingleton S_.Idx := ⟨fun a b => funext fun d => d.elim0⟩

/-- The word of `+∞`. -/
theorem ofBits_inf : Ideal.ofBits .f32 0x7F800000#32 = ⊤ := by
  simp [Ideal.ofBits, Ideal.ieee]

/-- An extended real whose absolute value is below `+∞` is a real number. -/
theorem isReal_of_abs_lt_top (y : EReal) (h : Ideal.cmp .olt (max y (-y)) ⊤ = 1#1) : IsReal y := by
  induction y using EReal.rec with
  | bot => simp [Ideal.cmp] at h
  | coe r => exact ⟨r, rfl⟩
  | top => simp [Ideal.cmp] at h

/-- One entry of an array all of whose entries compare below the broadcast word of `+∞` in absolute value. -/
theorem entry_real {s : Shape} (x : FVec Ideal s .f32) (dims : Fin S_.rank → Fin s.rank) (hb : S_.BroadcastsInDim s dims) (i : s.Idx)
    (h : cmpf .olt (Host.absf x) (broadcastInDim s dims hb (constant (F := Ideal) S_ .f32 0x7F800000#32)) i = 1#1) : IsReal (x i) := by
  have hv : broadcastInDim s dims hb (constant (F := Ideal) S_ .f32 0x7F800000#32) i = Ideal.ofBits .f32 0x7F800000#32 :=
    broadcastInDim_apply dims hb _ i ix0 (fun a => a.elim0)
  rw [cmpf_apply, hv, ofBits_inf] at h
  exact isReal_of_abs_lt_top (x i) h

/-- Both operands of an `and` that is 1 are 1. -/
theorem split_and {a b : IVec S_ 1} (h : andi a b ix0 = 1#1) : a ix0 = 1#1 ∧ b ix0 = 1#1 := IntOp.andi_eq_one.1 h

/-- Under the precondition every entry of every floating-point argument is a real number. -/
theorem inputs_real [Cert.Pre_finite_inputs.Facts] (x0 : FVec Ideal S100000x128 .f32) (i1 : IVec S2x600000 32) (i2 : IVec S100000 32)
    (x3 : FVec Ideal S4x128x128 .f32) (x4 x5 x6 : FVec Ideal S4x128 .f32) (x7 : FVec Ideal S4x128x128 .f32)
    (x8 x9 x10 : FVec Ideal S4x128 .f32) (x11 : FVec Ideal S5x128x10 .f32) (x12 : FVec Ideal S5x10 .f32)
    (h : fn (F := Ideal) x0 i1 i2 x3 x4 x5 x6 x7 x8 x9 x10 x11 x12 = fun _ => 1#1) :
    (∀ i, IsReal (x0 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) ∧ (∀ i, IsReal (x9 i)) ∧ (∀ i, IsReal (x10 i))
      ∧ (∀ i, IsReal (x11 i)) ∧ (∀ i, IsReal (x12 i)) := by
  have h0 := congrFun h ix0
  dsimp only [fn, fn_part1, fn_part2, fn_part3] at h0
  obtain ⟨h0, e12⟩ := split_and h0
  obtain ⟨h0, e11⟩ := split_and h0
  obtain ⟨h0, e10⟩ := split_and h0
  obtain ⟨h0, e9⟩ := split_and h0
  obtain ⟨h0, e8⟩ := split_and h0
  obtain ⟨h0, e7⟩ := split_and h0
  obtain ⟨h0, e6⟩ := split_and h0
  obtain ⟨h0, e5⟩ := split_and h0
  obtain ⟨h0, e4⟩ := split_and h0
  obtain ⟨e0, e3⟩ := split_and h0
  exact ⟨fun i => entry_real x0 _ _ i (Host.reduce_andi_all _ _ _ _ ix0 e0 i),
    fun i => entry_real x3 _ _ i (Host.reduce_andi_all _ _ _ _ ix0 e3 i),
    fun i => entry_real x4 _ _ i (Host.reduce_andi_all _ _ _ _ ix0 e4 i),
    fun i => entry_real x5 _ _ i (Host.reduce_andi_all _ _ _ _ ix0 e5 i),
    fun i => entry_real x6 _ _ i (Host.reduce_andi_all _ _ _ _ ix0 e6 i),
    fun i => entry_real x7 _ _ i (Host.reduce_andi_all _ _ _ _ ix0 e7 i),
    fun i => entry_real x8 _ _ i (Host.reduce_andi_all _ _ _ _ ix0 e8 i),
    fun i => entry_real x9 _ _ i (Host.reduce_andi_all _ _ _ _ ix0 e9 i),
    fun i => entry_real x10 _ _ i (Host.reduce_andi_all _ _ _ _ ix0 e10 i),
    fun i => entry_real x11 _ _ i (Host.reduce_andi_all _ _ _ _ ix0 e11 i),
    fun i => entry_real x12 _ _ i (Host.reduce_andi_all _ _ _ _ ix0 e12 i)⟩

end Cert.Gin.PreReal

end
-- ==== Proof.Bridge.lean ====
/-
  The two runs end with the same result.

  From memories that agree on the thirteen arguments, the kernel's of which satisfies the precondition: the kernel
  program's result array is the tail of its four steps from the arguments, the reference program's the tail of its four
  steps from the same arguments; every floating-point argument entry is a real number, so the steps and the tails agree.
-/
import proofs.«120577_j28003186770423_1_alg».proof.Defs
import proofs.«120577_j28003186770423_1_alg».proof.Proof.KFinal
import proofs.«120577_j28003186770423_1_alg».proof.Proof.RFinal
import proofs.«120577_j28003186770423_1_alg».proof.Proof.PreReal

set_option maxRecDepth 16384

noncomputable section

namespace Cert.Bridge

open Idealize.ShloMosaic Idealize.ShloMosaic.TcCoe Idealize.ShloMosaic.StableHlo Idealize.SL.Sem Cert.Lib

theorem result_eq [Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) = fun _ => 1#1)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    StableHlo.after (Cert.ReferenceIdeal.HandRun.ops (F := Ideal)) (launchContents m' c) (Proc.devRef .tc Cert.ReferenceIdeal.main_v363)
      = Cert.KernelIdeal.Gen.W26 m ρ c (Proc.devRef .tc Cert.KernelIdeal.main_v251) := by
  obtain ⟨r0, r3, r4, r5, r6, r7, r8, r9, r10, _, _⟩ := Cert.Gin.PreReal.inputs_real _ _ _ _ _ _ _ _ _ _ _ _ _ hpre
  have hk : (Cert.KernelIdeal.Gen.W26 m ρ c (Proc.devRef .tc Cert.KernelIdeal.main_v251) : FVec Ideal ⟨2, ![512, 10]⟩ .f32)
      = Cert.KernelIdeal.K.tailOf (Cert.KernelIdeal.KFinal.X0 m ρ c) (unc2 (Cert.NetEq.H1 (Cert.KernelIdeal.KFinal.X0 m ρ c) (Cert.KernelIdeal.KFinal.X1 m ρ c) (Cert.KernelIdeal.KFinal.X3 m ρ c) (Cert.KernelIdeal.KFinal.X4 m ρ c) (Cert.KernelIdeal.KFinal.X5 m ρ c) (Cert.KernelIdeal.KFinal.X6 m ρ c) (Cert.KernelIdeal.KFinal.X7 m ρ c) (Cert.KernelIdeal.KFinal.X8 m ρ c) (Cert.KernelIdeal.KFinal.X9 m ρ c) (Cert.KernelIdeal.KFinal.X10 m ρ c))) (unc2 (Cert.NetEq.H2 (Cert.KernelIdeal.KFinal.X0 m ρ c) (Cert.KernelIdeal.KFinal.X1 m ρ c) (Cert.KernelIdeal.KFinal.X3 m ρ c) (Cert.KernelIdeal.KFinal.X4 m ρ c) (Cert.KernelIdeal.KFinal.X5 m ρ c) (Cert.KernelIdeal.KFinal.X6 m ρ c) (Cert.KernelIdeal.KFinal.X7 m ρ c) (Cert.KernelIdeal.KFinal.X8 m ρ c) (Cert.KernelIdeal.KFinal.X9 m ρ c) (Cert.KernelIdeal.KFinal.X10 m ρ c)))
          (unc2 (Cert.NetEq.H3 (Cert.KernelIdeal.KFinal.X0 m ρ c) (Cert.KernelIdeal.KFinal.X1 m ρ c) (Cert.KernelIdeal.KFinal.X3 m ρ c) (Cert.KernelIdeal.KFinal.X4 m ρ c) (Cert.KernelIdeal.KFinal.X5 m ρ c) (Cert.KernelIdeal.KFinal.X6 m ρ c) (Cert.KernelIdeal.KFinal.X7 m ρ c) (Cert.KernelIdeal.KFinal.X8 m ρ c) (Cert.KernelIdeal.KFinal.X9 m ρ c) (Cert.KernelIdeal.KFinal.X10 m ρ c))) (unc2 (Cert.NetEq.H4 (Cert.KernelIdeal.KFinal.X0 m ρ c) (Cert.KernelIdeal.KFinal.X1 m ρ c) (Cert.KernelIdeal.KFinal.X3 m ρ c) (Cert.KernelIdeal.KFinal.X4 m ρ c) (Cert.KernelIdeal.KFinal.X5 m ρ c) (Cert.KernelIdeal.KFinal.X6 m ρ c) (Cert.KernelIdeal.KFinal.X7 m ρ c) (Cert.KernelIdeal.KFinal.X8 m ρ c) (Cert.KernelIdeal.KFinal.X9 m ρ c) (Cert.KernelIdeal.KFinal.X10 m ρ c))) (Cert.KernelIdeal.KFinal.X2 m ρ c) (Cert.KernelIdeal.KFinal.X11 m ρ c) (Cert.KernelIdeal.KFinal.X12 m ρ c) :=
    Cert.KernelIdeal.KFinal.value m ρ c
  have hr : (StableHlo.after (Cert.ReferenceIdeal.HandRun.ops (F := Ideal)) (launchContents m' c) (Proc.devRef .tc Cert.ReferenceIdeal.main_v363) : FVec Ideal ⟨2, ![512, 10]⟩ .f32)
      = Cert.ReferenceIdeal.R.tailOf (Cert.ReferenceIdeal.RFinal.Y0 (launchContents m' c)) (unc2 (Cert.NetEq.G1 (Cert.ReferenceIdeal.RFinal.Y0 (launchContents m' c)) (Cert.ReferenceIdeal.RFinal.Y1 (launchContents m' c)) (Cert.ReferenceIdeal.RFinal.Y3 (launchContents m' c)) (Cert.ReferenceIdeal.RFinal.Y4 (launchContents m' c)) (Cert.ReferenceIdeal.RFinal.Y5 (launchContents m' c)) (Cert.ReferenceIdeal.RFinal.Y6 (launchContents m' c)) (Cert.ReferenceIdeal.RFinal.Y7 (launchContents m' c)) (Cert.ReferenceIdeal.RFinal.Y8 (launchContents m' c)) (Cert.ReferenceIdeal.RFinal.Y9 (launchContents m' c)) (Cert.ReferenceIdeal.RFinal.Y10 (launchContents m' c)))) (unc2 (Cert.NetEq.G2 (Cert.ReferenceIdeal.RFinal.Y0 (launchContents m' c)) (Cert.ReferenceIdeal.RFinal.Y1 (launchContents m' c)) (Cert.ReferenceIdeal.RFinal.Y3 (launchContents m' c)) (Cert.ReferenceIdeal.RFinal.Y4 (launchContents m' c)) (Cert.ReferenceIdeal.RFinal.Y5 (launchContents m' c)) (Cert.ReferenceIdeal.RFinal.Y6 (launchContents m' c)) (Cert.ReferenceIdeal.RFinal.Y7 (launchContents m' c)) (Cert.ReferenceIdeal.RFinal.Y8 (launchContents m' c)) (Cert.ReferenceIdeal.RFinal.Y9 (launchContents m' c)) (Cert.ReferenceIdeal.RFinal.Y10 (launchContents m' c))))
          (unc2 (Cert.NetEq.G3 (Cert.ReferenceIdeal.RFinal.Y0 (launchContents m' c)) (Cert.ReferenceIdeal.RFinal.Y1 (launchContents m' c)) (Cert.ReferenceIdeal.RFinal.Y3 (launchContents m' c)) (Cert.ReferenceIdeal.RFinal.Y4 (launchContents m' c)) (Cert.ReferenceIdeal.RFinal.Y5 (launchContents m' c)) (Cert.ReferenceIdeal.RFinal.Y6 (launchContents m' c)) (Cert.ReferenceIdeal.RFinal.Y7 (launchContents m' c)) (Cert.ReferenceIdeal.RFinal.Y8 (launchContents m' c)) (Cert.ReferenceIdeal.RFinal.Y9 (launchContents m' c)) (Cert.ReferenceIdeal.RFinal.Y10 (launchContents m' c)))) (unc2 (Cert.NetEq.G4 (Cert.ReferenceIdeal.RFinal.Y0 (launchContents m' c)) (Cert.ReferenceIdeal.RFinal.Y1 (launchContents m' c)) (Cert.ReferenceIdeal.RFinal.Y3 (launchContents m' c)) (Cert.ReferenceIdeal.RFinal.Y4 (launchContents m' c)) (Cert.ReferenceIdeal.RFinal.Y5 (launchContents m' c)) (Cert.ReferenceIdeal.RFinal.Y6 (launchContents m' c)) (Cert.ReferenceIdeal.RFinal.Y7 (launchContents m' c)) (Cert.ReferenceIdeal.RFinal.Y8 (launchContents m' c)) (Cert.ReferenceIdeal.RFinal.Y9 (launchContents m' c)) (Cert.ReferenceIdeal.RFinal.Y10 (launchContents m' c)))) (Cert.ReferenceIdeal.RFinal.Y2 (launchContents m' c)) (Cert.ReferenceIdeal.RFinal.Y11 (launchContents m' c)) (Cert.ReferenceIdeal.RFinal.Y12 (launchContents m' c)) :=
    Cert.ReferenceIdeal.RFinal.value (launchContents m' c)
  refine hr.trans (Eq.trans ?_ hk.symm)
  -- the reference's launch contents are the kernel's
  have e0 : Cert.ReferenceIdeal.RFinal.Y0 (launchContents m' c) = Cert.KernelIdeal.KFinal.X0 m ρ c := a0
  have e1 : Cert.ReferenceIdeal.RFinal.Y1 (launchContents m' c) = Cert.KernelIdeal.KFinal.X1 m ρ c := a1
  have e2 : Cert.ReferenceIdeal.RFinal.Y2 (launchContents m' c) = Cert.KernelIdeal.KFinal.X2 m ρ c := a2
  have e3 : Cert.ReferenceIdeal.RFinal.Y3 (launchContents m' c) = Cert.KernelIdeal.KFinal.X3 m ρ c := a3
  have e4 : Cert.ReferenceIdeal.RFinal.Y4 (launchContents m' c) = Cert.KernelIdeal.KFinal.X4 m ρ c := a4
  have e5 : Cert.ReferenceIdeal.RFinal.Y5 (launchContents m' c) = Cert.KernelIdeal.KFinal.X5 m ρ c := a5
  have e6 : Cert.ReferenceIdeal.RFinal.Y6 (launchContents m' c) = Cert.KernelIdeal.KFinal.X6 m ρ c := a6
  have e7 : Cert.ReferenceIdeal.RFinal.Y7 (launchContents m' c) = Cert.KernelIdeal.KFinal.X7 m ρ c := a7
  have e8 : Cert.ReferenceIdeal.RFinal.Y8 (launchContents m' c) = Cert.KernelIdeal.KFinal.X8 m ρ c := a8
  have e9 : Cert.ReferenceIdeal.RFinal.Y9 (launchContents m' c) = Cert.KernelIdeal.KFinal.X9 m ρ c := a9
  have e10 : Cert.ReferenceIdeal.RFinal.Y10 (launchContents m' c) = Cert.KernelIdeal.KFinal.X10 m ρ c := a10
  have e11 : Cert.ReferenceIdeal.RFinal.Y11 (launchContents m' c) = Cert.KernelIdeal.KFinal.X11 m ρ c := a11
  have e12 : Cert.ReferenceIdeal.RFinal.Y12 (launchContents m' c) = Cert.KernelIdeal.KFinal.X12 m ρ c := a12
  rw [e0, e1, e2, e3, e4, e5, e6, e7, e8, e9, e10, e11, e12]
  exact Cert.NetEq.results_eq _ _ _ _ _ _ _ _ _ _ _ _ _ r0 r3 r4 r5 r6 r7 r8 r9 r10

end Cert.Bridge

end
-- ==== Proof.lean ====
/-
  The certificate of the four-layer graph network kernel against its plain reference.

  Frames: the two kernel programs' are the generated launch arguments over their twelve regions; the reference is a host
  program and its run is written out operation by operation.  The idealization rewrote nothing.  The algebraic claim: the
  kernel accumulates, per layer and per column, the sum and the sum of squares of the activations and takes the variance
  as the mean square less the squared mean, where the reference takes the mean of the squared deviations; for the real
  numbers that the precondition makes of all inputs the two agree layer by layer, the matrix products, the neighbourhood
  sums, the pooling and the final logarithm of the softmax being the same functions on both sides.
-/
import proofs.«120577_j28003186770423_1_alg».proof.Defs
import proofs.«120577_j28003186770423_1_alg».proof.Proof.Gen.Kernel
import proofs.«120577_j28003186770423_1_alg».proof.Proof.Gen.Kernel.Frame
import proofs.«120577_j28003186770423_1_alg».proof.Proof.Gen.KernelIdeal
import proofs.«120577_j28003186770423_1_alg».proof.Proof.Gen.KernelIdeal.Frame
import proofs.«120577_j28003186770423_1_alg».proof.Proof.Gen.ReferenceIdeal
import proofs.«120577_j28003186770423_1_alg».proof.Proof.Gen.Pre_finite_inputs
import proofs.«120577_j28003186770423_1_alg».proof.Proof.KernelRun
import proofs.«120577_j28003186770423_1_alg».proof.Proof.RefRun
import proofs.«120577_j28003186770423_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.HandRun.run (F := Ideal) m ρ),
  trivial,
  fun m ρ m' ρ' hpre hag =>
    ⟨fun c => Cert.KernelIdeal.Gen.W26 m ρ c (Proc.devRef .tc Cert.KernelIdeal.main_v251),
      Cert.KernelIdeal.Run.run_result m ρ,
      (θ_run Cert.ReferenceIdeal.defs _ _).mono
        (fun _ h c => ⟨(h c).1.trans (Cert.Bridge.result_eq m ρ m' c (hpre c)
            (hag c).1 (hag c).2.1 (hag c).2.2.1 (hag c).2.2.2.1 (hag c).2.2.2.2.1 (hag c).2.2.2.2.2.1 (hag c).2.2.2.2.2.2.1
            (hag c).2.2.2.2.2.2.2.1 (hag c).2.2.2.2.2.2.2.2.1 (hag c).2.2.2.2.2.2.2.2.2.1 (hag c).2.2.2.2.2.2.2.2.2.2.1
            (hag c).2.2.2.2.2.2.2.2.2.2.2.1 (hag c).2.2.2.2.2.2.2.2.2.2.2.2), (h c).2⟩)
        (Cert.ReferenceIdeal.HandRun.run (F := Ideal) m' ρ')⟩⟩

end Cert.Proof

end
